-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x8x2x65536 : Shape := ⟨4, ![16, 8, 2, 65536]⟩
abbrev S16 : Shape := ⟨1, ![16]⟩
abbrev S_ : Shape := ⟨0, ![]⟩

class Facts : Prop where
  bcast_S_S16x8x2x65536 : S_.BroadcastsInDim S16x8x2x65536 (![] : Fin 0 → Fin S16x8x2x65536.rank)
  reducesTo_S16x8x2x65536_S_d0_1_2_3 : S16x8x2x65536.ReducesTo [0, 1, 2, 3] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x8x2x65536 .f32) (main_arg1 : IVec S16 32) : IVec S_ 1 :=
  let main_v0 : FVec F S16x8x2x65536 .f32 := Host.absf main_arg0
  let main_cst : FVec F S_ .f32 := constant S_ .f32 0x7F800000#32
  let main_v1 : FVec F S16x8x2x65536 .f32 := broadcastInDim S16x8x2x65536 ![] bcast_S_S16x8x2x65536 main_cst
  let main_v2 : IVec S16x8x2x65536 1 := cmpf .olt main_v0 main_v1
  let main_c : IVec S_ 1 := constantI S_ 1 1#1
  let main_v3 : IVec S_ 1 := (fun x v => Host.reduce IntOp.andi x v reducesTo_S16x8x2x65536_S_d0_1_2_3 h_S_) main_v2 main_c
  let main_c_0 : IVec S_ 32 := constantI S_ 32 0#32
  let main_v4 : IVec S16 32 := broadcastInDim S16 ![] bcast_S_S16 main_c_0
  let main_v5 : IVec S16 1 := cmpi .sge main_arg1 main_v4
  let main_c_1 : IVec S_ 32 := constantI S_ 32 7#32
  let main_v6 : IVec S16 32 := broadcastInDim S16 ![] bcast_S_S16 main_c_1
  let main_v7 : IVec S16 1 := cmpi .sle main_arg1 main_v6
  let main_v8 : IVec S16 1 := andi main_v5 main_v7
  let main_c_2 : IVec S_ 1 := constantI S_ 1 1#1
  let main_v9 : IVec S_ 1 := (fun x v => Host.reduce IntOp.andi x v reducesTo_S16_S_d0 h_S_) main_v8 main_c_2
  let main_v10 : IVec S_ 1 := andi main_v3 main_v9
  main_v10
-- ==== Kernel.lean ====
abbrev S16x8x2x65536 : Shape := ⟨4, ![16, 8, 2, 65536]⟩
abbrev S16 : Shape := ⟨1, ![16]⟩
abbrev S4096 : Shape := ⟨1, ![4096]⟩
abbrev S1572864 : Shape := ⟨1, ![1572864]⟩
abbrev S_ : Shape := ⟨0, ![]⟩
abbrev S1 : Shape := ⟨1, ![1]⟩
abbrev S32768 : Shape := ⟨1, ![32768]⟩
abbrev S1x1x1x32768 : Shape := ⟨4, ![1, 1, 1, 32768]⟩
abbrev S1x1x1x4096 : Shape := ⟨4, ![1, 1, 1, 4096]⟩

abbrev nBuf : Table → Nat
  | .hbm => 3
  | .shared => 1
  | .local .scVector .vmem => 2
  | _ => 0

abbrev bufTy : (tb : Table) → Fin (nBuf tb) → BufTy
  | .hbm, ⟨0, _⟩ => ⟨S16x8x2x65536, .f32⟩
  | .hbm, ⟨1, _⟩ => ⟨S16, .i32⟩
  | .hbm, ⟨2, _⟩ => ⟨S16x8x2x65536, .f32⟩
  | .shared, ⟨0, _⟩ => ⟨S1572864, .f32⟩
  | .local .scVector .vmem, ⟨0, _⟩ => ⟨S16, .i32⟩
  | .local .scVector .vmem, ⟨1, _⟩ => ⟨S4096, .f32⟩
  | _, _ => ⟨S16x8x2x65536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v67 : IVec S16 32) : Prop :=
  (∀ a x, ((![v67] : Fin 1 → IVec S16 32) a x).toNat < S16.size a)
instance k0_chk1.dec : ∀ (v67 : IVec S16 32), Decidable (k0_chk1 v67) := fun v67 => decidable_of_iff' _ (Iff.of_eq (k0_chk1.eq_1 v67))
theorem k0_idx1_inb : ∀ (v67 : IVec S16 32) (k0_hw1 : k0_chk1 v67), ∀ a x, ((![v67] : Fin 1 → IVec S16 32) a x).toNat < S16.size a := fun v67 k0_hw1 => k0_hw1

def k0_chk2 (v128 : IVec S16 32) : Prop :=
  (∀ a x, ((![v128] : Fin 1 → IVec S16 32) a x).toNat < S16.size a)
instance k0_chk2.dec : ∀ (v128 : IVec S16 32), Decidable (k0_chk2 v128) := fun v128 => decidable_of_iff' _ (Iff.of_eq (k0_chk2.eq_1 v128))
theorem k0_idx2_inb : ∀ (v128 : IVec S16 32) (k0_hw2 : k0_chk2 v128), ∀ a x, ((![v128] : Fin 1 → IVec S16 32) a x).toNat < S16.size a := fun v128 k0_hw2 => k0_hw2

def k0_chk3 (v189 : IVec S16 32) : Prop :=
  (∀ a x, ((![v189] : Fin 1 → IVec S16 32) a x).toNat < S16.size a)
instance k0_chk3.dec : ∀ (v189 : IVec S16 32), Decidable (k0_chk3 v189) := fun v189 => decidable_of_iff' _ (Iff.of_eq (k0_chk3.eq_1 v189))
theorem k0_idx3_inb : ∀ (v189 : IVec S16 32) (k0_hw3 : k0_chk3 v189), ∀ a x, ((![v189] : Fin 1 → IVec S16 32) a x).toNat < S16.size a := fun v189 k0_hw3 => k0_hw3

def k0_chk4 (v250 : IVec S16 32) : Prop :=
  (∀ a x, ((![v250] : Fin 1 → IVec S16 32) a x).toNat < S16.size a)
instance k0_chk4.dec : ∀ (v250 : IVec S16 32), Decidable (k0_chk4 v250) := fun v250 => decidable_of_iff' _ (Iff.of_eq (k0_chk4.eq_1 v250))
theorem k0_idx4_inb : ∀ (v250 : IVec S16 32) (k0_hw4 : k0_chk4 v250), ∀ a x, ((![v250] : Fin 1 → IVec S16 32) a x).toNat < S16.size a := fun v250 k0_hw4 => k0_hw4

def k0_chk5 (v311 : IVec S16 32) : Prop :=
  (∀ a x, ((![v311] : Fin 1 → IVec S16 32) a x).toNat < S16.size a)
instance k0_chk5.dec : ∀ (v311 : IVec S16 32), Decidable (k0_chk5 v311) := fun v311 => decidable_of_iff' _ (Iff.of_eq (k0_chk5.eq_1 v311))
theorem k0_idx5_inb : ∀ (v311 : IVec S16 32) (k0_hw5 : k0_chk5 v311), ∀ a x, ((![v311] : Fin 1 → IVec S16 32) a x).toNat < S16.size a := fun v311 k0_hw5 => k0_hw5

def k0_chk6 (v372 : IVec S16 32) : Prop :=
  (∀ a x, ((![v372] : Fin 1 → IVec S16 32) a x).toNat < S16.size a)
instance k0_chk6.dec : ∀ (v372 : IVec S16 32), Decidable (k0_chk6 v372) := fun v372 => decidable_of_iff' _ (Iff.of_eq (k0_chk6.eq_1 v372))
theorem k0_idx6_inb : ∀ (v372 : IVec S16 32) (k0_hw6 : k0_chk6 v372), ∀ a x, ((![v372] : Fin 1 → IVec S16 32) a x).toNat < S16.size a := fun v372 k0_hw6 => k0_hw6

def k0_chk7 (v433 : IVec S16 32) : Prop :=
  (∀ a x, ((![v433] : Fin 1 → IVec S16 32) a x).toNat < S16.size a)
instance k0_chk7.dec : ∀ (v433 : IVec S16 32), Decidable (k0_chk7 v433) := fun v433 => decidable_of_iff' _ (Iff.of_eq (k0_chk7.eq_1 v433))
theorem k0_idx7_inb : ∀ (v433 : IVec S16 32) (k0_hw7 : k0_chk7 v433), ∀ a x, ((![v433] : Fin 1 → IVec S16 32) a x).toNat < S16.size a := fun v433 k0_hw7 => k0_hw7

def k0_chk8 (v494 : IVec S16 32) : Prop :=
  (∀ a x, ((![v494] : Fin 1 → IVec S16 32) a x).toNat < S16.size a)
instance k0_chk8.dec : ∀ (v494 : IVec S16 32), Decidable (k0_chk8 v494) := fun v494 => decidable_of_iff' _ (Iff.of_eq (k0_chk8.eq_1 v494))
theorem k0_idx8_inb : ∀ (v494 : IVec S16 32) (k0_hw8 : k0_chk8 v494), ∀ a x, ((![v494] : Fin 1 → IVec S16 32) a x).toNat < S16.size a := fun v494 k0_hw8 => k0_hw8
def k0_off1 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c0_i32_355 : BitVec 32 := 0#32
  ![v29.toNat, v56.toNat, v66.toNat, 0]
@[reducible] def k0_t1_loop : Scf.Loop 32 :=
  let c0_i32_225 : BitVec 32 := 0#32
  let c16_i32_226 : BitVec 32 := 16#32
  let v503 : BitVec 32 := Scalar.addi c0_i32_225 c16_i32_226
  let c1_i32_227 : BitVec 32 := 1#32
  ⟨c0_i32_225, v503, c1_i32_227⟩
def k0_off3 (k0_t1 : Fin k0_t1_loop.trips) (c0_i32_356 : BitVec 32) : Fin 1 → Nat :=
  let c0_i32_225 : BitVec 32 := 0#32
  let c1_i32_227 : BitVec 32 := 1#32
  let arg15 : BitVec 32 := Scf.iv c0_i32_225 c1_i32_227 k0_t1
  let c16_i32_355 : BitVec 32 := 16#32
  let v709 : BitVec 32 := Scalar.muli arg15 c16_i32_355
  let v710 : BitVec 32 := Scalar.addi v709 c0_i32_356
  let c16_i32_357 : BitVec 32 := 16#32
  let v711 : BitVec 32 := Scalar.muli v710 c16_i32_357
  let v712 : Index := Scalar.indexCast v711
  ![v712.toNat]
def k0_off4 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off5 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c32768_i32_355 : BitVec 32 := 32768#32
  ![v29.toNat, v56.toNat, v66.toNat, 32768]
def k0_off6 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c0_i32_355 : BitVec 32 := 0#32
  ![v29.toNat, v56.toNat, v66.toNat, 0]
def k0_off7 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c4096_i32 : BitVec 32 := 4096#32
  ![v29.toNat, v56.toNat, v66.toNat, 4096]
def k0_off8 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c8192_i32 : BitVec 32 := 8192#32
  ![v29.toNat, v56.toNat, v66.toNat, 8192]
def k0_off9 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c12288_i32 : BitVec 32 := 12288#32
  ![v29.toNat, v56.toNat, v66.toNat, 12288]
def k0_off10 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c16384_i32 : BitVec 32 := 16384#32
  ![v29.toNat, v56.toNat, v66.toNat, 16384]
def k0_off11 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c20480_i32 : BitVec 32 := 20480#32
  ![v29.toNat, v56.toNat, v66.toNat, 20480]
def k0_off12 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c24576_i32 : BitVec 32 := 24576#32
  ![v29.toNat, v56.toNat, v66.toNat, 24576]
def k0_off13 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c28672_i32 : BitVec 32 := 28672#32
  ![v29.toNat, v56.toNat, v66.toNat, 28672]
def k0_off14 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off15 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c0_i32_355 : BitVec 32 := 0#32
  ![v29.toNat, v56.toNat, v66.toNat, 0]
def k0_off16 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off17 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c0_i32_355 : BitVec 32 := 0#32
  ![v90.toNat, v117.toNat, v127.toNat, 0]
def k0_off18 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c32768_i32_355 : BitVec 32 := 32768#32
  ![v29.toNat, v56.toNat, v66.toNat, 32768]
def k0_off19 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c36864_i32 : BitVec 32 := 36864#32
  ![v29.toNat, v56.toNat, v66.toNat, 36864]
def k0_off20 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c40960_i32 : BitVec 32 := 40960#32
  ![v29.toNat, v56.toNat, v66.toNat, 40960]
def k0_off21 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c45056_i32 : BitVec 32 := 45056#32
  ![v29.toNat, v56.toNat, v66.toNat, 45056]
def k0_off22 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c49152_i32 : BitVec 32 := 49152#32
  ![v29.toNat, v56.toNat, v66.toNat, 49152]
def k0_off23 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c53248_i32 : BitVec 32 := 53248#32
  ![v29.toNat, v56.toNat, v66.toNat, 53248]
def k0_off24 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c57344_i32 : BitVec 32 := 57344#32
  ![v29.toNat, v56.toNat, v66.toNat, 57344]
def k0_off25 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c61440_i32 : BitVec 32 := 61440#32
  ![v29.toNat, v56.toNat, v66.toNat, 61440]
def k0_off26 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off27 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c32768_i32_355 : BitVec 32 := 32768#32
  ![v29.toNat, v56.toNat, v66.toNat, 32768]
def k0_off28 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c0_i32_355 : BitVec 32 := 0#32
  ![v29.toNat, v56.toNat, v66.toNat, 0]
def k0_off29 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off30 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off31 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c32768_i32_355 : BitVec 32 := 32768#32
  ![v90.toNat, v117.toNat, v127.toNat, 32768]
def k0_off32 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c0_i32_355 : BitVec 32 := 0#32
  ![v90.toNat, v117.toNat, v127.toNat, 0]
def k0_off33 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c4096_i32 : BitVec 32 := 4096#32
  ![v90.toNat, v117.toNat, v127.toNat, 4096]
def k0_off34 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c8192_i32 : BitVec 32 := 8192#32
  ![v90.toNat, v117.toNat, v127.toNat, 8192]
def k0_off35 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c12288_i32 : BitVec 32 := 12288#32
  ![v90.toNat, v117.toNat, v127.toNat, 12288]
def k0_off36 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c16384_i32 : BitVec 32 := 16384#32
  ![v90.toNat, v117.toNat, v127.toNat, 16384]
def k0_off37 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c20480_i32 : BitVec 32 := 20480#32
  ![v90.toNat, v117.toNat, v127.toNat, 20480]
def k0_off38 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c24576_i32 : BitVec 32 := 24576#32
  ![v90.toNat, v117.toNat, v127.toNat, 24576]
def k0_off39 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c28672_i32 : BitVec 32 := 28672#32
  ![v90.toNat, v117.toNat, v127.toNat, 28672]
def k0_off40 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off41 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c0_i32_355 : BitVec 32 := 0#32
  ![v90.toNat, v117.toNat, v127.toNat, 0]
def k0_off42 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c32768_i32_355 : BitVec 32 := 32768#32
  ![v29.toNat, v56.toNat, v66.toNat, 32768]
def k0_off43 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off44 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off45 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c0_i32_355 : BitVec 32 := 0#32
  ![v151.toNat, v178.toNat, v188.toNat, 0]
def k0_off46 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c32768_i32_355 : BitVec 32 := 32768#32
  ![v90.toNat, v117.toNat, v127.toNat, 32768]
def k0_off47 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c36864_i32 : BitVec 32 := 36864#32
  ![v90.toNat, v117.toNat, v127.toNat, 36864]
def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c40960_i32 : BitVec 32 := 40960#32
  ![v90.toNat, v117.toNat, v127.toNat, 40960]
def k0_off49 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c45056_i32 : BitVec 32 := 45056#32
  ![v90.toNat, v117.toNat, v127.toNat, 45056]
def k0_off50 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c49152_i32 : BitVec 32 := 49152#32
  ![v90.toNat, v117.toNat, v127.toNat, 49152]
def k0_off51 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c53248_i32 : BitVec 32 := 53248#32
  ![v90.toNat, v117.toNat, v127.toNat, 53248]
def k0_off52 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c57344_i32 : BitVec 32 := 57344#32
  ![v90.toNat, v117.toNat, v127.toNat, 57344]
def k0_off53 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c61440_i32 : BitVec 32 := 61440#32
  ![v90.toNat, v117.toNat, v127.toNat, 61440]
def k0_off54 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off55 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c32768_i32_355 : BitVec 32 := 32768#32
  ![v90.toNat, v117.toNat, v127.toNat, 32768]
def k0_off56 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c0_i32_355 : BitVec 32 := 0#32
  ![v90.toNat, v117.toNat, v127.toNat, 0]
def k0_off57 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off58 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off59 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c32768_i32_355 : BitVec 32 := 32768#32
  ![v151.toNat, v178.toNat, v188.toNat, 32768]
def k0_off60 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c0_i32_355 : BitVec 32 := 0#32
  ![v151.toNat, v178.toNat, v188.toNat, 0]
def k0_off61 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c4096_i32 : BitVec 32 := 4096#32
  ![v151.toNat, v178.toNat, v188.toNat, 4096]
def k0_off62 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c8192_i32 : BitVec 32 := 8192#32
  ![v151.toNat, v178.toNat, v188.toNat, 8192]
def k0_off63 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c12288_i32 : BitVec 32 := 12288#32
  ![v151.toNat, v178.toNat, v188.toNat, 12288]
def k0_off64 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c16384_i32 : BitVec 32 := 16384#32
  ![v151.toNat, v178.toNat, v188.toNat, 16384]
def k0_off65 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c20480_i32 : BitVec 32 := 20480#32
  ![v151.toNat, v178.toNat, v188.toNat, 20480]
def k0_off66 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c24576_i32 : BitVec 32 := 24576#32
  ![v151.toNat, v178.toNat, v188.toNat, 24576]
def k0_off67 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c28672_i32 : BitVec 32 := 28672#32
  ![v151.toNat, v178.toNat, v188.toNat, 28672]
def k0_off68 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off69 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c0_i32_355 : BitVec 32 := 0#32
  ![v151.toNat, v178.toNat, v188.toNat, 0]
def k0_off70 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c32768_i32_355 : BitVec 32 := 32768#32
  ![v90.toNat, v117.toNat, v127.toNat, 32768]
def k0_off71 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off72 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off73 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c0_i32_355 : BitVec 32 := 0#32
  ![v212.toNat, v239.toNat, v249.toNat, 0]
def k0_off74 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c32768_i32_355 : BitVec 32 := 32768#32
  ![v151.toNat, v178.toNat, v188.toNat, 32768]
def k0_off75 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c36864_i32 : BitVec 32 := 36864#32
  ![v151.toNat, v178.toNat, v188.toNat, 36864]
def k0_off76 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c40960_i32 : BitVec 32 := 40960#32
  ![v151.toNat, v178.toNat, v188.toNat, 40960]
def k0_off77 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c45056_i32 : BitVec 32 := 45056#32
  ![v151.toNat, v178.toNat, v188.toNat, 45056]
def k0_off78 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c49152_i32 : BitVec 32 := 49152#32
  ![v151.toNat, v178.toNat, v188.toNat, 49152]
def k0_off79 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c53248_i32 : BitVec 32 := 53248#32
  ![v151.toNat, v178.toNat, v188.toNat, 53248]
def k0_off80 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c57344_i32 : BitVec 32 := 57344#32
  ![v151.toNat, v178.toNat, v188.toNat, 57344]
def k0_off81 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c61440_i32 : BitVec 32 := 61440#32
  ![v151.toNat, v178.toNat, v188.toNat, 61440]
def k0_off82 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off83 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c32768_i32_355 : BitVec 32 := 32768#32
  ![v151.toNat, v178.toNat, v188.toNat, 32768]
def k0_off84 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c0_i32_355 : BitVec 32 := 0#32
  ![v151.toNat, v178.toNat, v188.toNat, 0]
def k0_off85 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off86 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off87 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c32768_i32_355 : BitVec 32 := 32768#32
  ![v212.toNat, v239.toNat, v249.toNat, 32768]
def k0_off88 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c0_i32_355 : BitVec 32 := 0#32
  ![v212.toNat, v239.toNat, v249.toNat, 0]
def k0_off89 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c4096_i32 : BitVec 32 := 4096#32
  ![v212.toNat, v239.toNat, v249.toNat, 4096]
def k0_off90 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c8192_i32 : BitVec 32 := 8192#32
  ![v212.toNat, v239.toNat, v249.toNat, 8192]
def k0_off91 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c12288_i32 : BitVec 32 := 12288#32
  ![v212.toNat, v239.toNat, v249.toNat, 12288]
def k0_off92 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c16384_i32 : BitVec 32 := 16384#32
  ![v212.toNat, v239.toNat, v249.toNat, 16384]
def k0_off93 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c20480_i32 : BitVec 32 := 20480#32
  ![v212.toNat, v239.toNat, v249.toNat, 20480]
def k0_off94 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c24576_i32 : BitVec 32 := 24576#32
  ![v212.toNat, v239.toNat, v249.toNat, 24576]
def k0_off95 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c28672_i32 : BitVec 32 := 28672#32
  ![v212.toNat, v239.toNat, v249.toNat, 28672]
def k0_off96 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off97 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c0_i32_355 : BitVec 32 := 0#32
  ![v212.toNat, v239.toNat, v249.toNat, 0]
def k0_off98 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c32768_i32_355 : BitVec 32 := 32768#32
  ![v151.toNat, v178.toNat, v188.toNat, 32768]
def k0_off99 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off100 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off101 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c0_i32_355 : BitVec 32 := 0#32
  ![v273.toNat, v300.toNat, v310.toNat, 0]
def k0_off102 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c32768_i32_355 : BitVec 32 := 32768#32
  ![v212.toNat, v239.toNat, v249.toNat, 32768]
def k0_off103 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c36864_i32 : BitVec 32 := 36864#32
  ![v212.toNat, v239.toNat, v249.toNat, 36864]
def k0_off104 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c40960_i32 : BitVec 32 := 40960#32
  ![v212.toNat, v239.toNat, v249.toNat, 40960]
def k0_off105 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c45056_i32 : BitVec 32 := 45056#32
  ![v212.toNat, v239.toNat, v249.toNat, 45056]
def k0_off106 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c49152_i32 : BitVec 32 := 49152#32
  ![v212.toNat, v239.toNat, v249.toNat, 49152]
def k0_off107 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c53248_i32 : BitVec 32 := 53248#32
  ![v212.toNat, v239.toNat, v249.toNat, 53248]
def k0_off108 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c57344_i32 : BitVec 32 := 57344#32
  ![v212.toNat, v239.toNat, v249.toNat, 57344]
def k0_off109 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c61440_i32 : BitVec 32 := 61440#32
  ![v212.toNat, v239.toNat, v249.toNat, 61440]
def k0_off110 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off111 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c32768_i32_355 : BitVec 32 := 32768#32
  ![v212.toNat, v239.toNat, v249.toNat, 32768]
def k0_off112 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c0_i32_355 : BitVec 32 := 0#32
  ![v212.toNat, v239.toNat, v249.toNat, 0]
def k0_off113 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off114 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off115 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c32768_i32_355 : BitVec 32 := 32768#32
  ![v273.toNat, v300.toNat, v310.toNat, 32768]
def k0_off116 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c0_i32_355 : BitVec 32 := 0#32
  ![v273.toNat, v300.toNat, v310.toNat, 0]
def k0_off117 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c4096_i32 : BitVec 32 := 4096#32
  ![v273.toNat, v300.toNat, v310.toNat, 4096]
def k0_off118 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c8192_i32 : BitVec 32 := 8192#32
  ![v273.toNat, v300.toNat, v310.toNat, 8192]
def k0_off119 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c12288_i32 : BitVec 32 := 12288#32
  ![v273.toNat, v300.toNat, v310.toNat, 12288]
def k0_off120 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c16384_i32 : BitVec 32 := 16384#32
  ![v273.toNat, v300.toNat, v310.toNat, 16384]
def k0_off121 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c20480_i32 : BitVec 32 := 20480#32
  ![v273.toNat, v300.toNat, v310.toNat, 20480]
def k0_off122 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c24576_i32 : BitVec 32 := 24576#32
  ![v273.toNat, v300.toNat, v310.toNat, 24576]
def k0_off123 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c28672_i32 : BitVec 32 := 28672#32
  ![v273.toNat, v300.toNat, v310.toNat, 28672]
def k0_off124 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off125 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c0_i32_355 : BitVec 32 := 0#32
  ![v273.toNat, v300.toNat, v310.toNat, 0]
def k0_off126 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c32768_i32_355 : BitVec 32 := 32768#32
  ![v212.toNat, v239.toNat, v249.toNat, 32768]
def k0_off127 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off128 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off129 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c0_i32_355 : BitVec 32 := 0#32
  ![v334.toNat, v361.toNat, v371.toNat, 0]
def k0_off130 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c32768_i32_355 : BitVec 32 := 32768#32
  ![v273.toNat, v300.toNat, v310.toNat, 32768]
def k0_off131 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c36864_i32 : BitVec 32 := 36864#32
  ![v273.toNat, v300.toNat, v310.toNat, 36864]
def k0_off132 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c40960_i32 : BitVec 32 := 40960#32
  ![v273.toNat, v300.toNat, v310.toNat, 40960]
def k0_off133 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c45056_i32 : BitVec 32 := 45056#32
  ![v273.toNat, v300.toNat, v310.toNat, 45056]
def k0_off134 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c49152_i32 : BitVec 32 := 49152#32
  ![v273.toNat, v300.toNat, v310.toNat, 49152]
def k0_off135 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c53248_i32 : BitVec 32 := 53248#32
  ![v273.toNat, v300.toNat, v310.toNat, 53248]
def k0_off136 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c57344_i32 : BitVec 32 := 57344#32
  ![v273.toNat, v300.toNat, v310.toNat, 57344]
def k0_off137 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c61440_i32 : BitVec 32 := 61440#32
  ![v273.toNat, v300.toNat, v310.toNat, 61440]
def k0_off138 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off139 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c32768_i32_355 : BitVec 32 := 32768#32
  ![v273.toNat, v300.toNat, v310.toNat, 32768]
def k0_off140 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c0_i32_355 : BitVec 32 := 0#32
  ![v273.toNat, v300.toNat, v310.toNat, 0]
def k0_off141 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off142 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off143 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c32768_i32_355 : BitVec 32 := 32768#32
  ![v334.toNat, v361.toNat, v371.toNat, 32768]
def k0_off144 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c0_i32_355 : BitVec 32 := 0#32
  ![v334.toNat, v361.toNat, v371.toNat, 0]
def k0_off145 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c4096_i32 : BitVec 32 := 4096#32
  ![v334.toNat, v361.toNat, v371.toNat, 4096]
def k0_off146 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c8192_i32 : BitVec 32 := 8192#32
  ![v334.toNat, v361.toNat, v371.toNat, 8192]
def k0_off147 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c12288_i32 : BitVec 32 := 12288#32
  ![v334.toNat, v361.toNat, v371.toNat, 12288]
def k0_off148 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c16384_i32 : BitVec 32 := 16384#32
  ![v334.toNat, v361.toNat, v371.toNat, 16384]
def k0_off149 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c20480_i32 : BitVec 32 := 20480#32
  ![v334.toNat, v361.toNat, v371.toNat, 20480]
def k0_off150 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c24576_i32 : BitVec 32 := 24576#32
  ![v334.toNat, v361.toNat, v371.toNat, 24576]
def k0_off151 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c28672_i32 : BitVec 32 := 28672#32
  ![v334.toNat, v361.toNat, v371.toNat, 28672]
def k0_off152 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off153 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c0_i32_355 : BitVec 32 := 0#32
  ![v334.toNat, v361.toNat, v371.toNat, 0]
def k0_off154 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c32768_i32_355 : BitVec 32 := 32768#32
  ![v273.toNat, v300.toNat, v310.toNat, 32768]
def k0_off155 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off156 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off157 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c0_i32_355 : BitVec 32 := 0#32
  ![v395.toNat, v422.toNat, v432.toNat, 0]
def k0_off158 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c32768_i32_355 : BitVec 32 := 32768#32
  ![v334.toNat, v361.toNat, v371.toNat, 32768]
def k0_off159 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c36864_i32 : BitVec 32 := 36864#32
  ![v334.toNat, v361.toNat, v371.toNat, 36864]
def k0_off160 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c40960_i32 : BitVec 32 := 40960#32
  ![v334.toNat, v361.toNat, v371.toNat, 40960]
def k0_off161 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c45056_i32 : BitVec 32 := 45056#32
  ![v334.toNat, v361.toNat, v371.toNat, 45056]
def k0_off162 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c49152_i32 : BitVec 32 := 49152#32
  ![v334.toNat, v361.toNat, v371.toNat, 49152]
def k0_off163 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c53248_i32 : BitVec 32 := 53248#32
  ![v334.toNat, v361.toNat, v371.toNat, 53248]
def k0_off164 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c57344_i32 : BitVec 32 := 57344#32
  ![v334.toNat, v361.toNat, v371.toNat, 57344]
def k0_off165 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c61440_i32 : BitVec 32 := 61440#32
  ![v334.toNat, v361.toNat, v371.toNat, 61440]
def k0_off166 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off167 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c32768_i32_355 : BitVec 32 := 32768#32
  ![v334.toNat, v361.toNat, v371.toNat, 32768]
def k0_off168 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c0_i32_355 : BitVec 32 := 0#32
  ![v334.toNat, v361.toNat, v371.toNat, 0]
def k0_off169 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off170 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off171 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c32768_i32_355 : BitVec 32 := 32768#32
  ![v395.toNat, v422.toNat, v432.toNat, 32768]
def k0_off172 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c0_i32_355 : BitVec 32 := 0#32
  ![v395.toNat, v422.toNat, v432.toNat, 0]
def k0_off173 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c4096_i32 : BitVec 32 := 4096#32
  ![v395.toNat, v422.toNat, v432.toNat, 4096]
def k0_off174 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c8192_i32 : BitVec 32 := 8192#32
  ![v395.toNat, v422.toNat, v432.toNat, 8192]
def k0_off175 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c12288_i32 : BitVec 32 := 12288#32
  ![v395.toNat, v422.toNat, v432.toNat, 12288]
def k0_off176 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c16384_i32 : BitVec 32 := 16384#32
  ![v395.toNat, v422.toNat, v432.toNat, 16384]
def k0_off177 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c20480_i32 : BitVec 32 := 20480#32
  ![v395.toNat, v422.toNat, v432.toNat, 20480]
def k0_off178 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c24576_i32 : BitVec 32 := 24576#32
  ![v395.toNat, v422.toNat, v432.toNat, 24576]
def k0_off179 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c28672_i32 : BitVec 32 := 28672#32
  ![v395.toNat, v422.toNat, v432.toNat, 28672]
def k0_off180 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off181 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c0_i32_355 : BitVec 32 := 0#32
  ![v395.toNat, v422.toNat, v432.toNat, 0]
def k0_off182 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c32768_i32_355 : BitVec 32 := 32768#32
  ![v334.toNat, v361.toNat, v371.toNat, 32768]
def k0_off183 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off184 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off185 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c0_i32_355 : BitVec 32 := 0#32
  ![v456.toNat, v483.toNat, v493.toNat, 0]
def k0_off186 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c32768_i32_355 : BitVec 32 := 32768#32
  ![v395.toNat, v422.toNat, v432.toNat, 32768]
def k0_off187 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c36864_i32 : BitVec 32 := 36864#32
  ![v395.toNat, v422.toNat, v432.toNat, 36864]
def k0_off188 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c40960_i32 : BitVec 32 := 40960#32
  ![v395.toNat, v422.toNat, v432.toNat, 40960]
def k0_off189 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c45056_i32 : BitVec 32 := 45056#32
  ![v395.toNat, v422.toNat, v432.toNat, 45056]
def k0_off190 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c49152_i32 : BitVec 32 := 49152#32
  ![v395.toNat, v422.toNat, v432.toNat, 49152]
def k0_off191 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c53248_i32 : BitVec 32 := 53248#32
  ![v395.toNat, v422.toNat, v432.toNat, 53248]
def k0_off192 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c57344_i32 : BitVec 32 := 57344#32
  ![v395.toNat, v422.toNat, v432.toNat, 57344]
def k0_off193 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c61440_i32 : BitVec 32 := 61440#32
  ![v395.toNat, v422.toNat, v432.toNat, 61440]
def k0_off194 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off195 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c32768_i32_355 : BitVec 32 := 32768#32
  ![v395.toNat, v422.toNat, v432.toNat, 32768]
def k0_off196 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c0_i32_355 : BitVec 32 := 0#32
  ![v395.toNat, v422.toNat, v432.toNat, 0]
def k0_off197 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off198 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off199 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c32768_i32_355 : BitVec 32 := 32768#32
  ![v456.toNat, v483.toNat, v493.toNat, 32768]
def k0_off200 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c0_i32_355 : BitVec 32 := 0#32
  ![v456.toNat, v483.toNat, v493.toNat, 0]
def k0_off201 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c4096_i32 : BitVec 32 := 4096#32
  ![v456.toNat, v483.toNat, v493.toNat, 4096]
def k0_off202 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c8192_i32 : BitVec 32 := 8192#32
  ![v456.toNat, v483.toNat, v493.toNat, 8192]
def k0_off203 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c12288_i32 : BitVec 32 := 12288#32
  ![v456.toNat, v483.toNat, v493.toNat, 12288]
def k0_off204 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c16384_i32 : BitVec 32 := 16384#32
  ![v456.toNat, v483.toNat, v493.toNat, 16384]
def k0_off205 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c20480_i32 : BitVec 32 := 20480#32
  ![v456.toNat, v483.toNat, v493.toNat, 20480]
def k0_off206 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c24576_i32 : BitVec 32 := 24576#32
  ![v456.toNat, v483.toNat, v493.toNat, 24576]
def k0_off207 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c28672_i32 : BitVec 32 := 28672#32
  ![v456.toNat, v483.toNat, v493.toNat, 28672]
def k0_off208 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off209 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c0_i32_355 : BitVec 32 := 0#32
  ![v456.toNat, v483.toNat, v493.toNat, 0]
def k0_off210 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c32768_i32_355 : BitVec 32 := 32768#32
  ![v456.toNat, v483.toNat, v493.toNat, 32768]
def k0_off211 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c36864_i32 : BitVec 32 := 36864#32
  ![v456.toNat, v483.toNat, v493.toNat, 36864]
def k0_off212 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c40960_i32 : BitVec 32 := 40960#32
  ![v456.toNat, v483.toNat, v493.toNat, 40960]
def k0_off213 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c45056_i32 : BitVec 32 := 45056#32
  ![v456.toNat, v483.toNat, v493.toNat, 45056]
def k0_off214 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c49152_i32 : BitVec 32 := 49152#32
  ![v456.toNat, v483.toNat, v493.toNat, 49152]
def k0_off215 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c53248_i32 : BitVec 32 := 53248#32
  ![v456.toNat, v483.toNat, v493.toNat, 53248]
def k0_off216 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c57344_i32 : BitVec 32 := 57344#32
  ![v456.toNat, v483.toNat, v493.toNat, 57344]
def k0_off217 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c61440_i32 : BitVec 32 := 61440#32
  ![v456.toNat, v483.toNat, v493.toNat, 61440]
def k0_off218 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off219 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c32768_i32_355 : BitVec 32 := 32768#32
  ![v456.toNat, v483.toNat, v493.toNat, 32768]
def k0_off220 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c32768_i32_355 : BitVec 32 := 32768#32
  ![v395.toNat, v422.toNat, v432.toNat, 32768]
def k0_off221 (i : grid0.Coords) : Fin 1 → Nat :=
  let arg1 : BitVec 32 := BitVec.ofNat 32 (i 1).val
  let c3_i32_0 : BitVec 32 := 3#32
  let v5 : BitVec 32 := Scalar.muli arg1 c3_i32_0
  let c1_i32 : BitVec 32 := 1#32
  let v6 : BitVec 32 := Scalar.addi v5 c1_i32
  let c32768_i32_1 : BitVec 32 := 32768#32
  let v7 : BitVec 32 := Scalar.muli v6 c32768_i32_1
  ![v7.toNat]
def k0_off222 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c0_i32_355 : BitVec 32 := 0#32
  ![v456.toNat, v483.toNat, v493.toNat, 0]
def k0_off223 (i : grid0.Coords) : Fin 1 → Nat :=
  let arg1 : BitVec 32 := BitVec.ofNat 32 (i 1).val
  let c3_i32_2 : BitVec 32 := 3#32
  let v8 : BitVec 32 := Scalar.muli arg1 c3_i32_2
  let c2_i32_3 : BitVec 32 := 2#32
  let v9 : BitVec 32 := Scalar.addi v8 c2_i32_3
  let c32768_i32_4 : BitVec 32 := 32768#32
  let v10 : BitVec 32 := Scalar.muli v9 c32768_i32_4
  ![v10.toNat]
def k0_off224 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c32768_i32_355 : BitVec 32 := 32768#32
  ![v456.toNat, v483.toNat, v493.toNat, 32768]
def k0_off225 (i : grid0.Coords) : Fin 1 → Nat :=
  let arg1 : BitVec 32 := BitVec.ofNat 32 (i 1).val
  let c3_i32 : BitVec 32 := 3#32
  let v2 : BitVec 32 := Scalar.muli arg1 c3_i32
  let c0_i32 : BitVec 32 := 0#32
  let v3 : BitVec 32 := Scalar.addi v2 c0_i32
  let c32768_i32 : BitVec 32 := 32768#32
  let v4 : BitVec 32 := Scalar.muli v3 c32768_i32
  ![v4.toNat]
def k0_off226 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c0_i32_355 : BitVec 32 := 0#32
  ![v29.toNat, v56.toNat, v66.toNat, 0]
def k0_off227 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c4096_i32 : BitVec 32 := 4096#32
  ![v29.toNat, v56.toNat, v66.toNat, 4096]
def k0_off228 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c8192_i32 : BitVec 32 := 8192#32
  ![v29.toNat, v56.toNat, v66.toNat, 8192]
def k0_off229 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c12288_i32 : BitVec 32 := 12288#32
  ![v29.toNat, v56.toNat, v66.toNat, 12288]
def k0_off230 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c16384_i32 : BitVec 32 := 16384#32
  ![v29.toNat, v56.toNat, v66.toNat, 16384]
def k0_off231 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c20480_i32 : BitVec 32 := 20480#32
  ![v29.toNat, v56.toNat, v66.toNat, 20480]
def k0_off232 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c24576_i32 : BitVec 32 := 24576#32
  ![v29.toNat, v56.toNat, v66.toNat, 24576]
def k0_off233 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c28672_i32 : BitVec 32 := 28672#32
  ![v29.toNat, v56.toNat, v66.toNat, 28672]
def k0_off234 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c32768_i32_355 : BitVec 32 := 32768#32
  ![v29.toNat, v56.toNat, v66.toNat, 32768]
def k0_off235 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c36864_i32 : BitVec 32 := 36864#32
  ![v29.toNat, v56.toNat, v66.toNat, 36864]
def k0_off236 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c40960_i32 : BitVec 32 := 40960#32
  ![v29.toNat, v56.toNat, v66.toNat, 40960]
def k0_off237 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c45056_i32 : BitVec 32 := 45056#32
  ![v29.toNat, v56.toNat, v66.toNat, 45056]
def k0_off238 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c49152_i32 : BitVec 32 := 49152#32
  ![v29.toNat, v56.toNat, v66.toNat, 49152]
def k0_off239 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c53248_i32 : BitVec 32 := 53248#32
  ![v29.toNat, v56.toNat, v66.toNat, 53248]
def k0_off240 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c57344_i32 : BitVec 32 := 57344#32
  ![v29.toNat, v56.toNat, v66.toNat, 57344]
def k0_off241 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v11 : BitVec 32 := Scalar.muli v1 c8_i32
  let c0_i32_5 : BitVec 32 := 0#32
  let v12 : BitVec 32 := Scalar.addi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c16_i32 : BitVec 32 := 16#32
  let c0_i32_8 : BitVec 32 := 0#32
  let v19 : BitVec 1 := Scalar.cmpi .sgt c16_i32 c0_i32_8
  let v20 : BitVec 32 := Scalar.extui v19
  let c0_i32_9 : BitVec 32 := 0#32
  let v21 : BitVec 1 := Scalar.cmpi .slt c16_i32 c0_i32_9
  let v22 : BitVec 32 := Scalar.extui v21
  let v23 : BitVec 32 := Scalar.subi v20 v22
  let v24 : BitVec 1 := Scalar.cmpi .ne v18 v23
  let v25 : BitVec 32 := Scalar.remsi v12 c16_i32
  let c0_i32_10 : BitVec 32 := 0#32
  let v26 : BitVec 1 := Scalar.cmpi .ne v25 c0_i32_10
  let v27 : BitVec 1 := Scalar.andi v24 v26
  let v13 : BitVec 32 := Scalar.divsi v12 c16_i32
  let c1_i32_11 : BitVec 32 := 1#32
  let v28 : BitVec 32 := Scalar.subi v13 c1_i32_11
  let v29 : BitVec 32 := Scalar.select v27 v28 v13
  let c0_i32_13 : BitVec 32 := 0#32
  let v31 : BitVec 1 := Scalar.cmpi .sgt v12 c0_i32_13
  let v32 : BitVec 32 := Scalar.extui v31
  let c0_i32_14 : BitVec 32 := 0#32
  let v33 : BitVec 1 := Scalar.cmpi .slt v12 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v12 c2_i32_12
  let c0_i32_17 : BitVec 32 := 0#32
  let v43 : BitVec 1 := Scalar.cmpi .ne v42 c0_i32_17
  let v44 : BitVec 1 := Scalar.andi v41 v43
  let v30 : BitVec 32 := Scalar.divsi v12 c2_i32_12
  let c1_i32_18 : BitVec 32 := 1#32
  let v45 : BitVec 32 := Scalar.subi v30 c1_i32_18
  let v46 : BitVec 32 := Scalar.select v44 v45 v30
  let c8_i32_19 : BitVec 32 := 8#32
  let c0_i32_20 : BitVec 32 := 0#32
  let v47 : BitVec 1 := Scalar.cmpi .eq c8_i32_19 c0_i32_20
  let c1_i32_21 : BitVec 32 := 1#32
  let v48 : BitVec 32 := Scalar.select v47 c1_i32_21 c8_i32_19
  let v49 : BitVec 32 := Scalar.remsi v46 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v12 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c61440_i32 : BitVec 32 := 61440#32
  ![v29.toNat, v56.toNat, v66.toNat, 61440]
def k0_off242 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c0_i32_355 : BitVec 32 := 0#32
  ![v90.toNat, v117.toNat, v127.toNat, 0]
def k0_off243 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c4096_i32 : BitVec 32 := 4096#32
  ![v90.toNat, v117.toNat, v127.toNat, 4096]
def k0_off244 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c8192_i32 : BitVec 32 := 8192#32
  ![v90.toNat, v117.toNat, v127.toNat, 8192]
def k0_off245 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c12288_i32 : BitVec 32 := 12288#32
  ![v90.toNat, v117.toNat, v127.toNat, 12288]
def k0_off246 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c16384_i32 : BitVec 32 := 16384#32
  ![v90.toNat, v117.toNat, v127.toNat, 16384]
def k0_off247 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c20480_i32 : BitVec 32 := 20480#32
  ![v90.toNat, v117.toNat, v127.toNat, 20480]
def k0_off248 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c24576_i32 : BitVec 32 := 24576#32
  ![v90.toNat, v117.toNat, v127.toNat, 24576]
def k0_off249 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c28672_i32 : BitVec 32 := 28672#32
  ![v90.toNat, v117.toNat, v127.toNat, 28672]
def k0_off250 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c32768_i32_355 : BitVec 32 := 32768#32
  ![v90.toNat, v117.toNat, v127.toNat, 32768]
def k0_off251 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c36864_i32 : BitVec 32 := 36864#32
  ![v90.toNat, v117.toNat, v127.toNat, 36864]
def k0_off252 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c40960_i32 : BitVec 32 := 40960#32
  ![v90.toNat, v117.toNat, v127.toNat, 40960]
def k0_off253 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c45056_i32 : BitVec 32 := 45056#32
  ![v90.toNat, v117.toNat, v127.toNat, 45056]
def k0_off254 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c49152_i32 : BitVec 32 := 49152#32
  ![v90.toNat, v117.toNat, v127.toNat, 49152]
def k0_off255 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c53248_i32 : BitVec 32 := 53248#32
  ![v90.toNat, v117.toNat, v127.toNat, 53248]
def k0_off256 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c57344_i32 : BitVec 32 := 57344#32
  ![v90.toNat, v117.toNat, v127.toNat, 57344]
def k0_off257 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_31 : BitVec 32 := 8#32
  let v72 : BitVec 32 := Scalar.muli v1 c8_i32_31
  let c1_i32_32 : BitVec 32 := 1#32
  let v73 : BitVec 32 := Scalar.addi v72 c1_i32_32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c0_i32_41 : BitVec 32 := 0#32
  let v92 : BitVec 1 := Scalar.cmpi .sgt v73 c0_i32_41
  let v93 : BitVec 32 := Scalar.extui v92
  let c0_i32_42 : BitVec 32 := 0#32
  let v94 : BitVec 1 := Scalar.cmpi .slt v73 c0_i32_42
  let v95 : BitVec 32 := Scalar.extui v94
  let v96 : BitVec 32 := Scalar.subi v93 v95
  let c2_i32_40 : BitVec 32 := 2#32
  let c0_i32_43 : BitVec 32 := 0#32
  let v97 : BitVec 1 := Scalar.cmpi .sgt c2_i32_40 c0_i32_43
  let v98 : BitVec 32 := Scalar.extui v97
  let c0_i32_44 : BitVec 32 := 0#32
  let v99 : BitVec 1 := Scalar.cmpi .slt c2_i32_40 c0_i32_44
  let v100 : BitVec 32 := Scalar.extui v99
  let v101 : BitVec 32 := Scalar.subi v98 v100
  let v102 : BitVec 1 := Scalar.cmpi .ne v96 v101
  let v103 : BitVec 32 := Scalar.remsi v73 c2_i32_40
  let c0_i32_45 : BitVec 32 := 0#32
  let v104 : BitVec 1 := Scalar.cmpi .ne v103 c0_i32_45
  let v105 : BitVec 1 := Scalar.andi v102 v104
  let v91 : BitVec 32 := Scalar.divsi v73 c2_i32_40
  let c1_i32_46 : BitVec 32 := 1#32
  let v106 : BitVec 32 := Scalar.subi v91 c1_i32_46
  let v107 : BitVec 32 := Scalar.select v105 v106 v91
  let c8_i32_47 : BitVec 32 := 8#32
  let c0_i32_48 : BitVec 32 := 0#32
  let v108 : BitVec 1 := Scalar.cmpi .eq c8_i32_47 c0_i32_48
  let c1_i32_49 : BitVec 32 := 1#32
  let v109 : BitVec 32 := Scalar.select v108 c1_i32_49 c8_i32_47
  let v110 : BitVec 32 := Scalar.remsi v107 v109
  let c0_i32_51 : BitVec 32 := 0#32
  let v112 : BitVec 1 := Scalar.cmpi .slt v110 c0_i32_51
  let c0_i32_52 : BitVec 32 := 0#32
  let v113 : BitVec 1 := Scalar.cmpi .slt v109 c0_i32_52
  let v114 : BitVec 1 := Scalar.xori v112 v113
  let c0_i32_50 : BitVec 32 := 0#32
  let v111 : BitVec 1 := Scalar.cmpi .ne v110 c0_i32_50
  let v115 : BitVec 1 := Scalar.andi v114 v111
  let v116 : BitVec 32 := Scalar.addi v110 v109
  let v117 : BitVec 32 := Scalar.select v115 v116 v110
  let c2_i32_53 : BitVec 32 := 2#32
  let c0_i32_54 : BitVec 32 := 0#32
  let v118 : BitVec 1 := Scalar.cmpi .eq c2_i32_53 c0_i32_54
  let c1_i32_55 : BitVec 32 := 1#32
  let v119 : BitVec 32 := Scalar.select v118 c1_i32_55 c2_i32_53
  let v120 : BitVec 32 := Scalar.remsi v73 v119
  let c0_i32_57 : BitVec 32 := 0#32
  let v122 : BitVec 1 := Scalar.cmpi .slt v120 c0_i32_57
  let c0_i32_58 : BitVec 32 := 0#32
  let v123 : BitVec 1 := Scalar.cmpi .slt v119 c0_i32_58
  let v124 : BitVec 1 := Scalar.xori v122 v123
  let c0_i32_56 : BitVec 32 := 0#32
  let v121 : BitVec 1 := Scalar.cmpi .ne v120 c0_i32_56
  let v125 : BitVec 1 := Scalar.andi v124 v121
  let v126 : BitVec 32 := Scalar.addi v120 v119
  let v127 : BitVec 32 := Scalar.select v125 v126 v120
  let c61440_i32 : BitVec 32 := 61440#32
  ![v90.toNat, v117.toNat, v127.toNat, 61440]
def k0_off258 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c0_i32_355 : BitVec 32 := 0#32
  ![v151.toNat, v178.toNat, v188.toNat, 0]
def k0_off259 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c4096_i32 : BitVec 32 := 4096#32
  ![v151.toNat, v178.toNat, v188.toNat, 4096]
def k0_off260 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c8192_i32 : BitVec 32 := 8192#32
  ![v151.toNat, v178.toNat, v188.toNat, 8192]
def k0_off261 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c12288_i32 : BitVec 32 := 12288#32
  ![v151.toNat, v178.toNat, v188.toNat, 12288]
def k0_off262 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c16384_i32 : BitVec 32 := 16384#32
  ![v151.toNat, v178.toNat, v188.toNat, 16384]
def k0_off263 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c20480_i32 : BitVec 32 := 20480#32
  ![v151.toNat, v178.toNat, v188.toNat, 20480]
def k0_off264 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c24576_i32 : BitVec 32 := 24576#32
  ![v151.toNat, v178.toNat, v188.toNat, 24576]
def k0_off265 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c28672_i32 : BitVec 32 := 28672#32
  ![v151.toNat, v178.toNat, v188.toNat, 28672]
def k0_off266 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c32768_i32_355 : BitVec 32 := 32768#32
  ![v151.toNat, v178.toNat, v188.toNat, 32768]
def k0_off267 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c36864_i32 : BitVec 32 := 36864#32
  ![v151.toNat, v178.toNat, v188.toNat, 36864]
def k0_off268 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c40960_i32 : BitVec 32 := 40960#32
  ![v151.toNat, v178.toNat, v188.toNat, 40960]
def k0_off269 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c45056_i32 : BitVec 32 := 45056#32
  ![v151.toNat, v178.toNat, v188.toNat, 45056]
def k0_off270 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c49152_i32 : BitVec 32 := 49152#32
  ![v151.toNat, v178.toNat, v188.toNat, 49152]
def k0_off271 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c53248_i32 : BitVec 32 := 53248#32
  ![v151.toNat, v178.toNat, v188.toNat, 53248]
def k0_off272 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c57344_i32 : BitVec 32 := 57344#32
  ![v151.toNat, v178.toNat, v188.toNat, 57344]
def k0_off273 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v133 : BitVec 32 := Scalar.muli v1 c8_i32_59
  let c2_i32_60 : BitVec 32 := 2#32
  let v134 : BitVec 32 := Scalar.addi v133 c2_i32_60
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c16_i32_61 : BitVec 32 := 16#32
  let c0_i32_64 : BitVec 32 := 0#32
  let v141 : BitVec 1 := Scalar.cmpi .sgt c16_i32_61 c0_i32_64
  let v142 : BitVec 32 := Scalar.extui v141
  let c0_i32_65 : BitVec 32 := 0#32
  let v143 : BitVec 1 := Scalar.cmpi .slt c16_i32_61 c0_i32_65
  let v144 : BitVec 32 := Scalar.extui v143
  let v145 : BitVec 32 := Scalar.subi v142 v144
  let v146 : BitVec 1 := Scalar.cmpi .ne v140 v145
  let v147 : BitVec 32 := Scalar.remsi v134 c16_i32_61
  let c0_i32_66 : BitVec 32 := 0#32
  let v148 : BitVec 1 := Scalar.cmpi .ne v147 c0_i32_66
  let v149 : BitVec 1 := Scalar.andi v146 v148
  let v135 : BitVec 32 := Scalar.divsi v134 c16_i32_61
  let c1_i32_67 : BitVec 32 := 1#32
  let v150 : BitVec 32 := Scalar.subi v135 c1_i32_67
  let v151 : BitVec 32 := Scalar.select v149 v150 v135
  let c0_i32_69 : BitVec 32 := 0#32
  let v153 : BitVec 1 := Scalar.cmpi .sgt v134 c0_i32_69
  let v154 : BitVec 32 := Scalar.extui v153
  let c0_i32_70 : BitVec 32 := 0#32
  let v155 : BitVec 1 := Scalar.cmpi .slt v134 c0_i32_70
  let v156 : BitVec 32 := Scalar.extui v155
  let v157 : BitVec 32 := Scalar.subi v154 v156
  let c2_i32_68 : BitVec 32 := 2#32
  let c0_i32_71 : BitVec 32 := 0#32
  let v158 : BitVec 1 := Scalar.cmpi .sgt c2_i32_68 c0_i32_71
  let v159 : BitVec 32 := Scalar.extui v158
  let c0_i32_72 : BitVec 32 := 0#32
  let v160 : BitVec 1 := Scalar.cmpi .slt c2_i32_68 c0_i32_72
  let v161 : BitVec 32 := Scalar.extui v160
  let v162 : BitVec 32 := Scalar.subi v159 v161
  let v163 : BitVec 1 := Scalar.cmpi .ne v157 v162
  let v164 : BitVec 32 := Scalar.remsi v134 c2_i32_68
  let c0_i32_73 : BitVec 32 := 0#32
  let v165 : BitVec 1 := Scalar.cmpi .ne v164 c0_i32_73
  let v166 : BitVec 1 := Scalar.andi v163 v165
  let v152 : BitVec 32 := Scalar.divsi v134 c2_i32_68
  let c1_i32_74 : BitVec 32 := 1#32
  let v167 : BitVec 32 := Scalar.subi v152 c1_i32_74
  let v168 : BitVec 32 := Scalar.select v166 v167 v152
  let c8_i32_75 : BitVec 32 := 8#32
  let c0_i32_76 : BitVec 32 := 0#32
  let v169 : BitVec 1 := Scalar.cmpi .eq c8_i32_75 c0_i32_76
  let c1_i32_77 : BitVec 32 := 1#32
  let v170 : BitVec 32 := Scalar.select v169 c1_i32_77 c8_i32_75
  let v171 : BitVec 32 := Scalar.remsi v168 v170
  let c0_i32_79 : BitVec 32 := 0#32
  let v173 : BitVec 1 := Scalar.cmpi .slt v171 c0_i32_79
  let c0_i32_80 : BitVec 32 := 0#32
  let v174 : BitVec 1 := Scalar.cmpi .slt v170 c0_i32_80
  let v175 : BitVec 1 := Scalar.xori v173 v174
  let c0_i32_78 : BitVec 32 := 0#32
  let v172 : BitVec 1 := Scalar.cmpi .ne v171 c0_i32_78
  let v176 : BitVec 1 := Scalar.andi v175 v172
  let v177 : BitVec 32 := Scalar.addi v171 v170
  let v178 : BitVec 32 := Scalar.select v176 v177 v171
  let c2_i32_81 : BitVec 32 := 2#32
  let c0_i32_82 : BitVec 32 := 0#32
  let v179 : BitVec 1 := Scalar.cmpi .eq c2_i32_81 c0_i32_82
  let c1_i32_83 : BitVec 32 := 1#32
  let v180 : BitVec 32 := Scalar.select v179 c1_i32_83 c2_i32_81
  let v181 : BitVec 32 := Scalar.remsi v134 v180
  let c0_i32_85 : BitVec 32 := 0#32
  let v183 : BitVec 1 := Scalar.cmpi .slt v181 c0_i32_85
  let c0_i32_86 : BitVec 32 := 0#32
  let v184 : BitVec 1 := Scalar.cmpi .slt v180 c0_i32_86
  let v185 : BitVec 1 := Scalar.xori v183 v184
  let c0_i32_84 : BitVec 32 := 0#32
  let v182 : BitVec 1 := Scalar.cmpi .ne v181 c0_i32_84
  let v186 : BitVec 1 := Scalar.andi v185 v182
  let v187 : BitVec 32 := Scalar.addi v181 v180
  let v188 : BitVec 32 := Scalar.select v186 v187 v181
  let c61440_i32 : BitVec 32 := 61440#32
  ![v151.toNat, v178.toNat, v188.toNat, 61440]
def k0_off274 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c0_i32_355 : BitVec 32 := 0#32
  ![v212.toNat, v239.toNat, v249.toNat, 0]
def k0_off275 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c4096_i32 : BitVec 32 := 4096#32
  ![v212.toNat, v239.toNat, v249.toNat, 4096]
def k0_off276 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c8192_i32 : BitVec 32 := 8192#32
  ![v212.toNat, v239.toNat, v249.toNat, 8192]
def k0_off277 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c12288_i32 : BitVec 32 := 12288#32
  ![v212.toNat, v239.toNat, v249.toNat, 12288]
def k0_off278 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c16384_i32 : BitVec 32 := 16384#32
  ![v212.toNat, v239.toNat, v249.toNat, 16384]
def k0_off279 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c20480_i32 : BitVec 32 := 20480#32
  ![v212.toNat, v239.toNat, v249.toNat, 20480]
def k0_off280 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c24576_i32 : BitVec 32 := 24576#32
  ![v212.toNat, v239.toNat, v249.toNat, 24576]
def k0_off281 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c28672_i32 : BitVec 32 := 28672#32
  ![v212.toNat, v239.toNat, v249.toNat, 28672]
def k0_off282 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c32768_i32_355 : BitVec 32 := 32768#32
  ![v212.toNat, v239.toNat, v249.toNat, 32768]
def k0_off283 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c36864_i32 : BitVec 32 := 36864#32
  ![v212.toNat, v239.toNat, v249.toNat, 36864]
def k0_off284 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c40960_i32 : BitVec 32 := 40960#32
  ![v212.toNat, v239.toNat, v249.toNat, 40960]
def k0_off285 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c45056_i32 : BitVec 32 := 45056#32
  ![v212.toNat, v239.toNat, v249.toNat, 45056]
def k0_off286 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c49152_i32 : BitVec 32 := 49152#32
  ![v212.toNat, v239.toNat, v249.toNat, 49152]
def k0_off287 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c53248_i32 : BitVec 32 := 53248#32
  ![v212.toNat, v239.toNat, v249.toNat, 53248]
def k0_off288 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c57344_i32 : BitVec 32 := 57344#32
  ![v212.toNat, v239.toNat, v249.toNat, 57344]
def k0_off289 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_87 : BitVec 32 := 8#32
  let v194 : BitVec 32 := Scalar.muli v1 c8_i32_87
  let c3_i32_88 : BitVec 32 := 3#32
  let v195 : BitVec 32 := Scalar.addi v194 c3_i32_88
  let c0_i32_90 : BitVec 32 := 0#32
  let v197 : BitVec 1 := Scalar.cmpi .sgt v195 c0_i32_90
  let v198 : BitVec 32 := Scalar.extui v197
  let c0_i32_91 : BitVec 32 := 0#32
  let v199 : BitVec 1 := Scalar.cmpi .slt v195 c0_i32_91
  let v200 : BitVec 32 := Scalar.extui v199
  let v201 : BitVec 32 := Scalar.subi v198 v200
  let c16_i32_89 : BitVec 32 := 16#32
  let c0_i32_92 : BitVec 32 := 0#32
  let v202 : BitVec 1 := Scalar.cmpi .sgt c16_i32_89 c0_i32_92
  let v203 : BitVec 32 := Scalar.extui v202
  let c0_i32_93 : BitVec 32 := 0#32
  let v204 : BitVec 1 := Scalar.cmpi .slt c16_i32_89 c0_i32_93
  let v205 : BitVec 32 := Scalar.extui v204
  let v206 : BitVec 32 := Scalar.subi v203 v205
  let v207 : BitVec 1 := Scalar.cmpi .ne v201 v206
  let v208 : BitVec 32 := Scalar.remsi v195 c16_i32_89
  let c0_i32_94 : BitVec 32 := 0#32
  let v209 : BitVec 1 := Scalar.cmpi .ne v208 c0_i32_94
  let v210 : BitVec 1 := Scalar.andi v207 v209
  let v196 : BitVec 32 := Scalar.divsi v195 c16_i32_89
  let c1_i32_95 : BitVec 32 := 1#32
  let v211 : BitVec 32 := Scalar.subi v196 c1_i32_95
  let v212 : BitVec 32 := Scalar.select v210 v211 v196
  let c0_i32_97 : BitVec 32 := 0#32
  let v214 : BitVec 1 := Scalar.cmpi .sgt v195 c0_i32_97
  let v215 : BitVec 32 := Scalar.extui v214
  let c0_i32_98 : BitVec 32 := 0#32
  let v216 : BitVec 1 := Scalar.cmpi .slt v195 c0_i32_98
  let v217 : BitVec 32 := Scalar.extui v216
  let v218 : BitVec 32 := Scalar.subi v215 v217
  let c2_i32_96 : BitVec 32 := 2#32
  let c0_i32_99 : BitVec 32 := 0#32
  let v219 : BitVec 1 := Scalar.cmpi .sgt c2_i32_96 c0_i32_99
  let v220 : BitVec 32 := Scalar.extui v219
  let c0_i32_100 : BitVec 32 := 0#32
  let v221 : BitVec 1 := Scalar.cmpi .slt c2_i32_96 c0_i32_100
  let v222 : BitVec 32 := Scalar.extui v221
  let v223 : BitVec 32 := Scalar.subi v220 v222
  let v224 : BitVec 1 := Scalar.cmpi .ne v218 v223
  let v225 : BitVec 32 := Scalar.remsi v195 c2_i32_96
  let c0_i32_101 : BitVec 32 := 0#32
  let v226 : BitVec 1 := Scalar.cmpi .ne v225 c0_i32_101
  let v227 : BitVec 1 := Scalar.andi v224 v226
  let v213 : BitVec 32 := Scalar.divsi v195 c2_i32_96
  let c1_i32_102 : BitVec 32 := 1#32
  let v228 : BitVec 32 := Scalar.subi v213 c1_i32_102
  let v229 : BitVec 32 := Scalar.select v227 v228 v213
  let c8_i32_103 : BitVec 32 := 8#32
  let c0_i32_104 : BitVec 32 := 0#32
  let v230 : BitVec 1 := Scalar.cmpi .eq c8_i32_103 c0_i32_104
  let c1_i32_105 : BitVec 32 := 1#32
  let v231 : BitVec 32 := Scalar.select v230 c1_i32_105 c8_i32_103
  let v232 : BitVec 32 := Scalar.remsi v229 v231
  let c0_i32_107 : BitVec 32 := 0#32
  let v234 : BitVec 1 := Scalar.cmpi .slt v232 c0_i32_107
  let c0_i32_108 : BitVec 32 := 0#32
  let v235 : BitVec 1 := Scalar.cmpi .slt v231 c0_i32_108
  let v236 : BitVec 1 := Scalar.xori v234 v235
  let c0_i32_106 : BitVec 32 := 0#32
  let v233 : BitVec 1 := Scalar.cmpi .ne v232 c0_i32_106
  let v237 : BitVec 1 := Scalar.andi v236 v233
  let v238 : BitVec 32 := Scalar.addi v232 v231
  let v239 : BitVec 32 := Scalar.select v237 v238 v232
  let c2_i32_109 : BitVec 32 := 2#32
  let c0_i32_110 : BitVec 32 := 0#32
  let v240 : BitVec 1 := Scalar.cmpi .eq c2_i32_109 c0_i32_110
  let c1_i32_111 : BitVec 32 := 1#32
  let v241 : BitVec 32 := Scalar.select v240 c1_i32_111 c2_i32_109
  let v242 : BitVec 32 := Scalar.remsi v195 v241
  let c0_i32_113 : BitVec 32 := 0#32
  let v244 : BitVec 1 := Scalar.cmpi .slt v242 c0_i32_113
  let c0_i32_114 : BitVec 32 := 0#32
  let v245 : BitVec 1 := Scalar.cmpi .slt v241 c0_i32_114
  let v246 : BitVec 1 := Scalar.xori v244 v245
  let c0_i32_112 : BitVec 32 := 0#32
  let v243 : BitVec 1 := Scalar.cmpi .ne v242 c0_i32_112
  let v247 : BitVec 1 := Scalar.andi v246 v243
  let v248 : BitVec 32 := Scalar.addi v242 v241
  let v249 : BitVec 32 := Scalar.select v247 v248 v242
  let c61440_i32 : BitVec 32 := 61440#32
  ![v212.toNat, v239.toNat, v249.toNat, 61440]
def k0_off290 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c0_i32_355 : BitVec 32 := 0#32
  ![v273.toNat, v300.toNat, v310.toNat, 0]
def k0_off291 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c4096_i32 : BitVec 32 := 4096#32
  ![v273.toNat, v300.toNat, v310.toNat, 4096]
def k0_off292 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c8192_i32 : BitVec 32 := 8192#32
  ![v273.toNat, v300.toNat, v310.toNat, 8192]
def k0_off293 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c12288_i32 : BitVec 32 := 12288#32
  ![v273.toNat, v300.toNat, v310.toNat, 12288]
def k0_off294 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c16384_i32 : BitVec 32 := 16384#32
  ![v273.toNat, v300.toNat, v310.toNat, 16384]
def k0_off295 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c20480_i32 : BitVec 32 := 20480#32
  ![v273.toNat, v300.toNat, v310.toNat, 20480]
def k0_off296 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c24576_i32 : BitVec 32 := 24576#32
  ![v273.toNat, v300.toNat, v310.toNat, 24576]
def k0_off297 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c28672_i32 : BitVec 32 := 28672#32
  ![v273.toNat, v300.toNat, v310.toNat, 28672]
def k0_off298 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c32768_i32_355 : BitVec 32 := 32768#32
  ![v273.toNat, v300.toNat, v310.toNat, 32768]
def k0_off299 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c36864_i32 : BitVec 32 := 36864#32
  ![v273.toNat, v300.toNat, v310.toNat, 36864]
def k0_off300 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c40960_i32 : BitVec 32 := 40960#32
  ![v273.toNat, v300.toNat, v310.toNat, 40960]
def k0_off301 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c45056_i32 : BitVec 32 := 45056#32
  ![v273.toNat, v300.toNat, v310.toNat, 45056]
def k0_off302 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c49152_i32 : BitVec 32 := 49152#32
  ![v273.toNat, v300.toNat, v310.toNat, 49152]
def k0_off303 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c53248_i32 : BitVec 32 := 53248#32
  ![v273.toNat, v300.toNat, v310.toNat, 53248]
def k0_off304 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c57344_i32 : BitVec 32 := 57344#32
  ![v273.toNat, v300.toNat, v310.toNat, 57344]
def k0_off305 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_115 : BitVec 32 := 8#32
  let v255 : BitVec 32 := Scalar.muli v1 c8_i32_115
  let c4_i32 : BitVec 32 := 4#32
  let v256 : BitVec 32 := Scalar.addi v255 c4_i32
  let c0_i32_117 : BitVec 32 := 0#32
  let v258 : BitVec 1 := Scalar.cmpi .sgt v256 c0_i32_117
  let v259 : BitVec 32 := Scalar.extui v258
  let c0_i32_118 : BitVec 32 := 0#32
  let v260 : BitVec 1 := Scalar.cmpi .slt v256 c0_i32_118
  let v261 : BitVec 32 := Scalar.extui v260
  let v262 : BitVec 32 := Scalar.subi v259 v261
  let c16_i32_116 : BitVec 32 := 16#32
  let c0_i32_119 : BitVec 32 := 0#32
  let v263 : BitVec 1 := Scalar.cmpi .sgt c16_i32_116 c0_i32_119
  let v264 : BitVec 32 := Scalar.extui v263
  let c0_i32_120 : BitVec 32 := 0#32
  let v265 : BitVec 1 := Scalar.cmpi .slt c16_i32_116 c0_i32_120
  let v266 : BitVec 32 := Scalar.extui v265
  let v267 : BitVec 32 := Scalar.subi v264 v266
  let v268 : BitVec 1 := Scalar.cmpi .ne v262 v267
  let v269 : BitVec 32 := Scalar.remsi v256 c16_i32_116
  let c0_i32_121 : BitVec 32 := 0#32
  let v270 : BitVec 1 := Scalar.cmpi .ne v269 c0_i32_121
  let v271 : BitVec 1 := Scalar.andi v268 v270
  let v257 : BitVec 32 := Scalar.divsi v256 c16_i32_116
  let c1_i32_122 : BitVec 32 := 1#32
  let v272 : BitVec 32 := Scalar.subi v257 c1_i32_122
  let v273 : BitVec 32 := Scalar.select v271 v272 v257
  let c0_i32_124 : BitVec 32 := 0#32
  let v275 : BitVec 1 := Scalar.cmpi .sgt v256 c0_i32_124
  let v276 : BitVec 32 := Scalar.extui v275
  let c0_i32_125 : BitVec 32 := 0#32
  let v277 : BitVec 1 := Scalar.cmpi .slt v256 c0_i32_125
  let v278 : BitVec 32 := Scalar.extui v277
  let v279 : BitVec 32 := Scalar.subi v276 v278
  let c2_i32_123 : BitVec 32 := 2#32
  let c0_i32_126 : BitVec 32 := 0#32
  let v280 : BitVec 1 := Scalar.cmpi .sgt c2_i32_123 c0_i32_126
  let v281 : BitVec 32 := Scalar.extui v280
  let c0_i32_127 : BitVec 32 := 0#32
  let v282 : BitVec 1 := Scalar.cmpi .slt c2_i32_123 c0_i32_127
  let v283 : BitVec 32 := Scalar.extui v282
  let v284 : BitVec 32 := Scalar.subi v281 v283
  let v285 : BitVec 1 := Scalar.cmpi .ne v279 v284
  let v286 : BitVec 32 := Scalar.remsi v256 c2_i32_123
  let c0_i32_128 : BitVec 32 := 0#32
  let v287 : BitVec 1 := Scalar.cmpi .ne v286 c0_i32_128
  let v288 : BitVec 1 := Scalar.andi v285 v287
  let v274 : BitVec 32 := Scalar.divsi v256 c2_i32_123
  let c1_i32_129 : BitVec 32 := 1#32
  let v289 : BitVec 32 := Scalar.subi v274 c1_i32_129
  let v290 : BitVec 32 := Scalar.select v288 v289 v274
  let c8_i32_130 : BitVec 32 := 8#32
  let c0_i32_131 : BitVec 32 := 0#32
  let v291 : BitVec 1 := Scalar.cmpi .eq c8_i32_130 c0_i32_131
  let c1_i32_132 : BitVec 32 := 1#32
  let v292 : BitVec 32 := Scalar.select v291 c1_i32_132 c8_i32_130
  let v293 : BitVec 32 := Scalar.remsi v290 v292
  let c0_i32_134 : BitVec 32 := 0#32
  let v295 : BitVec 1 := Scalar.cmpi .slt v293 c0_i32_134
  let c0_i32_135 : BitVec 32 := 0#32
  let v296 : BitVec 1 := Scalar.cmpi .slt v292 c0_i32_135
  let v297 : BitVec 1 := Scalar.xori v295 v296
  let c0_i32_133 : BitVec 32 := 0#32
  let v294 : BitVec 1 := Scalar.cmpi .ne v293 c0_i32_133
  let v298 : BitVec 1 := Scalar.andi v297 v294
  let v299 : BitVec 32 := Scalar.addi v293 v292
  let v300 : BitVec 32 := Scalar.select v298 v299 v293
  let c2_i32_136 : BitVec 32 := 2#32
  let c0_i32_137 : BitVec 32 := 0#32
  let v301 : BitVec 1 := Scalar.cmpi .eq c2_i32_136 c0_i32_137
  let c1_i32_138 : BitVec 32 := 1#32
  let v302 : BitVec 32 := Scalar.select v301 c1_i32_138 c2_i32_136
  let v303 : BitVec 32 := Scalar.remsi v256 v302
  let c0_i32_140 : BitVec 32 := 0#32
  let v305 : BitVec 1 := Scalar.cmpi .slt v303 c0_i32_140
  let c0_i32_141 : BitVec 32 := 0#32
  let v306 : BitVec 1 := Scalar.cmpi .slt v302 c0_i32_141
  let v307 : BitVec 1 := Scalar.xori v305 v306
  let c0_i32_139 : BitVec 32 := 0#32
  let v304 : BitVec 1 := Scalar.cmpi .ne v303 c0_i32_139
  let v308 : BitVec 1 := Scalar.andi v307 v304
  let v309 : BitVec 32 := Scalar.addi v303 v302
  let v310 : BitVec 32 := Scalar.select v308 v309 v303
  let c61440_i32 : BitVec 32 := 61440#32
  ![v273.toNat, v300.toNat, v310.toNat, 61440]
def k0_off306 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c0_i32_355 : BitVec 32 := 0#32
  ![v334.toNat, v361.toNat, v371.toNat, 0]
def k0_off307 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c4096_i32 : BitVec 32 := 4096#32
  ![v334.toNat, v361.toNat, v371.toNat, 4096]
def k0_off308 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c8192_i32 : BitVec 32 := 8192#32
  ![v334.toNat, v361.toNat, v371.toNat, 8192]
def k0_off309 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c12288_i32 : BitVec 32 := 12288#32
  ![v334.toNat, v361.toNat, v371.toNat, 12288]
def k0_off310 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c16384_i32 : BitVec 32 := 16384#32
  ![v334.toNat, v361.toNat, v371.toNat, 16384]
def k0_off311 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c20480_i32 : BitVec 32 := 20480#32
  ![v334.toNat, v361.toNat, v371.toNat, 20480]
def k0_off312 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c24576_i32 : BitVec 32 := 24576#32
  ![v334.toNat, v361.toNat, v371.toNat, 24576]
def k0_off313 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c28672_i32 : BitVec 32 := 28672#32
  ![v334.toNat, v361.toNat, v371.toNat, 28672]
def k0_off314 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c32768_i32_355 : BitVec 32 := 32768#32
  ![v334.toNat, v361.toNat, v371.toNat, 32768]
def k0_off315 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c36864_i32 : BitVec 32 := 36864#32
  ![v334.toNat, v361.toNat, v371.toNat, 36864]
def k0_off316 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c40960_i32 : BitVec 32 := 40960#32
  ![v334.toNat, v361.toNat, v371.toNat, 40960]
def k0_off317 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c45056_i32 : BitVec 32 := 45056#32
  ![v334.toNat, v361.toNat, v371.toNat, 45056]
def k0_off318 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c49152_i32 : BitVec 32 := 49152#32
  ![v334.toNat, v361.toNat, v371.toNat, 49152]
def k0_off319 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c53248_i32 : BitVec 32 := 53248#32
  ![v334.toNat, v361.toNat, v371.toNat, 53248]
def k0_off320 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c57344_i32 : BitVec 32 := 57344#32
  ![v334.toNat, v361.toNat, v371.toNat, 57344]
def k0_off321 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_142 : BitVec 32 := 8#32
  let v316 : BitVec 32 := Scalar.muli v1 c8_i32_142
  let c5_i32 : BitVec 32 := 5#32
  let v317 : BitVec 32 := Scalar.addi v316 c5_i32
  let c0_i32_144 : BitVec 32 := 0#32
  let v319 : BitVec 1 := Scalar.cmpi .sgt v317 c0_i32_144
  let v320 : BitVec 32 := Scalar.extui v319
  let c0_i32_145 : BitVec 32 := 0#32
  let v321 : BitVec 1 := Scalar.cmpi .slt v317 c0_i32_145
  let v322 : BitVec 32 := Scalar.extui v321
  let v323 : BitVec 32 := Scalar.subi v320 v322
  let c16_i32_143 : BitVec 32 := 16#32
  let c0_i32_146 : BitVec 32 := 0#32
  let v324 : BitVec 1 := Scalar.cmpi .sgt c16_i32_143 c0_i32_146
  let v325 : BitVec 32 := Scalar.extui v324
  let c0_i32_147 : BitVec 32 := 0#32
  let v326 : BitVec 1 := Scalar.cmpi .slt c16_i32_143 c0_i32_147
  let v327 : BitVec 32 := Scalar.extui v326
  let v328 : BitVec 32 := Scalar.subi v325 v327
  let v329 : BitVec 1 := Scalar.cmpi .ne v323 v328
  let v330 : BitVec 32 := Scalar.remsi v317 c16_i32_143
  let c0_i32_148 : BitVec 32 := 0#32
  let v331 : BitVec 1 := Scalar.cmpi .ne v330 c0_i32_148
  let v332 : BitVec 1 := Scalar.andi v329 v331
  let v318 : BitVec 32 := Scalar.divsi v317 c16_i32_143
  let c1_i32_149 : BitVec 32 := 1#32
  let v333 : BitVec 32 := Scalar.subi v318 c1_i32_149
  let v334 : BitVec 32 := Scalar.select v332 v333 v318
  let c0_i32_151 : BitVec 32 := 0#32
  let v336 : BitVec 1 := Scalar.cmpi .sgt v317 c0_i32_151
  let v337 : BitVec 32 := Scalar.extui v336
  let c0_i32_152 : BitVec 32 := 0#32
  let v338 : BitVec 1 := Scalar.cmpi .slt v317 c0_i32_152
  let v339 : BitVec 32 := Scalar.extui v338
  let v340 : BitVec 32 := Scalar.subi v337 v339
  let c2_i32_150 : BitVec 32 := 2#32
  let c0_i32_153 : BitVec 32 := 0#32
  let v341 : BitVec 1 := Scalar.cmpi .sgt c2_i32_150 c0_i32_153
  let v342 : BitVec 32 := Scalar.extui v341
  let c0_i32_154 : BitVec 32 := 0#32
  let v343 : BitVec 1 := Scalar.cmpi .slt c2_i32_150 c0_i32_154
  let v344 : BitVec 32 := Scalar.extui v343
  let v345 : BitVec 32 := Scalar.subi v342 v344
  let v346 : BitVec 1 := Scalar.cmpi .ne v340 v345
  let v347 : BitVec 32 := Scalar.remsi v317 c2_i32_150
  let c0_i32_155 : BitVec 32 := 0#32
  let v348 : BitVec 1 := Scalar.cmpi .ne v347 c0_i32_155
  let v349 : BitVec 1 := Scalar.andi v346 v348
  let v335 : BitVec 32 := Scalar.divsi v317 c2_i32_150
  let c1_i32_156 : BitVec 32 := 1#32
  let v350 : BitVec 32 := Scalar.subi v335 c1_i32_156
  let v351 : BitVec 32 := Scalar.select v349 v350 v335
  let c8_i32_157 : BitVec 32 := 8#32
  let c0_i32_158 : BitVec 32 := 0#32
  let v352 : BitVec 1 := Scalar.cmpi .eq c8_i32_157 c0_i32_158
  let c1_i32_159 : BitVec 32 := 1#32
  let v353 : BitVec 32 := Scalar.select v352 c1_i32_159 c8_i32_157
  let v354 : BitVec 32 := Scalar.remsi v351 v353
  let c0_i32_161 : BitVec 32 := 0#32
  let v356 : BitVec 1 := Scalar.cmpi .slt v354 c0_i32_161
  let c0_i32_162 : BitVec 32 := 0#32
  let v357 : BitVec 1 := Scalar.cmpi .slt v353 c0_i32_162
  let v358 : BitVec 1 := Scalar.xori v356 v357
  let c0_i32_160 : BitVec 32 := 0#32
  let v355 : BitVec 1 := Scalar.cmpi .ne v354 c0_i32_160
  let v359 : BitVec 1 := Scalar.andi v358 v355
  let v360 : BitVec 32 := Scalar.addi v354 v353
  let v361 : BitVec 32 := Scalar.select v359 v360 v354
  let c2_i32_163 : BitVec 32 := 2#32
  let c0_i32_164 : BitVec 32 := 0#32
  let v362 : BitVec 1 := Scalar.cmpi .eq c2_i32_163 c0_i32_164
  let c1_i32_165 : BitVec 32 := 1#32
  let v363 : BitVec 32 := Scalar.select v362 c1_i32_165 c2_i32_163
  let v364 : BitVec 32 := Scalar.remsi v317 v363
  let c0_i32_167 : BitVec 32 := 0#32
  let v366 : BitVec 1 := Scalar.cmpi .slt v364 c0_i32_167
  let c0_i32_168 : BitVec 32 := 0#32
  let v367 : BitVec 1 := Scalar.cmpi .slt v363 c0_i32_168
  let v368 : BitVec 1 := Scalar.xori v366 v367
  let c0_i32_166 : BitVec 32 := 0#32
  let v365 : BitVec 1 := Scalar.cmpi .ne v364 c0_i32_166
  let v369 : BitVec 1 := Scalar.andi v368 v365
  let v370 : BitVec 32 := Scalar.addi v364 v363
  let v371 : BitVec 32 := Scalar.select v369 v370 v364
  let c61440_i32 : BitVec 32 := 61440#32
  ![v334.toNat, v361.toNat, v371.toNat, 61440]
def k0_off322 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c0_i32_355 : BitVec 32 := 0#32
  ![v395.toNat, v422.toNat, v432.toNat, 0]
def k0_off323 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c4096_i32 : BitVec 32 := 4096#32
  ![v395.toNat, v422.toNat, v432.toNat, 4096]
def k0_off324 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c8192_i32 : BitVec 32 := 8192#32
  ![v395.toNat, v422.toNat, v432.toNat, 8192]
def k0_off325 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c12288_i32 : BitVec 32 := 12288#32
  ![v395.toNat, v422.toNat, v432.toNat, 12288]
def k0_off326 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c16384_i32 : BitVec 32 := 16384#32
  ![v395.toNat, v422.toNat, v432.toNat, 16384]
def k0_off327 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c20480_i32 : BitVec 32 := 20480#32
  ![v395.toNat, v422.toNat, v432.toNat, 20480]
def k0_off328 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c24576_i32 : BitVec 32 := 24576#32
  ![v395.toNat, v422.toNat, v432.toNat, 24576]
def k0_off329 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c28672_i32 : BitVec 32 := 28672#32
  ![v395.toNat, v422.toNat, v432.toNat, 28672]
def k0_off330 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c32768_i32_355 : BitVec 32 := 32768#32
  ![v395.toNat, v422.toNat, v432.toNat, 32768]
def k0_off331 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c36864_i32 : BitVec 32 := 36864#32
  ![v395.toNat, v422.toNat, v432.toNat, 36864]
def k0_off332 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c40960_i32 : BitVec 32 := 40960#32
  ![v395.toNat, v422.toNat, v432.toNat, 40960]
def k0_off333 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c45056_i32 : BitVec 32 := 45056#32
  ![v395.toNat, v422.toNat, v432.toNat, 45056]
def k0_off334 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c49152_i32 : BitVec 32 := 49152#32
  ![v395.toNat, v422.toNat, v432.toNat, 49152]
def k0_off335 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c53248_i32 : BitVec 32 := 53248#32
  ![v395.toNat, v422.toNat, v432.toNat, 53248]
def k0_off336 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c57344_i32 : BitVec 32 := 57344#32
  ![v395.toNat, v422.toNat, v432.toNat, 57344]
def k0_off337 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_169 : BitVec 32 := 8#32
  let v377 : BitVec 32 := Scalar.muli v1 c8_i32_169
  let c6_i32 : BitVec 32 := 6#32
  let v378 : BitVec 32 := Scalar.addi v377 c6_i32
  let c0_i32_171 : BitVec 32 := 0#32
  let v380 : BitVec 1 := Scalar.cmpi .sgt v378 c0_i32_171
  let v381 : BitVec 32 := Scalar.extui v380
  let c0_i32_172 : BitVec 32 := 0#32
  let v382 : BitVec 1 := Scalar.cmpi .slt v378 c0_i32_172
  let v383 : BitVec 32 := Scalar.extui v382
  let v384 : BitVec 32 := Scalar.subi v381 v383
  let c16_i32_170 : BitVec 32 := 16#32
  let c0_i32_173 : BitVec 32 := 0#32
  let v385 : BitVec 1 := Scalar.cmpi .sgt c16_i32_170 c0_i32_173
  let v386 : BitVec 32 := Scalar.extui v385
  let c0_i32_174 : BitVec 32 := 0#32
  let v387 : BitVec 1 := Scalar.cmpi .slt c16_i32_170 c0_i32_174
  let v388 : BitVec 32 := Scalar.extui v387
  let v389 : BitVec 32 := Scalar.subi v386 v388
  let v390 : BitVec 1 := Scalar.cmpi .ne v384 v389
  let v391 : BitVec 32 := Scalar.remsi v378 c16_i32_170
  let c0_i32_175 : BitVec 32 := 0#32
  let v392 : BitVec 1 := Scalar.cmpi .ne v391 c0_i32_175
  let v393 : BitVec 1 := Scalar.andi v390 v392
  let v379 : BitVec 32 := Scalar.divsi v378 c16_i32_170
  let c1_i32_176 : BitVec 32 := 1#32
  let v394 : BitVec 32 := Scalar.subi v379 c1_i32_176
  let v395 : BitVec 32 := Scalar.select v393 v394 v379
  let c0_i32_178 : BitVec 32 := 0#32
  let v397 : BitVec 1 := Scalar.cmpi .sgt v378 c0_i32_178
  let v398 : BitVec 32 := Scalar.extui v397
  let c0_i32_179 : BitVec 32 := 0#32
  let v399 : BitVec 1 := Scalar.cmpi .slt v378 c0_i32_179
  let v400 : BitVec 32 := Scalar.extui v399
  let v401 : BitVec 32 := Scalar.subi v398 v400
  let c2_i32_177 : BitVec 32 := 2#32
  let c0_i32_180 : BitVec 32 := 0#32
  let v402 : BitVec 1 := Scalar.cmpi .sgt c2_i32_177 c0_i32_180
  let v403 : BitVec 32 := Scalar.extui v402
  let c0_i32_181 : BitVec 32 := 0#32
  let v404 : BitVec 1 := Scalar.cmpi .slt c2_i32_177 c0_i32_181
  let v405 : BitVec 32 := Scalar.extui v404
  let v406 : BitVec 32 := Scalar.subi v403 v405
  let v407 : BitVec 1 := Scalar.cmpi .ne v401 v406
  let v408 : BitVec 32 := Scalar.remsi v378 c2_i32_177
  let c0_i32_182 : BitVec 32 := 0#32
  let v409 : BitVec 1 := Scalar.cmpi .ne v408 c0_i32_182
  let v410 : BitVec 1 := Scalar.andi v407 v409
  let v396 : BitVec 32 := Scalar.divsi v378 c2_i32_177
  let c1_i32_183 : BitVec 32 := 1#32
  let v411 : BitVec 32 := Scalar.subi v396 c1_i32_183
  let v412 : BitVec 32 := Scalar.select v410 v411 v396
  let c8_i32_184 : BitVec 32 := 8#32
  let c0_i32_185 : BitVec 32 := 0#32
  let v413 : BitVec 1 := Scalar.cmpi .eq c8_i32_184 c0_i32_185
  let c1_i32_186 : BitVec 32 := 1#32
  let v414 : BitVec 32 := Scalar.select v413 c1_i32_186 c8_i32_184
  let v415 : BitVec 32 := Scalar.remsi v412 v414
  let c0_i32_188 : BitVec 32 := 0#32
  let v417 : BitVec 1 := Scalar.cmpi .slt v415 c0_i32_188
  let c0_i32_189 : BitVec 32 := 0#32
  let v418 : BitVec 1 := Scalar.cmpi .slt v414 c0_i32_189
  let v419 : BitVec 1 := Scalar.xori v417 v418
  let c0_i32_187 : BitVec 32 := 0#32
  let v416 : BitVec 1 := Scalar.cmpi .ne v415 c0_i32_187
  let v420 : BitVec 1 := Scalar.andi v419 v416
  let v421 : BitVec 32 := Scalar.addi v415 v414
  let v422 : BitVec 32 := Scalar.select v420 v421 v415
  let c2_i32_190 : BitVec 32 := 2#32
  let c0_i32_191 : BitVec 32 := 0#32
  let v423 : BitVec 1 := Scalar.cmpi .eq c2_i32_190 c0_i32_191
  let c1_i32_192 : BitVec 32 := 1#32
  let v424 : BitVec 32 := Scalar.select v423 c1_i32_192 c2_i32_190
  let v425 : BitVec 32 := Scalar.remsi v378 v424
  let c0_i32_194 : BitVec 32 := 0#32
  let v427 : BitVec 1 := Scalar.cmpi .slt v425 c0_i32_194
  let c0_i32_195 : BitVec 32 := 0#32
  let v428 : BitVec 1 := Scalar.cmpi .slt v424 c0_i32_195
  let v429 : BitVec 1 := Scalar.xori v427 v428
  let c0_i32_193 : BitVec 32 := 0#32
  let v426 : BitVec 1 := Scalar.cmpi .ne v425 c0_i32_193
  let v430 : BitVec 1 := Scalar.andi v429 v426
  let v431 : BitVec 32 := Scalar.addi v425 v424
  let v432 : BitVec 32 := Scalar.select v430 v431 v425
  let c61440_i32 : BitVec 32 := 61440#32
  ![v395.toNat, v422.toNat, v432.toNat, 61440]
def k0_off338 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c0_i32_355 : BitVec 32 := 0#32
  ![v456.toNat, v483.toNat, v493.toNat, 0]
def k0_off339 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c4096_i32 : BitVec 32 := 4096#32
  ![v456.toNat, v483.toNat, v493.toNat, 4096]
def k0_off340 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c8192_i32 : BitVec 32 := 8192#32
  ![v456.toNat, v483.toNat, v493.toNat, 8192]
def k0_off341 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c12288_i32 : BitVec 32 := 12288#32
  ![v456.toNat, v483.toNat, v493.toNat, 12288]
def k0_off342 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c16384_i32 : BitVec 32 := 16384#32
  ![v456.toNat, v483.toNat, v493.toNat, 16384]
def k0_off343 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c20480_i32 : BitVec 32 := 20480#32
  ![v456.toNat, v483.toNat, v493.toNat, 20480]
def k0_off344 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c24576_i32 : BitVec 32 := 24576#32
  ![v456.toNat, v483.toNat, v493.toNat, 24576]
def k0_off345 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c28672_i32 : BitVec 32 := 28672#32
  ![v456.toNat, v483.toNat, v493.toNat, 28672]
def k0_off346 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c32768_i32_355 : BitVec 32 := 32768#32
  ![v456.toNat, v483.toNat, v493.toNat, 32768]
def k0_off347 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c36864_i32 : BitVec 32 := 36864#32
  ![v456.toNat, v483.toNat, v493.toNat, 36864]
def k0_off348 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c40960_i32 : BitVec 32 := 40960#32
  ![v456.toNat, v483.toNat, v493.toNat, 40960]
def k0_off349 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c45056_i32 : BitVec 32 := 45056#32
  ![v456.toNat, v483.toNat, v493.toNat, 45056]
def k0_off350 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c49152_i32 : BitVec 32 := 49152#32
  ![v456.toNat, v483.toNat, v493.toNat, 49152]
def k0_off351 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c53248_i32 : BitVec 32 := 53248#32
  ![v456.toNat, v483.toNat, v493.toNat, 53248]
def k0_off352 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c57344_i32 : BitVec 32 := 57344#32
  ![v456.toNat, v483.toNat, v493.toNat, 57344]
def k0_off353 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_196 : BitVec 32 := 8#32
  let v438 : BitVec 32 := Scalar.muli v1 c8_i32_196
  let c7_i32 : BitVec 32 := 7#32
  let v439 : BitVec 32 := Scalar.addi v438 c7_i32
  let c0_i32_198 : BitVec 32 := 0#32
  let v441 : BitVec 1 := Scalar.cmpi .sgt v439 c0_i32_198
  let v442 : BitVec 32 := Scalar.extui v441
  let c0_i32_199 : BitVec 32 := 0#32
  let v443 : BitVec 1 := Scalar.cmpi .slt v439 c0_i32_199
  let v444 : BitVec 32 := Scalar.extui v443
  let v445 : BitVec 32 := Scalar.subi v442 v444
  let c16_i32_197 : BitVec 32 := 16#32
  let c0_i32_200 : BitVec 32 := 0#32
  let v446 : BitVec 1 := Scalar.cmpi .sgt c16_i32_197 c0_i32_200
  let v447 : BitVec 32 := Scalar.extui v446
  let c0_i32_201 : BitVec 32 := 0#32
  let v448 : BitVec 1 := Scalar.cmpi .slt c16_i32_197 c0_i32_201
  let v449 : BitVec 32 := Scalar.extui v448
  let v450 : BitVec 32 := Scalar.subi v447 v449
  let v451 : BitVec 1 := Scalar.cmpi .ne v445 v450
  let v452 : BitVec 32 := Scalar.remsi v439 c16_i32_197
  let c0_i32_202 : BitVec 32 := 0#32
  let v453 : BitVec 1 := Scalar.cmpi .ne v452 c0_i32_202
  let v454 : BitVec 1 := Scalar.andi v451 v453
  let v440 : BitVec 32 := Scalar.divsi v439 c16_i32_197
  let c1_i32_203 : BitVec 32 := 1#32
  let v455 : BitVec 32 := Scalar.subi v440 c1_i32_203
  let v456 : BitVec 32 := Scalar.select v454 v455 v440
  let c0_i32_205 : BitVec 32 := 0#32
  let v458 : BitVec 1 := Scalar.cmpi .sgt v439 c0_i32_205
  let v459 : BitVec 32 := Scalar.extui v458
  let c0_i32_206 : BitVec 32 := 0#32
  let v460 : BitVec 1 := Scalar.cmpi .slt v439 c0_i32_206
  let v461 : BitVec 32 := Scalar.extui v460
  let v462 : BitVec 32 := Scalar.subi v459 v461
  let c2_i32_204 : BitVec 32 := 2#32
  let c0_i32_207 : BitVec 32 := 0#32
  let v463 : BitVec 1 := Scalar.cmpi .sgt c2_i32_204 c0_i32_207
  let v464 : BitVec 32 := Scalar.extui v463
  let c0_i32_208 : BitVec 32 := 0#32
  let v465 : BitVec 1 := Scalar.cmpi .slt c2_i32_204 c0_i32_208
  let v466 : BitVec 32 := Scalar.extui v465
  let v467 : BitVec 32 := Scalar.subi v464 v466
  let v468 : BitVec 1 := Scalar.cmpi .ne v462 v467
  let v469 : BitVec 32 := Scalar.remsi v439 c2_i32_204
  let c0_i32_209 : BitVec 32 := 0#32
  let v470 : BitVec 1 := Scalar.cmpi .ne v469 c0_i32_209
  let v471 : BitVec 1 := Scalar.andi v468 v470
  let v457 : BitVec 32 := Scalar.divsi v439 c2_i32_204
  let c1_i32_210 : BitVec 32 := 1#32
  let v472 : BitVec 32 := Scalar.subi v457 c1_i32_210
  let v473 : BitVec 32 := Scalar.select v471 v472 v457
  let c8_i32_211 : BitVec 32 := 8#32
  let c0_i32_212 : BitVec 32 := 0#32
  let v474 : BitVec 1 := Scalar.cmpi .eq c8_i32_211 c0_i32_212
  let c1_i32_213 : BitVec 32 := 1#32
  let v475 : BitVec 32 := Scalar.select v474 c1_i32_213 c8_i32_211
  let v476 : BitVec 32 := Scalar.remsi v473 v475
  let c0_i32_215 : BitVec 32 := 0#32
  let v478 : BitVec 1 := Scalar.cmpi .slt v476 c0_i32_215
  let c0_i32_216 : BitVec 32 := 0#32
  let v479 : BitVec 1 := Scalar.cmpi .slt v475 c0_i32_216
  let v480 : BitVec 1 := Scalar.xori v478 v479
  let c0_i32_214 : BitVec 32 := 0#32
  let v477 : BitVec 1 := Scalar.cmpi .ne v476 c0_i32_214
  let v481 : BitVec 1 := Scalar.andi v480 v477
  let v482 : BitVec 32 := Scalar.addi v476 v475
  let v483 : BitVec 32 := Scalar.select v481 v482 v476
  let c2_i32_217 : BitVec 32 := 2#32
  let c0_i32_218 : BitVec 32 := 0#32
  let v484 : BitVec 1 := Scalar.cmpi .eq c2_i32_217 c0_i32_218
  let c1_i32_219 : BitVec 32 := 1#32
  let v485 : BitVec 32 := Scalar.select v484 c1_i32_219 c2_i32_217
  let v486 : BitVec 32 := Scalar.remsi v439 v485
  let c0_i32_221 : BitVec 32 := 0#32
  let v488 : BitVec 1 := Scalar.cmpi .slt v486 c0_i32_221
  let c0_i32_222 : BitVec 32 := 0#32
  let v489 : BitVec 1 := Scalar.cmpi .slt v485 c0_i32_222
  let v490 : BitVec 1 := Scalar.xori v488 v489
  let c0_i32_220 : BitVec 32 := 0#32
  let v487 : BitVec 1 := Scalar.cmpi .ne v486 c0_i32_220
  let v491 : BitVec 1 := Scalar.andi v490 v487
  let v492 : BitVec 32 := Scalar.addi v486 v485
  let v493 : BitVec 32 := Scalar.select v491 v492 v486
  let c61440_i32 : BitVec 32 := 61440#32
  ![v456.toNat, v483.toNat, v493.toNat, 61440]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  slices_S16_o0_S1 : S16.Slices ![0] S1
  inpos_S1_p0 : ∀ a, (![0] : Fin 1 → Nat) a < S1.size a
  squeezes_S1x1x1x32768_S32768 : S1x1x1x32768.Squeezes S32768
  squeezes_S1x1x1x4096_S4096 : S1x1x1x4096.Squeezes S4096
  hcc0_scratch3 : 0 + S_.numel ≤ 8
  hcc0_scratch4 : 1 + S_.numel ≤ 8
  hcc0_scratch5 : 2 + S_.numel ≤ 8
  hcc0_scratch6 : 3 + S_.numel ≤ 8
  hcc0_scratch7 : 4 + S_.numel ≤ 8
  hcc0_scratch8 : 5 + S_.numel ≤ 8
  hcc0_scratch9 : 6 + S_.numel ≤ 8
  hcc0_scoped0 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32768.size a ≤ S1572864.size a
  k0_off2_inb : ∀ i : grid0.Coords, ∀ a, (k0_off2 i) a + S1x1x1x32768.size a ≤ S16x8x2x65536.size a
  k0_t1_ok : k0_t1_loop.OK
  k0_off3_inb : ∀ k0_t1 : Fin k0_t1_loop.trips, ∀ (r : Fin 16), ∀ a, (k0_off3 k0_t1 (BitVec.ofNat 32 r.val)) a + S16.size a ≤ S4096.size a
  k0_off4_inb : ∀ i : grid0.Coords, ∀ a, (k0_off4 i) a + S32768.size a ≤ S1572864.size a
  k0_off5_inb : ∀ i : grid0.Coords, ∀ a, (k0_off5 i) a + S1x1x1x32768.size a ≤ S16x8x2x65536.size a
  k0_off6_inb : ∀ i : grid0.Coords, ∀ a, (k0_off6 i) a + S1x1x1x4096.size a ≤ S16x8x2x65536.size a
  k0_off7_inb : ∀ i : grid0.Coords, ∀ a, (k0_off7 i) a + S1x1x1x4096.size a ≤ S16x8x2x65536.size a
  k0_off8_inb : ∀ i : grid0.Coords, ∀ a, (k0_off8 i) a + S1x1x1x4096.size a ≤ S16x8x2x65536.size a
  k0_off9_inb : ∀ i : grid0.Coords, ∀ a, (k0_off9 i) a + S1x1x1x4096.size a ≤ S16x8x2x65536.size a
  k0_off10_inb : ∀ i : grid0.Coords, ∀ a, (k0_off10 i) a + S1x1x1x4096.size a ≤ S16x8x2x65536.size a
  k0_off11_inb : ∀ i : grid0.Coords, ∀ a, (k0_off11 i) a + S1x1x1x4096.size a ≤ S16x8x2x65536.size a
  k0_off12_inb : ∀ i : grid0.Coords, ∀ a, (k0_off12 i) a + S1x1x1x4096.size a ≤ S16x8x2x65536.size a
  k0_off13_inb : ∀ i : grid0.Coords, ∀ a, (k0_off13 i) a + S1x1x1x4096.size a ≤ S16x8x2x65536.size a
  k0_off14_inb : ∀ i : grid0.Coords, ∀ a, (k0_off14 i) a + S32768.size a ≤ S1572864.size a
  k0_off15_inb : ∀ i : grid0.Coords, ∀ a, (k0_off15 i) a + S1x1x1x32768.size a ≤ S16x8x2x65536.size a
  k0_off16_inb : ∀ i : grid0.Coords, ∀ a, (k0_off16 i) a + S32768.size a ≤ S1572864.size a
  k0_off17_inb : ∀ i : grid0.Coords, ∀ a, (k0_off17 i) a + S1x1x1x32768.size a ≤ S16x8x2x65536.size a
  k0_off18_inb : ∀ i : grid0.Coords, ∀ a, (k0_off18 i) a + S1x1x1x4096.size a ≤ S16x8x2x65536.size a
  k0_off19_inb : ∀ i : grid0.Coords, ∀ a, (k0_off19 i) a + S1x1x1x4096.size a ≤ S16x8x2x65536.size a
  k0_off20_inb : ∀ i : grid0.Coords, ∀ a, (k0_off20 i) a + S1x1x1x4096.size a ≤ S16x8x2x65536.size a
  k0_off21_inb : ∀ i : grid0.Coords, ∀ a, (k0_off21 i) a + S1x1x1x4096.size a ≤ S16x8x2x65536.size a
  k0_off22_inb : ∀ i : grid0.Coords, ∀ a, (k0_off22 i) a + S1x1x1x4096.size a ≤ S16x8x2x65536.size a
  k0_off23_inb : ∀ i : grid0.Coords, ∀ a, (k0_off23 i) a + S1x1x1x4096.size a ≤ S16x8x2x65536.size a
  k0_off24_inb : ∀ i : grid0.Coords, ∀ a, (k0_off24 i) a + S1x1x1x4096.size a ≤ S16x8x2x65536.size a
  k0_off25_inb : ∀ i : grid0.Coords, ∀ a, (k0_off25 i) a + S1x1x1x4096.size a ≤ S16x8x2x65536.size a
  k0_off26_inb : ∀ i : grid0.Coords, ∀ a, (k0_off26 i) a + S32768.size a ≤ S1572864.size a
  k0_off27_inb : ∀ i : grid0.Coords, ∀ a, (k0_off27 i) a + S1x1x1x32768.size a ≤ S16x8x2x65536.size a
  k0_off28_inb : ∀ i : grid0.Coords, ∀ a, (k0_off28 i) a + S1x1x1x32768.size a ≤ S16x8x2x65536.size a
  k0_off29_inb : ∀ i : grid0.Coords, ∀ a, (k0_off29 i) a + S32768.size a ≤ S1572864.size a
  k0_off30_inb : ∀ i : grid0.Coords, ∀ a, (k0_off30 i) a + S32768.size a ≤ S1572864.size a
  k0_off31_inb : ∀ i : grid0.Coords, ∀ a, (k0_off31 i) a + S1x1x1x32768.size a ≤ S16x8x2x65536.size a
  k0_off32_inb : ∀ i : grid0.Coords, ∀ a, (k0_off32 i) a + S1x1x1x4096.size a ≤ S16x8x2x65536.size a
  k0_off33_inb : ∀ i : grid0.Coords, ∀ a, (k0_off33 i) a + S1x1x1x4096.size a ≤ S16x8x2x65536.size a
  k0_off34_inb : ∀ i : grid0.Coords, ∀ a, (k0_off34 i) a + S1x1x1x4096.size a ≤ S16x8x2x65536.size a
  k0_off35_inb : ∀ i : grid0.Coords, ∀ a, (k0_off35 i) a + S1x1x1x4096.size a ≤ S16x8x2x65536.size a
  k0_off36_inb : ∀ i : grid0.Coords, ∀ a, (k0_off36 i) a + S1x1x1x4096.size a ≤ S16x8x2x65536.size a
  k0_off37_inb : ∀ i : grid0.Coords, ∀ a, (k0_off37 i) a + S1x1x1x4096.size a ≤ S16x8x2x65536.size a
  k0_off38_inb : ∀ i : grid0.Coords, ∀ a, (k0_off38 i) a + S1x1x1x4096.size a ≤ S16x8x2x65536.size a
  k0_off39_inb : ∀ i : grid0.Coords, ∀ a, (k0_off39 i) a + S1x1x1x4096.size a ≤ S16x8x2x65536.size a
  k0_off40_inb : ∀ i : grid0.Coords, ∀ a, (k0_off40 i) a + S32768.size a ≤ S1572864.size a
  k0_off41_inb : ∀ i : grid0.Coords, ∀ a, (k0_off41 i) a + S1x1x1x32768.size a ≤ S16x8x2x65536.size a
  k0_off42_inb : ∀ i : grid0.Coords, ∀ a, (k0_off42 i) a + S1x1x1x32768.size a ≤ S16x8x2x65536.size a
  k0_off43_inb : ∀ i : grid0.Coords, ∀ a, (k0_off43 i) a + S32768.size a ≤ S1572864.size a
  k0_off44_inb : ∀ i : grid0.Coords, ∀ a, (k0_off44 i) a + S32768.size a ≤ S1572864.size a
  k0_off45_inb : ∀ i : grid0.Coords, ∀ a, (k0_off45 i) a + S1x1x1x32768.size a ≤ S16x8x2x65536.size a
  k0_off46_inb : ∀ i : grid0.Coords, ∀ a, (k0_off46 i) a + S1x1x1x4096.size a ≤ S16x8x2x65536.size a
  k0_off47_inb : ∀ i : grid0.Coords, ∀ a, (k0_off47 i) a + S1x1x1x4096.size a ≤ S16x8x2x65536.size a
  k0_off48_inb : ∀ i : grid0.Coords, ∀ a, (k0_off48 i) a + S1x1x1x4096.size a ≤ S16x8x2x65536.size a
  k0_off49_inb : ∀ i : grid0.Coords, ∀ a, (k0_off49 i) a + S1x1x1x4096.size a ≤ S16x8x2x65536.size a
  k0_off50_inb : ∀ i : grid0.Coords, ∀ a, (k0_off50 i) a + S1x1x1x4096.size a ≤ S16x8x2x65536.size a
  k0_off51_inb : ∀ i : grid0.Coords, ∀ a, (k0_off51 i) a + S1x1x1x4096.size a ≤ S16x8x2x65536.size a
  k0_off52_inb : ∀ i : grid0.Coords, ∀ a, (k0_off52 i) a + S1x1x1x4096.size a ≤ S16x8x2x65536.size a
  k0_off53_inb : ∀ i : grid0.Coords, ∀ a, (k0_off53 i) a + S1x1x1x4096.size a ≤ S16x8x2x65536.size a
  k0_off54_inb : ∀ i : grid0.Coords, ∀ a, (k0_off54 i) a + S32768.size a ≤ S1572864.size a
  k0_off55_inb : ∀ i : grid0.Coords, ∀ a, (k0_off55 i) a + S1x1x1x32768.size a ≤ S16x8x2x65536.size a
  k0_off56_inb : ∀ i : grid0.Coords, ∀ a, (k0_off56 i) a + S1x1x1x32768.size a ≤ S16x8x2x65536.size a
  k0_off57_inb : ∀ i : grid0.Coords, ∀ a, (k0_off57 i) a + S32768.size a ≤ S1572864.size a
  k0_off58_inb : ∀ i : grid0.Coords, ∀ a, (k0_off58 i) a + S32768.size a ≤ S1572864.size a
  k0_off59_inb : ∀ i : grid0.Coords, ∀ a, (k0_off59 i) a + S1x1x1x32768.size a ≤ S16x8x2x65536.size a
  k0_off60_inb : ∀ i : grid0.Coords, ∀ a, (k0_off60 i) a + S1x1x1x4096.size a ≤ S16x8x2x65536.size a
  k0_off61_inb : ∀ i : grid0.Coords, ∀ a, (k0_off61 i) a + S1x1x1x4096.size a ≤ S16x8x2x65536.size a
  k0_off62_inb : ∀ i : grid0.Coords, ∀ a, (k0_off62 i) a + S1x1x1x4096.size a ≤ S16x8x2x65536.size a
  k0_off63_inb : ∀ i : grid0.Coords, ∀ a, (k0_off63 i) a + S1x1x1x4096.size a ≤ S16x8x2x65536.size a
  k0_off64_inb : ∀ i : grid0.Coords, ∀ a, (k0_off64 i) a + S1x1x1x4096.size a ≤ S16x8x2x65536.size a
  k0_off65_inb : ∀ i : grid0.Coords, ∀ a, (k0_off65 i) a + S1x1x1x4096.size a ≤ S16x8x2x65536.size a
  k0_off66_inb : ∀ i : grid0.Coords, ∀ a, (k0_off66 i) a + S1x1x1x4096.size a ≤ S16x8x2x65536.size a
  k0_off67_inb : ∀ i : grid0.Coords, ∀ a, (k0_off67 i) a + S1x1x1x4096.size a ≤ S16x8x2x65536.size a
  k0_off68_inb : ∀ i : grid0.Coords, ∀ a, (k0_off68 i) a + S32768.size a ≤ S1572864.size a
  k0_off69_inb : ∀ i : grid0.Coords, ∀ a, (k0_off69 i) a + S1x1x1x32768.size a ≤ S16x8x2x65536.size a
  k0_off70_inb : ∀ i : grid0.Coords, ∀ a, (k0_off70 i) a + S1x1x1x32768.size a ≤ S16x8x2x65536.size a
  k0_off71_inb : ∀ i : grid0.Coords, ∀ a, (k0_off71 i) a + S32768.size a ≤ S1572864.size a
  k0_off72_inb : ∀ i : grid0.Coords, ∀ a, (k0_off72 i) a + S32768.size a ≤ S1572864.size a
  k0_off73_inb : ∀ i : grid0.Coords, ∀ a, (k0_off73 i) a + S1x1x1x32768.size a ≤ S16x8x2x65536.size a
  k0_off74_inb : ∀ i : grid0.Coords, ∀ a, (k0_off74 i) a + S1x1x1x4096.size a ≤ S16x8x2x65536.size a
  k0_off75_inb : ∀ i : grid0.Coords, ∀ a, (k0_off75 i) a + S1x1x1x4096.size a ≤ S16x8x2x65536.size a
  k0_off76_inb : ∀ i : grid0.Coords, ∀ a, (k0_off76 i) a + S1x1x1x4096.size a ≤ S16x8x2x65536.size a
  k0_off77_inb : ∀ i : grid0.Coords, ∀ a, (k0_off77 i) a + S1x1x1x4096.size a ≤ S16x8x2x65536.size a
  k0_off78_inb : ∀ i : grid0.Coords, ∀ a, (k0_off78 i) a + S1x1x1x4096.size a ≤ S16x8x2x65536.size a
  k0_off79_inb : ∀ i : grid0.Coords, ∀ a, (k0_off79 i) a + S1x1x1x4096.size a ≤ S16x8x2x65536.size a
  k0_off80_inb : ∀ i : grid0.Coords, ∀ a, (k0_off80 i) a + S1x1x1x4096.size a ≤ S16x8x2x65536.size a
  k0_off81_inb : ∀ i : grid0.Coords, ∀ a, (k0_off81 i) a + S1x1x1x4096.size a ≤ S16x8x2x65536.size a
  k0_off82_inb : ∀ i : grid0.Coords, ∀ a, (k0_off82 i) a + S32768.size a ≤ S1572864.size a
  k0_off83_inb : ∀ i : grid0.Coords, ∀ a, (k0_off83 i) a + S1x1x1x32768.size a ≤ S16x8x2x65536.size a
  k0_off84_inb : ∀ i : grid0.Coords, ∀ a, (k0_off84 i) a + S1x1x1x32768.size a ≤ S16x8x2x65536.size a
  k0_off85_inb : ∀ i : grid0.Coords, ∀ a, (k0_off85 i) a + S32768.size a ≤ S1572864.size a
  k0_off86_inb : ∀ i : grid0.Coords, ∀ a, (k0_off86 i) a + S32768.size a ≤ S1572864.size a
  k0_off87_inb : ∀ i : grid0.Coords, ∀ a, (k0_off87 i) a + S1x1x1x32768.size a ≤ S16x8x2x65536.size a
  k0_off88_inb : ∀ i : grid0.Coords, ∀ a, (k0_off88 i) a + S1x1x1x4096.size a ≤ S16x8x2x65536.size a
  k0_off89_inb : ∀ i : grid0.Coords, ∀ a, (k0_off89 i) a + S1x1x1x4096.size a ≤ S16x8x2x65536.size a
  k0_off90_inb : ∀ i : grid0.Coords, ∀ a, (k0_off90 i) a + S1x1x1x4096.size a ≤ S16x8x2x65536.size a
  k0_off91_inb : ∀ i : grid0.Coords, ∀ a, (k0_off91 i) a + S1x1x1x4096.size a ≤ S16x8x2x65536.size a
  k0_off92_inb : ∀ i : grid0.Coords, ∀ a, (k0_off92 i) a + S1x1x1x4096.size a ≤ S16x8x2x65536.size a
  k0_off93_inb : ∀ i : grid0.Coords, ∀ a, (k0_off93 i) a + S1x1x1x4096.size a ≤ S16x8x2x65536.size a
  k0_off94_inb : ∀ i : grid0.Coords, ∀ a, (k0_off94 i) a + S1x1x1x4096.size a ≤ S16x8x2x65536.size a
  k0_off95_inb : ∀ i : grid0.Coords, ∀ a, (k0_off95 i) a + S1x1x1x4096.size a ≤ S16x8x2x65536.size a
  k0_off96_inb : ∀ i : grid0.Coords, ∀ a, (k0_off96 i) a + S32768.size a ≤ S1572864.size a
  k0_off97_inb : ∀ i : grid0.Coords, ∀ a, (k0_off97 i) a + S1x1x1x32768.size a ≤ S16x8x2x65536.size a
  k0_off98_inb : ∀ i : grid0.Coords, ∀ a, (k0_off98 i) a + S1x1x1x32768.size a ≤ S16x8x2x65536.size a
  k0_off99_inb : ∀ i : grid0.Coords, ∀ a, (k0_off99 i) a + S32768.size a ≤ S1572864.size a
  k0_off100_inb : ∀ i : grid0.Coords, ∀ a, (k0_off100 i) a + S32768.size a ≤ S1572864.size a
  k0_off101_inb : ∀ i : grid0.Coords, ∀ a, (k0_off101 i) a + S1x1x1x32768.size a ≤ S16x8x2x65536.size a
  k0_off102_inb : ∀ i : grid0.Coords, ∀ a, (k0_off102 i) a + S1x1x1x4096.size a ≤ S16x8x2x65536.size a
  k0_off103_inb : ∀ i : grid0.Coords, ∀ a, (k0_off103 i) a + S1x1x1x4096.size a ≤ S16x8x2x65536.size a
  k0_off104_inb : ∀ i : grid0.Coords, ∀ a, (k0_off104 i) a + S1x1x1x4096.size a ≤ S16x8x2x65536.size a
  k0_off105_inb : ∀ i : grid0.Coords, ∀ a, (k0_off105 i) a + S1x1x1x4096.size a ≤ S16x8x2x65536.size a
  k0_off106_inb : ∀ i : grid0.Coords, ∀ a, (k0_off106 i) a + S1x1x1x4096.size a ≤ S16x8x2x65536.size a
  k0_off107_inb : ∀ i : grid0.Coords, ∀ a, (k0_off107 i) a + S1x1x1x4096.size a ≤ S16x8x2x65536.size a
  k0_off108_inb : ∀ i : grid0.Coords, ∀ a, (k0_off108 i) a + S1x1x1x4096.size a ≤ S16x8x2x65536.size a
  k0_off109_inb : ∀ i : grid0.Coords, ∀ a, (k0_off109 i) a + S1x1x1x4096.size a ≤ S16x8x2x65536.size a
  k0_off110_inb : ∀ i : grid0.Coords, ∀ a, (k0_off110 i) a + S32768.size a ≤ S1572864.size a
  k0_off111_inb : ∀ i : grid0.Coords, ∀ a, (k0_off111 i) a + S1x1x1x32768.size a ≤ S16x8x2x65536.size a
  k0_off112_inb : ∀ i : grid0.Coords, ∀ a, (k0_off112 i) a + S1x1x1x32768.size a ≤ S16x8x2x65536.size a
  k0_off113_inb : ∀ i : grid0.Coords, ∀ a, (k0_off113 i) a + S32768.size a ≤ S1572864.size a
  k0_off114_inb : ∀ i : grid0.Coords, ∀ a, (k0_off114 i) a + S32768.size a ≤ S1572864.size a
  k0_off115_inb : ∀ i : grid0.Coords, ∀ a, (k0_off115 i) a + S1x1x1x32768.size a ≤ S16x8x2x65536.size a
  k0_off116_inb : ∀ i : grid0.Coords, ∀ a, (k0_off116 i) a + S1x1x1x4096.size a ≤ S16x8x2x65536.size a
  k0_off117_inb : ∀ i : grid0.Coords, ∀ a, (k0_off117 i) a + S1x1x1x4096.size a ≤ S16x8x2x65536.size a
  k0_off118_inb : ∀ i : grid0.Coords, ∀ a, (k0_off118 i) a + S1x1x1x4096.size a ≤ S16x8x2x65536.size a
  k0_off119_inb : ∀ i : grid0.Coords, ∀ a, (k0_off119 i) a + S1x1x1x4096.size a ≤ S16x8x2x65536.size a
  k0_off120_inb : ∀ i : grid0.Coords, ∀ a, (k0_off120 i) a + S1x1x1x4096.size a ≤ S16x8x2x65536.size a
  k0_off121_inb : ∀ i : grid0.Coords, ∀ a, (k0_off121 i) a + S1x1x1x4096.size a ≤ S16x8x2x65536.size a
  k0_off122_inb : ∀ i : grid0.Coords, ∀ a, (k0_off122 i) a + S1x1x1x4096.size a ≤ S16x8x2x65536.size a
  k0_off123_inb : ∀ i : grid0.Coords, ∀ a, (k0_off123 i) a + S1x1x1x4096.size a ≤ S16x8x2x65536.size a
  k0_off124_inb : ∀ i : grid0.Coords, ∀ a, (k0_off124 i) a + S32768.size a ≤ S1572864.size a
  k0_off125_inb : ∀ i : grid0.Coords, ∀ a, (k0_off125 i) a + S1x1x1x32768.size a ≤ S16x8x2x65536.size a
  k0_off126_inb : ∀ i : grid0.Coords, ∀ a, (k0_off126 i) a + S1x1x1x32768.size a ≤ S16x8x2x65536.size a
  k0_off127_inb : ∀ i : grid0.Coords, ∀ a, (k0_off127 i) a + S32768.size a ≤ S1572864.size a
  k0_off128_inb : ∀ i : grid0.Coords, ∀ a, (k0_off128 i) a + S32768.size a ≤ S1572864.size a
  k0_off129_inb : ∀ i : grid0.Coords, ∀ a, (k0_off129 i) a + S1x1x1x32768.size a ≤ S16x8x2x65536.size a
  k0_off130_inb : ∀ i : grid0.Coords, ∀ a, (k0_off130 i) a + S1x1x1x4096.size a ≤ S16x8x2x65536.size a
  k0_off131_inb : ∀ i : grid0.Coords, ∀ a, (k0_off131 i) a + S1x1x1x4096.size a ≤ S16x8x2x65536.size a
  k0_off132_inb : ∀ i : grid0.Coords, ∀ a, (k0_off132 i) a + S1x1x1x4096.size a ≤ S16x8x2x65536.size a
  k0_off133_inb : ∀ i : grid0.Coords, ∀ a, (k0_off133 i) a + S1x1x1x4096.size a ≤ S16x8x2x65536.size a
  k0_off134_inb : ∀ i : grid0.Coords, ∀ a, (k0_off134 i) a + S1x1x1x4096.size a ≤ S16x8x2x65536.size a
  k0_off135_inb : ∀ i : grid0.Coords, ∀ a, (k0_off135 i) a + S1x1x1x4096.size a ≤ S16x8x2x65536.size a
  k0_off136_inb : ∀ i : grid0.Coords, ∀ a, (k0_off136 i) a + S1x1x1x4096.size a ≤ S16x8x2x65536.size a
  k0_off137_inb : ∀ i : grid0.Coords, ∀ a, (k0_off137 i) a + S1x1x1x4096.size a ≤ S16x8x2x65536.size a
  k0_off138_inb : ∀ i : grid0.Coords, ∀ a, (k0_off138 i) a + S32768.size a ≤ S1572864.size a
  k0_off139_inb : ∀ i : grid0.Coords, ∀ a, (k0_off139 i) a + S1x1x1x32768.size a ≤ S16x8x2x65536.size a
  k0_off140_inb : ∀ i : grid0.Coords, ∀ a, (k0_off140 i) a + S1x1x1x32768.size a ≤ S16x8x2x65536.size a
  k0_off141_inb : ∀ i : grid0.Coords, ∀ a, (k0_off141 i) a + S32768.size a ≤ S1572864.size a
  k0_off142_inb : ∀ i : grid0.Coords, ∀ a, (k0_off142 i) a + S32768.size a ≤ S1572864.size a
  k0_off143_inb : ∀ i : grid0.Coords, ∀ a, (k0_off143 i) a + S1x1x1x32768.size a ≤ S16x8x2x65536.size a
  k0_off144_inb : ∀ i : grid0.Coords, ∀ a, (k0_off144 i) a + S1x1x1x4096.size a ≤ S16x8x2x65536.size a
  k0_off145_inb : ∀ i : grid0.Coords, ∀ a, (k0_off145 i) a + S1x1x1x4096.size a ≤ S16x8x2x65536.size a
  k0_off146_inb : ∀ i : grid0.Coords, ∀ a, (k0_off146 i) a + S1x1x1x4096.size a ≤ S16x8x2x65536.size a
  k0_off147_inb : ∀ i : grid0.Coords, ∀ a, (k0_off147 i) a + S1x1x1x4096.size a ≤ S16x8x2x65536.size a
  k0_off148_inb : ∀ i : grid0.Coords, ∀ a, (k0_off148 i) a + S1x1x1x4096.size a ≤ S16x8x2x65536.size a
  k0_off149_inb : ∀ i : grid0.Coords, ∀ a, (k0_off149 i) a + S1x1x1x4096.size a ≤ S16x8x2x65536.size a
  k0_off150_inb : ∀ i : grid0.Coords, ∀ a, (k0_off150 i) a + S1x1x1x4096.size a ≤ S16x8x2x65536.size a
  k0_off151_inb : ∀ i : grid0.Coords, ∀ a, (k0_off151 i) a + S1x1x1x4096.size a ≤ S16x8x2x65536.size a
  k0_off152_inb : ∀ i : grid0.Coords, ∀ a, (k0_off152 i) a + S32768.size a ≤ S1572864.size a
  k0_off153_inb : ∀ i : grid0.Coords, ∀ a, (k0_off153 i) a + S1x1x1x32768.size a ≤ S16x8x2x65536.size a
  k0_off154_inb : ∀ i : grid0.Coords, ∀ a, (k0_off154 i) a + S1x1x1x32768.size a ≤ S16x8x2x65536.size a
  k0_off155_inb : ∀ i : grid0.Coords, ∀ a, (k0_off155 i) a + S32768.size a ≤ S1572864.size a
  k0_off156_inb : ∀ i : grid0.Coords, ∀ a, (k0_off156 i) a + S32768.size a ≤ S1572864.size a
  k0_off157_inb : ∀ i : grid0.Coords, ∀ a, (k0_off157 i) a + S1x1x1x32768.size a ≤ S16x8x2x65536.size a
  k0_off158_inb : ∀ i : grid0.Coords, ∀ a, (k0_off158 i) a + S1x1x1x4096.size a ≤ S16x8x2x65536.size a
  k0_off159_inb : ∀ i : grid0.Coords, ∀ a, (k0_off159 i) a + S1x1x1x4096.size a ≤ S16x8x2x65536.size a
  k0_off160_inb : ∀ i : grid0.Coords, ∀ a, (k0_off160 i) a + S1x1x1x4096.size a ≤ S16x8x2x65536.size a
  k0_off161_inb : ∀ i : grid0.Coords, ∀ a, (k0_off161 i) a + S1x1x1x4096.size a ≤ S16x8x2x65536.size a
  k0_off162_inb : ∀ i : grid0.Coords, ∀ a, (k0_off162 i) a + S1x1x1x4096.size a ≤ S16x8x2x65536.size a
  k0_off163_inb : ∀ i : grid0.Coords, ∀ a, (k0_off163 i) a + S1x1x1x4096.size a ≤ S16x8x2x65536.size a
  k0_off164_inb : ∀ i : grid0.Coords, ∀ a, (k0_off164 i) a + S1x1x1x4096.size a ≤ S16x8x2x65536.size a
  k0_off165_inb : ∀ i : grid0.Coords, ∀ a, (k0_off165 i) a + S1x1x1x4096.size a ≤ S16x8x2x65536.size a
  k0_off166_inb : ∀ i : grid0.Coords, ∀ a, (k0_off166 i) a + S32768.size a ≤ S1572864.size a
  k0_off167_inb : ∀ i : grid0.Coords, ∀ a, (k0_off167 i) a + S1x1x1x32768.size a ≤ S16x8x2x65536.size a
  k0_off168_inb : ∀ i : grid0.Coords, ∀ a, (k0_off168 i) a + S1x1x1x32768.size a ≤ S16x8x2x65536.size a
  k0_off169_inb : ∀ i : grid0.Coords, ∀ a, (k0_off169 i) a + S32768.size a ≤ S1572864.size a
  k0_off170_inb : ∀ i : grid0.Coords, ∀ a, (k0_off170 i) a + S32768.size a ≤ S1572864.size a
  k0_off171_inb : ∀ i : grid0.Coords, ∀ a, (k0_off171 i) a + S1x1x1x32768.size a ≤ S16x8x2x65536.size a
  k0_off172_inb : ∀ i : grid0.Coords, ∀ a, (k0_off172 i) a + S1x1x1x4096.size a ≤ S16x8x2x65536.size a
  k0_off173_inb : ∀ i : grid0.Coords, ∀ a, (k0_off173 i) a + S1x1x1x4096.size a ≤ S16x8x2x65536.size a
  k0_off174_inb : ∀ i : grid0.Coords, ∀ a, (k0_off174 i) a + S1x1x1x4096.size a ≤ S16x8x2x65536.size a
  k0_off175_inb : ∀ i : grid0.Coords, ∀ a, (k0_off175 i) a + S1x1x1x4096.size a ≤ S16x8x2x65536.size a
  k0_off176_inb : ∀ i : grid0.Coords, ∀ a, (k0_off176 i) a + S1x1x1x4096.size a ≤ S16x8x2x65536.size a
  k0_off177_inb : ∀ i : grid0.Coords, ∀ a, (k0_off177 i) a + S1x1x1x4096.size a ≤ S16x8x2x65536.size a
  k0_off178_inb : ∀ i : grid0.Coords, ∀ a, (k0_off178 i) a + S1x1x1x4096.size a ≤ S16x8x2x65536.size a
  k0_off179_inb : ∀ i : grid0.Coords, ∀ a, (k0_off179 i) a + S1x1x1x4096.size a ≤ S16x8x2x65536.size a
  k0_off180_inb : ∀ i : grid0.Coords, ∀ a, (k0_off180 i) a + S32768.size a ≤ S1572864.size a
  k0_off181_inb : ∀ i : grid0.Coords, ∀ a, (k0_off181 i) a + S1x1x1x32768.size a ≤ S16x8x2x65536.size a
  k0_off182_inb : ∀ i : grid0.Coords, ∀ a, (k0_off182 i) a + S1x1x1x32768.size a ≤ S16x8x2x65536.size a
  k0_off183_inb : ∀ i : grid0.Coords, ∀ a, (k0_off183 i) a + S32768.size a ≤ S1572864.size a
  k0_off184_inb : ∀ i : grid0.Coords, ∀ a, (k0_off184 i) a + S32768.size a ≤ S1572864.size a
  k0_off185_inb : ∀ i : grid0.Coords, ∀ a, (k0_off185 i) a + S1x1x1x32768.size a ≤ S16x8x2x65536.size a
  k0_off186_inb : ∀ i : grid0.Coords, ∀ a, (k0_off186 i) a + S1x1x1x4096.size a ≤ S16x8x2x65536.size a
  k0_off187_inb : ∀ i : grid0.Coords, ∀ a, (k0_off187 i) a + S1x1x1x4096.size a ≤ S16x8x2x65536.size a
  k0_off188_inb : ∀ i : grid0.Coords, ∀ a, (k0_off188 i) a + S1x1x1x4096.size a ≤ S16x8x2x65536.size a
  k0_off189_inb : ∀ i : grid0.Coords, ∀ a, (k0_off189 i) a + S1x1x1x4096.size a ≤ S16x8x2x65536.size a
  k0_off190_inb : ∀ i : grid0.Coords, ∀ a, (k0_off190 i) a + S1x1x1x4096.size a ≤ S16x8x2x65536.size a
  k0_off191_inb : ∀ i : grid0.Coords, ∀ a, (k0_off191 i) a + S1x1x1x4096.size a ≤ S16x8x2x65536.size a
  k0_off192_inb : ∀ i : grid0.Coords, ∀ a, (k0_off192 i) a + S1x1x1x4096.size a ≤ S16x8x2x65536.size a
  k0_off193_inb : ∀ i : grid0.Coords, ∀ a, (k0_off193 i) a + S1x1x1x4096.size a ≤ S16x8x2x65536.size a
  k0_off194_inb : ∀ i : grid0.Coords, ∀ a, (k0_off194 i) a + S32768.size a ≤ S1572864.size a
  k0_off195_inb : ∀ i : grid0.Coords, ∀ a, (k0_off195 i) a + S1x1x1x32768.size a ≤ S16x8x2x65536.size a
  k0_off196_inb : ∀ i : grid0.Coords, ∀ a, (k0_off196 i) a + S1x1x1x32768.size a ≤ S16x8x2x65536.size a
  k0_off197_inb : ∀ i : grid0.Coords, ∀ a, (k0_off197 i) a + S32768.size a ≤ S1572864.size a
  k0_off198_inb : ∀ i : grid0.Coords, ∀ a, (k0_off198 i) a + S32768.size a ≤ S1572864.size a
  k0_off199_inb : ∀ i : grid0.Coords, ∀ a, (k0_off199 i) a + S1x1x1x32768.size a ≤ S16x8x2x65536.size a
  k0_off200_inb : ∀ i : grid0.Coords, ∀ a, (k0_off200 i) a + S1x1x1x4096.size a ≤ S16x8x2x65536.size a
  k0_off201_inb : ∀ i : grid0.Coords, ∀ a, (k0_off201 i) a + S1x1x1x4096.size a ≤ S16x8x2x65536.size a
  k0_off202_inb : ∀ i : grid0.Coords, ∀ a, (k0_off202 i) a + S1x1x1x4096.size a ≤ S16x8x2x65536.size a
  k0_off203_inb : ∀ i : grid0.Coords, ∀ a, (k0_off203 i) a + S1x1x1x4096.size a ≤ S16x8x2x65536.size a
  k0_off204_inb : ∀ i : grid0.Coords, ∀ a, (k0_off204 i) a + S1x1x1x4096.size a ≤ S16x8x2x65536.size a
  k0_off205_inb : ∀ i : grid0.Coords, ∀ a, (k0_off205 i) a + S1x1x1x4096.size a ≤ S16x8x2x65536.size a
  k0_off206_inb : ∀ i : grid0.Coords, ∀ a, (k0_off206 i) a + S1x1x1x4096.size a ≤ S16x8x2x65536.size a
  k0_off207_inb : ∀ i : grid0.Coords, ∀ a, (k0_off207 i) a + S1x1x1x4096.size a ≤ S16x8x2x65536.size a
  k0_off208_inb : ∀ i : grid0.Coords, ∀ a, (k0_off208 i) a + S32768.size a ≤ S1572864.size a
  k0_off209_inb : ∀ i : grid0.Coords, ∀ a, (k0_off209 i) a + S1x1x1x32768.size a ≤ S16x8x2x65536.size a
  k0_off210_inb : ∀ i : grid0.Coords, ∀ a, (k0_off210 i) a + S1x1x1x4096.size a ≤ S16x8x2x65536.size a
  k0_off211_inb : ∀ i : grid0.Coords, ∀ a, (k0_off211 i) a + S1x1x1x4096.size a ≤ S16x8x2x65536.size a
  k0_off212_inb : ∀ i : grid0.Coords, ∀ a, (k0_off212 i) a + S1x1x1x4096.size a ≤ S16x8x2x65536.size a
  k0_off213_inb : ∀ i : grid0.Coords, ∀ a, (k0_off213 i) a + S1x1x1x4096.size a ≤ S16x8x2x65536.size a
  k0_off214_inb : ∀ i : grid0.Coords, ∀ a, (k0_off214 i) a + S1x1x1x4096.size a ≤ S16x8x2x65536.size a
  k0_off215_inb : ∀ i : grid0.Coords, ∀ a, (k0_off215 i) a + S1x1x1x4096.size a ≤ S16x8x2x65536.size a
  k0_off216_inb : ∀ i : grid0.Coords, ∀ a, (k0_off216 i) a + S1x1x1x4096.size a ≤ S16x8x2x65536.size a
  k0_off217_inb : ∀ i : grid0.Coords, ∀ a, (k0_off217 i) a + S1x1x1x4096.size a ≤ S16x8x2x65536.size a
  k0_off218_inb : ∀ i : grid0.Coords, ∀ a, (k0_off218 i) a + S32768.size a ≤ S1572864.size a
  k0_off219_inb : ∀ i : grid0.Coords, ∀ a, (k0_off219 i) a + S1x1x1x32768.size a ≤ S16x8x2x65536.size a
  k0_off220_inb : ∀ i : grid0.Coords, ∀ a, (k0_off220 i) a + S1x1x1x32768.size a ≤ S16x8x2x65536.size a
  k0_off221_inb : ∀ i : grid0.Coords, ∀ a, (k0_off221 i) a + S32768.size a ≤ S1572864.size a
  k0_off222_inb : ∀ i : grid0.Coords, ∀ a, (k0_off222 i) a + S1x1x1x32768.size a ≤ S16x8x2x65536.size a
  k0_off223_inb : ∀ i : grid0.Coords, ∀ a, (k0_off223 i) a + S32768.size a ≤ S1572864.size a
  k0_off224_inb : ∀ i : grid0.Coords, ∀ a, (k0_off224 i) a + S1x1x1x32768.size a ≤ S16x8x2x65536.size a
  k0_off225_inb : ∀ i : grid0.Coords, ∀ a, (k0_off225 i) a + S32768.size a ≤ S1572864.size a
  k0_off226_inb : ∀ i : grid0.Coords, ∀ a, (k0_off226 i) a + S1x1x1x4096.size a ≤ S16x8x2x65536.size a
  k0_off227_inb : ∀ i : grid0.Coords, ∀ a, (k0_off227 i) a + S1x1x1x4096.size a ≤ S16x8x2x65536.size a
  k0_off228_inb : ∀ i : grid0.Coords, ∀ a, (k0_off228 i) a + S1x1x1x4096.size a ≤ S16x8x2x65536.size a
  k0_off229_inb : ∀ i : grid0.Coords, ∀ a, (k0_off229 i) a + S1x1x1x4096.size a ≤ S16x8x2x65536.size a
  k0_off230_inb : ∀ i : grid0.Coords, ∀ a, (k0_off230 i) a + S1x1x1x4096.size a ≤ S16x8x2x65536.size a
  k0_off231_inb : ∀ i : grid0.Coords, ∀ a, (k0_off231 i) a + S1x1x1x4096.size a ≤ S16x8x2x65536.size a
  k0_off232_inb : ∀ i : grid0.Coords, ∀ a, (k0_off232 i) a + S1x1x1x4096.size a ≤ S16x8x2x65536.size a
  k0_off233_inb : ∀ i : grid0.Coords, ∀ a, (k0_off233 i) a + S1x1x1x4096.size a ≤ S16x8x2x65536.size a
  k0_off234_inb : ∀ i : grid0.Coords, ∀ a, (k0_off234 i) a + S1x1x1x4096.size a ≤ S16x8x2x65536.size a
  k0_off235_inb : ∀ i : grid0.Coords, ∀ a, (k0_off235 i) a + S1x1x1x4096.size a ≤ S16x8x2x65536.size a
  k0_off236_inb : ∀ i : grid0.Coords, ∀ a, (k0_off236 i) a + S1x1x1x4096.size a ≤ S16x8x2x65536.size a
  k0_off237_inb : ∀ i : grid0.Coords, ∀ a, (k0_off237 i) a + S1x1x1x4096.size a ≤ S16x8x2x65536.size a
  k0_off238_inb : ∀ i : grid0.Coords, ∀ a, (k0_off238 i) a + S1x1x1x4096.size a ≤ S16x8x2x65536.size a
  k0_off239_inb : ∀ i : grid0.Coords, ∀ a, (k0_off239 i) a + S1x1x1x4096.size a ≤ S16x8x2x65536.size a
  k0_off240_inb : ∀ i : grid0.Coords, ∀ a, (k0_off240 i) a + S1x1x1x4096.size a ≤ S16x8x2x65536.size a
  k0_off241_inb : ∀ i : grid0.Coords, ∀ a, (k0_off241 i) a + S1x1x1x4096.size a ≤ S16x8x2x65536.size a
  k0_off242_inb : ∀ i : grid0.Coords, ∀ a, (k0_off242 i) a + S1x1x1x4096.size a ≤ S16x8x2x65536.size a
  k0_off243_inb : ∀ i : grid0.Coords, ∀ a, (k0_off243 i) a + S1x1x1x4096.size a ≤ S16x8x2x65536.size a
  k0_off244_inb : ∀ i : grid0.Coords, ∀ a, (k0_off244 i) a + S1x1x1x4096.size a ≤ S16x8x2x65536.size a
  k0_off245_inb : ∀ i : grid0.Coords, ∀ a, (k0_off245 i) a + S1x1x1x4096.size a ≤ S16x8x2x65536.size a
  k0_off246_inb : ∀ i : grid0.Coords, ∀ a, (k0_off246 i) a + S1x1x1x4096.size a ≤ S16x8x2x65536.size a
  k0_off247_inb : ∀ i : grid0.Coords, ∀ a, (k0_off247 i) a + S1x1x1x4096.size a ≤ S16x8x2x65536.size a
  k0_off248_inb : ∀ i : grid0.Coords, ∀ a, (k0_off248 i) a + S1x1x1x4096.size a ≤ S16x8x2x65536.size a
  k0_off249_inb : ∀ i : grid0.Coords, ∀ a, (k0_off249 i) a + S1x1x1x4096.size a ≤ S16x8x2x65536.size a
  k0_off250_inb : ∀ i : grid0.Coords, ∀ a, (k0_off250 i) a + S1x1x1x4096.size a ≤ S16x8x2x65536.size a
  k0_off251_inb : ∀ i : grid0.Coords, ∀ a, (k0_off251 i) a + S1x1x1x4096.size a ≤ S16x8x2x65536.size a
  k0_off252_inb : ∀ i : grid0.Coords, ∀ a, (k0_off252 i) a + S1x1x1x4096.size a ≤ S16x8x2x65536.size a
  k0_off253_inb : ∀ i : grid0.Coords, ∀ a, (k0_off253 i) a + S1x1x1x4096.size a ≤ S16x8x2x65536.size a
  k0_off254_inb : ∀ i : grid0.Coords, ∀ a, (k0_off254 i) a + S1x1x1x4096.size a ≤ S16x8x2x65536.size a
  k0_off255_inb : ∀ i : grid0.Coords, ∀ a, (k0_off255 i) a + S1x1x1x4096.size a ≤ S16x8x2x65536.size a
  k0_off256_inb : ∀ i : grid0.Coords, ∀ a, (k0_off256 i) a + S1x1x1x4096.size a ≤ S16x8x2x65536.size a
  k0_off257_inb : ∀ i : grid0.Coords, ∀ a, (k0_off257 i) a + S1x1x1x4096.size a ≤ S16x8x2x65536.size a
  k0_off258_inb : ∀ i : grid0.Coords, ∀ a, (k0_off258 i) a + S1x1x1x4096.size a ≤ S16x8x2x65536.size a
  k0_off259_inb : ∀ i : grid0.Coords, ∀ a, (k0_off259 i) a + S1x1x1x4096.size a ≤ S16x8x2x65536.size a
  k0_off260_inb : ∀ i : grid0.Coords, ∀ a, (k0_off260 i) a + S1x1x1x4096.size a ≤ S16x8x2x65536.size a
  k0_off261_inb : ∀ i : grid0.Coords, ∀ a, (k0_off261 i) a + S1x1x1x4096.size a ≤ S16x8x2x65536.size a
  k0_off262_inb : ∀ i : grid0.Coords, ∀ a, (k0_off262 i) a + S1x1x1x4096.size a ≤ S16x8x2x65536.size a
  k0_off263_inb : ∀ i : grid0.Coords, ∀ a, (k0_off263 i) a + S1x1x1x4096.size a ≤ S16x8x2x65536.size a
  k0_off264_inb : ∀ i : grid0.Coords, ∀ a, (k0_off264 i) a + S1x1x1x4096.size a ≤ S16x8x2x65536.size a
  k0_off265_inb : ∀ i : grid0.Coords, ∀ a, (k0_off265 i) a + S1x1x1x4096.size a ≤ S16x8x2x65536.size a
  k0_off266_inb : ∀ i : grid0.Coords, ∀ a, (k0_off266 i) a + S1x1x1x4096.size a ≤ S16x8x2x65536.size a
  k0_off267_inb : ∀ i : grid0.Coords, ∀ a, (k0_off267 i) a + S1x1x1x4096.size a ≤ S16x8x2x65536.size a
  k0_off268_inb : ∀ i : grid0.Coords, ∀ a, (k0_off268 i) a + S1x1x1x4096.size a ≤ S16x8x2x65536.size a
  k0_off269_inb : ∀ i : grid0.Coords, ∀ a, (k0_off269 i) a + S1x1x1x4096.size a ≤ S16x8x2x65536.size a
  k0_off270_inb : ∀ i : grid0.Coords, ∀ a, (k0_off270 i) a + S1x1x1x4096.size a ≤ S16x8x2x65536.size a
  k0_off271_inb : ∀ i : grid0.Coords, ∀ a, (k0_off271 i) a + S1x1x1x4096.size a ≤ S16x8x2x65536.size a
  k0_off272_inb : ∀ i : grid0.Coords, ∀ a, (k0_off272 i) a + S1x1x1x4096.size a ≤ S16x8x2x65536.size a
  k0_off273_inb : ∀ i : grid0.Coords, ∀ a, (k0_off273 i) a + S1x1x1x4096.size a ≤ S16x8x2x65536.size a
  k0_off274_inb : ∀ i : grid0.Coords, ∀ a, (k0_off274 i) a + S1x1x1x4096.size a ≤ S16x8x2x65536.size a
  k0_off275_inb : ∀ i : grid0.Coords, ∀ a, (k0_off275 i) a + S1x1x1x4096.size a ≤ S16x8x2x65536.size a
  k0_off276_inb : ∀ i : grid0.Coords, ∀ a, (k0_off276 i) a + S1x1x1x4096.size a ≤ S16x8x2x65536.size a
  k0_off277_inb : ∀ i : grid0.Coords, ∀ a, (k0_off277 i) a + S1x1x1x4096.size a ≤ S16x8x2x65536.size a
  k0_off278_inb : ∀ i : grid0.Coords, ∀ a, (k0_off278 i) a + S1x1x1x4096.size a ≤ S16x8x2x65536.size a
  k0_off279_inb : ∀ i : grid0.Coords, ∀ a, (k0_off279 i) a + S1x1x1x4096.size a ≤ S16x8x2x65536.size a
  k0_off280_inb : ∀ i : grid0.Coords, ∀ a, (k0_off280 i) a + S1x1x1x4096.size a ≤ S16x8x2x65536.size a
  k0_off281_inb : ∀ i : grid0.Coords, ∀ a, (k0_off281 i) a + S1x1x1x4096.size a ≤ S16x8x2x65536.size a
  k0_off282_inb : ∀ i : grid0.Coords, ∀ a, (k0_off282 i) a + S1x1x1x4096.size a ≤ S16x8x2x65536.size a
  k0_off283_inb : ∀ i : grid0.Coords, ∀ a, (k0_off283 i) a + S1x1x1x4096.size a ≤ S16x8x2x65536.size a
  k0_off284_inb : ∀ i : grid0.Coords, ∀ a, (k0_off284 i) a + S1x1x1x4096.size a ≤ S16x8x2x65536.size a
  k0_off285_inb : ∀ i : grid0.Coords, ∀ a, (k0_off285 i) a + S1x1x1x4096.size a ≤ S16x8x2x65536.size a
  k0_off286_inb : ∀ i : grid0.Coords, ∀ a, (k0_off286 i) a + S1x1x1x4096.size a ≤ S16x8x2x65536.size a
  k0_off287_inb : ∀ i : grid0.Coords, ∀ a, (k0_off287 i) a + S1x1x1x4096.size a ≤ S16x8x2x65536.size a
  k0_off288_inb : ∀ i : grid0.Coords, ∀ a, (k0_off288 i) a + S1x1x1x4096.size a ≤ S16x8x2x65536.size a
  k0_off289_inb : ∀ i : grid0.Coords, ∀ a, (k0_off289 i) a + S1x1x1x4096.size a ≤ S16x8x2x65536.size a
  k0_off290_inb : ∀ i : grid0.Coords, ∀ a, (k0_off290 i) a + S1x1x1x4096.size a ≤ S16x8x2x65536.size a
  k0_off291_inb : ∀ i : grid0.Coords, ∀ a, (k0_off291 i) a + S1x1x1x4096.size a ≤ S16x8x2x65536.size a
  k0_off292_inb : ∀ i : grid0.Coords, ∀ a, (k0_off292 i) a + S1x1x1x4096.size a ≤ S16x8x2x65536.size a
  k0_off293_inb : ∀ i : grid0.Coords, ∀ a, (k0_off293 i) a + S1x1x1x4096.size a ≤ S16x8x2x65536.size a
  k0_off294_inb : ∀ i : grid0.Coords, ∀ a, (k0_off294 i) a + S1x1x1x4096.size a ≤ S16x8x2x65536.size a
  k0_off295_inb : ∀ i : grid0.Coords, ∀ a, (k0_off295 i) a + S1x1x1x4096.size a ≤ S16x8x2x65536.size a
  k0_off296_inb : ∀ i : grid0.Coords, ∀ a, (k0_off296 i) a + S1x1x1x4096.size a ≤ S16x8x2x65536.size a
  k0_off297_inb : ∀ i : grid0.Coords, ∀ a, (k0_off297 i) a + S1x1x1x4096.size a ≤ S16x8x2x65536.size a
  k0_off298_inb : ∀ i : grid0.Coords, ∀ a, (k0_off298 i) a + S1x1x1x4096.size a ≤ S16x8x2x65536.size a
  k0_off299_inb : ∀ i : grid0.Coords, ∀ a, (k0_off299 i) a + S1x1x1x4096.size a ≤ S16x8x2x65536.size a
  k0_off300_inb : ∀ i : grid0.Coords, ∀ a, (k0_off300 i) a + S1x1x1x4096.size a ≤ S16x8x2x65536.size a
  k0_off301_inb : ∀ i : grid0.Coords, ∀ a, (k0_off301 i) a + S1x1x1x4096.size a ≤ S16x8x2x65536.size a
  k0_off302_inb : ∀ i : grid0.Coords, ∀ a, (k0_off302 i) a + S1x1x1x4096.size a ≤ S16x8x2x65536.size a
  k0_off303_inb : ∀ i : grid0.Coords, ∀ a, (k0_off303 i) a + S1x1x1x4096.size a ≤ S16x8x2x65536.size a
  k0_off304_inb : ∀ i : grid0.Coords, ∀ a, (k0_off304 i) a + S1x1x1x4096.size a ≤ S16x8x2x65536.size a
  k0_off305_inb : ∀ i : grid0.Coords, ∀ a, (k0_off305 i) a + S1x1x1x4096.size a ≤ S16x8x2x65536.size a
  k0_off306_inb : ∀ i : grid0.Coords, ∀ a, (k0_off306 i) a + S1x1x1x4096.size a ≤ S16x8x2x65536.size a
  k0_off307_inb : ∀ i : grid0.Coords, ∀ a, (k0_off307 i) a + S1x1x1x4096.size a ≤ S16x8x2x65536.size a
  k0_off308_inb : ∀ i : grid0.Coords, ∀ a, (k0_off308 i) a + S1x1x1x4096.size a ≤ S16x8x2x65536.size a
  k0_off309_inb : ∀ i : grid0.Coords, ∀ a, (k0_off309 i) a + S1x1x1x4096.size a ≤ S16x8x2x65536.size a
  k0_off310_inb : ∀ i : grid0.Coords, ∀ a, (k0_off310 i) a + S1x1x1x4096.size a ≤ S16x8x2x65536.size a
  k0_off311_inb : ∀ i : grid0.Coords, ∀ a, (k0_off311 i) a + S1x1x1x4096.size a ≤ S16x8x2x65536.size a
  k0_off312_inb : ∀ i : grid0.Coords, ∀ a, (k0_off312 i) a + S1x1x1x4096.size a ≤ S16x8x2x65536.size a
  k0_off313_inb : ∀ i : grid0.Coords, ∀ a, (k0_off313 i) a + S1x1x1x4096.size a ≤ S16x8x2x65536.size a
  k0_off314_inb : ∀ i : grid0.Coords, ∀ a, (k0_off314 i) a + S1x1x1x4096.size a ≤ S16x8x2x65536.size a
  k0_off315_inb : ∀ i : grid0.Coords, ∀ a, (k0_off315 i) a + S1x1x1x4096.size a ≤ S16x8x2x65536.size a
  k0_off316_inb : ∀ i : grid0.Coords, ∀ a, (k0_off316 i) a + S1x1x1x4096.size a ≤ S16x8x2x65536.size a
  k0_off317_inb : ∀ i : grid0.Coords, ∀ a, (k0_off317 i) a + S1x1x1x4096.size a ≤ S16x8x2x65536.size a
  k0_off318_inb : ∀ i : grid0.Coords, ∀ a, (k0_off318 i) a + S1x1x1x4096.size a ≤ S16x8x2x65536.size a
  k0_off319_inb : ∀ i : grid0.Coords, ∀ a, (k0_off319 i) a + S1x1x1x4096.size a ≤ S16x8x2x65536.size a
  k0_off320_inb : ∀ i : grid0.Coords, ∀ a, (k0_off320 i) a + S1x1x1x4096.size a ≤ S16x8x2x65536.size a
  k0_off321_inb : ∀ i : grid0.Coords, ∀ a, (k0_off321 i) a + S1x1x1x4096.size a ≤ S16x8x2x65536.size a
  k0_off322_inb : ∀ i : grid0.Coords, ∀ a, (k0_off322 i) a + S1x1x1x4096.size a ≤ S16x8x2x65536.size a
  k0_off323_inb : ∀ i : grid0.Coords, ∀ a, (k0_off323 i) a + S1x1x1x4096.size a ≤ S16x8x2x65536.size a
  k0_off324_inb : ∀ i : grid0.Coords, ∀ a, (k0_off324 i) a + S1x1x1x4096.size a ≤ S16x8x2x65536.size a
  k0_off325_inb : ∀ i : grid0.Coords, ∀ a, (k0_off325 i) a + S1x1x1x4096.size a ≤ S16x8x2x65536.size a
  k0_off326_inb : ∀ i : grid0.Coords, ∀ a, (k0_off326 i) a + S1x1x1x4096.size a ≤ S16x8x2x65536.size a
  k0_off327_inb : ∀ i : grid0.Coords, ∀ a, (k0_off327 i) a + S1x1x1x4096.size a ≤ S16x8x2x65536.size a
  k0_off328_inb : ∀ i : grid0.Coords, ∀ a, (k0_off328 i) a + S1x1x1x4096.size a ≤ S16x8x2x65536.size a
  k0_off329_inb : ∀ i : grid0.Coords, ∀ a, (k0_off329 i) a + S1x1x1x4096.size a ≤ S16x8x2x65536.size a
  k0_off330_inb : ∀ i : grid0.Coords, ∀ a, (k0_off330 i) a + S1x1x1x4096.size a ≤ S16x8x2x65536.size a
  k0_off331_inb : ∀ i : grid0.Coords, ∀ a, (k0_off331 i) a + S1x1x1x4096.size a ≤ S16x8x2x65536.size a
  k0_off332_inb : ∀ i : grid0.Coords, ∀ a, (k0_off332 i) a + S1x1x1x4096.size a ≤ S16x8x2x65536.size a
  k0_off333_inb : ∀ i : grid0.Coords, ∀ a, (k0_off333 i) a + S1x1x1x4096.size a ≤ S16x8x2x65536.size a
  k0_off334_inb : ∀ i : grid0.Coords, ∀ a, (k0_off334 i) a + S1x1x1x4096.size a ≤ S16x8x2x65536.size a
  k0_off335_inb : ∀ i : grid0.Coords, ∀ a, (k0_off335 i) a + S1x1x1x4096.size a ≤ S16x8x2x65536.size a
  k0_off336_inb : ∀ i : grid0.Coords, ∀ a, (k0_off336 i) a + S1x1x1x4096.size a ≤ S16x8x2x65536.size a
  k0_off337_inb : ∀ i : grid0.Coords, ∀ a, (k0_off337 i) a + S1x1x1x4096.size a ≤ S16x8x2x65536.size a
  k0_off338_inb : ∀ i : grid0.Coords, ∀ a, (k0_off338 i) a + S1x1x1x4096.size a ≤ S16x8x2x65536.size a
  k0_off339_inb : ∀ i : grid0.Coords, ∀ a, (k0_off339 i) a + S1x1x1x4096.size a ≤ S16x8x2x65536.size a
  k0_off340_inb : ∀ i : grid0.Coords, ∀ a, (k0_off340 i) a + S1x1x1x4096.size a ≤ S16x8x2x65536.size a
  k0_off341_inb : ∀ i : grid0.Coords, ∀ a, (k0_off341 i) a + S1x1x1x4096.size a ≤ S16x8x2x65536.size a
  k0_off342_inb : ∀ i : grid0.Coords, ∀ a, (k0_off342 i) a + S1x1x1x4096.size a ≤ S16x8x2x65536.size a
  k0_off343_inb : ∀ i : grid0.Coords, ∀ a, (k0_off343 i) a + S1x1x1x4096.size a ≤ S16x8x2x65536.size a
  k0_off344_inb : ∀ i : grid0.Coords, ∀ a, (k0_off344 i) a + S1x1x1x4096.size a ≤ S16x8x2x65536.size a
  k0_off345_inb : ∀ i : grid0.Coords, ∀ a, (k0_off345 i) a + S1x1x1x4096.size a ≤ S16x8x2x65536.size a
  k0_off346_inb : ∀ i : grid0.Coords, ∀ a, (k0_off346 i) a + S1x1x1x4096.size a ≤ S16x8x2x65536.size a
  k0_off347_inb : ∀ i : grid0.Coords, ∀ a, (k0_off347 i) a + S1x1x1x4096.size a ≤ S16x8x2x65536.size a
  k0_off348_inb : ∀ i : grid0.Coords, ∀ a, (k0_off348 i) a + S1x1x1x4096.size a ≤ S16x8x2x65536.size a
  k0_off349_inb : ∀ i : grid0.Coords, ∀ a, (k0_off349 i) a + S1x1x1x4096.size a ≤ S16x8x2x65536.size a
  k0_off350_inb : ∀ i : grid0.Coords, ∀ a, (k0_off350 i) a + S1x1x1x4096.size a ≤ S16x8x2x65536.size a
  k0_off351_inb : ∀ i : grid0.Coords, ∀ a, (k0_off351 i) a + S1x1x1x4096.size a ≤ S16x8x2x65536.size a
  k0_off352_inb : ∀ i : grid0.Coords, ∀ a, (k0_off352 i) a + S1x1x1x4096.size a ≤ S16x8x2x65536.size a
  k0_off353_inb : ∀ i : grid0.Coords, ∀ a, (k0_off353 i) a + S1x1x1x4096.size a ≤ S16x8x2x65536.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scoped0 : DmaSems sig S_ := SemArray.consecutive 7 S_ hcc0_scoped0

class Facts : Prop extends Facts₀ where

variable [Facts]
-- ==== ReferenceIdeal.lean ====
abbrev S16x8x2x65536 : Shape := ⟨4, ![16, 8, 2, 65536]⟩
abbrev S16 : Shape := ⟨1, ![16]⟩
abbrev S_ : Shape := ⟨0, ![]⟩
abbrev S16x1 : Shape := ⟨2, ![16, 1]⟩
abbrev S16x2 : Shape := ⟨2, ![16, 2]⟩
abbrev S16x2x65536 : Shape := ⟨3, ![16, 2, 65536]⟩

abbrev nBuf : Space → Nat
  | .hbm => 23
  | .vmem => 0
  | .smem => 0
  | _ => 0

abbrev bufTy : (tb : Table) → Fin (tcTables nBuf tb) → BufTy
  | .hbm, ⟨0, _⟩ => ⟨S16x8x2x65536, .f32⟩
  | .hbm, ⟨1, _⟩ => ⟨S16, .i32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i1⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S16x1, .i32⟩
  | .hbm, ⟨18, _⟩ => ⟨S16x1, .i32⟩
  | .hbm, ⟨19, _⟩ => ⟨S16x2, .i32⟩
  | .hbm, ⟨20, _⟩ => ⟨S_, .f32⟩
  | .hbm, ⟨21, _⟩ => ⟨S16x2x65536, .f32⟩
  | .hbm, ⟨22, _⟩ => ⟨S16x8x2x65536, .f32⟩
  | _, _ => ⟨S16x8x2x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  bcast_S_S16x2x65536 : S_.BroadcastsInDim S16x2x65536 (![] : Fin 0 → Fin S16x2x65536.rank)
  scatter_S16x8x2x65536_S16x2_S16x2x65536_12_01_01_1_wf : ScatterDims.WF S16x8x2x65536 S16x2 S16x2x65536 [1, 2] [0, 1] [0, 1] 1

variable [Facts₀]

def scatter_S16x8x2x65536_S16x2_S16x2x65536_12_01_01_1 : ScatterDims S16x8x2x65536 S16x2 S16x2x65536 where
  updateWindowDims := [1, 2]
  insertedWindowDims := [0, 1]
  scatterDimsToOperandDims := [0, 1]
  indexVectorDim := 1
  wf := scatter_S16x8x2x65536_S16x2_S16x2x65536_12_01_01_1_wf

class Facts : Prop extends Facts₀ where

variable [Facts]
-- ==== Proof.Spec.lean ====
/-
  The function both programs compute, stated once over plain arrays.

  The input is a batch of 16 recordings, each of 8 streams of 2 channels of 65536 samples, and one stream
  number per recording. The result keeps every sample except those of the named stream of each recording,
  which are replaced by zero: entry (b, s, c, t) is 0 when s is the stream named for recording b, and the
  input's entry otherwise.
-/
import Idealize.ShloMosaic.PureOps
import Idealize.ShloMosaic.Lib.ValueIdx

noncomputable section

namespace Cert.Spec

open Idealize.ShloMosaic Idealize.ShloMosaic.ValueIdx

/-- The recordings: 16 × 8 streams × 2 channels × 65536 samples. -/
abbrev SA : Shape := ⟨4, ![16, 8, 2, 65536]⟩
/-- One stream number per recording. -/
abbrev SI : Shape := ⟨1, ![16]⟩

/-- Entry (b, s, c, t) of the result: zero when `s` is the stream `src b` names, the input's entry otherwise. -/
def G {F : FTy → Type} [FloatOps F] (x : Vec F SA .f32) (src : Vec F SI .i32) : Vec F SA .f32 :=
  fun i => if (src (ix1 (i 0))).toNat = (i 1).val then (FloatOps.ofBits .f32 0x00000000#32 : F .f32) else x i

theorem G_apply {F : FTy → Type} [FloatOps F] (x : Vec F SA .f32) (src : Vec F SI .i32) (i : SA.Idx) :
    G x src i = if (src (ix1 (i 0))).toNat = (i 1).val then (FloatOps.ofBits .f32 0x00000000#32 : F .f32) else x i := rfl

end Cert.Spec

end
-- ==== Proof.RefValue.lean ====
/-
  The value of the reference program's result, index by index.

  The reference is one scatter: 16 update rows, row `b` a 2 × 65536 window of zeros written into the input at recording
  `b`, stream `src b` (both read as signed words after the usual "add the extent if negative" normalisation, which is the
  identity on a row number below 16 and on a stream number at most 7). The scatter is a left fold over the update elements,
  each overwriting one position of the running array; since every update element is the same constant, the order of the fold
  does not matter: a position holds that constant when some update element lands on it and the input's element otherwise.
  Update element (b, c, t) lands on (b, src b, c, t), so position (b, s, c, t) is hit exactly when s = src b.
-/
import proofs.«218968_g36790689857971_cont_8to1_b_1381_24_alg».proof.Proof.Gen.ReferenceIdeal.Read
import proofs.«218968_g36790689857971_cont_8to1_b_1381_24_alg».proof.Proof.Spec

noncomputable section

namespace Cert.RefValue

open Idealize.ShloMosaic Idealize.ShloMosaic.ValueIdx

/-! ## A fold of overwriting steps whose written value is one constant -/

section Fold
variable {ι κ α : Type} [DecidableEq κ]

/-- A left fold of steps, each either overwriting one position with the constant `z` or doing nothing, leaves `z` at a
    position some step of the list names. -/
theorem foldl_set_const_hit (step : (κ → α) → ι → (κ → α)) (ri : ι → Option κ) (z : α)
    (hs : ∀ r n k, ri n = some k → step r n = fun i' => if i' = k then z else r i')
    (hn : ∀ r n, ri n = none → step r n = r) (i : κ) :
    ∀ (l : List ι) (x : κ → α), (∃ n ∈ l, ri n = some i) → l.foldl step x i = z := by
  intro l
  induction l using List.reverseRecOn with
  | nil => intro x h; obtain ⟨n, hn', _⟩ := h; cases hn'
  | append_singleton l a ih =>
    intro x h
    rw [List.foldl_append, List.foldl_cons, List.foldl_nil]
    cases hra : ri a with
    | none =>
      rw [hn _ _ hra]
      refine ih x ?_
      obtain ⟨n, hmem, hri⟩ := h
      rcases List.mem_append.1 hmem with hm | hm
      · exact ⟨n, hm, hri⟩
      · obtain rfl : n = a := by simpa using hm
        rw [hra] at hri; cases hri
    | some k =>
      rw [hs _ _ _ hra]
      by_cases hik : i = k
      · simp [hik]
      · simp only [if_neg hik]
        refine ih x ?_
        obtain ⟨n, hmem, hri⟩ := h
        rcases List.mem_append.1 hmem with hm | hm
        · exact ⟨n, hm, hri⟩
        · obtain rfl : n = a := by simpa using hm
          rw [hra] at hri; cases hri; exact absurd rfl hik

/-- The same fold leaves a position no step names as it was. -/
theorem foldl_set_const_miss (step : (κ → α) → ι → (κ → α)) (ri : ι → Option κ) (z : α)
    (hs : ∀ r n k, ri n = some k → step r n = fun i' => if i' = k then z else r i')
    (hn : ∀ r n, ri n = none → step r n = r) (i : κ) :
    ∀ (l : List ι) (x : κ → α), (∀ n ∈ l, ri n ≠ some i) → l.foldl step x i = x i := by
  intro l
  induction l with
  | nil => intro x _; rfl
  | cons a l ih =>
    intro x h
    rw [List.foldl_cons, ih _ (fun n hm => h n (List.mem_cons_of_mem _ hm))]
    cases hra : ri a with
    | none => rw [hn _ _ hra]
    | some k =>
      rw [hs _ _ _ hra]
      have : i ≠ k := fun e => h a (List.mem_cons_self ..) (by rw [hra, e])
      simp only [if_neg this]

end Fold

/-! ## A scatter whose body returns the update, all updates one constant -/

section Scatter
variable {α : Type} {s si u : Shape} {w : Nat}

/-- An update index lands at `i` exactly when, on every axis, its start plus its window coordinate is `i`'s coordinate. -/
theorem resultIdx?_eq_some_iff (d : ScatterDims s si u) (j : u.Idx) (idx : IVec si w) (i : s.Idx) :
    d.resultIdx? j idx = some i ↔ ∀ a, d.start j idx a + d.window j a = ((i a).val : Int) := by
  unfold ScatterDims.resultIdx?
  constructor
  · intro h
    split at h
    · next hb =>
      have h' := Option.some.inj h
      intro a
      have := congrArg (fun f => ((f a : Fin (s.size a)) : Nat)) h'
      simp only at this
      have hb' := (hb a).1
      omega
    · cases h
  · intro h
    have hb : ∀ a, 0 ≤ d.start j idx a + d.window j a ∧ d.start j idx a + d.window j a < s.size a := by
      intro a; rw [h a]; exact ⟨Int.natCast_nonneg _, by exact_mod_cast (i a).isLt⟩
    rw [dif_pos hb]
    congr 1
    funext a
    refine Fin.ext ?_
    show (d.start j idx a + d.window j a).toNat = (i a).val
    rw [h a]; rfl

/-- A scatter writing the constant `z` leaves `z` wherever some update lands … -/
theorem scatter_set_const_hit (d : ScatterDims s si u) (x : s.Idx → α) (idx : IVec si w) (upd : u.Idx → α) (z : α)
    (hz : ∀ j, upd j = z) (i : s.Idx) (j : u.Idx) (hj : d.resultIdx? j idx = some i) :
    Host.scatter d (fun _ b => b) x idx upd i = z := by
  unfold Host.scatter
  refine foldl_set_const_hit _ (fun n => d.resultIdx? (u.rowMajor.symm n) idx) z ?_ ?_ i _ x
    ⟨u.rowMajor j, List.mem_finRange _, by simpa using hj⟩
  · intro r n k h; simp only [h, hz]
  · intro r n h; simp only [h]

/-- … and the operand's element where none does. -/
theorem scatter_set_const_miss (d : ScatterDims s si u) (x : s.Idx → α) (idx : IVec si w) (upd : u.Idx → α) (z : α)
    (hz : ∀ j, upd j = z) (i : s.Idx) (hj : ∀ j, d.resultIdx? j idx ≠ some i) :
    Host.scatter d (fun _ b => b) x idx upd i = x i := by
  unfold Host.scatter
  refine foldl_set_const_miss _ (fun n => d.resultIdx? (u.rowMajor.symm n) idx) z ?_ ?_ i _ x (fun n _ => hj _)
  · intro r n k h; simp only [h, hz]
  · intro r n h; simp only [h]

end Scatter

/-! ## The reference's scatter: where update row `b` writes -/

section Dims
open Cert.ReferenceIdeal Cert.ReferenceIdeal.Read

/-- The scatter's dimension numbers. -/
abbrev D : ScatterDims S16x8x2x65536 S16x2 S16x2x65536 := scatter_S16x8x2x65536_S16x2_S16x2x65536_12_01_01_1

variable {w : Nat} (b : Fin 16) (c : Fin 2) (t : Fin 65536)

/-- The update index (row `b`, channel `c`, sample `t`). -/
abbrev J : S16x2x65536.Idx := ix3 b c t

theorem window_0 : D.window (J b c t) 0 = 0 := rfl
theorem window_1 : D.window (J b c t) 1 = 0 := rfl
theorem window_2 : D.window (J b c t) 2 = c.val := rfl
theorem window_3 : D.window (J b c t) 3 = t.val := rfl

theorem start_2 (idx : IVec S16x2 w) : D.start (J b c t) idx 2 = 0 := rfl
theorem start_3 (idx : IVec S16x2 w) : D.start (J b c t) idx 3 = 0 := rfl

theorem start_0 (idx : IVec S16x2 w) : D.start (J b c t) idx 0 = (idx (ix2 b (0 : Fin 2))).toInt := by
  unfold ScatterDims.start
  rw [dif_pos (by decide)]
  congr 2
  funext a; refine Fin.ext ?_
  match a with
  | ⟨0, _⟩ => rfl
  | ⟨1, _⟩ => rfl

theorem start_1 (idx : IVec S16x2 w) : D.start (J b c t) idx 1 = (idx (ix2 b (1 : Fin 2))).toInt := by
  unfold ScatterDims.start
  rw [dif_pos (by decide)]
  congr 2
  funext a; refine Fin.ext ?_
  match a with
  | ⟨0, _⟩ => rfl
  | ⟨1, _⟩ => rfl

end Dims

/-! ## The scatter indices: row `b` holds `(b, src b)` -/

section Indices
open Cert.ReferenceIdeal Cert.ReferenceIdeal.Read Cert.ReferenceIdeal.Gen

variable {F : FTy → Type} [FloatOps F]

/-- A word below 2³¹ is not negative when read signed, so its normalisation `select (v < 0) (v + k) v` is itself. -/
theorem norm_nonneg (v k : BitVec 32) (hv : v.toNat < 2 ^ 31) :
    Scalar.select (IntOp.cmpi .slt v 0#32) (IntOp.addi v k) v = v := by
  have h : v.slt 0#32 = false := by
    simp only [BitVec.slt, BitVec.toInt_eq_toNat_cond]
    simp; omega
  unfold Scalar.select IntOp.cmpi
  simp [h]

/-- A row number below 16 is its own normalisation. -/
theorem norm_row (b : Fin 16) :
    Scalar.select (IntOp.cmpi .slt (BitVec.ofNat 32 b.val) 0#32) (IntOp.addi (BitVec.ofNat 32 b.val) 16#32)
      (BitVec.ofNat 32 b.val) = BitVec.ofNat 32 b.val :=
  norm_nonneg _ _ (by simp; omega)

/-- A stream number at most 7 is its own normalisation. -/
theorem norm_src (v : BitVec 32) (hv : v.toNat ≤ 7) :
    Scalar.select (IntOp.cmpi .slt v 0#32) (IntOp.addi v 8#32) v = v :=
  norm_nonneg _ _ (by omega)

/-- The first column of the scatter indices is the row number. -/
theorem idx_col0 (x1 : (⟨S16, .i32⟩ : BufTy).Contents (Elt F)) (b : Fin 16) :
    val_main_v13 (F := F) x1 (ix2 b (0 : Fin 2)) = BitVec.ofNat 32 b.val := by
  unfold val_main_v13
  rw [concatenate_pair_apply_left (s₁ := S16x1) (s₂ := S16x1) (t := S16x2) (1 : Fin 2) _ _ concatenates_S16x1_S16x1_S16x2_d1
    (ix2 b (0 : Fin 2)) rfl (ix2 b (0 : Fin 1) : S16x1.Idx) (fun c => match c with | ⟨0, _⟩ => rfl | ⟨1, _⟩ => rfl)]
  rw [val_main_v11_apply, val_main_v5_apply, val_main_v2_apply, val_main_v4_apply, val_main_v0_apply,
    val_main_v1_apply, val_main_v3_apply, val_main_c_apply, val_main_c_0_apply]
  exact norm_row b

/-- The second column of the scatter indices is the stream number, when that is at most 7. -/
theorem idx_col1 (x1 : (⟨S16, .i32⟩ : BufTy).Contents (Elt F)) (b : Fin 16) (hb : (x1 (ix1 b)).toNat ≤ 7) :
    val_main_v13 (F := F) x1 (ix2 b (1 : Fin 2)) = x1 (ix1 b) := by
  unfold val_main_v13
  rw [concatenate_pair_apply_right (s₁ := S16x1) (s₂ := S16x1) (t := S16x2) (1 : Fin 2) _ _ concatenates_S16x1_S16x1_S16x2_d1
    (ix2 b (1 : Fin 2)) rfl rfl (ix2 b (0 : Fin 1) : S16x1.Idx) (fun c hc => match c with | ⟨0, _⟩ => rfl | ⟨1, _⟩ => absurd rfl hc) rfl]
  rw [val_main_v12_apply, val_main_v10_apply, val_main_v7_apply, val_main_v9_apply,
    val_main_v6_apply, val_main_v8_apply, val_main_c_1_apply, val_main_c_2_apply]
  have e : idx_main_v12 (ix2 b (0 : Fin 1) : S16x1.Idx) = ix1 b := by
    funext a; match a with | ⟨0, _⟩ => rfl
  rw [e]
  exact norm_src _ hb

end Indices

/-! ## The reference's value -/

section Value
open Cert.ReferenceIdeal Cert.ReferenceIdeal.Read Cert.ReferenceIdeal.Gen

variable {F : FTy → Type} [FloatOps F]

/-- Every update element is the zero constant. -/
theorem upd_const (j : S16x2x65536.Idx) : val_main_v14 (F := F) j = (FloatOps.ofBits .f32 0x00000000#32 : F .f32) := by
  rw [val_main_v14_apply, val_main_cst_apply]

/-- Update (row `b`, channel `c`, sample `t`) lands at `i` exactly when `i`'s recording is `b`, its stream the one named for
    `b`, and its channel and sample are `c` and `t`. -/
theorem lands_iff (x1 : (⟨S16, .i32⟩ : BufTy).Contents (Elt F)) (hx1 : ∀ j, (x1 j).toNat ≤ 7)
    (b : Fin 16) (c : Fin 2) (t : Fin 65536) (i : S16x8x2x65536.Idx) :
    D.resultIdx? (J b c t) (val_main_v13 (F := F) x1) = some i ↔
      b.val = (i 0).val ∧ (x1 (ix1 b)).toNat = (i 1).val ∧ c.val = (i 2).val ∧ t.val = (i 3).val := by
  rw [resultIdx?_eq_some_iff]
  have hb := hx1 (ix1 b)
  have e0 : D.start (J b c t) (val_main_v13 (F := F) x1) 0 + D.window (J b c t) 0 = (b.val : Int) := by
    rw [start_0, window_0, idx_col0, BitVec.toInt_eq_toNat_of_lt (by simp; omega)]
    simp; omega
  have e1 : D.start (J b c t) (val_main_v13 (F := F) x1) 1 + D.window (J b c t) 1 = ((x1 (ix1 b)).toNat : Int) := by
    rw [start_1, window_1, idx_col1 x1 _ hb, BitVec.toInt_eq_toNat_of_lt (by omega)]
    simp
  have e2 : D.start (J b c t) (val_main_v13 (F := F) x1) 2 + D.window (J b c t) 2 = (c.val : Int) := by
    rw [start_2, window_2]; simp
  have e3 : D.start (J b c t) (val_main_v13 (F := F) x1) 3 + D.window (J b c t) 3 = (t.val : Int) := by
    rw [start_3, window_3]; simp
  constructor
  · intro h
    have h0 := h 0; have h1 := h 1; have h2 := h 2; have h3 := h 3
    rw [e0] at h0; rw [e1] at h1; rw [e2] at h2; rw [e3] at h3
    exact ⟨by exact_mod_cast h0, by exact_mod_cast h1, by exact_mod_cast h2, by exact_mod_cast h3⟩
  · rintro ⟨h0, h1, h2, h3⟩ a
    match a with
    | ⟨0, _⟩ => exact e0.trans (by exact_mod_cast h0)
    | ⟨1, _⟩ => exact e1.trans (by exact_mod_cast h1)
    | ⟨2, _⟩ => exact e2.trans (by exact_mod_cast h2)
    | ⟨3, _⟩ => exact e3.trans (by exact_mod_cast h3)

/-- The scatter's result at (recording `b`, stream `s`, channel `c`, sample `t`). -/
theorem ref_at (x0 : (⟨S16x8x2x65536, .f32⟩ : BufTy).Contents (Elt F))
    (x1 : (⟨S16, .i32⟩ : BufTy).Contents (Elt F)) (hx1 : ∀ j, (x1 j).toNat ≤ 7)
    (b : Fin 16) (s : Fin 8) (c : Fin 2) (t : Fin 65536) :
    val_main_v15 (F := F) x0 x1 (ix4 b s c t) =
      if (x1 (ix1 b)).toNat = s.val then (FloatOps.ofBits .f32 0x00000000#32 : F .f32) else x0 (ix4 b s c t) := by
  unfold val_main_v15
  by_cases h : (x1 (ix1 b)).toNat = s.val
  · rw [if_pos h]
    refine scatter_set_const_hit D x0 _ _ _ upd_const (ix4 b s c t) (J b c t) ?_
    rw [lands_iff x1 hx1]
    exact ⟨rfl, h, rfl, rfl⟩
  · rw [if_neg h]
    refine scatter_set_const_miss D x0 _ _ _ upd_const (ix4 b s c t) (fun j hj => h ?_)
    obtain ⟨b', c', t', rfl⟩ : ∃ b' c' t', j = J b' c' t' := ⟨j 0, j 1, j 2, eq_ix3 j⟩
    rw [lands_iff x1 hx1] at hj
    obtain ⟨h0, h1, _, _⟩ := hj
    obtain rfl : b' = b := Fin.ext h0
    exact h1

/-- THE REFERENCE'S VALUE: with every stream number at most 7, the scatter's result is the input with the named stream
    of each recording replaced by zero. -/
theorem ref_eq_spec (x0 : (⟨S16x8x2x65536, .f32⟩ : BufTy).Contents (Elt F))
    (x1 : (⟨S16, .i32⟩ : BufTy).Contents (Elt F)) (hx1 : ∀ j, (x1 j).toNat ≤ 7) :
    val_main_v15 (F := F) x0 x1 = Cert.Spec.G x0 x1 := by
  funext i
  obtain ⟨b, s, c, t, rfl⟩ : ∃ (b : Fin 16) (s : Fin 8) (c : Fin 2) (t : Fin 65536), i = ix4 b s c t :=
    ⟨i 0, i 1, i 2, i 3, eq_ix4 i⟩
  exact ref_at x0 x1 hx1 b s c t

end Value

end Cert.RefValue

end
-- ==== Proof.PreDecode.lean ====
/-
  The precondition, decoded: every stream number is between 0 and 7.

  The printed precondition is the conjunction of two "for all elements" tests, each a reduction by `and` from the constant 1:
  every input sample is finite in absolute value, and every stream number `v` satisfies `0 ≤ v` and `v ≤ 7` as a signed
  word. When the conjunction is 1 both reductions are 1, so every element of the second test is 1; a signed word that is at
  least 0 has its top bit clear, so it reads the same unsigned, and the unsigned reading is then at most 7.
-/
import proofs.«218968_g36790689857971_cont_8to1_b_1381_24_alg».proof.Pre_input_domain
import proofs.«218968_g36790689857971_cont_8to1_b_1381_24_alg».proof.Proof.Gen.Pre_input_domain
import Idealize.ShloMosaic.Lib.ReduceAll
import Idealize.ShloMosaic.Lib.ValueIdx

namespace Cert.PreDecode

open Idealize.ShloMosaic Idealize.ShloMosaic.ValueIdx

/-- The scalar shape has one index. -/
instance : Subsingleton Cert.Pre_input_domain.S_.Idx := ⟨fun a b => funext fun d => d.elim0⟩

/-- A word that is at least 0 and at most 7 when read signed is at most 7 when read unsigned. -/
theorem toNat_le_seven (v : BitVec 32) (h0 : IntOp.cmpi .sge v 0#32 = 1#1) (h7 : IntOp.cmpi .sle v 7#32 = 1#1) :
    v.toNat ≤ 7 := by
  rw [IntOp.cmpi_sge] at h0
  rw [IntOp.cmpi_sle] at h7
  have e0 : (0#32 : BitVec 32).toInt = 0 := by decide
  have e7 : (7#32 : BitVec 32).toInt = 7 := by decide
  rw [e0] at h0; rw [e7] at h7
  rw [BitVec.toInt_eq_toNat_cond] at h0 h7
  have := v.isLt
  split at h0 <;> omega

/-- THE PRECONDITION DECODED: where the printed precondition holds, every stream number is at most 7 (and, read signed, at
    least 0: its unsigned reading is its value). -/
theorem src_le_of_pre [Cert.Pre_input_domain.Facts] {F : FTy → Type} [FloatOps F]
    (x0 : FVec F Cert.Pre_input_domain.S16x8x2x65536 .f32) (x1 : IVec Cert.Pre_input_domain.S16 32)
    (h : Cert.Pre_input_domain.fn (F := F) x0 x1 = fun _ => 1#1) : ∀ j, (x1 j).toNat ≤ 7 := by
  intro j
  have h' := congrFun h ix0
  dsimp only [Cert.Pre_input_domain.fn] at h'
  obtain ⟨-, hall⟩ := IntOp.andi_eq_one.1 h'
  have hj := Host.reduce_andi_all _ _ _ _ _ hall j
  obtain ⟨h0, h7⟩ := IntOp.andi_eq_one.1 hj
  exact toNat_le_seven (x1 j) h0 h7

end Cert.PreDecode
-- ==== Proof.KIOffsets.lean ====
/-
  Closed forms of the tile's array offsets. Tile (c, w) — SparseCore c, vector subcore w — works on recording w, streams 4c … 4c+3:
  its segment j (0 ≤ j < 8) is stream 4c + j / 2, channel j % 2. Every rank-4 offset the body computes is
  (w, 4c + j / 2, j % 2, T) for a literal sample offset T; each equation below is decided over the 32 tiles.
-/
import proofs.«218968_g36790689857971_cont_8to1_b_1381_24_alg».proof.Proof.Gen.KernelIdeal
import Idealize.ShloMosaic.Lib.Tactic

set_option Elab.async false

namespace Cert.Proof.KI.Off

open Idealize.ShloMosaic Cert.KernelIdeal Cert.KernelIdeal.Gen

theorem k0_off2_eq : ∀ i : grid0.Coords, k0_off2 i = ![(i 1).val, 4 * (i 0).val + 0, 0, 0] := by decide +kernel
instance closedOff_k0_off2 (i : grid0.Coords) : ClosedOff (k0_off2 i) := ⟨![(i 1).val, 4 * (i 0).val + 0, 0, 0], k0_off2_eq i⟩
theorem k0_off5_eq : ∀ i : grid0.Coords, k0_off5 i = ![(i 1).val, 4 * (i 0).val + 0, 0, 32768] := by decide +kernel
instance closedOff_k0_off5 (i : grid0.Coords) : ClosedOff (k0_off5 i) := ⟨![(i 1).val, 4 * (i 0).val + 0, 0, 32768], k0_off5_eq i⟩
theorem k0_off6_eq : ∀ i : grid0.Coords, k0_off6 i = ![(i 1).val, 4 * (i 0).val + 0, 0, 0] := by decide +kernel
instance closedOff_k0_off6 (i : grid0.Coords) : ClosedOff (k0_off6 i) := ⟨![(i 1).val, 4 * (i 0).val + 0, 0, 0], k0_off6_eq i⟩
theorem k0_off7_eq : ∀ i : grid0.Coords, k0_off7 i = ![(i 1).val, 4 * (i 0).val + 0, 0, 4096] := by decide +kernel
instance closedOff_k0_off7 (i : grid0.Coords) : ClosedOff (k0_off7 i) := ⟨![(i 1).val, 4 * (i 0).val + 0, 0, 4096], k0_off7_eq i⟩
theorem k0_off8_eq : ∀ i : grid0.Coords, k0_off8 i = ![(i 1).val, 4 * (i 0).val + 0, 0, 8192] := by decide +kernel
instance closedOff_k0_off8 (i : grid0.Coords) : ClosedOff (k0_off8 i) := ⟨![(i 1).val, 4 * (i 0).val + 0, 0, 8192], k0_off8_eq i⟩
theorem k0_off9_eq : ∀ i : grid0.Coords, k0_off9 i = ![(i 1).val, 4 * (i 0).val + 0, 0, 12288] := by decide +kernel
instance closedOff_k0_off9 (i : grid0.Coords) : ClosedOff (k0_off9 i) := ⟨![(i 1).val, 4 * (i 0).val + 0, 0, 12288], k0_off9_eq i⟩
theorem k0_off10_eq : ∀ i : grid0.Coords, k0_off10 i = ![(i 1).val, 4 * (i 0).val + 0, 0, 16384] := by decide +kernel
instance closedOff_k0_off10 (i : grid0.Coords) : ClosedOff (k0_off10 i) := ⟨![(i 1).val, 4 * (i 0).val + 0, 0, 16384], k0_off10_eq i⟩
theorem k0_off11_eq : ∀ i : grid0.Coords, k0_off11 i = ![(i 1).val, 4 * (i 0).val + 0, 0, 20480] := by decide +kernel
instance closedOff_k0_off11 (i : grid0.Coords) : ClosedOff (k0_off11 i) := ⟨![(i 1).val, 4 * (i 0).val + 0, 0, 20480], k0_off11_eq i⟩
theorem k0_off12_eq : ∀ i : grid0.Coords, k0_off12 i = ![(i 1).val, 4 * (i 0).val + 0, 0, 24576] := by decide +kernel
instance closedOff_k0_off12 (i : grid0.Coords) : ClosedOff (k0_off12 i) := ⟨![(i 1).val, 4 * (i 0).val + 0, 0, 24576], k0_off12_eq i⟩
theorem k0_off13_eq : ∀ i : grid0.Coords, k0_off13 i = ![(i 1).val, 4 * (i 0).val + 0, 0, 28672] := by decide +kernel
instance closedOff_k0_off13 (i : grid0.Coords) : ClosedOff (k0_off13 i) := ⟨![(i 1).val, 4 * (i 0).val + 0, 0, 28672], k0_off13_eq i⟩
theorem k0_off15_eq : ∀ i : grid0.Coords, k0_off15 i = ![(i 1).val, 4 * (i 0).val + 0, 0, 0] := by decide +kernel
instance closedOff_k0_off15 (i : grid0.Coords) : ClosedOff (k0_off15 i) := ⟨![(i 1).val, 4 * (i 0).val + 0, 0, 0], k0_off15_eq i⟩
theorem k0_off17_eq : ∀ i : grid0.Coords, k0_off17 i = ![(i 1).val, 4 * (i 0).val + 0, 1, 0] := by decide +kernel
instance closedOff_k0_off17 (i : grid0.Coords) : ClosedOff (k0_off17 i) := ⟨![(i 1).val, 4 * (i 0).val + 0, 1, 0], k0_off17_eq i⟩
theorem k0_off18_eq : ∀ i : grid0.Coords, k0_off18 i = ![(i 1).val, 4 * (i 0).val + 0, 0, 32768] := by decide +kernel
instance closedOff_k0_off18 (i : grid0.Coords) : ClosedOff (k0_off18 i) := ⟨![(i 1).val, 4 * (i 0).val + 0, 0, 32768], k0_off18_eq i⟩
theorem k0_off19_eq : ∀ i : grid0.Coords, k0_off19 i = ![(i 1).val, 4 * (i 0).val + 0, 0, 36864] := by decide +kernel
instance closedOff_k0_off19 (i : grid0.Coords) : ClosedOff (k0_off19 i) := ⟨![(i 1).val, 4 * (i 0).val + 0, 0, 36864], k0_off19_eq i⟩
theorem k0_off20_eq : ∀ i : grid0.Coords, k0_off20 i = ![(i 1).val, 4 * (i 0).val + 0, 0, 40960] := by decide +kernel
instance closedOff_k0_off20 (i : grid0.Coords) : ClosedOff (k0_off20 i) := ⟨![(i 1).val, 4 * (i 0).val + 0, 0, 40960], k0_off20_eq i⟩
theorem k0_off21_eq : ∀ i : grid0.Coords, k0_off21 i = ![(i 1).val, 4 * (i 0).val + 0, 0, 45056] := by decide +kernel
instance closedOff_k0_off21 (i : grid0.Coords) : ClosedOff (k0_off21 i) := ⟨![(i 1).val, 4 * (i 0).val + 0, 0, 45056], k0_off21_eq i⟩
theorem k0_off22_eq : ∀ i : grid0.Coords, k0_off22 i = ![(i 1).val, 4 * (i 0).val + 0, 0, 49152] := by decide +kernel
instance closedOff_k0_off22 (i : grid0.Coords) : ClosedOff (k0_off22 i) := ⟨![(i 1).val, 4 * (i 0).val + 0, 0, 49152], k0_off22_eq i⟩
theorem k0_off23_eq : ∀ i : grid0.Coords, k0_off23 i = ![(i 1).val, 4 * (i 0).val + 0, 0, 53248] := by decide +kernel
instance closedOff_k0_off23 (i : grid0.Coords) : ClosedOff (k0_off23 i) := ⟨![(i 1).val, 4 * (i 0).val + 0, 0, 53248], k0_off23_eq i⟩
theorem k0_off24_eq : ∀ i : grid0.Coords, k0_off24 i = ![(i 1).val, 4 * (i 0).val + 0, 0, 57344] := by decide +kernel
instance closedOff_k0_off24 (i : grid0.Coords) : ClosedOff (k0_off24 i) := ⟨![(i 1).val, 4 * (i 0).val + 0, 0, 57344], k0_off24_eq i⟩
theorem k0_off25_eq : ∀ i : grid0.Coords, k0_off25 i = ![(i 1).val, 4 * (i 0).val + 0, 0, 61440] := by decide +kernel
instance closedOff_k0_off25 (i : grid0.Coords) : ClosedOff (k0_off25 i) := ⟨![(i 1).val, 4 * (i 0).val + 0, 0, 61440], k0_off25_eq i⟩
theorem k0_off27_eq : ∀ i : grid0.Coords, k0_off27 i = ![(i 1).val, 4 * (i 0).val + 0, 0, 32768] := by decide +kernel
instance closedOff_k0_off27 (i : grid0.Coords) : ClosedOff (k0_off27 i) := ⟨![(i 1).val, 4 * (i 0).val + 0, 0, 32768], k0_off27_eq i⟩
theorem k0_off28_eq : ∀ i : grid0.Coords, k0_off28 i = ![(i 1).val, 4 * (i 0).val + 0, 0, 0] := by decide +kernel
instance closedOff_k0_off28 (i : grid0.Coords) : ClosedOff (k0_off28 i) := ⟨![(i 1).val, 4 * (i 0).val + 0, 0, 0], k0_off28_eq i⟩
theorem k0_off31_eq : ∀ i : grid0.Coords, k0_off31 i = ![(i 1).val, 4 * (i 0).val + 0, 1, 32768] := by decide +kernel
instance closedOff_k0_off31 (i : grid0.Coords) : ClosedOff (k0_off31 i) := ⟨![(i 1).val, 4 * (i 0).val + 0, 1, 32768], k0_off31_eq i⟩
theorem k0_off32_eq : ∀ i : grid0.Coords, k0_off32 i = ![(i 1).val, 4 * (i 0).val + 0, 1, 0] := by decide +kernel
instance closedOff_k0_off32 (i : grid0.Coords) : ClosedOff (k0_off32 i) := ⟨![(i 1).val, 4 * (i 0).val + 0, 1, 0], k0_off32_eq i⟩
theorem k0_off33_eq : ∀ i : grid0.Coords, k0_off33 i = ![(i 1).val, 4 * (i 0).val + 0, 1, 4096] := by decide +kernel
instance closedOff_k0_off33 (i : grid0.Coords) : ClosedOff (k0_off33 i) := ⟨![(i 1).val, 4 * (i 0).val + 0, 1, 4096], k0_off33_eq i⟩
theorem k0_off34_eq : ∀ i : grid0.Coords, k0_off34 i = ![(i 1).val, 4 * (i 0).val + 0, 1, 8192] := by decide +kernel
instance closedOff_k0_off34 (i : grid0.Coords) : ClosedOff (k0_off34 i) := ⟨![(i 1).val, 4 * (i 0).val + 0, 1, 8192], k0_off34_eq i⟩
theorem k0_off35_eq : ∀ i : grid0.Coords, k0_off35 i = ![(i 1).val, 4 * (i 0).val + 0, 1, 12288] := by decide +kernel
instance closedOff_k0_off35 (i : grid0.Coords) : ClosedOff (k0_off35 i) := ⟨![(i 1).val, 4 * (i 0).val + 0, 1, 12288], k0_off35_eq i⟩
theorem k0_off36_eq : ∀ i : grid0.Coords, k0_off36 i = ![(i 1).val, 4 * (i 0).val + 0, 1, 16384] := by decide +kernel
instance closedOff_k0_off36 (i : grid0.Coords) : ClosedOff (k0_off36 i) := ⟨![(i 1).val, 4 * (i 0).val + 0, 1, 16384], k0_off36_eq i⟩
theorem k0_off37_eq : ∀ i : grid0.Coords, k0_off37 i = ![(i 1).val, 4 * (i 0).val + 0, 1, 20480] := by decide +kernel
instance closedOff_k0_off37 (i : grid0.Coords) : ClosedOff (k0_off37 i) := ⟨![(i 1).val, 4 * (i 0).val + 0, 1, 20480], k0_off37_eq i⟩
theorem k0_off38_eq : ∀ i : grid0.Coords, k0_off38 i = ![(i 1).val, 4 * (i 0).val + 0, 1, 24576] := by decide +kernel
instance closedOff_k0_off38 (i : grid0.Coords) : ClosedOff (k0_off38 i) := ⟨![(i 1).val, 4 * (i 0).val + 0, 1, 24576], k0_off38_eq i⟩
theorem k0_off39_eq : ∀ i : grid0.Coords, k0_off39 i = ![(i 1).val, 4 * (i 0).val + 0, 1, 28672] := by decide +kernel
instance closedOff_k0_off39 (i : grid0.Coords) : ClosedOff (k0_off39 i) := ⟨![(i 1).val, 4 * (i 0).val + 0, 1, 28672], k0_off39_eq i⟩
theorem k0_off41_eq : ∀ i : grid0.Coords, k0_off41 i = ![(i 1).val, 4 * (i 0).val + 0, 1, 0] := by decide +kernel
instance closedOff_k0_off41 (i : grid0.Coords) : ClosedOff (k0_off41 i) := ⟨![(i 1).val, 4 * (i 0).val + 0, 1, 0], k0_off41_eq i⟩
theorem k0_off42_eq : ∀ i : grid0.Coords, k0_off42 i = ![(i 1).val, 4 * (i 0).val + 0, 0, 32768] := by decide +kernel
instance closedOff_k0_off42 (i : grid0.Coords) : ClosedOff (k0_off42 i) := ⟨![(i 1).val, 4 * (i 0).val + 0, 0, 32768], k0_off42_eq i⟩
theorem k0_off45_eq : ∀ i : grid0.Coords, k0_off45 i = ![(i 1).val, 4 * (i 0).val + 1, 0, 0] := by decide +kernel
instance closedOff_k0_off45 (i : grid0.Coords) : ClosedOff (k0_off45 i) := ⟨![(i 1).val, 4 * (i 0).val + 1, 0, 0], k0_off45_eq i⟩
theorem k0_off46_eq : ∀ i : grid0.Coords, k0_off46 i = ![(i 1).val, 4 * (i 0).val + 0, 1, 32768] := by decide +kernel
instance closedOff_k0_off46 (i : grid0.Coords) : ClosedOff (k0_off46 i) := ⟨![(i 1).val, 4 * (i 0).val + 0, 1, 32768], k0_off46_eq i⟩
theorem k0_off47_eq : ∀ i : grid0.Coords, k0_off47 i = ![(i 1).val, 4 * (i 0).val + 0, 1, 36864] := by decide +kernel
instance closedOff_k0_off47 (i : grid0.Coords) : ClosedOff (k0_off47 i) := ⟨![(i 1).val, 4 * (i 0).val + 0, 1, 36864], k0_off47_eq i⟩
theorem k0_off48_eq : ∀ i : grid0.Coords, k0_off48 i = ![(i 1).val, 4 * (i 0).val + 0, 1, 40960] := by decide +kernel
instance closedOff_k0_off48 (i : grid0.Coords) : ClosedOff (k0_off48 i) := ⟨![(i 1).val, 4 * (i 0).val + 0, 1, 40960], k0_off48_eq i⟩
theorem k0_off49_eq : ∀ i : grid0.Coords, k0_off49 i = ![(i 1).val, 4 * (i 0).val + 0, 1, 45056] := by decide +kernel
instance closedOff_k0_off49 (i : grid0.Coords) : ClosedOff (k0_off49 i) := ⟨![(i 1).val, 4 * (i 0).val + 0, 1, 45056], k0_off49_eq i⟩
theorem k0_off50_eq : ∀ i : grid0.Coords, k0_off50 i = ![(i 1).val, 4 * (i 0).val + 0, 1, 49152] := by decide +kernel
instance closedOff_k0_off50 (i : grid0.Coords) : ClosedOff (k0_off50 i) := ⟨![(i 1).val, 4 * (i 0).val + 0, 1, 49152], k0_off50_eq i⟩
theorem k0_off51_eq : ∀ i : grid0.Coords, k0_off51 i = ![(i 1).val, 4 * (i 0).val + 0, 1, 53248] := by decide +kernel
instance closedOff_k0_off51 (i : grid0.Coords) : ClosedOff (k0_off51 i) := ⟨![(i 1).val, 4 * (i 0).val + 0, 1, 53248], k0_off51_eq i⟩
theorem k0_off52_eq : ∀ i : grid0.Coords, k0_off52 i = ![(i 1).val, 4 * (i 0).val + 0, 1, 57344] := by decide +kernel
instance closedOff_k0_off52 (i : grid0.Coords) : ClosedOff (k0_off52 i) := ⟨![(i 1).val, 4 * (i 0).val + 0, 1, 57344], k0_off52_eq i⟩
theorem k0_off53_eq : ∀ i : grid0.Coords, k0_off53 i = ![(i 1).val, 4 * (i 0).val + 0, 1, 61440] := by decide +kernel
instance closedOff_k0_off53 (i : grid0.Coords) : ClosedOff (k0_off53 i) := ⟨![(i 1).val, 4 * (i 0).val + 0, 1, 61440], k0_off53_eq i⟩
theorem k0_off55_eq : ∀ i : grid0.Coords, k0_off55 i = ![(i 1).val, 4 * (i 0).val + 0, 1, 32768] := by decide +kernel
instance closedOff_k0_off55 (i : grid0.Coords) : ClosedOff (k0_off55 i) := ⟨![(i 1).val, 4 * (i 0).val + 0, 1, 32768], k0_off55_eq i⟩
theorem k0_off56_eq : ∀ i : grid0.Coords, k0_off56 i = ![(i 1).val, 4 * (i 0).val + 0, 1, 0] := by decide +kernel
instance closedOff_k0_off56 (i : grid0.Coords) : ClosedOff (k0_off56 i) := ⟨![(i 1).val, 4 * (i 0).val + 0, 1, 0], k0_off56_eq i⟩
theorem k0_off59_eq : ∀ i : grid0.Coords, k0_off59 i = ![(i 1).val, 4 * (i 0).val + 1, 0, 32768] := by decide +kernel
instance closedOff_k0_off59 (i : grid0.Coords) : ClosedOff (k0_off59 i) := ⟨![(i 1).val, 4 * (i 0).val + 1, 0, 32768], k0_off59_eq i⟩
theorem k0_off60_eq : ∀ i : grid0.Coords, k0_off60 i = ![(i 1).val, 4 * (i 0).val + 1, 0, 0] := by decide +kernel
instance closedOff_k0_off60 (i : grid0.Coords) : ClosedOff (k0_off60 i) := ⟨![(i 1).val, 4 * (i 0).val + 1, 0, 0], k0_off60_eq i⟩
theorem k0_off61_eq : ∀ i : grid0.Coords, k0_off61 i = ![(i 1).val, 4 * (i 0).val + 1, 0, 4096] := by decide +kernel
instance closedOff_k0_off61 (i : grid0.Coords) : ClosedOff (k0_off61 i) := ⟨![(i 1).val, 4 * (i 0).val + 1, 0, 4096], k0_off61_eq i⟩
theorem k0_off62_eq : ∀ i : grid0.Coords, k0_off62 i = ![(i 1).val, 4 * (i 0).val + 1, 0, 8192] := by decide +kernel
instance closedOff_k0_off62 (i : grid0.Coords) : ClosedOff (k0_off62 i) := ⟨![(i 1).val, 4 * (i 0).val + 1, 0, 8192], k0_off62_eq i⟩
theorem k0_off63_eq : ∀ i : grid0.Coords, k0_off63 i = ![(i 1).val, 4 * (i 0).val + 1, 0, 12288] := by decide +kernel
instance closedOff_k0_off63 (i : grid0.Coords) : ClosedOff (k0_off63 i) := ⟨![(i 1).val, 4 * (i 0).val + 1, 0, 12288], k0_off63_eq i⟩
theorem k0_off64_eq : ∀ i : grid0.Coords, k0_off64 i = ![(i 1).val, 4 * (i 0).val + 1, 0, 16384] := by decide +kernel
instance closedOff_k0_off64 (i : grid0.Coords) : ClosedOff (k0_off64 i) := ⟨![(i 1).val, 4 * (i 0).val + 1, 0, 16384], k0_off64_eq i⟩
theorem k0_off65_eq : ∀ i : grid0.Coords, k0_off65 i = ![(i 1).val, 4 * (i 0).val + 1, 0, 20480] := by decide +kernel
instance closedOff_k0_off65 (i : grid0.Coords) : ClosedOff (k0_off65 i) := ⟨![(i 1).val, 4 * (i 0).val + 1, 0, 20480], k0_off65_eq i⟩
theorem k0_off66_eq : ∀ i : grid0.Coords, k0_off66 i = ![(i 1).val, 4 * (i 0).val + 1, 0, 24576] := by decide +kernel
instance closedOff_k0_off66 (i : grid0.Coords) : ClosedOff (k0_off66 i) := ⟨![(i 1).val, 4 * (i 0).val + 1, 0, 24576], k0_off66_eq i⟩
theorem k0_off67_eq : ∀ i : grid0.Coords, k0_off67 i = ![(i 1).val, 4 * (i 0).val + 1, 0, 28672] := by decide +kernel
instance closedOff_k0_off67 (i : grid0.Coords) : ClosedOff (k0_off67 i) := ⟨![(i 1).val, 4 * (i 0).val + 1, 0, 28672], k0_off67_eq i⟩
theorem k0_off69_eq : ∀ i : grid0.Coords, k0_off69 i = ![(i 1).val, 4 * (i 0).val + 1, 0, 0] := by decide +kernel
instance closedOff_k0_off69 (i : grid0.Coords) : ClosedOff (k0_off69 i) := ⟨![(i 1).val, 4 * (i 0).val + 1, 0, 0], k0_off69_eq i⟩
theorem k0_off70_eq : ∀ i : grid0.Coords, k0_off70 i = ![(i 1).val, 4 * (i 0).val + 0, 1, 32768] := by decide +kernel
instance closedOff_k0_off70 (i : grid0.Coords) : ClosedOff (k0_off70 i) := ⟨![(i 1).val, 4 * (i 0).val + 0, 1, 32768], k0_off70_eq i⟩
theorem k0_off73_eq : ∀ i : grid0.Coords, k0_off73 i = ![(i 1).val, 4 * (i 0).val + 1, 1, 0] := by decide +kernel
instance closedOff_k0_off73 (i : grid0.Coords) : ClosedOff (k0_off73 i) := ⟨![(i 1).val, 4 * (i 0).val + 1, 1, 0], k0_off73_eq i⟩
theorem k0_off74_eq : ∀ i : grid0.Coords, k0_off74 i = ![(i 1).val, 4 * (i 0).val + 1, 0, 32768] := by decide +kernel
instance closedOff_k0_off74 (i : grid0.Coords) : ClosedOff (k0_off74 i) := ⟨![(i 1).val, 4 * (i 0).val + 1, 0, 32768], k0_off74_eq i⟩
theorem k0_off75_eq : ∀ i : grid0.Coords, k0_off75 i = ![(i 1).val, 4 * (i 0).val + 1, 0, 36864] := by decide +kernel
instance closedOff_k0_off75 (i : grid0.Coords) : ClosedOff (k0_off75 i) := ⟨![(i 1).val, 4 * (i 0).val + 1, 0, 36864], k0_off75_eq i⟩
theorem k0_off76_eq : ∀ i : grid0.Coords, k0_off76 i = ![(i 1).val, 4 * (i 0).val + 1, 0, 40960] := by decide +kernel
instance closedOff_k0_off76 (i : grid0.Coords) : ClosedOff (k0_off76 i) := ⟨![(i 1).val, 4 * (i 0).val + 1, 0, 40960], k0_off76_eq i⟩
theorem k0_off77_eq : ∀ i : grid0.Coords, k0_off77 i = ![(i 1).val, 4 * (i 0).val + 1, 0, 45056] := by decide +kernel
instance closedOff_k0_off77 (i : grid0.Coords) : ClosedOff (k0_off77 i) := ⟨![(i 1).val, 4 * (i 0).val + 1, 0, 45056], k0_off77_eq i⟩
theorem k0_off78_eq : ∀ i : grid0.Coords, k0_off78 i = ![(i 1).val, 4 * (i 0).val + 1, 0, 49152] := by decide +kernel
instance closedOff_k0_off78 (i : grid0.Coords) : ClosedOff (k0_off78 i) := ⟨![(i 1).val, 4 * (i 0).val + 1, 0, 49152], k0_off78_eq i⟩
theorem k0_off79_eq : ∀ i : grid0.Coords, k0_off79 i = ![(i 1).val, 4 * (i 0).val + 1, 0, 53248] := by decide +kernel
instance closedOff_k0_off79 (i : grid0.Coords) : ClosedOff (k0_off79 i) := ⟨![(i 1).val, 4 * (i 0).val + 1, 0, 53248], k0_off79_eq i⟩
theorem k0_off80_eq : ∀ i : grid0.Coords, k0_off80 i = ![(i 1).val, 4 * (i 0).val + 1, 0, 57344] := by decide +kernel
instance closedOff_k0_off80 (i : grid0.Coords) : ClosedOff (k0_off80 i) := ⟨![(i 1).val, 4 * (i 0).val + 1, 0, 57344], k0_off80_eq i⟩
theorem k0_off81_eq : ∀ i : grid0.Coords, k0_off81 i = ![(i 1).val, 4 * (i 0).val + 1, 0, 61440] := by decide +kernel
instance closedOff_k0_off81 (i : grid0.Coords) : ClosedOff (k0_off81 i) := ⟨![(i 1).val, 4 * (i 0).val + 1, 0, 61440], k0_off81_eq i⟩
theorem k0_off83_eq : ∀ i : grid0.Coords, k0_off83 i = ![(i 1).val, 4 * (i 0).val + 1, 0, 32768] := by decide +kernel
instance closedOff_k0_off83 (i : grid0.Coords) : ClosedOff (k0_off83 i) := ⟨![(i 1).val, 4 * (i 0).val + 1, 0, 32768], k0_off83_eq i⟩
theorem k0_off84_eq : ∀ i : grid0.Coords, k0_off84 i = ![(i 1).val, 4 * (i 0).val + 1, 0, 0] := by decide +kernel
instance closedOff_k0_off84 (i : grid0.Coords) : ClosedOff (k0_off84 i) := ⟨![(i 1).val, 4 * (i 0).val + 1, 0, 0], k0_off84_eq i⟩
theorem k0_off87_eq : ∀ i : grid0.Coords, k0_off87 i = ![(i 1).val, 4 * (i 0).val + 1, 1, 32768] := by decide +kernel
instance closedOff_k0_off87 (i : grid0.Coords) : ClosedOff (k0_off87 i) := ⟨![(i 1).val, 4 * (i 0).val + 1, 1, 32768], k0_off87_eq i⟩
theorem k0_off88_eq : ∀ i : grid0.Coords, k0_off88 i = ![(i 1).val, 4 * (i 0).val + 1, 1, 0] := by decide +kernel
instance closedOff_k0_off88 (i : grid0.Coords) : ClosedOff (k0_off88 i) := ⟨![(i 1).val, 4 * (i 0).val + 1, 1, 0], k0_off88_eq i⟩
theorem k0_off89_eq : ∀ i : grid0.Coords, k0_off89 i = ![(i 1).val, 4 * (i 0).val + 1, 1, 4096] := by decide +kernel
instance closedOff_k0_off89 (i : grid0.Coords) : ClosedOff (k0_off89 i) := ⟨![(i 1).val, 4 * (i 0).val + 1, 1, 4096], k0_off89_eq i⟩
theorem k0_off90_eq : ∀ i : grid0.Coords, k0_off90 i = ![(i 1).val, 4 * (i 0).val + 1, 1, 8192] := by decide +kernel
instance closedOff_k0_off90 (i : grid0.Coords) : ClosedOff (k0_off90 i) := ⟨![(i 1).val, 4 * (i 0).val + 1, 1, 8192], k0_off90_eq i⟩
theorem k0_off91_eq : ∀ i : grid0.Coords, k0_off91 i = ![(i 1).val, 4 * (i 0).val + 1, 1, 12288] := by decide +kernel
instance closedOff_k0_off91 (i : grid0.Coords) : ClosedOff (k0_off91 i) := ⟨![(i 1).val, 4 * (i 0).val + 1, 1, 12288], k0_off91_eq i⟩
theorem k0_off92_eq : ∀ i : grid0.Coords, k0_off92 i = ![(i 1).val, 4 * (i 0).val + 1, 1, 16384] := by decide +kernel
instance closedOff_k0_off92 (i : grid0.Coords) : ClosedOff (k0_off92 i) := ⟨![(i 1).val, 4 * (i 0).val + 1, 1, 16384], k0_off92_eq i⟩
theorem k0_off93_eq : ∀ i : grid0.Coords, k0_off93 i = ![(i 1).val, 4 * (i 0).val + 1, 1, 20480] := by decide +kernel
instance closedOff_k0_off93 (i : grid0.Coords) : ClosedOff (k0_off93 i) := ⟨![(i 1).val, 4 * (i 0).val + 1, 1, 20480], k0_off93_eq i⟩
theorem k0_off94_eq : ∀ i : grid0.Coords, k0_off94 i = ![(i 1).val, 4 * (i 0).val + 1, 1, 24576] := by decide +kernel
instance closedOff_k0_off94 (i : grid0.Coords) : ClosedOff (k0_off94 i) := ⟨![(i 1).val, 4 * (i 0).val + 1, 1, 24576], k0_off94_eq i⟩
theorem k0_off95_eq : ∀ i : grid0.Coords, k0_off95 i = ![(i 1).val, 4 * (i 0).val + 1, 1, 28672] := by decide +kernel
instance closedOff_k0_off95 (i : grid0.Coords) : ClosedOff (k0_off95 i) := ⟨![(i 1).val, 4 * (i 0).val + 1, 1, 28672], k0_off95_eq i⟩
theorem k0_off97_eq : ∀ i : grid0.Coords, k0_off97 i = ![(i 1).val, 4 * (i 0).val + 1, 1, 0] := by decide +kernel
instance closedOff_k0_off97 (i : grid0.Coords) : ClosedOff (k0_off97 i) := ⟨![(i 1).val, 4 * (i 0).val + 1, 1, 0], k0_off97_eq i⟩
theorem k0_off98_eq : ∀ i : grid0.Coords, k0_off98 i = ![(i 1).val, 4 * (i 0).val + 1, 0, 32768] := by decide +kernel
instance closedOff_k0_off98 (i : grid0.Coords) : ClosedOff (k0_off98 i) := ⟨![(i 1).val, 4 * (i 0).val + 1, 0, 32768], k0_off98_eq i⟩
theorem k0_off101_eq : ∀ i : grid0.Coords, k0_off101 i = ![(i 1).val, 4 * (i 0).val + 2, 0, 0] := by decide +kernel
instance closedOff_k0_off101 (i : grid0.Coords) : ClosedOff (k0_off101 i) := ⟨![(i 1).val, 4 * (i 0).val + 2, 0, 0], k0_off101_eq i⟩
theorem k0_off102_eq : ∀ i : grid0.Coords, k0_off102 i = ![(i 1).val, 4 * (i 0).val + 1, 1, 32768] := by decide +kernel
instance closedOff_k0_off102 (i : grid0.Coords) : ClosedOff (k0_off102 i) := ⟨![(i 1).val, 4 * (i 0).val + 1, 1, 32768], k0_off102_eq i⟩
theorem k0_off103_eq : ∀ i : grid0.Coords, k0_off103 i = ![(i 1).val, 4 * (i 0).val + 1, 1, 36864] := by decide +kernel
instance closedOff_k0_off103 (i : grid0.Coords) : ClosedOff (k0_off103 i) := ⟨![(i 1).val, 4 * (i 0).val + 1, 1, 36864], k0_off103_eq i⟩
theorem k0_off104_eq : ∀ i : grid0.Coords, k0_off104 i = ![(i 1).val, 4 * (i 0).val + 1, 1, 40960] := by decide +kernel
instance closedOff_k0_off104 (i : grid0.Coords) : ClosedOff (k0_off104 i) := ⟨![(i 1).val, 4 * (i 0).val + 1, 1, 40960], k0_off104_eq i⟩
theorem k0_off105_eq : ∀ i : grid0.Coords, k0_off105 i = ![(i 1).val, 4 * (i 0).val + 1, 1, 45056] := by decide +kernel
instance closedOff_k0_off105 (i : grid0.Coords) : ClosedOff (k0_off105 i) := ⟨![(i 1).val, 4 * (i 0).val + 1, 1, 45056], k0_off105_eq i⟩
theorem k0_off106_eq : ∀ i : grid0.Coords, k0_off106 i = ![(i 1).val, 4 * (i 0).val + 1, 1, 49152] := by decide +kernel
instance closedOff_k0_off106 (i : grid0.Coords) : ClosedOff (k0_off106 i) := ⟨![(i 1).val, 4 * (i 0).val + 1, 1, 49152], k0_off106_eq i⟩
theorem k0_off107_eq : ∀ i : grid0.Coords, k0_off107 i = ![(i 1).val, 4 * (i 0).val + 1, 1, 53248] := by decide +kernel
instance closedOff_k0_off107 (i : grid0.Coords) : ClosedOff (k0_off107 i) := ⟨![(i 1).val, 4 * (i 0).val + 1, 1, 53248], k0_off107_eq i⟩
theorem k0_off108_eq : ∀ i : grid0.Coords, k0_off108 i = ![(i 1).val, 4 * (i 0).val + 1, 1, 57344] := by decide +kernel
instance closedOff_k0_off108 (i : grid0.Coords) : ClosedOff (k0_off108 i) := ⟨![(i 1).val, 4 * (i 0).val + 1, 1, 57344], k0_off108_eq i⟩
theorem k0_off109_eq : ∀ i : grid0.Coords, k0_off109 i = ![(i 1).val, 4 * (i 0).val + 1, 1, 61440] := by decide +kernel
instance closedOff_k0_off109 (i : grid0.Coords) : ClosedOff (k0_off109 i) := ⟨![(i 1).val, 4 * (i 0).val + 1, 1, 61440], k0_off109_eq i⟩
theorem k0_off111_eq : ∀ i : grid0.Coords, k0_off111 i = ![(i 1).val, 4 * (i 0).val + 1, 1, 32768] := by decide +kernel
instance closedOff_k0_off111 (i : grid0.Coords) : ClosedOff (k0_off111 i) := ⟨![(i 1).val, 4 * (i 0).val + 1, 1, 32768], k0_off111_eq i⟩
theorem k0_off112_eq : ∀ i : grid0.Coords, k0_off112 i = ![(i 1).val, 4 * (i 0).val + 1, 1, 0] := by decide +kernel
instance closedOff_k0_off112 (i : grid0.Coords) : ClosedOff (k0_off112 i) := ⟨![(i 1).val, 4 * (i 0).val + 1, 1, 0], k0_off112_eq i⟩
theorem k0_off115_eq : ∀ i : grid0.Coords, k0_off115 i = ![(i 1).val, 4 * (i 0).val + 2, 0, 32768] := by decide +kernel
instance closedOff_k0_off115 (i : grid0.Coords) : ClosedOff (k0_off115 i) := ⟨![(i 1).val, 4 * (i 0).val + 2, 0, 32768], k0_off115_eq i⟩
theorem k0_off116_eq : ∀ i : grid0.Coords, k0_off116 i = ![(i 1).val, 4 * (i 0).val + 2, 0, 0] := by decide +kernel
instance closedOff_k0_off116 (i : grid0.Coords) : ClosedOff (k0_off116 i) := ⟨![(i 1).val, 4 * (i 0).val + 2, 0, 0], k0_off116_eq i⟩
theorem k0_off117_eq : ∀ i : grid0.Coords, k0_off117 i = ![(i 1).val, 4 * (i 0).val + 2, 0, 4096] := by decide +kernel
instance closedOff_k0_off117 (i : grid0.Coords) : ClosedOff (k0_off117 i) := ⟨![(i 1).val, 4 * (i 0).val + 2, 0, 4096], k0_off117_eq i⟩
theorem k0_off118_eq : ∀ i : grid0.Coords, k0_off118 i = ![(i 1).val, 4 * (i 0).val + 2, 0, 8192] := by decide +kernel
instance closedOff_k0_off118 (i : grid0.Coords) : ClosedOff (k0_off118 i) := ⟨![(i 1).val, 4 * (i 0).val + 2, 0, 8192], k0_off118_eq i⟩
theorem k0_off119_eq : ∀ i : grid0.Coords, k0_off119 i = ![(i 1).val, 4 * (i 0).val + 2, 0, 12288] := by decide +kernel
instance closedOff_k0_off119 (i : grid0.Coords) : ClosedOff (k0_off119 i) := ⟨![(i 1).val, 4 * (i 0).val + 2, 0, 12288], k0_off119_eq i⟩
theorem k0_off120_eq : ∀ i : grid0.Coords, k0_off120 i = ![(i 1).val, 4 * (i 0).val + 2, 0, 16384] := by decide +kernel
instance closedOff_k0_off120 (i : grid0.Coords) : ClosedOff (k0_off120 i) := ⟨![(i 1).val, 4 * (i 0).val + 2, 0, 16384], k0_off120_eq i⟩
theorem k0_off121_eq : ∀ i : grid0.Coords, k0_off121 i = ![(i 1).val, 4 * (i 0).val + 2, 0, 20480] := by decide +kernel
instance closedOff_k0_off121 (i : grid0.Coords) : ClosedOff (k0_off121 i) := ⟨![(i 1).val, 4 * (i 0).val + 2, 0, 20480], k0_off121_eq i⟩
theorem k0_off122_eq : ∀ i : grid0.Coords, k0_off122 i = ![(i 1).val, 4 * (i 0).val + 2, 0, 24576] := by decide +kernel
instance closedOff_k0_off122 (i : grid0.Coords) : ClosedOff (k0_off122 i) := ⟨![(i 1).val, 4 * (i 0).val + 2, 0, 24576], k0_off122_eq i⟩
theorem k0_off123_eq : ∀ i : grid0.Coords, k0_off123 i = ![(i 1).val, 4 * (i 0).val + 2, 0, 28672] := by decide +kernel
instance closedOff_k0_off123 (i : grid0.Coords) : ClosedOff (k0_off123 i) := ⟨![(i 1).val, 4 * (i 0).val + 2, 0, 28672], k0_off123_eq i⟩
theorem k0_off125_eq : ∀ i : grid0.Coords, k0_off125 i = ![(i 1).val, 4 * (i 0).val + 2, 0, 0] := by decide +kernel
instance closedOff_k0_off125 (i : grid0.Coords) : ClosedOff (k0_off125 i) := ⟨![(i 1).val, 4 * (i 0).val + 2, 0, 0], k0_off125_eq i⟩
theorem k0_off126_eq : ∀ i : grid0.Coords, k0_off126 i = ![(i 1).val, 4 * (i 0).val + 1, 1, 32768] := by decide +kernel
instance closedOff_k0_off126 (i : grid0.Coords) : ClosedOff (k0_off126 i) := ⟨![(i 1).val, 4 * (i 0).val + 1, 1, 32768], k0_off126_eq i⟩
theorem k0_off129_eq : ∀ i : grid0.Coords, k0_off129 i = ![(i 1).val, 4 * (i 0).val + 2, 1, 0] := by decide +kernel
instance closedOff_k0_off129 (i : grid0.Coords) : ClosedOff (k0_off129 i) := ⟨![(i 1).val, 4 * (i 0).val + 2, 1, 0], k0_off129_eq i⟩
theorem k0_off130_eq : ∀ i : grid0.Coords, k0_off130 i = ![(i 1).val, 4 * (i 0).val + 2, 0, 32768] := by decide +kernel
instance closedOff_k0_off130 (i : grid0.Coords) : ClosedOff (k0_off130 i) := ⟨![(i 1).val, 4 * (i 0).val + 2, 0, 32768], k0_off130_eq i⟩
theorem k0_off131_eq : ∀ i : grid0.Coords, k0_off131 i = ![(i 1).val, 4 * (i 0).val + 2, 0, 36864] := by decide +kernel
instance closedOff_k0_off131 (i : grid0.Coords) : ClosedOff (k0_off131 i) := ⟨![(i 1).val, 4 * (i 0).val + 2, 0, 36864], k0_off131_eq i⟩
theorem k0_off132_eq : ∀ i : grid0.Coords, k0_off132 i = ![(i 1).val, 4 * (i 0).val + 2, 0, 40960] := by decide +kernel
instance closedOff_k0_off132 (i : grid0.Coords) : ClosedOff (k0_off132 i) := ⟨![(i 1).val, 4 * (i 0).val + 2, 0, 40960], k0_off132_eq i⟩
theorem k0_off133_eq : ∀ i : grid0.Coords, k0_off133 i = ![(i 1).val, 4 * (i 0).val + 2, 0, 45056] := by decide +kernel
instance closedOff_k0_off133 (i : grid0.Coords) : ClosedOff (k0_off133 i) := ⟨![(i 1).val, 4 * (i 0).val + 2, 0, 45056], k0_off133_eq i⟩
theorem k0_off134_eq : ∀ i : grid0.Coords, k0_off134 i = ![(i 1).val, 4 * (i 0).val + 2, 0, 49152] := by decide +kernel
instance closedOff_k0_off134 (i : grid0.Coords) : ClosedOff (k0_off134 i) := ⟨![(i 1).val, 4 * (i 0).val + 2, 0, 49152], k0_off134_eq i⟩
theorem k0_off135_eq : ∀ i : grid0.Coords, k0_off135 i = ![(i 1).val, 4 * (i 0).val + 2, 0, 53248] := by decide +kernel
instance closedOff_k0_off135 (i : grid0.Coords) : ClosedOff (k0_off135 i) := ⟨![(i 1).val, 4 * (i 0).val + 2, 0, 53248], k0_off135_eq i⟩
theorem k0_off136_eq : ∀ i : grid0.Coords, k0_off136 i = ![(i 1).val, 4 * (i 0).val + 2, 0, 57344] := by decide +kernel
instance closedOff_k0_off136 (i : grid0.Coords) : ClosedOff (k0_off136 i) := ⟨![(i 1).val, 4 * (i 0).val + 2, 0, 57344], k0_off136_eq i⟩
theorem k0_off137_eq : ∀ i : grid0.Coords, k0_off137 i = ![(i 1).val, 4 * (i 0).val + 2, 0, 61440] := by decide +kernel
instance closedOff_k0_off137 (i : grid0.Coords) : ClosedOff (k0_off137 i) := ⟨![(i 1).val, 4 * (i 0).val + 2, 0, 61440], k0_off137_eq i⟩
theorem k0_off139_eq : ∀ i : grid0.Coords, k0_off139 i = ![(i 1).val, 4 * (i 0).val + 2, 0, 32768] := by decide +kernel
instance closedOff_k0_off139 (i : grid0.Coords) : ClosedOff (k0_off139 i) := ⟨![(i 1).val, 4 * (i 0).val + 2, 0, 32768], k0_off139_eq i⟩
theorem k0_off140_eq : ∀ i : grid0.Coords, k0_off140 i = ![(i 1).val, 4 * (i 0).val + 2, 0, 0] := by decide +kernel
instance closedOff_k0_off140 (i : grid0.Coords) : ClosedOff (k0_off140 i) := ⟨![(i 1).val, 4 * (i 0).val + 2, 0, 0], k0_off140_eq i⟩
theorem k0_off143_eq : ∀ i : grid0.Coords, k0_off143 i = ![(i 1).val, 4 * (i 0).val + 2, 1, 32768] := by decide +kernel
instance closedOff_k0_off143 (i : grid0.Coords) : ClosedOff (k0_off143 i) := ⟨![(i 1).val, 4 * (i 0).val + 2, 1, 32768], k0_off143_eq i⟩
theorem k0_off144_eq : ∀ i : grid0.Coords, k0_off144 i = ![(i 1).val, 4 * (i 0).val + 2, 1, 0] := by decide +kernel
instance closedOff_k0_off144 (i : grid0.Coords) : ClosedOff (k0_off144 i) := ⟨![(i 1).val, 4 * (i 0).val + 2, 1, 0], k0_off144_eq i⟩
theorem k0_off145_eq : ∀ i : grid0.Coords, k0_off145 i = ![(i 1).val, 4 * (i 0).val + 2, 1, 4096] := by decide +kernel
instance closedOff_k0_off145 (i : grid0.Coords) : ClosedOff (k0_off145 i) := ⟨![(i 1).val, 4 * (i 0).val + 2, 1, 4096], k0_off145_eq i⟩
theorem k0_off146_eq : ∀ i : grid0.Coords, k0_off146 i = ![(i 1).val, 4 * (i 0).val + 2, 1, 8192] := by decide +kernel
instance closedOff_k0_off146 (i : grid0.Coords) : ClosedOff (k0_off146 i) := ⟨![(i 1).val, 4 * (i 0).val + 2, 1, 8192], k0_off146_eq i⟩
theorem k0_off147_eq : ∀ i : grid0.Coords, k0_off147 i = ![(i 1).val, 4 * (i 0).val + 2, 1, 12288] := by decide +kernel
instance closedOff_k0_off147 (i : grid0.Coords) : ClosedOff (k0_off147 i) := ⟨![(i 1).val, 4 * (i 0).val + 2, 1, 12288], k0_off147_eq i⟩
theorem k0_off148_eq : ∀ i : grid0.Coords, k0_off148 i = ![(i 1).val, 4 * (i 0).val + 2, 1, 16384] := by decide +kernel
instance closedOff_k0_off148 (i : grid0.Coords) : ClosedOff (k0_off148 i) := ⟨![(i 1).val, 4 * (i 0).val + 2, 1, 16384], k0_off148_eq i⟩
theorem k0_off149_eq : ∀ i : grid0.Coords, k0_off149 i = ![(i 1).val, 4 * (i 0).val + 2, 1, 20480] := by decide +kernel
instance closedOff_k0_off149 (i : grid0.Coords) : ClosedOff (k0_off149 i) := ⟨![(i 1).val, 4 * (i 0).val + 2, 1, 20480], k0_off149_eq i⟩
theorem k0_off150_eq : ∀ i : grid0.Coords, k0_off150 i = ![(i 1).val, 4 * (i 0).val + 2, 1, 24576] := by decide +kernel
instance closedOff_k0_off150 (i : grid0.Coords) : ClosedOff (k0_off150 i) := ⟨![(i 1).val, 4 * (i 0).val + 2, 1, 24576], k0_off150_eq i⟩
theorem k0_off151_eq : ∀ i : grid0.Coords, k0_off151 i = ![(i 1).val, 4 * (i 0).val + 2, 1, 28672] := by decide +kernel
instance closedOff_k0_off151 (i : grid0.Coords) : ClosedOff (k0_off151 i) := ⟨![(i 1).val, 4 * (i 0).val + 2, 1, 28672], k0_off151_eq i⟩
theorem k0_off153_eq : ∀ i : grid0.Coords, k0_off153 i = ![(i 1).val, 4 * (i 0).val + 2, 1, 0] := by decide +kernel
instance closedOff_k0_off153 (i : grid0.Coords) : ClosedOff (k0_off153 i) := ⟨![(i 1).val, 4 * (i 0).val + 2, 1, 0], k0_off153_eq i⟩
theorem k0_off154_eq : ∀ i : grid0.Coords, k0_off154 i = ![(i 1).val, 4 * (i 0).val + 2, 0, 32768] := by decide +kernel
instance closedOff_k0_off154 (i : grid0.Coords) : ClosedOff (k0_off154 i) := ⟨![(i 1).val, 4 * (i 0).val + 2, 0, 32768], k0_off154_eq i⟩
theorem k0_off157_eq : ∀ i : grid0.Coords, k0_off157 i = ![(i 1).val, 4 * (i 0).val + 3, 0, 0] := by decide +kernel
instance closedOff_k0_off157 (i : grid0.Coords) : ClosedOff (k0_off157 i) := ⟨![(i 1).val, 4 * (i 0).val + 3, 0, 0], k0_off157_eq i⟩
theorem k0_off158_eq : ∀ i : grid0.Coords, k0_off158 i = ![(i 1).val, 4 * (i 0).val + 2, 1, 32768] := by decide +kernel
instance closedOff_k0_off158 (i : grid0.Coords) : ClosedOff (k0_off158 i) := ⟨![(i 1).val, 4 * (i 0).val + 2, 1, 32768], k0_off158_eq i⟩
theorem k0_off159_eq : ∀ i : grid0.Coords, k0_off159 i = ![(i 1).val, 4 * (i 0).val + 2, 1, 36864] := by decide +kernel
instance closedOff_k0_off159 (i : grid0.Coords) : ClosedOff (k0_off159 i) := ⟨![(i 1).val, 4 * (i 0).val + 2, 1, 36864], k0_off159_eq i⟩
theorem k0_off160_eq : ∀ i : grid0.Coords, k0_off160 i = ![(i 1).val, 4 * (i 0).val + 2, 1, 40960] := by decide +kernel
instance closedOff_k0_off160 (i : grid0.Coords) : ClosedOff (k0_off160 i) := ⟨![(i 1).val, 4 * (i 0).val + 2, 1, 40960], k0_off160_eq i⟩
theorem k0_off161_eq : ∀ i : grid0.Coords, k0_off161 i = ![(i 1).val, 4 * (i 0).val + 2, 1, 45056] := by decide +kernel
instance closedOff_k0_off161 (i : grid0.Coords) : ClosedOff (k0_off161 i) := ⟨![(i 1).val, 4 * (i 0).val + 2, 1, 45056], k0_off161_eq i⟩
theorem k0_off162_eq : ∀ i : grid0.Coords, k0_off162 i = ![(i 1).val, 4 * (i 0).val + 2, 1, 49152] := by decide +kernel
instance closedOff_k0_off162 (i : grid0.Coords) : ClosedOff (k0_off162 i) := ⟨![(i 1).val, 4 * (i 0).val + 2, 1, 49152], k0_off162_eq i⟩
theorem k0_off163_eq : ∀ i : grid0.Coords, k0_off163 i = ![(i 1).val, 4 * (i 0).val + 2, 1, 53248] := by decide +kernel
instance closedOff_k0_off163 (i : grid0.Coords) : ClosedOff (k0_off163 i) := ⟨![(i 1).val, 4 * (i 0).val + 2, 1, 53248], k0_off163_eq i⟩
theorem k0_off164_eq : ∀ i : grid0.Coords, k0_off164 i = ![(i 1).val, 4 * (i 0).val + 2, 1, 57344] := by decide +kernel
instance closedOff_k0_off164 (i : grid0.Coords) : ClosedOff (k0_off164 i) := ⟨![(i 1).val, 4 * (i 0).val + 2, 1, 57344], k0_off164_eq i⟩
theorem k0_off165_eq : ∀ i : grid0.Coords, k0_off165 i = ![(i 1).val, 4 * (i 0).val + 2, 1, 61440] := by decide +kernel
instance closedOff_k0_off165 (i : grid0.Coords) : ClosedOff (k0_off165 i) := ⟨![(i 1).val, 4 * (i 0).val + 2, 1, 61440], k0_off165_eq i⟩
theorem k0_off167_eq : ∀ i : grid0.Coords, k0_off167 i = ![(i 1).val, 4 * (i 0).val + 2, 1, 32768] := by decide +kernel
instance closedOff_k0_off167 (i : grid0.Coords) : ClosedOff (k0_off167 i) := ⟨![(i 1).val, 4 * (i 0).val + 2, 1, 32768], k0_off167_eq i⟩
theorem k0_off168_eq : ∀ i : grid0.Coords, k0_off168 i = ![(i 1).val, 4 * (i 0).val + 2, 1, 0] := by decide +kernel
instance closedOff_k0_off168 (i : grid0.Coords) : ClosedOff (k0_off168 i) := ⟨![(i 1).val, 4 * (i 0).val + 2, 1, 0], k0_off168_eq i⟩
theorem k0_off171_eq : ∀ i : grid0.Coords, k0_off171 i = ![(i 1).val, 4 * (i 0).val + 3, 0, 32768] := by decide +kernel
instance closedOff_k0_off171 (i : grid0.Coords) : ClosedOff (k0_off171 i) := ⟨![(i 1).val, 4 * (i 0).val + 3, 0, 32768], k0_off171_eq i⟩
theorem k0_off172_eq : ∀ i : grid0.Coords, k0_off172 i = ![(i 1).val, 4 * (i 0).val + 3, 0, 0] := by decide +kernel
instance closedOff_k0_off172 (i : grid0.Coords) : ClosedOff (k0_off172 i) := ⟨![(i 1).val, 4 * (i 0).val + 3, 0, 0], k0_off172_eq i⟩
theorem k0_off173_eq : ∀ i : grid0.Coords, k0_off173 i = ![(i 1).val, 4 * (i 0).val + 3, 0, 4096] := by decide +kernel
instance closedOff_k0_off173 (i : grid0.Coords) : ClosedOff (k0_off173 i) := ⟨![(i 1).val, 4 * (i 0).val + 3, 0, 4096], k0_off173_eq i⟩
theorem k0_off174_eq : ∀ i : grid0.Coords, k0_off174 i = ![(i 1).val, 4 * (i 0).val + 3, 0, 8192] := by decide +kernel
instance closedOff_k0_off174 (i : grid0.Coords) : ClosedOff (k0_off174 i) := ⟨![(i 1).val, 4 * (i 0).val + 3, 0, 8192], k0_off174_eq i⟩
theorem k0_off175_eq : ∀ i : grid0.Coords, k0_off175 i = ![(i 1).val, 4 * (i 0).val + 3, 0, 12288] := by decide +kernel
instance closedOff_k0_off175 (i : grid0.Coords) : ClosedOff (k0_off175 i) := ⟨![(i 1).val, 4 * (i 0).val + 3, 0, 12288], k0_off175_eq i⟩
theorem k0_off176_eq : ∀ i : grid0.Coords, k0_off176 i = ![(i 1).val, 4 * (i 0).val + 3, 0, 16384] := by decide +kernel
instance closedOff_k0_off176 (i : grid0.Coords) : ClosedOff (k0_off176 i) := ⟨![(i 1).val, 4 * (i 0).val + 3, 0, 16384], k0_off176_eq i⟩
theorem k0_off177_eq : ∀ i : grid0.Coords, k0_off177 i = ![(i 1).val, 4 * (i 0).val + 3, 0, 20480] := by decide +kernel
instance closedOff_k0_off177 (i : grid0.Coords) : ClosedOff (k0_off177 i) := ⟨![(i 1).val, 4 * (i 0).val + 3, 0, 20480], k0_off177_eq i⟩
theorem k0_off178_eq : ∀ i : grid0.Coords, k0_off178 i = ![(i 1).val, 4 * (i 0).val + 3, 0, 24576] := by decide +kernel
instance closedOff_k0_off178 (i : grid0.Coords) : ClosedOff (k0_off178 i) := ⟨![(i 1).val, 4 * (i 0).val + 3, 0, 24576], k0_off178_eq i⟩
theorem k0_off179_eq : ∀ i : grid0.Coords, k0_off179 i = ![(i 1).val, 4 * (i 0).val + 3, 0, 28672] := by decide +kernel
instance closedOff_k0_off179 (i : grid0.Coords) : ClosedOff (k0_off179 i) := ⟨![(i 1).val, 4 * (i 0).val + 3, 0, 28672], k0_off179_eq i⟩
theorem k0_off181_eq : ∀ i : grid0.Coords, k0_off181 i = ![(i 1).val, 4 * (i 0).val + 3, 0, 0] := by decide +kernel
instance closedOff_k0_off181 (i : grid0.Coords) : ClosedOff (k0_off181 i) := ⟨![(i 1).val, 4 * (i 0).val + 3, 0, 0], k0_off181_eq i⟩
theorem k0_off182_eq : ∀ i : grid0.Coords, k0_off182 i = ![(i 1).val, 4 * (i 0).val + 2, 1, 32768] := by decide +kernel
instance closedOff_k0_off182 (i : grid0.Coords) : ClosedOff (k0_off182 i) := ⟨![(i 1).val, 4 * (i 0).val + 2, 1, 32768], k0_off182_eq i⟩
theorem k0_off185_eq : ∀ i : grid0.Coords, k0_off185 i = ![(i 1).val, 4 * (i 0).val + 3, 1, 0] := by decide +kernel
instance closedOff_k0_off185 (i : grid0.Coords) : ClosedOff (k0_off185 i) := ⟨![(i 1).val, 4 * (i 0).val + 3, 1, 0], k0_off185_eq i⟩
theorem k0_off186_eq : ∀ i : grid0.Coords, k0_off186 i = ![(i 1).val, 4 * (i 0).val + 3, 0, 32768] := by decide +kernel
instance closedOff_k0_off186 (i : grid0.Coords) : ClosedOff (k0_off186 i) := ⟨![(i 1).val, 4 * (i 0).val + 3, 0, 32768], k0_off186_eq i⟩
theorem k0_off187_eq : ∀ i : grid0.Coords, k0_off187 i = ![(i 1).val, 4 * (i 0).val + 3, 0, 36864] := by decide +kernel
instance closedOff_k0_off187 (i : grid0.Coords) : ClosedOff (k0_off187 i) := ⟨![(i 1).val, 4 * (i 0).val + 3, 0, 36864], k0_off187_eq i⟩
theorem k0_off188_eq : ∀ i : grid0.Coords, k0_off188 i = ![(i 1).val, 4 * (i 0).val + 3, 0, 40960] := by decide +kernel
instance closedOff_k0_off188 (i : grid0.Coords) : ClosedOff (k0_off188 i) := ⟨![(i 1).val, 4 * (i 0).val + 3, 0, 40960], k0_off188_eq i⟩
theorem k0_off189_eq : ∀ i : grid0.Coords, k0_off189 i = ![(i 1).val, 4 * (i 0).val + 3, 0, 45056] := by decide +kernel
instance closedOff_k0_off189 (i : grid0.Coords) : ClosedOff (k0_off189 i) := ⟨![(i 1).val, 4 * (i 0).val + 3, 0, 45056], k0_off189_eq i⟩
theorem k0_off190_eq : ∀ i : grid0.Coords, k0_off190 i = ![(i 1).val, 4 * (i 0).val + 3, 0, 49152] := by decide +kernel
instance closedOff_k0_off190 (i : grid0.Coords) : ClosedOff (k0_off190 i) := ⟨![(i 1).val, 4 * (i 0).val + 3, 0, 49152], k0_off190_eq i⟩
theorem k0_off191_eq : ∀ i : grid0.Coords, k0_off191 i = ![(i 1).val, 4 * (i 0).val + 3, 0, 53248] := by decide +kernel
instance closedOff_k0_off191 (i : grid0.Coords) : ClosedOff (k0_off191 i) := ⟨![(i 1).val, 4 * (i 0).val + 3, 0, 53248], k0_off191_eq i⟩
theorem k0_off192_eq : ∀ i : grid0.Coords, k0_off192 i = ![(i 1).val, 4 * (i 0).val + 3, 0, 57344] := by decide +kernel
instance closedOff_k0_off192 (i : grid0.Coords) : ClosedOff (k0_off192 i) := ⟨![(i 1).val, 4 * (i 0).val + 3, 0, 57344], k0_off192_eq i⟩
theorem k0_off193_eq : ∀ i : grid0.Coords, k0_off193 i = ![(i 1).val, 4 * (i 0).val + 3, 0, 61440] := by decide +kernel
instance closedOff_k0_off193 (i : grid0.Coords) : ClosedOff (k0_off193 i) := ⟨![(i 1).val, 4 * (i 0).val + 3, 0, 61440], k0_off193_eq i⟩
theorem k0_off195_eq : ∀ i : grid0.Coords, k0_off195 i = ![(i 1).val, 4 * (i 0).val + 3, 0, 32768] := by decide +kernel
instance closedOff_k0_off195 (i : grid0.Coords) : ClosedOff (k0_off195 i) := ⟨![(i 1).val, 4 * (i 0).val + 3, 0, 32768], k0_off195_eq i⟩
theorem k0_off196_eq : ∀ i : grid0.Coords, k0_off196 i = ![(i 1).val, 4 * (i 0).val + 3, 0, 0] := by decide +kernel
instance closedOff_k0_off196 (i : grid0.Coords) : ClosedOff (k0_off196 i) := ⟨![(i 1).val, 4 * (i 0).val + 3, 0, 0], k0_off196_eq i⟩
theorem k0_off199_eq : ∀ i : grid0.Coords, k0_off199 i = ![(i 1).val, 4 * (i 0).val + 3, 1, 32768] := by decide +kernel
instance closedOff_k0_off199 (i : grid0.Coords) : ClosedOff (k0_off199 i) := ⟨![(i 1).val, 4 * (i 0).val + 3, 1, 32768], k0_off199_eq i⟩
theorem k0_off200_eq : ∀ i : grid0.Coords, k0_off200 i = ![(i 1).val, 4 * (i 0).val + 3, 1, 0] := by decide +kernel
instance closedOff_k0_off200 (i : grid0.Coords) : ClosedOff (k0_off200 i) := ⟨![(i 1).val, 4 * (i 0).val + 3, 1, 0], k0_off200_eq i⟩
theorem k0_off201_eq : ∀ i : grid0.Coords, k0_off201 i = ![(i 1).val, 4 * (i 0).val + 3, 1, 4096] := by decide +kernel
instance closedOff_k0_off201 (i : grid0.Coords) : ClosedOff (k0_off201 i) := ⟨![(i 1).val, 4 * (i 0).val + 3, 1, 4096], k0_off201_eq i⟩
theorem k0_off202_eq : ∀ i : grid0.Coords, k0_off202 i = ![(i 1).val, 4 * (i 0).val + 3, 1, 8192] := by decide +kernel
instance closedOff_k0_off202 (i : grid0.Coords) : ClosedOff (k0_off202 i) := ⟨![(i 1).val, 4 * (i 0).val + 3, 1, 8192], k0_off202_eq i⟩
theorem k0_off203_eq : ∀ i : grid0.Coords, k0_off203 i = ![(i 1).val, 4 * (i 0).val + 3, 1, 12288] := by decide +kernel
instance closedOff_k0_off203 (i : grid0.Coords) : ClosedOff (k0_off203 i) := ⟨![(i 1).val, 4 * (i 0).val + 3, 1, 12288], k0_off203_eq i⟩
theorem k0_off204_eq : ∀ i : grid0.Coords, k0_off204 i = ![(i 1).val, 4 * (i 0).val + 3, 1, 16384] := by decide +kernel
instance closedOff_k0_off204 (i : grid0.Coords) : ClosedOff (k0_off204 i) := ⟨![(i 1).val, 4 * (i 0).val + 3, 1, 16384], k0_off204_eq i⟩
theorem k0_off205_eq : ∀ i : grid0.Coords, k0_off205 i = ![(i 1).val, 4 * (i 0).val + 3, 1, 20480] := by decide +kernel
instance closedOff_k0_off205 (i : grid0.Coords) : ClosedOff (k0_off205 i) := ⟨![(i 1).val, 4 * (i 0).val + 3, 1, 20480], k0_off205_eq i⟩
theorem k0_off206_eq : ∀ i : grid0.Coords, k0_off206 i = ![(i 1).val, 4 * (i 0).val + 3, 1, 24576] := by decide +kernel
instance closedOff_k0_off206 (i : grid0.Coords) : ClosedOff (k0_off206 i) := ⟨![(i 1).val, 4 * (i 0).val + 3, 1, 24576], k0_off206_eq i⟩
theorem k0_off207_eq : ∀ i : grid0.Coords, k0_off207 i = ![(i 1).val, 4 * (i 0).val + 3, 1, 28672] := by decide +kernel
instance closedOff_k0_off207 (i : grid0.Coords) : ClosedOff (k0_off207 i) := ⟨![(i 1).val, 4 * (i 0).val + 3, 1, 28672], k0_off207_eq i⟩
theorem k0_off209_eq : ∀ i : grid0.Coords, k0_off209 i = ![(i 1).val, 4 * (i 0).val + 3, 1, 0] := by decide +kernel
instance closedOff_k0_off209 (i : grid0.Coords) : ClosedOff (k0_off209 i) := ⟨![(i 1).val, 4 * (i 0).val + 3, 1, 0], k0_off209_eq i⟩
theorem k0_off210_eq : ∀ i : grid0.Coords, k0_off210 i = ![(i 1).val, 4 * (i 0).val + 3, 1, 32768] := by decide +kernel
instance closedOff_k0_off210 (i : grid0.Coords) : ClosedOff (k0_off210 i) := ⟨![(i 1).val, 4 * (i 0).val + 3, 1, 32768], k0_off210_eq i⟩
theorem k0_off211_eq : ∀ i : grid0.Coords, k0_off211 i = ![(i 1).val, 4 * (i 0).val + 3, 1, 36864] := by decide +kernel
instance closedOff_k0_off211 (i : grid0.Coords) : ClosedOff (k0_off211 i) := ⟨![(i 1).val, 4 * (i 0).val + 3, 1, 36864], k0_off211_eq i⟩
theorem k0_off212_eq : ∀ i : grid0.Coords, k0_off212 i = ![(i 1).val, 4 * (i 0).val + 3, 1, 40960] := by decide +kernel
instance closedOff_k0_off212 (i : grid0.Coords) : ClosedOff (k0_off212 i) := ⟨![(i 1).val, 4 * (i 0).val + 3, 1, 40960], k0_off212_eq i⟩
theorem k0_off213_eq : ∀ i : grid0.Coords, k0_off213 i = ![(i 1).val, 4 * (i 0).val + 3, 1, 45056] := by decide +kernel
instance closedOff_k0_off213 (i : grid0.Coords) : ClosedOff (k0_off213 i) := ⟨![(i 1).val, 4 * (i 0).val + 3, 1, 45056], k0_off213_eq i⟩
theorem k0_off214_eq : ∀ i : grid0.Coords, k0_off214 i = ![(i 1).val, 4 * (i 0).val + 3, 1, 49152] := by decide +kernel
instance closedOff_k0_off214 (i : grid0.Coords) : ClosedOff (k0_off214 i) := ⟨![(i 1).val, 4 * (i 0).val + 3, 1, 49152], k0_off214_eq i⟩
theorem k0_off215_eq : ∀ i : grid0.Coords, k0_off215 i = ![(i 1).val, 4 * (i 0).val + 3, 1, 53248] := by decide +kernel
instance closedOff_k0_off215 (i : grid0.Coords) : ClosedOff (k0_off215 i) := ⟨![(i 1).val, 4 * (i 0).val + 3, 1, 53248], k0_off215_eq i⟩
theorem k0_off216_eq : ∀ i : grid0.Coords, k0_off216 i = ![(i 1).val, 4 * (i 0).val + 3, 1, 57344] := by decide +kernel
instance closedOff_k0_off216 (i : grid0.Coords) : ClosedOff (k0_off216 i) := ⟨![(i 1).val, 4 * (i 0).val + 3, 1, 57344], k0_off216_eq i⟩
theorem k0_off217_eq : ∀ i : grid0.Coords, k0_off217 i = ![(i 1).val, 4 * (i 0).val + 3, 1, 61440] := by decide +kernel
instance closedOff_k0_off217 (i : grid0.Coords) : ClosedOff (k0_off217 i) := ⟨![(i 1).val, 4 * (i 0).val + 3, 1, 61440], k0_off217_eq i⟩
theorem k0_off219_eq : ∀ i : grid0.Coords, k0_off219 i = ![(i 1).val, 4 * (i 0).val + 3, 1, 32768] := by decide +kernel
instance closedOff_k0_off219 (i : grid0.Coords) : ClosedOff (k0_off219 i) := ⟨![(i 1).val, 4 * (i 0).val + 3, 1, 32768], k0_off219_eq i⟩
theorem k0_off220_eq : ∀ i : grid0.Coords, k0_off220 i = ![(i 1).val, 4 * (i 0).val + 3, 0, 32768] := by decide +kernel
instance closedOff_k0_off220 (i : grid0.Coords) : ClosedOff (k0_off220 i) := ⟨![(i 1).val, 4 * (i 0).val + 3, 0, 32768], k0_off220_eq i⟩
theorem k0_off222_eq : ∀ i : grid0.Coords, k0_off222 i = ![(i 1).val, 4 * (i 0).val + 3, 1, 0] := by decide +kernel
instance closedOff_k0_off222 (i : grid0.Coords) : ClosedOff (k0_off222 i) := ⟨![(i 1).val, 4 * (i 0).val + 3, 1, 0], k0_off222_eq i⟩
theorem k0_off224_eq : ∀ i : grid0.Coords, k0_off224 i = ![(i 1).val, 4 * (i 0).val + 3, 1, 32768] := by decide +kernel
instance closedOff_k0_off224 (i : grid0.Coords) : ClosedOff (k0_off224 i) := ⟨![(i 1).val, 4 * (i 0).val + 3, 1, 32768], k0_off224_eq i⟩
theorem k0_off226_eq : ∀ i : grid0.Coords, k0_off226 i = ![(i 1).val, 4 * (i 0).val + 0, 0, 0] := by decide +kernel
instance closedOff_k0_off226 (i : grid0.Coords) : ClosedOff (k0_off226 i) := ⟨![(i 1).val, 4 * (i 0).val + 0, 0, 0], k0_off226_eq i⟩
theorem k0_off227_eq : ∀ i : grid0.Coords, k0_off227 i = ![(i 1).val, 4 * (i 0).val + 0, 0, 4096] := by decide +kernel
instance closedOff_k0_off227 (i : grid0.Coords) : ClosedOff (k0_off227 i) := ⟨![(i 1).val, 4 * (i 0).val + 0, 0, 4096], k0_off227_eq i⟩
theorem k0_off228_eq : ∀ i : grid0.Coords, k0_off228 i = ![(i 1).val, 4 * (i 0).val + 0, 0, 8192] := by decide +kernel
instance closedOff_k0_off228 (i : grid0.Coords) : ClosedOff (k0_off228 i) := ⟨![(i 1).val, 4 * (i 0).val + 0, 0, 8192], k0_off228_eq i⟩
theorem k0_off229_eq : ∀ i : grid0.Coords, k0_off229 i = ![(i 1).val, 4 * (i 0).val + 0, 0, 12288] := by decide +kernel
instance closedOff_k0_off229 (i : grid0.Coords) : ClosedOff (k0_off229 i) := ⟨![(i 1).val, 4 * (i 0).val + 0, 0, 12288], k0_off229_eq i⟩
theorem k0_off230_eq : ∀ i : grid0.Coords, k0_off230 i = ![(i 1).val, 4 * (i 0).val + 0, 0, 16384] := by decide +kernel
instance closedOff_k0_off230 (i : grid0.Coords) : ClosedOff (k0_off230 i) := ⟨![(i 1).val, 4 * (i 0).val + 0, 0, 16384], k0_off230_eq i⟩
theorem k0_off231_eq : ∀ i : grid0.Coords, k0_off231 i = ![(i 1).val, 4 * (i 0).val + 0, 0, 20480] := by decide +kernel
instance closedOff_k0_off231 (i : grid0.Coords) : ClosedOff (k0_off231 i) := ⟨![(i 1).val, 4 * (i 0).val + 0, 0, 20480], k0_off231_eq i⟩
theorem k0_off232_eq : ∀ i : grid0.Coords, k0_off232 i = ![(i 1).val, 4 * (i 0).val + 0, 0, 24576] := by decide +kernel
instance closedOff_k0_off232 (i : grid0.Coords) : ClosedOff (k0_off232 i) := ⟨![(i 1).val, 4 * (i 0).val + 0, 0, 24576], k0_off232_eq i⟩
theorem k0_off233_eq : ∀ i : grid0.Coords, k0_off233 i = ![(i 1).val, 4 * (i 0).val + 0, 0, 28672] := by decide +kernel
instance closedOff_k0_off233 (i : grid0.Coords) : ClosedOff (k0_off233 i) := ⟨![(i 1).val, 4 * (i 0).val + 0, 0, 28672], k0_off233_eq i⟩
theorem k0_off234_eq : ∀ i : grid0.Coords, k0_off234 i = ![(i 1).val, 4 * (i 0).val + 0, 0, 32768] := by decide +kernel
instance closedOff_k0_off234 (i : grid0.Coords) : ClosedOff (k0_off234 i) := ⟨![(i 1).val, 4 * (i 0).val + 0, 0, 32768], k0_off234_eq i⟩
theorem k0_off235_eq : ∀ i : grid0.Coords, k0_off235 i = ![(i 1).val, 4 * (i 0).val + 0, 0, 36864] := by decide +kernel
instance closedOff_k0_off235 (i : grid0.Coords) : ClosedOff (k0_off235 i) := ⟨![(i 1).val, 4 * (i 0).val + 0, 0, 36864], k0_off235_eq i⟩
theorem k0_off236_eq : ∀ i : grid0.Coords, k0_off236 i = ![(i 1).val, 4 * (i 0).val + 0, 0, 40960] := by decide +kernel
instance closedOff_k0_off236 (i : grid0.Coords) : ClosedOff (k0_off236 i) := ⟨![(i 1).val, 4 * (i 0).val + 0, 0, 40960], k0_off236_eq i⟩
theorem k0_off237_eq : ∀ i : grid0.Coords, k0_off237 i = ![(i 1).val, 4 * (i 0).val + 0, 0, 45056] := by decide +kernel
instance closedOff_k0_off237 (i : grid0.Coords) : ClosedOff (k0_off237 i) := ⟨![(i 1).val, 4 * (i 0).val + 0, 0, 45056], k0_off237_eq i⟩
theorem k0_off238_eq : ∀ i : grid0.Coords, k0_off238 i = ![(i 1).val, 4 * (i 0).val + 0, 0, 49152] := by decide +kernel
instance closedOff_k0_off238 (i : grid0.Coords) : ClosedOff (k0_off238 i) := ⟨![(i 1).val, 4 * (i 0).val + 0, 0, 49152], k0_off238_eq i⟩
theorem k0_off239_eq : ∀ i : grid0.Coords, k0_off239 i = ![(i 1).val, 4 * (i 0).val + 0, 0, 53248] := by decide +kernel
instance closedOff_k0_off239 (i : grid0.Coords) : ClosedOff (k0_off239 i) := ⟨![(i 1).val, 4 * (i 0).val + 0, 0, 53248], k0_off239_eq i⟩
theorem k0_off240_eq : ∀ i : grid0.Coords, k0_off240 i = ![(i 1).val, 4 * (i 0).val + 0, 0, 57344] := by decide +kernel
instance closedOff_k0_off240 (i : grid0.Coords) : ClosedOff (k0_off240 i) := ⟨![(i 1).val, 4 * (i 0).val + 0, 0, 57344], k0_off240_eq i⟩
theorem k0_off241_eq : ∀ i : grid0.Coords, k0_off241 i = ![(i 1).val, 4 * (i 0).val + 0, 0, 61440] := by decide +kernel
instance closedOff_k0_off241 (i : grid0.Coords) : ClosedOff (k0_off241 i) := ⟨![(i 1).val, 4 * (i 0).val + 0, 0, 61440], k0_off241_eq i⟩
theorem k0_off242_eq : ∀ i : grid0.Coords, k0_off242 i = ![(i 1).val, 4 * (i 0).val + 0, 1, 0] := by decide +kernel
instance closedOff_k0_off242 (i : grid0.Coords) : ClosedOff (k0_off242 i) := ⟨![(i 1).val, 4 * (i 0).val + 0, 1, 0], k0_off242_eq i⟩
theorem k0_off243_eq : ∀ i : grid0.Coords, k0_off243 i = ![(i 1).val, 4 * (i 0).val + 0, 1, 4096] := by decide +kernel
instance closedOff_k0_off243 (i : grid0.Coords) : ClosedOff (k0_off243 i) := ⟨![(i 1).val, 4 * (i 0).val + 0, 1, 4096], k0_off243_eq i⟩
theorem k0_off244_eq : ∀ i : grid0.Coords, k0_off244 i = ![(i 1).val, 4 * (i 0).val + 0, 1, 8192] := by decide +kernel
instance closedOff_k0_off244 (i : grid0.Coords) : ClosedOff (k0_off244 i) := ⟨![(i 1).val, 4 * (i 0).val + 0, 1, 8192], k0_off244_eq i⟩
theorem k0_off245_eq : ∀ i : grid0.Coords, k0_off245 i = ![(i 1).val, 4 * (i 0).val + 0, 1, 12288] := by decide +kernel
instance closedOff_k0_off245 (i : grid0.Coords) : ClosedOff (k0_off245 i) := ⟨![(i 1).val, 4 * (i 0).val + 0, 1, 12288], k0_off245_eq i⟩
theorem k0_off246_eq : ∀ i : grid0.Coords, k0_off246 i = ![(i 1).val, 4 * (i 0).val + 0, 1, 16384] := by decide +kernel
instance closedOff_k0_off246 (i : grid0.Coords) : ClosedOff (k0_off246 i) := ⟨![(i 1).val, 4 * (i 0).val + 0, 1, 16384], k0_off246_eq i⟩
theorem k0_off247_eq : ∀ i : grid0.Coords, k0_off247 i = ![(i 1).val, 4 * (i 0).val + 0, 1, 20480] := by decide +kernel
instance closedOff_k0_off247 (i : grid0.Coords) : ClosedOff (k0_off247 i) := ⟨![(i 1).val, 4 * (i 0).val + 0, 1, 20480], k0_off247_eq i⟩
theorem k0_off248_eq : ∀ i : grid0.Coords, k0_off248 i = ![(i 1).val, 4 * (i 0).val + 0, 1, 24576] := by decide +kernel
instance closedOff_k0_off248 (i : grid0.Coords) : ClosedOff (k0_off248 i) := ⟨![(i 1).val, 4 * (i 0).val + 0, 1, 24576], k0_off248_eq i⟩
theorem k0_off249_eq : ∀ i : grid0.Coords, k0_off249 i = ![(i 1).val, 4 * (i 0).val + 0, 1, 28672] := by decide +kernel
instance closedOff_k0_off249 (i : grid0.Coords) : ClosedOff (k0_off249 i) := ⟨![(i 1).val, 4 * (i 0).val + 0, 1, 28672], k0_off249_eq i⟩
theorem k0_off250_eq : ∀ i : grid0.Coords, k0_off250 i = ![(i 1).val, 4 * (i 0).val + 0, 1, 32768] := by decide +kernel
instance closedOff_k0_off250 (i : grid0.Coords) : ClosedOff (k0_off250 i) := ⟨![(i 1).val, 4 * (i 0).val + 0, 1, 32768], k0_off250_eq i⟩
theorem k0_off251_eq : ∀ i : grid0.Coords, k0_off251 i = ![(i 1).val, 4 * (i 0).val + 0, 1, 36864] := by decide +kernel
instance closedOff_k0_off251 (i : grid0.Coords) : ClosedOff (k0_off251 i) := ⟨![(i 1).val, 4 * (i 0).val + 0, 1, 36864], k0_off251_eq i⟩
theorem k0_off252_eq : ∀ i : grid0.Coords, k0_off252 i = ![(i 1).val, 4 * (i 0).val + 0, 1, 40960] := by decide +kernel
instance closedOff_k0_off252 (i : grid0.Coords) : ClosedOff (k0_off252 i) := ⟨![(i 1).val, 4 * (i 0).val + 0, 1, 40960], k0_off252_eq i⟩
theorem k0_off253_eq : ∀ i : grid0.Coords, k0_off253 i = ![(i 1).val, 4 * (i 0).val + 0, 1, 45056] := by decide +kernel
instance closedOff_k0_off253 (i : grid0.Coords) : ClosedOff (k0_off253 i) := ⟨![(i 1).val, 4 * (i 0).val + 0, 1, 45056], k0_off253_eq i⟩
theorem k0_off254_eq : ∀ i : grid0.Coords, k0_off254 i = ![(i 1).val, 4 * (i 0).val + 0, 1, 49152] := by decide +kernel
instance closedOff_k0_off254 (i : grid0.Coords) : ClosedOff (k0_off254 i) := ⟨![(i 1).val, 4 * (i 0).val + 0, 1, 49152], k0_off254_eq i⟩
theorem k0_off255_eq : ∀ i : grid0.Coords, k0_off255 i = ![(i 1).val, 4 * (i 0).val + 0, 1, 53248] := by decide +kernel
instance closedOff_k0_off255 (i : grid0.Coords) : ClosedOff (k0_off255 i) := ⟨![(i 1).val, 4 * (i 0).val + 0, 1, 53248], k0_off255_eq i⟩
theorem k0_off256_eq : ∀ i : grid0.Coords, k0_off256 i = ![(i 1).val, 4 * (i 0).val + 0, 1, 57344] := by decide +kernel
instance closedOff_k0_off256 (i : grid0.Coords) : ClosedOff (k0_off256 i) := ⟨![(i 1).val, 4 * (i 0).val + 0, 1, 57344], k0_off256_eq i⟩
theorem k0_off257_eq : ∀ i : grid0.Coords, k0_off257 i = ![(i 1).val, 4 * (i 0).val + 0, 1, 61440] := by decide +kernel
instance closedOff_k0_off257 (i : grid0.Coords) : ClosedOff (k0_off257 i) := ⟨![(i 1).val, 4 * (i 0).val + 0, 1, 61440], k0_off257_eq i⟩
theorem k0_off258_eq : ∀ i : grid0.Coords, k0_off258 i = ![(i 1).val, 4 * (i 0).val + 1, 0, 0] := by decide +kernel
instance closedOff_k0_off258 (i : grid0.Coords) : ClosedOff (k0_off258 i) := ⟨![(i 1).val, 4 * (i 0).val + 1, 0, 0], k0_off258_eq i⟩
theorem k0_off259_eq : ∀ i : grid0.Coords, k0_off259 i = ![(i 1).val, 4 * (i 0).val + 1, 0, 4096] := by decide +kernel
instance closedOff_k0_off259 (i : grid0.Coords) : ClosedOff (k0_off259 i) := ⟨![(i 1).val, 4 * (i 0).val + 1, 0, 4096], k0_off259_eq i⟩
theorem k0_off260_eq : ∀ i : grid0.Coords, k0_off260 i = ![(i 1).val, 4 * (i 0).val + 1, 0, 8192] := by decide +kernel
instance closedOff_k0_off260 (i : grid0.Coords) : ClosedOff (k0_off260 i) := ⟨![(i 1).val, 4 * (i 0).val + 1, 0, 8192], k0_off260_eq i⟩
theorem k0_off261_eq : ∀ i : grid0.Coords, k0_off261 i = ![(i 1).val, 4 * (i 0).val + 1, 0, 12288] := by decide +kernel
instance closedOff_k0_off261 (i : grid0.Coords) : ClosedOff (k0_off261 i) := ⟨![(i 1).val, 4 * (i 0).val + 1, 0, 12288], k0_off261_eq i⟩
theorem k0_off262_eq : ∀ i : grid0.Coords, k0_off262 i = ![(i 1).val, 4 * (i 0).val + 1, 0, 16384] := by decide +kernel
instance closedOff_k0_off262 (i : grid0.Coords) : ClosedOff (k0_off262 i) := ⟨![(i 1).val, 4 * (i 0).val + 1, 0, 16384], k0_off262_eq i⟩
theorem k0_off263_eq : ∀ i : grid0.Coords, k0_off263 i = ![(i 1).val, 4 * (i 0).val + 1, 0, 20480] := by decide +kernel
instance closedOff_k0_off263 (i : grid0.Coords) : ClosedOff (k0_off263 i) := ⟨![(i 1).val, 4 * (i 0).val + 1, 0, 20480], k0_off263_eq i⟩
theorem k0_off264_eq : ∀ i : grid0.Coords, k0_off264 i = ![(i 1).val, 4 * (i 0).val + 1, 0, 24576] := by decide +kernel
instance closedOff_k0_off264 (i : grid0.Coords) : ClosedOff (k0_off264 i) := ⟨![(i 1).val, 4 * (i 0).val + 1, 0, 24576], k0_off264_eq i⟩
theorem k0_off265_eq : ∀ i : grid0.Coords, k0_off265 i = ![(i 1).val, 4 * (i 0).val + 1, 0, 28672] := by decide +kernel
instance closedOff_k0_off265 (i : grid0.Coords) : ClosedOff (k0_off265 i) := ⟨![(i 1).val, 4 * (i 0).val + 1, 0, 28672], k0_off265_eq i⟩
theorem k0_off266_eq : ∀ i : grid0.Coords, k0_off266 i = ![(i 1).val, 4 * (i 0).val + 1, 0, 32768] := by decide +kernel
instance closedOff_k0_off266 (i : grid0.Coords) : ClosedOff (k0_off266 i) := ⟨![(i 1).val, 4 * (i 0).val + 1, 0, 32768], k0_off266_eq i⟩
theorem k0_off267_eq : ∀ i : grid0.Coords, k0_off267 i = ![(i 1).val, 4 * (i 0).val + 1, 0, 36864] := by decide +kernel
instance closedOff_k0_off267 (i : grid0.Coords) : ClosedOff (k0_off267 i) := ⟨![(i 1).val, 4 * (i 0).val + 1, 0, 36864], k0_off267_eq i⟩
theorem k0_off268_eq : ∀ i : grid0.Coords, k0_off268 i = ![(i 1).val, 4 * (i 0).val + 1, 0, 40960] := by decide +kernel
instance closedOff_k0_off268 (i : grid0.Coords) : ClosedOff (k0_off268 i) := ⟨![(i 1).val, 4 * (i 0).val + 1, 0, 40960], k0_off268_eq i⟩
theorem k0_off269_eq : ∀ i : grid0.Coords, k0_off269 i = ![(i 1).val, 4 * (i 0).val + 1, 0, 45056] := by decide +kernel
instance closedOff_k0_off269 (i : grid0.Coords) : ClosedOff (k0_off269 i) := ⟨![(i 1).val, 4 * (i 0).val + 1, 0, 45056], k0_off269_eq i⟩
theorem k0_off270_eq : ∀ i : grid0.Coords, k0_off270 i = ![(i 1).val, 4 * (i 0).val + 1, 0, 49152] := by decide +kernel
instance closedOff_k0_off270 (i : grid0.Coords) : ClosedOff (k0_off270 i) := ⟨![(i 1).val, 4 * (i 0).val + 1, 0, 49152], k0_off270_eq i⟩
theorem k0_off271_eq : ∀ i : grid0.Coords, k0_off271 i = ![(i 1).val, 4 * (i 0).val + 1, 0, 53248] := by decide +kernel
instance closedOff_k0_off271 (i : grid0.Coords) : ClosedOff (k0_off271 i) := ⟨![(i 1).val, 4 * (i 0).val + 1, 0, 53248], k0_off271_eq i⟩
theorem k0_off272_eq : ∀ i : grid0.Coords, k0_off272 i = ![(i 1).val, 4 * (i 0).val + 1, 0, 57344] := by decide +kernel
instance closedOff_k0_off272 (i : grid0.Coords) : ClosedOff (k0_off272 i) := ⟨![(i 1).val, 4 * (i 0).val + 1, 0, 57344], k0_off272_eq i⟩
theorem k0_off273_eq : ∀ i : grid0.Coords, k0_off273 i = ![(i 1).val, 4 * (i 0).val + 1, 0, 61440] := by decide +kernel
instance closedOff_k0_off273 (i : grid0.Coords) : ClosedOff (k0_off273 i) := ⟨![(i 1).val, 4 * (i 0).val + 1, 0, 61440], k0_off273_eq i⟩
theorem k0_off274_eq : ∀ i : grid0.Coords, k0_off274 i = ![(i 1).val, 4 * (i 0).val + 1, 1, 0] := by decide +kernel
instance closedOff_k0_off274 (i : grid0.Coords) : ClosedOff (k0_off274 i) := ⟨![(i 1).val, 4 * (i 0).val + 1, 1, 0], k0_off274_eq i⟩
theorem k0_off275_eq : ∀ i : grid0.Coords, k0_off275 i = ![(i 1).val, 4 * (i 0).val + 1, 1, 4096] := by decide +kernel
instance closedOff_k0_off275 (i : grid0.Coords) : ClosedOff (k0_off275 i) := ⟨![(i 1).val, 4 * (i 0).val + 1, 1, 4096], k0_off275_eq i⟩
theorem k0_off276_eq : ∀ i : grid0.Coords, k0_off276 i = ![(i 1).val, 4 * (i 0).val + 1, 1, 8192] := by decide +kernel
instance closedOff_k0_off276 (i : grid0.Coords) : ClosedOff (k0_off276 i) := ⟨![(i 1).val, 4 * (i 0).val + 1, 1, 8192], k0_off276_eq i⟩
theorem k0_off277_eq : ∀ i : grid0.Coords, k0_off277 i = ![(i 1).val, 4 * (i 0).val + 1, 1, 12288] := by decide +kernel
instance closedOff_k0_off277 (i : grid0.Coords) : ClosedOff (k0_off277 i) := ⟨![(i 1).val, 4 * (i 0).val + 1, 1, 12288], k0_off277_eq i⟩
theorem k0_off278_eq : ∀ i : grid0.Coords, k0_off278 i = ![(i 1).val, 4 * (i 0).val + 1, 1, 16384] := by decide +kernel
instance closedOff_k0_off278 (i : grid0.Coords) : ClosedOff (k0_off278 i) := ⟨![(i 1).val, 4 * (i 0).val + 1, 1, 16384], k0_off278_eq i⟩
theorem k0_off279_eq : ∀ i : grid0.Coords, k0_off279 i = ![(i 1).val, 4 * (i 0).val + 1, 1, 20480] := by decide +kernel
instance closedOff_k0_off279 (i : grid0.Coords) : ClosedOff (k0_off279 i) := ⟨![(i 1).val, 4 * (i 0).val + 1, 1, 20480], k0_off279_eq i⟩
theorem k0_off280_eq : ∀ i : grid0.Coords, k0_off280 i = ![(i 1).val, 4 * (i 0).val + 1, 1, 24576] := by decide +kernel
instance closedOff_k0_off280 (i : grid0.Coords) : ClosedOff (k0_off280 i) := ⟨![(i 1).val, 4 * (i 0).val + 1, 1, 24576], k0_off280_eq i⟩
theorem k0_off281_eq : ∀ i : grid0.Coords, k0_off281 i = ![(i 1).val, 4 * (i 0).val + 1, 1, 28672] := by decide +kernel
instance closedOff_k0_off281 (i : grid0.Coords) : ClosedOff (k0_off281 i) := ⟨![(i 1).val, 4 * (i 0).val + 1, 1, 28672], k0_off281_eq i⟩
theorem k0_off282_eq : ∀ i : grid0.Coords, k0_off282 i = ![(i 1).val, 4 * (i 0).val + 1, 1, 32768] := by decide +kernel
instance closedOff_k0_off282 (i : grid0.Coords) : ClosedOff (k0_off282 i) := ⟨![(i 1).val, 4 * (i 0).val + 1, 1, 32768], k0_off282_eq i⟩
theorem k0_off283_eq : ∀ i : grid0.Coords, k0_off283 i = ![(i 1).val, 4 * (i 0).val + 1, 1, 36864] := by decide +kernel
instance closedOff_k0_off283 (i : grid0.Coords) : ClosedOff (k0_off283 i) := ⟨![(i 1).val, 4 * (i 0).val + 1, 1, 36864], k0_off283_eq i⟩
theorem k0_off284_eq : ∀ i : grid0.Coords, k0_off284 i = ![(i 1).val, 4 * (i 0).val + 1, 1, 40960] := by decide +kernel
instance closedOff_k0_off284 (i : grid0.Coords) : ClosedOff (k0_off284 i) := ⟨![(i 1).val, 4 * (i 0).val + 1, 1, 40960], k0_off284_eq i⟩
theorem k0_off285_eq : ∀ i : grid0.Coords, k0_off285 i = ![(i 1).val, 4 * (i 0).val + 1, 1, 45056] := by decide +kernel
instance closedOff_k0_off285 (i : grid0.Coords) : ClosedOff (k0_off285 i) := ⟨![(i 1).val, 4 * (i 0).val + 1, 1, 45056], k0_off285_eq i⟩
theorem k0_off286_eq : ∀ i : grid0.Coords, k0_off286 i = ![(i 1).val, 4 * (i 0).val + 1, 1, 49152] := by decide +kernel
instance closedOff_k0_off286 (i : grid0.Coords) : ClosedOff (k0_off286 i) := ⟨![(i 1).val, 4 * (i 0).val + 1, 1, 49152], k0_off286_eq i⟩
theorem k0_off287_eq : ∀ i : grid0.Coords, k0_off287 i = ![(i 1).val, 4 * (i 0).val + 1, 1, 53248] := by decide +kernel
instance closedOff_k0_off287 (i : grid0.Coords) : ClosedOff (k0_off287 i) := ⟨![(i 1).val, 4 * (i 0).val + 1, 1, 53248], k0_off287_eq i⟩
theorem k0_off288_eq : ∀ i : grid0.Coords, k0_off288 i = ![(i 1).val, 4 * (i 0).val + 1, 1, 57344] := by decide +kernel
instance closedOff_k0_off288 (i : grid0.Coords) : ClosedOff (k0_off288 i) := ⟨![(i 1).val, 4 * (i 0).val + 1, 1, 57344], k0_off288_eq i⟩
theorem k0_off289_eq : ∀ i : grid0.Coords, k0_off289 i = ![(i 1).val, 4 * (i 0).val + 1, 1, 61440] := by decide +kernel
instance closedOff_k0_off289 (i : grid0.Coords) : ClosedOff (k0_off289 i) := ⟨![(i 1).val, 4 * (i 0).val + 1, 1, 61440], k0_off289_eq i⟩
theorem k0_off290_eq : ∀ i : grid0.Coords, k0_off290 i = ![(i 1).val, 4 * (i 0).val + 2, 0, 0] := by decide +kernel
instance closedOff_k0_off290 (i : grid0.Coords) : ClosedOff (k0_off290 i) := ⟨![(i 1).val, 4 * (i 0).val + 2, 0, 0], k0_off290_eq i⟩
theorem k0_off291_eq : ∀ i : grid0.Coords, k0_off291 i = ![(i 1).val, 4 * (i 0).val + 2, 0, 4096] := by decide +kernel
instance closedOff_k0_off291 (i : grid0.Coords) : ClosedOff (k0_off291 i) := ⟨![(i 1).val, 4 * (i 0).val + 2, 0, 4096], k0_off291_eq i⟩
theorem k0_off292_eq : ∀ i : grid0.Coords, k0_off292 i = ![(i 1).val, 4 * (i 0).val + 2, 0, 8192] := by decide +kernel
instance closedOff_k0_off292 (i : grid0.Coords) : ClosedOff (k0_off292 i) := ⟨![(i 1).val, 4 * (i 0).val + 2, 0, 8192], k0_off292_eq i⟩
theorem k0_off293_eq : ∀ i : grid0.Coords, k0_off293 i = ![(i 1).val, 4 * (i 0).val + 2, 0, 12288] := by decide +kernel
instance closedOff_k0_off293 (i : grid0.Coords) : ClosedOff (k0_off293 i) := ⟨![(i 1).val, 4 * (i 0).val + 2, 0, 12288], k0_off293_eq i⟩
theorem k0_off294_eq : ∀ i : grid0.Coords, k0_off294 i = ![(i 1).val, 4 * (i 0).val + 2, 0, 16384] := by decide +kernel
instance closedOff_k0_off294 (i : grid0.Coords) : ClosedOff (k0_off294 i) := ⟨![(i 1).val, 4 * (i 0).val + 2, 0, 16384], k0_off294_eq i⟩
theorem k0_off295_eq : ∀ i : grid0.Coords, k0_off295 i = ![(i 1).val, 4 * (i 0).val + 2, 0, 20480] := by decide +kernel
instance closedOff_k0_off295 (i : grid0.Coords) : ClosedOff (k0_off295 i) := ⟨![(i 1).val, 4 * (i 0).val + 2, 0, 20480], k0_off295_eq i⟩
theorem k0_off296_eq : ∀ i : grid0.Coords, k0_off296 i = ![(i 1).val, 4 * (i 0).val + 2, 0, 24576] := by decide +kernel
instance closedOff_k0_off296 (i : grid0.Coords) : ClosedOff (k0_off296 i) := ⟨![(i 1).val, 4 * (i 0).val + 2, 0, 24576], k0_off296_eq i⟩
theorem k0_off297_eq : ∀ i : grid0.Coords, k0_off297 i = ![(i 1).val, 4 * (i 0).val + 2, 0, 28672] := by decide +kernel
instance closedOff_k0_off297 (i : grid0.Coords) : ClosedOff (k0_off297 i) := ⟨![(i 1).val, 4 * (i 0).val + 2, 0, 28672], k0_off297_eq i⟩
theorem k0_off298_eq : ∀ i : grid0.Coords, k0_off298 i = ![(i 1).val, 4 * (i 0).val + 2, 0, 32768] := by decide +kernel
instance closedOff_k0_off298 (i : grid0.Coords) : ClosedOff (k0_off298 i) := ⟨![(i 1).val, 4 * (i 0).val + 2, 0, 32768], k0_off298_eq i⟩
theorem k0_off299_eq : ∀ i : grid0.Coords, k0_off299 i = ![(i 1).val, 4 * (i 0).val + 2, 0, 36864] := by decide +kernel
instance closedOff_k0_off299 (i : grid0.Coords) : ClosedOff (k0_off299 i) := ⟨![(i 1).val, 4 * (i 0).val + 2, 0, 36864], k0_off299_eq i⟩
theorem k0_off300_eq : ∀ i : grid0.Coords, k0_off300 i = ![(i 1).val, 4 * (i 0).val + 2, 0, 40960] := by decide +kernel
instance closedOff_k0_off300 (i : grid0.Coords) : ClosedOff (k0_off300 i) := ⟨![(i 1).val, 4 * (i 0).val + 2, 0, 40960], k0_off300_eq i⟩
theorem k0_off301_eq : ∀ i : grid0.Coords, k0_off301 i = ![(i 1).val, 4 * (i 0).val + 2, 0, 45056] := by decide +kernel
instance closedOff_k0_off301 (i : grid0.Coords) : ClosedOff (k0_off301 i) := ⟨![(i 1).val, 4 * (i 0).val + 2, 0, 45056], k0_off301_eq i⟩
theorem k0_off302_eq : ∀ i : grid0.Coords, k0_off302 i = ![(i 1).val, 4 * (i 0).val + 2, 0, 49152] := by decide +kernel
instance closedOff_k0_off302 (i : grid0.Coords) : ClosedOff (k0_off302 i) := ⟨![(i 1).val, 4 * (i 0).val + 2, 0, 49152], k0_off302_eq i⟩
theorem k0_off303_eq : ∀ i : grid0.Coords, k0_off303 i = ![(i 1).val, 4 * (i 0).val + 2, 0, 53248] := by decide +kernel
instance closedOff_k0_off303 (i : grid0.Coords) : ClosedOff (k0_off303 i) := ⟨![(i 1).val, 4 * (i 0).val + 2, 0, 53248], k0_off303_eq i⟩
theorem k0_off304_eq : ∀ i : grid0.Coords, k0_off304 i = ![(i 1).val, 4 * (i 0).val + 2, 0, 57344] := by decide +kernel
instance closedOff_k0_off304 (i : grid0.Coords) : ClosedOff (k0_off304 i) := ⟨![(i 1).val, 4 * (i 0).val + 2, 0, 57344], k0_off304_eq i⟩
theorem k0_off305_eq : ∀ i : grid0.Coords, k0_off305 i = ![(i 1).val, 4 * (i 0).val + 2, 0, 61440] := by decide +kernel
instance closedOff_k0_off305 (i : grid0.Coords) : ClosedOff (k0_off305 i) := ⟨![(i 1).val, 4 * (i 0).val + 2, 0, 61440], k0_off305_eq i⟩
theorem k0_off306_eq : ∀ i : grid0.Coords, k0_off306 i = ![(i 1).val, 4 * (i 0).val + 2, 1, 0] := by decide +kernel
instance closedOff_k0_off306 (i : grid0.Coords) : ClosedOff (k0_off306 i) := ⟨![(i 1).val, 4 * (i 0).val + 2, 1, 0], k0_off306_eq i⟩
theorem k0_off307_eq : ∀ i : grid0.Coords, k0_off307 i = ![(i 1).val, 4 * (i 0).val + 2, 1, 4096] := by decide +kernel
instance closedOff_k0_off307 (i : grid0.Coords) : ClosedOff (k0_off307 i) := ⟨![(i 1).val, 4 * (i 0).val + 2, 1, 4096], k0_off307_eq i⟩
theorem k0_off308_eq : ∀ i : grid0.Coords, k0_off308 i = ![(i 1).val, 4 * (i 0).val + 2, 1, 8192] := by decide +kernel
instance closedOff_k0_off308 (i : grid0.Coords) : ClosedOff (k0_off308 i) := ⟨![(i 1).val, 4 * (i 0).val + 2, 1, 8192], k0_off308_eq i⟩
theorem k0_off309_eq : ∀ i : grid0.Coords, k0_off309 i = ![(i 1).val, 4 * (i 0).val + 2, 1, 12288] := by decide +kernel
instance closedOff_k0_off309 (i : grid0.Coords) : ClosedOff (k0_off309 i) := ⟨![(i 1).val, 4 * (i 0).val + 2, 1, 12288], k0_off309_eq i⟩
theorem k0_off310_eq : ∀ i : grid0.Coords, k0_off310 i = ![(i 1).val, 4 * (i 0).val + 2, 1, 16384] := by decide +kernel
instance closedOff_k0_off310 (i : grid0.Coords) : ClosedOff (k0_off310 i) := ⟨![(i 1).val, 4 * (i 0).val + 2, 1, 16384], k0_off310_eq i⟩
theorem k0_off311_eq : ∀ i : grid0.Coords, k0_off311 i = ![(i 1).val, 4 * (i 0).val + 2, 1, 20480] := by decide +kernel
instance closedOff_k0_off311 (i : grid0.Coords) : ClosedOff (k0_off311 i) := ⟨![(i 1).val, 4 * (i 0).val + 2, 1, 20480], k0_off311_eq i⟩
theorem k0_off312_eq : ∀ i : grid0.Coords, k0_off312 i = ![(i 1).val, 4 * (i 0).val + 2, 1, 24576] := by decide +kernel
instance closedOff_k0_off312 (i : grid0.Coords) : ClosedOff (k0_off312 i) := ⟨![(i 1).val, 4 * (i 0).val + 2, 1, 24576], k0_off312_eq i⟩
theorem k0_off313_eq : ∀ i : grid0.Coords, k0_off313 i = ![(i 1).val, 4 * (i 0).val + 2, 1, 28672] := by decide +kernel
instance closedOff_k0_off313 (i : grid0.Coords) : ClosedOff (k0_off313 i) := ⟨![(i 1).val, 4 * (i 0).val + 2, 1, 28672], k0_off313_eq i⟩
theorem k0_off314_eq : ∀ i : grid0.Coords, k0_off314 i = ![(i 1).val, 4 * (i 0).val + 2, 1, 32768] := by decide +kernel
instance closedOff_k0_off314 (i : grid0.Coords) : ClosedOff (k0_off314 i) := ⟨![(i 1).val, 4 * (i 0).val + 2, 1, 32768], k0_off314_eq i⟩
theorem k0_off315_eq : ∀ i : grid0.Coords, k0_off315 i = ![(i 1).val, 4 * (i 0).val + 2, 1, 36864] := by decide +kernel
instance closedOff_k0_off315 (i : grid0.Coords) : ClosedOff (k0_off315 i) := ⟨![(i 1).val, 4 * (i 0).val + 2, 1, 36864], k0_off315_eq i⟩
theorem k0_off316_eq : ∀ i : grid0.Coords, k0_off316 i = ![(i 1).val, 4 * (i 0).val + 2, 1, 40960] := by decide +kernel
instance closedOff_k0_off316 (i : grid0.Coords) : ClosedOff (k0_off316 i) := ⟨![(i 1).val, 4 * (i 0).val + 2, 1, 40960], k0_off316_eq i⟩
theorem k0_off317_eq : ∀ i : grid0.Coords, k0_off317 i = ![(i 1).val, 4 * (i 0).val + 2, 1, 45056] := by decide +kernel
instance closedOff_k0_off317 (i : grid0.Coords) : ClosedOff (k0_off317 i) := ⟨![(i 1).val, 4 * (i 0).val + 2, 1, 45056], k0_off317_eq i⟩
theorem k0_off318_eq : ∀ i : grid0.Coords, k0_off318 i = ![(i 1).val, 4 * (i 0).val + 2, 1, 49152] := by decide +kernel
instance closedOff_k0_off318 (i : grid0.Coords) : ClosedOff (k0_off318 i) := ⟨![(i 1).val, 4 * (i 0).val + 2, 1, 49152], k0_off318_eq i⟩
theorem k0_off319_eq : ∀ i : grid0.Coords, k0_off319 i = ![(i 1).val, 4 * (i 0).val + 2, 1, 53248] := by decide +kernel
instance closedOff_k0_off319 (i : grid0.Coords) : ClosedOff (k0_off319 i) := ⟨![(i 1).val, 4 * (i 0).val + 2, 1, 53248], k0_off319_eq i⟩
theorem k0_off320_eq : ∀ i : grid0.Coords, k0_off320 i = ![(i 1).val, 4 * (i 0).val + 2, 1, 57344] := by decide +kernel
instance closedOff_k0_off320 (i : grid0.Coords) : ClosedOff (k0_off320 i) := ⟨![(i 1).val, 4 * (i 0).val + 2, 1, 57344], k0_off320_eq i⟩
theorem k0_off321_eq : ∀ i : grid0.Coords, k0_off321 i = ![(i 1).val, 4 * (i 0).val + 2, 1, 61440] := by decide +kernel
instance closedOff_k0_off321 (i : grid0.Coords) : ClosedOff (k0_off321 i) := ⟨![(i 1).val, 4 * (i 0).val + 2, 1, 61440], k0_off321_eq i⟩
theorem k0_off322_eq : ∀ i : grid0.Coords, k0_off322 i = ![(i 1).val, 4 * (i 0).val + 3, 0, 0] := by decide +kernel
instance closedOff_k0_off322 (i : grid0.Coords) : ClosedOff (k0_off322 i) := ⟨![(i 1).val, 4 * (i 0).val + 3, 0, 0], k0_off322_eq i⟩
theorem k0_off323_eq : ∀ i : grid0.Coords, k0_off323 i = ![(i 1).val, 4 * (i 0).val + 3, 0, 4096] := by decide +kernel
instance closedOff_k0_off323 (i : grid0.Coords) : ClosedOff (k0_off323 i) := ⟨![(i 1).val, 4 * (i 0).val + 3, 0, 4096], k0_off323_eq i⟩
theorem k0_off324_eq : ∀ i : grid0.Coords, k0_off324 i = ![(i 1).val, 4 * (i 0).val + 3, 0, 8192] := by decide +kernel
instance closedOff_k0_off324 (i : grid0.Coords) : ClosedOff (k0_off324 i) := ⟨![(i 1).val, 4 * (i 0).val + 3, 0, 8192], k0_off324_eq i⟩
theorem k0_off325_eq : ∀ i : grid0.Coords, k0_off325 i = ![(i 1).val, 4 * (i 0).val + 3, 0, 12288] := by decide +kernel
instance closedOff_k0_off325 (i : grid0.Coords) : ClosedOff (k0_off325 i) := ⟨![(i 1).val, 4 * (i 0).val + 3, 0, 12288], k0_off325_eq i⟩
theorem k0_off326_eq : ∀ i : grid0.Coords, k0_off326 i = ![(i 1).val, 4 * (i 0).val + 3, 0, 16384] := by decide +kernel
instance closedOff_k0_off326 (i : grid0.Coords) : ClosedOff (k0_off326 i) := ⟨![(i 1).val, 4 * (i 0).val + 3, 0, 16384], k0_off326_eq i⟩
theorem k0_off327_eq : ∀ i : grid0.Coords, k0_off327 i = ![(i 1).val, 4 * (i 0).val + 3, 0, 20480] := by decide +kernel
instance closedOff_k0_off327 (i : grid0.Coords) : ClosedOff (k0_off327 i) := ⟨![(i 1).val, 4 * (i 0).val + 3, 0, 20480], k0_off327_eq i⟩
theorem k0_off328_eq : ∀ i : grid0.Coords, k0_off328 i = ![(i 1).val, 4 * (i 0).val + 3, 0, 24576] := by decide +kernel
instance closedOff_k0_off328 (i : grid0.Coords) : ClosedOff (k0_off328 i) := ⟨![(i 1).val, 4 * (i 0).val + 3, 0, 24576], k0_off328_eq i⟩
theorem k0_off329_eq : ∀ i : grid0.Coords, k0_off329 i = ![(i 1).val, 4 * (i 0).val + 3, 0, 28672] := by decide +kernel
instance closedOff_k0_off329 (i : grid0.Coords) : ClosedOff (k0_off329 i) := ⟨![(i 1).val, 4 * (i 0).val + 3, 0, 28672], k0_off329_eq i⟩
theorem k0_off330_eq : ∀ i : grid0.Coords, k0_off330 i = ![(i 1).val, 4 * (i 0).val + 3, 0, 32768] := by decide +kernel
instance closedOff_k0_off330 (i : grid0.Coords) : ClosedOff (k0_off330 i) := ⟨![(i 1).val, 4 * (i 0).val + 3, 0, 32768], k0_off330_eq i⟩
theorem k0_off331_eq : ∀ i : grid0.Coords, k0_off331 i = ![(i 1).val, 4 * (i 0).val + 3, 0, 36864] := by decide +kernel
instance closedOff_k0_off331 (i : grid0.Coords) : ClosedOff (k0_off331 i) := ⟨![(i 1).val, 4 * (i 0).val + 3, 0, 36864], k0_off331_eq i⟩
theorem k0_off332_eq : ∀ i : grid0.Coords, k0_off332 i = ![(i 1).val, 4 * (i 0).val + 3, 0, 40960] := by decide +kernel
instance closedOff_k0_off332 (i : grid0.Coords) : ClosedOff (k0_off332 i) := ⟨![(i 1).val, 4 * (i 0).val + 3, 0, 40960], k0_off332_eq i⟩
theorem k0_off333_eq : ∀ i : grid0.Coords, k0_off333 i = ![(i 1).val, 4 * (i 0).val + 3, 0, 45056] := by decide +kernel
instance closedOff_k0_off333 (i : grid0.Coords) : ClosedOff (k0_off333 i) := ⟨![(i 1).val, 4 * (i 0).val + 3, 0, 45056], k0_off333_eq i⟩
theorem k0_off334_eq : ∀ i : grid0.Coords, k0_off334 i = ![(i 1).val, 4 * (i 0).val + 3, 0, 49152] := by decide +kernel
instance closedOff_k0_off334 (i : grid0.Coords) : ClosedOff (k0_off334 i) := ⟨![(i 1).val, 4 * (i 0).val + 3, 0, 49152], k0_off334_eq i⟩
theorem k0_off335_eq : ∀ i : grid0.Coords, k0_off335 i = ![(i 1).val, 4 * (i 0).val + 3, 0, 53248] := by decide +kernel
instance closedOff_k0_off335 (i : grid0.Coords) : ClosedOff (k0_off335 i) := ⟨![(i 1).val, 4 * (i 0).val + 3, 0, 53248], k0_off335_eq i⟩
theorem k0_off336_eq : ∀ i : grid0.Coords, k0_off336 i = ![(i 1).val, 4 * (i 0).val + 3, 0, 57344] := by decide +kernel
instance closedOff_k0_off336 (i : grid0.Coords) : ClosedOff (k0_off336 i) := ⟨![(i 1).val, 4 * (i 0).val + 3, 0, 57344], k0_off336_eq i⟩
theorem k0_off337_eq : ∀ i : grid0.Coords, k0_off337 i = ![(i 1).val, 4 * (i 0).val + 3, 0, 61440] := by decide +kernel
instance closedOff_k0_off337 (i : grid0.Coords) : ClosedOff (k0_off337 i) := ⟨![(i 1).val, 4 * (i 0).val + 3, 0, 61440], k0_off337_eq i⟩
theorem k0_off338_eq : ∀ i : grid0.Coords, k0_off338 i = ![(i 1).val, 4 * (i 0).val + 3, 1, 0] := by decide +kernel
instance closedOff_k0_off338 (i : grid0.Coords) : ClosedOff (k0_off338 i) := ⟨![(i 1).val, 4 * (i 0).val + 3, 1, 0], k0_off338_eq i⟩
theorem k0_off339_eq : ∀ i : grid0.Coords, k0_off339 i = ![(i 1).val, 4 * (i 0).val + 3, 1, 4096] := by decide +kernel
instance closedOff_k0_off339 (i : grid0.Coords) : ClosedOff (k0_off339 i) := ⟨![(i 1).val, 4 * (i 0).val + 3, 1, 4096], k0_off339_eq i⟩
theorem k0_off340_eq : ∀ i : grid0.Coords, k0_off340 i = ![(i 1).val, 4 * (i 0).val + 3, 1, 8192] := by decide +kernel
instance closedOff_k0_off340 (i : grid0.Coords) : ClosedOff (k0_off340 i) := ⟨![(i 1).val, 4 * (i 0).val + 3, 1, 8192], k0_off340_eq i⟩
theorem k0_off341_eq : ∀ i : grid0.Coords, k0_off341 i = ![(i 1).val, 4 * (i 0).val + 3, 1, 12288] := by decide +kernel
instance closedOff_k0_off341 (i : grid0.Coords) : ClosedOff (k0_off341 i) := ⟨![(i 1).val, 4 * (i 0).val + 3, 1, 12288], k0_off341_eq i⟩
theorem k0_off342_eq : ∀ i : grid0.Coords, k0_off342 i = ![(i 1).val, 4 * (i 0).val + 3, 1, 16384] := by decide +kernel
instance closedOff_k0_off342 (i : grid0.Coords) : ClosedOff (k0_off342 i) := ⟨![(i 1).val, 4 * (i 0).val + 3, 1, 16384], k0_off342_eq i⟩
theorem k0_off343_eq : ∀ i : grid0.Coords, k0_off343 i = ![(i 1).val, 4 * (i 0).val + 3, 1, 20480] := by decide +kernel
instance closedOff_k0_off343 (i : grid0.Coords) : ClosedOff (k0_off343 i) := ⟨![(i 1).val, 4 * (i 0).val + 3, 1, 20480], k0_off343_eq i⟩
theorem k0_off344_eq : ∀ i : grid0.Coords, k0_off344 i = ![(i 1).val, 4 * (i 0).val + 3, 1, 24576] := by decide +kernel
instance closedOff_k0_off344 (i : grid0.Coords) : ClosedOff (k0_off344 i) := ⟨![(i 1).val, 4 * (i 0).val + 3, 1, 24576], k0_off344_eq i⟩
theorem k0_off345_eq : ∀ i : grid0.Coords, k0_off345 i = ![(i 1).val, 4 * (i 0).val + 3, 1, 28672] := by decide +kernel
instance closedOff_k0_off345 (i : grid0.Coords) : ClosedOff (k0_off345 i) := ⟨![(i 1).val, 4 * (i 0).val + 3, 1, 28672], k0_off345_eq i⟩
theorem k0_off346_eq : ∀ i : grid0.Coords, k0_off346 i = ![(i 1).val, 4 * (i 0).val + 3, 1, 32768] := by decide +kernel
instance closedOff_k0_off346 (i : grid0.Coords) : ClosedOff (k0_off346 i) := ⟨![(i 1).val, 4 * (i 0).val + 3, 1, 32768], k0_off346_eq i⟩
theorem k0_off347_eq : ∀ i : grid0.Coords, k0_off347 i = ![(i 1).val, 4 * (i 0).val + 3, 1, 36864] := by decide +kernel
instance closedOff_k0_off347 (i : grid0.Coords) : ClosedOff (k0_off347 i) := ⟨![(i 1).val, 4 * (i 0).val + 3, 1, 36864], k0_off347_eq i⟩
theorem k0_off348_eq : ∀ i : grid0.Coords, k0_off348 i = ![(i 1).val, 4 * (i 0).val + 3, 1, 40960] := by decide +kernel
instance closedOff_k0_off348 (i : grid0.Coords) : ClosedOff (k0_off348 i) := ⟨![(i 1).val, 4 * (i 0).val + 3, 1, 40960], k0_off348_eq i⟩
theorem k0_off349_eq : ∀ i : grid0.Coords, k0_off349 i = ![(i 1).val, 4 * (i 0).val + 3, 1, 45056] := by decide +kernel
instance closedOff_k0_off349 (i : grid0.Coords) : ClosedOff (k0_off349 i) := ⟨![(i 1).val, 4 * (i 0).val + 3, 1, 45056], k0_off349_eq i⟩
theorem k0_off350_eq : ∀ i : grid0.Coords, k0_off350 i = ![(i 1).val, 4 * (i 0).val + 3, 1, 49152] := by decide +kernel
instance closedOff_k0_off350 (i : grid0.Coords) : ClosedOff (k0_off350 i) := ⟨![(i 1).val, 4 * (i 0).val + 3, 1, 49152], k0_off350_eq i⟩
theorem k0_off351_eq : ∀ i : grid0.Coords, k0_off351 i = ![(i 1).val, 4 * (i 0).val + 3, 1, 53248] := by decide +kernel
instance closedOff_k0_off351 (i : grid0.Coords) : ClosedOff (k0_off351 i) := ⟨![(i 1).val, 4 * (i 0).val + 3, 1, 53248], k0_off351_eq i⟩
theorem k0_off352_eq : ∀ i : grid0.Coords, k0_off352 i = ![(i 1).val, 4 * (i 0).val + 3, 1, 57344] := by decide +kernel
instance closedOff_k0_off352 (i : grid0.Coords) : ClosedOff (k0_off352 i) := ⟨![(i 1).val, 4 * (i 0).val + 3, 1, 57344], k0_off352_eq i⟩
theorem k0_off353_eq : ∀ i : grid0.Coords, k0_off353 i = ![(i 1).val, 4 * (i 0).val + 3, 1, 61440] := by decide +kernel
instance closedOff_k0_off353 (i : grid0.Coords) : ClosedOff (k0_off353 i) := ⟨![(i 1).val, 4 * (i 0).val + 3, 1, 61440], k0_off353_eq i⟩

end Cert.Proof.KI.Off
-- ==== Proof.KISetup.lean ====
/-
  What the tile's proof and the launch share for this program: the program as the launch theorem reads it,
  the ghost state (the handshakes' rounds beside the transfers' counters), and the names of the three arrays —
  the recordings, the stream numbers, the result — and of a tile's scratch buffers.
-/
import proofs.«218968_g36790689857971_cont_8to1_b_1381_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«218968_g36790689857971_cont_8to1_b_1381_24_alg».proof.Proof.Gen.KernelIdeal
import proofs.«218968_g36790689857971_cont_8to1_b_1381_24_alg».proof.Proof.Gen.KernelIdeal.Skeleton
import proofs.«218968_g36790689857971_cont_8to1_b_1381_24_alg».proof.Proof.KIOffsets
import proofs.«218968_g36790689857971_cont_8to1_b_1381_24_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The recordings, the stream numbers and the result, as locations of device `d`. -/
abbrev aLoc (d : Dev nD) : Loc nD τ sig := (SparseCore.T d).loc main_arg0
abbrev sLoc (d : Dev nD) : Loc nD τ sig := (SparseCore.T d).loc main_arg1
abbrev oLoc (d : Dev nD) : Loc nD τ sig := (SparseCore.T d).loc main_v0

/-- The tile of SparseCore `L 0`, vector subcore `L 1`. -/
abbrev cV (L : grid0.Coords) : Fin τ.nSC := (L 0).castLE hcore0
abbrev jV (L : grid0.Coords) : Fin τ.nSub := (L 1).castLE hsub0

end Cert.Proof.KI

end
-- ==== Proof.KIPay.lean ====
import proofs.«218968_g36790689857971_cont_8to1_b_1381_24_alg».proof.Proof.KISetup

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What each tile is handed and hands back

Tile (c, w) — vector subcore w of SparseCore c — works on recording w, streams 4c … 4c+3: it reads those entries of the
recordings and the stream number of recording w, and writes exactly those entries of the result. So the result splits among
the 32 tiles by (recording, stream / 4); the recordings and the stream numbers are read by every tile and go out as read
shares; the SparseCore's shared scratch splits into sixteen contiguous slices of 3 × 32768 words, one per tile. -/

/-- The entries of the result SparseCore `c` writes: streams 4c … 4c+3 of every recording. -/
def coreSet (c : Fin 2) : Finset S16x8x2x65536.Idx := Finset.univ.filter fun j => (j 1).val / 4 = c.val
/-- The entries tile (c, w) writes: recording w, streams 4c … 4c+3. -/
def tileSet (c : Fin 2) (w : Fin 16) : Finset S16x8x2x65536.Idx := Finset.univ.filter fun j => (j 0).val = w.val ∧ (j 1).val / 4 = c.val
/-- Tile w's slice of its SparseCore's shared scratch: words 98304·w … 98304·w + 98303. -/
def shSet (w : Fin 16) : Finset S1572864.Idx := Finset.univ.filter fun j => (j 0).val / 98304 = w.val

/-- The read shares: a SparseCore's of the whole, a tile's of its SparseCore's. -/
abbrev qCore (c : Fin 2) : PosShare TreeShare := Transfers.shareTok fullShare 2 c
abbrev qTile (c : Fin 2) (w : Fin 16) : PosShare TreeShare := Transfers.shareTok (qCore c) 16 w

/-- The SparseCore's shared scratch, the sequencer's buffer. -/
abbrev shRef (c : Fin τ.nSC) : DevRef τ sig := ⟨.shared, ⟨0, by decide⟩, c⟩
abbrev shLoc (d : Dev nD) (c : Fin τ.nSC) : Loc nD τ sig := (d, shRef c)

variable (m : (ℓ : Loc nD τ sig) → Buf (Elt F) ℓ)
variable [FloatOps F]

/-- What the result holds when the program ends: the recordings with the named stream of each silenced. -/
def Gout (d : Dev nD) : Buf (Elt F) (oLoc d) := Cert.Spec.G (F := F) (m (aLoc d)) (m (sLoc d))

theorem nCore_eq : (K (F := F)).nCore 0 = 2 := rfl
theorem nSub_eq : (K (F := F)).nSub 0 = 16 := rfl
/-- SparseCore `c` of the call's grid, as a SparseCore of the device. -/
abbrev coreOf (c : Fin 2) : Fin τ.nSC := c.castLE (by decide)

/-- The one call's payloads. To SparseCore c: its read shares of the recordings and the stream numbers and its part of the
    result at the launch contents; back: the same with its part of the result at `Gout`. To tile (c, w): its read shares, its
    part of the result, its slice of the shared scratch; back: the same with its part of the result at `Gout`. -/
def P : (K (F := F)).Pay (nD := nD) (Val := Elt F) (Name := ℕ) (U := UU) where
  st := fun q d c => match q with
    | 0 => iprop((aLoc d ↦{qCore (Fin.cast nCore_eq c)} m (aLoc d)) ∗ (sLoc d ↦{qCore (Fin.cast nCore_eq c)} m (sLoc d))
        ∗ oLoc d ↦[coreSet (Fin.cast nCore_eq c)]{fullShare} m (oLoc d))
  dn := fun q d c => match q with
    | 0 => iprop((aLoc d ↦{qCore (Fin.cast nCore_eq c)} m (aLoc d)) ∗ (sLoc d ↦{qCore (Fin.cast nCore_eq c)} m (sLoc d))
        ∗ oLoc d ↦[coreSet (Fin.cast nCore_eq c)]{fullShare} Gout m d)
  go := fun q d c i => match q with
    | 0 => iprop((aLoc d ↦{qTile (Fin.cast nCore_eq c) (Fin.cast nSub_eq i)} m (aLoc d)) ∗ (sLoc d ↦{qTile (Fin.cast nCore_eq c) (Fin.cast nSub_eq i)} m (sLoc d))
        ∗ (oLoc d ↦[tileSet (Fin.cast nCore_eq c) (Fin.cast nSub_eq i)]{fullShare} m (oLoc d))
        ∗ ∃ f, shLoc d (coreOf (Fin.cast nCore_eq c)) ↦[shSet (Fin.cast nSub_eq i)]{fullShare} f)
  td := fun q d c i => match q with
    | 0 => iprop((aLoc d ↦{qTile (Fin.cast nCore_eq c) (Fin.cast nSub_eq i)} m (aLoc d)) ∗ (sLoc d ↦{qTile (Fin.cast nCore_eq c) (Fin.cast nSub_eq i)} m (sLoc d))
        ∗ (oLoc d ↦[tileSet (Fin.cast nCore_eq c) (Fin.cast nSub_eq i)]{fullShare} Gout m d)
        ∗ ∃ f, shLoc d (coreOf (Fin.cast nCore_eq c)) ↦[shSet (Fin.cast nSub_eq i)]{fullShare} f)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KI

end
-- ==== Proof.KILaunch.lean ====
import proofs.«218968_g36790689857971_cont_8to1_b_1381_24_alg».proof.Proof.KIPay

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The index sets: a SparseCore's part of the result is its tiles' parts; the shared scratch is the tiles' slices

Every index of the result has a recording below 16 and a stream below 8, so it lies in exactly one `tileSet c w`
(recording `w`, stream / 4 = `c`); every word of the shared scratch lies below 16 · 98304, so in exactly one `shSet w`. -/

theorem tileSet_disjoint (c : Fin 2) :
    ∀ w ∈ (Finset.univ : Finset (Fin 16)), ∀ w' ∈ (Finset.univ : Finset (Fin 16)), w ≠ w' → Disjoint (tileSet c w) (tileSet c w') := by
  intro w _ w' _ h
  unfold tileSet
  rw [Finset.disjoint_filter]
  intro j _ h1 h2
  exact h (Fin.ext (h1.1.symm.trans h2.1))

theorem tileSet_cover (c : Fin 2) : (Finset.univ : Finset (Fin 16)).biUnion (tileSet c) = coreSet c := by
  ext j
  simp only [Finset.mem_biUnion, Finset.mem_univ, true_and, tileSet, coreSet, Finset.mem_filter]
  constructor
  · rintro ⟨w, _, h⟩; exact h
  · intro h
    have hj : (j 0).val < 16 := (j 0).isLt
    exact ⟨⟨(j 0).val, hj⟩, rfl, h⟩

theorem coreSet_disjoint :
    ∀ c ∈ (Finset.univ : Finset (Fin 2)), ∀ c' ∈ (Finset.univ : Finset (Fin 2)), c ≠ c' → Disjoint (coreSet c) (coreSet c') := by
  intro c _ c' _ h
  unfold coreSet
  rw [Finset.disjoint_filter]
  intro j _ h1 h2
  exact h (Fin.ext (h1.symm.trans h2))

theorem coreSet_cover : (Finset.univ : Finset (Fin 2)).biUnion coreSet = Finset.univ := by
  ext j
  simp only [Finset.mem_biUnion, Finset.mem_univ, true_and, coreSet, Finset.mem_filter, iff_true]
  have hj : (j 1).val < 8 := (j 1).isLt
  exact ⟨⟨(j 1).val / 4, by omega⟩, rfl⟩

theorem shSet_disjoint :
    ∀ w ∈ (Finset.univ : Finset (Fin 16)), ∀ w' ∈ (Finset.univ : Finset (Fin 16)), w ≠ w' → Disjoint (shSet w) (shSet w') := by
  intro w _ w' _ h
  unfold shSet
  rw [Finset.disjoint_filter]
  intro j _ h1 h2
  exact h (Fin.ext (h1.symm.trans h2))

theorem shSet_cover : (Finset.univ : Finset (Fin 16)).biUnion shSet = Finset.univ := by
  ext j
  simp only [Finset.mem_biUnion, Finset.mem_univ, true_and, shSet, Finset.mem_filter, iff_true]
  have hj : (j 0).val < 1572864 := (j 0).isLt
  exact ⟨⟨(j 0).val / 98304, by omega⟩, rfl⟩

/-! ## The points-tos along those unions -/

/-- A SparseCore's part of the result, at one function, is its sixteen tiles' parts at that function. -/
theorem oCore_tiles (d : Dev nD) (c : Fin 2) (f : Buf (Elt F) (oLoc d)) :
    (oLoc d ↦[coreSet c]{fullShare} f : sProp 𝕄) = bigSep Finset.univ fun w : Fin 16 => oLoc d ↦[tileSet c w]{fullShare} f := by
  rw [← pointsTo_biUnion Finset.univ (ℓ := oLoc d) (tileSet c) (tileSet_disjoint c), tileSet_cover]

/-- The result whole, at one function, is the two SparseCores' parts at that function. -/
theorem o_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet coreSet_disjoint, coreSet_cover]; try rfl

/-- The shared scratch whole, at one function, is the sixteen slices at that function. -/
theorem sh_tiles (d : Dev nD) (c : Fin τ.nSC) (f : Buf (Elt F) (shLoc d c)) :
    (shLoc d c ↦{fullShare} f : sProp 𝕄) = bigSep Finset.univ fun w : Fin 16 => shLoc d c ↦[shSet w]{fullShare} f := by
  rw [← pointsTo_biUnion Finset.univ (ℓ := shLoc d c) shSet shSet_disjoint, shSet_cover]; try rfl

/-- The sixteen slices, each at contents of its own, are the shared scratch whole at some contents. -/
theorem sh_join (d : Dev nD) (c : Fin τ.nSC) :
    (bigSep Finset.univ fun w : Fin 16 => iprop(∃ f, shLoc d c ↦[shSet w]{fullShare} f)) ⊢ (iprop(∃ f, shLoc d c ↦{fullShare} f) : sProp 𝕄) := by
  refine (bigSep_exists_pi Finset.univ (fun w (f : Buf (Elt F) (shLoc d c)) => (shLoc d c ↦[shSet w]{fullShare} f : sProp 𝕄))).trans ?_
  iintro ⟨%fs, H⟩
  ihave H' := (pointsTo_biUnion_join Finset.univ shSet fs (fs 0) shSet_disjoint) $$ H
  icases H' with ⟨%g, -, Hg⟩
  rw [shSet_cover]
  iexists g; iexact Hg

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## What a tile is handed, over the plain index types -/

/-- What tile (c, w) holds when the result's part of it reads `g`: its read shares of the recordings and of the stream
    numbers, its part of the result at `g`, its slice of the shared scratch at some contents. -/
abbrev tileRes (d : Dev nD) (c : Fin 2) (g : Buf (Elt F) (oLoc d)) (w : Fin 16) : sProp 𝕄 :=
  iprop((aLoc d ↦{qTile c w} m (aLoc d)) ∗ (sLoc d ↦{qTile c w} m (sLoc d)) ∗ (oLoc d ↦[tileSet c w]{fullShare} g)
    ∗ ∃ f, shLoc d (coreOf c) ↦[shSet w]{fullShare} f)

/-- What SparseCore c holds when the result's part of it reads `g`. -/
abbrev coreRes (d : Dev nD) (g : Buf (Elt F) (oLoc d)) (c : Fin 2) : sProp 𝕄 :=
  iprop((aLoc d ↦{qCore c} m (aLoc d)) ∗ (sLoc d ↦{qCore c} m (sLoc d)) ∗ oLoc d ↦[coreSet c]{fullShare} g)

theorem P_st (d : Dev nD) (c : Fin ((K (F := F)).nCore 0)) : (P m).st 0 d c = coreRes m d (m (oLoc d)) (Fin.cast nCore_eq c) := rfl
theorem P_dn (d : Dev nD) (c : Fin ((K (F := F)).nCore 0)) : (P m).dn 0 d c = coreRes m d (Gout m d) (Fin.cast nCore_eq c) := rfl
theorem P_go (d : Dev nD) (c : Fin ((K (F := F)).nCore 0)) (i : Fin ((K (F := F)).nSub 0)) :
    (P m).go 0 d c i = tileRes m d (Fin.cast nCore_eq c) (m (oLoc d)) (Fin.cast nSub_eq i) := rfl
theorem P_td (d : Dev nD) (c : Fin ((K (F := F)).nCore 0)) (i : Fin ((K (F := F)).nSub 0)) :
    (P m).td 0 d c i = tileRes m d (Fin.cast nCore_eq c) (Gout m d) (Fin.cast nSub_eq i) := rfl

/-- A family over the call's sixteen tasks is the family over `Fin 16`. -/
theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

/-- A family over the call's two SparseCores is the family over `Fin 2`. -/
theorem bigSep_cores (Φ : Fin 2 → sProp 𝕄) :
    (bigSep Finset.univ fun c : Fin ((K (F := F)).nCore 0) => Φ (Fin.cast nCore_eq c)) = bigSep Finset.univ Φ :=
  bigSep_congr fun _ _ => congrArg Φ (Fin.ext rfl)

/-! ## The split of a SparseCore's operands among its tiles -/

/-- A SparseCore's operands and its sequencer's buffers go out to the sixteen tiles — the read shares split sixteen ways
    (the remainder stays with the sequencer), the result's part along recordings, the shared scratch along its slices —
    and the tiles' results, each part of the result at `Gout`, come back as the SparseCore's. -/
theorem vecSplit : (K (F := F)).VecSplit (P m) 0 := by
  intro d c
  show iprop((P m).st 0 d c ∗ ownBufs (S d (coreOf (Fin.cast nCore_eq c)))) ⊢ |={Set.univ}=> iprop(
      (bigSep Finset.univ fun i : Fin ((K (F := F)).nSub 0) => (P m).go 0 d c i)
      ∗ ((bigSep Finset.univ fun i : Fin ((K (F := F)).nSub 0) => (P m).td 0 d c i)
          -∗ iprop((P m).dn 0 d c ∗ ownBufs (S d (coreOf (Fin.cast nCore_eq c))))))
  simp only [P_st, P_dn, P_go, P_td]
  generalize Fin.cast nCore_eq c = c'
  rw [bigSep_tasks (F := F) (tileRes m d c' (m (oLoc d))), bigSep_tasks (F := F) (tileRes m d c' (Gout m d))]
  unfold tileRes coreRes
  rw [bigSep_sep', bigSep_sep', bigSep_sep', bigSep_sep', bigSep_sep', bigSep_sep', ownBufs_S, oCore_tiles, oCore_tiles]
  iintro ⟨⟨Ha, Hs, Ho⟩, ⟨%fsh, Hsh⟩, Hrest⟩
  ihave Ha' := (Transfers.pointsTo_toks_split (qCore c') 16) $$ Ha
  icases Ha' with ⟨Had, Hat⟩
  ihave Hs' := (Transfers.pointsTo_toks_split (qCore c') 16) $$ Hs
  icases Hs' with ⟨Hsd, Hst⟩
  imodintro
  isplitl [Hat Hst Ho Hsh]
  · isplitl [Hat]; · iexact Hat
    isplitl [Hst]; · iexact Hst
    isplitl [Ho]; · iexact Ho
    ihave Hsh' := ((Entails.of_eq (sh_tiles d (coreOf c') fsh)).trans (SparseCore.ent (bigSep_mono
      (Φ := fun w : Fin 16 => (shLoc d (coreOf c') ↦[shSet w]{fullShare} fsh : sProp 𝕄))
      (Ψ := fun w : Fin 16 => iprop(∃ f, shLoc d (coreOf c') ↦[shSet w]{fullShare} f))
      fun w _ => BI.BIClass.exists_intro (Φ := fun f => (shLoc d (coreOf c') ↦[shSet w]{fullShare} f : sProp 𝕄)) fsh))) $$ Hsh
    iexact Hsh'
  iintro ⟨Hat, Hst, Ho, Hsh⟩
  isplitl [Had Hat Hsd Hst Ho]
  · isplitl [Had Hat]
    · iapply (Transfers.pointsTo_toks_join (qCore c') 16)
      isplitl [Had] <;> iassumption
    isplitl [Hsd Hst]
    · iapply (Transfers.pointsTo_toks_join (qCore c') 16)
      isplitl [Hsd] <;> iassumption
    iexact Ho
  isplitl [Hsh]; · iapply (sh_join d (coreOf c')); iexact Hsh
  iexact Hrest

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's unscoped buffers are the three arrays. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (sLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The two SparseCores' operands, component by component. -/
theorem cores_eq (d : Dev nD) (g : Buf (Elt F) (oLoc d)) :
    (bigSep Finset.univ (coreRes m d g))
      = iprop((bigSep Finset.univ fun c : Fin 2 => aLoc d ↦{qCore c} m (aLoc d)) ∗ (bigSep Finset.univ fun c : Fin 2 => sLoc d ↦{qCore c} m (sLoc d))
          ∗ bigSep Finset.univ fun c : Fin 2 => oLoc d ↦[coreSet c]{fullShare} g) := by
  unfold coreRes
  rw [bigSep_sep', bigSep_sep']

theorem st0_eq (d : Dev nD) :
    (bigSep Finset.univ fun c : Fin ((K (F := F)).nCore 0) => (P m).st 0 d c)
      = iprop((bigSep Finset.univ fun c : Fin 2 => aLoc d ↦{qCore c} m (aLoc d)) ∗ (bigSep Finset.univ fun c : Fin 2 => sLoc d ↦{qCore c} m (sLoc d))
          ∗ bigSep Finset.univ fun c : Fin 2 => oLoc d ↦[coreSet c]{fullShare} m (oLoc d)) := by
  simp only [P_st]
  rw [bigSep_cores (F := F) (coreRes m d (m (oLoc d))), cores_eq]

theorem dn0_eq (d : Dev nD) :
    (bigSep Finset.univ fun c : Fin ((K (F := F)).nCore 0) => (P m).dn 0 d c)
      = iprop((bigSep Finset.univ fun c : Fin 2 => aLoc d ↦{qCore c} m (aLoc d)) ∗ (bigSep Finset.univ fun c : Fin 2 => sLoc d ↦{qCore c} m (sLoc d))
          ∗ bigSep Finset.univ fun c : Fin 2 => oLoc d ↦[coreSet c]{fullShare} Gout m d) := by
  simp only [P_dn]
  rw [bigSep_cores (F := F) (coreRes m d (Gout m d)), cores_eq]

/-- What the TensorCore holds at the end: the recordings and the stream numbers as launched, the result at `Gout`. -/
abbrev FIN (d : Dev nD) : sProp 𝕄 :=
  iprop((aLoc d ↦{fullShare} m (aLoc d)) ∗ (sLoc d ↦{fullShare} m (sLoc d)) ∗ oLoc d ↦{fullShare} Gout m d)

/-- @main on device `d`'s TensorCore: the one call. The recordings' and the stream numbers' full shares split into the two
    SparseCores' read shares and a remainder kept here; the result splits into the two SparseCores' parts; after the call
    the shares rejoin and the parts, each at `Gout`, are the result whole at `Gout`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hs, Ho⟩, -, -⟩, -⟩
  ihave Ha' := (Transfers.pointsTo_toks_split fullShare 2) $$ Ha
  icases Ha' with ⟨Had, Hat⟩
  ihave Hs' := (Transfers.pointsTo_toks_split fullShare 2) $$ Hs
  icases Hs' with ⟨Hsd, Hsk⟩
  ihave Ho' := (Entails.of_eq (o_cores d (m (oLoc d)))) $$ Ho
  iapply ((K (F := F)).wp_run (D (F := F)) 𝒱 (EH := EH) (P := P m) κ d 0) $$ [Hst Hat Hsk Ho' Had Hsd]
  isplitr; · iexact Hctx
  isplitl [Hst]; · iexact Hst
  isplitl [Hat Hsk Ho']
  · rw [st0_eq]
    isplitl [Hat]; · iexact Hat
    isplitl [Hsk]; · iexact Hsk
    iexact Ho'
  iintro ⟨Hst, Hdn⟩
  ihave Hdn' := (Entails.of_eq (dn0_eq m d)) $$ Hdn
  icases Hdn' with ⟨Hat, Hsk, Ho⟩
  imodintro
  isplitl [Hst]; · iexact Hst
  isplitl [Had Hat]
  · iapply (Transfers.pointsTo_toks_join fullShare 2)
    isplitl [Had] <;> iassumption
  isplitl [Hsd Hsk]
  · iapply (Transfers.pointsTo_toks_join fullShare 2)
    isplitl [Hsd] <;> iassumption
  iapply (Entails.of_eq (o_cores d (Gout m d)).symm)
  iexact Ho

/-! ## The final memory reads the claim -/

def fq (d : Dev nD) (s' : Phys nD τ sig (Elt F)) : Prop :=
  s'.mem.mem (oLoc d) = Gout m d ∧ s'.mem.mem (aLoc d) = m (aLoc d) ∧ s'.mem.mem (sLoc d) = m (sLoc d)

theorem hfin (d : Dev nD) (s' : Phys nD τ sig (Elt F)) : iprop(FIN m d ∗ SI s') ⊢ (⌜fq m d s'⌝ : sProp 𝕄) := by
  iintro ⟨⟨Ha, Hs, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop :=
  fun r => ∀ c : Dev nD, r.2.mem (oLoc c) = Gout m c ∧ r.2.mem (aLoc c) = m (aLoc c) ∧ r.2.mem (sLoc c) = m (sLoc c)

/-- The program's run, given the tiles' body: every final memory holds the result at `Gout` and the two arguments as launched. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (sep_elim_left.trans (hu₀ m)) (hmain m ρ) (fq m) (hfin m) (QC m) (fun _ h => h)

end Cert.Proof.KI

end
-- ==== Proof.KIChunks.lean ====
import proofs.«218968_g36790689857971_cont_8to1_b_1381_24_alg».proof.Proof.KIPay

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The sixteen chunks of a tile's part of the result

The tile at coordinates `L` (SparseCore `L 0`, vector subcore `L 1`) moves recording `L 1`, streams `4·(L 0) … 4·(L 0)+3`, in
sixteen chunks of 32768 samples: chunk `k` is stream `4·(L 0) + k / 4`, channel `(k / 2) % 2`, samples
`32768·(k % 2) … 32768·(k % 2) + 32767`. The three numbers `k / 4`, `(k / 2) % 2`, `k % 2` are the digits of `k` in the mixed
radix (4, 2, 2), so distinct chunks are disjoint and together they are the tile's part of the result. -/

/-- The offsets of chunk `k` of the tile at `L`: recording, stream, channel, first sample. -/
def chunkOff (L : grid0.Coords) (k : Fin 16) : Fin 4 → ℕ :=
  ![(L 1).val, 4 * (L 0).val + k.val / 4, (k.val / 2) % 2, 32768 * (k.val % 2)]

theorem chunkOff_inb (L : grid0.Coords) (k : Fin 16) : ∀ a, chunkOff L k a + S1x1x1x32768.size a ≤ S16x8x2x65536.size a := by
  intro a
  have h0 : (L 0).val < 2 := (L 0).isLt
  have h1 : (L 1).val < 16 := (L 1).isLt
  have hk : k.val < 16 := k.isLt
  match a with
  | 0 => show (L 1).val + 1 ≤ 16; omega
  | 1 => show 4 * (L 0).val + k.val / 4 + 1 ≤ 8; omega
  | 2 => show (k.val / 2) % 2 + 1 ≤ 2; omega
  | 3 => show 32768 * (k.val % 2) + 32768 ≤ 65536; omega

/-- Chunk `k` of the result, as the tile's copies name it. -/
abbrev oChunk (L : grid0.Coords) (k : Fin 16) : Memref sig .scVector .hbm S32768 .f32 :=
  ((Memref.whole main_v0_scv : Memref sig .scVector .hbm S16x8x2x65536 .f32).slice
    (Rect.unit (s := S16x8x2x65536) (chunkOff L k) S1x1x1x32768.size (chunkOff_inb L k)) (fun _ => rfl)).squeeze S32768 squeezes_S1x1x1x32768_S32768

/-- Chunk `k` of the recordings. -/
abbrev aChunk (L : grid0.Coords) (k : Fin 16) : Memref sig .scVector .hbm S32768 .f32 :=
  ((Memref.whole main_arg0_scv : Memref sig .scVector .hbm S16x8x2x65536 .f32).slice
    (Rect.unit (s := S16x8x2x65536) (chunkOff L k) S1x1x1x32768.size (chunkOff_inb L k)) (fun _ => rfl)).squeeze S32768 squeezes_S1x1x1x32768_S32768

/-- The indices of chunk `k`, in closed form. -/
def chunkSet (L : grid0.Coords) (k : Fin 16) : Finset S16x8x2x65536.Idx :=
  Finset.univ.filter fun i => (i 0).val = (L 1).val ∧ (i 1).val = 4 * (L 0).val + k.val / 4 ∧ (i 2).val = (k.val / 2) % 2
    ∧ (i 3).val / 32768 = k.val % 2

/-- An index lies in the chunk's rectangle exactly when its recording, stream and channel are the chunk's and its sample
    lies in the chunk's half. -/
theorem mem_chunkRect (L : grid0.Coords) (k : Fin 16) (i : S16x8x2x65536.Idx) :
    i ∈ (Rect.unit (s := S16x8x2x65536) (chunkOff L k) S1x1x1x32768.size (chunkOff_inb L k)).set
      ↔ (i 0).val = (L 1).val ∧ (i 1).val = 4 * (L 0).val + k.val / 4 ∧ (i 2).val = (k.val / 2) % 2 ∧ (i 3).val / 32768 = k.val % 2 := by
  rw [Rect.mem_set_unit]
  constructor
  · intro h
    have h0 : (L 1).val ≤ (i 0).val ∧ (i 0).val < (L 1).val + 1 := h 0
    have h1 : 4 * (L 0).val + k.val / 4 ≤ (i 1).val ∧ (i 1).val < 4 * (L 0).val + k.val / 4 + 1 := h 1
    have h2 : (k.val / 2) % 2 ≤ (i 2).val ∧ (i 2).val < (k.val / 2) % 2 + 1 := h 2
    have h3 : 32768 * (k.val % 2) ≤ (i 3).val ∧ (i 3).val < 32768 * (k.val % 2) + 32768 := h 3
    refine ⟨by omega, by omega, by omega, by omega⟩
  · rintro ⟨e0, e1, e2, e3⟩ a
    match a with
    | 0 => show (L 1).val ≤ (i 0).val ∧ (i 0).val < (L 1).val + 1; omega
    | 1 => show 4 * (L 0).val + k.val / 4 ≤ (i 1).val ∧ (i 1).val < 4 * (L 0).val + k.val / 4 + 1; omega
    | 2 => show (k.val / 2) % 2 ≤ (i 2).val ∧ (i 2).val < (k.val / 2) % 2 + 1; omega
    | 3 => show 32768 * (k.val % 2) ≤ (i 3).val ∧ (i 3).val < 32768 * (k.val % 2) + 32768; omega

/-- The chunk's elements are its rectangle's: squeezing re-indexes, and a slice of the whole array is its rectangle. -/
theorem oChunk_rect (L : grid0.Coords) (k : Fin 16) :
    (oChunk L k).view.set = (Rect.unit (s := S16x8x2x65536) (chunkOff L k) S1x1x1x32768.size (chunkOff_inb L k)).set :=
  (View.set_reshape _ _).trans (View.set_slice_whole _ _)

theorem aChunk_rect (L : grid0.Coords) (k : Fin 16) :
    (aChunk L k).view.set = (Rect.unit (s := S16x8x2x65536) (chunkOff L k) S1x1x1x32768.size (chunkOff_inb L k)).set :=
  (View.set_reshape _ _).trans (View.set_slice_whole _ _)

theorem mem_oChunk_set (L : grid0.Coords) (k : Fin 16) {i : S16x8x2x65536.Idx} :
    i ∈ (oChunk L k).view.set
      ↔ (i 0).val = (L 1).val ∧ (i 1).val = 4 * (L 0).val + k.val / 4 ∧ (i 2).val = (k.val / 2) % 2 ∧ (i 3).val / 32768 = k.val % 2 := by
  rw [oChunk_rect]
  exact mem_chunkRect L k i

theorem mem_aChunk_set (L : grid0.Coords) (k : Fin 16) {i : S16x8x2x65536.Idx} :
    i ∈ (aChunk L k).view.set
      ↔ (i 0).val = (L 1).val ∧ (i 1).val = 4 * (L 0).val + k.val / 4 ∧ (i 2).val = (k.val / 2) % 2 ∧ (i 3).val / 32768 = k.val % 2 := by
  rw [aChunk_rect]
  exact mem_chunkRect L k i

theorem oChunk_set (L : grid0.Coords) (k : Fin 16) : (oChunk L k).view.set = chunkSet L k :=
  Finset.ext fun i => by rw [mem_oChunk_set]; simp only [chunkSet, Finset.mem_filter, Finset.mem_univ, true_and]

theorem aChunk_set (L : grid0.Coords) (k : Fin 16) : (aChunk L k).view.set = chunkSet L k :=
  Finset.ext fun i => by rw [mem_aChunk_set]; simp only [chunkSet, Finset.mem_filter, Finset.mem_univ, true_and]

/-- The tile's SparseCore and vector subcore as plain indices. -/
abbrev cL (L : grid0.Coords) : Fin 2 := Fin.cast (show grid0.bound 0 = 2 from rfl) (L 0)
abbrev wL (L : grid0.Coords) : Fin 16 := Fin.cast (show grid0.bound 1 = 16 from rfl) (L 1)

/-- Distinct chunks share no index: an index fixes the three digits of `k`. -/
theorem chunkSet_disjoint (L : grid0.Coords) :
    ∀ k ∈ (Finset.univ : Finset (Fin 16)), ∀ k' ∈ (Finset.univ : Finset (Fin 16)), k ≠ k' → Disjoint (chunkSet L k) (chunkSet L k') := by
  intro k _ k' _ h
  unfold chunkSet
  rw [Finset.disjoint_filter]
  rintro i _ ⟨_, a1, a2, a3⟩ ⟨_, b1, b2, b3⟩
  apply h; apply Fin.ext
  have hk := k.isLt
  have hk' := k'.isLt
  omega

/-- The sixteen chunks are the tile's part of the result: the chunk of an index is read off its stream, channel and half. -/
theorem chunkSet_cover (L : grid0.Coords) : (Finset.univ : Finset (Fin 16)).biUnion (chunkSet L) = tileSet (cL L) (wL L) := by
  ext i
  simp only [Finset.mem_biUnion, Finset.mem_univ, true_and, chunkSet, tileSet, Finset.mem_filter, cL, wL, Fin.coe_cast]
  have hi1 : (i 1).val < 8 := (i 1).isLt
  have hi2 : (i 2).val < 2 := (i 2).isLt
  have hi3 : (i 3).val < 65536 := (i 3).isLt
  have hL0 : (L 0).val < 2 := (L 0).isLt
  constructor
  · rintro ⟨k, e0, e1, e2, e3⟩
    have hk := k.isLt
    exact ⟨e0, by omega⟩
  · rintro ⟨e0, e1⟩
    have hk : 4 * ((i 1).val % 4) + 2 * (i 2).val + (i 3).val / 32768 < 16 := by omega
    refine ⟨⟨_, hk⟩, e0, ?_, ?_, ?_⟩
    · show (i 1).val = 4 * (L 0).val + (4 * ((i 1).val % 4) + 2 * (i 2).val + (i 3).val / 32768) / 4; omega
    · show (i 2).val = ((4 * ((i 1).val % 4) + 2 * (i 2).val + (i 3).val / 32768) / 2) % 2; omega
    · show (i 3).val / 32768 = (4 * ((i 1).val % 4) + 2 * (i 2).val + (i 3).val / 32768) % 2; omega

/-- The tile's part of the result, at one function, is its sixteen chunks at that function, each as the tile's thread names it. -/
theorem o_chunks (d : Dev nD) (L : grid0.Coords) (f : Buf (Elt F) (oLoc d)) :
    (oLoc d ↦[tileSet (cL L) (wL L)]{fullShare} f : sProp 𝕄)
      = bigSep Finset.univ fun k : Fin 16 => (oChunk L k).view.loc (V d (cV L) (jV L)) ↦[(oChunk L k).view.set]{fullShare} f := by
  rw [← chunkSet_cover L, pointsTo_biUnion Finset.univ (ℓ := oLoc d) (chunkSet L) (chunkSet_disjoint L)]
  exact bigSep_congr fun k _ => by rw [oChunk_set]

/-! ## The tile's three staging buffers in the shared scratch

Tile `L 1`'s slice of the shared scratch, words `98304·(L 1) … 98304·(L 1) + 98303`, is three buffers of 32768 words: word `x`
lies in buffer `i` exactly when `x / 32768 = 3·(L 1) + i`. -/

/-- The first word of staging buffer `i`. -/
abbrev shOff (L : grid0.Coords) : Fin 3 → Fin 1 → ℕ
  | 0 => ![98304 * (L 1).val]
  | 1 => ![98304 * (L 1).val + 32768]
  | 2 => ![98304 * (L 1).val + 65536]

theorem shOff_zero (L : grid0.Coords) : shOff L 0 = ![98304 * (L 1).val] := rfl
theorem shOff_one (L : grid0.Coords) : shOff L 1 = ![98304 * (L 1).val + 32768] := rfl
theorem shOff_two (L : grid0.Coords) : shOff L 2 = ![98304 * (L 1).val + 65536] := rfl

theorem shOff_inb (L : grid0.Coords) (i : Fin 3) : ∀ a, shOff L i a + S32768.size a ≤ S1572864.size a := by
  intro a
  have h1 : (L 1).val < 16 := (L 1).isLt
  match i, a with
  | 0, 0 => show 98304 * (L 1).val + 32768 ≤ 1572864; omega
  | 1, 0 => show 98304 * (L 1).val + 32768 + 32768 ≤ 1572864; omega
  | 2, 0 => show 98304 * (L 1).val + 65536 + 32768 ≤ 1572864; omega

/-- Staging buffer `i` of the tile at `L`. -/
abbrev shBuf (L : grid0.Coords) (i : Fin 3) : Memref sig .scVector .shared S32768 .f32 :=
  (Memref.whole cc0_scratch2 : Memref sig .scVector .shared S1572864 .f32).slice
    (Rect.unit (s := S1572864) (shOff L i) S32768.size (shOff_inb L i)) (fun _ => rfl)

/-- The words of staging buffer `i`, in closed form. -/
def shPiece (L : grid0.Coords) (i : Fin 3) : Finset S1572864.Idx :=
  Finset.univ.filter fun j => (j 0).val / 32768 = 3 * (L 1).val + i.val

/-- The buffer's elements are its rectangle's: a slice of the whole scratch is its rectangle. -/
theorem shBuf_rect (L : grid0.Coords) (i : Fin 3) :
    (shBuf L i).view.set = (Rect.unit (s := S1572864) (shOff L i) S32768.size (shOff_inb L i)).set :=
  View.set_slice_whole _ _

theorem mem_shBuf_set (L : grid0.Coords) (i : Fin 3) {j : S1572864.Idx} :
    j ∈ (shBuf L i).view.set ↔ (j 0).val / 32768 = 3 * (L 1).val + i.val := by
  rw [shBuf_rect, Rect.mem_set_unit, Fin.forall_fin_one]
  match i with
  | 0 => show (98304 * (L 1).val ≤ (j 0).val ∧ (j 0).val < 98304 * (L 1).val + 32768) ↔ (j 0).val / 32768 = 3 * (L 1).val + 0; omega
  | 1 => show (98304 * (L 1).val + 32768 ≤ (j 0).val ∧ (j 0).val < 98304 * (L 1).val + 32768 + 32768) ↔ (j 0).val / 32768 = 3 * (L 1).val + 1; omega
  | 2 => show (98304 * (L 1).val + 65536 ≤ (j 0).val ∧ (j 0).val < 98304 * (L 1).val + 65536 + 32768) ↔ (j 0).val / 32768 = 3 * (L 1).val + 2; omega

theorem shBuf_set (L : grid0.Coords) (i : Fin 3) : (shBuf L i).view.set = shPiece L i :=
  Finset.ext fun j => by rw [mem_shBuf_set]; simp only [shPiece, Finset.mem_filter, Finset.mem_univ, true_and]

theorem shPiece_disjoint (L : grid0.Coords) :
    ∀ i ∈ (Finset.univ : Finset (Fin 3)), ∀ i' ∈ (Finset.univ : Finset (Fin 3)), i ≠ i' → Disjoint (shPiece L i) (shPiece L i') := by
  intro i _ i' _ h
  unfold shPiece
  rw [Finset.disjoint_filter]
  intro j _ a b
  apply h; apply Fin.ext
  omega

theorem shPiece_cover (L : grid0.Coords) : (Finset.univ : Finset (Fin 3)).biUnion (shPiece L) = shSet (wL L) := by
  ext j
  simp only [Finset.mem_biUnion, Finset.mem_univ, true_and, shPiece, shSet, Finset.mem_filter, wL, Fin.coe_cast]
  constructor
  · rintro ⟨i, e⟩
    have hi := i.isLt
    omega
  · intro e
    have h : (j 0).val / 32768 - 3 * (L 1).val < 3 := by omega
    refine ⟨⟨_, h⟩, ?_⟩
    show (j 0).val / 32768 = 3 * (L 1).val + ((j 0).val / 32768 - 3 * (L 1).val)
    omega

/-- A staging buffer, as the tile's thread names it, is its words of the SparseCore's shared scratch. -/
theorem shBuf_pts (d : Dev nD) (L : grid0.Coords) (i : Fin 3) (f : Buf (Elt F) (shLoc d (cV L))) :
    ((shBuf L i).view.loc (V d (cV L) (jV L)) ↦[(shBuf L i).view.set]{fullShare} f : sProp 𝕄) = shLoc d (cV L) ↦[shPiece L i]{fullShare} f := by
  rw [shBuf_set]; rfl

/-- A chunk of the result, as the tile's thread names it, is its indices of the result. -/
theorem oChunk_pts (d : Dev nD) (L : grid0.Coords) (k : Fin 16) (f : Buf (Elt F) (oLoc d)) :
    ((oChunk L k).view.loc (V d (cV L) (jV L)) ↦[(oChunk L k).view.set]{fullShare} f : sProp 𝕄) = oLoc d ↦[chunkSet L k]{fullShare} f := by
  rw [oChunk_set]

/-- The tile's slice of the shared scratch, at one function, is its three staging buffers at that function. -/
theorem sh_bufs (d : Dev nD) (L : grid0.Coords) (f : Buf (Elt F) (shLoc d (cV L))) :
    (shLoc d (cV L) ↦[shSet (wL L)]{fullShare} f : sProp 𝕄)
      = bigSep Finset.univ fun i : Fin 3 => (shBuf L i).view.loc (V d (cV L) (jV L)) ↦[(shBuf L i).view.set]{fullShare} f := by
  rw [← shPiece_cover L, pointsTo_biUnion Finset.univ (ℓ := shLoc d (cV L)) (shPiece L) (shPiece_disjoint L)]
  exact bigSep_congr fun i _ => (shBuf_pts d L i f).symm

/-- A family over the three staging buffers, written out. -/
theorem bigSep_univ_three (Φ : Fin 3 → sProp 𝕄) : bigSep Finset.univ Φ = iprop(Φ 0 ∗ Φ 1 ∗ Φ 2) := by
  rw [show (Finset.univ : Finset (Fin 3)) = {0, 1, 2} from by decide, SparseCore.bigSep_insert' (by decide),
    SparseCore.bigSep_insert' (by decide), bigSep_singleton]

/-- The same, the three buffers written out. -/
theorem sh_bufs3 (d : Dev nD) (L : grid0.Coords) (f : Buf (Elt F) (shLoc d (cV L))) :
    (shLoc d (cV L) ↦[shSet (wL L)]{fullShare} f : sProp 𝕄)
      = iprop(((shBuf L 0).view.loc (V d (cV L) (jV L)) ↦[(shBuf L 0).view.set]{fullShare} f)
          ∗ ((shBuf L 1).view.loc (V d (cV L) (jV L)) ↦[(shBuf L 1).view.set]{fullShare} f)
          ∗ (shBuf L 2).view.loc (V d (cV L) (jV L)) ↦[(shBuf L 2).view.set]{fullShare} f) := by
  rw [sh_bufs, bigSep_univ_three]

/-! ## The recordings along the same chunks, at any read share; the result along the chunk sets

The tile holds a read share `q` of the recordings whole. The whole array is the tile's sixteen chunks and everything else; a
points-to splits along a disjoint union at any share, so the chunks can be lent one at a time and the rest kept. -/

/-- A chunk of the recordings, as the tile's thread names it, is its indices of the recordings — at any share. -/
theorem aChunk_pts (d : Dev nD) (L : grid0.Coords) (k : Fin 16) (q : PosShare TreeShare) (f : Buf (Elt F) (aLoc d)) :
    ((aChunk L k).view.loc (V d (cV L) (jV L)) ↦[(aChunk L k).view.set]{q} f : sProp 𝕄) = aLoc d ↦[chunkSet L k]{q} f := by
  rw [aChunk_set]

/-- The tile's indices of the recordings, at one function and any share, are the sixteen chunk sets at that function and share. -/
theorem a_chunkSets (d : Dev nD) (L : grid0.Coords) (q : PosShare TreeShare) (f : Buf (Elt F) (aLoc d)) :
    (aLoc d ↦[tileSet (cL L) (wL L)]{q} f : sProp 𝕄) = bigSep Finset.univ fun k : Fin 16 => aLoc d ↦[chunkSet L k]{q} f := by
  rw [← chunkSet_cover L, pointsTo_biUnion Finset.univ (ℓ := aLoc d) (chunkSet L) (chunkSet_disjoint L)]

/-- The recordings whole, at any share, are the tile's sixteen chunk sets and the rest of the array. -/
theorem a_chunks (d : Dev nD) (L : grid0.Coords) (q : PosShare TreeShare) (f : Buf (Elt F) (aLoc d)) :
    (aLoc d ↦{q} f : sProp 𝕄)
      = iprop((bigSep Finset.univ fun k : Fin 16 => aLoc d ↦[chunkSet L k]{q} f) ∗ aLoc d ↦[Finset.univ \ tileSet (cL L) (wL L)]{q} f) := by
  have hs : (aLoc d ↦{q} f : sProp 𝕄)
      ⊣⊢ iprop((aLoc d ↦[tileSet (cL L) (wL L)]{q} f) ∗ aLoc d ↦[Finset.univ \ tileSet (cL L) (wL L)]{q} f) :=
    pointsTo_split_subset (Finset.subset_univ _)
  rw [BI.equiv_iff.mp ⟨hs.1, hs.2⟩, a_chunkSets]

/-- The tile's part of the result, at one function, is the sixteen chunk sets at that function. -/
theorem o_chunkSets (d : Dev nD) (L : grid0.Coords) (f : Buf (Elt F) (oLoc d)) :
    (oLoc d ↦[tileSet (cL L) (wL L)]{fullShare} f : sProp 𝕄) = bigSep Finset.univ fun k : Fin 16 => oLoc d ↦[chunkSet L k]{fullShare} f := by
  rw [← chunkSet_cover L, pointsTo_biUnion Finset.univ (ℓ := oLoc d) (chunkSet L) (chunkSet_disjoint L)]

/-- A family over the sixteen chunks, written out. -/
theorem bigSep_univ_sixteen (Φ : Fin 16 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-! ## The eight windows of a chunk of the result

Chunk `k`'s 32768 samples are eight windows of 4096: window `h` is samples `32768·(k % 2) + 4096·h … + 4095`, that is the
samples `x` with `x / 4096 = 8·(k % 2) + h`. Distinct windows are disjoint and together they are the chunk. -/

/-- The offsets of window `h` of chunk `k` of the tile at `L`. -/
def subOff (L : grid0.Coords) (k : Fin 16) (h : Fin 8) : Fin 4 → ℕ :=
  ![(L 1).val, 4 * (L 0).val + k.val / 4, (k.val / 2) % 2, 32768 * (k.val % 2) + 4096 * h.val]

theorem subOff_inb (L : grid0.Coords) (k : Fin 16) (h : Fin 8) : ∀ a, subOff L k h a + S1x1x1x4096.size a ≤ S16x8x2x65536.size a := by
  intro a
  have h0 : (L 0).val < 2 := (L 0).isLt
  have h1 : (L 1).val < 16 := (L 1).isLt
  have hk : k.val < 16 := k.isLt
  have hh : h.val < 8 := h.isLt
  match a with
  | 0 => show (L 1).val + 1 ≤ 16; omega
  | 1 => show 4 * (L 0).val + k.val / 4 + 1 ≤ 8; omega
  | 2 => show (k.val / 2) % 2 + 1 ≤ 2; omega
  | 3 => show 32768 * (k.val % 2) + 4096 * h.val + 4096 ≤ 65536; omega

/-- Window `h` of chunk `k` of the result, as the tile's copies name it. -/
abbrev oSubG (L : grid0.Coords) (k : Fin 16) (h : Fin 8) : Memref sig .scVector .hbm S4096 .f32 :=
  ((Memref.whole main_v0_scv : Memref sig .scVector .hbm S16x8x2x65536 .f32).slice
    (Rect.unit (s := S16x8x2x65536) (subOff L k h) S1x1x1x4096.size (subOff_inb L k h)) (fun _ => rfl)).squeeze S4096 squeezes_S1x1x1x4096_S4096

/-- The indices of window `h` of chunk `k`, in closed form. -/
def subSet (L : grid0.Coords) (k : Fin 16) (h : Fin 8) : Finset S16x8x2x65536.Idx :=
  Finset.univ.filter fun i => (i 0).val = (L 1).val ∧ (i 1).val = 4 * (L 0).val + k.val / 4 ∧ (i 2).val = (k.val / 2) % 2
    ∧ (i 3).val / 4096 = 8 * (k.val % 2) + h.val

/-- An index lies in the window's rectangle exactly when its recording, stream and channel are the chunk's and its sample
    lies in the window. -/
theorem mem_subRect (L : grid0.Coords) (k : Fin 16) (h : Fin 8) (i : S16x8x2x65536.Idx) :
    i ∈ (Rect.unit (s := S16x8x2x65536) (subOff L k h) S1x1x1x4096.size (subOff_inb L k h)).set
      ↔ (i 0).val = (L 1).val ∧ (i 1).val = 4 * (L 0).val + k.val / 4 ∧ (i 2).val = (k.val / 2) % 2
        ∧ (i 3).val / 4096 = 8 * (k.val % 2) + h.val := by
  rw [Rect.mem_set_unit]
  constructor
  · intro g
    have g0 : (L 1).val ≤ (i 0).val ∧ (i 0).val < (L 1).val + 1 := g 0
    have g1 : 4 * (L 0).val + k.val / 4 ≤ (i 1).val ∧ (i 1).val < 4 * (L 0).val + k.val / 4 + 1 := g 1
    have g2 : (k.val / 2) % 2 ≤ (i 2).val ∧ (i 2).val < (k.val / 2) % 2 + 1 := g 2
    have g3 : 32768 * (k.val % 2) + 4096 * h.val ≤ (i 3).val ∧ (i 3).val < 32768 * (k.val % 2) + 4096 * h.val + 4096 := g 3
    refine ⟨by omega, by omega, by omega, by omega⟩
  · rintro ⟨e0, e1, e2, e3⟩ a
    match a with
    | 0 => show (L 1).val ≤ (i 0).val ∧ (i 0).val < (L 1).val + 1; omega
    | 1 => show 4 * (L 0).val + k.val / 4 ≤ (i 1).val ∧ (i 1).val < 4 * (L 0).val + k.val / 4 + 1; omega
    | 2 => show (k.val / 2) % 2 ≤ (i 2).val ∧ (i 2).val < (k.val / 2) % 2 + 1; omega
    | 3 => show 32768 * (k.val % 2) + 4096 * h.val ≤ (i 3).val ∧ (i 3).val < 32768 * (k.val % 2) + 4096 * h.val + 4096; omega

/-- The window's elements are its rectangle's. -/
theorem oSubG_rect (L : grid0.Coords) (k : Fin 16) (h : Fin 8) :
    (oSubG L k h).view.set = (Rect.unit (s := S16x8x2x65536) (subOff L k h) S1x1x1x4096.size (subOff_inb L k h)).set :=
  (View.set_reshape _ _).trans (View.set_slice_whole _ _)

theorem mem_oSubG_set (L : grid0.Coords) (k : Fin 16) (h : Fin 8) {i : S16x8x2x65536.Idx} :
    i ∈ (oSubG L k h).view.set
      ↔ (i 0).val = (L 1).val ∧ (i 1).val = 4 * (L 0).val + k.val / 4 ∧ (i 2).val = (k.val / 2) % 2
        ∧ (i 3).val / 4096 = 8 * (k.val % 2) + h.val := by
  rw [oSubG_rect]
  exact mem_subRect L k h i

theorem oSubG_set (L : grid0.Coords) (k : Fin 16) (h : Fin 8) : (oSubG L k h).view.set = subSet L k h :=
  Finset.ext fun i => by rw [mem_oSubG_set]; simp only [subSet, Finset.mem_filter, Finset.mem_univ, true_and]

/-- A window of the result, as the tile's thread names it, is its indices of the result. -/
theorem oSubG_pts (d : Dev nD) (L : grid0.Coords) (k : Fin 16) (h : Fin 8) (f : Buf (Elt F) (oLoc d)) :
    ((oSubG L k h).view.loc (V d (cV L) (jV L)) ↦[(oSubG L k h).view.set]{fullShare} f : sProp 𝕄) = oLoc d ↦[subSet L k h]{fullShare} f := by
  rw [oSubG_set]

/-- A window's indices are its chunk's: a sample in window `h` of half `k % 2` lies in that half. -/
theorem mem_subSet_chunk {L : grid0.Coords} {k : Fin 16} {h : Fin 8} {i : S16x8x2x65536.Idx} : i ∈ subSet L k h → i ∈ chunkSet L k := by
  simp only [subSet, chunkSet, Finset.mem_filter, Finset.mem_univ, true_and]
  rintro ⟨e0, e1, e2, e3⟩
  have hh : h.val < 8 := h.isLt
  exact ⟨e0, e1, e2, by omega⟩

/-- Distinct windows of one chunk share no index. -/
theorem subSet_disjoint (L : grid0.Coords) (k : Fin 16) :
    ∀ h ∈ (Finset.univ : Finset (Fin 8)), ∀ h' ∈ (Finset.univ : Finset (Fin 8)), h ≠ h' → Disjoint (subSet L k h) (subSet L k h') := by
  intro h _ h' _ hne
  unfold subSet
  rw [Finset.disjoint_filter]
  rintro i _ ⟨_, _, _, a3⟩ ⟨_, _, _, b3⟩
  apply hne; apply Fin.ext
  omega

/-- The eight windows are the chunk: the window of a sample is read off its quotient by 4096. -/
theorem subSet_cover (L : grid0.Coords) (k : Fin 16) : (Finset.univ : Finset (Fin 8)).biUnion (subSet L k) = chunkSet L k := by
  ext i
  simp only [Finset.mem_biUnion, Finset.mem_univ, true_and, subSet, chunkSet, Finset.mem_filter]
  constructor
  · rintro ⟨h, e0, e1, e2, e3⟩
    have hh : h.val < 8 := h.isLt
    exact ⟨e0, e1, e2, by omega⟩
  · rintro ⟨e0, e1, e2, e3⟩
    have hi3 : (i 3).val < 65536 := (i 3).isLt
    have hh : (i 3).val / 4096 - 8 * (k.val % 2) < 8 := by omega
    refine ⟨⟨_, hh⟩, e0, e1, e2, ?_⟩
    show (i 3).val / 4096 = 8 * (k.val % 2) + ((i 3).val / 4096 - 8 * (k.val % 2))
    omega

/-- A chunk of the result, at one function, is its eight windows at that function. -/
theorem o_subSets (d : Dev nD) (L : grid0.Coords) (k : Fin 16) (f : Buf (Elt F) (oLoc d)) :
    (oLoc d ↦[chunkSet L k]{fullShare} f : sProp 𝕄) = bigSep Finset.univ fun h : Fin 8 => oLoc d ↦[subSet L k h]{fullShare} f := by
  rw [← subSet_cover L k, pointsTo_biUnion Finset.univ (ℓ := oLoc d) (subSet L k) (subSet_disjoint L k)]

/-- A family over the eight windows, written out. -/
theorem bigSep_univ_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable [FloatOps F]

/-- A staging buffer at some contents, named through the tile's thread, is its words of the shared scratch at some contents. -/
theorem shBuf_ex (d : Dev nD) (L : grid0.Coords) (i : Fin 3) :
    (iprop(∃ f : Buf (Elt F) (shLoc d (cV L)), (shBuf L i).view.loc (V d (cV L) (jV L)) ↦[(shBuf L i).view.set]{fullShare} f) : sProp 𝕄)
      ⊢ iprop(∃ f : Buf (Elt F) (shLoc d (cV L)), shLoc d (cV L) ↦[shPiece L i]{fullShare} f) := by
  iintro ⟨%f, H⟩
  iexists f
  ihave H' := (Entails.of_eq (shBuf_pts d L i f)) $$ H
  iexact H'

/-- The three staging buffers, each at contents of its own, are the tile's slice of the shared scratch at some contents. -/
theorem sh_bufs_join (d : Dev nD) (L : grid0.Coords) :
    (bigSep Finset.univ fun i : Fin 3 =>
        iprop(∃ f : Buf (Elt F) (shLoc d (cV L)), (shBuf L i).view.loc (V d (cV L) (jV L)) ↦[(shBuf L i).view.set]{fullShare} f))
      ⊢ (iprop(∃ f, shLoc d (cV L) ↦[shSet (wL L)]{fullShare} f) : sProp 𝕄) := by
  -- each buffer, named through the tile's thread, is its words of the shared scratch
  refine (SparseCore.ent (bigSep_mono
    (Φ := fun i : Fin 3 => (iprop(∃ f : Buf (Elt F) (shLoc d (cV L)),
      (shBuf L i).view.loc (V d (cV L) (jV L)) ↦[(shBuf L i).view.set]{fullShare} f) : sProp 𝕄))
    (Ψ := fun i : Fin 3 => (iprop(∃ f : Buf (Elt F) (shLoc d (cV L)), shLoc d (cV L) ↦[shPiece L i]{fullShare} f) : sProp 𝕄))
    fun i _ => shBuf_ex d L i)).trans ?_
  -- the three pieces, each at contents of its own, join along their disjoint union
  refine (bigSep_exists_pi Finset.univ (fun i (f : Buf (Elt F) (shLoc d (cV L))) =>
    (shLoc d (cV L) ↦[shPiece L i]{fullShare} f : sProp 𝕄))).trans ?_
  iintro ⟨%fs, H⟩
  ihave H' := (pointsTo_biUnion_join Finset.univ (shPiece L) fs (fs 0) (shPiece_disjoint L)) $$ H
  icases H' with ⟨%g, -, Hg⟩
  rw [shPiece_cover]
  iexists g; iexact Hg

end Cert.Proof.KI

end
-- ==== Proof.KIFlag.lean ====
/-
  The word a tile tests: which stream of its recording is to be silenced.

  The tile copies the 16 stream numbers into its own scratch, overwriting all of it, so a whole load of the scratch reads the
  stream numbers back. A gather of that load at 16 lanes all equal to one recording number `b` reads the stream number of
  recording `b` in every lane; lane 0 of it, compared for equality with a word `sw`, is therefore 1 exactly when the stream
  number of recording `b` is `sw`.
-/
import proofs.«218968_g36790689857971_cont_8to1_b_1381_24_alg».proof.Proof.KIChunks

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- An equality test of two words is 1 exactly when they are equal. -/
theorem cmpi_eq_ite (x y : BitVec 32) : Scalar.cmpi CmpIPredicate.eq x y = if x = y then 1#1 else 0#1 := by
  unfold Scalar.cmpi IntOp.cmpi
  by_cases h : x = y
  · rw [if_pos h, show (x == y) = true from beq_iff_eq.2 h]; rfl
  · rw [if_neg h, show (x == y) = false from beq_false_of_ne h]; rfl

/-- After the copy the tile's scratch holds the stream numbers: a whole load of it reads them back. -/
theorem scratch_after_copy (d : Dev nD) (L : grid0.Coords) (fs : Buf (Elt F) (sLoc d))
    (f0 : Buf (Elt F) ((V d (cV L) (jV L)).loc cc0_scratch0)) :
    View.readAt (Elt F) (Memref.whole cc0_scratch0).view (LoadRect.whole S16)
      (View.write (Elt F) (Memref.whole cc0_scratch0).view f0
        (ReadAs.same.apply (View.read (Elt F) (Memref.whole main_arg1_scv).view fs)) Finset.univ) = fs :=
  (Memref.readAt_whole (Elt F) cc0_scratch0 _).trans (View.write_whole_univ cc0_scratch0 f0 _)

/-- THE FLAG: lane 0 of the gathered stream numbers against `sw` is 1 exactly when recording `bw`'s stream number is `sw`. -/
theorem flag_eq (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (bw : BitVec 32) (hidx : ∀ x, idx x = bw) (hb : bw.toNat < 16) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = if @Eq (BitVec 32) (fs (Idealize.ShloMosaic.ValueIdx.ix1 (⟨bw.toNat, hb⟩ : Fin 16))) sw then 1#1 else 0#1 := by
  rw [scratch_after_copy d L fs f0]
  have key : extractAt ![0] (extractStridedSlice S1 ![0] (loadIdx (F := F) (s := S16) (e := .i32) fs ![idx] h) hs) hp
      = fs (Idealize.ShloMosaic.ValueIdx.ix1 (⟨bw.toNat, hb⟩ : Fin 16)) := by
    unfold extractAt extractStridedSlice loadIdx
    congr 1
    funext a
    obtain rfl : a = 0 := Subsingleton.elim _ _
    refine Fin.ext ?_
    show (idx _).toNat = bw.toNat
    rw [hidx]
  rw [key]
  exact cmpi_eq_ite _ _

/-- The flag against a word known by its value `n`: 1 when the stream number read is `n` … -/
theorem flag_one (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (bw : BitVec 32) (hidx : ∀ x, idx x = bw) (hb : bw.toNat < 16)
    (n : ℕ) (hn : n < 2 ^ 32) (hsw : sw = BitVec.ofNat 32 n)
    (hv : (fs (Idealize.ShloMosaic.ValueIdx.ix1 (⟨bw.toNat, hb⟩ : Fin 16))).toNat = n) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = 1#1 := by
  rw [flag_eq d L fs f0 idx h hs hp sw bw hidx hb]
  refine if_pos ?_
  apply BitVec.eq_of_toNat_eq
  rw [hv, hsw, BitVec.toNat_ofNat, Nat.mod_eq_of_lt hn]

/-- … and 0 when it is not. -/
theorem flag_zero (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (bw : BitVec 32) (hidx : ∀ x, idx x = bw) (hb : bw.toNat < 16)
    (n : ℕ) (hn : n < 2 ^ 32) (hsw : sw = BitVec.ofNat 32 n)
    (hv : (fs (Idealize.ShloMosaic.ValueIdx.ix1 (⟨bw.toNat, hb⟩ : Fin 16))).toNat ≠ n) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = 0#1 := by
  rw [flag_eq d L fs f0 idx h hs hp sw bw hidx hb]
  refine if_neg fun e => hv ?_
  rw [e, hsw, BitVec.toNat_ofNat, Nat.mod_eq_of_lt hn]

/-! ## The flag as the tile's run meets it

Tile `L` — SparseCore `L 0` of 2, vector subcore `L 1` of 16 — gathers at lanes all equal to its own recording number `L 1` and
tests the stream number it reads against each of its own four streams `4 · (L 0) + j`, `j < 4`. -/

/-- The recording number of tile `L`, as a word, reads back as the recording's index. -/
theorem lane_eq (L : grid0.Coords) (hb : (BitVec.ofNat 32 (L 1).val).toNat < 16) :
    (⟨(BitVec.ofNat 32 (L 1).val).toNat, hb⟩ : Fin 16) = wL L := by
  have h1 : (L 1).val < 16 := (L 1).isLt
  refine Fin.ext ?_
  show (BitVec.ofNat 32 (L 1).val).toNat = (L 1).val
  rw [BitVec.toNat_ofNat]; omega

/-- The flag of tile `L` against its `j`-th stream: 1 exactly when the stream number of the tile's recording is that stream. -/
theorem flag_lit (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (j : ℕ) (hj : j < 4) (hidx : ∀ x, idx x = BitVec.ofNat 32 (L 1).val)
    (hsw : sw = BitVec.ofNat 32 (4 * (L 0).val + j)) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = if (fs (Idealize.ShloMosaic.ValueIdx.ix1 (wL L))).toNat = 4 * (L 0).val + j then 1#1 else 0#1 := by
  have h1 : (L 1).val < 16 := (L 1).isLt
  have h0 : (L 0).val < 2 := (L 0).isLt
  have hb : (BitVec.ofNat 32 (L 1).val).toNat < 16 := by rw [BitVec.toNat_ofNat]; omega
  by_cases hv : (fs (Idealize.ShloMosaic.ValueIdx.ix1 (wL L))).toNat = 4 * (L 0).val + j
  · rw [if_pos hv]
    exact flag_one d L fs f0 idx h hs hp sw _ hidx hb (4 * (L 0).val + j) (by omega) hsw (by rw [lane_eq L hb]; exact hv)
  · rw [if_neg hv]
    exact flag_zero d L fs f0 idx h hs hp sw _ hidx hb (4 * (L 0).val + j) (by omega) hsw (by rw [lane_eq L hb]; exact hv)

/-- … 1 when it is that stream … -/
theorem flag_lit_one (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (j : ℕ) (hj : j < 4) (hidx : ∀ x, idx x = BitVec.ofNat 32 (L 1).val)
    (hsw : sw = BitVec.ofNat 32 (4 * (L 0).val + j))
    (hv : (fs (Idealize.ShloMosaic.ValueIdx.ix1 (wL L))).toNat = 4 * (L 0).val + j) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = 1#1 := by
  rw [flag_lit d L fs f0 idx h hs hp sw j hj hidx hsw]
  exact if_pos hv

/-- … and 0 when it is not. -/
theorem flag_lit_zero (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (j : ℕ) (hj : j < 4) (hidx : ∀ x, idx x = BitVec.ofNat 32 (L 1).val)
    (hsw : sw = BitVec.ofNat 32 (4 * (L 0).val + j))
    (hv : (fs (Idealize.ShloMosaic.ValueIdx.ix1 (wL L))).toNat ≠ 4 * (L 0).val + j) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = 0#1 := by
  rw [flag_lit d L fs f0 idx h hs hp sw j hj hidx hsw]
  exact if_neg hv

end Cert.Proof.KI

end
-- ==== Proof.KIZero.lean ====
/-
  The zero buffer: what the zero-filling loop leaves in a tile's 4096-word scratch.

  The loop runs 16 trips; trip k stores the 16-lane zero vector at words 256·k + 16·u … 256·k + 16·u + 15 for u = 0 … 15.
  A word below 256·k lies under none of these sixteen stores, so the trip leaves it as it was; a word j with
  256·k ≤ j < 256·(k + 1) lies under the store u = (j − 256·k) / 16, and since every store of the trip writes the same
  constant, whichever store wrote it last, it now holds zero. So if the first 256·k words were zero before trip k, the
  first 256·(k + 1) are after it, and after 16 trips all 4096 are.
-/
import proofs.«218968_g36790689857971_cont_8to1_b_1381_24_alg».proof.Proof.KISetup

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Writes of one constant -/

/-- After a list of writes whose payloads are all the constant `z`, an element under some written rectangle reads `z`. -/
theorem read_writes_const {sig : RefSig} {κ : Kind} {sp : Space} {s : Shape} {e : EltTy} {Val : EltTy → Type}
    (v : View sig κ sp s e) (f : v.ty.Contents Val) (z : Val e) (y : s.Idx) :
    ∀ Ls : List (View.Piece Val s e), (∀ p ∈ Ls, ∀ x, p.2 x = z) → (∃ p ∈ Ls, y ∈ p.1.set) →
      v.read Val (v.writes Val f Ls) y = z
  | [], _, h => by obtain ⟨p, hp, _⟩ := h; cases hp
  | p :: Ls, hz, h => by
    by_cases hy : y ∈ p.1.set
    · rw [← Rect.map_emb_univ, Finset.mem_map] at hy
      obtain ⟨x, -, rfl⟩ := hy
      obtain ⟨r, w⟩ := p
      rw [View.read_writes_cons_emb]
      exact hz _ List.mem_cons_self x
    · rw [View.writes_cons, View.read_slice_write_of_not_mem p.1 _ _ _ (by rw [Rect.map_emb_univ]; exact hy)]
      refine read_writes_const v f z y Ls (fun p' hp' => hz p' (List.mem_cons_of_mem _ hp')) ?_
      obtain ⟨q, hq, hyq⟩ := h
      rcases List.mem_cons.1 hq with rfl | hq
      · exact absurd hyq hy
      · exact ⟨q, hq, hyq⟩

/-! ## One trip of the zero-filling loop -/

/-- The loop runs 16 trips. -/
theorem trips_eq : k0_t1_loop.trips = 16 := by decide

/-- The first `n` words of the buffer are zero. -/
def ZeroUpTo (n : ℕ) (f : S4096.Idx → Elt F .f32) : Prop :=
  ∀ j : S4096.Idx, (j 0).val < n → f j = (FloatOps.ofBits .f32 0x00000000#32 : F .f32)

/-- The sixteen stores of a trip, newest first. -/
abbrev lanes : List (Fin 16) := [15, 14, 13, 12, 11, 10, 9, 8, 7, 6, 5, 4, 3, 2, 1, 0]
theorem mem_lanes : ∀ u : Fin 16, u ∈ lanes := by decide

/-- Store `u` of trip `k`: the 16-lane zero vector at words 256·k + 16·u … 256·k + 16·u + 15. -/
def piece (k : Fin k0_t1_loop.trips) (u : Fin 16) : View.Piece (Elt F) S4096 .f32 :=
  ⟨Rect.unit (k0_off3 k (BitVec.ofNat 32 u.val)) S16.size (Gen.k0_off3_inb k u), k0_pay9⟩

/-- Word `j` lies under store `u` of trip `k` exactly when 256·k + 16·u ≤ j < 256·k + 16·u + 16. -/
theorem mem_piece (k : Fin k0_t1_loop.trips) (u : Fin 16) (j : S4096.Idx) :
    j ∈ (piece (F := F) k u).1.set ↔ 256 * k.val + 16 * u.val ≤ (j 0).val ∧ (j 0).val < 256 * k.val + 16 * u.val + 16 := by
  unfold piece
  rw [Rect.mem_set_unit, Gen.k0_off3_eq]
  constructor
  · intro h; exact h 0
  · intro h a; obtain rfl : a = 0 := Subsingleton.elim _ _; exact h

/-- ONE TRIP: from a buffer whose first 256·k words are zero, trip `k`'s sixteen stores leave the first 256·(k + 1) zero. -/
theorem zero_step (d : Dev nD) (L : grid0.Coords) (k : Fin k0_t1_loop.trips)
    (f : Buf (Elt F) ((Memref.whole cc0_scratch1 : Memref sig .scVector .vmem S4096 .f32).view.loc (V d (cV L) (jV L))))
    (hf : ZeroUpTo (256 * k.val) f) :
    ZeroUpTo (256 * (k.val + 1))
      ((Memref.whole cc0_scratch1).view.writes (Elt F) f
        [⟨Rect.unit (k0_off3 k 15#32) S16.size (Gen.k0_off3_inb k 15), k0_pay9⟩,
        ⟨Rect.unit (k0_off3 k 14#32) S16.size (Gen.k0_off3_inb k 14), k0_pay9⟩,
        ⟨Rect.unit (k0_off3 k 13#32) S16.size (Gen.k0_off3_inb k 13), k0_pay9⟩,
        ⟨Rect.unit (k0_off3 k 12#32) S16.size (Gen.k0_off3_inb k 12), k0_pay9⟩,
        ⟨Rect.unit (k0_off3 k 11#32) S16.size (Gen.k0_off3_inb k 11), k0_pay9⟩,
        ⟨Rect.unit (k0_off3 k 10#32) S16.size (Gen.k0_off3_inb k 10), k0_pay9⟩,
        ⟨Rect.unit (k0_off3 k 9#32) S16.size (Gen.k0_off3_inb k 9), k0_pay9⟩,
        ⟨Rect.unit (k0_off3 k 8#32) S16.size (Gen.k0_off3_inb k 8), k0_pay9⟩,
        ⟨Rect.unit (k0_off3 k 7#32) S16.size (Gen.k0_off3_inb k 7), k0_pay9⟩,
        ⟨Rect.unit (k0_off3 k 6#32) S16.size (Gen.k0_off3_inb k 6), k0_pay9⟩,
        ⟨Rect.unit (k0_off3 k 5#32) S16.size (Gen.k0_off3_inb k 5), k0_pay9⟩,
        ⟨Rect.unit (k0_off3 k 4#32) S16.size (Gen.k0_off3_inb k 4), k0_pay9⟩,
        ⟨Rect.unit (k0_off3 k 3#32) S16.size (Gen.k0_off3_inb k 3), k0_pay9⟩,
        ⟨Rect.unit (k0_off3 k 2#32) S16.size (Gen.k0_off3_inb k 2), k0_pay9⟩,
        ⟨Rect.unit (k0_off3 k 1#32) S16.size (Gen.k0_off3_inb k 1), k0_pay9⟩,
        ⟨Rect.unit (k0_off3 k 0#32) S16.size (Gen.k0_off3_inb k 0), k0_pay9⟩]) := by
  intro j hj
  show (Memref.whole cc0_scratch1).view.read (Elt F)
    ((Memref.whole cc0_scratch1).view.writes (Elt F) f (lanes.map (piece k))) j = _
  by_cases hlt : (j 0).val < 256 * k.val
  · rw [View.read_writes_apply_of_forall_not_mem _ _ j _ ?_]
    · exact hf j hlt
    · intro p hp
      obtain ⟨u, -, rfl⟩ := List.mem_map.1 hp
      rw [mem_piece]; omega
  · have hk : k.val < 16 := Nat.lt_of_lt_of_le k.isLt (Nat.le_of_eq trips_eq)
    refine read_writes_const (Val := Elt F) (Memref.whole cc0_scratch1).view f _ j _ ?_ ?_
    · intro p hp x
      obtain ⟨u, -, rfl⟩ := List.mem_map.1 hp
      rfl
    · refine ⟨piece k ⟨((j 0).val - 256 * k.val) / 16, by omega⟩, List.mem_map.2 ⟨_, mem_lanes _, rfl⟩, ?_⟩
      rw [mem_piece]
      show 256 * k.val + 16 * (((j 0).val - 256 * k.val) / 16) ≤ (j 0).val ∧ (j 0).val < 256 * k.val + 16 * (((j 0).val - 256 * k.val) / 16) + 16
      omega

/-- ALL TRIPS: a buffer whose first 256·16 words are zero is zero everywhere. -/
theorem zero_all (f : S4096.Idx → Elt F .f32) (hf : ZeroUpTo (256 * k0_t1_loop.trips) f) :
    ∀ j, f j = (FloatOps.ofBits .f32 0x00000000#32 : F .f32) := by
  intro j
  refine hf j ?_
  rw [trips_eq]
  exact (j 0).isLt

end Cert.Proof.KI

end
-- ==== Proof.KITile.lean ====
import proofs.«218968_g36790689857971_cont_8to1_b_1381_24_alg».proof.Proof.KISetup
import proofs.«218968_g36790689857971_cont_8to1_b_1381_24_alg».proof.Proof.KIChunks
import proofs.«218968_g36790689857971_cont_8to1_b_1381_24_alg».proof.Proof.KIFlag
import proofs.«218968_g36790689857971_cont_8to1_b_1381_24_alg».proof.Proof.KIZero

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.KernelIdeal.main_arg0_scv : Memref Cert.KernelIdeal.sig Kind.scVector Space.hbm Cert.KernelIdeal.S16x8x2x65536 EltTy.f32)
local notation "sW" => (Memref.whole Cert.KernelIdeal.main_arg1_scv : Memref Cert.KernelIdeal.sig Kind.scVector Space.hbm Cert.KernelIdeal.S16 EltTy.i32)
local notation "oW" => (Memref.whole Cert.KernelIdeal.main_v0_scv : Memref Cert.KernelIdeal.sig Kind.scVector Space.hbm Cert.KernelIdeal.S16x8x2x65536 EltTy.f32)
local notation "b0W" => (Memref.whole Cert.KernelIdeal.cc0_scratch0 : Memref Cert.KernelIdeal.sig Kind.scVector Space.vmem Cert.KernelIdeal.S16 EltTy.i32)
local notation "b1W" => (Memref.whole Cert.KernelIdeal.cc0_scratch1 : Memref Cert.KernelIdeal.sig Kind.scVector Space.vmem Cert.KernelIdeal.S4096 EltTy.f32)
local notation "shW" => (Memref.whole Cert.KernelIdeal.cc0_scratch2 : Memref Cert.KernelIdeal.sig Kind.scVector Space.shared Cert.KernelIdeal.S1572864 EltTy.f32)

/-! ## The pieces a tile's copies move, each under one name

Chunk k of tile (c, w) is samples 32768·(k % 2) … of channel (k / 2) % 2 of stream 4c + k / 4 of recording w, of the
recordings (`aCh`) and of the result (`oCh`); window h of chunk k of the result (`oSub`) is its samples 4096·h …;
staging buffer i (`shB`) is words 98304·w + 32768·i … of the shared scratch. Each is defined with its offsets as one
vector of index terms — the form the offset chains' closed forms have — and is the piece the general formula defines. -/

theorem inb_ch {L : grid0.Coords} {a b T : ℕ} (ha : a < 4) (hb : b < 2) (hT : T + 32768 ≤ 65536) :
    ∀ x, (![(L 1).val, 4 * (L 0).val + a, b, T] : Fin 4 → ℕ) x + S1x1x1x32768.size x ≤ S16x8x2x65536.size x := by
  have h0 := (L 0).isLt; have h1 := (L 1).isLt
  have e0 : grid0.bound 0 = 2 := rfl
  have e1 : grid0.bound 1 = 16 := rfl
  intro x; fin_cases x <;> simp <;> omega
theorem inb_sub {L : grid0.Coords} {a b T : ℕ} (ha : a < 4) (hb : b < 2) (hT : T + 4096 ≤ 65536) :
    ∀ x, (![(L 1).val, 4 * (L 0).val + a, b, T] : Fin 4 → ℕ) x + S1x1x1x4096.size x ≤ S16x8x2x65536.size x := by
  have h0 := (L 0).isLt; have h1 := (L 1).isLt
  have e0 : grid0.bound 0 = 2 := rfl
  have e1 : grid0.bound 1 = 16 := rfl
  intro x; fin_cases x <;> simp <;> omega

def oCh0 (L : grid0.Coords) : Memref sig .scVector .hbm S32768 .f32 :=
  ((oW).slice (Rect.unit (s := S16x8x2x65536) ![(L 1).val, 4 * (L 0).val + 0, 0, 0] S1x1x1x32768.size (inb_ch (by decide) (by decide) (by decide))) (fun _ => rfl)).squeeze S32768 squeezes_S1x1x1x32768_S32768
def aCh0 (L : grid0.Coords) : Memref sig .scVector .hbm S32768 .f32 :=
  ((aW).slice (Rect.unit (s := S16x8x2x65536) ![(L 1).val, 4 * (L 0).val + 0, 0, 0] S1x1x1x32768.size (inb_ch (by decide) (by decide) (by decide))) (fun _ => rfl)).squeeze S32768 squeezes_S1x1x1x32768_S32768
def oCh1 (L : grid0.Coords) : Memref sig .scVector .hbm S32768 .f32 :=
  ((oW).slice (Rect.unit (s := S16x8x2x65536) ![(L 1).val, 4 * (L 0).val + 0, 0, 32768] S1x1x1x32768.size (inb_ch (by decide) (by decide) (by decide))) (fun _ => rfl)).squeeze S32768 squeezes_S1x1x1x32768_S32768
def aCh1 (L : grid0.Coords) : Memref sig .scVector .hbm S32768 .f32 :=
  ((aW).slice (Rect.unit (s := S16x8x2x65536) ![(L 1).val, 4 * (L 0).val + 0, 0, 32768] S1x1x1x32768.size (inb_ch (by decide) (by decide) (by decide))) (fun _ => rfl)).squeeze S32768 squeezes_S1x1x1x32768_S32768
def oCh2 (L : grid0.Coords) : Memref sig .scVector .hbm S32768 .f32 :=
  ((oW).slice (Rect.unit (s := S16x8x2x65536) ![(L 1).val, 4 * (L 0).val + 0, 1, 0] S1x1x1x32768.size (inb_ch (by decide) (by decide) (by decide))) (fun _ => rfl)).squeeze S32768 squeezes_S1x1x1x32768_S32768
def aCh2 (L : grid0.Coords) : Memref sig .scVector .hbm S32768 .f32 :=
  ((aW).slice (Rect.unit (s := S16x8x2x65536) ![(L 1).val, 4 * (L 0).val + 0, 1, 0] S1x1x1x32768.size (inb_ch (by decide) (by decide) (by decide))) (fun _ => rfl)).squeeze S32768 squeezes_S1x1x1x32768_S32768
def oCh3 (L : grid0.Coords) : Memref sig .scVector .hbm S32768 .f32 :=
  ((oW).slice (Rect.unit (s := S16x8x2x65536) ![(L 1).val, 4 * (L 0).val + 0, 1, 32768] S1x1x1x32768.size (inb_ch (by decide) (by decide) (by decide))) (fun _ => rfl)).squeeze S32768 squeezes_S1x1x1x32768_S32768
def aCh3 (L : grid0.Coords) : Memref sig .scVector .hbm S32768 .f32 :=
  ((aW).slice (Rect.unit (s := S16x8x2x65536) ![(L 1).val, 4 * (L 0).val + 0, 1, 32768] S1x1x1x32768.size (inb_ch (by decide) (by decide) (by decide))) (fun _ => rfl)).squeeze S32768 squeezes_S1x1x1x32768_S32768
def oCh4 (L : grid0.Coords) : Memref sig .scVector .hbm S32768 .f32 :=
  ((oW).slice (Rect.unit (s := S16x8x2x65536) ![(L 1).val, 4 * (L 0).val + 1, 0, 0] S1x1x1x32768.size (inb_ch (by decide) (by decide) (by decide))) (fun _ => rfl)).squeeze S32768 squeezes_S1x1x1x32768_S32768
def aCh4 (L : grid0.Coords) : Memref sig .scVector .hbm S32768 .f32 :=
  ((aW).slice (Rect.unit (s := S16x8x2x65536) ![(L 1).val, 4 * (L 0).val + 1, 0, 0] S1x1x1x32768.size (inb_ch (by decide) (by decide) (by decide))) (fun _ => rfl)).squeeze S32768 squeezes_S1x1x1x32768_S32768
def oCh5 (L : grid0.Coords) : Memref sig .scVector .hbm S32768 .f32 :=
  ((oW).slice (Rect.unit (s := S16x8x2x65536) ![(L 1).val, 4 * (L 0).val + 1, 0, 32768] S1x1x1x32768.size (inb_ch (by decide) (by decide) (by decide))) (fun _ => rfl)).squeeze S32768 squeezes_S1x1x1x32768_S32768
def aCh5 (L : grid0.Coords) : Memref sig .scVector .hbm S32768 .f32 :=
  ((aW).slice (Rect.unit (s := S16x8x2x65536) ![(L 1).val, 4 * (L 0).val + 1, 0, 32768] S1x1x1x32768.size (inb_ch (by decide) (by decide) (by decide))) (fun _ => rfl)).squeeze S32768 squeezes_S1x1x1x32768_S32768
def oCh6 (L : grid0.Coords) : Memref sig .scVector .hbm S32768 .f32 :=
  ((oW).slice (Rect.unit (s := S16x8x2x65536) ![(L 1).val, 4 * (L 0).val + 1, 1, 0] S1x1x1x32768.size (inb_ch (by decide) (by decide) (by decide))) (fun _ => rfl)).squeeze S32768 squeezes_S1x1x1x32768_S32768
def aCh6 (L : grid0.Coords) : Memref sig .scVector .hbm S32768 .f32 :=
  ((aW).slice (Rect.unit (s := S16x8x2x65536) ![(L 1).val, 4 * (L 0).val + 1, 1, 0] S1x1x1x32768.size (inb_ch (by decide) (by decide) (by decide))) (fun _ => rfl)).squeeze S32768 squeezes_S1x1x1x32768_S32768
def oCh7 (L : grid0.Coords) : Memref sig .scVector .hbm S32768 .f32 :=
  ((oW).slice (Rect.unit (s := S16x8x2x65536) ![(L 1).val, 4 * (L 0).val + 1, 1, 32768] S1x1x1x32768.size (inb_ch (by decide) (by decide) (by decide))) (fun _ => rfl)).squeeze S32768 squeezes_S1x1x1x32768_S32768
def aCh7 (L : grid0.Coords) : Memref sig .scVector .hbm S32768 .f32 :=
  ((aW).slice (Rect.unit (s := S16x8x2x65536) ![(L 1).val, 4 * (L 0).val + 1, 1, 32768] S1x1x1x32768.size (inb_ch (by decide) (by decide) (by decide))) (fun _ => rfl)).squeeze S32768 squeezes_S1x1x1x32768_S32768
def oCh8 (L : grid0.Coords) : Memref sig .scVector .hbm S32768 .f32 :=
  ((oW).slice (Rect.unit (s := S16x8x2x65536) ![(L 1).val, 4 * (L 0).val + 2, 0, 0] S1x1x1x32768.size (inb_ch (by decide) (by decide) (by decide))) (fun _ => rfl)).squeeze S32768 squeezes_S1x1x1x32768_S32768
def aCh8 (L : grid0.Coords) : Memref sig .scVector .hbm S32768 .f32 :=
  ((aW).slice (Rect.unit (s := S16x8x2x65536) ![(L 1).val, 4 * (L 0).val + 2, 0, 0] S1x1x1x32768.size (inb_ch (by decide) (by decide) (by decide))) (fun _ => rfl)).squeeze S32768 squeezes_S1x1x1x32768_S32768
def oCh9 (L : grid0.Coords) : Memref sig .scVector .hbm S32768 .f32 :=
  ((oW).slice (Rect.unit (s := S16x8x2x65536) ![(L 1).val, 4 * (L 0).val + 2, 0, 32768] S1x1x1x32768.size (inb_ch (by decide) (by decide) (by decide))) (fun _ => rfl)).squeeze S32768 squeezes_S1x1x1x32768_S32768
def aCh9 (L : grid0.Coords) : Memref sig .scVector .hbm S32768 .f32 :=
  ((aW).slice (Rect.unit (s := S16x8x2x65536) ![(L 1).val, 4 * (L 0).val + 2, 0, 32768] S1x1x1x32768.size (inb_ch (by decide) (by decide) (by decide))) (fun _ => rfl)).squeeze S32768 squeezes_S1x1x1x32768_S32768
def oCh10 (L : grid0.Coords) : Memref sig .scVector .hbm S32768 .f32 :=
  ((oW).slice (Rect.unit (s := S16x8x2x65536) ![(L 1).val, 4 * (L 0).val + 2, 1, 0] S1x1x1x32768.size (inb_ch (by decide) (by decide) (by decide))) (fun _ => rfl)).squeeze S32768 squeezes_S1x1x1x32768_S32768
def aCh10 (L : grid0.Coords) : Memref sig .scVector .hbm S32768 .f32 :=
  ((aW).slice (Rect.unit (s := S16x8x2x65536) ![(L 1).val, 4 * (L 0).val + 2, 1, 0] S1x1x1x32768.size (inb_ch (by decide) (by decide) (by decide))) (fun _ => rfl)).squeeze S32768 squeezes_S1x1x1x32768_S32768
def oCh11 (L : grid0.Coords) : Memref sig .scVector .hbm S32768 .f32 :=
  ((oW).slice (Rect.unit (s := S16x8x2x65536) ![(L 1).val, 4 * (L 0).val + 2, 1, 32768] S1x1x1x32768.size (inb_ch (by decide) (by decide) (by decide))) (fun _ => rfl)).squeeze S32768 squeezes_S1x1x1x32768_S32768
def aCh11 (L : grid0.Coords) : Memref sig .scVector .hbm S32768 .f32 :=
  ((aW).slice (Rect.unit (s := S16x8x2x65536) ![(L 1).val, 4 * (L 0).val + 2, 1, 32768] S1x1x1x32768.size (inb_ch (by decide) (by decide) (by decide))) (fun _ => rfl)).squeeze S32768 squeezes_S1x1x1x32768_S32768
def oCh12 (L : grid0.Coords) : Memref sig .scVector .hbm S32768 .f32 :=
  ((oW).slice (Rect.unit (s := S16x8x2x65536) ![(L 1).val, 4 * (L 0).val + 3, 0, 0] S1x1x1x32768.size (inb_ch (by decide) (by decide) (by decide))) (fun _ => rfl)).squeeze S32768 squeezes_S1x1x1x32768_S32768
def aCh12 (L : grid0.Coords) : Memref sig .scVector .hbm S32768 .f32 :=
  ((aW).slice (Rect.unit (s := S16x8x2x65536) ![(L 1).val, 4 * (L 0).val + 3, 0, 0] S1x1x1x32768.size (inb_ch (by decide) (by decide) (by decide))) (fun _ => rfl)).squeeze S32768 squeezes_S1x1x1x32768_S32768
def oCh13 (L : grid0.Coords) : Memref sig .scVector .hbm S32768 .f32 :=
  ((oW).slice (Rect.unit (s := S16x8x2x65536) ![(L 1).val, 4 * (L 0).val + 3, 0, 32768] S1x1x1x32768.size (inb_ch (by decide) (by decide) (by decide))) (fun _ => rfl)).squeeze S32768 squeezes_S1x1x1x32768_S32768
def aCh13 (L : grid0.Coords) : Memref sig .scVector .hbm S32768 .f32 :=
  ((aW).slice (Rect.unit (s := S16x8x2x65536) ![(L 1).val, 4 * (L 0).val + 3, 0, 32768] S1x1x1x32768.size (inb_ch (by decide) (by decide) (by decide))) (fun _ => rfl)).squeeze S32768 squeezes_S1x1x1x32768_S32768
def oCh14 (L : grid0.Coords) : Memref sig .scVector .hbm S32768 .f32 :=
  ((oW).slice (Rect.unit (s := S16x8x2x65536) ![(L 1).val, 4 * (L 0).val + 3, 1, 0] S1x1x1x32768.size (inb_ch (by decide) (by decide) (by decide))) (fun _ => rfl)).squeeze S32768 squeezes_S1x1x1x32768_S32768
def aCh14 (L : grid0.Coords) : Memref sig .scVector .hbm S32768 .f32 :=
  ((aW).slice (Rect.unit (s := S16x8x2x65536) ![(L 1).val, 4 * (L 0).val + 3, 1, 0] S1x1x1x32768.size (inb_ch (by decide) (by decide) (by decide))) (fun _ => rfl)).squeeze S32768 squeezes_S1x1x1x32768_S32768
def oCh15 (L : grid0.Coords) : Memref sig .scVector .hbm S32768 .f32 :=
  ((oW).slice (Rect.unit (s := S16x8x2x65536) ![(L 1).val, 4 * (L 0).val + 3, 1, 32768] S1x1x1x32768.size (inb_ch (by decide) (by decide) (by decide))) (fun _ => rfl)).squeeze S32768 squeezes_S1x1x1x32768_S32768
def aCh15 (L : grid0.Coords) : Memref sig .scVector .hbm S32768 .f32 :=
  ((aW).slice (Rect.unit (s := S16x8x2x65536) ![(L 1).val, 4 * (L 0).val + 3, 1, 32768] S1x1x1x32768.size (inb_ch (by decide) (by decide) (by decide))) (fun _ => rfl)).squeeze S32768 squeezes_S1x1x1x32768_S32768
def shB0 (L : grid0.Coords) : Memref sig .scVector .shared S32768 .f32 :=
  (shW).slice (Rect.unit (s := S1572864) ![98304 * (L 1).val] S32768.size (shOff_inb L 0)) (fun _ => rfl)
def shB1 (L : grid0.Coords) : Memref sig .scVector .shared S32768 .f32 :=
  (shW).slice (Rect.unit (s := S1572864) ![98304 * (L 1).val + 32768] S32768.size (shOff_inb L 1)) (fun _ => rfl)
def shB2 (L : grid0.Coords) : Memref sig .scVector .shared S32768 .f32 :=
  (shW).slice (Rect.unit (s := S1572864) ![98304 * (L 1).val + 65536] S32768.size (shOff_inb L 2)) (fun _ => rfl)

/-- Window h of chunk k of the result, under one name. -/
def oSub (L : grid0.Coords) (k : Fin 16) (h : Fin 8) : Memref sig .scVector .hbm S4096 .f32 := oSubG L k h

variable (d : Dev nD) (L : grid0.Coords)

theorem osub_pts (k : Fin 16) (h : Fin 8) (f : Buf (Elt F) (oLoc d)) :
    ((oSub L k h).view.loc (V d (cV L) (jV L)) ↦[(oSub L k h).view.set]{fullShare} f : sProp 𝕄) = oLoc d ↦[subSet L k h]{fullShare} f := oSubG_pts d L k h f

theorem och_pts0 (f : Buf (Elt F) (oLoc d)) :
    ((oCh0 L).view.loc (V d (cV L) (jV L)) ↦[(oCh0 L).view.set]{fullShare} f : sProp 𝕄) = oLoc d ↦[chunkSet L 0]{fullShare} f := oChunk_pts d L 0 f
theorem och_pts1 (f : Buf (Elt F) (oLoc d)) :
    ((oCh1 L).view.loc (V d (cV L) (jV L)) ↦[(oCh1 L).view.set]{fullShare} f : sProp 𝕄) = oLoc d ↦[chunkSet L 1]{fullShare} f := oChunk_pts d L 1 f
theorem och_pts2 (f : Buf (Elt F) (oLoc d)) :
    ((oCh2 L).view.loc (V d (cV L) (jV L)) ↦[(oCh2 L).view.set]{fullShare} f : sProp 𝕄) = oLoc d ↦[chunkSet L 2]{fullShare} f := oChunk_pts d L 2 f
theorem och_pts3 (f : Buf (Elt F) (oLoc d)) :
    ((oCh3 L).view.loc (V d (cV L) (jV L)) ↦[(oCh3 L).view.set]{fullShare} f : sProp 𝕄) = oLoc d ↦[chunkSet L 3]{fullShare} f := oChunk_pts d L 3 f
theorem och_pts4 (f : Buf (Elt F) (oLoc d)) :
    ((oCh4 L).view.loc (V d (cV L) (jV L)) ↦[(oCh4 L).view.set]{fullShare} f : sProp 𝕄) = oLoc d ↦[chunkSet L 4]{fullShare} f := oChunk_pts d L 4 f
theorem och_pts5 (f : Buf (Elt F) (oLoc d)) :
    ((oCh5 L).view.loc (V d (cV L) (jV L)) ↦[(oCh5 L).view.set]{fullShare} f : sProp 𝕄) = oLoc d ↦[chunkSet L 5]{fullShare} f := oChunk_pts d L 5 f
theorem och_pts6 (f : Buf (Elt F) (oLoc d)) :
    ((oCh6 L).view.loc (V d (cV L) (jV L)) ↦[(oCh6 L).view.set]{fullShare} f : sProp 𝕄) = oLoc d ↦[chunkSet L 6]{fullShare} f := oChunk_pts d L 6 f
theorem och_pts7 (f : Buf (Elt F) (oLoc d)) :
    ((oCh7 L).view.loc (V d (cV L) (jV L)) ↦[(oCh7 L).view.set]{fullShare} f : sProp 𝕄) = oLoc d ↦[chunkSet L 7]{fullShare} f := oChunk_pts d L 7 f
theorem och_pts8 (f : Buf (Elt F) (oLoc d)) :
    ((oCh8 L).view.loc (V d (cV L) (jV L)) ↦[(oCh8 L).view.set]{fullShare} f : sProp 𝕄) = oLoc d ↦[chunkSet L 8]{fullShare} f := oChunk_pts d L 8 f
theorem och_pts9 (f : Buf (Elt F) (oLoc d)) :
    ((oCh9 L).view.loc (V d (cV L) (jV L)) ↦[(oCh9 L).view.set]{fullShare} f : sProp 𝕄) = oLoc d ↦[chunkSet L 9]{fullShare} f := oChunk_pts d L 9 f
theorem och_pts10 (f : Buf (Elt F) (oLoc d)) :
    ((oCh10 L).view.loc (V d (cV L) (jV L)) ↦[(oCh10 L).view.set]{fullShare} f : sProp 𝕄) = oLoc d ↦[chunkSet L 10]{fullShare} f := oChunk_pts d L 10 f
theorem och_pts11 (f : Buf (Elt F) (oLoc d)) :
    ((oCh11 L).view.loc (V d (cV L) (jV L)) ↦[(oCh11 L).view.set]{fullShare} f : sProp 𝕄) = oLoc d ↦[chunkSet L 11]{fullShare} f := oChunk_pts d L 11 f
theorem och_pts12 (f : Buf (Elt F) (oLoc d)) :
    ((oCh12 L).view.loc (V d (cV L) (jV L)) ↦[(oCh12 L).view.set]{fullShare} f : sProp 𝕄) = oLoc d ↦[chunkSet L 12]{fullShare} f := oChunk_pts d L 12 f
theorem och_pts13 (f : Buf (Elt F) (oLoc d)) :
    ((oCh13 L).view.loc (V d (cV L) (jV L)) ↦[(oCh13 L).view.set]{fullShare} f : sProp 𝕄) = oLoc d ↦[chunkSet L 13]{fullShare} f := oChunk_pts d L 13 f
theorem och_pts14 (f : Buf (Elt F) (oLoc d)) :
    ((oCh14 L).view.loc (V d (cV L) (jV L)) ↦[(oCh14 L).view.set]{fullShare} f : sProp 𝕄) = oLoc d ↦[chunkSet L 14]{fullShare} f := oChunk_pts d L 14 f
theorem och_pts15 (f : Buf (Elt F) (oLoc d)) :
    ((oCh15 L).view.loc (V d (cV L) (jV L)) ↦[(oCh15 L).view.set]{fullShare} f : sProp 𝕄) = oLoc d ↦[chunkSet L 15]{fullShare} f := oChunk_pts d L 15 f
theorem shb_pts0 (f : Buf (Elt F) (shLoc d (cV L))) :
    ((shB0 L).view.loc (V d (cV L) (jV L)) ↦[(shB0 L).view.set]{fullShare} f : sProp 𝕄) = shLoc d (cV L) ↦[shPiece L 0]{fullShare} f := shBuf_pts d L 0 f
theorem shb_pts1 (f : Buf (Elt F) (shLoc d (cV L))) :
    ((shB1 L).view.loc (V d (cV L) (jV L)) ↦[(shB1 L).view.set]{fullShare} f : sProp 𝕄) = shLoc d (cV L) ↦[shPiece L 1]{fullShare} f := shBuf_pts d L 1 f
theorem shb_pts2 (f : Buf (Elt F) (shLoc d (cV L))) :
    ((shB2 L).view.loc (V d (cV L) (jV L)) ↦[(shB2 L).view.set]{fullShare} f : sProp 𝕄) = shLoc d (cV L) ↦[shPiece L 2]{fullShare} f := shBuf_pts d L 2 f

theorem ach_pts0 (q : PosShare TreeShare) (f : Buf (Elt F) (aLoc d)) :
    ((aCh0 L).view.loc (V d (cV L) (jV L)) ↦[(aCh0 L).view.set]{q} f : sProp 𝕄) = aLoc d ↦[chunkSet L 0]{q} f := by
  rw [show (aCh0 L).view.set = chunkSet L 0 from aChunk_set L 0]; rfl
theorem ach_pts1 (q : PosShare TreeShare) (f : Buf (Elt F) (aLoc d)) :
    ((aCh1 L).view.loc (V d (cV L) (jV L)) ↦[(aCh1 L).view.set]{q} f : sProp 𝕄) = aLoc d ↦[chunkSet L 1]{q} f := by
  rw [show (aCh1 L).view.set = chunkSet L 1 from aChunk_set L 1]; rfl
theorem ach_pts2 (q : PosShare TreeShare) (f : Buf (Elt F) (aLoc d)) :
    ((aCh2 L).view.loc (V d (cV L) (jV L)) ↦[(aCh2 L).view.set]{q} f : sProp 𝕄) = aLoc d ↦[chunkSet L 2]{q} f := by
  rw [show (aCh2 L).view.set = chunkSet L 2 from aChunk_set L 2]; rfl
theorem ach_pts3 (q : PosShare TreeShare) (f : Buf (Elt F) (aLoc d)) :
    ((aCh3 L).view.loc (V d (cV L) (jV L)) ↦[(aCh3 L).view.set]{q} f : sProp 𝕄) = aLoc d ↦[chunkSet L 3]{q} f := by
  rw [show (aCh3 L).view.set = chunkSet L 3 from aChunk_set L 3]; rfl
theorem ach_pts4 (q : PosShare TreeShare) (f : Buf (Elt F) (aLoc d)) :
    ((aCh4 L).view.loc (V d (cV L) (jV L)) ↦[(aCh4 L).view.set]{q} f : sProp 𝕄) = aLoc d ↦[chunkSet L 4]{q} f := by
  rw [show (aCh4 L).view.set = chunkSet L 4 from aChunk_set L 4]; rfl
theorem ach_pts5 (q : PosShare TreeShare) (f : Buf (Elt F) (aLoc d)) :
    ((aCh5 L).view.loc (V d (cV L) (jV L)) ↦[(aCh5 L).view.set]{q} f : sProp 𝕄) = aLoc d ↦[chunkSet L 5]{q} f := by
  rw [show (aCh5 L).view.set = chunkSet L 5 from aChunk_set L 5]; rfl
theorem ach_pts6 (q : PosShare TreeShare) (f : Buf (Elt F) (aLoc d)) :
    ((aCh6 L).view.loc (V d (cV L) (jV L)) ↦[(aCh6 L).view.set]{q} f : sProp 𝕄) = aLoc d ↦[chunkSet L 6]{q} f := by
  rw [show (aCh6 L).view.set = chunkSet L 6 from aChunk_set L 6]; rfl
theorem ach_pts7 (q : PosShare TreeShare) (f : Buf (Elt F) (aLoc d)) :
    ((aCh7 L).view.loc (V d (cV L) (jV L)) ↦[(aCh7 L).view.set]{q} f : sProp 𝕄) = aLoc d ↦[chunkSet L 7]{q} f := by
  rw [show (aCh7 L).view.set = chunkSet L 7 from aChunk_set L 7]; rfl
theorem ach_pts8 (q : PosShare TreeShare) (f : Buf (Elt F) (aLoc d)) :
    ((aCh8 L).view.loc (V d (cV L) (jV L)) ↦[(aCh8 L).view.set]{q} f : sProp 𝕄) = aLoc d ↦[chunkSet L 8]{q} f := by
  rw [show (aCh8 L).view.set = chunkSet L 8 from aChunk_set L 8]; rfl
theorem ach_pts9 (q : PosShare TreeShare) (f : Buf (Elt F) (aLoc d)) :
    ((aCh9 L).view.loc (V d (cV L) (jV L)) ↦[(aCh9 L).view.set]{q} f : sProp 𝕄) = aLoc d ↦[chunkSet L 9]{q} f := by
  rw [show (aCh9 L).view.set = chunkSet L 9 from aChunk_set L 9]; rfl
theorem ach_pts10 (q : PosShare TreeShare) (f : Buf (Elt F) (aLoc d)) :
    ((aCh10 L).view.loc (V d (cV L) (jV L)) ↦[(aCh10 L).view.set]{q} f : sProp 𝕄) = aLoc d ↦[chunkSet L 10]{q} f := by
  rw [show (aCh10 L).view.set = chunkSet L 10 from aChunk_set L 10]; rfl
theorem ach_pts11 (q : PosShare TreeShare) (f : Buf (Elt F) (aLoc d)) :
    ((aCh11 L).view.loc (V d (cV L) (jV L)) ↦[(aCh11 L).view.set]{q} f : sProp 𝕄) = aLoc d ↦[chunkSet L 11]{q} f := by
  rw [show (aCh11 L).view.set = chunkSet L 11 from aChunk_set L 11]; rfl
theorem ach_pts12 (q : PosShare TreeShare) (f : Buf (Elt F) (aLoc d)) :
    ((aCh12 L).view.loc (V d (cV L) (jV L)) ↦[(aCh12 L).view.set]{q} f : sProp 𝕄) = aLoc d ↦[chunkSet L 12]{q} f := by
  rw [show (aCh12 L).view.set = chunkSet L 12 from aChunk_set L 12]; rfl
theorem ach_pts13 (q : PosShare TreeShare) (f : Buf (Elt F) (aLoc d)) :
    ((aCh13 L).view.loc (V d (cV L) (jV L)) ↦[(aCh13 L).view.set]{q} f : sProp 𝕄) = aLoc d ↦[chunkSet L 13]{q} f := by
  rw [show (aCh13 L).view.set = chunkSet L 13 from aChunk_set L 13]; rfl
theorem ach_pts14 (q : PosShare TreeShare) (f : Buf (Elt F) (aLoc d)) :
    ((aCh14 L).view.loc (V d (cV L) (jV L)) ↦[(aCh14 L).view.set]{q} f : sProp 𝕄) = aLoc d ↦[chunkSet L 14]{q} f := by
  rw [show (aCh14 L).view.set = chunkSet L 14 from aChunk_set L 14]; rfl
theorem ach_pts15 (q : PosShare TreeShare) (f : Buf (Elt F) (aLoc d)) :
    ((aCh15 L).view.loc (V d (cV L) (jV L)) ↦[(aCh15 L).view.set]{q} f : sProp 𝕄) = aLoc d ↦[chunkSet L 15]{q} f := by
  rw [show (aCh15 L).view.set = chunkSet L 15 from aChunk_set L 15]; rfl

/-! ## The stream numbers and the tile's own scratch, as its thread names them -/

theorem pts_a (q : PosShare TreeShare) (f : Buf (Elt F) (aLoc d)) : ((aW).view.loc (V d (cV L) (jV L)) ↦{q} f : sProp 𝕄) = aLoc d ↦{q} f := by
  simp only [Memref.view_whole, View.set_whole]
theorem pts_s (q : PosShare TreeShare) (f : Buf (Elt F) (sLoc d)) : ((sW).view.loc (V d (cV L) (jV L)) ↦{q} f : sProp 𝕄) = sLoc d ↦{q} f := by
  simp only [Memref.view_whole, View.set_whole]
theorem pts_b0 (f : Buf (Elt F) ((V d (cV L) (jV L)).loc cc0_scratch0)) : ((b0W).view.loc (V d (cV L) (jV L)) ↦{fullShare} f : sProp 𝕄) = (V d (cV L) (jV L)).loc cc0_scratch0 ↦{fullShare} f := by
  simp only [Memref.view_whole, View.set_whole]
theorem pts_b1 (f : Buf (Elt F) ((V d (cV L) (jV L)).loc cc0_scratch1)) : ((b1W).view.loc (V d (cV L) (jV L)) ↦{fullShare} f : sProp 𝕄) = (V d (cV L) (jV L)).loc cc0_scratch1 ↦{fullShare} f := by
  simp only [Memref.view_whole, View.set_whole]

/-! ## The lane checks: every tile's recording number is below 16 -/

theorem chk1_all {g : grid0.Coords → IVec S16 32} (h : ∀ L' : grid0.Coords, k0_chk1 (g L')) (L : grid0.Coords) : k0_chk1 (g L) := h L
theorem chk2_all {g : grid0.Coords → IVec S16 32} (h : ∀ L' : grid0.Coords, k0_chk2 (g L')) (L : grid0.Coords) : k0_chk2 (g L) := h L
theorem chk3_all {g : grid0.Coords → IVec S16 32} (h : ∀ L' : grid0.Coords, k0_chk3 (g L')) (L : grid0.Coords) : k0_chk3 (g L) := h L
theorem chk4_all {g : grid0.Coords → IVec S16 32} (h : ∀ L' : grid0.Coords, k0_chk4 (g L')) (L : grid0.Coords) : k0_chk4 (g L) := h L
theorem chk5_all {g : grid0.Coords → IVec S16 32} (h : ∀ L' : grid0.Coords, k0_chk5 (g L')) (L : grid0.Coords) : k0_chk5 (g L) := h L
theorem chk6_all {g : grid0.Coords → IVec S16 32} (h : ∀ L' : grid0.Coords, k0_chk6 (g L')) (L : grid0.Coords) : k0_chk6 (g L) := h L
theorem chk7_all {g : grid0.Coords → IVec S16 32} (h : ∀ L' : grid0.Coords, k0_chk7 (g L')) (L : grid0.Coords) : k0_chk7 (g L) := h L
theorem chk8_all {g : grid0.Coords → IVec S16 32} (h : ∀ L' : grid0.Coords, k0_chk8 (g L')) (L : grid0.Coords) : k0_chk8 (g L) := h L

end Cert.Proof.KI

end
-- ==== Proof.KICanon.lean ====
/-
  One name per piece. The body spells each chunk of the recordings and of the result, each 4096-sample window of a chunk of the
  result, and each staging buffer, many times, each time through another chain of word arithmetic over the tile's coordinates;
  by the chains' closed forms every spelling is the piece defined once with its offsets as a vector of index terms.
-/
import proofs.«218968_g36790689857971_cont_8to1_b_1381_24_alg».proof.Proof.KITile

noncomputable section

namespace Cert.Proof.KI

open Idealize.ShloMosaic Idealize.ShloMosaic.Tactic Cert.KernelIdeal Cert.KernelIdeal.Gen Cert.Proof.KI.Off

@[sl_canon] theorem canon_a_k0_off2 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off2 L) S1x1x1x32768.size hh) hs).squeeze S32768 squeezes_S1x1x1x32768_S32768 = aCh0 L :=
  congrArg (fun m => Memref.squeeze m S32768 squeezes_S1x1x1x32768_S32768) (Memref.slice_unit_congr _ (k0_off2_eq L) _ _ _ (fun _ => rfl))
@[sl_canon] theorem canon_a_k0_off5 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off5 L) S1x1x1x32768.size hh) hs).squeeze S32768 squeezes_S1x1x1x32768_S32768 = aCh1 L :=
  congrArg (fun m => Memref.squeeze m S32768 squeezes_S1x1x1x32768_S32768) (Memref.slice_unit_congr _ (k0_off5_eq L) _ _ _ (fun _ => rfl))
@[sl_canon] theorem canon_a_k0_off15 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off15 L) S1x1x1x32768.size hh) hs).squeeze S32768 squeezes_S1x1x1x32768_S32768 = aCh0 L :=
  congrArg (fun m => Memref.squeeze m S32768 squeezes_S1x1x1x32768_S32768) (Memref.slice_unit_congr _ (k0_off15_eq L) _ _ _ (fun _ => rfl))
@[sl_canon] theorem canon_a_k0_off17 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off17 L) S1x1x1x32768.size hh) hs).squeeze S32768 squeezes_S1x1x1x32768_S32768 = aCh2 L :=
  congrArg (fun m => Memref.squeeze m S32768 squeezes_S1x1x1x32768_S32768) (Memref.slice_unit_congr _ (k0_off17_eq L) _ _ _ (fun _ => rfl))
@[sl_canon] theorem canon_a_k0_off27 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off27 L) S1x1x1x32768.size hh) hs).squeeze S32768 squeezes_S1x1x1x32768_S32768 = aCh1 L :=
  congrArg (fun m => Memref.squeeze m S32768 squeezes_S1x1x1x32768_S32768) (Memref.slice_unit_congr _ (k0_off27_eq L) _ _ _ (fun _ => rfl))
@[sl_canon] theorem canon_a_k0_off31 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off31 L) S1x1x1x32768.size hh) hs).squeeze S32768 squeezes_S1x1x1x32768_S32768 = aCh3 L :=
  congrArg (fun m => Memref.squeeze m S32768 squeezes_S1x1x1x32768_S32768) (Memref.slice_unit_congr _ (k0_off31_eq L) _ _ _ (fun _ => rfl))
@[sl_canon] theorem canon_a_k0_off41 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off41 L) S1x1x1x32768.size hh) hs).squeeze S32768 squeezes_S1x1x1x32768_S32768 = aCh2 L :=
  congrArg (fun m => Memref.squeeze m S32768 squeezes_S1x1x1x32768_S32768) (Memref.slice_unit_congr _ (k0_off41_eq L) _ _ _ (fun _ => rfl))
@[sl_canon] theorem canon_a_k0_off45 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off45 L) S1x1x1x32768.size hh) hs).squeeze S32768 squeezes_S1x1x1x32768_S32768 = aCh4 L :=
  congrArg (fun m => Memref.squeeze m S32768 squeezes_S1x1x1x32768_S32768) (Memref.slice_unit_congr _ (k0_off45_eq L) _ _ _ (fun _ => rfl))
@[sl_canon] theorem canon_a_k0_off55 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off55 L) S1x1x1x32768.size hh) hs).squeeze S32768 squeezes_S1x1x1x32768_S32768 = aCh3 L :=
  congrArg (fun m => Memref.squeeze m S32768 squeezes_S1x1x1x32768_S32768) (Memref.slice_unit_congr _ (k0_off55_eq L) _ _ _ (fun _ => rfl))
@[sl_canon] theorem canon_a_k0_off59 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off59 L) S1x1x1x32768.size hh) hs).squeeze S32768 squeezes_S1x1x1x32768_S32768 = aCh5 L :=
  congrArg (fun m => Memref.squeeze m S32768 squeezes_S1x1x1x32768_S32768) (Memref.slice_unit_congr _ (k0_off59_eq L) _ _ _ (fun _ => rfl))
@[sl_canon] theorem canon_a_k0_off69 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off69 L) S1x1x1x32768.size hh) hs).squeeze S32768 squeezes_S1x1x1x32768_S32768 = aCh4 L :=
  congrArg (fun m => Memref.squeeze m S32768 squeezes_S1x1x1x32768_S32768) (Memref.slice_unit_congr _ (k0_off69_eq L) _ _ _ (fun _ => rfl))
@[sl_canon] theorem canon_a_k0_off73 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off73 L) S1x1x1x32768.size hh) hs).squeeze S32768 squeezes_S1x1x1x32768_S32768 = aCh6 L :=
  congrArg (fun m => Memref.squeeze m S32768 squeezes_S1x1x1x32768_S32768) (Memref.slice_unit_congr _ (k0_off73_eq L) _ _ _ (fun _ => rfl))
@[sl_canon] theorem canon_a_k0_off83 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off83 L) S1x1x1x32768.size hh) hs).squeeze S32768 squeezes_S1x1x1x32768_S32768 = aCh5 L :=
  congrArg (fun m => Memref.squeeze m S32768 squeezes_S1x1x1x32768_S32768) (Memref.slice_unit_congr _ (k0_off83_eq L) _ _ _ (fun _ => rfl))
@[sl_canon] theorem canon_a_k0_off87 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off87 L) S1x1x1x32768.size hh) hs).squeeze S32768 squeezes_S1x1x1x32768_S32768 = aCh7 L :=
  congrArg (fun m => Memref.squeeze m S32768 squeezes_S1x1x1x32768_S32768) (Memref.slice_unit_congr _ (k0_off87_eq L) _ _ _ (fun _ => rfl))
@[sl_canon] theorem canon_a_k0_off97 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off97 L) S1x1x1x32768.size hh) hs).squeeze S32768 squeezes_S1x1x1x32768_S32768 = aCh6 L :=
  congrArg (fun m => Memref.squeeze m S32768 squeezes_S1x1x1x32768_S32768) (Memref.slice_unit_congr _ (k0_off97_eq L) _ _ _ (fun _ => rfl))
@[sl_canon] theorem canon_a_k0_off101 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off101 L) S1x1x1x32768.size hh) hs).squeeze S32768 squeezes_S1x1x1x32768_S32768 = aCh8 L :=
  congrArg (fun m => Memref.squeeze m S32768 squeezes_S1x1x1x32768_S32768) (Memref.slice_unit_congr _ (k0_off101_eq L) _ _ _ (fun _ => rfl))
@[sl_canon] theorem canon_a_k0_off111 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off111 L) S1x1x1x32768.size hh) hs).squeeze S32768 squeezes_S1x1x1x32768_S32768 = aCh7 L :=
  congrArg (fun m => Memref.squeeze m S32768 squeezes_S1x1x1x32768_S32768) (Memref.slice_unit_congr _ (k0_off111_eq L) _ _ _ (fun _ => rfl))
@[sl_canon] theorem canon_a_k0_off115 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off115 L) S1x1x1x32768.size hh) hs).squeeze S32768 squeezes_S1x1x1x32768_S32768 = aCh9 L :=
  congrArg (fun m => Memref.squeeze m S32768 squeezes_S1x1x1x32768_S32768) (Memref.slice_unit_congr _ (k0_off115_eq L) _ _ _ (fun _ => rfl))
@[sl_canon] theorem canon_a_k0_off125 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off125 L) S1x1x1x32768.size hh) hs).squeeze S32768 squeezes_S1x1x1x32768_S32768 = aCh8 L :=
  congrArg (fun m => Memref.squeeze m S32768 squeezes_S1x1x1x32768_S32768) (Memref.slice_unit_congr _ (k0_off125_eq L) _ _ _ (fun _ => rfl))
@[sl_canon] theorem canon_a_k0_off129 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off129 L) S1x1x1x32768.size hh) hs).squeeze S32768 squeezes_S1x1x1x32768_S32768 = aCh10 L :=
  congrArg (fun m => Memref.squeeze m S32768 squeezes_S1x1x1x32768_S32768) (Memref.slice_unit_congr _ (k0_off129_eq L) _ _ _ (fun _ => rfl))
@[sl_canon] theorem canon_a_k0_off139 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off139 L) S1x1x1x32768.size hh) hs).squeeze S32768 squeezes_S1x1x1x32768_S32768 = aCh9 L :=
  congrArg (fun m => Memref.squeeze m S32768 squeezes_S1x1x1x32768_S32768) (Memref.slice_unit_congr _ (k0_off139_eq L) _ _ _ (fun _ => rfl))
@[sl_canon] theorem canon_a_k0_off143 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off143 L) S1x1x1x32768.size hh) hs).squeeze S32768 squeezes_S1x1x1x32768_S32768 = aCh11 L :=
  congrArg (fun m => Memref.squeeze m S32768 squeezes_S1x1x1x32768_S32768) (Memref.slice_unit_congr _ (k0_off143_eq L) _ _ _ (fun _ => rfl))
@[sl_canon] theorem canon_a_k0_off153 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off153 L) S1x1x1x32768.size hh) hs).squeeze S32768 squeezes_S1x1x1x32768_S32768 = aCh10 L :=
  congrArg (fun m => Memref.squeeze m S32768 squeezes_S1x1x1x32768_S32768) (Memref.slice_unit_congr _ (k0_off153_eq L) _ _ _ (fun _ => rfl))
@[sl_canon] theorem canon_a_k0_off157 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off157 L) S1x1x1x32768.size hh) hs).squeeze S32768 squeezes_S1x1x1x32768_S32768 = aCh12 L :=
  congrArg (fun m => Memref.squeeze m S32768 squeezes_S1x1x1x32768_S32768) (Memref.slice_unit_congr _ (k0_off157_eq L) _ _ _ (fun _ => rfl))
@[sl_canon] theorem canon_a_k0_off167 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off167 L) S1x1x1x32768.size hh) hs).squeeze S32768 squeezes_S1x1x1x32768_S32768 = aCh11 L :=
  congrArg (fun m => Memref.squeeze m S32768 squeezes_S1x1x1x32768_S32768) (Memref.slice_unit_congr _ (k0_off167_eq L) _ _ _ (fun _ => rfl))
@[sl_canon] theorem canon_a_k0_off171 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off171 L) S1x1x1x32768.size hh) hs).squeeze S32768 squeezes_S1x1x1x32768_S32768 = aCh13 L :=
  congrArg (fun m => Memref.squeeze m S32768 squeezes_S1x1x1x32768_S32768) (Memref.slice_unit_congr _ (k0_off171_eq L) _ _ _ (fun _ => rfl))
@[sl_canon] theorem canon_a_k0_off181 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off181 L) S1x1x1x32768.size hh) hs).squeeze S32768 squeezes_S1x1x1x32768_S32768 = aCh12 L :=
  congrArg (fun m => Memref.squeeze m S32768 squeezes_S1x1x1x32768_S32768) (Memref.slice_unit_congr _ (k0_off181_eq L) _ _ _ (fun _ => rfl))
@[sl_canon] theorem canon_a_k0_off185 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off185 L) S1x1x1x32768.size hh) hs).squeeze S32768 squeezes_S1x1x1x32768_S32768 = aCh14 L :=
  congrArg (fun m => Memref.squeeze m S32768 squeezes_S1x1x1x32768_S32768) (Memref.slice_unit_congr _ (k0_off185_eq L) _ _ _ (fun _ => rfl))
@[sl_canon] theorem canon_a_k0_off195 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off195 L) S1x1x1x32768.size hh) hs).squeeze S32768 squeezes_S1x1x1x32768_S32768 = aCh13 L :=
  congrArg (fun m => Memref.squeeze m S32768 squeezes_S1x1x1x32768_S32768) (Memref.slice_unit_congr _ (k0_off195_eq L) _ _ _ (fun _ => rfl))
@[sl_canon] theorem canon_a_k0_off199 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off199 L) S1x1x1x32768.size hh) hs).squeeze S32768 squeezes_S1x1x1x32768_S32768 = aCh15 L :=
  congrArg (fun m => Memref.squeeze m S32768 squeezes_S1x1x1x32768_S32768) (Memref.slice_unit_congr _ (k0_off199_eq L) _ _ _ (fun _ => rfl))
@[sl_canon] theorem canon_a_k0_off209 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off209 L) S1x1x1x32768.size hh) hs).squeeze S32768 squeezes_S1x1x1x32768_S32768 = aCh14 L :=
  congrArg (fun m => Memref.squeeze m S32768 squeezes_S1x1x1x32768_S32768) (Memref.slice_unit_congr _ (k0_off209_eq L) _ _ _ (fun _ => rfl))
@[sl_canon] theorem canon_a_k0_off219 (L : grid0.Coords) (hh) (hs) : ((Memref.whole Cert.KernelIdeal.main_arg0_scv : Memref Cert.KernelIdeal.sig Kind.scVector Space.hbm Cert.KernelIdeal.S16x8x2x65536 EltTy.f32).slice (Rect.unit (s := S16x8x2x65536) (k0_off219 L) S1x1x1x32768.size hh) hs).squeeze S32768 squeezes_S1x1x1x32768_S32768 = aCh15 L :=
  congrArg (fun m => Memref.squeeze m S32768 squeezes_S1x1x1x32768_S32768) (Memref.slice_unit_congr _ (k0_off219_eq L) _ _ _ (fun _ => rfl))
@[sl_canon] theorem canon_os_k0_off6 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off6 L) S1x1x1x4096.size hh) hs).squeeze S4096 squeezes_S1x1x1x4096_S4096 = oSub L 0 0 :=
  congrArg (fun m => Memref.squeeze m S4096 squeezes_S1x1x1x4096_S4096) (Memref.slice_unit_congr _ ((k0_off6_eq L).trans (show _ = subOff L 0 0 from rfl)) _ _ _ (fun _ => rfl))
@[sl_canon] theorem canon_os_k0_off7 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off7 L) S1x1x1x4096.size hh) hs).squeeze S4096 squeezes_S1x1x1x4096_S4096 = oSub L 0 1 :=
  congrArg (fun m => Memref.squeeze m S4096 squeezes_S1x1x1x4096_S4096) (Memref.slice_unit_congr _ ((k0_off7_eq L).trans (show _ = subOff L 0 1 from rfl)) _ _ _ (fun _ => rfl))
@[sl_canon] theorem canon_os_k0_off8 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off8 L) S1x1x1x4096.size hh) hs).squeeze S4096 squeezes_S1x1x1x4096_S4096 = oSub L 0 2 :=
  congrArg (fun m => Memref.squeeze m S4096 squeezes_S1x1x1x4096_S4096) (Memref.slice_unit_congr _ ((k0_off8_eq L).trans (show _ = subOff L 0 2 from rfl)) _ _ _ (fun _ => rfl))
@[sl_canon] theorem canon_os_k0_off9 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off9 L) S1x1x1x4096.size hh) hs).squeeze S4096 squeezes_S1x1x1x4096_S4096 = oSub L 0 3 :=
  congrArg (fun m => Memref.squeeze m S4096 squeezes_S1x1x1x4096_S4096) (Memref.slice_unit_congr _ ((k0_off9_eq L).trans (show _ = subOff L 0 3 from rfl)) _ _ _ (fun _ => rfl))
@[sl_canon] theorem canon_os_k0_off10 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off10 L) S1x1x1x4096.size hh) hs).squeeze S4096 squeezes_S1x1x1x4096_S4096 = oSub L 0 4 :=
  congrArg (fun m => Memref.squeeze m S4096 squeezes_S1x1x1x4096_S4096) (Memref.slice_unit_congr _ ((k0_off10_eq L).trans (show _ = subOff L 0 4 from rfl)) _ _ _ (fun _ => rfl))
@[sl_canon] theorem canon_os_k0_off11 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off11 L) S1x1x1x4096.size hh) hs).squeeze S4096 squeezes_S1x1x1x4096_S4096 = oSub L 0 5 :=
  congrArg (fun m => Memref.squeeze m S4096 squeezes_S1x1x1x4096_S4096) (Memref.slice_unit_congr _ ((k0_off11_eq L).trans (show _ = subOff L 0 5 from rfl)) _ _ _ (fun _ => rfl))
@[sl_canon] theorem canon_os_k0_off12 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off12 L) S1x1x1x4096.size hh) hs).squeeze S4096 squeezes_S1x1x1x4096_S4096 = oSub L 0 6 :=
  congrArg (fun m => Memref.squeeze m S4096 squeezes_S1x1x1x4096_S4096) (Memref.slice_unit_congr _ ((k0_off12_eq L).trans (show _ = subOff L 0 6 from rfl)) _ _ _ (fun _ => rfl))
@[sl_canon] theorem canon_os_k0_off13 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off13 L) S1x1x1x4096.size hh) hs).squeeze S4096 squeezes_S1x1x1x4096_S4096 = oSub L 0 7 :=
  congrArg (fun m => Memref.squeeze m S4096 squeezes_S1x1x1x4096_S4096) (Memref.slice_unit_congr _ ((k0_off13_eq L).trans (show _ = subOff L 0 7 from rfl)) _ _ _ (fun _ => rfl))
@[sl_canon] theorem canon_o_k0_off15 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off15 L) S1x1x1x32768.size hh) hs).squeeze S32768 squeezes_S1x1x1x32768_S32768 = oCh0 L :=
  congrArg (fun m => Memref.squeeze m S32768 squeezes_S1x1x1x32768_S32768) (Memref.slice_unit_congr _ (k0_off15_eq L) _ _ _ (fun _ => rfl))
@[sl_canon] theorem canon_os_k0_off18 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off18 L) S1x1x1x4096.size hh) hs).squeeze S4096 squeezes_S1x1x1x4096_S4096 = oSub L 1 0 :=
  congrArg (fun m => Memref.squeeze m S4096 squeezes_S1x1x1x4096_S4096) (Memref.slice_unit_congr _ ((k0_off18_eq L).trans (show _ = subOff L 1 0 from rfl)) _ _ _ (fun _ => rfl))
@[sl_canon] theorem canon_os_k0_off19 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off19 L) S1x1x1x4096.size hh) hs).squeeze S4096 squeezes_S1x1x1x4096_S4096 = oSub L 1 1 :=
  congrArg (fun m => Memref.squeeze m S4096 squeezes_S1x1x1x4096_S4096) (Memref.slice_unit_congr _ ((k0_off19_eq L).trans (show _ = subOff L 1 1 from rfl)) _ _ _ (fun _ => rfl))
@[sl_canon] theorem canon_os_k0_off20 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off20 L) S1x1x1x4096.size hh) hs).squeeze S4096 squeezes_S1x1x1x4096_S4096 = oSub L 1 2 :=
  congrArg (fun m => Memref.squeeze m S4096 squeezes_S1x1x1x4096_S4096) (Memref.slice_unit_congr _ ((k0_off20_eq L).trans (show _ = subOff L 1 2 from rfl)) _ _ _ (fun _ => rfl))
@[sl_canon] theorem canon_os_k0_off21 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off21 L) S1x1x1x4096.size hh) hs).squeeze S4096 squeezes_S1x1x1x4096_S4096 = oSub L 1 3 :=
  congrArg (fun m => Memref.squeeze m S4096 squeezes_S1x1x1x4096_S4096) (Memref.slice_unit_congr _ ((k0_off21_eq L).trans (show _ = subOff L 1 3 from rfl)) _ _ _ (fun _ => rfl))
@[sl_canon] theorem canon_os_k0_off22 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off22 L) S1x1x1x4096.size hh) hs).squeeze S4096 squeezes_S1x1x1x4096_S4096 = oSub L 1 4 :=
  congrArg (fun m => Memref.squeeze m S4096 squeezes_S1x1x1x4096_S4096) (Memref.slice_unit_congr _ ((k0_off22_eq L).trans (show _ = subOff L 1 4 from rfl)) _ _ _ (fun _ => rfl))
@[sl_canon] theorem canon_os_k0_off23 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off23 L) S1x1x1x4096.size hh) hs).squeeze S4096 squeezes_S1x1x1x4096_S4096 = oSub L 1 5 :=
  congrArg (fun m => Memref.squeeze m S4096 squeezes_S1x1x1x4096_S4096) (Memref.slice_unit_congr _ ((k0_off23_eq L).trans (show _ = subOff L 1 5 from rfl)) _ _ _ (fun _ => rfl))
@[sl_canon] theorem canon_os_k0_off24 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off24 L) S1x1x1x4096.size hh) hs).squeeze S4096 squeezes_S1x1x1x4096_S4096 = oSub L 1 6 :=
  congrArg (fun m => Memref.squeeze m S4096 squeezes_S1x1x1x4096_S4096) (Memref.slice_unit_congr _ ((k0_off24_eq L).trans (show _ = subOff L 1 6 from rfl)) _ _ _ (fun _ => rfl))
@[sl_canon] theorem canon_os_k0_off25 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off25 L) S1x1x1x4096.size hh) hs).squeeze S4096 squeezes_S1x1x1x4096_S4096 = oSub L 1 7 :=
  congrArg (fun m => Memref.squeeze m S4096 squeezes_S1x1x1x4096_S4096) (Memref.slice_unit_congr _ ((k0_off25_eq L).trans (show _ = subOff L 1 7 from rfl)) _ _ _ (fun _ => rfl))
@[sl_canon] theorem canon_o_k0_off27 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off27 L) S1x1x1x32768.size hh) hs).squeeze S32768 squeezes_S1x1x1x32768_S32768 = oCh1 L :=
  congrArg (fun m => Memref.squeeze m S32768 squeezes_S1x1x1x32768_S32768) (Memref.slice_unit_congr _ (k0_off27_eq L) _ _ _ (fun _ => rfl))
@[sl_canon] theorem canon_o_k0_off28 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off28 L) S1x1x1x32768.size hh) hs).squeeze S32768 squeezes_S1x1x1x32768_S32768 = oCh0 L :=
  congrArg (fun m => Memref.squeeze m S32768 squeezes_S1x1x1x32768_S32768) (Memref.slice_unit_congr _ (k0_off28_eq L) _ _ _ (fun _ => rfl))
@[sl_canon] theorem canon_os_k0_off32 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off32 L) S1x1x1x4096.size hh) hs).squeeze S4096 squeezes_S1x1x1x4096_S4096 = oSub L 2 0 :=
  congrArg (fun m => Memref.squeeze m S4096 squeezes_S1x1x1x4096_S4096) (Memref.slice_unit_congr _ ((k0_off32_eq L).trans (show _ = subOff L 2 0 from rfl)) _ _ _ (fun _ => rfl))
@[sl_canon] theorem canon_os_k0_off33 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off33 L) S1x1x1x4096.size hh) hs).squeeze S4096 squeezes_S1x1x1x4096_S4096 = oSub L 2 1 :=
  congrArg (fun m => Memref.squeeze m S4096 squeezes_S1x1x1x4096_S4096) (Memref.slice_unit_congr _ ((k0_off33_eq L).trans (show _ = subOff L 2 1 from rfl)) _ _ _ (fun _ => rfl))
@[sl_canon] theorem canon_os_k0_off34 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off34 L) S1x1x1x4096.size hh) hs).squeeze S4096 squeezes_S1x1x1x4096_S4096 = oSub L 2 2 :=
  congrArg (fun m => Memref.squeeze m S4096 squeezes_S1x1x1x4096_S4096) (Memref.slice_unit_congr _ ((k0_off34_eq L).trans (show _ = subOff L 2 2 from rfl)) _ _ _ (fun _ => rfl))
@[sl_canon] theorem canon_os_k0_off35 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off35 L) S1x1x1x4096.size hh) hs).squeeze S4096 squeezes_S1x1x1x4096_S4096 = oSub L 2 3 :=
  congrArg (fun m => Memref.squeeze m S4096 squeezes_S1x1x1x4096_S4096) (Memref.slice_unit_congr _ ((k0_off35_eq L).trans (show _ = subOff L 2 3 from rfl)) _ _ _ (fun _ => rfl))
@[sl_canon] theorem canon_os_k0_off36 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off36 L) S1x1x1x4096.size hh) hs).squeeze S4096 squeezes_S1x1x1x4096_S4096 = oSub L 2 4 :=
  congrArg (fun m => Memref.squeeze m S4096 squeezes_S1x1x1x4096_S4096) (Memref.slice_unit_congr _ ((k0_off36_eq L).trans (show _ = subOff L 2 4 from rfl)) _ _ _ (fun _ => rfl))
@[sl_canon] theorem canon_os_k0_off37 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off37 L) S1x1x1x4096.size hh) hs).squeeze S4096 squeezes_S1x1x1x4096_S4096 = oSub L 2 5 :=
  congrArg (fun m => Memref.squeeze m S4096 squeezes_S1x1x1x4096_S4096) (Memref.slice_unit_congr _ ((k0_off37_eq L).trans (show _ = subOff L 2 5 from rfl)) _ _ _ (fun _ => rfl))
@[sl_canon] theorem canon_os_k0_off38 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off38 L) S1x1x1x4096.size hh) hs).squeeze S4096 squeezes_S1x1x1x4096_S4096 = oSub L 2 6 :=
  congrArg (fun m => Memref.squeeze m S4096 squeezes_S1x1x1x4096_S4096) (Memref.slice_unit_congr _ ((k0_off38_eq L).trans (show _ = subOff L 2 6 from rfl)) _ _ _ (fun _ => rfl))
@[sl_canon] theorem canon_os_k0_off39 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off39 L) S1x1x1x4096.size hh) hs).squeeze S4096 squeezes_S1x1x1x4096_S4096 = oSub L 2 7 :=
  congrArg (fun m => Memref.squeeze m S4096 squeezes_S1x1x1x4096_S4096) (Memref.slice_unit_congr _ ((k0_off39_eq L).trans (show _ = subOff L 2 7 from rfl)) _ _ _ (fun _ => rfl))
@[sl_canon] theorem canon_o_k0_off41 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off41 L) S1x1x1x32768.size hh) hs).squeeze S32768 squeezes_S1x1x1x32768_S32768 = oCh2 L :=
  congrArg (fun m => Memref.squeeze m S32768 squeezes_S1x1x1x32768_S32768) (Memref.slice_unit_congr _ (k0_off41_eq L) _ _ _ (fun _ => rfl))
@[sl_canon] theorem canon_o_k0_off42 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off42 L) S1x1x1x32768.size hh) hs).squeeze S32768 squeezes_S1x1x1x32768_S32768 = oCh1 L :=
  congrArg (fun m => Memref.squeeze m S32768 squeezes_S1x1x1x32768_S32768) (Memref.slice_unit_congr _ (k0_off42_eq L) _ _ _ (fun _ => rfl))
@[sl_canon] theorem canon_os_k0_off46 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off46 L) S1x1x1x4096.size hh) hs).squeeze S4096 squeezes_S1x1x1x4096_S4096 = oSub L 3 0 :=
  congrArg (fun m => Memref.squeeze m S4096 squeezes_S1x1x1x4096_S4096) (Memref.slice_unit_congr _ ((k0_off46_eq L).trans (show _ = subOff L 3 0 from rfl)) _ _ _ (fun _ => rfl))
@[sl_canon] theorem canon_os_k0_off47 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off47 L) S1x1x1x4096.size hh) hs).squeeze S4096 squeezes_S1x1x1x4096_S4096 = oSub L 3 1 :=
  congrArg (fun m => Memref.squeeze m S4096 squeezes_S1x1x1x4096_S4096) (Memref.slice_unit_congr _ ((k0_off47_eq L).trans (show _ = subOff L 3 1 from rfl)) _ _ _ (fun _ => rfl))
@[sl_canon] theorem canon_os_k0_off48 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off48 L) S1x1x1x4096.size hh) hs).squeeze S4096 squeezes_S1x1x1x4096_S4096 = oSub L 3 2 :=
  congrArg (fun m => Memref.squeeze m S4096 squeezes_S1x1x1x4096_S4096) (Memref.slice_unit_congr _ ((k0_off48_eq L).trans (show _ = subOff L 3 2 from rfl)) _ _ _ (fun _ => rfl))
@[sl_canon] theorem canon_os_k0_off49 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off49 L) S1x1x1x4096.size hh) hs).squeeze S4096 squeezes_S1x1x1x4096_S4096 = oSub L 3 3 :=
  congrArg (fun m => Memref.squeeze m S4096 squeezes_S1x1x1x4096_S4096) (Memref.slice_unit_congr _ ((k0_off49_eq L).trans (show _ = subOff L 3 3 from rfl)) _ _ _ (fun _ => rfl))
@[sl_canon] theorem canon_os_k0_off50 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off50 L) S1x1x1x4096.size hh) hs).squeeze S4096 squeezes_S1x1x1x4096_S4096 = oSub L 3 4 :=
  congrArg (fun m => Memref.squeeze m S4096 squeezes_S1x1x1x4096_S4096) (Memref.slice_unit_congr _ ((k0_off50_eq L).trans (show _ = subOff L 3 4 from rfl)) _ _ _ (fun _ => rfl))
@[sl_canon] theorem canon_os_k0_off51 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off51 L) S1x1x1x4096.size hh) hs).squeeze S4096 squeezes_S1x1x1x4096_S4096 = oSub L 3 5 :=
  congrArg (fun m => Memref.squeeze m S4096 squeezes_S1x1x1x4096_S4096) (Memref.slice_unit_congr _ ((k0_off51_eq L).trans (show _ = subOff L 3 5 from rfl)) _ _ _ (fun _ => rfl))
@[sl_canon] theorem canon_os_k0_off52 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off52 L) S1x1x1x4096.size hh) hs).squeeze S4096 squeezes_S1x1x1x4096_S4096 = oSub L 3 6 :=
  congrArg (fun m => Memref.squeeze m S4096 squeezes_S1x1x1x4096_S4096) (Memref.slice_unit_congr _ ((k0_off52_eq L).trans (show _ = subOff L 3 6 from rfl)) _ _ _ (fun _ => rfl))
@[sl_canon] theorem canon_os_k0_off53 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off53 L) S1x1x1x4096.size hh) hs).squeeze S4096 squeezes_S1x1x1x4096_S4096 = oSub L 3 7 :=
  congrArg (fun m => Memref.squeeze m S4096 squeezes_S1x1x1x4096_S4096) (Memref.slice_unit_congr _ ((k0_off53_eq L).trans (show _ = subOff L 3 7 from rfl)) _ _ _ (fun _ => rfl))
@[sl_canon] theorem canon_o_k0_off55 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off55 L) S1x1x1x32768.size hh) hs).squeeze S32768 squeezes_S1x1x1x32768_S32768 = oCh3 L :=
  congrArg (fun m => Memref.squeeze m S32768 squeezes_S1x1x1x32768_S32768) (Memref.slice_unit_congr _ (k0_off55_eq L) _ _ _ (fun _ => rfl))
@[sl_canon] theorem canon_o_k0_off56 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off56 L) S1x1x1x32768.size hh) hs).squeeze S32768 squeezes_S1x1x1x32768_S32768 = oCh2 L :=
  congrArg (fun m => Memref.squeeze m S32768 squeezes_S1x1x1x32768_S32768) (Memref.slice_unit_congr _ (k0_off56_eq L) _ _ _ (fun _ => rfl))
@[sl_canon] theorem canon_os_k0_off60 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off60 L) S1x1x1x4096.size hh) hs).squeeze S4096 squeezes_S1x1x1x4096_S4096 = oSub L 4 0 :=
  congrArg (fun m => Memref.squeeze m S4096 squeezes_S1x1x1x4096_S4096) (Memref.slice_unit_congr _ ((k0_off60_eq L).trans (show _ = subOff L 4 0 from rfl)) _ _ _ (fun _ => rfl))
@[sl_canon] theorem canon_os_k0_off61 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off61 L) S1x1x1x4096.size hh) hs).squeeze S4096 squeezes_S1x1x1x4096_S4096 = oSub L 4 1 :=
  congrArg (fun m => Memref.squeeze m S4096 squeezes_S1x1x1x4096_S4096) (Memref.slice_unit_congr _ ((k0_off61_eq L).trans (show _ = subOff L 4 1 from rfl)) _ _ _ (fun _ => rfl))
@[sl_canon] theorem canon_os_k0_off62 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off62 L) S1x1x1x4096.size hh) hs).squeeze S4096 squeezes_S1x1x1x4096_S4096 = oSub L 4 2 :=
  congrArg (fun m => Memref.squeeze m S4096 squeezes_S1x1x1x4096_S4096) (Memref.slice_unit_congr _ ((k0_off62_eq L).trans (show _ = subOff L 4 2 from rfl)) _ _ _ (fun _ => rfl))
@[sl_canon] theorem canon_os_k0_off63 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off63 L) S1x1x1x4096.size hh) hs).squeeze S4096 squeezes_S1x1x1x4096_S4096 = oSub L 4 3 :=
  congrArg (fun m => Memref.squeeze m S4096 squeezes_S1x1x1x4096_S4096) (Memref.slice_unit_congr _ ((k0_off63_eq L).trans (show _ = subOff L 4 3 from rfl)) _ _ _ (fun _ => rfl))
@[sl_canon] theorem canon_os_k0_off64 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off64 L) S1x1x1x4096.size hh) hs).squeeze S4096 squeezes_S1x1x1x4096_S4096 = oSub L 4 4 :=
  congrArg (fun m => Memref.squeeze m S4096 squeezes_S1x1x1x4096_S4096) (Memref.slice_unit_congr _ ((k0_off64_eq L).trans (show _ = subOff L 4 4 from rfl)) _ _ _ (fun _ => rfl))
@[sl_canon] theorem canon_os_k0_off65 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off65 L) S1x1x1x4096.size hh) hs).squeeze S4096 squeezes_S1x1x1x4096_S4096 = oSub L 4 5 :=
  congrArg (fun m => Memref.squeeze m S4096 squeezes_S1x1x1x4096_S4096) (Memref.slice_unit_congr _ ((k0_off65_eq L).trans (show _ = subOff L 4 5 from rfl)) _ _ _ (fun _ => rfl))
@[sl_canon] theorem canon_os_k0_off66 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off66 L) S1x1x1x4096.size hh) hs).squeeze S4096 squeezes_S1x1x1x4096_S4096 = oSub L 4 6 :=
  congrArg (fun m => Memref.squeeze m S4096 squeezes_S1x1x1x4096_S4096) (Memref.slice_unit_congr _ ((k0_off66_eq L).trans (show _ = subOff L 4 6 from rfl)) _ _ _ (fun _ => rfl))
@[sl_canon] theorem canon_os_k0_off67 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off67 L) S1x1x1x4096.size hh) hs).squeeze S4096 squeezes_S1x1x1x4096_S4096 = oSub L 4 7 :=
  congrArg (fun m => Memref.squeeze m S4096 squeezes_S1x1x1x4096_S4096) (Memref.slice_unit_congr _ ((k0_off67_eq L).trans (show _ = subOff L 4 7 from rfl)) _ _ _ (fun _ => rfl))
@[sl_canon] theorem canon_o_k0_off69 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off69 L) S1x1x1x32768.size hh) hs).squeeze S32768 squeezes_S1x1x1x32768_S32768 = oCh4 L :=
  congrArg (fun m => Memref.squeeze m S32768 squeezes_S1x1x1x32768_S32768) (Memref.slice_unit_congr _ (k0_off69_eq L) _ _ _ (fun _ => rfl))
@[sl_canon] theorem canon_o_k0_off70 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off70 L) S1x1x1x32768.size hh) hs).squeeze S32768 squeezes_S1x1x1x32768_S32768 = oCh3 L :=
  congrArg (fun m => Memref.squeeze m S32768 squeezes_S1x1x1x32768_S32768) (Memref.slice_unit_congr _ (k0_off70_eq L) _ _ _ (fun _ => rfl))
@[sl_canon] theorem canon_os_k0_off74 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off74 L) S1x1x1x4096.size hh) hs).squeeze S4096 squeezes_S1x1x1x4096_S4096 = oSub L 5 0 :=
  congrArg (fun m => Memref.squeeze m S4096 squeezes_S1x1x1x4096_S4096) (Memref.slice_unit_congr _ ((k0_off74_eq L).trans (show _ = subOff L 5 0 from rfl)) _ _ _ (fun _ => rfl))
@[sl_canon] theorem canon_os_k0_off75 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off75 L) S1x1x1x4096.size hh) hs).squeeze S4096 squeezes_S1x1x1x4096_S4096 = oSub L 5 1 :=
  congrArg (fun m => Memref.squeeze m S4096 squeezes_S1x1x1x4096_S4096) (Memref.slice_unit_congr _ ((k0_off75_eq L).trans (show _ = subOff L 5 1 from rfl)) _ _ _ (fun _ => rfl))
@[sl_canon] theorem canon_os_k0_off76 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off76 L) S1x1x1x4096.size hh) hs).squeeze S4096 squeezes_S1x1x1x4096_S4096 = oSub L 5 2 :=
  congrArg (fun m => Memref.squeeze m S4096 squeezes_S1x1x1x4096_S4096) (Memref.slice_unit_congr _ ((k0_off76_eq L).trans (show _ = subOff L 5 2 from rfl)) _ _ _ (fun _ => rfl))
@[sl_canon] theorem canon_os_k0_off77 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off77 L) S1x1x1x4096.size hh) hs).squeeze S4096 squeezes_S1x1x1x4096_S4096 = oSub L 5 3 :=
  congrArg (fun m => Memref.squeeze m S4096 squeezes_S1x1x1x4096_S4096) (Memref.slice_unit_congr _ ((k0_off77_eq L).trans (show _ = subOff L 5 3 from rfl)) _ _ _ (fun _ => rfl))
@[sl_canon] theorem canon_os_k0_off78 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off78 L) S1x1x1x4096.size hh) hs).squeeze S4096 squeezes_S1x1x1x4096_S4096 = oSub L 5 4 :=
  congrArg (fun m => Memref.squeeze m S4096 squeezes_S1x1x1x4096_S4096) (Memref.slice_unit_congr _ ((k0_off78_eq L).trans (show _ = subOff L 5 4 from rfl)) _ _ _ (fun _ => rfl))
@[sl_canon] theorem canon_os_k0_off79 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off79 L) S1x1x1x4096.size hh) hs).squeeze S4096 squeezes_S1x1x1x4096_S4096 = oSub L 5 5 :=
  congrArg (fun m => Memref.squeeze m S4096 squeezes_S1x1x1x4096_S4096) (Memref.slice_unit_congr _ ((k0_off79_eq L).trans (show _ = subOff L 5 5 from rfl)) _ _ _ (fun _ => rfl))
@[sl_canon] theorem canon_os_k0_off80 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off80 L) S1x1x1x4096.size hh) hs).squeeze S4096 squeezes_S1x1x1x4096_S4096 = oSub L 5 6 :=
  congrArg (fun m => Memref.squeeze m S4096 squeezes_S1x1x1x4096_S4096) (Memref.slice_unit_congr _ ((k0_off80_eq L).trans (show _ = subOff L 5 6 from rfl)) _ _ _ (fun _ => rfl))
@[sl_canon] theorem canon_os_k0_off81 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off81 L) S1x1x1x4096.size hh) hs).squeeze S4096 squeezes_S1x1x1x4096_S4096 = oSub L 5 7 :=
  congrArg (fun m => Memref.squeeze m S4096 squeezes_S1x1x1x4096_S4096) (Memref.slice_unit_congr _ ((k0_off81_eq L).trans (show _ = subOff L 5 7 from rfl)) _ _ _ (fun _ => rfl))
@[sl_canon] theorem canon_o_k0_off83 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off83 L) S1x1x1x32768.size hh) hs).squeeze S32768 squeezes_S1x1x1x32768_S32768 = oCh5 L :=
  congrArg (fun m => Memref.squeeze m S32768 squeezes_S1x1x1x32768_S32768) (Memref.slice_unit_congr _ (k0_off83_eq L) _ _ _ (fun _ => rfl))
@[sl_canon] theorem canon_o_k0_off84 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off84 L) S1x1x1x32768.size hh) hs).squeeze S32768 squeezes_S1x1x1x32768_S32768 = oCh4 L :=
  congrArg (fun m => Memref.squeeze m S32768 squeezes_S1x1x1x32768_S32768) (Memref.slice_unit_congr _ (k0_off84_eq L) _ _ _ (fun _ => rfl))
@[sl_canon] theorem canon_os_k0_off88 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off88 L) S1x1x1x4096.size hh) hs).squeeze S4096 squeezes_S1x1x1x4096_S4096 = oSub L 6 0 :=
  congrArg (fun m => Memref.squeeze m S4096 squeezes_S1x1x1x4096_S4096) (Memref.slice_unit_congr _ ((k0_off88_eq L).trans (show _ = subOff L 6 0 from rfl)) _ _ _ (fun _ => rfl))
@[sl_canon] theorem canon_os_k0_off89 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off89 L) S1x1x1x4096.size hh) hs).squeeze S4096 squeezes_S1x1x1x4096_S4096 = oSub L 6 1 :=
  congrArg (fun m => Memref.squeeze m S4096 squeezes_S1x1x1x4096_S4096) (Memref.slice_unit_congr _ ((k0_off89_eq L).trans (show _ = subOff L 6 1 from rfl)) _ _ _ (fun _ => rfl))
@[sl_canon] theorem canon_os_k0_off90 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off90 L) S1x1x1x4096.size hh) hs).squeeze S4096 squeezes_S1x1x1x4096_S4096 = oSub L 6 2 :=
  congrArg (fun m => Memref.squeeze m S4096 squeezes_S1x1x1x4096_S4096) (Memref.slice_unit_congr _ ((k0_off90_eq L).trans (show _ = subOff L 6 2 from rfl)) _ _ _ (fun _ => rfl))
@[sl_canon] theorem canon_os_k0_off91 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off91 L) S1x1x1x4096.size hh) hs).squeeze S4096 squeezes_S1x1x1x4096_S4096 = oSub L 6 3 :=
  congrArg (fun m => Memref.squeeze m S4096 squeezes_S1x1x1x4096_S4096) (Memref.slice_unit_congr _ ((k0_off91_eq L).trans (show _ = subOff L 6 3 from rfl)) _ _ _ (fun _ => rfl))
@[sl_canon] theorem canon_os_k0_off92 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off92 L) S1x1x1x4096.size hh) hs).squeeze S4096 squeezes_S1x1x1x4096_S4096 = oSub L 6 4 :=
  congrArg (fun m => Memref.squeeze m S4096 squeezes_S1x1x1x4096_S4096) (Memref.slice_unit_congr _ ((k0_off92_eq L).trans (show _ = subOff L 6 4 from rfl)) _ _ _ (fun _ => rfl))
@[sl_canon] theorem canon_os_k0_off93 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off93 L) S1x1x1x4096.size hh) hs).squeeze S4096 squeezes_S1x1x1x4096_S4096 = oSub L 6 5 :=
  congrArg (fun m => Memref.squeeze m S4096 squeezes_S1x1x1x4096_S4096) (Memref.slice_unit_congr _ ((k0_off93_eq L).trans (show _ = subOff L 6 5 from rfl)) _ _ _ (fun _ => rfl))
@[sl_canon] theorem canon_os_k0_off94 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off94 L) S1x1x1x4096.size hh) hs).squeeze S4096 squeezes_S1x1x1x4096_S4096 = oSub L 6 6 :=
  congrArg (fun m => Memref.squeeze m S4096 squeezes_S1x1x1x4096_S4096) (Memref.slice_unit_congr _ ((k0_off94_eq L).trans (show _ = subOff L 6 6 from rfl)) _ _ _ (fun _ => rfl))
@[sl_canon] theorem canon_os_k0_off95 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off95 L) S1x1x1x4096.size hh) hs).squeeze S4096 squeezes_S1x1x1x4096_S4096 = oSub L 6 7 :=
  congrArg (fun m => Memref.squeeze m S4096 squeezes_S1x1x1x4096_S4096) (Memref.slice_unit_congr _ ((k0_off95_eq L).trans (show _ = subOff L 6 7 from rfl)) _ _ _ (fun _ => rfl))
@[sl_canon] theorem canon_o_k0_off97 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off97 L) S1x1x1x32768.size hh) hs).squeeze S32768 squeezes_S1x1x1x32768_S32768 = oCh6 L :=
  congrArg (fun m => Memref.squeeze m S32768 squeezes_S1x1x1x32768_S32768) (Memref.slice_unit_congr _ (k0_off97_eq L) _ _ _ (fun _ => rfl))
@[sl_canon] theorem canon_o_k0_off98 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off98 L) S1x1x1x32768.size hh) hs).squeeze S32768 squeezes_S1x1x1x32768_S32768 = oCh5 L :=
  congrArg (fun m => Memref.squeeze m S32768 squeezes_S1x1x1x32768_S32768) (Memref.slice_unit_congr _ (k0_off98_eq L) _ _ _ (fun _ => rfl))
@[sl_canon] theorem canon_os_k0_off102 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off102 L) S1x1x1x4096.size hh) hs).squeeze S4096 squeezes_S1x1x1x4096_S4096 = oSub L 7 0 :=
  congrArg (fun m => Memref.squeeze m S4096 squeezes_S1x1x1x4096_S4096) (Memref.slice_unit_congr _ ((k0_off102_eq L).trans (show _ = subOff L 7 0 from rfl)) _ _ _ (fun _ => rfl))
@[sl_canon] theorem canon_os_k0_off103 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off103 L) S1x1x1x4096.size hh) hs).squeeze S4096 squeezes_S1x1x1x4096_S4096 = oSub L 7 1 :=
  congrArg (fun m => Memref.squeeze m S4096 squeezes_S1x1x1x4096_S4096) (Memref.slice_unit_congr _ ((k0_off103_eq L).trans (show _ = subOff L 7 1 from rfl)) _ _ _ (fun _ => rfl))
@[sl_canon] theorem canon_os_k0_off104 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off104 L) S1x1x1x4096.size hh) hs).squeeze S4096 squeezes_S1x1x1x4096_S4096 = oSub L 7 2 :=
  congrArg (fun m => Memref.squeeze m S4096 squeezes_S1x1x1x4096_S4096) (Memref.slice_unit_congr _ ((k0_off104_eq L).trans (show _ = subOff L 7 2 from rfl)) _ _ _ (fun _ => rfl))
@[sl_canon] theorem canon_os_k0_off105 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off105 L) S1x1x1x4096.size hh) hs).squeeze S4096 squeezes_S1x1x1x4096_S4096 = oSub L 7 3 :=
  congrArg (fun m => Memref.squeeze m S4096 squeezes_S1x1x1x4096_S4096) (Memref.slice_unit_congr _ ((k0_off105_eq L).trans (show _ = subOff L 7 3 from rfl)) _ _ _ (fun _ => rfl))
@[sl_canon] theorem canon_os_k0_off106 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off106 L) S1x1x1x4096.size hh) hs).squeeze S4096 squeezes_S1x1x1x4096_S4096 = oSub L 7 4 :=
  congrArg (fun m => Memref.squeeze m S4096 squeezes_S1x1x1x4096_S4096) (Memref.slice_unit_congr _ ((k0_off106_eq L).trans (show _ = subOff L 7 4 from rfl)) _ _ _ (fun _ => rfl))
@[sl_canon] theorem canon_os_k0_off107 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off107 L) S1x1x1x4096.size hh) hs).squeeze S4096 squeezes_S1x1x1x4096_S4096 = oSub L 7 5 :=
  congrArg (fun m => Memref.squeeze m S4096 squeezes_S1x1x1x4096_S4096) (Memref.slice_unit_congr _ ((k0_off107_eq L).trans (show _ = subOff L 7 5 from rfl)) _ _ _ (fun _ => rfl))
@[sl_canon] theorem canon_os_k0_off108 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off108 L) S1x1x1x4096.size hh) hs).squeeze S4096 squeezes_S1x1x1x4096_S4096 = oSub L 7 6 :=
  congrArg (fun m => Memref.squeeze m S4096 squeezes_S1x1x1x4096_S4096) (Memref.slice_unit_congr _ ((k0_off108_eq L).trans (show _ = subOff L 7 6 from rfl)) _ _ _ (fun _ => rfl))
@[sl_canon] theorem canon_os_k0_off109 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off109 L) S1x1x1x4096.size hh) hs).squeeze S4096 squeezes_S1x1x1x4096_S4096 = oSub L 7 7 :=
  congrArg (fun m => Memref.squeeze m S4096 squeezes_S1x1x1x4096_S4096) (Memref.slice_unit_congr _ ((k0_off109_eq L).trans (show _ = subOff L 7 7 from rfl)) _ _ _ (fun _ => rfl))
@[sl_canon] theorem canon_o_k0_off111 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off111 L) S1x1x1x32768.size hh) hs).squeeze S32768 squeezes_S1x1x1x32768_S32768 = oCh7 L :=
  congrArg (fun m => Memref.squeeze m S32768 squeezes_S1x1x1x32768_S32768) (Memref.slice_unit_congr _ (k0_off111_eq L) _ _ _ (fun _ => rfl))
@[sl_canon] theorem canon_o_k0_off112 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off112 L) S1x1x1x32768.size hh) hs).squeeze S32768 squeezes_S1x1x1x32768_S32768 = oCh6 L :=
  congrArg (fun m => Memref.squeeze m S32768 squeezes_S1x1x1x32768_S32768) (Memref.slice_unit_congr _ (k0_off112_eq L) _ _ _ (fun _ => rfl))
@[sl_canon] theorem canon_os_k0_off116 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off116 L) S1x1x1x4096.size hh) hs).squeeze S4096 squeezes_S1x1x1x4096_S4096 = oSub L 8 0 :=
  congrArg (fun m => Memref.squeeze m S4096 squeezes_S1x1x1x4096_S4096) (Memref.slice_unit_congr _ ((k0_off116_eq L).trans (show _ = subOff L 8 0 from rfl)) _ _ _ (fun _ => rfl))
@[sl_canon] theorem canon_os_k0_off117 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off117 L) S1x1x1x4096.size hh) hs).squeeze S4096 squeezes_S1x1x1x4096_S4096 = oSub L 8 1 :=
  congrArg (fun m => Memref.squeeze m S4096 squeezes_S1x1x1x4096_S4096) (Memref.slice_unit_congr _ ((k0_off117_eq L).trans (show _ = subOff L 8 1 from rfl)) _ _ _ (fun _ => rfl))
@[sl_canon] theorem canon_os_k0_off118 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off118 L) S1x1x1x4096.size hh) hs).squeeze S4096 squeezes_S1x1x1x4096_S4096 = oSub L 8 2 :=
  congrArg (fun m => Memref.squeeze m S4096 squeezes_S1x1x1x4096_S4096) (Memref.slice_unit_congr _ ((k0_off118_eq L).trans (show _ = subOff L 8 2 from rfl)) _ _ _ (fun _ => rfl))
@[sl_canon] theorem canon_os_k0_off119 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off119 L) S1x1x1x4096.size hh) hs).squeeze S4096 squeezes_S1x1x1x4096_S4096 = oSub L 8 3 :=
  congrArg (fun m => Memref.squeeze m S4096 squeezes_S1x1x1x4096_S4096) (Memref.slice_unit_congr _ ((k0_off119_eq L).trans (show _ = subOff L 8 3 from rfl)) _ _ _ (fun _ => rfl))
@[sl_canon] theorem canon_os_k0_off120 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off120 L) S1x1x1x4096.size hh) hs).squeeze S4096 squeezes_S1x1x1x4096_S4096 = oSub L 8 4 :=
  congrArg (fun m => Memref.squeeze m S4096 squeezes_S1x1x1x4096_S4096) (Memref.slice_unit_congr _ ((k0_off120_eq L).trans (show _ = subOff L 8 4 from rfl)) _ _ _ (fun _ => rfl))
@[sl_canon] theorem canon_os_k0_off121 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off121 L) S1x1x1x4096.size hh) hs).squeeze S4096 squeezes_S1x1x1x4096_S4096 = oSub L 8 5 :=
  congrArg (fun m => Memref.squeeze m S4096 squeezes_S1x1x1x4096_S4096) (Memref.slice_unit_congr _ ((k0_off121_eq L).trans (show _ = subOff L 8 5 from rfl)) _ _ _ (fun _ => rfl))
@[sl_canon] theorem canon_os_k0_off122 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off122 L) S1x1x1x4096.size hh) hs).squeeze S4096 squeezes_S1x1x1x4096_S4096 = oSub L 8 6 :=
  congrArg (fun m => Memref.squeeze m S4096 squeezes_S1x1x1x4096_S4096) (Memref.slice_unit_congr _ ((k0_off122_eq L).trans (show _ = subOff L 8 6 from rfl)) _ _ _ (fun _ => rfl))
@[sl_canon] theorem canon_os_k0_off123 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off123 L) S1x1x1x4096.size hh) hs).squeeze S4096 squeezes_S1x1x1x4096_S4096 = oSub L 8 7 :=
  congrArg (fun m => Memref.squeeze m S4096 squeezes_S1x1x1x4096_S4096) (Memref.slice_unit_congr _ ((k0_off123_eq L).trans (show _ = subOff L 8 7 from rfl)) _ _ _ (fun _ => rfl))
@[sl_canon] theorem canon_o_k0_off125 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off125 L) S1x1x1x32768.size hh) hs).squeeze S32768 squeezes_S1x1x1x32768_S32768 = oCh8 L :=
  congrArg (fun m => Memref.squeeze m S32768 squeezes_S1x1x1x32768_S32768) (Memref.slice_unit_congr _ (k0_off125_eq L) _ _ _ (fun _ => rfl))
@[sl_canon] theorem canon_o_k0_off126 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off126 L) S1x1x1x32768.size hh) hs).squeeze S32768 squeezes_S1x1x1x32768_S32768 = oCh7 L :=
  congrArg (fun m => Memref.squeeze m S32768 squeezes_S1x1x1x32768_S32768) (Memref.slice_unit_congr _ (k0_off126_eq L) _ _ _ (fun _ => rfl))
@[sl_canon] theorem canon_os_k0_off130 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off130 L) S1x1x1x4096.size hh) hs).squeeze S4096 squeezes_S1x1x1x4096_S4096 = oSub L 9 0 :=
  congrArg (fun m => Memref.squeeze m S4096 squeezes_S1x1x1x4096_S4096) (Memref.slice_unit_congr _ ((k0_off130_eq L).trans (show _ = subOff L 9 0 from rfl)) _ _ _ (fun _ => rfl))
@[sl_canon] theorem canon_os_k0_off131 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off131 L) S1x1x1x4096.size hh) hs).squeeze S4096 squeezes_S1x1x1x4096_S4096 = oSub L 9 1 :=
  congrArg (fun m => Memref.squeeze m S4096 squeezes_S1x1x1x4096_S4096) (Memref.slice_unit_congr _ ((k0_off131_eq L).trans (show _ = subOff L 9 1 from rfl)) _ _ _ (fun _ => rfl))
@[sl_canon] theorem canon_os_k0_off132 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off132 L) S1x1x1x4096.size hh) hs).squeeze S4096 squeezes_S1x1x1x4096_S4096 = oSub L 9 2 :=
  congrArg (fun m => Memref.squeeze m S4096 squeezes_S1x1x1x4096_S4096) (Memref.slice_unit_congr _ ((k0_off132_eq L).trans (show _ = subOff L 9 2 from rfl)) _ _ _ (fun _ => rfl))
@[sl_canon] theorem canon_os_k0_off133 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off133 L) S1x1x1x4096.size hh) hs).squeeze S4096 squeezes_S1x1x1x4096_S4096 = oSub L 9 3 :=
  congrArg (fun m => Memref.squeeze m S4096 squeezes_S1x1x1x4096_S4096) (Memref.slice_unit_congr _ ((k0_off133_eq L).trans (show _ = subOff L 9 3 from rfl)) _ _ _ (fun _ => rfl))
@[sl_canon] theorem canon_os_k0_off134 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off134 L) S1x1x1x4096.size hh) hs).squeeze S4096 squeezes_S1x1x1x4096_S4096 = oSub L 9 4 :=
  congrArg (fun m => Memref.squeeze m S4096 squeezes_S1x1x1x4096_S4096) (Memref.slice_unit_congr _ ((k0_off134_eq L).trans (show _ = subOff L 9 4 from rfl)) _ _ _ (fun _ => rfl))
@[sl_canon] theorem canon_os_k0_off135 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off135 L) S1x1x1x4096.size hh) hs).squeeze S4096 squeezes_S1x1x1x4096_S4096 = oSub L 9 5 :=
  congrArg (fun m => Memref.squeeze m S4096 squeezes_S1x1x1x4096_S4096) (Memref.slice_unit_congr _ ((k0_off135_eq L).trans (show _ = subOff L 9 5 from rfl)) _ _ _ (fun _ => rfl))
@[sl_canon] theorem canon_os_k0_off136 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off136 L) S1x1x1x4096.size hh) hs).squeeze S4096 squeezes_S1x1x1x4096_S4096 = oSub L 9 6 :=
  congrArg (fun m => Memref.squeeze m S4096 squeezes_S1x1x1x4096_S4096) (Memref.slice_unit_congr _ ((k0_off136_eq L).trans (show _ = subOff L 9 6 from rfl)) _ _ _ (fun _ => rfl))
@[sl_canon] theorem canon_os_k0_off137 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off137 L) S1x1x1x4096.size hh) hs).squeeze S4096 squeezes_S1x1x1x4096_S4096 = oSub L 9 7 :=
  congrArg (fun m => Memref.squeeze m S4096 squeezes_S1x1x1x4096_S4096) (Memref.slice_unit_congr _ ((k0_off137_eq L).trans (show _ = subOff L 9 7 from rfl)) _ _ _ (fun _ => rfl))
@[sl_canon] theorem canon_o_k0_off139 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off139 L) S1x1x1x32768.size hh) hs).squeeze S32768 squeezes_S1x1x1x32768_S32768 = oCh9 L :=
  congrArg (fun m => Memref.squeeze m S32768 squeezes_S1x1x1x32768_S32768) (Memref.slice_unit_congr _ (k0_off139_eq L) _ _ _ (fun _ => rfl))
@[sl_canon] theorem canon_o_k0_off140 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off140 L) S1x1x1x32768.size hh) hs).squeeze S32768 squeezes_S1x1x1x32768_S32768 = oCh8 L :=
  congrArg (fun m => Memref.squeeze m S32768 squeezes_S1x1x1x32768_S32768) (Memref.slice_unit_congr _ (k0_off140_eq L) _ _ _ (fun _ => rfl))
@[sl_canon] theorem canon_os_k0_off144 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off144 L) S1x1x1x4096.size hh) hs).squeeze S4096 squeezes_S1x1x1x4096_S4096 = oSub L 10 0 :=
  congrArg (fun m => Memref.squeeze m S4096 squeezes_S1x1x1x4096_S4096) (Memref.slice_unit_congr _ ((k0_off144_eq L).trans (show _ = subOff L 10 0 from rfl)) _ _ _ (fun _ => rfl))
@[sl_canon] theorem canon_os_k0_off145 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off145 L) S1x1x1x4096.size hh) hs).squeeze S4096 squeezes_S1x1x1x4096_S4096 = oSub L 10 1 :=
  congrArg (fun m => Memref.squeeze m S4096 squeezes_S1x1x1x4096_S4096) (Memref.slice_unit_congr _ ((k0_off145_eq L).trans (show _ = subOff L 10 1 from rfl)) _ _ _ (fun _ => rfl))
@[sl_canon] theorem canon_os_k0_off146 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off146 L) S1x1x1x4096.size hh) hs).squeeze S4096 squeezes_S1x1x1x4096_S4096 = oSub L 10 2 :=
  congrArg (fun m => Memref.squeeze m S4096 squeezes_S1x1x1x4096_S4096) (Memref.slice_unit_congr _ ((k0_off146_eq L).trans (show _ = subOff L 10 2 from rfl)) _ _ _ (fun _ => rfl))
@[sl_canon] theorem canon_os_k0_off147 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off147 L) S1x1x1x4096.size hh) hs).squeeze S4096 squeezes_S1x1x1x4096_S4096 = oSub L 10 3 :=
  congrArg (fun m => Memref.squeeze m S4096 squeezes_S1x1x1x4096_S4096) (Memref.slice_unit_congr _ ((k0_off147_eq L).trans (show _ = subOff L 10 3 from rfl)) _ _ _ (fun _ => rfl))
@[sl_canon] theorem canon_os_k0_off148 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off148 L) S1x1x1x4096.size hh) hs).squeeze S4096 squeezes_S1x1x1x4096_S4096 = oSub L 10 4 :=
  congrArg (fun m => Memref.squeeze m S4096 squeezes_S1x1x1x4096_S4096) (Memref.slice_unit_congr _ ((k0_off148_eq L).trans (show _ = subOff L 10 4 from rfl)) _ _ _ (fun _ => rfl))
@[sl_canon] theorem canon_os_k0_off149 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off149 L) S1x1x1x4096.size hh) hs).squeeze S4096 squeezes_S1x1x1x4096_S4096 = oSub L 10 5 :=
  congrArg (fun m => Memref.squeeze m S4096 squeezes_S1x1x1x4096_S4096) (Memref.slice_unit_congr _ ((k0_off149_eq L).trans (show _ = subOff L 10 5 from rfl)) _ _ _ (fun _ => rfl))
@[sl_canon] theorem canon_os_k0_off150 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off150 L) S1x1x1x4096.size hh) hs).squeeze S4096 squeezes_S1x1x1x4096_S4096 = oSub L 10 6 :=
  congrArg (fun m => Memref.squeeze m S4096 squeezes_S1x1x1x4096_S4096) (Memref.slice_unit_congr _ ((k0_off150_eq L).trans (show _ = subOff L 10 6 from rfl)) _ _ _ (fun _ => rfl))
@[sl_canon] theorem canon_os_k0_off151 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off151 L) S1x1x1x4096.size hh) hs).squeeze S4096 squeezes_S1x1x1x4096_S4096 = oSub L 10 7 :=
  congrArg (fun m => Memref.squeeze m S4096 squeezes_S1x1x1x4096_S4096) (Memref.slice_unit_congr _ ((k0_off151_eq L).trans (show _ = subOff L 10 7 from rfl)) _ _ _ (fun _ => rfl))
@[sl_canon] theorem canon_o_k0_off153 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off153 L) S1x1x1x32768.size hh) hs).squeeze S32768 squeezes_S1x1x1x32768_S32768 = oCh10 L :=
  congrArg (fun m => Memref.squeeze m S32768 squeezes_S1x1x1x32768_S32768) (Memref.slice_unit_congr _ (k0_off153_eq L) _ _ _ (fun _ => rfl))
@[sl_canon] theorem canon_o_k0_off154 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off154 L) S1x1x1x32768.size hh) hs).squeeze S32768 squeezes_S1x1x1x32768_S32768 = oCh9 L :=
  congrArg (fun m => Memref.squeeze m S32768 squeezes_S1x1x1x32768_S32768) (Memref.slice_unit_congr _ (k0_off154_eq L) _ _ _ (fun _ => rfl))
@[sl_canon] theorem canon_os_k0_off158 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off158 L) S1x1x1x4096.size hh) hs).squeeze S4096 squeezes_S1x1x1x4096_S4096 = oSub L 11 0 :=
  congrArg (fun m => Memref.squeeze m S4096 squeezes_S1x1x1x4096_S4096) (Memref.slice_unit_congr _ ((k0_off158_eq L).trans (show _ = subOff L 11 0 from rfl)) _ _ _ (fun _ => rfl))
@[sl_canon] theorem canon_os_k0_off159 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off159 L) S1x1x1x4096.size hh) hs).squeeze S4096 squeezes_S1x1x1x4096_S4096 = oSub L 11 1 :=
  congrArg (fun m => Memref.squeeze m S4096 squeezes_S1x1x1x4096_S4096) (Memref.slice_unit_congr _ ((k0_off159_eq L).trans (show _ = subOff L 11 1 from rfl)) _ _ _ (fun _ => rfl))
@[sl_canon] theorem canon_os_k0_off160 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off160 L) S1x1x1x4096.size hh) hs).squeeze S4096 squeezes_S1x1x1x4096_S4096 = oSub L 11 2 :=
  congrArg (fun m => Memref.squeeze m S4096 squeezes_S1x1x1x4096_S4096) (Memref.slice_unit_congr _ ((k0_off160_eq L).trans (show _ = subOff L 11 2 from rfl)) _ _ _ (fun _ => rfl))
@[sl_canon] theorem canon_os_k0_off161 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off161 L) S1x1x1x4096.size hh) hs).squeeze S4096 squeezes_S1x1x1x4096_S4096 = oSub L 11 3 :=
  congrArg (fun m => Memref.squeeze m S4096 squeezes_S1x1x1x4096_S4096) (Memref.slice_unit_congr _ ((k0_off161_eq L).trans (show _ = subOff L 11 3 from rfl)) _ _ _ (fun _ => rfl))
@[sl_canon] theorem canon_os_k0_off162 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off162 L) S1x1x1x4096.size hh) hs).squeeze S4096 squeezes_S1x1x1x4096_S4096 = oSub L 11 4 :=
  congrArg (fun m => Memref.squeeze m S4096 squeezes_S1x1x1x4096_S4096) (Memref.slice_unit_congr _ ((k0_off162_eq L).trans (show _ = subOff L 11 4 from rfl)) _ _ _ (fun _ => rfl))
@[sl_canon] theorem canon_os_k0_off163 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off163 L) S1x1x1x4096.size hh) hs).squeeze S4096 squeezes_S1x1x1x4096_S4096 = oSub L 11 5 :=
  congrArg (fun m => Memref.squeeze m S4096 squeezes_S1x1x1x4096_S4096) (Memref.slice_unit_congr _ ((k0_off163_eq L).trans (show _ = subOff L 11 5 from rfl)) _ _ _ (fun _ => rfl))
@[sl_canon] theorem canon_os_k0_off164 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off164 L) S1x1x1x4096.size hh) hs).squeeze S4096 squeezes_S1x1x1x4096_S4096 = oSub L 11 6 :=
  congrArg (fun m => Memref.squeeze m S4096 squeezes_S1x1x1x4096_S4096) (Memref.slice_unit_congr _ ((k0_off164_eq L).trans (show _ = subOff L 11 6 from rfl)) _ _ _ (fun _ => rfl))
@[sl_canon] theorem canon_os_k0_off165 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off165 L) S1x1x1x4096.size hh) hs).squeeze S4096 squeezes_S1x1x1x4096_S4096 = oSub L 11 7 :=
  congrArg (fun m => Memref.squeeze m S4096 squeezes_S1x1x1x4096_S4096) (Memref.slice_unit_congr _ ((k0_off165_eq L).trans (show _ = subOff L 11 7 from rfl)) _ _ _ (fun _ => rfl))
@[sl_canon] theorem canon_o_k0_off167 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off167 L) S1x1x1x32768.size hh) hs).squeeze S32768 squeezes_S1x1x1x32768_S32768 = oCh11 L :=
  congrArg (fun m => Memref.squeeze m S32768 squeezes_S1x1x1x32768_S32768) (Memref.slice_unit_congr _ (k0_off167_eq L) _ _ _ (fun _ => rfl))
@[sl_canon] theorem canon_o_k0_off168 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off168 L) S1x1x1x32768.size hh) hs).squeeze S32768 squeezes_S1x1x1x32768_S32768 = oCh10 L :=
  congrArg (fun m => Memref.squeeze m S32768 squeezes_S1x1x1x32768_S32768) (Memref.slice_unit_congr _ (k0_off168_eq L) _ _ _ (fun _ => rfl))
@[sl_canon] theorem canon_os_k0_off172 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off172 L) S1x1x1x4096.size hh) hs).squeeze S4096 squeezes_S1x1x1x4096_S4096 = oSub L 12 0 :=
  congrArg (fun m => Memref.squeeze m S4096 squeezes_S1x1x1x4096_S4096) (Memref.slice_unit_congr _ ((k0_off172_eq L).trans (show _ = subOff L 12 0 from rfl)) _ _ _ (fun _ => rfl))
@[sl_canon] theorem canon_os_k0_off173 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off173 L) S1x1x1x4096.size hh) hs).squeeze S4096 squeezes_S1x1x1x4096_S4096 = oSub L 12 1 :=
  congrArg (fun m => Memref.squeeze m S4096 squeezes_S1x1x1x4096_S4096) (Memref.slice_unit_congr _ ((k0_off173_eq L).trans (show _ = subOff L 12 1 from rfl)) _ _ _ (fun _ => rfl))
@[sl_canon] theorem canon_os_k0_off174 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off174 L) S1x1x1x4096.size hh) hs).squeeze S4096 squeezes_S1x1x1x4096_S4096 = oSub L 12 2 :=
  congrArg (fun m => Memref.squeeze m S4096 squeezes_S1x1x1x4096_S4096) (Memref.slice_unit_congr _ ((k0_off174_eq L).trans (show _ = subOff L 12 2 from rfl)) _ _ _ (fun _ => rfl))
@[sl_canon] theorem canon_os_k0_off175 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off175 L) S1x1x1x4096.size hh) hs).squeeze S4096 squeezes_S1x1x1x4096_S4096 = oSub L 12 3 :=
  congrArg (fun m => Memref.squeeze m S4096 squeezes_S1x1x1x4096_S4096) (Memref.slice_unit_congr _ ((k0_off175_eq L).trans (show _ = subOff L 12 3 from rfl)) _ _ _ (fun _ => rfl))
@[sl_canon] theorem canon_os_k0_off176 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off176 L) S1x1x1x4096.size hh) hs).squeeze S4096 squeezes_S1x1x1x4096_S4096 = oSub L 12 4 :=
  congrArg (fun m => Memref.squeeze m S4096 squeezes_S1x1x1x4096_S4096) (Memref.slice_unit_congr _ ((k0_off176_eq L).trans (show _ = subOff L 12 4 from rfl)) _ _ _ (fun _ => rfl))
@[sl_canon] theorem canon_os_k0_off177 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off177 L) S1x1x1x4096.size hh) hs).squeeze S4096 squeezes_S1x1x1x4096_S4096 = oSub L 12 5 :=
  congrArg (fun m => Memref.squeeze m S4096 squeezes_S1x1x1x4096_S4096) (Memref.slice_unit_congr _ ((k0_off177_eq L).trans (show _ = subOff L 12 5 from rfl)) _ _ _ (fun _ => rfl))
@[sl_canon] theorem canon_os_k0_off178 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off178 L) S1x1x1x4096.size hh) hs).squeeze S4096 squeezes_S1x1x1x4096_S4096 = oSub L 12 6 :=
  congrArg (fun m => Memref.squeeze m S4096 squeezes_S1x1x1x4096_S4096) (Memref.slice_unit_congr _ ((k0_off178_eq L).trans (show _ = subOff L 12 6 from rfl)) _ _ _ (fun _ => rfl))
@[sl_canon] theorem canon_os_k0_off179 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off179 L) S1x1x1x4096.size hh) hs).squeeze S4096 squeezes_S1x1x1x4096_S4096 = oSub L 12 7 :=
  congrArg (fun m => Memref.squeeze m S4096 squeezes_S1x1x1x4096_S4096) (Memref.slice_unit_congr _ ((k0_off179_eq L).trans (show _ = subOff L 12 7 from rfl)) _ _ _ (fun _ => rfl))
@[sl_canon] theorem canon_o_k0_off181 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off181 L) S1x1x1x32768.size hh) hs).squeeze S32768 squeezes_S1x1x1x32768_S32768 = oCh12 L :=
  congrArg (fun m => Memref.squeeze m S32768 squeezes_S1x1x1x32768_S32768) (Memref.slice_unit_congr _ (k0_off181_eq L) _ _ _ (fun _ => rfl))
@[sl_canon] theorem canon_o_k0_off182 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off182 L) S1x1x1x32768.size hh) hs).squeeze S32768 squeezes_S1x1x1x32768_S32768 = oCh11 L :=
  congrArg (fun m => Memref.squeeze m S32768 squeezes_S1x1x1x32768_S32768) (Memref.slice_unit_congr _ (k0_off182_eq L) _ _ _ (fun _ => rfl))
@[sl_canon] theorem canon_os_k0_off186 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off186 L) S1x1x1x4096.size hh) hs).squeeze S4096 squeezes_S1x1x1x4096_S4096 = oSub L 13 0 :=
  congrArg (fun m => Memref.squeeze m S4096 squeezes_S1x1x1x4096_S4096) (Memref.slice_unit_congr _ ((k0_off186_eq L).trans (show _ = subOff L 13 0 from rfl)) _ _ _ (fun _ => rfl))
@[sl_canon] theorem canon_os_k0_off187 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off187 L) S1x1x1x4096.size hh) hs).squeeze S4096 squeezes_S1x1x1x4096_S4096 = oSub L 13 1 :=
  congrArg (fun m => Memref.squeeze m S4096 squeezes_S1x1x1x4096_S4096) (Memref.slice_unit_congr _ ((k0_off187_eq L).trans (show _ = subOff L 13 1 from rfl)) _ _ _ (fun _ => rfl))
@[sl_canon] theorem canon_os_k0_off188 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off188 L) S1x1x1x4096.size hh) hs).squeeze S4096 squeezes_S1x1x1x4096_S4096 = oSub L 13 2 :=
  congrArg (fun m => Memref.squeeze m S4096 squeezes_S1x1x1x4096_S4096) (Memref.slice_unit_congr _ ((k0_off188_eq L).trans (show _ = subOff L 13 2 from rfl)) _ _ _ (fun _ => rfl))
@[sl_canon] theorem canon_os_k0_off189 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off189 L) S1x1x1x4096.size hh) hs).squeeze S4096 squeezes_S1x1x1x4096_S4096 = oSub L 13 3 :=
  congrArg (fun m => Memref.squeeze m S4096 squeezes_S1x1x1x4096_S4096) (Memref.slice_unit_congr _ ((k0_off189_eq L).trans (show _ = subOff L 13 3 from rfl)) _ _ _ (fun _ => rfl))
@[sl_canon] theorem canon_os_k0_off190 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off190 L) S1x1x1x4096.size hh) hs).squeeze S4096 squeezes_S1x1x1x4096_S4096 = oSub L 13 4 :=
  congrArg (fun m => Memref.squeeze m S4096 squeezes_S1x1x1x4096_S4096) (Memref.slice_unit_congr _ ((k0_off190_eq L).trans (show _ = subOff L 13 4 from rfl)) _ _ _ (fun _ => rfl))
@[sl_canon] theorem canon_os_k0_off191 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off191 L) S1x1x1x4096.size hh) hs).squeeze S4096 squeezes_S1x1x1x4096_S4096 = oSub L 13 5 :=
  congrArg (fun m => Memref.squeeze m S4096 squeezes_S1x1x1x4096_S4096) (Memref.slice_unit_congr _ ((k0_off191_eq L).trans (show _ = subOff L 13 5 from rfl)) _ _ _ (fun _ => rfl))
@[sl_canon] theorem canon_os_k0_off192 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off192 L) S1x1x1x4096.size hh) hs).squeeze S4096 squeezes_S1x1x1x4096_S4096 = oSub L 13 6 :=
  congrArg (fun m => Memref.squeeze m S4096 squeezes_S1x1x1x4096_S4096) (Memref.slice_unit_congr _ ((k0_off192_eq L).trans (show _ = subOff L 13 6 from rfl)) _ _ _ (fun _ => rfl))
@[sl_canon] theorem canon_os_k0_off193 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off193 L) S1x1x1x4096.size hh) hs).squeeze S4096 squeezes_S1x1x1x4096_S4096 = oSub L 13 7 :=
  congrArg (fun m => Memref.squeeze m S4096 squeezes_S1x1x1x4096_S4096) (Memref.slice_unit_congr _ ((k0_off193_eq L).trans (show _ = subOff L 13 7 from rfl)) _ _ _ (fun _ => rfl))
@[sl_canon] theorem canon_o_k0_off195 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off195 L) S1x1x1x32768.size hh) hs).squeeze S32768 squeezes_S1x1x1x32768_S32768 = oCh13 L :=
  congrArg (fun m => Memref.squeeze m S32768 squeezes_S1x1x1x32768_S32768) (Memref.slice_unit_congr _ (k0_off195_eq L) _ _ _ (fun _ => rfl))
@[sl_canon] theorem canon_o_k0_off196 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off196 L) S1x1x1x32768.size hh) hs).squeeze S32768 squeezes_S1x1x1x32768_S32768 = oCh12 L :=
  congrArg (fun m => Memref.squeeze m S32768 squeezes_S1x1x1x32768_S32768) (Memref.slice_unit_congr _ (k0_off196_eq L) _ _ _ (fun _ => rfl))
@[sl_canon] theorem canon_os_k0_off200 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off200 L) S1x1x1x4096.size hh) hs).squeeze S4096 squeezes_S1x1x1x4096_S4096 = oSub L 14 0 :=
  congrArg (fun m => Memref.squeeze m S4096 squeezes_S1x1x1x4096_S4096) (Memref.slice_unit_congr _ ((k0_off200_eq L).trans (show _ = subOff L 14 0 from rfl)) _ _ _ (fun _ => rfl))
@[sl_canon] theorem canon_os_k0_off201 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off201 L) S1x1x1x4096.size hh) hs).squeeze S4096 squeezes_S1x1x1x4096_S4096 = oSub L 14 1 :=
  congrArg (fun m => Memref.squeeze m S4096 squeezes_S1x1x1x4096_S4096) (Memref.slice_unit_congr _ ((k0_off201_eq L).trans (show _ = subOff L 14 1 from rfl)) _ _ _ (fun _ => rfl))
@[sl_canon] theorem canon_os_k0_off202 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off202 L) S1x1x1x4096.size hh) hs).squeeze S4096 squeezes_S1x1x1x4096_S4096 = oSub L 14 2 :=
  congrArg (fun m => Memref.squeeze m S4096 squeezes_S1x1x1x4096_S4096) (Memref.slice_unit_congr _ ((k0_off202_eq L).trans (show _ = subOff L 14 2 from rfl)) _ _ _ (fun _ => rfl))
@[sl_canon] theorem canon_os_k0_off203 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off203 L) S1x1x1x4096.size hh) hs).squeeze S4096 squeezes_S1x1x1x4096_S4096 = oSub L 14 3 :=
  congrArg (fun m => Memref.squeeze m S4096 squeezes_S1x1x1x4096_S4096) (Memref.slice_unit_congr _ ((k0_off203_eq L).trans (show _ = subOff L 14 3 from rfl)) _ _ _ (fun _ => rfl))
@[sl_canon] theorem canon_os_k0_off204 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off204 L) S1x1x1x4096.size hh) hs).squeeze S4096 squeezes_S1x1x1x4096_S4096 = oSub L 14 4 :=
  congrArg (fun m => Memref.squeeze m S4096 squeezes_S1x1x1x4096_S4096) (Memref.slice_unit_congr _ ((k0_off204_eq L).trans (show _ = subOff L 14 4 from rfl)) _ _ _ (fun _ => rfl))
@[sl_canon] theorem canon_os_k0_off205 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off205 L) S1x1x1x4096.size hh) hs).squeeze S4096 squeezes_S1x1x1x4096_S4096 = oSub L 14 5 :=
  congrArg (fun m => Memref.squeeze m S4096 squeezes_S1x1x1x4096_S4096) (Memref.slice_unit_congr _ ((k0_off205_eq L).trans (show _ = subOff L 14 5 from rfl)) _ _ _ (fun _ => rfl))
@[sl_canon] theorem canon_os_k0_off206 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off206 L) S1x1x1x4096.size hh) hs).squeeze S4096 squeezes_S1x1x1x4096_S4096 = oSub L 14 6 :=
  congrArg (fun m => Memref.squeeze m S4096 squeezes_S1x1x1x4096_S4096) (Memref.slice_unit_congr _ ((k0_off206_eq L).trans (show _ = subOff L 14 6 from rfl)) _ _ _ (fun _ => rfl))
@[sl_canon] theorem canon_os_k0_off207 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off207 L) S1x1x1x4096.size hh) hs).squeeze S4096 squeezes_S1x1x1x4096_S4096 = oSub L 14 7 :=
  congrArg (fun m => Memref.squeeze m S4096 squeezes_S1x1x1x4096_S4096) (Memref.slice_unit_congr _ ((k0_off207_eq L).trans (show _ = subOff L 14 7 from rfl)) _ _ _ (fun _ => rfl))
@[sl_canon] theorem canon_o_k0_off209 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off209 L) S1x1x1x32768.size hh) hs).squeeze S32768 squeezes_S1x1x1x32768_S32768 = oCh14 L :=
  congrArg (fun m => Memref.squeeze m S32768 squeezes_S1x1x1x32768_S32768) (Memref.slice_unit_congr _ (k0_off209_eq L) _ _ _ (fun _ => rfl))
@[sl_canon] theorem canon_os_k0_off210 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off210 L) S1x1x1x4096.size hh) hs).squeeze S4096 squeezes_S1x1x1x4096_S4096 = oSub L 15 0 :=
  congrArg (fun m => Memref.squeeze m S4096 squeezes_S1x1x1x4096_S4096) (Memref.slice_unit_congr _ ((k0_off210_eq L).trans (show _ = subOff L 15 0 from rfl)) _ _ _ (fun _ => rfl))
@[sl_canon] theorem canon_os_k0_off211 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off211 L) S1x1x1x4096.size hh) hs).squeeze S4096 squeezes_S1x1x1x4096_S4096 = oSub L 15 1 :=
  congrArg (fun m => Memref.squeeze m S4096 squeezes_S1x1x1x4096_S4096) (Memref.slice_unit_congr _ ((k0_off211_eq L).trans (show _ = subOff L 15 1 from rfl)) _ _ _ (fun _ => rfl))
@[sl_canon] theorem canon_os_k0_off212 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off212 L) S1x1x1x4096.size hh) hs).squeeze S4096 squeezes_S1x1x1x4096_S4096 = oSub L 15 2 :=
  congrArg (fun m => Memref.squeeze m S4096 squeezes_S1x1x1x4096_S4096) (Memref.slice_unit_congr _ ((k0_off212_eq L).trans (show _ = subOff L 15 2 from rfl)) _ _ _ (fun _ => rfl))
@[sl_canon] theorem canon_os_k0_off213 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off213 L) S1x1x1x4096.size hh) hs).squeeze S4096 squeezes_S1x1x1x4096_S4096 = oSub L 15 3 :=
  congrArg (fun m => Memref.squeeze m S4096 squeezes_S1x1x1x4096_S4096) (Memref.slice_unit_congr _ ((k0_off213_eq L).trans (show _ = subOff L 15 3 from rfl)) _ _ _ (fun _ => rfl))
@[sl_canon] theorem canon_os_k0_off214 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off214 L) S1x1x1x4096.size hh) hs).squeeze S4096 squeezes_S1x1x1x4096_S4096 = oSub L 15 4 :=
  congrArg (fun m => Memref.squeeze m S4096 squeezes_S1x1x1x4096_S4096) (Memref.slice_unit_congr _ ((k0_off214_eq L).trans (show _ = subOff L 15 4 from rfl)) _ _ _ (fun _ => rfl))
@[sl_canon] theorem canon_os_k0_off215 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off215 L) S1x1x1x4096.size hh) hs).squeeze S4096 squeezes_S1x1x1x4096_S4096 = oSub L 15 5 :=
  congrArg (fun m => Memref.squeeze m S4096 squeezes_S1x1x1x4096_S4096) (Memref.slice_unit_congr _ ((k0_off215_eq L).trans (show _ = subOff L 15 5 from rfl)) _ _ _ (fun _ => rfl))
@[sl_canon] theorem canon_os_k0_off216 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off216 L) S1x1x1x4096.size hh) hs).squeeze S4096 squeezes_S1x1x1x4096_S4096 = oSub L 15 6 :=
  congrArg (fun m => Memref.squeeze m S4096 squeezes_S1x1x1x4096_S4096) (Memref.slice_unit_congr _ ((k0_off216_eq L).trans (show _ = subOff L 15 6 from rfl)) _ _ _ (fun _ => rfl))
@[sl_canon] theorem canon_os_k0_off217 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off217 L) S1x1x1x4096.size hh) hs).squeeze S4096 squeezes_S1x1x1x4096_S4096 = oSub L 15 7 :=
  congrArg (fun m => Memref.squeeze m S4096 squeezes_S1x1x1x4096_S4096) (Memref.slice_unit_congr _ ((k0_off217_eq L).trans (show _ = subOff L 15 7 from rfl)) _ _ _ (fun _ => rfl))
@[sl_canon] theorem canon_o_k0_off219 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off219 L) S1x1x1x32768.size hh) hs).squeeze S32768 squeezes_S1x1x1x32768_S32768 = oCh15 L :=
  congrArg (fun m => Memref.squeeze m S32768 squeezes_S1x1x1x32768_S32768) (Memref.slice_unit_congr _ (k0_off219_eq L) _ _ _ (fun _ => rfl))
@[sl_canon] theorem canon_o_k0_off220 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off220 L) S1x1x1x32768.size hh) hs).squeeze S32768 squeezes_S1x1x1x32768_S32768 = oCh13 L :=
  congrArg (fun m => Memref.squeeze m S32768 squeezes_S1x1x1x32768_S32768) (Memref.slice_unit_congr _ (k0_off220_eq L) _ _ _ (fun _ => rfl))
@[sl_canon] theorem canon_o_k0_off222 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off222 L) S1x1x1x32768.size hh) hs).squeeze S32768 squeezes_S1x1x1x32768_S32768 = oCh14 L :=
  congrArg (fun m => Memref.squeeze m S32768 squeezes_S1x1x1x32768_S32768) (Memref.slice_unit_congr _ (k0_off222_eq L) _ _ _ (fun _ => rfl))
@[sl_canon] theorem canon_o_k0_off224 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off224 L) S1x1x1x32768.size hh) hs).squeeze S32768 squeezes_S1x1x1x32768_S32768 = oCh15 L :=
  congrArg (fun m => Memref.squeeze m S32768 squeezes_S1x1x1x32768_S32768) (Memref.slice_unit_congr _ (k0_off224_eq L) _ _ _ (fun _ => rfl))
@[sl_canon] theorem canon_os_k0_off226 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off226 L) S1x1x1x4096.size hh) hs).squeeze S4096 squeezes_S1x1x1x4096_S4096 = oSub L 0 0 :=
  congrArg (fun m => Memref.squeeze m S4096 squeezes_S1x1x1x4096_S4096) (Memref.slice_unit_congr _ ((k0_off226_eq L).trans (show _ = subOff L 0 0 from rfl)) _ _ _ (fun _ => rfl))
@[sl_canon] theorem canon_os_k0_off227 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off227 L) S1x1x1x4096.size hh) hs).squeeze S4096 squeezes_S1x1x1x4096_S4096 = oSub L 0 1 :=
  congrArg (fun m => Memref.squeeze m S4096 squeezes_S1x1x1x4096_S4096) (Memref.slice_unit_congr _ ((k0_off227_eq L).trans (show _ = subOff L 0 1 from rfl)) _ _ _ (fun _ => rfl))
@[sl_canon] theorem canon_os_k0_off228 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off228 L) S1x1x1x4096.size hh) hs).squeeze S4096 squeezes_S1x1x1x4096_S4096 = oSub L 0 2 :=
  congrArg (fun m => Memref.squeeze m S4096 squeezes_S1x1x1x4096_S4096) (Memref.slice_unit_congr _ ((k0_off228_eq L).trans (show _ = subOff L 0 2 from rfl)) _ _ _ (fun _ => rfl))
@[sl_canon] theorem canon_os_k0_off229 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off229 L) S1x1x1x4096.size hh) hs).squeeze S4096 squeezes_S1x1x1x4096_S4096 = oSub L 0 3 :=
  congrArg (fun m => Memref.squeeze m S4096 squeezes_S1x1x1x4096_S4096) (Memref.slice_unit_congr _ ((k0_off229_eq L).trans (show _ = subOff L 0 3 from rfl)) _ _ _ (fun _ => rfl))
@[sl_canon] theorem canon_os_k0_off230 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off230 L) S1x1x1x4096.size hh) hs).squeeze S4096 squeezes_S1x1x1x4096_S4096 = oSub L 0 4 :=
  congrArg (fun m => Memref.squeeze m S4096 squeezes_S1x1x1x4096_S4096) (Memref.slice_unit_congr _ ((k0_off230_eq L).trans (show _ = subOff L 0 4 from rfl)) _ _ _ (fun _ => rfl))
@[sl_canon] theorem canon_os_k0_off231 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off231 L) S1x1x1x4096.size hh) hs).squeeze S4096 squeezes_S1x1x1x4096_S4096 = oSub L 0 5 :=
  congrArg (fun m => Memref.squeeze m S4096 squeezes_S1x1x1x4096_S4096) (Memref.slice_unit_congr _ ((k0_off231_eq L).trans (show _ = subOff L 0 5 from rfl)) _ _ _ (fun _ => rfl))
@[sl_canon] theorem canon_os_k0_off232 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off232 L) S1x1x1x4096.size hh) hs).squeeze S4096 squeezes_S1x1x1x4096_S4096 = oSub L 0 6 :=
  congrArg (fun m => Memref.squeeze m S4096 squeezes_S1x1x1x4096_S4096) (Memref.slice_unit_congr _ ((k0_off232_eq L).trans (show _ = subOff L 0 6 from rfl)) _ _ _ (fun _ => rfl))
@[sl_canon] theorem canon_os_k0_off233 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off233 L) S1x1x1x4096.size hh) hs).squeeze S4096 squeezes_S1x1x1x4096_S4096 = oSub L 0 7 :=
  congrArg (fun m => Memref.squeeze m S4096 squeezes_S1x1x1x4096_S4096) (Memref.slice_unit_congr _ ((k0_off233_eq L).trans (show _ = subOff L 0 7 from rfl)) _ _ _ (fun _ => rfl))
@[sl_canon] theorem canon_os_k0_off234 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off234 L) S1x1x1x4096.size hh) hs).squeeze S4096 squeezes_S1x1x1x4096_S4096 = oSub L 1 0 :=
  congrArg (fun m => Memref.squeeze m S4096 squeezes_S1x1x1x4096_S4096) (Memref.slice_unit_congr _ ((k0_off234_eq L).trans (show _ = subOff L 1 0 from rfl)) _ _ _ (fun _ => rfl))
@[sl_canon] theorem canon_os_k0_off235 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off235 L) S1x1x1x4096.size hh) hs).squeeze S4096 squeezes_S1x1x1x4096_S4096 = oSub L 1 1 :=
  congrArg (fun m => Memref.squeeze m S4096 squeezes_S1x1x1x4096_S4096) (Memref.slice_unit_congr _ ((k0_off235_eq L).trans (show _ = subOff L 1 1 from rfl)) _ _ _ (fun _ => rfl))
@[sl_canon] theorem canon_os_k0_off236 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off236 L) S1x1x1x4096.size hh) hs).squeeze S4096 squeezes_S1x1x1x4096_S4096 = oSub L 1 2 :=
  congrArg (fun m => Memref.squeeze m S4096 squeezes_S1x1x1x4096_S4096) (Memref.slice_unit_congr _ ((k0_off236_eq L).trans (show _ = subOff L 1 2 from rfl)) _ _ _ (fun _ => rfl))
@[sl_canon] theorem canon_os_k0_off237 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off237 L) S1x1x1x4096.size hh) hs).squeeze S4096 squeezes_S1x1x1x4096_S4096 = oSub L 1 3 :=
  congrArg (fun m => Memref.squeeze m S4096 squeezes_S1x1x1x4096_S4096) (Memref.slice_unit_congr _ ((k0_off237_eq L).trans (show _ = subOff L 1 3 from rfl)) _ _ _ (fun _ => rfl))
@[sl_canon] theorem canon_os_k0_off238 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off238 L) S1x1x1x4096.size hh) hs).squeeze S4096 squeezes_S1x1x1x4096_S4096 = oSub L 1 4 :=
  congrArg (fun m => Memref.squeeze m S4096 squeezes_S1x1x1x4096_S4096) (Memref.slice_unit_congr _ ((k0_off238_eq L).trans (show _ = subOff L 1 4 from rfl)) _ _ _ (fun _ => rfl))
@[sl_canon] theorem canon_os_k0_off239 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off239 L) S1x1x1x4096.size hh) hs).squeeze S4096 squeezes_S1x1x1x4096_S4096 = oSub L 1 5 :=
  congrArg (fun m => Memref.squeeze m S4096 squeezes_S1x1x1x4096_S4096) (Memref.slice_unit_congr _ ((k0_off239_eq L).trans (show _ = subOff L 1 5 from rfl)) _ _ _ (fun _ => rfl))
@[sl_canon] theorem canon_os_k0_off240 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off240 L) S1x1x1x4096.size hh) hs).squeeze S4096 squeezes_S1x1x1x4096_S4096 = oSub L 1 6 :=
  congrArg (fun m => Memref.squeeze m S4096 squeezes_S1x1x1x4096_S4096) (Memref.slice_unit_congr _ ((k0_off240_eq L).trans (show _ = subOff L 1 6 from rfl)) _ _ _ (fun _ => rfl))
@[sl_canon] theorem canon_os_k0_off241 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off241 L) S1x1x1x4096.size hh) hs).squeeze S4096 squeezes_S1x1x1x4096_S4096 = oSub L 1 7 :=
  congrArg (fun m => Memref.squeeze m S4096 squeezes_S1x1x1x4096_S4096) (Memref.slice_unit_congr _ ((k0_off241_eq L).trans (show _ = subOff L 1 7 from rfl)) _ _ _ (fun _ => rfl))
@[sl_canon] theorem canon_os_k0_off242 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off242 L) S1x1x1x4096.size hh) hs).squeeze S4096 squeezes_S1x1x1x4096_S4096 = oSub L 2 0 :=
  congrArg (fun m => Memref.squeeze m S4096 squeezes_S1x1x1x4096_S4096) (Memref.slice_unit_congr _ ((k0_off242_eq L).trans (show _ = subOff L 2 0 from rfl)) _ _ _ (fun _ => rfl))
@[sl_canon] theorem canon_os_k0_off243 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off243 L) S1x1x1x4096.size hh) hs).squeeze S4096 squeezes_S1x1x1x4096_S4096 = oSub L 2 1 :=
  congrArg (fun m => Memref.squeeze m S4096 squeezes_S1x1x1x4096_S4096) (Memref.slice_unit_congr _ ((k0_off243_eq L).trans (show _ = subOff L 2 1 from rfl)) _ _ _ (fun _ => rfl))
@[sl_canon] theorem canon_os_k0_off244 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off244 L) S1x1x1x4096.size hh) hs).squeeze S4096 squeezes_S1x1x1x4096_S4096 = oSub L 2 2 :=
  congrArg (fun m => Memref.squeeze m S4096 squeezes_S1x1x1x4096_S4096) (Memref.slice_unit_congr _ ((k0_off244_eq L).trans (show _ = subOff L 2 2 from rfl)) _ _ _ (fun _ => rfl))
@[sl_canon] theorem canon_os_k0_off245 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off245 L) S1x1x1x4096.size hh) hs).squeeze S4096 squeezes_S1x1x1x4096_S4096 = oSub L 2 3 :=
  congrArg (fun m => Memref.squeeze m S4096 squeezes_S1x1x1x4096_S4096) (Memref.slice_unit_congr _ ((k0_off245_eq L).trans (show _ = subOff L 2 3 from rfl)) _ _ _ (fun _ => rfl))
@[sl_canon] theorem canon_os_k0_off246 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off246 L) S1x1x1x4096.size hh) hs).squeeze S4096 squeezes_S1x1x1x4096_S4096 = oSub L 2 4 :=
  congrArg (fun m => Memref.squeeze m S4096 squeezes_S1x1x1x4096_S4096) (Memref.slice_unit_congr _ ((k0_off246_eq L).trans (show _ = subOff L 2 4 from rfl)) _ _ _ (fun _ => rfl))
@[sl_canon] theorem canon_os_k0_off247 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off247 L) S1x1x1x4096.size hh) hs).squeeze S4096 squeezes_S1x1x1x4096_S4096 = oSub L 2 5 :=
  congrArg (fun m => Memref.squeeze m S4096 squeezes_S1x1x1x4096_S4096) (Memref.slice_unit_congr _ ((k0_off247_eq L).trans (show _ = subOff L 2 5 from rfl)) _ _ _ (fun _ => rfl))
@[sl_canon] theorem canon_os_k0_off248 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off248 L) S1x1x1x4096.size hh) hs).squeeze S4096 squeezes_S1x1x1x4096_S4096 = oSub L 2 6 :=
  congrArg (fun m => Memref.squeeze m S4096 squeezes_S1x1x1x4096_S4096) (Memref.slice_unit_congr _ ((k0_off248_eq L).trans (show _ = subOff L 2 6 from rfl)) _ _ _ (fun _ => rfl))
@[sl_canon] theorem canon_os_k0_off249 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off249 L) S1x1x1x4096.size hh) hs).squeeze S4096 squeezes_S1x1x1x4096_S4096 = oSub L 2 7 :=
  congrArg (fun m => Memref.squeeze m S4096 squeezes_S1x1x1x4096_S4096) (Memref.slice_unit_congr _ ((k0_off249_eq L).trans (show _ = subOff L 2 7 from rfl)) _ _ _ (fun _ => rfl))
@[sl_canon] theorem canon_os_k0_off250 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off250 L) S1x1x1x4096.size hh) hs).squeeze S4096 squeezes_S1x1x1x4096_S4096 = oSub L 3 0 :=
  congrArg (fun m => Memref.squeeze m S4096 squeezes_S1x1x1x4096_S4096) (Memref.slice_unit_congr _ ((k0_off250_eq L).trans (show _ = subOff L 3 0 from rfl)) _ _ _ (fun _ => rfl))
@[sl_canon] theorem canon_os_k0_off251 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off251 L) S1x1x1x4096.size hh) hs).squeeze S4096 squeezes_S1x1x1x4096_S4096 = oSub L 3 1 :=
  congrArg (fun m => Memref.squeeze m S4096 squeezes_S1x1x1x4096_S4096) (Memref.slice_unit_congr _ ((k0_off251_eq L).trans (show _ = subOff L 3 1 from rfl)) _ _ _ (fun _ => rfl))
@[sl_canon] theorem canon_os_k0_off252 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off252 L) S1x1x1x4096.size hh) hs).squeeze S4096 squeezes_S1x1x1x4096_S4096 = oSub L 3 2 :=
  congrArg (fun m => Memref.squeeze m S4096 squeezes_S1x1x1x4096_S4096) (Memref.slice_unit_congr _ ((k0_off252_eq L).trans (show _ = subOff L 3 2 from rfl)) _ _ _ (fun _ => rfl))
@[sl_canon] theorem canon_os_k0_off253 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off253 L) S1x1x1x4096.size hh) hs).squeeze S4096 squeezes_S1x1x1x4096_S4096 = oSub L 3 3 :=
  congrArg (fun m => Memref.squeeze m S4096 squeezes_S1x1x1x4096_S4096) (Memref.slice_unit_congr _ ((k0_off253_eq L).trans (show _ = subOff L 3 3 from rfl)) _ _ _ (fun _ => rfl))
@[sl_canon] theorem canon_os_k0_off254 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off254 L) S1x1x1x4096.size hh) hs).squeeze S4096 squeezes_S1x1x1x4096_S4096 = oSub L 3 4 :=
  congrArg (fun m => Memref.squeeze m S4096 squeezes_S1x1x1x4096_S4096) (Memref.slice_unit_congr _ ((k0_off254_eq L).trans (show _ = subOff L 3 4 from rfl)) _ _ _ (fun _ => rfl))
@[sl_canon] theorem canon_os_k0_off255 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off255 L) S1x1x1x4096.size hh) hs).squeeze S4096 squeezes_S1x1x1x4096_S4096 = oSub L 3 5 :=
  congrArg (fun m => Memref.squeeze m S4096 squeezes_S1x1x1x4096_S4096) (Memref.slice_unit_congr _ ((k0_off255_eq L).trans (show _ = subOff L 3 5 from rfl)) _ _ _ (fun _ => rfl))
@[sl_canon] theorem canon_os_k0_off256 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off256 L) S1x1x1x4096.size hh) hs).squeeze S4096 squeezes_S1x1x1x4096_S4096 = oSub L 3 6 :=
  congrArg (fun m => Memref.squeeze m S4096 squeezes_S1x1x1x4096_S4096) (Memref.slice_unit_congr _ ((k0_off256_eq L).trans (show _ = subOff L 3 6 from rfl)) _ _ _ (fun _ => rfl))
@[sl_canon] theorem canon_os_k0_off257 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off257 L) S1x1x1x4096.size hh) hs).squeeze S4096 squeezes_S1x1x1x4096_S4096 = oSub L 3 7 :=
  congrArg (fun m => Memref.squeeze m S4096 squeezes_S1x1x1x4096_S4096) (Memref.slice_unit_congr _ ((k0_off257_eq L).trans (show _ = subOff L 3 7 from rfl)) _ _ _ (fun _ => rfl))
@[sl_canon] theorem canon_os_k0_off258 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off258 L) S1x1x1x4096.size hh) hs).squeeze S4096 squeezes_S1x1x1x4096_S4096 = oSub L 4 0 :=
  congrArg (fun m => Memref.squeeze m S4096 squeezes_S1x1x1x4096_S4096) (Memref.slice_unit_congr _ ((k0_off258_eq L).trans (show _ = subOff L 4 0 from rfl)) _ _ _ (fun _ => rfl))
@[sl_canon] theorem canon_os_k0_off259 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off259 L) S1x1x1x4096.size hh) hs).squeeze S4096 squeezes_S1x1x1x4096_S4096 = oSub L 4 1 :=
  congrArg (fun m => Memref.squeeze m S4096 squeezes_S1x1x1x4096_S4096) (Memref.slice_unit_congr _ ((k0_off259_eq L).trans (show _ = subOff L 4 1 from rfl)) _ _ _ (fun _ => rfl))
@[sl_canon] theorem canon_os_k0_off260 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off260 L) S1x1x1x4096.size hh) hs).squeeze S4096 squeezes_S1x1x1x4096_S4096 = oSub L 4 2 :=
  congrArg (fun m => Memref.squeeze m S4096 squeezes_S1x1x1x4096_S4096) (Memref.slice_unit_congr _ ((k0_off260_eq L).trans (show _ = subOff L 4 2 from rfl)) _ _ _ (fun _ => rfl))
@[sl_canon] theorem canon_os_k0_off261 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off261 L) S1x1x1x4096.size hh) hs).squeeze S4096 squeezes_S1x1x1x4096_S4096 = oSub L 4 3 :=
  congrArg (fun m => Memref.squeeze m S4096 squeezes_S1x1x1x4096_S4096) (Memref.slice_unit_congr _ ((k0_off261_eq L).trans (show _ = subOff L 4 3 from rfl)) _ _ _ (fun _ => rfl))
@[sl_canon] theorem canon_os_k0_off262 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off262 L) S1x1x1x4096.size hh) hs).squeeze S4096 squeezes_S1x1x1x4096_S4096 = oSub L 4 4 :=
  congrArg (fun m => Memref.squeeze m S4096 squeezes_S1x1x1x4096_S4096) (Memref.slice_unit_congr _ ((k0_off262_eq L).trans (show _ = subOff L 4 4 from rfl)) _ _ _ (fun _ => rfl))
@[sl_canon] theorem canon_os_k0_off263 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off263 L) S1x1x1x4096.size hh) hs).squeeze S4096 squeezes_S1x1x1x4096_S4096 = oSub L 4 5 :=
  congrArg (fun m => Memref.squeeze m S4096 squeezes_S1x1x1x4096_S4096) (Memref.slice_unit_congr _ ((k0_off263_eq L).trans (show _ = subOff L 4 5 from rfl)) _ _ _ (fun _ => rfl))
@[sl_canon] theorem canon_os_k0_off264 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off264 L) S1x1x1x4096.size hh) hs).squeeze S4096 squeezes_S1x1x1x4096_S4096 = oSub L 4 6 :=
  congrArg (fun m => Memref.squeeze m S4096 squeezes_S1x1x1x4096_S4096) (Memref.slice_unit_congr _ ((k0_off264_eq L).trans (show _ = subOff L 4 6 from rfl)) _ _ _ (fun _ => rfl))
@[sl_canon] theorem canon_os_k0_off265 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off265 L) S1x1x1x4096.size hh) hs).squeeze S4096 squeezes_S1x1x1x4096_S4096 = oSub L 4 7 :=
  congrArg (fun m => Memref.squeeze m S4096 squeezes_S1x1x1x4096_S4096) (Memref.slice_unit_congr _ ((k0_off265_eq L).trans (show _ = subOff L 4 7 from rfl)) _ _ _ (fun _ => rfl))
@[sl_canon] theorem canon_os_k0_off266 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off266 L) S1x1x1x4096.size hh) hs).squeeze S4096 squeezes_S1x1x1x4096_S4096 = oSub L 5 0 :=
  congrArg (fun m => Memref.squeeze m S4096 squeezes_S1x1x1x4096_S4096) (Memref.slice_unit_congr _ ((k0_off266_eq L).trans (show _ = subOff L 5 0 from rfl)) _ _ _ (fun _ => rfl))
@[sl_canon] theorem canon_os_k0_off267 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off267 L) S1x1x1x4096.size hh) hs).squeeze S4096 squeezes_S1x1x1x4096_S4096 = oSub L 5 1 :=
  congrArg (fun m => Memref.squeeze m S4096 squeezes_S1x1x1x4096_S4096) (Memref.slice_unit_congr _ ((k0_off267_eq L).trans (show _ = subOff L 5 1 from rfl)) _ _ _ (fun _ => rfl))
@[sl_canon] theorem canon_os_k0_off268 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off268 L) S1x1x1x4096.size hh) hs).squeeze S4096 squeezes_S1x1x1x4096_S4096 = oSub L 5 2 :=
  congrArg (fun m => Memref.squeeze m S4096 squeezes_S1x1x1x4096_S4096) (Memref.slice_unit_congr _ ((k0_off268_eq L).trans (show _ = subOff L 5 2 from rfl)) _ _ _ (fun _ => rfl))
@[sl_canon] theorem canon_os_k0_off269 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off269 L) S1x1x1x4096.size hh) hs).squeeze S4096 squeezes_S1x1x1x4096_S4096 = oSub L 5 3 :=
  congrArg (fun m => Memref.squeeze m S4096 squeezes_S1x1x1x4096_S4096) (Memref.slice_unit_congr _ ((k0_off269_eq L).trans (show _ = subOff L 5 3 from rfl)) _ _ _ (fun _ => rfl))
@[sl_canon] theorem canon_os_k0_off270 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off270 L) S1x1x1x4096.size hh) hs).squeeze S4096 squeezes_S1x1x1x4096_S4096 = oSub L 5 4 :=
  congrArg (fun m => Memref.squeeze m S4096 squeezes_S1x1x1x4096_S4096) (Memref.slice_unit_congr _ ((k0_off270_eq L).trans (show _ = subOff L 5 4 from rfl)) _ _ _ (fun _ => rfl))
@[sl_canon] theorem canon_os_k0_off271 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off271 L) S1x1x1x4096.size hh) hs).squeeze S4096 squeezes_S1x1x1x4096_S4096 = oSub L 5 5 :=
  congrArg (fun m => Memref.squeeze m S4096 squeezes_S1x1x1x4096_S4096) (Memref.slice_unit_congr _ ((k0_off271_eq L).trans (show _ = subOff L 5 5 from rfl)) _ _ _ (fun _ => rfl))
@[sl_canon] theorem canon_os_k0_off272 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off272 L) S1x1x1x4096.size hh) hs).squeeze S4096 squeezes_S1x1x1x4096_S4096 = oSub L 5 6 :=
  congrArg (fun m => Memref.squeeze m S4096 squeezes_S1x1x1x4096_S4096) (Memref.slice_unit_congr _ ((k0_off272_eq L).trans (show _ = subOff L 5 6 from rfl)) _ _ _ (fun _ => rfl))
@[sl_canon] theorem canon_os_k0_off273 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off273 L) S1x1x1x4096.size hh) hs).squeeze S4096 squeezes_S1x1x1x4096_S4096 = oSub L 5 7 :=
  congrArg (fun m => Memref.squeeze m S4096 squeezes_S1x1x1x4096_S4096) (Memref.slice_unit_congr _ ((k0_off273_eq L).trans (show _ = subOff L 5 7 from rfl)) _ _ _ (fun _ => rfl))
@[sl_canon] theorem canon_os_k0_off274 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off274 L) S1x1x1x4096.size hh) hs).squeeze S4096 squeezes_S1x1x1x4096_S4096 = oSub L 6 0 :=
  congrArg (fun m => Memref.squeeze m S4096 squeezes_S1x1x1x4096_S4096) (Memref.slice_unit_congr _ ((k0_off274_eq L).trans (show _ = subOff L 6 0 from rfl)) _ _ _ (fun _ => rfl))
@[sl_canon] theorem canon_os_k0_off275 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off275 L) S1x1x1x4096.size hh) hs).squeeze S4096 squeezes_S1x1x1x4096_S4096 = oSub L 6 1 :=
  congrArg (fun m => Memref.squeeze m S4096 squeezes_S1x1x1x4096_S4096) (Memref.slice_unit_congr _ ((k0_off275_eq L).trans (show _ = subOff L 6 1 from rfl)) _ _ _ (fun _ => rfl))
@[sl_canon] theorem canon_os_k0_off276 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off276 L) S1x1x1x4096.size hh) hs).squeeze S4096 squeezes_S1x1x1x4096_S4096 = oSub L 6 2 :=
  congrArg (fun m => Memref.squeeze m S4096 squeezes_S1x1x1x4096_S4096) (Memref.slice_unit_congr _ ((k0_off276_eq L).trans (show _ = subOff L 6 2 from rfl)) _ _ _ (fun _ => rfl))
@[sl_canon] theorem canon_os_k0_off277 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off277 L) S1x1x1x4096.size hh) hs).squeeze S4096 squeezes_S1x1x1x4096_S4096 = oSub L 6 3 :=
  congrArg (fun m => Memref.squeeze m S4096 squeezes_S1x1x1x4096_S4096) (Memref.slice_unit_congr _ ((k0_off277_eq L).trans (show _ = subOff L 6 3 from rfl)) _ _ _ (fun _ => rfl))
@[sl_canon] theorem canon_os_k0_off278 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off278 L) S1x1x1x4096.size hh) hs).squeeze S4096 squeezes_S1x1x1x4096_S4096 = oSub L 6 4 :=
  congrArg (fun m => Memref.squeeze m S4096 squeezes_S1x1x1x4096_S4096) (Memref.slice_unit_congr _ ((k0_off278_eq L).trans (show _ = subOff L 6 4 from rfl)) _ _ _ (fun _ => rfl))
@[sl_canon] theorem canon_os_k0_off279 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off279 L) S1x1x1x4096.size hh) hs).squeeze S4096 squeezes_S1x1x1x4096_S4096 = oSub L 6 5 :=
  congrArg (fun m => Memref.squeeze m S4096 squeezes_S1x1x1x4096_S4096) (Memref.slice_unit_congr _ ((k0_off279_eq L).trans (show _ = subOff L 6 5 from rfl)) _ _ _ (fun _ => rfl))
@[sl_canon] theorem canon_os_k0_off280 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off280 L) S1x1x1x4096.size hh) hs).squeeze S4096 squeezes_S1x1x1x4096_S4096 = oSub L 6 6 :=
  congrArg (fun m => Memref.squeeze m S4096 squeezes_S1x1x1x4096_S4096) (Memref.slice_unit_congr _ ((k0_off280_eq L).trans (show _ = subOff L 6 6 from rfl)) _ _ _ (fun _ => rfl))
@[sl_canon] theorem canon_os_k0_off281 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off281 L) S1x1x1x4096.size hh) hs).squeeze S4096 squeezes_S1x1x1x4096_S4096 = oSub L 6 7 :=
  congrArg (fun m => Memref.squeeze m S4096 squeezes_S1x1x1x4096_S4096) (Memref.slice_unit_congr _ ((k0_off281_eq L).trans (show _ = subOff L 6 7 from rfl)) _ _ _ (fun _ => rfl))
@[sl_canon] theorem canon_os_k0_off282 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off282 L) S1x1x1x4096.size hh) hs).squeeze S4096 squeezes_S1x1x1x4096_S4096 = oSub L 7 0 :=
  congrArg (fun m => Memref.squeeze m S4096 squeezes_S1x1x1x4096_S4096) (Memref.slice_unit_congr _ ((k0_off282_eq L).trans (show _ = subOff L 7 0 from rfl)) _ _ _ (fun _ => rfl))
@[sl_canon] theorem canon_os_k0_off283 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off283 L) S1x1x1x4096.size hh) hs).squeeze S4096 squeezes_S1x1x1x4096_S4096 = oSub L 7 1 :=
  congrArg (fun m => Memref.squeeze m S4096 squeezes_S1x1x1x4096_S4096) (Memref.slice_unit_congr _ ((k0_off283_eq L).trans (show _ = subOff L 7 1 from rfl)) _ _ _ (fun _ => rfl))
@[sl_canon] theorem canon_os_k0_off284 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off284 L) S1x1x1x4096.size hh) hs).squeeze S4096 squeezes_S1x1x1x4096_S4096 = oSub L 7 2 :=
  congrArg (fun m => Memref.squeeze m S4096 squeezes_S1x1x1x4096_S4096) (Memref.slice_unit_congr _ ((k0_off284_eq L).trans (show _ = subOff L 7 2 from rfl)) _ _ _ (fun _ => rfl))
@[sl_canon] theorem canon_os_k0_off285 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off285 L) S1x1x1x4096.size hh) hs).squeeze S4096 squeezes_S1x1x1x4096_S4096 = oSub L 7 3 :=
  congrArg (fun m => Memref.squeeze m S4096 squeezes_S1x1x1x4096_S4096) (Memref.slice_unit_congr _ ((k0_off285_eq L).trans (show _ = subOff L 7 3 from rfl)) _ _ _ (fun _ => rfl))
@[sl_canon] theorem canon_os_k0_off286 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off286 L) S1x1x1x4096.size hh) hs).squeeze S4096 squeezes_S1x1x1x4096_S4096 = oSub L 7 4 :=
  congrArg (fun m => Memref.squeeze m S4096 squeezes_S1x1x1x4096_S4096) (Memref.slice_unit_congr _ ((k0_off286_eq L).trans (show _ = subOff L 7 4 from rfl)) _ _ _ (fun _ => rfl))
@[sl_canon] theorem canon_os_k0_off287 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off287 L) S1x1x1x4096.size hh) hs).squeeze S4096 squeezes_S1x1x1x4096_S4096 = oSub L 7 5 :=
  congrArg (fun m => Memref.squeeze m S4096 squeezes_S1x1x1x4096_S4096) (Memref.slice_unit_congr _ ((k0_off287_eq L).trans (show _ = subOff L 7 5 from rfl)) _ _ _ (fun _ => rfl))
@[sl_canon] theorem canon_os_k0_off288 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off288 L) S1x1x1x4096.size hh) hs).squeeze S4096 squeezes_S1x1x1x4096_S4096 = oSub L 7 6 :=
  congrArg (fun m => Memref.squeeze m S4096 squeezes_S1x1x1x4096_S4096) (Memref.slice_unit_congr _ ((k0_off288_eq L).trans (show _ = subOff L 7 6 from rfl)) _ _ _ (fun _ => rfl))
@[sl_canon] theorem canon_os_k0_off289 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off289 L) S1x1x1x4096.size hh) hs).squeeze S4096 squeezes_S1x1x1x4096_S4096 = oSub L 7 7 :=
  congrArg (fun m => Memref.squeeze m S4096 squeezes_S1x1x1x4096_S4096) (Memref.slice_unit_congr _ ((k0_off289_eq L).trans (show _ = subOff L 7 7 from rfl)) _ _ _ (fun _ => rfl))
@[sl_canon] theorem canon_os_k0_off290 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off290 L) S1x1x1x4096.size hh) hs).squeeze S4096 squeezes_S1x1x1x4096_S4096 = oSub L 8 0 :=
  congrArg (fun m => Memref.squeeze m S4096 squeezes_S1x1x1x4096_S4096) (Memref.slice_unit_congr _ ((k0_off290_eq L).trans (show _ = subOff L 8 0 from rfl)) _ _ _ (fun _ => rfl))
@[sl_canon] theorem canon_os_k0_off291 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off291 L) S1x1x1x4096.size hh) hs).squeeze S4096 squeezes_S1x1x1x4096_S4096 = oSub L 8 1 :=
  congrArg (fun m => Memref.squeeze m S4096 squeezes_S1x1x1x4096_S4096) (Memref.slice_unit_congr _ ((k0_off291_eq L).trans (show _ = subOff L 8 1 from rfl)) _ _ _ (fun _ => rfl))
@[sl_canon] theorem canon_os_k0_off292 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off292 L) S1x1x1x4096.size hh) hs).squeeze S4096 squeezes_S1x1x1x4096_S4096 = oSub L 8 2 :=
  congrArg (fun m => Memref.squeeze m S4096 squeezes_S1x1x1x4096_S4096) (Memref.slice_unit_congr _ ((k0_off292_eq L).trans (show _ = subOff L 8 2 from rfl)) _ _ _ (fun _ => rfl))
@[sl_canon] theorem canon_os_k0_off293 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off293 L) S1x1x1x4096.size hh) hs).squeeze S4096 squeezes_S1x1x1x4096_S4096 = oSub L 8 3 :=
  congrArg (fun m => Memref.squeeze m S4096 squeezes_S1x1x1x4096_S4096) (Memref.slice_unit_congr _ ((k0_off293_eq L).trans (show _ = subOff L 8 3 from rfl)) _ _ _ (fun _ => rfl))
@[sl_canon] theorem canon_os_k0_off294 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off294 L) S1x1x1x4096.size hh) hs).squeeze S4096 squeezes_S1x1x1x4096_S4096 = oSub L 8 4 :=
  congrArg (fun m => Memref.squeeze m S4096 squeezes_S1x1x1x4096_S4096) (Memref.slice_unit_congr _ ((k0_off294_eq L).trans (show _ = subOff L 8 4 from rfl)) _ _ _ (fun _ => rfl))
@[sl_canon] theorem canon_os_k0_off295 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off295 L) S1x1x1x4096.size hh) hs).squeeze S4096 squeezes_S1x1x1x4096_S4096 = oSub L 8 5 :=
  congrArg (fun m => Memref.squeeze m S4096 squeezes_S1x1x1x4096_S4096) (Memref.slice_unit_congr _ ((k0_off295_eq L).trans (show _ = subOff L 8 5 from rfl)) _ _ _ (fun _ => rfl))
@[sl_canon] theorem canon_os_k0_off296 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off296 L) S1x1x1x4096.size hh) hs).squeeze S4096 squeezes_S1x1x1x4096_S4096 = oSub L 8 6 :=
  congrArg (fun m => Memref.squeeze m S4096 squeezes_S1x1x1x4096_S4096) (Memref.slice_unit_congr _ ((k0_off296_eq L).trans (show _ = subOff L 8 6 from rfl)) _ _ _ (fun _ => rfl))
@[sl_canon] theorem canon_os_k0_off297 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off297 L) S1x1x1x4096.size hh) hs).squeeze S4096 squeezes_S1x1x1x4096_S4096 = oSub L 8 7 :=
  congrArg (fun m => Memref.squeeze m S4096 squeezes_S1x1x1x4096_S4096) (Memref.slice_unit_congr _ ((k0_off297_eq L).trans (show _ = subOff L 8 7 from rfl)) _ _ _ (fun _ => rfl))
@[sl_canon] theorem canon_os_k0_off298 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off298 L) S1x1x1x4096.size hh) hs).squeeze S4096 squeezes_S1x1x1x4096_S4096 = oSub L 9 0 :=
  congrArg (fun m => Memref.squeeze m S4096 squeezes_S1x1x1x4096_S4096) (Memref.slice_unit_congr _ ((k0_off298_eq L).trans (show _ = subOff L 9 0 from rfl)) _ _ _ (fun _ => rfl))
@[sl_canon] theorem canon_os_k0_off299 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off299 L) S1x1x1x4096.size hh) hs).squeeze S4096 squeezes_S1x1x1x4096_S4096 = oSub L 9 1 :=
  congrArg (fun m => Memref.squeeze m S4096 squeezes_S1x1x1x4096_S4096) (Memref.slice_unit_congr _ ((k0_off299_eq L).trans (show _ = subOff L 9 1 from rfl)) _ _ _ (fun _ => rfl))
@[sl_canon] theorem canon_os_k0_off300 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off300 L) S1x1x1x4096.size hh) hs).squeeze S4096 squeezes_S1x1x1x4096_S4096 = oSub L 9 2 :=
  congrArg (fun m => Memref.squeeze m S4096 squeezes_S1x1x1x4096_S4096) (Memref.slice_unit_congr _ ((k0_off300_eq L).trans (show _ = subOff L 9 2 from rfl)) _ _ _ (fun _ => rfl))
@[sl_canon] theorem canon_os_k0_off301 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off301 L) S1x1x1x4096.size hh) hs).squeeze S4096 squeezes_S1x1x1x4096_S4096 = oSub L 9 3 :=
  congrArg (fun m => Memref.squeeze m S4096 squeezes_S1x1x1x4096_S4096) (Memref.slice_unit_congr _ ((k0_off301_eq L).trans (show _ = subOff L 9 3 from rfl)) _ _ _ (fun _ => rfl))
@[sl_canon] theorem canon_os_k0_off302 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off302 L) S1x1x1x4096.size hh) hs).squeeze S4096 squeezes_S1x1x1x4096_S4096 = oSub L 9 4 :=
  congrArg (fun m => Memref.squeeze m S4096 squeezes_S1x1x1x4096_S4096) (Memref.slice_unit_congr _ ((k0_off302_eq L).trans (show _ = subOff L 9 4 from rfl)) _ _ _ (fun _ => rfl))
@[sl_canon] theorem canon_os_k0_off303 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off303 L) S1x1x1x4096.size hh) hs).squeeze S4096 squeezes_S1x1x1x4096_S4096 = oSub L 9 5 :=
  congrArg (fun m => Memref.squeeze m S4096 squeezes_S1x1x1x4096_S4096) (Memref.slice_unit_congr _ ((k0_off303_eq L).trans (show _ = subOff L 9 5 from rfl)) _ _ _ (fun _ => rfl))
@[sl_canon] theorem canon_os_k0_off304 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off304 L) S1x1x1x4096.size hh) hs).squeeze S4096 squeezes_S1x1x1x4096_S4096 = oSub L 9 6 :=
  congrArg (fun m => Memref.squeeze m S4096 squeezes_S1x1x1x4096_S4096) (Memref.slice_unit_congr _ ((k0_off304_eq L).trans (show _ = subOff L 9 6 from rfl)) _ _ _ (fun _ => rfl))
@[sl_canon] theorem canon_os_k0_off305 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off305 L) S1x1x1x4096.size hh) hs).squeeze S4096 squeezes_S1x1x1x4096_S4096 = oSub L 9 7 :=
  congrArg (fun m => Memref.squeeze m S4096 squeezes_S1x1x1x4096_S4096) (Memref.slice_unit_congr _ ((k0_off305_eq L).trans (show _ = subOff L 9 7 from rfl)) _ _ _ (fun _ => rfl))
@[sl_canon] theorem canon_os_k0_off306 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off306 L) S1x1x1x4096.size hh) hs).squeeze S4096 squeezes_S1x1x1x4096_S4096 = oSub L 10 0 :=
  congrArg (fun m => Memref.squeeze m S4096 squeezes_S1x1x1x4096_S4096) (Memref.slice_unit_congr _ ((k0_off306_eq L).trans (show _ = subOff L 10 0 from rfl)) _ _ _ (fun _ => rfl))
@[sl_canon] theorem canon_os_k0_off307 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off307 L) S1x1x1x4096.size hh) hs).squeeze S4096 squeezes_S1x1x1x4096_S4096 = oSub L 10 1 :=
  congrArg (fun m => Memref.squeeze m S4096 squeezes_S1x1x1x4096_S4096) (Memref.slice_unit_congr _ ((k0_off307_eq L).trans (show _ = subOff L 10 1 from rfl)) _ _ _ (fun _ => rfl))
@[sl_canon] theorem canon_os_k0_off308 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off308 L) S1x1x1x4096.size hh) hs).squeeze S4096 squeezes_S1x1x1x4096_S4096 = oSub L 10 2 :=
  congrArg (fun m => Memref.squeeze m S4096 squeezes_S1x1x1x4096_S4096) (Memref.slice_unit_congr _ ((k0_off308_eq L).trans (show _ = subOff L 10 2 from rfl)) _ _ _ (fun _ => rfl))
@[sl_canon] theorem canon_os_k0_off309 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off309 L) S1x1x1x4096.size hh) hs).squeeze S4096 squeezes_S1x1x1x4096_S4096 = oSub L 10 3 :=
  congrArg (fun m => Memref.squeeze m S4096 squeezes_S1x1x1x4096_S4096) (Memref.slice_unit_congr _ ((k0_off309_eq L).trans (show _ = subOff L 10 3 from rfl)) _ _ _ (fun _ => rfl))
@[sl_canon] theorem canon_os_k0_off310 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off310 L) S1x1x1x4096.size hh) hs).squeeze S4096 squeezes_S1x1x1x4096_S4096 = oSub L 10 4 :=
  congrArg (fun m => Memref.squeeze m S4096 squeezes_S1x1x1x4096_S4096) (Memref.slice_unit_congr _ ((k0_off310_eq L).trans (show _ = subOff L 10 4 from rfl)) _ _ _ (fun _ => rfl))
@[sl_canon] theorem canon_os_k0_off311 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off311 L) S1x1x1x4096.size hh) hs).squeeze S4096 squeezes_S1x1x1x4096_S4096 = oSub L 10 5 :=
  congrArg (fun m => Memref.squeeze m S4096 squeezes_S1x1x1x4096_S4096) (Memref.slice_unit_congr _ ((k0_off311_eq L).trans (show _ = subOff L 10 5 from rfl)) _ _ _ (fun _ => rfl))
@[sl_canon] theorem canon_os_k0_off312 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off312 L) S1x1x1x4096.size hh) hs).squeeze S4096 squeezes_S1x1x1x4096_S4096 = oSub L 10 6 :=
  congrArg (fun m => Memref.squeeze m S4096 squeezes_S1x1x1x4096_S4096) (Memref.slice_unit_congr _ ((k0_off312_eq L).trans (show _ = subOff L 10 6 from rfl)) _ _ _ (fun _ => rfl))
@[sl_canon] theorem canon_os_k0_off313 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off313 L) S1x1x1x4096.size hh) hs).squeeze S4096 squeezes_S1x1x1x4096_S4096 = oSub L 10 7 :=
  congrArg (fun m => Memref.squeeze m S4096 squeezes_S1x1x1x4096_S4096) (Memref.slice_unit_congr _ ((k0_off313_eq L).trans (show _ = subOff L 10 7 from rfl)) _ _ _ (fun _ => rfl))
@[sl_canon] theorem canon_os_k0_off314 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off314 L) S1x1x1x4096.size hh) hs).squeeze S4096 squeezes_S1x1x1x4096_S4096 = oSub L 11 0 :=
  congrArg (fun m => Memref.squeeze m S4096 squeezes_S1x1x1x4096_S4096) (Memref.slice_unit_congr _ ((k0_off314_eq L).trans (show _ = subOff L 11 0 from rfl)) _ _ _ (fun _ => rfl))
@[sl_canon] theorem canon_os_k0_off315 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off315 L) S1x1x1x4096.size hh) hs).squeeze S4096 squeezes_S1x1x1x4096_S4096 = oSub L 11 1 :=
  congrArg (fun m => Memref.squeeze m S4096 squeezes_S1x1x1x4096_S4096) (Memref.slice_unit_congr _ ((k0_off315_eq L).trans (show _ = subOff L 11 1 from rfl)) _ _ _ (fun _ => rfl))
@[sl_canon] theorem canon_os_k0_off316 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off316 L) S1x1x1x4096.size hh) hs).squeeze S4096 squeezes_S1x1x1x4096_S4096 = oSub L 11 2 :=
  congrArg (fun m => Memref.squeeze m S4096 squeezes_S1x1x1x4096_S4096) (Memref.slice_unit_congr _ ((k0_off316_eq L).trans (show _ = subOff L 11 2 from rfl)) _ _ _ (fun _ => rfl))
@[sl_canon] theorem canon_os_k0_off317 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off317 L) S1x1x1x4096.size hh) hs).squeeze S4096 squeezes_S1x1x1x4096_S4096 = oSub L 11 3 :=
  congrArg (fun m => Memref.squeeze m S4096 squeezes_S1x1x1x4096_S4096) (Memref.slice_unit_congr _ ((k0_off317_eq L).trans (show _ = subOff L 11 3 from rfl)) _ _ _ (fun _ => rfl))
@[sl_canon] theorem canon_os_k0_off318 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off318 L) S1x1x1x4096.size hh) hs).squeeze S4096 squeezes_S1x1x1x4096_S4096 = oSub L 11 4 :=
  congrArg (fun m => Memref.squeeze m S4096 squeezes_S1x1x1x4096_S4096) (Memref.slice_unit_congr _ ((k0_off318_eq L).trans (show _ = subOff L 11 4 from rfl)) _ _ _ (fun _ => rfl))
@[sl_canon] theorem canon_os_k0_off319 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off319 L) S1x1x1x4096.size hh) hs).squeeze S4096 squeezes_S1x1x1x4096_S4096 = oSub L 11 5 :=
  congrArg (fun m => Memref.squeeze m S4096 squeezes_S1x1x1x4096_S4096) (Memref.slice_unit_congr _ ((k0_off319_eq L).trans (show _ = subOff L 11 5 from rfl)) _ _ _ (fun _ => rfl))
@[sl_canon] theorem canon_os_k0_off320 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off320 L) S1x1x1x4096.size hh) hs).squeeze S4096 squeezes_S1x1x1x4096_S4096 = oSub L 11 6 :=
  congrArg (fun m => Memref.squeeze m S4096 squeezes_S1x1x1x4096_S4096) (Memref.slice_unit_congr _ ((k0_off320_eq L).trans (show _ = subOff L 11 6 from rfl)) _ _ _ (fun _ => rfl))
@[sl_canon] theorem canon_os_k0_off321 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off321 L) S1x1x1x4096.size hh) hs).squeeze S4096 squeezes_S1x1x1x4096_S4096 = oSub L 11 7 :=
  congrArg (fun m => Memref.squeeze m S4096 squeezes_S1x1x1x4096_S4096) (Memref.slice_unit_congr _ ((k0_off321_eq L).trans (show _ = subOff L 11 7 from rfl)) _ _ _ (fun _ => rfl))
@[sl_canon] theorem canon_os_k0_off322 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off322 L) S1x1x1x4096.size hh) hs).squeeze S4096 squeezes_S1x1x1x4096_S4096 = oSub L 12 0 :=
  congrArg (fun m => Memref.squeeze m S4096 squeezes_S1x1x1x4096_S4096) (Memref.slice_unit_congr _ ((k0_off322_eq L).trans (show _ = subOff L 12 0 from rfl)) _ _ _ (fun _ => rfl))
@[sl_canon] theorem canon_os_k0_off323 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off323 L) S1x1x1x4096.size hh) hs).squeeze S4096 squeezes_S1x1x1x4096_S4096 = oSub L 12 1 :=
  congrArg (fun m => Memref.squeeze m S4096 squeezes_S1x1x1x4096_S4096) (Memref.slice_unit_congr _ ((k0_off323_eq L).trans (show _ = subOff L 12 1 from rfl)) _ _ _ (fun _ => rfl))
@[sl_canon] theorem canon_os_k0_off324 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off324 L) S1x1x1x4096.size hh) hs).squeeze S4096 squeezes_S1x1x1x4096_S4096 = oSub L 12 2 :=
  congrArg (fun m => Memref.squeeze m S4096 squeezes_S1x1x1x4096_S4096) (Memref.slice_unit_congr _ ((k0_off324_eq L).trans (show _ = subOff L 12 2 from rfl)) _ _ _ (fun _ => rfl))
@[sl_canon] theorem canon_os_k0_off325 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off325 L) S1x1x1x4096.size hh) hs).squeeze S4096 squeezes_S1x1x1x4096_S4096 = oSub L 12 3 :=
  congrArg (fun m => Memref.squeeze m S4096 squeezes_S1x1x1x4096_S4096) (Memref.slice_unit_congr _ ((k0_off325_eq L).trans (show _ = subOff L 12 3 from rfl)) _ _ _ (fun _ => rfl))
@[sl_canon] theorem canon_os_k0_off326 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off326 L) S1x1x1x4096.size hh) hs).squeeze S4096 squeezes_S1x1x1x4096_S4096 = oSub L 12 4 :=
  congrArg (fun m => Memref.squeeze m S4096 squeezes_S1x1x1x4096_S4096) (Memref.slice_unit_congr _ ((k0_off326_eq L).trans (show _ = subOff L 12 4 from rfl)) _ _ _ (fun _ => rfl))
@[sl_canon] theorem canon_os_k0_off327 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off327 L) S1x1x1x4096.size hh) hs).squeeze S4096 squeezes_S1x1x1x4096_S4096 = oSub L 12 5 :=
  congrArg (fun m => Memref.squeeze m S4096 squeezes_S1x1x1x4096_S4096) (Memref.slice_unit_congr _ ((k0_off327_eq L).trans (show _ = subOff L 12 5 from rfl)) _ _ _ (fun _ => rfl))
@[sl_canon] theorem canon_os_k0_off328 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off328 L) S1x1x1x4096.size hh) hs).squeeze S4096 squeezes_S1x1x1x4096_S4096 = oSub L 12 6 :=
  congrArg (fun m => Memref.squeeze m S4096 squeezes_S1x1x1x4096_S4096) (Memref.slice_unit_congr _ ((k0_off328_eq L).trans (show _ = subOff L 12 6 from rfl)) _ _ _ (fun _ => rfl))
@[sl_canon] theorem canon_os_k0_off329 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off329 L) S1x1x1x4096.size hh) hs).squeeze S4096 squeezes_S1x1x1x4096_S4096 = oSub L 12 7 :=
  congrArg (fun m => Memref.squeeze m S4096 squeezes_S1x1x1x4096_S4096) (Memref.slice_unit_congr _ ((k0_off329_eq L).trans (show _ = subOff L 12 7 from rfl)) _ _ _ (fun _ => rfl))
@[sl_canon] theorem canon_os_k0_off330 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off330 L) S1x1x1x4096.size hh) hs).squeeze S4096 squeezes_S1x1x1x4096_S4096 = oSub L 13 0 :=
  congrArg (fun m => Memref.squeeze m S4096 squeezes_S1x1x1x4096_S4096) (Memref.slice_unit_congr _ ((k0_off330_eq L).trans (show _ = subOff L 13 0 from rfl)) _ _ _ (fun _ => rfl))
@[sl_canon] theorem canon_os_k0_off331 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off331 L) S1x1x1x4096.size hh) hs).squeeze S4096 squeezes_S1x1x1x4096_S4096 = oSub L 13 1 :=
  congrArg (fun m => Memref.squeeze m S4096 squeezes_S1x1x1x4096_S4096) (Memref.slice_unit_congr _ ((k0_off331_eq L).trans (show _ = subOff L 13 1 from rfl)) _ _ _ (fun _ => rfl))
@[sl_canon] theorem canon_os_k0_off332 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off332 L) S1x1x1x4096.size hh) hs).squeeze S4096 squeezes_S1x1x1x4096_S4096 = oSub L 13 2 :=
  congrArg (fun m => Memref.squeeze m S4096 squeezes_S1x1x1x4096_S4096) (Memref.slice_unit_congr _ ((k0_off332_eq L).trans (show _ = subOff L 13 2 from rfl)) _ _ _ (fun _ => rfl))
@[sl_canon] theorem canon_os_k0_off333 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off333 L) S1x1x1x4096.size hh) hs).squeeze S4096 squeezes_S1x1x1x4096_S4096 = oSub L 13 3 :=
  congrArg (fun m => Memref.squeeze m S4096 squeezes_S1x1x1x4096_S4096) (Memref.slice_unit_congr _ ((k0_off333_eq L).trans (show _ = subOff L 13 3 from rfl)) _ _ _ (fun _ => rfl))
@[sl_canon] theorem canon_os_k0_off334 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off334 L) S1x1x1x4096.size hh) hs).squeeze S4096 squeezes_S1x1x1x4096_S4096 = oSub L 13 4 :=
  congrArg (fun m => Memref.squeeze m S4096 squeezes_S1x1x1x4096_S4096) (Memref.slice_unit_congr _ ((k0_off334_eq L).trans (show _ = subOff L 13 4 from rfl)) _ _ _ (fun _ => rfl))
@[sl_canon] theorem canon_os_k0_off335 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off335 L) S1x1x1x4096.size hh) hs).squeeze S4096 squeezes_S1x1x1x4096_S4096 = oSub L 13 5 :=
  congrArg (fun m => Memref.squeeze m S4096 squeezes_S1x1x1x4096_S4096) (Memref.slice_unit_congr _ ((k0_off335_eq L).trans (show _ = subOff L 13 5 from rfl)) _ _ _ (fun _ => rfl))
@[sl_canon] theorem canon_os_k0_off336 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off336 L) S1x1x1x4096.size hh) hs).squeeze S4096 squeezes_S1x1x1x4096_S4096 = oSub L 13 6 :=
  congrArg (fun m => Memref.squeeze m S4096 squeezes_S1x1x1x4096_S4096) (Memref.slice_unit_congr _ ((k0_off336_eq L).trans (show _ = subOff L 13 6 from rfl)) _ _ _ (fun _ => rfl))
@[sl_canon] theorem canon_os_k0_off337 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off337 L) S1x1x1x4096.size hh) hs).squeeze S4096 squeezes_S1x1x1x4096_S4096 = oSub L 13 7 :=
  congrArg (fun m => Memref.squeeze m S4096 squeezes_S1x1x1x4096_S4096) (Memref.slice_unit_congr _ ((k0_off337_eq L).trans (show _ = subOff L 13 7 from rfl)) _ _ _ (fun _ => rfl))
@[sl_canon] theorem canon_os_k0_off338 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off338 L) S1x1x1x4096.size hh) hs).squeeze S4096 squeezes_S1x1x1x4096_S4096 = oSub L 14 0 :=
  congrArg (fun m => Memref.squeeze m S4096 squeezes_S1x1x1x4096_S4096) (Memref.slice_unit_congr _ ((k0_off338_eq L).trans (show _ = subOff L 14 0 from rfl)) _ _ _ (fun _ => rfl))
@[sl_canon] theorem canon_os_k0_off339 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off339 L) S1x1x1x4096.size hh) hs).squeeze S4096 squeezes_S1x1x1x4096_S4096 = oSub L 14 1 :=
  congrArg (fun m => Memref.squeeze m S4096 squeezes_S1x1x1x4096_S4096) (Memref.slice_unit_congr _ ((k0_off339_eq L).trans (show _ = subOff L 14 1 from rfl)) _ _ _ (fun _ => rfl))
@[sl_canon] theorem canon_os_k0_off340 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off340 L) S1x1x1x4096.size hh) hs).squeeze S4096 squeezes_S1x1x1x4096_S4096 = oSub L 14 2 :=
  congrArg (fun m => Memref.squeeze m S4096 squeezes_S1x1x1x4096_S4096) (Memref.slice_unit_congr _ ((k0_off340_eq L).trans (show _ = subOff L 14 2 from rfl)) _ _ _ (fun _ => rfl))
@[sl_canon] theorem canon_os_k0_off341 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off341 L) S1x1x1x4096.size hh) hs).squeeze S4096 squeezes_S1x1x1x4096_S4096 = oSub L 14 3 :=
  congrArg (fun m => Memref.squeeze m S4096 squeezes_S1x1x1x4096_S4096) (Memref.slice_unit_congr _ ((k0_off341_eq L).trans (show _ = subOff L 14 3 from rfl)) _ _ _ (fun _ => rfl))
@[sl_canon] theorem canon_os_k0_off342 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off342 L) S1x1x1x4096.size hh) hs).squeeze S4096 squeezes_S1x1x1x4096_S4096 = oSub L 14 4 :=
  congrArg (fun m => Memref.squeeze m S4096 squeezes_S1x1x1x4096_S4096) (Memref.slice_unit_congr _ ((k0_off342_eq L).trans (show _ = subOff L 14 4 from rfl)) _ _ _ (fun _ => rfl))
@[sl_canon] theorem canon_os_k0_off343 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off343 L) S1x1x1x4096.size hh) hs).squeeze S4096 squeezes_S1x1x1x4096_S4096 = oSub L 14 5 :=
  congrArg (fun m => Memref.squeeze m S4096 squeezes_S1x1x1x4096_S4096) (Memref.slice_unit_congr _ ((k0_off343_eq L).trans (show _ = subOff L 14 5 from rfl)) _ _ _ (fun _ => rfl))
@[sl_canon] theorem canon_os_k0_off344 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off344 L) S1x1x1x4096.size hh) hs).squeeze S4096 squeezes_S1x1x1x4096_S4096 = oSub L 14 6 :=
  congrArg (fun m => Memref.squeeze m S4096 squeezes_S1x1x1x4096_S4096) (Memref.slice_unit_congr _ ((k0_off344_eq L).trans (show _ = subOff L 14 6 from rfl)) _ _ _ (fun _ => rfl))
@[sl_canon] theorem canon_os_k0_off345 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off345 L) S1x1x1x4096.size hh) hs).squeeze S4096 squeezes_S1x1x1x4096_S4096 = oSub L 14 7 :=
  congrArg (fun m => Memref.squeeze m S4096 squeezes_S1x1x1x4096_S4096) (Memref.slice_unit_congr _ ((k0_off345_eq L).trans (show _ = subOff L 14 7 from rfl)) _ _ _ (fun _ => rfl))
@[sl_canon] theorem canon_os_k0_off346 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off346 L) S1x1x1x4096.size hh) hs).squeeze S4096 squeezes_S1x1x1x4096_S4096 = oSub L 15 0 :=
  congrArg (fun m => Memref.squeeze m S4096 squeezes_S1x1x1x4096_S4096) (Memref.slice_unit_congr _ ((k0_off346_eq L).trans (show _ = subOff L 15 0 from rfl)) _ _ _ (fun _ => rfl))
@[sl_canon] theorem canon_os_k0_off347 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off347 L) S1x1x1x4096.size hh) hs).squeeze S4096 squeezes_S1x1x1x4096_S4096 = oSub L 15 1 :=
  congrArg (fun m => Memref.squeeze m S4096 squeezes_S1x1x1x4096_S4096) (Memref.slice_unit_congr _ ((k0_off347_eq L).trans (show _ = subOff L 15 1 from rfl)) _ _ _ (fun _ => rfl))
@[sl_canon] theorem canon_os_k0_off348 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off348 L) S1x1x1x4096.size hh) hs).squeeze S4096 squeezes_S1x1x1x4096_S4096 = oSub L 15 2 :=
  congrArg (fun m => Memref.squeeze m S4096 squeezes_S1x1x1x4096_S4096) (Memref.slice_unit_congr _ ((k0_off348_eq L).trans (show _ = subOff L 15 2 from rfl)) _ _ _ (fun _ => rfl))
@[sl_canon] theorem canon_os_k0_off349 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off349 L) S1x1x1x4096.size hh) hs).squeeze S4096 squeezes_S1x1x1x4096_S4096 = oSub L 15 3 :=
  congrArg (fun m => Memref.squeeze m S4096 squeezes_S1x1x1x4096_S4096) (Memref.slice_unit_congr _ ((k0_off349_eq L).trans (show _ = subOff L 15 3 from rfl)) _ _ _ (fun _ => rfl))
@[sl_canon] theorem canon_os_k0_off350 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off350 L) S1x1x1x4096.size hh) hs).squeeze S4096 squeezes_S1x1x1x4096_S4096 = oSub L 15 4 :=
  congrArg (fun m => Memref.squeeze m S4096 squeezes_S1x1x1x4096_S4096) (Memref.slice_unit_congr _ ((k0_off350_eq L).trans (show _ = subOff L 15 4 from rfl)) _ _ _ (fun _ => rfl))
@[sl_canon] theorem canon_os_k0_off351 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off351 L) S1x1x1x4096.size hh) hs).squeeze S4096 squeezes_S1x1x1x4096_S4096 = oSub L 15 5 :=
  congrArg (fun m => Memref.squeeze m S4096 squeezes_S1x1x1x4096_S4096) (Memref.slice_unit_congr _ ((k0_off351_eq L).trans (show _ = subOff L 15 5 from rfl)) _ _ _ (fun _ => rfl))
@[sl_canon] theorem canon_os_k0_off352 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off352 L) S1x1x1x4096.size hh) hs).squeeze S4096 squeezes_S1x1x1x4096_S4096 = oSub L 15 6 :=
  congrArg (fun m => Memref.squeeze m S4096 squeezes_S1x1x1x4096_S4096) (Memref.slice_unit_congr _ ((k0_off352_eq L).trans (show _ = subOff L 15 6 from rfl)) _ _ _ (fun _ => rfl))
@[sl_canon] theorem canon_os_k0_off353 (L : grid0.Coords) (hh) (hs) : ((Memref.whole Cert.KernelIdeal.main_v0_scv : Memref Cert.KernelIdeal.sig Kind.scVector Space.hbm Cert.KernelIdeal.S16x8x2x65536 EltTy.f32).slice (Rect.unit (s := S16x8x2x65536) (k0_off353 L) S1x1x1x4096.size hh) hs).squeeze S4096 squeezes_S1x1x1x4096_S4096 = oSub L 15 7 :=
  congrArg (fun m => Memref.squeeze m S4096 squeezes_S1x1x1x4096_S4096) (Memref.slice_unit_congr _ ((k0_off353_eq L).trans (show _ = subOff L 15 7 from rfl)) _ _ _ (fun _ => rfl))
@[sl_canon] theorem canon_sh_k0_off1 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off1 L) S32768.size hh) hs = shB0 L :=
  Memref.slice_unit_congr _ (k0_off1_eq L) _ _ _ (fun _ => rfl)
@[sl_canon] theorem canon_sh_k0_off4 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off4 L) S32768.size hh) hs = shB1 L :=
  Memref.slice_unit_congr _ (k0_off4_eq L) _ _ _ (fun _ => rfl)
@[sl_canon] theorem canon_sh_k0_off14 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off14 L) S32768.size hh) hs = shB0 L :=
  Memref.slice_unit_congr _ (k0_off14_eq L) _ _ _ (fun _ => rfl)
@[sl_canon] theorem canon_sh_k0_off16 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off16 L) S32768.size hh) hs = shB2 L :=
  Memref.slice_unit_congr _ (k0_off16_eq L) _ _ _ (fun _ => rfl)
@[sl_canon] theorem canon_sh_k0_off26 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off26 L) S32768.size hh) hs = shB1 L :=
  Memref.slice_unit_congr _ (k0_off26_eq L) _ _ _ (fun _ => rfl)
@[sl_canon] theorem canon_sh_k0_off29 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off29 L) S32768.size hh) hs = shB0 L :=
  Memref.slice_unit_congr _ (k0_off29_eq L) _ _ _ (fun _ => rfl)
@[sl_canon] theorem canon_sh_k0_off30 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off30 L) S32768.size hh) hs = shB0 L :=
  Memref.slice_unit_congr _ (k0_off30_eq L) _ _ _ (fun _ => rfl)
@[sl_canon] theorem canon_sh_k0_off40 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off40 L) S32768.size hh) hs = shB2 L :=
  Memref.slice_unit_congr _ (k0_off40_eq L) _ _ _ (fun _ => rfl)
@[sl_canon] theorem canon_sh_k0_off43 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off43 L) S32768.size hh) hs = shB1 L :=
  Memref.slice_unit_congr _ (k0_off43_eq L) _ _ _ (fun _ => rfl)
@[sl_canon] theorem canon_sh_k0_off44 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off44 L) S32768.size hh) hs = shB1 L :=
  Memref.slice_unit_congr _ (k0_off44_eq L) _ _ _ (fun _ => rfl)
@[sl_canon] theorem canon_sh_k0_off54 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off54 L) S32768.size hh) hs = shB0 L :=
  Memref.slice_unit_congr _ (k0_off54_eq L) _ _ _ (fun _ => rfl)
@[sl_canon] theorem canon_sh_k0_off57 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off57 L) S32768.size hh) hs = shB2 L :=
  Memref.slice_unit_congr _ (k0_off57_eq L) _ _ _ (fun _ => rfl)
@[sl_canon] theorem canon_sh_k0_off58 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off58 L) S32768.size hh) hs = shB2 L :=
  Memref.slice_unit_congr _ (k0_off58_eq L) _ _ _ (fun _ => rfl)
@[sl_canon] theorem canon_sh_k0_off68 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off68 L) S32768.size hh) hs = shB1 L :=
  Memref.slice_unit_congr _ (k0_off68_eq L) _ _ _ (fun _ => rfl)
@[sl_canon] theorem canon_sh_k0_off71 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off71 L) S32768.size hh) hs = shB0 L :=
  Memref.slice_unit_congr _ (k0_off71_eq L) _ _ _ (fun _ => rfl)
@[sl_canon] theorem canon_sh_k0_off72 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off72 L) S32768.size hh) hs = shB0 L :=
  Memref.slice_unit_congr _ (k0_off72_eq L) _ _ _ (fun _ => rfl)
@[sl_canon] theorem canon_sh_k0_off82 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off82 L) S32768.size hh) hs = shB2 L :=
  Memref.slice_unit_congr _ (k0_off82_eq L) _ _ _ (fun _ => rfl)
@[sl_canon] theorem canon_sh_k0_off85 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off85 L) S32768.size hh) hs = shB1 L :=
  Memref.slice_unit_congr _ (k0_off85_eq L) _ _ _ (fun _ => rfl)
@[sl_canon] theorem canon_sh_k0_off86 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off86 L) S32768.size hh) hs = shB1 L :=
  Memref.slice_unit_congr _ (k0_off86_eq L) _ _ _ (fun _ => rfl)
@[sl_canon] theorem canon_sh_k0_off96 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off96 L) S32768.size hh) hs = shB0 L :=
  Memref.slice_unit_congr _ (k0_off96_eq L) _ _ _ (fun _ => rfl)
@[sl_canon] theorem canon_sh_k0_off99 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off99 L) S32768.size hh) hs = shB2 L :=
  Memref.slice_unit_congr _ (k0_off99_eq L) _ _ _ (fun _ => rfl)
@[sl_canon] theorem canon_sh_k0_off100 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off100 L) S32768.size hh) hs = shB2 L :=
  Memref.slice_unit_congr _ (k0_off100_eq L) _ _ _ (fun _ => rfl)
@[sl_canon] theorem canon_sh_k0_off110 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off110 L) S32768.size hh) hs = shB1 L :=
  Memref.slice_unit_congr _ (k0_off110_eq L) _ _ _ (fun _ => rfl)
@[sl_canon] theorem canon_sh_k0_off113 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off113 L) S32768.size hh) hs = shB0 L :=
  Memref.slice_unit_congr _ (k0_off113_eq L) _ _ _ (fun _ => rfl)
@[sl_canon] theorem canon_sh_k0_off114 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off114 L) S32768.size hh) hs = shB0 L :=
  Memref.slice_unit_congr _ (k0_off114_eq L) _ _ _ (fun _ => rfl)
@[sl_canon] theorem canon_sh_k0_off124 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off124 L) S32768.size hh) hs = shB2 L :=
  Memref.slice_unit_congr _ (k0_off124_eq L) _ _ _ (fun _ => rfl)
@[sl_canon] theorem canon_sh_k0_off127 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off127 L) S32768.size hh) hs = shB1 L :=
  Memref.slice_unit_congr _ (k0_off127_eq L) _ _ _ (fun _ => rfl)
@[sl_canon] theorem canon_sh_k0_off128 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off128 L) S32768.size hh) hs = shB1 L :=
  Memref.slice_unit_congr _ (k0_off128_eq L) _ _ _ (fun _ => rfl)
@[sl_canon] theorem canon_sh_k0_off138 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off138 L) S32768.size hh) hs = shB0 L :=
  Memref.slice_unit_congr _ (k0_off138_eq L) _ _ _ (fun _ => rfl)
@[sl_canon] theorem canon_sh_k0_off141 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off141 L) S32768.size hh) hs = shB2 L :=
  Memref.slice_unit_congr _ (k0_off141_eq L) _ _ _ (fun _ => rfl)
@[sl_canon] theorem canon_sh_k0_off142 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off142 L) S32768.size hh) hs = shB2 L :=
  Memref.slice_unit_congr _ (k0_off142_eq L) _ _ _ (fun _ => rfl)
@[sl_canon] theorem canon_sh_k0_off152 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off152 L) S32768.size hh) hs = shB1 L :=
  Memref.slice_unit_congr _ (k0_off152_eq L) _ _ _ (fun _ => rfl)
@[sl_canon] theorem canon_sh_k0_off155 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off155 L) S32768.size hh) hs = shB0 L :=
  Memref.slice_unit_congr _ (k0_off155_eq L) _ _ _ (fun _ => rfl)
@[sl_canon] theorem canon_sh_k0_off156 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off156 L) S32768.size hh) hs = shB0 L :=
  Memref.slice_unit_congr _ (k0_off156_eq L) _ _ _ (fun _ => rfl)
@[sl_canon] theorem canon_sh_k0_off166 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off166 L) S32768.size hh) hs = shB2 L :=
  Memref.slice_unit_congr _ (k0_off166_eq L) _ _ _ (fun _ => rfl)
@[sl_canon] theorem canon_sh_k0_off169 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off169 L) S32768.size hh) hs = shB1 L :=
  Memref.slice_unit_congr _ (k0_off169_eq L) _ _ _ (fun _ => rfl)
@[sl_canon] theorem canon_sh_k0_off170 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off170 L) S32768.size hh) hs = shB1 L :=
  Memref.slice_unit_congr _ (k0_off170_eq L) _ _ _ (fun _ => rfl)
@[sl_canon] theorem canon_sh_k0_off180 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off180 L) S32768.size hh) hs = shB0 L :=
  Memref.slice_unit_congr _ (k0_off180_eq L) _ _ _ (fun _ => rfl)
@[sl_canon] theorem canon_sh_k0_off183 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off183 L) S32768.size hh) hs = shB2 L :=
  Memref.slice_unit_congr _ (k0_off183_eq L) _ _ _ (fun _ => rfl)
@[sl_canon] theorem canon_sh_k0_off184 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off184 L) S32768.size hh) hs = shB2 L :=
  Memref.slice_unit_congr _ (k0_off184_eq L) _ _ _ (fun _ => rfl)
@[sl_canon] theorem canon_sh_k0_off194 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off194 L) S32768.size hh) hs = shB1 L :=
  Memref.slice_unit_congr _ (k0_off194_eq L) _ _ _ (fun _ => rfl)
@[sl_canon] theorem canon_sh_k0_off197 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off197 L) S32768.size hh) hs = shB0 L :=
  Memref.slice_unit_congr _ (k0_off197_eq L) _ _ _ (fun _ => rfl)
@[sl_canon] theorem canon_sh_k0_off198 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off198 L) S32768.size hh) hs = shB0 L :=
  Memref.slice_unit_congr _ (k0_off198_eq L) _ _ _ (fun _ => rfl)
@[sl_canon] theorem canon_sh_k0_off208 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off208 L) S32768.size hh) hs = shB2 L :=
  Memref.slice_unit_congr _ (k0_off208_eq L) _ _ _ (fun _ => rfl)
@[sl_canon] theorem canon_sh_k0_off218 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off218 L) S32768.size hh) hs = shB0 L :=
  Memref.slice_unit_congr _ (k0_off218_eq L) _ _ _ (fun _ => rfl)
@[sl_canon] theorem canon_sh_k0_off221 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off221 L) S32768.size hh) hs = shB1 L :=
  Memref.slice_unit_congr _ (k0_off221_eq L) _ _ _ (fun _ => rfl)
@[sl_canon] theorem canon_sh_k0_off223 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off223 L) S32768.size hh) hs = shB2 L :=
  Memref.slice_unit_congr _ (k0_off223_eq L) _ _ _ (fun _ => rfl)
@[sl_canon] theorem canon_sh_k0_off225 (L : grid0.Coords) (hh) (hs) : (Memref.whole Cert.KernelIdeal.cc0_scratch2 : Memref Cert.KernelIdeal.sig Kind.scVector Space.shared Cert.KernelIdeal.S1572864 EltTy.f32).slice (Rect.unit (s := S1572864) (k0_off225 L) S32768.size hh) hs = shB0 L :=
  Memref.slice_unit_congr _ (k0_off225_eq L) _ _ _ (fun _ => rfl)

end Cert.Proof.KI

end
-- ==== Proof.KIValue.lean ====
/-
  The values a tile leaves in its part of the result.

  A list of writes whose newest piece covers the whole view makes the view read that piece's payload, whatever came before.
  A chunk copied through a staging buffer therefore holds the recordings' entries: the staging buffer reads the chunk of the
  recordings, the chunk of the result reads the staging buffer, and the two chunks address the same elements of their arrays.
  A window written whole from a buffer of zeros holds zero. On the indices of chunk k of tile L the specification reads the
  stream number of recording L 1 and compares it with stream 4·(L 0) + k / 4: it is the recordings' entry when they differ and
  zero when they agree. So a copied chunk of another stream, and a zeroed window of the named stream, hold the specification.
-/
import proofs.«218968_g36790689857971_cont_8to1_b_1381_24_alg».proof.Proof.KITile

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## A whole-shape piece at the head of a list of writes decides the view -/

section Whole
variable {sig' : RefSig} {κ' : Kind} {sp' : Space} {s' : Shape} {e' : EltTy} {Val : EltTy → Type}

/-- V1. After a list of writes whose newest piece covers the whole view, the view reads that piece's payload. -/
theorem read_writes_whole (v : View sig' κ' sp' s' e') (f : v.ty.Contents Val) (p : (Rect.whole s').shape.Idx → Val e')
    (Ls : List (View.Piece Val s' e')) :
    v.read Val (v.writes Val f (⟨Rect.whole s', p⟩ :: Ls)) = p := by
  funext y
  have h := View.read_writes_cons_emb v f (Rect.whole s') p Ls y
  rwa [Rect.emb_whole_apply] at h

/-- V1, at an index: the element of the buffer under index `y` of the view holds the payload's entry `y`. -/
theorem writes_whole_emb (v : View sig' κ' sp' s' e') (f : v.ty.Contents Val) (p : (Rect.whole s').shape.Idx → Val e')
    (Ls : List (View.Piece Val s' e')) (y : s'.Idx) :
    _root_.cast (congrArg Val v.elt_eq) ((v.writes Val f (⟨Rect.whole s', p⟩ :: Ls)) (v.emb y)) = p y := by
  rw [← View.read_apply, read_writes_whole]

end Whole

/-! ## The chunk's two views -/

/-- V2. Chunk `k` of the recordings and chunk `k` of the result address the same elements of their arrays. -/
theorem chunk_emb_eq (L : grid0.Coords) (k : Fin 16) (y : S32768.Idx) :
    ((aChunk L k).view.emb y : S16x8x2x65536.Idx) = (oChunk L k).view.emb y := rfl

/-! ## What a copied chunk and a silenced window hold -/

/-- V3. A chunk copied through a staging buffer holds the recordings' entries: the staging buffer, whatever it held and whatever
    was written to it before, reads the chunk of the recordings once that is written whole into it, and the chunk of the
    result reads the staging buffer once that is written whole into it. -/
theorem copied_value (L : grid0.Coords) (k : Fin 16) (B : Memref sig .scVector .shared S32768 .f32)
    (fo : (oChunk L k).view.ty.Contents (Elt F)) (fa : (aChunk L k).view.ty.Contents (Elt F))
    (prev : B.view.ty.Contents (Elt F)) (Ls : List (View.Piece (Elt F) S32768 .f32)) :
    ∀ i ∈ chunkSet L k,
      ((oChunk L k).view.writes (Elt F) fo
        [⟨Rect.whole S32768, ReadAs.same.apply (View.read (Elt F) B.view
          (B.view.writes (Elt F) prev
            (⟨Rect.whole S32768, ReadAs.same.apply (View.read (Elt F) (aChunk L k).view fa)⟩ :: Ls)))⟩]) i = fa i := by
  intro i hi
  rw [← oChunk_set] at hi
  obtain ⟨y, -, rfl⟩ := Finset.mem_map.mp hi
  have h1 := writes_whole_emb (Val := Elt F) (oChunk L k).view fo
    (ReadAs.same.apply (View.read (Elt F) B.view
      (B.view.writes (Elt F) prev
        (⟨Rect.whole S32768, ReadAs.same.apply (View.read (Elt F) (aChunk L k).view fa)⟩ :: Ls)))) [] y
  rw [cast_eq] at h1
  rw [h1]
  show View.read (Elt F) B.view _ y = _
  rw [read_writes_whole]
  show View.read (Elt F) (aChunk L k).view fa y = _
  rw [View.read_apply, cast_eq]
  rfl

/-- V4. A window written whole from a buffer of zeros holds zero. -/
theorem zero_value (L : grid0.Coords) (k : Fin 16) (h : Fin 8) (fo : (oSubG L k h).view.ty.Contents (Elt F))
    (fz : (Memref.whole cc0_scratch1 : Memref sig .scVector .vmem S4096 .f32).view.ty.Contents (Elt F))
    (hz : ∀ j, fz j = (FloatOps.ofBits .f32 0x00000000#32 : F .f32)) :
    ∀ i ∈ subSet L k h,
      ((oSubG L k h).view.writes (Elt F) fo
        [⟨Rect.whole S4096, ReadAs.same.apply (View.read (Elt F) (Memref.whole cc0_scratch1).view fz)⟩]) i
        = (FloatOps.ofBits .f32 0x00000000#32 : F .f32) := by
  intro i hi
  rw [← oSubG_set] at hi
  obtain ⟨y, -, rfl⟩ := Finset.mem_map.mp hi
  have h1 := writes_whole_emb (Val := Elt F) (oSubG L k h).view fo
    (ReadAs.same.apply (View.read (Elt F) (Memref.whole cc0_scratch1).view fz)) [] y
  rw [cast_eq] at h1
  rw [h1]
  exact hz y

/-! ## The specification on a chunk -/

/-- An index of chunk `k` of tile `L` has recording `L 1` and stream `4 · (L 0) + k / 4`. -/
theorem chunk_coords (L : grid0.Coords) (k : Fin 16) {i : S16x8x2x65536.Idx} (hi : i ∈ chunkSet L k) :
    (i 0).val = (L 1).val ∧ (i 1).val = 4 * (L 0).val + k.val / 4 := by
  simp only [chunkSet, Finset.mem_filter, Finset.mem_univ, true_and] at hi
  exact ⟨hi.1, hi.2.1⟩

/-- The stream number the specification reads at an index of the chunk is the one of the tile's recording. -/
theorem spec_src (L : grid0.Coords) (k : Fin 16) (fs : Vec F Cert.Spec.SI .i32) {i : S16x8x2x65536.Idx}
    (hi : i ∈ chunkSet L k) :
    (fs (Idealize.ShloMosaic.ValueIdx.ix1 (i 0))).toNat = (fs (Idealize.ShloMosaic.ValueIdx.ix1 (wL L))).toNat :=
  congrArg (fun a : Fin 16 => (fs (Idealize.ShloMosaic.ValueIdx.ix1 a)).toNat) (Fin.ext (chunk_coords L k hi).1)

/-- V5. On a chunk whose stream is not the named one, the specification keeps the recordings … -/
theorem G_keep (L : grid0.Coords) (k : Fin 16) (fa : Vec F Cert.Spec.SA .f32) (fs : Vec F Cert.Spec.SI .i32)
    (hne : (fs (Idealize.ShloMosaic.ValueIdx.ix1 (wL L))).toNat ≠ 4 * (L 0).val + k.val / 4) :
    ∀ i ∈ chunkSet L k, Cert.Spec.G fa fs i = fa i := fun i hi =>
  (Cert.Spec.G_apply fa fs i).trans
    (if_neg fun e => hne ((spec_src L k fs hi).symm.trans (e.trans (chunk_coords L k hi).2)))

/-- … and on a chunk whose stream is the named one, it is zero. -/
theorem G_zero (L : grid0.Coords) (k : Fin 16) (fa : Vec F Cert.Spec.SA .f32) (fs : Vec F Cert.Spec.SI .i32)
    (heq : (fs (Idealize.ShloMosaic.ValueIdx.ix1 (wL L))).toNat = 4 * (L 0).val + k.val / 4) :
    ∀ i ∈ chunkSet L k, Cert.Spec.G fa fs i = (FloatOps.ofBits .f32 0x00000000#32 : F .f32) := fun i hi =>
  (Cert.Spec.G_apply fa fs i).trans
    (if_pos ((spec_src L k fs hi).trans (heq.trans (chunk_coords L k hi).2.symm)))

/-! ## The two combined -/

/-- V6. A copied chunk of a stream that is not the named one holds the specification's entries … -/
theorem copied_is_G (L : grid0.Coords) (k : Fin 16) (B : Memref sig .scVector .shared S32768 .f32)
    (fo : (oChunk L k).view.ty.Contents (Elt F)) (fa : (aChunk L k).view.ty.Contents (Elt F))
    (prev : B.view.ty.Contents (Elt F)) (Ls : List (View.Piece (Elt F) S32768 .f32)) (fs : Vec F Cert.Spec.SI .i32)
    (hne : (fs (Idealize.ShloMosaic.ValueIdx.ix1 (wL L))).toNat ≠ 4 * (L 0).val + k.val / 4) :
    ∀ i ∈ chunkSet L k,
      ((oChunk L k).view.writes (Elt F) fo
        [⟨Rect.whole S32768, ReadAs.same.apply (View.read (Elt F) B.view
          (B.view.writes (Elt F) prev
            (⟨Rect.whole S32768, ReadAs.same.apply (View.read (Elt F) (aChunk L k).view fa)⟩ :: Ls)))⟩]) i
        = Cert.Spec.G fa fs i := fun i hi =>
  (copied_value L k B fo fa prev Ls i hi).trans (G_keep L k fa fs hne i hi).symm

/-- … and a window of a chunk of the named stream, written whole from a buffer of zeros, does too. -/
theorem zero_is_G (L : grid0.Coords) (k : Fin 16) (h : Fin 8) (fo : (oSubG L k h).view.ty.Contents (Elt F))
    (fz : (Memref.whole cc0_scratch1 : Memref sig .scVector .vmem S4096 .f32).view.ty.Contents (Elt F))
    (fa : Vec F Cert.Spec.SA .f32) (fs : Vec F Cert.Spec.SI .i32)
    (heq : (fs (Idealize.ShloMosaic.ValueIdx.ix1 (wL L))).toNat = 4 * (L 0).val + k.val / 4)
    (hz : ∀ j, fz j = (FloatOps.ofBits .f32 0x00000000#32 : F .f32)) :
    ∀ i ∈ subSet L k h,
      ((oSubG L k h).view.writes (Elt F) fo
        [⟨Rect.whole S4096, ReadAs.same.apply (View.read (Elt F) (Memref.whole cc0_scratch1).view fz)⟩]) i
        = Cert.Spec.G fa fs i := fun i hi =>
  (zero_value L k h fo fz hz i hi).trans (G_zero L k fa fs heq i (mem_subSet_chunk hi)).symm

end Cert.Proof.KI

end
-- ==== Proof.KICase0.lean ====
import proofs.«218968_g36790689857971_cont_8to1_b_1381_24_alg».proof.Proof.KISetup
import proofs.«218968_g36790689857971_cont_8to1_b_1381_24_alg».proof.Proof.KICanon
import proofs.«218968_g36790689857971_cont_8to1_b_1381_24_alg».proof.Proof.KIValue

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.KernelIdeal.main_arg0_scv : Memref Cert.KernelIdeal.sig Kind.scVector Space.hbm Cert.KernelIdeal.S16x8x2x65536 EltTy.f32)
local notation "sW" => (Memref.whole Cert.KernelIdeal.main_arg1_scv : Memref Cert.KernelIdeal.sig Kind.scVector Space.hbm Cert.KernelIdeal.S16 EltTy.i32)
local notation "oW" => (Memref.whole Cert.KernelIdeal.main_v0_scv : Memref Cert.KernelIdeal.sig Kind.scVector Space.hbm Cert.KernelIdeal.S16x8x2x65536 EltTy.f32)
local notation "b0W" => (Memref.whole Cert.KernelIdeal.cc0_scratch0 : Memref Cert.KernelIdeal.sig Kind.scVector Space.vmem Cert.KernelIdeal.S16 EltTy.i32)
local notation "b1W" => (Memref.whole Cert.KernelIdeal.cc0_scratch1 : Memref Cert.KernelIdeal.sig Kind.scVector Space.vmem Cert.KernelIdeal.S4096 EltTy.f32)
local notation "shW" => (Memref.whole Cert.KernelIdeal.cc0_scratch2 : Memref Cert.KernelIdeal.sig Kind.scVector Space.shared Cert.KernelIdeal.S1572864 EltTy.f32)

/-! ## The tile's task when it silences nothing

The stream number of the tile's recording is none of the tile's four streams: all eight flags are 0, every chunk is copied.
The run: the stream numbers into the scratch; eight lane gathers, each flag read off as a literal; the zero buffer filled
by the counted loop; then per chunk the copy into a staging buffer and out. After it every chunk piece of the
result holds the specification's values. -/

open Lean Elab Tactic Meta in
/-- Unfold, in the goal, every value the run named (the auxiliary definitions `….sl.…`). -/
elab "unfold_run_names_ki0" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C0

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : ∀ j, j < 4 → (fs (ValueIdx.ix1 (wL L))).toNat ≠ 4 * (L 0).val + j) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho0' := (Entails.of_eq (och_pts0 (F := F) d L _).symm) $$ Ho0
  ihave Ho1' := (Entails.of_eq (och_pts1 (F := F) d L _).symm) $$ Ho1
  ihave Ho2' := (Entails.of_eq (och_pts2 (F := F) d L _).symm) $$ Ho2
  ihave Ho3' := (Entails.of_eq (och_pts3 (F := F) d L _).symm) $$ Ho3
  ihave Ho4' := (Entails.of_eq (och_pts4 (F := F) d L _).symm) $$ Ho4
  ihave Ho5' := (Entails.of_eq (och_pts5 (F := F) d L _).symm) $$ Ho5
  ihave Ho6' := (Entails.of_eq (och_pts6 (F := F) d L _).symm) $$ Ho6
  ihave Ho7' := (Entails.of_eq (och_pts7 (F := F) d L _).symm) $$ Ho7
  ihave Ho8' := (Entails.of_eq (och_pts8 (F := F) d L _).symm) $$ Ho8
  ihave Ho9' := (Entails.of_eq (och_pts9 (F := F) d L _).symm) $$ Ho9
  ihave Ho10' := (Entails.of_eq (och_pts10 (F := F) d L _).symm) $$ Ho10
  ihave Ho11' := (Entails.of_eq (och_pts11 (F := F) d L _).symm) $$ Ho11
  ihave Ho12' := (Entails.of_eq (och_pts12 (F := F) d L _).symm) $$ Ho12
  ihave Ho13' := (Entails.of_eq (och_pts13 (F := F) d L _).symm) $$ Ho13
  ihave Ho14' := (Entails.of_eq (och_pts14 (F := F) d L _).symm) $$ Ho14
  ihave Ho15' := (Entails.of_eq (och_pts15 (F := F) d L _).symm) $$ Ho15

  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 0#1 := by
    unfold tile_case.sl.v71 tile_case.sl.v70 tile_case.sl.v69
    exact flag_lit_zero d L fs f0 _ _ _ _ _ 0 (by decide) (hidx0 L) (hsw0 L) (hcase 0 (by decide))
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 0#1 := by
    unfold tile_case.sl.v132 tile_case.sl.v131 tile_case.sl.v130
    exact flag_lit_zero d L fs f0 _ _ _ _ _ 0 (by decide) (hidx1 L) (hsw1 L) (hcase 0 (by decide))
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 0#1 := by
    unfold tile_case.sl.v193 tile_case.sl.v192 tile_case.sl.v191
    exact flag_lit_zero d L fs f0 _ _ _ _ _ 1 (by decide) (hidx2 L) (hsw2 L) (hcase 1 (by decide))
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 0#1 := by
    unfold tile_case.sl.v254 tile_case.sl.v253 tile_case.sl.v252
    exact flag_lit_zero d L fs f0 _ _ _ _ _ 1 (by decide) (hidx3 L) (hsw3 L) (hcase 1 (by decide))
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 0#1 := by
    unfold tile_case.sl.v315 tile_case.sl.v314 tile_case.sl.v313
    exact flag_lit_zero d L fs f0 _ _ _ _ _ 2 (by decide) (hidx4 L) (hsw4 L) (hcase 2 (by decide))
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 0#1 := by
    unfold tile_case.sl.v376 tile_case.sl.v375 tile_case.sl.v374
    exact flag_lit_zero d L fs f0 _ _ _ _ _ 2 (by decide) (hidx5 L) (hsw5 L) (hcase 2 (by decide))
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 0#1 := by
    unfold tile_case.sl.v437 tile_case.sl.v436 tile_case.sl.v435
    exact flag_lit_zero d L fs f0 _ _ _ _ _ 3 (by decide) (hidx6 L) (hsw6 L) (hcase 3 (by decide))
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 0#1 := by
    unfold tile_case.sl.v498 tile_case.sl.v497 k0_pay8
    exact flag_lit_zero d L fs f0 _ _ _ _ _ 3 (by decide) (hidx7 L) (hsw7 L) (hcase 3 (by decide))
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0']
  · iapply (chunk_G0 (F := F) d L _ _)
    isplitr
    rotate_left
    · iexact Ho0'
    · ipureintro; unfold_run_names_ki0; exact copied_is_G L 0 (shB0 L) fo fa _ _ fs (hcase 0 (by decide))
  isplitl [Ho1']
  · iapply (chunk_G1 (F := F) d L _ _)
    isplitr
    rotate_left
    · iexact Ho1'
    · ipureintro; unfold_run_names_ki0; exact copied_is_G L 1 (shB1 L) fo fa _ _ fs (hcase 0 (by decide))
  isplitl [Ho2']
  · iapply (chunk_G2 (F := F) d L _ _)
    isplitr
    rotate_left
    · iexact Ho2'
    · ipureintro; unfold_run_names_ki0; exact copied_is_G L 2 (shB2 L) fo fa _ _ fs (hcase 0 (by decide))
  isplitl [Ho3']
  · iapply (chunk_G3 (F := F) d L _ _)
    isplitr
    rotate_left
    · iexact Ho3'
    · ipureintro; unfold_run_names_ki0; exact copied_is_G L 3 (shB0 L) fo fa _ _ fs (hcase 0 (by decide))
  isplitl [Ho4']
  · iapply (chunk_G4 (F := F) d L _ _)
    isplitr
    rotate_left
    · iexact Ho4'
    · ipureintro; unfold_run_names_ki0; exact copied_is_G L 4 (shB1 L) fo fa _ _ fs (hcase 1 (by decide))
  isplitl [Ho5']
  · iapply (chunk_G5 (F := F) d L _ _)
    isplitr
    rotate_left
    · iexact Ho5'
    · ipureintro; unfold_run_names_ki0; exact copied_is_G L 5 (shB2 L) fo fa _ _ fs (hcase 1 (by decide))
  isplitl [Ho6']
  · iapply (chunk_G6 (F := F) d L _ _)
    isplitr
    rotate_left
    · iexact Ho6'
    · ipureintro; unfold_run_names_ki0; exact copied_is_G L 6 (shB0 L) fo fa _ _ fs (hcase 1 (by decide))
  isplitl [Ho7']
  · iapply (chunk_G7 (F := F) d L _ _)
    isplitr
    rotate_left
    · iexact Ho7'
    · ipureintro; unfold_run_names_ki0; exact copied_is_G L 7 (shB1 L) fo fa _ _ fs (hcase 1 (by decide))
  isplitl [Ho8']
  · iapply (chunk_G8 (F := F) d L _ _)
    isplitr
    rotate_left
    · iexact Ho8'
    · ipureintro; unfold_run_names_ki0; exact copied_is_G L 8 (shB2 L) fo fa _ _ fs (hcase 2 (by decide))
  isplitl [Ho9']
  · iapply (chunk_G9 (F := F) d L _ _)
    isplitr
    rotate_left
    · iexact Ho9'
    · ipureintro; unfold_run_names_ki0; exact copied_is_G L 9 (shB0 L) fo fa _ _ fs (hcase 2 (by decide))
  isplitl [Ho10']
  · iapply (chunk_G10 (F := F) d L _ _)
    isplitr
    rotate_left
    · iexact Ho10'
    · ipureintro; unfold_run_names_ki0; exact copied_is_G L 10 (shB1 L) fo fa _ _ fs (hcase 2 (by decide))
  isplitl [Ho11']
  · iapply (chunk_G11 (F := F) d L _ _)
    isplitr
    rotate_left
    · iexact Ho11'
    · ipureintro; unfold_run_names_ki0; exact copied_is_G L 11 (shB2 L) fo fa _ _ fs (hcase 2 (by decide))
  isplitl [Ho12']
  · iapply (chunk_G12 (F := F) d L _ _)
    isplitr
    rotate_left
    · iexact Ho12'
    · ipureintro; unfold_run_names_ki0; exact copied_is_G L 12 (shB0 L) fo fa _ _ fs (hcase 3 (by decide))
  isplitl [Ho13']
  · iapply (chunk_G13 (F := F) d L _ _)
    isplitr
    rotate_left
    · iexact Ho13'
    · ipureintro; unfold_run_names_ki0; exact copied_is_G L 13 (shB1 L) fo fa _ _ fs (hcase 3 (by decide))
  isplitl [Ho14']
  · iapply (chunk_G14 (F := F) d L _ _)
    isplitr
    rotate_left
    · iexact Ho14'
    · ipureintro; unfold_run_names_ki0; exact copied_is_G L 14 (shB2 L) fo fa _ _ fs (hcase 3 (by decide))
  isplitl [Ho15']
  · iapply (chunk_G15 (F := F) d L _ _)
    isplitr
    rotate_left
    · iexact Ho15'
    · ipureintro; unfold_run_names_ki0; exact copied_is_G L 15 (shB0 L) fo fa _ _ fs (hcase 3 (by decide))
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C0

end Cert.Proof.KI

end
-- ==== Proof.KICase1.lean ====
import proofs.«218968_g36790689857971_cont_8to1_b_1381_24_alg».proof.Proof.KISetup
import proofs.«218968_g36790689857971_cont_8to1_b_1381_24_alg».proof.Proof.KICanon
import proofs.«218968_g36790689857971_cont_8to1_b_1381_24_alg».proof.Proof.KIValue

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.KernelIdeal.main_arg0_scv : Memref Cert.KernelIdeal.sig Kind.scVector Space.hbm Cert.KernelIdeal.S16x8x2x65536 EltTy.f32)
local notation "sW" => (Memref.whole Cert.KernelIdeal.main_arg1_scv : Memref Cert.KernelIdeal.sig Kind.scVector Space.hbm Cert.KernelIdeal.S16 EltTy.i32)
local notation "oW" => (Memref.whole Cert.KernelIdeal.main_v0_scv : Memref Cert.KernelIdeal.sig Kind.scVector Space.hbm Cert.KernelIdeal.S16x8x2x65536 EltTy.f32)
local notation "b0W" => (Memref.whole Cert.KernelIdeal.cc0_scratch0 : Memref Cert.KernelIdeal.sig Kind.scVector Space.vmem Cert.KernelIdeal.S16 EltTy.i32)
local notation "b1W" => (Memref.whole Cert.KernelIdeal.cc0_scratch1 : Memref Cert.KernelIdeal.sig Kind.scVector Space.vmem Cert.KernelIdeal.S4096 EltTy.f32)
local notation "shW" => (Memref.whole Cert.KernelIdeal.cc0_scratch2 : Memref Cert.KernelIdeal.sig Kind.scVector Space.shared Cert.KernelIdeal.S1572864 EltTy.f32)

/-! ## The tile's task when it silences stream 4·(L 0) + 0

The stream number of the tile's recording is the tile's stream 0: the flags of its two channels are 1, their four chunks are written with zeros, the other twelve are copied.
The run: the stream numbers into the scratch; eight lane gathers, each flag read off as a literal; the zero buffer filled
by the counted loop; then per chunk the copy into a staging buffer and out, or the eight zero windows on one counter, drained at the end. After it every chunk piece of the
result holds the specification's values. -/

open Lean Elab Tactic Meta in
/-- Unfold, in the goal, every value the run named (the auxiliary definitions `….sl.…`). -/
elab "unfold_run_names_ki1" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C1

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : (fs (ValueIdx.ix1 (wL L))).toNat = 4 * (L 0).val + 0) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho4' := (Entails.of_eq (och_pts4 (F := F) d L _).symm) $$ Ho4
  ihave Ho5' := (Entails.of_eq (och_pts5 (F := F) d L _).symm) $$ Ho5
  ihave Ho6' := (Entails.of_eq (och_pts6 (F := F) d L _).symm) $$ Ho6
  ihave Ho7' := (Entails.of_eq (och_pts7 (F := F) d L _).symm) $$ Ho7
  ihave Ho8' := (Entails.of_eq (och_pts8 (F := F) d L _).symm) $$ Ho8
  ihave Ho9' := (Entails.of_eq (och_pts9 (F := F) d L _).symm) $$ Ho9
  ihave Ho10' := (Entails.of_eq (och_pts10 (F := F) d L _).symm) $$ Ho10
  ihave Ho11' := (Entails.of_eq (och_pts11 (F := F) d L _).symm) $$ Ho11
  ihave Ho12' := (Entails.of_eq (och_pts12 (F := F) d L _).symm) $$ Ho12
  ihave Ho13' := (Entails.of_eq (och_pts13 (F := F) d L _).symm) $$ Ho13
  ihave Ho14' := (Entails.of_eq (och_pts14 (F := F) d L _).symm) $$ Ho14
  ihave Ho15' := (Entails.of_eq (och_pts15 (F := F) d L _).symm) $$ Ho15
  ihave Ho0s := (Entails.of_eq ((o_subSets (F := F) d L 0 fo).trans (bigSep_univ_eight _))) $$ Ho0
  icases Ho0s with ⟨Ho0_0, Ho0_1, Ho0_2, Ho0_3, Ho0_4, Ho0_5, Ho0_6, Ho0_7⟩
  ihave Ho0_0' := (Entails.of_eq (osub_pts (F := F) d L 0 0 _).symm) $$ Ho0_0
  ihave Ho0_1' := (Entails.of_eq (osub_pts (F := F) d L 0 1 _).symm) $$ Ho0_1
  ihave Ho0_2' := (Entails.of_eq (osub_pts (F := F) d L 0 2 _).symm) $$ Ho0_2
  ihave Ho0_3' := (Entails.of_eq (osub_pts (F := F) d L 0 3 _).symm) $$ Ho0_3
  ihave Ho0_4' := (Entails.of_eq (osub_pts (F := F) d L 0 4 _).symm) $$ Ho0_4
  ihave Ho0_5' := (Entails.of_eq (osub_pts (F := F) d L 0 5 _).symm) $$ Ho0_5
  ihave Ho0_6' := (Entails.of_eq (osub_pts (F := F) d L 0 6 _).symm) $$ Ho0_6
  ihave Ho0_7' := (Entails.of_eq (osub_pts (F := F) d L 0 7 _).symm) $$ Ho0_7
  ihave Ho1s := (Entails.of_eq ((o_subSets (F := F) d L 1 fo).trans (bigSep_univ_eight _))) $$ Ho1
  icases Ho1s with ⟨Ho1_0, Ho1_1, Ho1_2, Ho1_3, Ho1_4, Ho1_5, Ho1_6, Ho1_7⟩
  ihave Ho1_0' := (Entails.of_eq (osub_pts (F := F) d L 1 0 _).symm) $$ Ho1_0
  ihave Ho1_1' := (Entails.of_eq (osub_pts (F := F) d L 1 1 _).symm) $$ Ho1_1
  ihave Ho1_2' := (Entails.of_eq (osub_pts (F := F) d L 1 2 _).symm) $$ Ho1_2
  ihave Ho1_3' := (Entails.of_eq (osub_pts (F := F) d L 1 3 _).symm) $$ Ho1_3
  ihave Ho1_4' := (Entails.of_eq (osub_pts (F := F) d L 1 4 _).symm) $$ Ho1_4
  ihave Ho1_5' := (Entails.of_eq (osub_pts (F := F) d L 1 5 _).symm) $$ Ho1_5
  ihave Ho1_6' := (Entails.of_eq (osub_pts (F := F) d L 1 6 _).symm) $$ Ho1_6
  ihave Ho1_7' := (Entails.of_eq (osub_pts (F := F) d L 1 7 _).symm) $$ Ho1_7
  ihave Ho2s := (Entails.of_eq ((o_subSets (F := F) d L 2 fo).trans (bigSep_univ_eight _))) $$ Ho2
  icases Ho2s with ⟨Ho2_0, Ho2_1, Ho2_2, Ho2_3, Ho2_4, Ho2_5, Ho2_6, Ho2_7⟩
  ihave Ho2_0' := (Entails.of_eq (osub_pts (F := F) d L 2 0 _).symm) $$ Ho2_0
  ihave Ho2_1' := (Entails.of_eq (osub_pts (F := F) d L 2 1 _).symm) $$ Ho2_1
  ihave Ho2_2' := (Entails.of_eq (osub_pts (F := F) d L 2 2 _).symm) $$ Ho2_2
  ihave Ho2_3' := (Entails.of_eq (osub_pts (F := F) d L 2 3 _).symm) $$ Ho2_3
  ihave Ho2_4' := (Entails.of_eq (osub_pts (F := F) d L 2 4 _).symm) $$ Ho2_4
  ihave Ho2_5' := (Entails.of_eq (osub_pts (F := F) d L 2 5 _).symm) $$ Ho2_5
  ihave Ho2_6' := (Entails.of_eq (osub_pts (F := F) d L 2 6 _).symm) $$ Ho2_6
  ihave Ho2_7' := (Entails.of_eq (osub_pts (F := F) d L 2 7 _).symm) $$ Ho2_7
  ihave Ho3s := (Entails.of_eq ((o_subSets (F := F) d L 3 fo).trans (bigSep_univ_eight _))) $$ Ho3
  icases Ho3s with ⟨Ho3_0, Ho3_1, Ho3_2, Ho3_3, Ho3_4, Ho3_5, Ho3_6, Ho3_7⟩
  ihave Ho3_0' := (Entails.of_eq (osub_pts (F := F) d L 3 0 _).symm) $$ Ho3_0
  ihave Ho3_1' := (Entails.of_eq (osub_pts (F := F) d L 3 1 _).symm) $$ Ho3_1
  ihave Ho3_2' := (Entails.of_eq (osub_pts (F := F) d L 3 2 _).symm) $$ Ho3_2
  ihave Ho3_3' := (Entails.of_eq (osub_pts (F := F) d L 3 3 _).symm) $$ Ho3_3
  ihave Ho3_4' := (Entails.of_eq (osub_pts (F := F) d L 3 4 _).symm) $$ Ho3_4
  ihave Ho3_5' := (Entails.of_eq (osub_pts (F := F) d L 3 5 _).symm) $$ Ho3_5
  ihave Ho3_6' := (Entails.of_eq (osub_pts (F := F) d L 3 6 _).symm) $$ Ho3_6
  ihave Ho3_7' := (Entails.of_eq (osub_pts (F := F) d L 3 7 _).symm) $$ Ho3_7
  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  have _plan : Transfers.BatchOf (V d (cV L) (jV L)) (SemLoc.dma (sig := sig) cc0_scratch9.sem) 32 (windows := true) := trivial
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 1#1 := by
    unfold tile_case.sl.v71 tile_case.sl.v70 tile_case.sl.v69
    exact flag_lit_one d L fs f0 _ _ _ _ _ 0 (by decide) (hidx0 L) (hsw0 L) hcase
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 1#1 := by
    unfold tile_case.sl.v132 tile_case.sl.v131 tile_case.sl.v130
    exact flag_lit_one d L fs f0 _ _ _ _ _ 0 (by decide) (hidx1 L) (hsw1 L) hcase
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 0#1 := by
    unfold tile_case.sl.v193 tile_case.sl.v192 tile_case.sl.v191
    exact flag_lit_zero d L fs f0 _ _ _ _ _ 1 (by decide) (hidx2 L) (hsw2 L) (by rw [hcase]; omega)
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 0#1 := by
    unfold tile_case.sl.v254 tile_case.sl.v253 tile_case.sl.v252
    exact flag_lit_zero d L fs f0 _ _ _ _ _ 1 (by decide) (hidx3 L) (hsw3 L) (by rw [hcase]; omega)
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 0#1 := by
    unfold tile_case.sl.v315 tile_case.sl.v314 tile_case.sl.v313
    exact flag_lit_zero d L fs f0 _ _ _ _ _ 2 (by decide) (hidx4 L) (hsw4 L) (by rw [hcase]; omega)
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 0#1 := by
    unfold tile_case.sl.v376 tile_case.sl.v375 tile_case.sl.v374
    exact flag_lit_zero d L fs f0 _ _ _ _ _ 2 (by decide) (hidx5 L) (hsw5 L) (by rw [hcase]; omega)
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 0#1 := by
    unfold tile_case.sl.v437 tile_case.sl.v436 tile_case.sl.v435
    exact flag_lit_zero d L fs f0 _ _ _ _ _ 3 (by decide) (hidx6 L) (hsw6 L) (by rw [hcase]; omega)
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 0#1 := by
    unfold tile_case.sl.v498 tile_case.sl.v497 k0_pay8
    exact flag_lit_zero d L fs f0 _ _ _ _ _ 3 (by decide) (hidx7 L) (hsw7 L) (by rw [hcase]; omega)
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0_0' Ho0_1' Ho0_2' Ho0_3' Ho0_4' Ho0_5' Ho0_6' Ho0_7']
  · iapply (Entails.of_eq ((o_subSets (F := F) d L 0 (Cert.Spec.G (F := F) fa fs : Buf (Elt F) (oLoc d))).trans (bigSep_univ_eight _)).symm)
    isplitl [Ho0_0']
    · iapply (sub_G (F := F) d L 0 0 _ _)
      isplitr
      rotate_left
      · iexact Ho0_0'
      · ipureintro; unfold_run_names_ki1; exact zero_is_G L 0 0 _ fz fa fs (show (fs (ValueIdx.ix1 (wL L))).toNat = 4 * (L 0).val + 0 from hcase) hz
    isplitl [Ho0_1']
    · iapply (sub_G (F := F) d L 0 1 _ _)
      isplitr
      rotate_left
      · iexact Ho0_1'
      · ipureintro; unfold_run_names_ki1; exact zero_is_G L 0 1 _ fz fa fs (show (fs (ValueIdx.ix1 (wL L))).toNat = 4 * (L 0).val + 0 from hcase) hz
    isplitl [Ho0_2']
    · iapply (sub_G (F := F) d L 0 2 _ _)
      isplitr
      rotate_left
      · iexact Ho0_2'
      · ipureintro; unfold_run_names_ki1; exact zero_is_G L 0 2 _ fz fa fs (show (fs (ValueIdx.ix1 (wL L))).toNat = 4 * (L 0).val + 0 from hcase) hz
    isplitl [Ho0_3']
    · iapply (sub_G (F := F) d L 0 3 _ _)
      isplitr
      rotate_left
      · iexact Ho0_3'
      · ipureintro; unfold_run_names_ki1; exact zero_is_G L 0 3 _ fz fa fs (show (fs (ValueIdx.ix1 (wL L))).toNat = 4 * (L 0).val + 0 from hcase) hz
    isplitl [Ho0_4']
    · iapply (sub_G (F := F) d L 0 4 _ _)
      isplitr
      rotate_left
      · iexact Ho0_4'
      · ipureintro; unfold_run_names_ki1; exact zero_is_G L 0 4 _ fz fa fs (show (fs (ValueIdx.ix1 (wL L))).toNat = 4 * (L 0).val + 0 from hcase) hz
    isplitl [Ho0_5']
    · iapply (sub_G (F := F) d L 0 5 _ _)
      isplitr
      rotate_left
      · iexact Ho0_5'
      · ipureintro; unfold_run_names_ki1; exact zero_is_G L 0 5 _ fz fa fs (show (fs (ValueIdx.ix1 (wL L))).toNat = 4 * (L 0).val + 0 from hcase) hz
    isplitl [Ho0_6']
    · iapply (sub_G (F := F) d L 0 6 _ _)
      isplitr
      rotate_left
      · iexact Ho0_6'
      · ipureintro; unfold_run_names_ki1; exact zero_is_G L 0 6 _ fz fa fs (show (fs (ValueIdx.ix1 (wL L))).toNat = 4 * (L 0).val + 0 from hcase) hz
    · iapply (sub_G (F := F) d L 0 7 _ _)
      isplitr
      rotate_left
      · iexact Ho0_7'
      · ipureintro; unfold_run_names_ki1; exact zero_is_G L 0 7 _ fz fa fs (show (fs (ValueIdx.ix1 (wL L))).toNat = 4 * (L 0).val + 0 from hcase) hz
  isplitl [Ho1_0' Ho1_1' Ho1_2' Ho1_3' Ho1_4' Ho1_5' Ho1_6' Ho1_7']
  · iapply (Entails.of_eq ((o_subSets (F := F) d L 1 (Cert.Spec.G (F := F) fa fs : Buf (Elt F) (oLoc d))).trans (bigSep_univ_eight _)).symm)
    isplitl [Ho1_0']
    · iapply (sub_G (F := F) d L 1 0 _ _)
      isplitr
      rotate_left
      · iexact Ho1_0'
      · ipureintro; unfold_run_names_ki1; exact zero_is_G L 1 0 _ fz fa fs (show (fs (ValueIdx.ix1 (wL L))).toNat = 4 * (L 0).val + 0 from hcase) hz
    isplitl [Ho1_1']
    · iapply (sub_G (F := F) d L 1 1 _ _)
      isplitr
      rotate_left
      · iexact Ho1_1'
      · ipureintro; unfold_run_names_ki1; exact zero_is_G L 1 1 _ fz fa fs (show (fs (ValueIdx.ix1 (wL L))).toNat = 4 * (L 0).val + 0 from hcase) hz
    isplitl [Ho1_2']
    · iapply (sub_G (F := F) d L 1 2 _ _)
      isplitr
      rotate_left
      · iexact Ho1_2'
      · ipureintro; unfold_run_names_ki1; exact zero_is_G L 1 2 _ fz fa fs (show (fs (ValueIdx.ix1 (wL L))).toNat = 4 * (L 0).val + 0 from hcase) hz
    isplitl [Ho1_3']
    · iapply (sub_G (F := F) d L 1 3 _ _)
      isplitr
      rotate_left
      · iexact Ho1_3'
      · ipureintro; unfold_run_names_ki1; exact zero_is_G L 1 3 _ fz fa fs (show (fs (ValueIdx.ix1 (wL L))).toNat = 4 * (L 0).val + 0 from hcase) hz
    isplitl [Ho1_4']
    · iapply (sub_G (F := F) d L 1 4 _ _)
      isplitr
      rotate_left
      · iexact Ho1_4'
      · ipureintro; unfold_run_names_ki1; exact zero_is_G L 1 4 _ fz fa fs (show (fs (ValueIdx.ix1 (wL L))).toNat = 4 * (L 0).val + 0 from hcase) hz
    isplitl [Ho1_5']
    · iapply (sub_G (F := F) d L 1 5 _ _)
      isplitr
      rotate_left
      · iexact Ho1_5'
      · ipureintro; unfold_run_names_ki1; exact zero_is_G L 1 5 _ fz fa fs (show (fs (ValueIdx.ix1 (wL L))).toNat = 4 * (L 0).val + 0 from hcase) hz
    isplitl [Ho1_6']
    · iapply (sub_G (F := F) d L 1 6 _ _)
      isplitr
      rotate_left
      · iexact Ho1_6'
      · ipureintro; unfold_run_names_ki1; exact zero_is_G L 1 6 _ fz fa fs (show (fs (ValueIdx.ix1 (wL L))).toNat = 4 * (L 0).val + 0 from hcase) hz
    · iapply (sub_G (F := F) d L 1 7 _ _)
      isplitr
      rotate_left
      · iexact Ho1_7'
      · ipureintro; unfold_run_names_ki1; exact zero_is_G L 1 7 _ fz fa fs (show (fs (ValueIdx.ix1 (wL L))).toNat = 4 * (L 0).val + 0 from hcase) hz
  isplitl [Ho2_0' Ho2_1' Ho2_2' Ho2_3' Ho2_4' Ho2_5' Ho2_6' Ho2_7']
  · iapply (Entails.of_eq ((o_subSets (F := F) d L 2 (Cert.Spec.G (F := F) fa fs : Buf (Elt F) (oLoc d))).trans (bigSep_univ_eight _)).symm)
    isplitl [Ho2_0']
    · iapply (sub_G (F := F) d L 2 0 _ _)
      isplitr
      rotate_left
      · iexact Ho2_0'
      · ipureintro; unfold_run_names_ki1; exact zero_is_G L 2 0 _ fz fa fs (show (fs (ValueIdx.ix1 (wL L))).toNat = 4 * (L 0).val + 0 from hcase) hz
    isplitl [Ho2_1']
    · iapply (sub_G (F := F) d L 2 1 _ _)
      isplitr
      rotate_left
      · iexact Ho2_1'
      · ipureintro; unfold_run_names_ki1; exact zero_is_G L 2 1 _ fz fa fs (show (fs (ValueIdx.ix1 (wL L))).toNat = 4 * (L 0).val + 0 from hcase) hz
    isplitl [Ho2_2']
    · iapply (sub_G (F := F) d L 2 2 _ _)
      isplitr
      rotate_left
      · iexact Ho2_2'
      · ipureintro; unfold_run_names_ki1; exact zero_is_G L 2 2 _ fz fa fs (show (fs (ValueIdx.ix1 (wL L))).toNat = 4 * (L 0).val + 0 from hcase) hz
    isplitl [Ho2_3']
    · iapply (sub_G (F := F) d L 2 3 _ _)
      isplitr
      rotate_left
      · iexact Ho2_3'
      · ipureintro; unfold_run_names_ki1; exact zero_is_G L 2 3 _ fz fa fs (show (fs (ValueIdx.ix1 (wL L))).toNat = 4 * (L 0).val + 0 from hcase) hz
    isplitl [Ho2_4']
    · iapply (sub_G (F := F) d L 2 4 _ _)
      isplitr
      rotate_left
      · iexact Ho2_4'
      · ipureintro; unfold_run_names_ki1; exact zero_is_G L 2 4 _ fz fa fs (show (fs (ValueIdx.ix1 (wL L))).toNat = 4 * (L 0).val + 0 from hcase) hz
    isplitl [Ho2_5']
    · iapply (sub_G (F := F) d L 2 5 _ _)
      isplitr
      rotate_left
      · iexact Ho2_5'
      · ipureintro; unfold_run_names_ki1; exact zero_is_G L 2 5 _ fz fa fs (show (fs (ValueIdx.ix1 (wL L))).toNat = 4 * (L 0).val + 0 from hcase) hz
    isplitl [Ho2_6']
    · iapply (sub_G (F := F) d L 2 6 _ _)
      isplitr
      rotate_left
      · iexact Ho2_6'
      · ipureintro; unfold_run_names_ki1; exact zero_is_G L 2 6 _ fz fa fs (show (fs (ValueIdx.ix1 (wL L))).toNat = 4 * (L 0).val + 0 from hcase) hz
    · iapply (sub_G (F := F) d L 2 7 _ _)
      isplitr
      rotate_left
      · iexact Ho2_7'
      · ipureintro; unfold_run_names_ki1; exact zero_is_G L 2 7 _ fz fa fs (show (fs (ValueIdx.ix1 (wL L))).toNat = 4 * (L 0).val + 0 from hcase) hz
  isplitl [Ho3_0' Ho3_1' Ho3_2' Ho3_3' Ho3_4' Ho3_5' Ho3_6' Ho3_7']
  · iapply (Entails.of_eq ((o_subSets (F := F) d L 3 (Cert.Spec.G (F := F) fa fs : Buf (Elt F) (oLoc d))).trans (bigSep_univ_eight _)).symm)
    isplitl [Ho3_0']
    · iapply (sub_G (F := F) d L 3 0 _ _)
      isplitr
      rotate_left
      · iexact Ho3_0'
      · ipureintro; unfold_run_names_ki1; exact zero_is_G L 3 0 _ fz fa fs (show (fs (ValueIdx.ix1 (wL L))).toNat = 4 * (L 0).val + 0 from hcase) hz
    isplitl [Ho3_1']
    · iapply (sub_G (F := F) d L 3 1 _ _)
      isplitr
      rotate_left
      · iexact Ho3_1'
      · ipureintro; unfold_run_names_ki1; exact zero_is_G L 3 1 _ fz fa fs (show (fs (ValueIdx.ix1 (wL L))).toNat = 4 * (L 0).val + 0 from hcase) hz
    isplitl [Ho3_2']
    · iapply (sub_G (F := F) d L 3 2 _ _)
      isplitr
      rotate_left
      · iexact Ho3_2'
      · ipureintro; unfold_run_names_ki1; exact zero_is_G L 3 2 _ fz fa fs (show (fs (ValueIdx.ix1 (wL L))).toNat = 4 * (L 0).val + 0 from hcase) hz
    isplitl [Ho3_3']
    · iapply (sub_G (F := F) d L 3 3 _ _)
      isplitr
      rotate_left
      · iexact Ho3_3'
      · ipureintro; unfold_run_names_ki1; exact zero_is_G L 3 3 _ fz fa fs (show (fs (ValueIdx.ix1 (wL L))).toNat = 4 * (L 0).val + 0 from hcase) hz
    isplitl [Ho3_4']
    · iapply (sub_G (F := F) d L 3 4 _ _)
      isplitr
      rotate_left
      · iexact Ho3_4'
      · ipureintro; unfold_run_names_ki1; exact zero_is_G L 3 4 _ fz fa fs (show (fs (ValueIdx.ix1 (wL L))).toNat = 4 * (L 0).val + 0 from hcase) hz
    isplitl [Ho3_5']
    · iapply (sub_G (F := F) d L 3 5 _ _)
      isplitr
      rotate_left
      · iexact Ho3_5'
      · ipureintro; unfold_run_names_ki1; exact zero_is_G L 3 5 _ fz fa fs (show (fs (ValueIdx.ix1 (wL L))).toNat = 4 * (L 0).val + 0 from hcase) hz
    isplitl [Ho3_6']
    · iapply (sub_G (F := F) d L 3 6 _ _)
      isplitr
      rotate_left
      · iexact Ho3_6'
      · ipureintro; unfold_run_names_ki1; exact zero_is_G L 3 6 _ fz fa fs (show (fs (ValueIdx.ix1 (wL L))).toNat = 4 * (L 0).val + 0 from hcase) hz
    · iapply (sub_G (F := F) d L 3 7 _ _)
      isplitr
      rotate_left
      · iexact Ho3_7'
      · ipureintro; unfold_run_names_ki1; exact zero_is_G L 3 7 _ fz fa fs (show (fs (ValueIdx.ix1 (wL L))).toNat = 4 * (L 0).val + 0 from hcase) hz
  isplitl [Ho4']
  · iapply (chunk_G4 (F := F) d L _ _)
    isplitr
    rotate_left
    · iexact Ho4'
    · ipureintro; unfold_run_names_ki1; exact copied_is_G L 4 (shB1 L) fo fa _ _ fs (show (fs (ValueIdx.ix1 (wL L))).toNat ≠ 4 * (L 0).val + 1 from by rw [hcase]; omega)
  isplitl [Ho5']
  · iapply (chunk_G5 (F := F) d L _ _)
    isplitr
    rotate_left
    · iexact Ho5'
    · ipureintro; unfold_run_names_ki1; exact copied_is_G L 5 (shB2 L) fo fa _ _ fs (show (fs (ValueIdx.ix1 (wL L))).toNat ≠ 4 * (L 0).val + 1 from by rw [hcase]; omega)
  isplitl [Ho6']
  · iapply (chunk_G6 (F := F) d L _ _)
    isplitr
    rotate_left
    · iexact Ho6'
    · ipureintro; unfold_run_names_ki1; exact copied_is_G L 6 (shB0 L) fo fa _ _ fs (show (fs (ValueIdx.ix1 (wL L))).toNat ≠ 4 * (L 0).val + 1 from by rw [hcase]; omega)
  isplitl [Ho7']
  · iapply (chunk_G7 (F := F) d L _ _)
    isplitr
    rotate_left
    · iexact Ho7'
    · ipureintro; unfold_run_names_ki1; exact copied_is_G L 7 (shB1 L) fo fa _ _ fs (show (fs (ValueIdx.ix1 (wL L))).toNat ≠ 4 * (L 0).val + 1 from by rw [hcase]; omega)
  isplitl [Ho8']
  · iapply (chunk_G8 (F := F) d L _ _)
    isplitr
    rotate_left
    · iexact Ho8'
    · ipureintro; unfold_run_names_ki1; exact copied_is_G L 8 (shB2 L) fo fa _ _ fs (show (fs (ValueIdx.ix1 (wL L))).toNat ≠ 4 * (L 0).val + 2 from by rw [hcase]; omega)
  isplitl [Ho9']
  · iapply (chunk_G9 (F := F) d L _ _)
    isplitr
    rotate_left
    · iexact Ho9'
    · ipureintro; unfold_run_names_ki1; exact copied_is_G L 9 (shB0 L) fo fa _ _ fs (show (fs (ValueIdx.ix1 (wL L))).toNat ≠ 4 * (L 0).val + 2 from by rw [hcase]; omega)
  isplitl [Ho10']
  · iapply (chunk_G10 (F := F) d L _ _)
    isplitr
    rotate_left
    · iexact Ho10'
    · ipureintro; unfold_run_names_ki1; exact copied_is_G L 10 (shB1 L) fo fa _ _ fs (show (fs (ValueIdx.ix1 (wL L))).toNat ≠ 4 * (L 0).val + 2 from by rw [hcase]; omega)
  isplitl [Ho11']
  · iapply (chunk_G11 (F := F) d L _ _)
    isplitr
    rotate_left
    · iexact Ho11'
    · ipureintro; unfold_run_names_ki1; exact copied_is_G L 11 (shB2 L) fo fa _ _ fs (show (fs (ValueIdx.ix1 (wL L))).toNat ≠ 4 * (L 0).val + 2 from by rw [hcase]; omega)
  isplitl [Ho12']
  · iapply (chunk_G12 (F := F) d L _ _)
    isplitr
    rotate_left
    · iexact Ho12'
    · ipureintro; unfold_run_names_ki1; exact copied_is_G L 12 (shB0 L) fo fa _ _ fs (show (fs (ValueIdx.ix1 (wL L))).toNat ≠ 4 * (L 0).val + 3 from by rw [hcase]; omega)
  isplitl [Ho13']
  · iapply (chunk_G13 (F := F) d L _ _)
    isplitr
    rotate_left
    · iexact Ho13'
    · ipureintro; unfold_run_names_ki1; exact copied_is_G L 13 (shB1 L) fo fa _ _ fs (show (fs (ValueIdx.ix1 (wL L))).toNat ≠ 4 * (L 0).val + 3 from by rw [hcase]; omega)
  isplitl [Ho14']
  · iapply (chunk_G14 (F := F) d L _ _)
    isplitr
    rotate_left
    · iexact Ho14'
    · ipureintro; unfold_run_names_ki1; exact copied_is_G L 14 (shB2 L) fo fa _ _ fs (show (fs (ValueIdx.ix1 (wL L))).toNat ≠ 4 * (L 0).val + 3 from by rw [hcase]; omega)
  isplitl [Ho15']
  · iapply (chunk_G15 (F := F) d L _ _)
    isplitr
    rotate_left
    · iexact Ho15'
    · ipureintro; unfold_run_names_ki1; exact copied_is_G L 15 (shB0 L) fo fa _ _ fs (show (fs (ValueIdx.ix1 (wL L))).toNat ≠ 4 * (L 0).val + 3 from by rw [hcase]; omega)
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C1

end Cert.Proof.KI

end
-- ==== Proof.KICase2.lean ====
import proofs.«218968_g36790689857971_cont_8to1_b_1381_24_alg».proof.Proof.KISetup
import proofs.«218968_g36790689857971_cont_8to1_b_1381_24_alg».proof.Proof.KICanon
import proofs.«218968_g36790689857971_cont_8to1_b_1381_24_alg».proof.Proof.KIValue

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.KernelIdeal.main_arg0_scv : Memref Cert.KernelIdeal.sig Kind.scVector Space.hbm Cert.KernelIdeal.S16x8x2x65536 EltTy.f32)
local notation "sW" => (Memref.whole Cert.KernelIdeal.main_arg1_scv : Memref Cert.KernelIdeal.sig Kind.scVector Space.hbm Cert.KernelIdeal.S16 EltTy.i32)
local notation "oW" => (Memref.whole Cert.KernelIdeal.main_v0_scv : Memref Cert.KernelIdeal.sig Kind.scVector Space.hbm Cert.KernelIdeal.S16x8x2x65536 EltTy.f32)
local notation "b0W" => (Memref.whole Cert.KernelIdeal.cc0_scratch0 : Memref Cert.KernelIdeal.sig Kind.scVector Space.vmem Cert.KernelIdeal.S16 EltTy.i32)
local notation "b1W" => (Memref.whole Cert.KernelIdeal.cc0_scratch1 : Memref Cert.KernelIdeal.sig Kind.scVector Space.vmem Cert.KernelIdeal.S4096 EltTy.f32)
local notation "shW" => (Memref.whole Cert.KernelIdeal.cc0_scratch2 : Memref Cert.KernelIdeal.sig Kind.scVector Space.shared Cert.KernelIdeal.S1572864 EltTy.f32)

/-! ## The tile's task when it silences stream 4·(L 0) + 1

The stream number of the tile's recording is the tile's stream 1: the flags of its two channels are 1, their four chunks are written with zeros, the other twelve are copied.
The run: the stream numbers into the scratch; eight lane gathers, each flag read off as a literal; the zero buffer filled
by the counted loop; then per chunk the copy into a staging buffer and out, or the eight zero windows on one counter, drained at the end. After it every chunk piece of the
result holds the specification's values. -/

open Lean Elab Tactic Meta in
/-- Unfold, in the goal, every value the run named (the auxiliary definitions `….sl.…`). -/
elab "unfold_run_names_ki2" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C2

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : (fs (ValueIdx.ix1 (wL L))).toNat = 4 * (L 0).val + 1) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho0' := (Entails.of_eq (och_pts0 (F := F) d L _).symm) $$ Ho0
  ihave Ho1' := (Entails.of_eq (och_pts1 (F := F) d L _).symm) $$ Ho1
  ihave Ho2' := (Entails.of_eq (och_pts2 (F := F) d L _).symm) $$ Ho2
  ihave Ho3' := (Entails.of_eq (och_pts3 (F := F) d L _).symm) $$ Ho3
  ihave Ho8' := (Entails.of_eq (och_pts8 (F := F) d L _).symm) $$ Ho8
  ihave Ho9' := (Entails.of_eq (och_pts9 (F := F) d L _).symm) $$ Ho9
  ihave Ho10' := (Entails.of_eq (och_pts10 (F := F) d L _).symm) $$ Ho10
  ihave Ho11' := (Entails.of_eq (och_pts11 (F := F) d L _).symm) $$ Ho11
  ihave Ho12' := (Entails.of_eq (och_pts12 (F := F) d L _).symm) $$ Ho12
  ihave Ho13' := (Entails.of_eq (och_pts13 (F := F) d L _).symm) $$ Ho13
  ihave Ho14' := (Entails.of_eq (och_pts14 (F := F) d L _).symm) $$ Ho14
  ihave Ho15' := (Entails.of_eq (och_pts15 (F := F) d L _).symm) $$ Ho15
  ihave Ho4s := (Entails.of_eq ((o_subSets (F := F) d L 4 fo).trans (bigSep_univ_eight _))) $$ Ho4
  icases Ho4s with ⟨Ho4_0, Ho4_1, Ho4_2, Ho4_3, Ho4_4, Ho4_5, Ho4_6, Ho4_7⟩
  ihave Ho4_0' := (Entails.of_eq (osub_pts (F := F) d L 4 0 _).symm) $$ Ho4_0
  ihave Ho4_1' := (Entails.of_eq (osub_pts (F := F) d L 4 1 _).symm) $$ Ho4_1
  ihave Ho4_2' := (Entails.of_eq (osub_pts (F := F) d L 4 2 _).symm) $$ Ho4_2
  ihave Ho4_3' := (Entails.of_eq (osub_pts (F := F) d L 4 3 _).symm) $$ Ho4_3
  ihave Ho4_4' := (Entails.of_eq (osub_pts (F := F) d L 4 4 _).symm) $$ Ho4_4
  ihave Ho4_5' := (Entails.of_eq (osub_pts (F := F) d L 4 5 _).symm) $$ Ho4_5
  ihave Ho4_6' := (Entails.of_eq (osub_pts (F := F) d L 4 6 _).symm) $$ Ho4_6
  ihave Ho4_7' := (Entails.of_eq (osub_pts (F := F) d L 4 7 _).symm) $$ Ho4_7
  ihave Ho5s := (Entails.of_eq ((o_subSets (F := F) d L 5 fo).trans (bigSep_univ_eight _))) $$ Ho5
  icases Ho5s with ⟨Ho5_0, Ho5_1, Ho5_2, Ho5_3, Ho5_4, Ho5_5, Ho5_6, Ho5_7⟩
  ihave Ho5_0' := (Entails.of_eq (osub_pts (F := F) d L 5 0 _).symm) $$ Ho5_0
  ihave Ho5_1' := (Entails.of_eq (osub_pts (F := F) d L 5 1 _).symm) $$ Ho5_1
  ihave Ho5_2' := (Entails.of_eq (osub_pts (F := F) d L 5 2 _).symm) $$ Ho5_2
  ihave Ho5_3' := (Entails.of_eq (osub_pts (F := F) d L 5 3 _).symm) $$ Ho5_3
  ihave Ho5_4' := (Entails.of_eq (osub_pts (F := F) d L 5 4 _).symm) $$ Ho5_4
  ihave Ho5_5' := (Entails.of_eq (osub_pts (F := F) d L 5 5 _).symm) $$ Ho5_5
  ihave Ho5_6' := (Entails.of_eq (osub_pts (F := F) d L 5 6 _).symm) $$ Ho5_6
  ihave Ho5_7' := (Entails.of_eq (osub_pts (F := F) d L 5 7 _).symm) $$ Ho5_7
  ihave Ho6s := (Entails.of_eq ((o_subSets (F := F) d L 6 fo).trans (bigSep_univ_eight _))) $$ Ho6
  icases Ho6s with ⟨Ho6_0, Ho6_1, Ho6_2, Ho6_3, Ho6_4, Ho6_5, Ho6_6, Ho6_7⟩
  ihave Ho6_0' := (Entails.of_eq (osub_pts (F := F) d L 6 0 _).symm) $$ Ho6_0
  ihave Ho6_1' := (Entails.of_eq (osub_pts (F := F) d L 6 1 _).symm) $$ Ho6_1
  ihave Ho6_2' := (Entails.of_eq (osub_pts (F := F) d L 6 2 _).symm) $$ Ho6_2
  ihave Ho6_3' := (Entails.of_eq (osub_pts (F := F) d L 6 3 _).symm) $$ Ho6_3
  ihave Ho6_4' := (Entails.of_eq (osub_pts (F := F) d L 6 4 _).symm) $$ Ho6_4
  ihave Ho6_5' := (Entails.of_eq (osub_pts (F := F) d L 6 5 _).symm) $$ Ho6_5
  ihave Ho6_6' := (Entails.of_eq (osub_pts (F := F) d L 6 6 _).symm) $$ Ho6_6
  ihave Ho6_7' := (Entails.of_eq (osub_pts (F := F) d L 6 7 _).symm) $$ Ho6_7
  ihave Ho7s := (Entails.of_eq ((o_subSets (F := F) d L 7 fo).trans (bigSep_univ_eight _))) $$ Ho7
  icases Ho7s with ⟨Ho7_0, Ho7_1, Ho7_2, Ho7_3, Ho7_4, Ho7_5, Ho7_6, Ho7_7⟩
  ihave Ho7_0' := (Entails.of_eq (osub_pts (F := F) d L 7 0 _).symm) $$ Ho7_0
  ihave Ho7_1' := (Entails.of_eq (osub_pts (F := F) d L 7 1 _).symm) $$ Ho7_1
  ihave Ho7_2' := (Entails.of_eq (osub_pts (F := F) d L 7 2 _).symm) $$ Ho7_2
  ihave Ho7_3' := (Entails.of_eq (osub_pts (F := F) d L 7 3 _).symm) $$ Ho7_3
  ihave Ho7_4' := (Entails.of_eq (osub_pts (F := F) d L 7 4 _).symm) $$ Ho7_4
  ihave Ho7_5' := (Entails.of_eq (osub_pts (F := F) d L 7 5 _).symm) $$ Ho7_5
  ihave Ho7_6' := (Entails.of_eq (osub_pts (F := F) d L 7 6 _).symm) $$ Ho7_6
  ihave Ho7_7' := (Entails.of_eq (osub_pts (F := F) d L 7 7 _).symm) $$ Ho7_7
  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  have _plan : Transfers.BatchOf (V d (cV L) (jV L)) (SemLoc.dma (sig := sig) cc0_scratch9.sem) 32 (windows := true) := trivial
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 0#1 := by
    unfold tile_case.sl.v71 tile_case.sl.v70 tile_case.sl.v69
    exact flag_lit_zero d L fs f0 _ _ _ _ _ 0 (by decide) (hidx0 L) (hsw0 L) (by rw [hcase]; omega)
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 0#1 := by
    unfold tile_case.sl.v132 tile_case.sl.v131 tile_case.sl.v130
    exact flag_lit_zero d L fs f0 _ _ _ _ _ 0 (by decide) (hidx1 L) (hsw1 L) (by rw [hcase]; omega)
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 1#1 := by
    unfold tile_case.sl.v193 tile_case.sl.v192 tile_case.sl.v191
    exact flag_lit_one d L fs f0 _ _ _ _ _ 1 (by decide) (hidx2 L) (hsw2 L) hcase
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 1#1 := by
    unfold tile_case.sl.v254 tile_case.sl.v253 tile_case.sl.v252
    exact flag_lit_one d L fs f0 _ _ _ _ _ 1 (by decide) (hidx3 L) (hsw3 L) hcase
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 0#1 := by
    unfold tile_case.sl.v315 tile_case.sl.v314 tile_case.sl.v313
    exact flag_lit_zero d L fs f0 _ _ _ _ _ 2 (by decide) (hidx4 L) (hsw4 L) (by rw [hcase]; omega)
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 0#1 := by
    unfold tile_case.sl.v376 tile_case.sl.v375 tile_case.sl.v374
    exact flag_lit_zero d L fs f0 _ _ _ _ _ 2 (by decide) (hidx5 L) (hsw5 L) (by rw [hcase]; omega)
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 0#1 := by
    unfold tile_case.sl.v437 tile_case.sl.v436 tile_case.sl.v435
    exact flag_lit_zero d L fs f0 _ _ _ _ _ 3 (by decide) (hidx6 L) (hsw6 L) (by rw [hcase]; omega)
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 0#1 := by
    unfold tile_case.sl.v498 tile_case.sl.v497 k0_pay8
    exact flag_lit_zero d L fs f0 _ _ _ _ _ 3 (by decide) (hidx7 L) (hsw7 L) (by rw [hcase]; omega)
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0']
  · iapply (chunk_G0 (F := F) d L _ _)
    isplitr
    rotate_left
    · iexact Ho0'
    · ipureintro; unfold_run_names_ki2; exact copied_is_G L 0 (shB0 L) fo fa _ _ fs (show (fs (ValueIdx.ix1 (wL L))).toNat ≠ 4 * (L 0).val + 0 from by rw [hcase]; omega)
  isplitl [Ho1']
  · iapply (chunk_G1 (F := F) d L _ _)
    isplitr
    rotate_left
    · iexact Ho1'
    · ipureintro; unfold_run_names_ki2; exact copied_is_G L 1 (shB1 L) fo fa _ _ fs (show (fs (ValueIdx.ix1 (wL L))).toNat ≠ 4 * (L 0).val + 0 from by rw [hcase]; omega)
  isplitl [Ho2']
  · iapply (chunk_G2 (F := F) d L _ _)
    isplitr
    rotate_left
    · iexact Ho2'
    · ipureintro; unfold_run_names_ki2; exact copied_is_G L 2 (shB2 L) fo fa _ _ fs (show (fs (ValueIdx.ix1 (wL L))).toNat ≠ 4 * (L 0).val + 0 from by rw [hcase]; omega)
  isplitl [Ho3']
  · iapply (chunk_G3 (F := F) d L _ _)
    isplitr
    rotate_left
    · iexact Ho3'
    · ipureintro; unfold_run_names_ki2; exact copied_is_G L 3 (shB0 L) fo fa _ _ fs (show (fs (ValueIdx.ix1 (wL L))).toNat ≠ 4 * (L 0).val + 0 from by rw [hcase]; omega)
  isplitl [Ho4_0' Ho4_1' Ho4_2' Ho4_3' Ho4_4' Ho4_5' Ho4_6' Ho4_7']
  · iapply (Entails.of_eq ((o_subSets (F := F) d L 4 (Cert.Spec.G (F := F) fa fs : Buf (Elt F) (oLoc d))).trans (bigSep_univ_eight _)).symm)
    isplitl [Ho4_0']
    · iapply (sub_G (F := F) d L 4 0 _ _)
      isplitr
      rotate_left
      · iexact Ho4_0'
      · ipureintro; unfold_run_names_ki2; exact zero_is_G L 4 0 _ fz fa fs (show (fs (ValueIdx.ix1 (wL L))).toNat = 4 * (L 0).val + 1 from hcase) hz
    isplitl [Ho4_1']
    · iapply (sub_G (F := F) d L 4 1 _ _)
      isplitr
      rotate_left
      · iexact Ho4_1'
      · ipureintro; unfold_run_names_ki2; exact zero_is_G L 4 1 _ fz fa fs (show (fs (ValueIdx.ix1 (wL L))).toNat = 4 * (L 0).val + 1 from hcase) hz
    isplitl [Ho4_2']
    · iapply (sub_G (F := F) d L 4 2 _ _)
      isplitr
      rotate_left
      · iexact Ho4_2'
      · ipureintro; unfold_run_names_ki2; exact zero_is_G L 4 2 _ fz fa fs (show (fs (ValueIdx.ix1 (wL L))).toNat = 4 * (L 0).val + 1 from hcase) hz
    isplitl [Ho4_3']
    · iapply (sub_G (F := F) d L 4 3 _ _)
      isplitr
      rotate_left
      · iexact Ho4_3'
      · ipureintro; unfold_run_names_ki2; exact zero_is_G L 4 3 _ fz fa fs (show (fs (ValueIdx.ix1 (wL L))).toNat = 4 * (L 0).val + 1 from hcase) hz
    isplitl [Ho4_4']
    · iapply (sub_G (F := F) d L 4 4 _ _)
      isplitr
      rotate_left
      · iexact Ho4_4'
      · ipureintro; unfold_run_names_ki2; exact zero_is_G L 4 4 _ fz fa fs (show (fs (ValueIdx.ix1 (wL L))).toNat = 4 * (L 0).val + 1 from hcase) hz
    isplitl [Ho4_5']
    · iapply (sub_G (F := F) d L 4 5 _ _)
      isplitr
      rotate_left
      · iexact Ho4_5'
      · ipureintro; unfold_run_names_ki2; exact zero_is_G L 4 5 _ fz fa fs (show (fs (ValueIdx.ix1 (wL L))).toNat = 4 * (L 0).val + 1 from hcase) hz
    isplitl [Ho4_6']
    · iapply (sub_G (F := F) d L 4 6 _ _)
      isplitr
      rotate_left
      · iexact Ho4_6'
      · ipureintro; unfold_run_names_ki2; exact zero_is_G L 4 6 _ fz fa fs (show (fs (ValueIdx.ix1 (wL L))).toNat = 4 * (L 0).val + 1 from hcase) hz
    · iapply (sub_G (F := F) d L 4 7 _ _)
      isplitr
      rotate_left
      · iexact Ho4_7'
      · ipureintro; unfold_run_names_ki2; exact zero_is_G L 4 7 _ fz fa fs (show (fs (ValueIdx.ix1 (wL L))).toNat = 4 * (L 0).val + 1 from hcase) hz
  isplitl [Ho5_0' Ho5_1' Ho5_2' Ho5_3' Ho5_4' Ho5_5' Ho5_6' Ho5_7']
  · iapply (Entails.of_eq ((o_subSets (F := F) d L 5 (Cert.Spec.G (F := F) fa fs : Buf (Elt F) (oLoc d))).trans (bigSep_univ_eight _)).symm)
    isplitl [Ho5_0']
    · iapply (sub_G (F := F) d L 5 0 _ _)
      isplitr
      rotate_left
      · iexact Ho5_0'
      · ipureintro; unfold_run_names_ki2; exact zero_is_G L 5 0 _ fz fa fs (show (fs (ValueIdx.ix1 (wL L))).toNat = 4 * (L 0).val + 1 from hcase) hz
    isplitl [Ho5_1']
    · iapply (sub_G (F := F) d L 5 1 _ _)
      isplitr
      rotate_left
      · iexact Ho5_1'
      · ipureintro; unfold_run_names_ki2; exact zero_is_G L 5 1 _ fz fa fs (show (fs (ValueIdx.ix1 (wL L))).toNat = 4 * (L 0).val + 1 from hcase) hz
    isplitl [Ho5_2']
    · iapply (sub_G (F := F) d L 5 2 _ _)
      isplitr
      rotate_left
      · iexact Ho5_2'
      · ipureintro; unfold_run_names_ki2; exact zero_is_G L 5 2 _ fz fa fs (show (fs (ValueIdx.ix1 (wL L))).toNat = 4 * (L 0).val + 1 from hcase) hz
    isplitl [Ho5_3']
    · iapply (sub_G (F := F) d L 5 3 _ _)
      isplitr
      rotate_left
      · iexact Ho5_3'
      · ipureintro; unfold_run_names_ki2; exact zero_is_G L 5 3 _ fz fa fs (show (fs (ValueIdx.ix1 (wL L))).toNat = 4 * (L 0).val + 1 from hcase) hz
    isplitl [Ho5_4']
    · iapply (sub_G (F := F) d L 5 4 _ _)
      isplitr
      rotate_left
      · iexact Ho5_4'
      · ipureintro; unfold_run_names_ki2; exact zero_is_G L 5 4 _ fz fa fs (show (fs (ValueIdx.ix1 (wL L))).toNat = 4 * (L 0).val + 1 from hcase) hz
    isplitl [Ho5_5']
    · iapply (sub_G (F := F) d L 5 5 _ _)
      isplitr
      rotate_left
      · iexact Ho5_5'
      · ipureintro; unfold_run_names_ki2; exact zero_is_G L 5 5 _ fz fa fs (show (fs (ValueIdx.ix1 (wL L))).toNat = 4 * (L 0).val + 1 from hcase) hz
    isplitl [Ho5_6']
    · iapply (sub_G (F := F) d L 5 6 _ _)
      isplitr
      rotate_left
      · iexact Ho5_6'
      · ipureintro; unfold_run_names_ki2; exact zero_is_G L 5 6 _ fz fa fs (show (fs (ValueIdx.ix1 (wL L))).toNat = 4 * (L 0).val + 1 from hcase) hz
    · iapply (sub_G (F := F) d L 5 7 _ _)
      isplitr
      rotate_left
      · iexact Ho5_7'
      · ipureintro; unfold_run_names_ki2; exact zero_is_G L 5 7 _ fz fa fs (show (fs (ValueIdx.ix1 (wL L))).toNat = 4 * (L 0).val + 1 from hcase) hz
  isplitl [Ho6_0' Ho6_1' Ho6_2' Ho6_3' Ho6_4' Ho6_5' Ho6_6' Ho6_7']
  · iapply (Entails.of_eq ((o_subSets (F := F) d L 6 (Cert.Spec.G (F := F) fa fs : Buf (Elt F) (oLoc d))).trans (bigSep_univ_eight _)).symm)
    isplitl [Ho6_0']
    · iapply (sub_G (F := F) d L 6 0 _ _)
      isplitr
      rotate_left
      · iexact Ho6_0'
      · ipureintro; unfold_run_names_ki2; exact zero_is_G L 6 0 _ fz fa fs (show (fs (ValueIdx.ix1 (wL L))).toNat = 4 * (L 0).val + 1 from hcase) hz
    isplitl [Ho6_1']
    · iapply (sub_G (F := F) d L 6 1 _ _)
      isplitr
      rotate_left
      · iexact Ho6_1'
      · ipureintro; unfold_run_names_ki2; exact zero_is_G L 6 1 _ fz fa fs (show (fs (ValueIdx.ix1 (wL L))).toNat = 4 * (L 0).val + 1 from hcase) hz
    isplitl [Ho6_2']
    · iapply (sub_G (F := F) d L 6 2 _ _)
      isplitr
      rotate_left
      · iexact Ho6_2'
      · ipureintro; unfold_run_names_ki2; exact zero_is_G L 6 2 _ fz fa fs (show (fs (ValueIdx.ix1 (wL L))).toNat = 4 * (L 0).val + 1 from hcase) hz
    isplitl [Ho6_3']
    · iapply (sub_G (F := F) d L 6 3 _ _)
      isplitr
      rotate_left
      · iexact Ho6_3'
      · ipureintro; unfold_run_names_ki2; exact zero_is_G L 6 3 _ fz fa fs (show (fs (ValueIdx.ix1 (wL L))).toNat = 4 * (L 0).val + 1 from hcase) hz
    isplitl [Ho6_4']
    · iapply (sub_G (F := F) d L 6 4 _ _)
      isplitr
      rotate_left
      · iexact Ho6_4'
      · ipureintro; unfold_run_names_ki2; exact zero_is_G L 6 4 _ fz fa fs (show (fs (ValueIdx.ix1 (wL L))).toNat = 4 * (L 0).val + 1 from hcase) hz
    isplitl [Ho6_5']
    · iapply (sub_G (F := F) d L 6 5 _ _)
      isplitr
      rotate_left
      · iexact Ho6_5'
      · ipureintro; unfold_run_names_ki2; exact zero_is_G L 6 5 _ fz fa fs (show (fs (ValueIdx.ix1 (wL L))).toNat = 4 * (L 0).val + 1 from hcase) hz
    isplitl [Ho6_6']
    · iapply (sub_G (F := F) d L 6 6 _ _)
      isplitr
      rotate_left
      · iexact Ho6_6'
      · ipureintro; unfold_run_names_ki2; exact zero_is_G L 6 6 _ fz fa fs (show (fs (ValueIdx.ix1 (wL L))).toNat = 4 * (L 0).val + 1 from hcase) hz
    · iapply (sub_G (F := F) d L 6 7 _ _)
      isplitr
      rotate_left
      · iexact Ho6_7'
      · ipureintro; unfold_run_names_ki2; exact zero_is_G L 6 7 _ fz fa fs (show (fs (ValueIdx.ix1 (wL L))).toNat = 4 * (L 0).val + 1 from hcase) hz
  isplitl [Ho7_0' Ho7_1' Ho7_2' Ho7_3' Ho7_4' Ho7_5' Ho7_6' Ho7_7']
  · iapply (Entails.of_eq ((o_subSets (F := F) d L 7 (Cert.Spec.G (F := F) fa fs : Buf (Elt F) (oLoc d))).trans (bigSep_univ_eight _)).symm)
    isplitl [Ho7_0']
    · iapply (sub_G (F := F) d L 7 0 _ _)
      isplitr
      rotate_left
      · iexact Ho7_0'
      · ipureintro; unfold_run_names_ki2; exact zero_is_G L 7 0 _ fz fa fs (show (fs (ValueIdx.ix1 (wL L))).toNat = 4 * (L 0).val + 1 from hcase) hz
    isplitl [Ho7_1']
    · iapply (sub_G (F := F) d L 7 1 _ _)
      isplitr
      rotate_left
      · iexact Ho7_1'
      · ipureintro; unfold_run_names_ki2; exact zero_is_G L 7 1 _ fz fa fs (show (fs (ValueIdx.ix1 (wL L))).toNat = 4 * (L 0).val + 1 from hcase) hz
    isplitl [Ho7_2']
    · iapply (sub_G (F := F) d L 7 2 _ _)
      isplitr
      rotate_left
      · iexact Ho7_2'
      · ipureintro; unfold_run_names_ki2; exact zero_is_G L 7 2 _ fz fa fs (show (fs (ValueIdx.ix1 (wL L))).toNat = 4 * (L 0).val + 1 from hcase) hz
    isplitl [Ho7_3']
    · iapply (sub_G (F := F) d L 7 3 _ _)
      isplitr
      rotate_left
      · iexact Ho7_3'
      · ipureintro; unfold_run_names_ki2; exact zero_is_G L 7 3 _ fz fa fs (show (fs (ValueIdx.ix1 (wL L))).toNat = 4 * (L 0).val + 1 from hcase) hz
    isplitl [Ho7_4']
    · iapply (sub_G (F := F) d L 7 4 _ _)
      isplitr
      rotate_left
      · iexact Ho7_4'
      · ipureintro; unfold_run_names_ki2; exact zero_is_G L 7 4 _ fz fa fs (show (fs (ValueIdx.ix1 (wL L))).toNat = 4 * (L 0).val + 1 from hcase) hz
    isplitl [Ho7_5']
    · iapply (sub_G (F := F) d L 7 5 _ _)
      isplitr
      rotate_left
      · iexact Ho7_5'
      · ipureintro; unfold_run_names_ki2; exact zero_is_G L 7 5 _ fz fa fs (show (fs (ValueIdx.ix1 (wL L))).toNat = 4 * (L 0).val + 1 from hcase) hz
    isplitl [Ho7_6']
    · iapply (sub_G (F := F) d L 7 6 _ _)
      isplitr
      rotate_left
      · iexact Ho7_6'
      · ipureintro; unfold_run_names_ki2; exact zero_is_G L 7 6 _ fz fa fs (show (fs (ValueIdx.ix1 (wL L))).toNat = 4 * (L 0).val + 1 from hcase) hz
    · iapply (sub_G (F := F) d L 7 7 _ _)
      isplitr
      rotate_left
      · iexact Ho7_7'
      · ipureintro; unfold_run_names_ki2; exact zero_is_G L 7 7 _ fz fa fs (show (fs (ValueIdx.ix1 (wL L))).toNat = 4 * (L 0).val + 1 from hcase) hz
  isplitl [Ho8']
  · iapply (chunk_G8 (F := F) d L _ _)
    isplitr
    rotate_left
    · iexact Ho8'
    · ipureintro; unfold_run_names_ki2; exact copied_is_G L 8 (shB2 L) fo fa _ _ fs (show (fs (ValueIdx.ix1 (wL L))).toNat ≠ 4 * (L 0).val + 2 from by rw [hcase]; omega)
  isplitl [Ho9']
  · iapply (chunk_G9 (F := F) d L _ _)
    isplitr
    rotate_left
    · iexact Ho9'
    · ipureintro; unfold_run_names_ki2; exact copied_is_G L 9 (shB0 L) fo fa _ _ fs (show (fs (ValueIdx.ix1 (wL L))).toNat ≠ 4 * (L 0).val + 2 from by rw [hcase]; omega)
  isplitl [Ho10']
  · iapply (chunk_G10 (F := F) d L _ _)
    isplitr
    rotate_left
    · iexact Ho10'
    · ipureintro; unfold_run_names_ki2; exact copied_is_G L 10 (shB1 L) fo fa _ _ fs (show (fs (ValueIdx.ix1 (wL L))).toNat ≠ 4 * (L 0).val + 2 from by rw [hcase]; omega)
  isplitl [Ho11']
  · iapply (chunk_G11 (F := F) d L _ _)
    isplitr
    rotate_left
    · iexact Ho11'
    · ipureintro; unfold_run_names_ki2; exact copied_is_G L 11 (shB2 L) fo fa _ _ fs (show (fs (ValueIdx.ix1 (wL L))).toNat ≠ 4 * (L 0).val + 2 from by rw [hcase]; omega)
  isplitl [Ho12']
  · iapply (chunk_G12 (F := F) d L _ _)
    isplitr
    rotate_left
    · iexact Ho12'
    · ipureintro; unfold_run_names_ki2; exact copied_is_G L 12 (shB0 L) fo fa _ _ fs (show (fs (ValueIdx.ix1 (wL L))).toNat ≠ 4 * (L 0).val + 3 from by rw [hcase]; omega)
  isplitl [Ho13']
  · iapply (chunk_G13 (F := F) d L _ _)
    isplitr
    rotate_left
    · iexact Ho13'
    · ipureintro; unfold_run_names_ki2; exact copied_is_G L 13 (shB1 L) fo fa _ _ fs (show (fs (ValueIdx.ix1 (wL L))).toNat ≠ 4 * (L 0).val + 3 from by rw [hcase]; omega)
  isplitl [Ho14']
  · iapply (chunk_G14 (F := F) d L _ _)
    isplitr
    rotate_left
    · iexact Ho14'
    · ipureintro; unfold_run_names_ki2; exact copied_is_G L 14 (shB2 L) fo fa _ _ fs (show (fs (ValueIdx.ix1 (wL L))).toNat ≠ 4 * (L 0).val + 3 from by rw [hcase]; omega)
  isplitl [Ho15']
  · iapply (chunk_G15 (F := F) d L _ _)
    isplitr
    rotate_left
    · iexact Ho15'
    · ipureintro; unfold_run_names_ki2; exact copied_is_G L 15 (shB0 L) fo fa _ _ fs (show (fs (ValueIdx.ix1 (wL L))).toNat ≠ 4 * (L 0).val + 3 from by rw [hcase]; omega)
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C2

end Cert.Proof.KI

end
-- ==== Proof.KICase3.lean ====
import proofs.«218968_g36790689857971_cont_8to1_b_1381_24_alg».proof.Proof.KISetup
import proofs.«218968_g36790689857971_cont_8to1_b_1381_24_alg».proof.Proof.KICanon
import proofs.«218968_g36790689857971_cont_8to1_b_1381_24_alg».proof.Proof.KIValue

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.KernelIdeal.main_arg0_scv : Memref Cert.KernelIdeal.sig Kind.scVector Space.hbm Cert.KernelIdeal.S16x8x2x65536 EltTy.f32)
local notation "sW" => (Memref.whole Cert.KernelIdeal.main_arg1_scv : Memref Cert.KernelIdeal.sig Kind.scVector Space.hbm Cert.KernelIdeal.S16 EltTy.i32)
local notation "oW" => (Memref.whole Cert.KernelIdeal.main_v0_scv : Memref Cert.KernelIdeal.sig Kind.scVector Space.hbm Cert.KernelIdeal.S16x8x2x65536 EltTy.f32)
local notation "b0W" => (Memref.whole Cert.KernelIdeal.cc0_scratch0 : Memref Cert.KernelIdeal.sig Kind.scVector Space.vmem Cert.KernelIdeal.S16 EltTy.i32)
local notation "b1W" => (Memref.whole Cert.KernelIdeal.cc0_scratch1 : Memref Cert.KernelIdeal.sig Kind.scVector Space.vmem Cert.KernelIdeal.S4096 EltTy.f32)
local notation "shW" => (Memref.whole Cert.KernelIdeal.cc0_scratch2 : Memref Cert.KernelIdeal.sig Kind.scVector Space.shared Cert.KernelIdeal.S1572864 EltTy.f32)

/-! ## The tile's task when it silences stream 4·(L 0) + 2

The stream number of the tile's recording is the tile's stream 2: the flags of its two channels are 1, their four chunks are written with zeros, the other twelve are copied.
The run: the stream numbers into the scratch; eight lane gathers, each flag read off as a literal; the zero buffer filled
by the counted loop; then per chunk the copy into a staging buffer and out, or the eight zero windows on one counter, drained at the end. After it every chunk piece of the
result holds the specification's values. -/

open Lean Elab Tactic Meta in
/-- Unfold, in the goal, every value the run named (the auxiliary definitions `….sl.…`). -/
elab "unfold_run_names_ki3" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C3

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : (fs (ValueIdx.ix1 (wL L))).toNat = 4 * (L 0).val + 2) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho0' := (Entails.of_eq (och_pts0 (F := F) d L _).symm) $$ Ho0
  ihave Ho1' := (Entails.of_eq (och_pts1 (F := F) d L _).symm) $$ Ho1
  ihave Ho2' := (Entails.of_eq (och_pts2 (F := F) d L _).symm) $$ Ho2
  ihave Ho3' := (Entails.of_eq (och_pts3 (F := F) d L _).symm) $$ Ho3
  ihave Ho4' := (Entails.of_eq (och_pts4 (F := F) d L _).symm) $$ Ho4
  ihave Ho5' := (Entails.of_eq (och_pts5 (F := F) d L _).symm) $$ Ho5
  ihave Ho6' := (Entails.of_eq (och_pts6 (F := F) d L _).symm) $$ Ho6
  ihave Ho7' := (Entails.of_eq (och_pts7 (F := F) d L _).symm) $$ Ho7
  ihave Ho12' := (Entails.of_eq (och_pts12 (F := F) d L _).symm) $$ Ho12
  ihave Ho13' := (Entails.of_eq (och_pts13 (F := F) d L _).symm) $$ Ho13
  ihave Ho14' := (Entails.of_eq (och_pts14 (F := F) d L _).symm) $$ Ho14
  ihave Ho15' := (Entails.of_eq (och_pts15 (F := F) d L _).symm) $$ Ho15
  ihave Ho8s := (Entails.of_eq ((o_subSets (F := F) d L 8 fo).trans (bigSep_univ_eight _))) $$ Ho8
  icases Ho8s with ⟨Ho8_0, Ho8_1, Ho8_2, Ho8_3, Ho8_4, Ho8_5, Ho8_6, Ho8_7⟩
  ihave Ho8_0' := (Entails.of_eq (osub_pts (F := F) d L 8 0 _).symm) $$ Ho8_0
  ihave Ho8_1' := (Entails.of_eq (osub_pts (F := F) d L 8 1 _).symm) $$ Ho8_1
  ihave Ho8_2' := (Entails.of_eq (osub_pts (F := F) d L 8 2 _).symm) $$ Ho8_2
  ihave Ho8_3' := (Entails.of_eq (osub_pts (F := F) d L 8 3 _).symm) $$ Ho8_3
  ihave Ho8_4' := (Entails.of_eq (osub_pts (F := F) d L 8 4 _).symm) $$ Ho8_4
  ihave Ho8_5' := (Entails.of_eq (osub_pts (F := F) d L 8 5 _).symm) $$ Ho8_5
  ihave Ho8_6' := (Entails.of_eq (osub_pts (F := F) d L 8 6 _).symm) $$ Ho8_6
  ihave Ho8_7' := (Entails.of_eq (osub_pts (F := F) d L 8 7 _).symm) $$ Ho8_7
  ihave Ho9s := (Entails.of_eq ((o_subSets (F := F) d L 9 fo).trans (bigSep_univ_eight _))) $$ Ho9
  icases Ho9s with ⟨Ho9_0, Ho9_1, Ho9_2, Ho9_3, Ho9_4, Ho9_5, Ho9_6, Ho9_7⟩
  ihave Ho9_0' := (Entails.of_eq (osub_pts (F := F) d L 9 0 _).symm) $$ Ho9_0
  ihave Ho9_1' := (Entails.of_eq (osub_pts (F := F) d L 9 1 _).symm) $$ Ho9_1
  ihave Ho9_2' := (Entails.of_eq (osub_pts (F := F) d L 9 2 _).symm) $$ Ho9_2
  ihave Ho9_3' := (Entails.of_eq (osub_pts (F := F) d L 9 3 _).symm) $$ Ho9_3
  ihave Ho9_4' := (Entails.of_eq (osub_pts (F := F) d L 9 4 _).symm) $$ Ho9_4
  ihave Ho9_5' := (Entails.of_eq (osub_pts (F := F) d L 9 5 _).symm) $$ Ho9_5
  ihave Ho9_6' := (Entails.of_eq (osub_pts (F := F) d L 9 6 _).symm) $$ Ho9_6
  ihave Ho9_7' := (Entails.of_eq (osub_pts (F := F) d L 9 7 _).symm) $$ Ho9_7
  ihave Ho10s := (Entails.of_eq ((o_subSets (F := F) d L 10 fo).trans (bigSep_univ_eight _))) $$ Ho10
  icases Ho10s with ⟨Ho10_0, Ho10_1, Ho10_2, Ho10_3, Ho10_4, Ho10_5, Ho10_6, Ho10_7⟩
  ihave Ho10_0' := (Entails.of_eq (osub_pts (F := F) d L 10 0 _).symm) $$ Ho10_0
  ihave Ho10_1' := (Entails.of_eq (osub_pts (F := F) d L 10 1 _).symm) $$ Ho10_1
  ihave Ho10_2' := (Entails.of_eq (osub_pts (F := F) d L 10 2 _).symm) $$ Ho10_2
  ihave Ho10_3' := (Entails.of_eq (osub_pts (F := F) d L 10 3 _).symm) $$ Ho10_3
  ihave Ho10_4' := (Entails.of_eq (osub_pts (F := F) d L 10 4 _).symm) $$ Ho10_4
  ihave Ho10_5' := (Entails.of_eq (osub_pts (F := F) d L 10 5 _).symm) $$ Ho10_5
  ihave Ho10_6' := (Entails.of_eq (osub_pts (F := F) d L 10 6 _).symm) $$ Ho10_6
  ihave Ho10_7' := (Entails.of_eq (osub_pts (F := F) d L 10 7 _).symm) $$ Ho10_7
  ihave Ho11s := (Entails.of_eq ((o_subSets (F := F) d L 11 fo).trans (bigSep_univ_eight _))) $$ Ho11
  icases Ho11s with ⟨Ho11_0, Ho11_1, Ho11_2, Ho11_3, Ho11_4, Ho11_5, Ho11_6, Ho11_7⟩
  ihave Ho11_0' := (Entails.of_eq (osub_pts (F := F) d L 11 0 _).symm) $$ Ho11_0
  ihave Ho11_1' := (Entails.of_eq (osub_pts (F := F) d L 11 1 _).symm) $$ Ho11_1
  ihave Ho11_2' := (Entails.of_eq (osub_pts (F := F) d L 11 2 _).symm) $$ Ho11_2
  ihave Ho11_3' := (Entails.of_eq (osub_pts (F := F) d L 11 3 _).symm) $$ Ho11_3
  ihave Ho11_4' := (Entails.of_eq (osub_pts (F := F) d L 11 4 _).symm) $$ Ho11_4
  ihave Ho11_5' := (Entails.of_eq (osub_pts (F := F) d L 11 5 _).symm) $$ Ho11_5
  ihave Ho11_6' := (Entails.of_eq (osub_pts (F := F) d L 11 6 _).symm) $$ Ho11_6
  ihave Ho11_7' := (Entails.of_eq (osub_pts (F := F) d L 11 7 _).symm) $$ Ho11_7
  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  have _plan : Transfers.BatchOf (V d (cV L) (jV L)) (SemLoc.dma (sig := sig) cc0_scratch9.sem) 32 (windows := true) := trivial
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 0#1 := by
    unfold tile_case.sl.v71 tile_case.sl.v70 tile_case.sl.v69
    exact flag_lit_zero d L fs f0 _ _ _ _ _ 0 (by decide) (hidx0 L) (hsw0 L) (by rw [hcase]; omega)
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 0#1 := by
    unfold tile_case.sl.v132 tile_case.sl.v131 tile_case.sl.v130
    exact flag_lit_zero d L fs f0 _ _ _ _ _ 0 (by decide) (hidx1 L) (hsw1 L) (by rw [hcase]; omega)
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 0#1 := by
    unfold tile_case.sl.v193 tile_case.sl.v192 tile_case.sl.v191
    exact flag_lit_zero d L fs f0 _ _ _ _ _ 1 (by decide) (hidx2 L) (hsw2 L) (by rw [hcase]; omega)
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 0#1 := by
    unfold tile_case.sl.v254 tile_case.sl.v253 tile_case.sl.v252
    exact flag_lit_zero d L fs f0 _ _ _ _ _ 1 (by decide) (hidx3 L) (hsw3 L) (by rw [hcase]; omega)
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 1#1 := by
    unfold tile_case.sl.v315 tile_case.sl.v314 tile_case.sl.v313
    exact flag_lit_one d L fs f0 _ _ _ _ _ 2 (by decide) (hidx4 L) (hsw4 L) hcase
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 1#1 := by
    unfold tile_case.sl.v376 tile_case.sl.v375 tile_case.sl.v374
    exact flag_lit_one d L fs f0 _ _ _ _ _ 2 (by decide) (hidx5 L) (hsw5 L) hcase
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 0#1 := by
    unfold tile_case.sl.v437 tile_case.sl.v436 tile_case.sl.v435
    exact flag_lit_zero d L fs f0 _ _ _ _ _ 3 (by decide) (hidx6 L) (hsw6 L) (by rw [hcase]; omega)
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 0#1 := by
    unfold tile_case.sl.v498 tile_case.sl.v497 k0_pay8
    exact flag_lit_zero d L fs f0 _ _ _ _ _ 3 (by decide) (hidx7 L) (hsw7 L) (by rw [hcase]; omega)
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0']
  · iapply (chunk_G0 (F := F) d L _ _)
    isplitr
    rotate_left
    · iexact Ho0'
    · ipureintro; unfold_run_names_ki3; exact copied_is_G L 0 (shB0 L) fo fa _ _ fs (show (fs (ValueIdx.ix1 (wL L))).toNat ≠ 4 * (L 0).val + 0 from by rw [hcase]; omega)
  isplitl [Ho1']
  · iapply (chunk_G1 (F := F) d L _ _)
    isplitr
    rotate_left
    · iexact Ho1'
    · ipureintro; unfold_run_names_ki3; exact copied_is_G L 1 (shB1 L) fo fa _ _ fs (show (fs (ValueIdx.ix1 (wL L))).toNat ≠ 4 * (L 0).val + 0 from by rw [hcase]; omega)
  isplitl [Ho2']
  · iapply (chunk_G2 (F := F) d L _ _)
    isplitr
    rotate_left
    · iexact Ho2'
    · ipureintro; unfold_run_names_ki3; exact copied_is_G L 2 (shB2 L) fo fa _ _ fs (show (fs (ValueIdx.ix1 (wL L))).toNat ≠ 4 * (L 0).val + 0 from by rw [hcase]; omega)
  isplitl [Ho3']
  · iapply (chunk_G3 (F := F) d L _ _)
    isplitr
    rotate_left
    · iexact Ho3'
    · ipureintro; unfold_run_names_ki3; exact copied_is_G L 3 (shB0 L) fo fa _ _ fs (show (fs (ValueIdx.ix1 (wL L))).toNat ≠ 4 * (L 0).val + 0 from by rw [hcase]; omega)
  isplitl [Ho4']
  · iapply (chunk_G4 (F := F) d L _ _)
    isplitr
    rotate_left
    · iexact Ho4'
    · ipureintro; unfold_run_names_ki3; exact copied_is_G L 4 (shB1 L) fo fa _ _ fs (show (fs (ValueIdx.ix1 (wL L))).toNat ≠ 4 * (L 0).val + 1 from by rw [hcase]; omega)
  isplitl [Ho5']
  · iapply (chunk_G5 (F := F) d L _ _)
    isplitr
    rotate_left
    · iexact Ho5'
    · ipureintro; unfold_run_names_ki3; exact copied_is_G L 5 (shB2 L) fo fa _ _ fs (show (fs (ValueIdx.ix1 (wL L))).toNat ≠ 4 * (L 0).val + 1 from by rw [hcase]; omega)
  isplitl [Ho6']
  · iapply (chunk_G6 (F := F) d L _ _)
    isplitr
    rotate_left
    · iexact Ho6'
    · ipureintro; unfold_run_names_ki3; exact copied_is_G L 6 (shB0 L) fo fa _ _ fs (show (fs (ValueIdx.ix1 (wL L))).toNat ≠ 4 * (L 0).val + 1 from by rw [hcase]; omega)
  isplitl [Ho7']
  · iapply (chunk_G7 (F := F) d L _ _)
    isplitr
    rotate_left
    · iexact Ho7'
    · ipureintro; unfold_run_names_ki3; exact copied_is_G L 7 (shB1 L) fo fa _ _ fs (show (fs (ValueIdx.ix1 (wL L))).toNat ≠ 4 * (L 0).val + 1 from by rw [hcase]; omega)
  isplitl [Ho8_0' Ho8_1' Ho8_2' Ho8_3' Ho8_4' Ho8_5' Ho8_6' Ho8_7']
  · iapply (Entails.of_eq ((o_subSets (F := F) d L 8 (Cert.Spec.G (F := F) fa fs : Buf (Elt F) (oLoc d))).trans (bigSep_univ_eight _)).symm)
    isplitl [Ho8_0']
    · iapply (sub_G (F := F) d L 8 0 _ _)
      isplitr
      rotate_left
      · iexact Ho8_0'
      · ipureintro; unfold_run_names_ki3; exact zero_is_G L 8 0 _ fz fa fs (show (fs (ValueIdx.ix1 (wL L))).toNat = 4 * (L 0).val + 2 from hcase) hz
    isplitl [Ho8_1']
    · iapply (sub_G (F := F) d L 8 1 _ _)
      isplitr
      rotate_left
      · iexact Ho8_1'
      · ipureintro; unfold_run_names_ki3; exact zero_is_G L 8 1 _ fz fa fs (show (fs (ValueIdx.ix1 (wL L))).toNat = 4 * (L 0).val + 2 from hcase) hz
    isplitl [Ho8_2']
    · iapply (sub_G (F := F) d L 8 2 _ _)
      isplitr
      rotate_left
      · iexact Ho8_2'
      · ipureintro; unfold_run_names_ki3; exact zero_is_G L 8 2 _ fz fa fs (show (fs (ValueIdx.ix1 (wL L))).toNat = 4 * (L 0).val + 2 from hcase) hz
    isplitl [Ho8_3']
    · iapply (sub_G (F := F) d L 8 3 _ _)
      isplitr
      rotate_left
      · iexact Ho8_3'
      · ipureintro; unfold_run_names_ki3; exact zero_is_G L 8 3 _ fz fa fs (show (fs (ValueIdx.ix1 (wL L))).toNat = 4 * (L 0).val + 2 from hcase) hz
    isplitl [Ho8_4']
    · iapply (sub_G (F := F) d L 8 4 _ _)
      isplitr
      rotate_left
      · iexact Ho8_4'
      · ipureintro; unfold_run_names_ki3; exact zero_is_G L 8 4 _ fz fa fs (show (fs (ValueIdx.ix1 (wL L))).toNat = 4 * (L 0).val + 2 from hcase) hz
    isplitl [Ho8_5']
    · iapply (sub_G (F := F) d L 8 5 _ _)
      isplitr
      rotate_left
      · iexact Ho8_5'
      · ipureintro; unfold_run_names_ki3; exact zero_is_G L 8 5 _ fz fa fs (show (fs (ValueIdx.ix1 (wL L))).toNat = 4 * (L 0).val + 2 from hcase) hz
    isplitl [Ho8_6']
    · iapply (sub_G (F := F) d L 8 6 _ _)
      isplitr
      rotate_left
      · iexact Ho8_6'
      · ipureintro; unfold_run_names_ki3; exact zero_is_G L 8 6 _ fz fa fs (show (fs (ValueIdx.ix1 (wL L))).toNat = 4 * (L 0).val + 2 from hcase) hz
    · iapply (sub_G (F := F) d L 8 7 _ _)
      isplitr
      rotate_left
      · iexact Ho8_7'
      · ipureintro; unfold_run_names_ki3; exact zero_is_G L 8 7 _ fz fa fs (show (fs (ValueIdx.ix1 (wL L))).toNat = 4 * (L 0).val + 2 from hcase) hz
  isplitl [Ho9_0' Ho9_1' Ho9_2' Ho9_3' Ho9_4' Ho9_5' Ho9_6' Ho9_7']
  · iapply (Entails.of_eq ((o_subSets (F := F) d L 9 (Cert.Spec.G (F := F) fa fs : Buf (Elt F) (oLoc d))).trans (bigSep_univ_eight _)).symm)
    isplitl [Ho9_0']
    · iapply (sub_G (F := F) d L 9 0 _ _)
      isplitr
      rotate_left
      · iexact Ho9_0'
      · ipureintro; unfold_run_names_ki3; exact zero_is_G L 9 0 _ fz fa fs (show (fs (ValueIdx.ix1 (wL L))).toNat = 4 * (L 0).val + 2 from hcase) hz
    isplitl [Ho9_1']
    · iapply (sub_G (F := F) d L 9 1 _ _)
      isplitr
      rotate_left
      · iexact Ho9_1'
      · ipureintro; unfold_run_names_ki3; exact zero_is_G L 9 1 _ fz fa fs (show (fs (ValueIdx.ix1 (wL L))).toNat = 4 * (L 0).val + 2 from hcase) hz
    isplitl [Ho9_2']
    · iapply (sub_G (F := F) d L 9 2 _ _)
      isplitr
      rotate_left
      · iexact Ho9_2'
      · ipureintro; unfold_run_names_ki3; exact zero_is_G L 9 2 _ fz fa fs (show (fs (ValueIdx.ix1 (wL L))).toNat = 4 * (L 0).val + 2 from hcase) hz
    isplitl [Ho9_3']
    · iapply (sub_G (F := F) d L 9 3 _ _)
      isplitr
      rotate_left
      · iexact Ho9_3'
      · ipureintro; unfold_run_names_ki3; exact zero_is_G L 9 3 _ fz fa fs (show (fs (ValueIdx.ix1 (wL L))).toNat = 4 * (L 0).val + 2 from hcase) hz
    isplitl [Ho9_4']
    · iapply (sub_G (F := F) d L 9 4 _ _)
      isplitr
      rotate_left
      · iexact Ho9_4'
      · ipureintro; unfold_run_names_ki3; exact zero_is_G L 9 4 _ fz fa fs (show (fs (ValueIdx.ix1 (wL L))).toNat = 4 * (L 0).val + 2 from hcase) hz
    isplitl [Ho9_5']
    · iapply (sub_G (F := F) d L 9 5 _ _)
      isplitr
      rotate_left
      · iexact Ho9_5'
      · ipureintro; unfold_run_names_ki3; exact zero_is_G L 9 5 _ fz fa fs (show (fs (ValueIdx.ix1 (wL L))).toNat = 4 * (L 0).val + 2 from hcase) hz
    isplitl [Ho9_6']
    · iapply (sub_G (F := F) d L 9 6 _ _)
      isplitr
      rotate_left
      · iexact Ho9_6'
      · ipureintro; unfold_run_names_ki3; exact zero_is_G L 9 6 _ fz fa fs (show (fs (ValueIdx.ix1 (wL L))).toNat = 4 * (L 0).val + 2 from hcase) hz
    · iapply (sub_G (F := F) d L 9 7 _ _)
      isplitr
      rotate_left
      · iexact Ho9_7'
      · ipureintro; unfold_run_names_ki3; exact zero_is_G L 9 7 _ fz fa fs (show (fs (ValueIdx.ix1 (wL L))).toNat = 4 * (L 0).val + 2 from hcase) hz
  isplitl [Ho10_0' Ho10_1' Ho10_2' Ho10_3' Ho10_4' Ho10_5' Ho10_6' Ho10_7']
  · iapply (Entails.of_eq ((o_subSets (F := F) d L 10 (Cert.Spec.G (F := F) fa fs : Buf (Elt F) (oLoc d))).trans (bigSep_univ_eight _)).symm)
    isplitl [Ho10_0']
    · iapply (sub_G (F := F) d L 10 0 _ _)
      isplitr
      rotate_left
      · iexact Ho10_0'
      · ipureintro; unfold_run_names_ki3; exact zero_is_G L 10 0 _ fz fa fs (show (fs (ValueIdx.ix1 (wL L))).toNat = 4 * (L 0).val + 2 from hcase) hz
    isplitl [Ho10_1']
    · iapply (sub_G (F := F) d L 10 1 _ _)
      isplitr
      rotate_left
      · iexact Ho10_1'
      · ipureintro; unfold_run_names_ki3; exact zero_is_G L 10 1 _ fz fa fs (show (fs (ValueIdx.ix1 (wL L))).toNat = 4 * (L 0).val + 2 from hcase) hz
    isplitl [Ho10_2']
    · iapply (sub_G (F := F) d L 10 2 _ _)
      isplitr
      rotate_left
      · iexact Ho10_2'
      · ipureintro; unfold_run_names_ki3; exact zero_is_G L 10 2 _ fz fa fs (show (fs (ValueIdx.ix1 (wL L))).toNat = 4 * (L 0).val + 2 from hcase) hz
    isplitl [Ho10_3']
    · iapply (sub_G (F := F) d L 10 3 _ _)
      isplitr
      rotate_left
      · iexact Ho10_3'
      · ipureintro; unfold_run_names_ki3; exact zero_is_G L 10 3 _ fz fa fs (show (fs (ValueIdx.ix1 (wL L))).toNat = 4 * (L 0).val + 2 from hcase) hz
    isplitl [Ho10_4']
    · iapply (sub_G (F := F) d L 10 4 _ _)
      isplitr
      rotate_left
      · iexact Ho10_4'
      · ipureintro; unfold_run_names_ki3; exact zero_is_G L 10 4 _ fz fa fs (show (fs (ValueIdx.ix1 (wL L))).toNat = 4 * (L 0).val + 2 from hcase) hz
    isplitl [Ho10_5']
    · iapply (sub_G (F := F) d L 10 5 _ _)
      isplitr
      rotate_left
      · iexact Ho10_5'
      · ipureintro; unfold_run_names_ki3; exact zero_is_G L 10 5 _ fz fa fs (show (fs (ValueIdx.ix1 (wL L))).toNat = 4 * (L 0).val + 2 from hcase) hz
    isplitl [Ho10_6']
    · iapply (sub_G (F := F) d L 10 6 _ _)
      isplitr
      rotate_left
      · iexact Ho10_6'
      · ipureintro; unfold_run_names_ki3; exact zero_is_G L 10 6 _ fz fa fs (show (fs (ValueIdx.ix1 (wL L))).toNat = 4 * (L 0).val + 2 from hcase) hz
    · iapply (sub_G (F := F) d L 10 7 _ _)
      isplitr
      rotate_left
      · iexact Ho10_7'
      · ipureintro; unfold_run_names_ki3; exact zero_is_G L 10 7 _ fz fa fs (show (fs (ValueIdx.ix1 (wL L))).toNat = 4 * (L 0).val + 2 from hcase) hz
  isplitl [Ho11_0' Ho11_1' Ho11_2' Ho11_3' Ho11_4' Ho11_5' Ho11_6' Ho11_7']
  · iapply (Entails.of_eq ((o_subSets (F := F) d L 11 (Cert.Spec.G (F := F) fa fs : Buf (Elt F) (oLoc d))).trans (bigSep_univ_eight _)).symm)
    isplitl [Ho11_0']
    · iapply (sub_G (F := F) d L 11 0 _ _)
      isplitr
      rotate_left
      · iexact Ho11_0'
      · ipureintro; unfold_run_names_ki3; exact zero_is_G L 11 0 _ fz fa fs (show (fs (ValueIdx.ix1 (wL L))).toNat = 4 * (L 0).val + 2 from hcase) hz
    isplitl [Ho11_1']
    · iapply (sub_G (F := F) d L 11 1 _ _)
      isplitr
      rotate_left
      · iexact Ho11_1'
      · ipureintro; unfold_run_names_ki3; exact zero_is_G L 11 1 _ fz fa fs (show (fs (ValueIdx.ix1 (wL L))).toNat = 4 * (L 0).val + 2 from hcase) hz
    isplitl [Ho11_2']
    · iapply (sub_G (F := F) d L 11 2 _ _)
      isplitr
      rotate_left
      · iexact Ho11_2'
      · ipureintro; unfold_run_names_ki3; exact zero_is_G L 11 2 _ fz fa fs (show (fs (ValueIdx.ix1 (wL L))).toNat = 4 * (L 0).val + 2 from hcase) hz
    isplitl [Ho11_3']
    · iapply (sub_G (F := F) d L 11 3 _ _)
      isplitr
      rotate_left
      · iexact Ho11_3'
      · ipureintro; unfold_run_names_ki3; exact zero_is_G L 11 3 _ fz fa fs (show (fs (ValueIdx.ix1 (wL L))).toNat = 4 * (L 0).val + 2 from hcase) hz
    isplitl [Ho11_4']
    · iapply (sub_G (F := F) d L 11 4 _ _)
      isplitr
      rotate_left
      · iexact Ho11_4'
      · ipureintro; unfold_run_names_ki3; exact zero_is_G L 11 4 _ fz fa fs (show (fs (ValueIdx.ix1 (wL L))).toNat = 4 * (L 0).val + 2 from hcase) hz
    isplitl [Ho11_5']
    · iapply (sub_G (F := F) d L 11 5 _ _)
      isplitr
      rotate_left
      · iexact Ho11_5'
      · ipureintro; unfold_run_names_ki3; exact zero_is_G L 11 5 _ fz fa fs (show (fs (ValueIdx.ix1 (wL L))).toNat = 4 * (L 0).val + 2 from hcase) hz
    isplitl [Ho11_6']
    · iapply (sub_G (F := F) d L 11 6 _ _)
      isplitr
      rotate_left
      · iexact Ho11_6'
      · ipureintro; unfold_run_names_ki3; exact zero_is_G L 11 6 _ fz fa fs (show (fs (ValueIdx.ix1 (wL L))).toNat = 4 * (L 0).val + 2 from hcase) hz
    · iapply (sub_G (F := F) d L 11 7 _ _)
      isplitr
      rotate_left
      · iexact Ho11_7'
      · ipureintro; unfold_run_names_ki3; exact zero_is_G L 11 7 _ fz fa fs (show (fs (ValueIdx.ix1 (wL L))).toNat = 4 * (L 0).val + 2 from hcase) hz
  isplitl [Ho12']
  · iapply (chunk_G12 (F := F) d L _ _)
    isplitr
    rotate_left
    · iexact Ho12'
    · ipureintro; unfold_run_names_ki3; exact copied_is_G L 12 (shB0 L) fo fa _ _ fs (show (fs (ValueIdx.ix1 (wL L))).toNat ≠ 4 * (L 0).val + 3 from by rw [hcase]; omega)
  isplitl [Ho13']
  · iapply (chunk_G13 (F := F) d L _ _)
    isplitr
    rotate_left
    · iexact Ho13'
    · ipureintro; unfold_run_names_ki3; exact copied_is_G L 13 (shB1 L) fo fa _ _ fs (show (fs (ValueIdx.ix1 (wL L))).toNat ≠ 4 * (L 0).val + 3 from by rw [hcase]; omega)
  isplitl [Ho14']
  · iapply (chunk_G14 (F := F) d L _ _)
    isplitr
    rotate_left
    · iexact Ho14'
    · ipureintro; unfold_run_names_ki3; exact copied_is_G L 14 (shB2 L) fo fa _ _ fs (show (fs (ValueIdx.ix1 (wL L))).toNat ≠ 4 * (L 0).val + 3 from by rw [hcase]; omega)
  isplitl [Ho15']
  · iapply (chunk_G15 (F := F) d L _ _)
    isplitr
    rotate_left
    · iexact Ho15'
    · ipureintro; unfold_run_names_ki3; exact copied_is_G L 15 (shB0 L) fo fa _ _ fs (show (fs (ValueIdx.ix1 (wL L))).toNat ≠ 4 * (L 0).val + 3 from by rw [hcase]; omega)
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C3

end Cert.Proof.KI

end
-- ==== Proof.KICase4.lean ====
import proofs.«218968_g36790689857971_cont_8to1_b_1381_24_alg».proof.Proof.KISetup
import proofs.«218968_g36790689857971_cont_8to1_b_1381_24_alg».proof.Proof.KICanon
import proofs.«218968_g36790689857971_cont_8to1_b_1381_24_alg».proof.Proof.KIValue

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.KernelIdeal.main_arg0_scv : Memref Cert.KernelIdeal.sig Kind.scVector Space.hbm Cert.KernelIdeal.S16x8x2x65536 EltTy.f32)
local notation "sW" => (Memref.whole Cert.KernelIdeal.main_arg1_scv : Memref Cert.KernelIdeal.sig Kind.scVector Space.hbm Cert.KernelIdeal.S16 EltTy.i32)
local notation "oW" => (Memref.whole Cert.KernelIdeal.main_v0_scv : Memref Cert.KernelIdeal.sig Kind.scVector Space.hbm Cert.KernelIdeal.S16x8x2x65536 EltTy.f32)
local notation "b0W" => (Memref.whole Cert.KernelIdeal.cc0_scratch0 : Memref Cert.KernelIdeal.sig Kind.scVector Space.vmem Cert.KernelIdeal.S16 EltTy.i32)
local notation "b1W" => (Memref.whole Cert.KernelIdeal.cc0_scratch1 : Memref Cert.KernelIdeal.sig Kind.scVector Space.vmem Cert.KernelIdeal.S4096 EltTy.f32)
local notation "shW" => (Memref.whole Cert.KernelIdeal.cc0_scratch2 : Memref Cert.KernelIdeal.sig Kind.scVector Space.shared Cert.KernelIdeal.S1572864 EltTy.f32)

/-! ## The tile's task when it silences stream 4·(L 0) + 3

The stream number of the tile's recording is the tile's stream 3: the flags of its two channels are 1, their four chunks are written with zeros, the other twelve are copied.
The run: the stream numbers into the scratch; eight lane gathers, each flag read off as a literal; the zero buffer filled
by the counted loop; then per chunk the copy into a staging buffer and out, or the eight zero windows on one counter, drained at the end. After it every chunk piece of the
result holds the specification's values. -/

open Lean Elab Tactic Meta in
/-- Unfold, in the goal, every value the run named (the auxiliary definitions `….sl.…`). -/
elab "unfold_run_names_ki4" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C4

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : (fs (ValueIdx.ix1 (wL L))).toNat = 4 * (L 0).val + 3) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho0' := (Entails.of_eq (och_pts0 (F := F) d L _).symm) $$ Ho0
  ihave Ho1' := (Entails.of_eq (och_pts1 (F := F) d L _).symm) $$ Ho1
  ihave Ho2' := (Entails.of_eq (och_pts2 (F := F) d L _).symm) $$ Ho2
  ihave Ho3' := (Entails.of_eq (och_pts3 (F := F) d L _).symm) $$ Ho3
  ihave Ho4' := (Entails.of_eq (och_pts4 (F := F) d L _).symm) $$ Ho4
  ihave Ho5' := (Entails.of_eq (och_pts5 (F := F) d L _).symm) $$ Ho5
  ihave Ho6' := (Entails.of_eq (och_pts6 (F := F) d L _).symm) $$ Ho6
  ihave Ho7' := (Entails.of_eq (och_pts7 (F := F) d L _).symm) $$ Ho7
  ihave Ho8' := (Entails.of_eq (och_pts8 (F := F) d L _).symm) $$ Ho8
  ihave Ho9' := (Entails.of_eq (och_pts9 (F := F) d L _).symm) $$ Ho9
  ihave Ho10' := (Entails.of_eq (och_pts10 (F := F) d L _).symm) $$ Ho10
  ihave Ho11' := (Entails.of_eq (och_pts11 (F := F) d L _).symm) $$ Ho11
  ihave Ho12s := (Entails.of_eq ((o_subSets (F := F) d L 12 fo).trans (bigSep_univ_eight _))) $$ Ho12
  icases Ho12s with ⟨Ho12_0, Ho12_1, Ho12_2, Ho12_3, Ho12_4, Ho12_5, Ho12_6, Ho12_7⟩
  ihave Ho12_0' := (Entails.of_eq (osub_pts (F := F) d L 12 0 _).symm) $$ Ho12_0
  ihave Ho12_1' := (Entails.of_eq (osub_pts (F := F) d L 12 1 _).symm) $$ Ho12_1
  ihave Ho12_2' := (Entails.of_eq (osub_pts (F := F) d L 12 2 _).symm) $$ Ho12_2
  ihave Ho12_3' := (Entails.of_eq (osub_pts (F := F) d L 12 3 _).symm) $$ Ho12_3
  ihave Ho12_4' := (Entails.of_eq (osub_pts (F := F) d L 12 4 _).symm) $$ Ho12_4
  ihave Ho12_5' := (Entails.of_eq (osub_pts (F := F) d L 12 5 _).symm) $$ Ho12_5
  ihave Ho12_6' := (Entails.of_eq (osub_pts (F := F) d L 12 6 _).symm) $$ Ho12_6
  ihave Ho12_7' := (Entails.of_eq (osub_pts (F := F) d L 12 7 _).symm) $$ Ho12_7
  ihave Ho13s := (Entails.of_eq ((o_subSets (F := F) d L 13 fo).trans (bigSep_univ_eight _))) $$ Ho13
  icases Ho13s with ⟨Ho13_0, Ho13_1, Ho13_2, Ho13_3, Ho13_4, Ho13_5, Ho13_6, Ho13_7⟩
  ihave Ho13_0' := (Entails.of_eq (osub_pts (F := F) d L 13 0 _).symm) $$ Ho13_0
  ihave Ho13_1' := (Entails.of_eq (osub_pts (F := F) d L 13 1 _).symm) $$ Ho13_1
  ihave Ho13_2' := (Entails.of_eq (osub_pts (F := F) d L 13 2 _).symm) $$ Ho13_2
  ihave Ho13_3' := (Entails.of_eq (osub_pts (F := F) d L 13 3 _).symm) $$ Ho13_3
  ihave Ho13_4' := (Entails.of_eq (osub_pts (F := F) d L 13 4 _).symm) $$ Ho13_4
  ihave Ho13_5' := (Entails.of_eq (osub_pts (F := F) d L 13 5 _).symm) $$ Ho13_5
  ihave Ho13_6' := (Entails.of_eq (osub_pts (F := F) d L 13 6 _).symm) $$ Ho13_6
  ihave Ho13_7' := (Entails.of_eq (osub_pts (F := F) d L 13 7 _).symm) $$ Ho13_7
  ihave Ho14s := (Entails.of_eq ((o_subSets (F := F) d L 14 fo).trans (bigSep_univ_eight _))) $$ Ho14
  icases Ho14s with ⟨Ho14_0, Ho14_1, Ho14_2, Ho14_3, Ho14_4, Ho14_5, Ho14_6, Ho14_7⟩
  ihave Ho14_0' := (Entails.of_eq (osub_pts (F := F) d L 14 0 _).symm) $$ Ho14_0
  ihave Ho14_1' := (Entails.of_eq (osub_pts (F := F) d L 14 1 _).symm) $$ Ho14_1
  ihave Ho14_2' := (Entails.of_eq (osub_pts (F := F) d L 14 2 _).symm) $$ Ho14_2
  ihave Ho14_3' := (Entails.of_eq (osub_pts (F := F) d L 14 3 _).symm) $$ Ho14_3
  ihave Ho14_4' := (Entails.of_eq (osub_pts (F := F) d L 14 4 _).symm) $$ Ho14_4
  ihave Ho14_5' := (Entails.of_eq (osub_pts (F := F) d L 14 5 _).symm) $$ Ho14_5
  ihave Ho14_6' := (Entails.of_eq (osub_pts (F := F) d L 14 6 _).symm) $$ Ho14_6
  ihave Ho14_7' := (Entails.of_eq (osub_pts (F := F) d L 14 7 _).symm) $$ Ho14_7
  ihave Ho15s := (Entails.of_eq ((o_subSets (F := F) d L 15 fo).trans (bigSep_univ_eight _))) $$ Ho15
  icases Ho15s with ⟨Ho15_0, Ho15_1, Ho15_2, Ho15_3, Ho15_4, Ho15_5, Ho15_6, Ho15_7⟩
  ihave Ho15_0' := (Entails.of_eq (osub_pts (F := F) d L 15 0 _).symm) $$ Ho15_0
  ihave Ho15_1' := (Entails.of_eq (osub_pts (F := F) d L 15 1 _).symm) $$ Ho15_1
  ihave Ho15_2' := (Entails.of_eq (osub_pts (F := F) d L 15 2 _).symm) $$ Ho15_2
  ihave Ho15_3' := (Entails.of_eq (osub_pts (F := F) d L 15 3 _).symm) $$ Ho15_3
  ihave Ho15_4' := (Entails.of_eq (osub_pts (F := F) d L 15 4 _).symm) $$ Ho15_4
  ihave Ho15_5' := (Entails.of_eq (osub_pts (F := F) d L 15 5 _).symm) $$ Ho15_5
  ihave Ho15_6' := (Entails.of_eq (osub_pts (F := F) d L 15 6 _).symm) $$ Ho15_6
  ihave Ho15_7' := (Entails.of_eq (osub_pts (F := F) d L 15 7 _).symm) $$ Ho15_7
  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  have _plan : Transfers.BatchOf (V d (cV L) (jV L)) (SemLoc.dma (sig := sig) cc0_scratch9.sem) 32 (windows := true) := trivial
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 0#1 := by
    unfold tile_case.sl.v71 tile_case.sl.v70 tile_case.sl.v69
    exact flag_lit_zero d L fs f0 _ _ _ _ _ 0 (by decide) (hidx0 L) (hsw0 L) (by rw [hcase]; omega)
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 0#1 := by
    unfold tile_case.sl.v132 tile_case.sl.v131 tile_case.sl.v130
    exact flag_lit_zero d L fs f0 _ _ _ _ _ 0 (by decide) (hidx1 L) (hsw1 L) (by rw [hcase]; omega)
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 0#1 := by
    unfold tile_case.sl.v193 tile_case.sl.v192 tile_case.sl.v191
    exact flag_lit_zero d L fs f0 _ _ _ _ _ 1 (by decide) (hidx2 L) (hsw2 L) (by rw [hcase]; omega)
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 0#1 := by
    unfold tile_case.sl.v254 tile_case.sl.v253 tile_case.sl.v252
    exact flag_lit_zero d L fs f0 _ _ _ _ _ 1 (by decide) (hidx3 L) (hsw3 L) (by rw [hcase]; omega)
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 0#1 := by
    unfold tile_case.sl.v315 tile_case.sl.v314 tile_case.sl.v313
    exact flag_lit_zero d L fs f0 _ _ _ _ _ 2 (by decide) (hidx4 L) (hsw4 L) (by rw [hcase]; omega)
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 0#1 := by
    unfold tile_case.sl.v376 tile_case.sl.v375 tile_case.sl.v374
    exact flag_lit_zero d L fs f0 _ _ _ _ _ 2 (by decide) (hidx5 L) (hsw5 L) (by rw [hcase]; omega)
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 1#1 := by
    unfold tile_case.sl.v437 tile_case.sl.v436 tile_case.sl.v435
    exact flag_lit_one d L fs f0 _ _ _ _ _ 3 (by decide) (hidx6 L) (hsw6 L) hcase
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 1#1 := by
    unfold tile_case.sl.v498 tile_case.sl.v497 k0_pay8
    exact flag_lit_one d L fs f0 _ _ _ _ _ 3 (by decide) (hidx7 L) (hsw7 L) hcase
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0']
  · iapply (chunk_G0 (F := F) d L _ _)
    isplitr
    rotate_left
    · iexact Ho0'
    · ipureintro; unfold_run_names_ki4; exact copied_is_G L 0 (shB0 L) fo fa _ _ fs (show (fs (ValueIdx.ix1 (wL L))).toNat ≠ 4 * (L 0).val + 0 from by rw [hcase]; omega)
  isplitl [Ho1']
  · iapply (chunk_G1 (F := F) d L _ _)
    isplitr
    rotate_left
    · iexact Ho1'
    · ipureintro; unfold_run_names_ki4; exact copied_is_G L 1 (shB1 L) fo fa _ _ fs (show (fs (ValueIdx.ix1 (wL L))).toNat ≠ 4 * (L 0).val + 0 from by rw [hcase]; omega)
  isplitl [Ho2']
  · iapply (chunk_G2 (F := F) d L _ _)
    isplitr
    rotate_left
    · iexact Ho2'
    · ipureintro; unfold_run_names_ki4; exact copied_is_G L 2 (shB2 L) fo fa _ _ fs (show (fs (ValueIdx.ix1 (wL L))).toNat ≠ 4 * (L 0).val + 0 from by rw [hcase]; omega)
  isplitl [Ho3']
  · iapply (chunk_G3 (F := F) d L _ _)
    isplitr
    rotate_left
    · iexact Ho3'
    · ipureintro; unfold_run_names_ki4; exact copied_is_G L 3 (shB0 L) fo fa _ _ fs (show (fs (ValueIdx.ix1 (wL L))).toNat ≠ 4 * (L 0).val + 0 from by rw [hcase]; omega)
  isplitl [Ho4']
  · iapply (chunk_G4 (F := F) d L _ _)
    isplitr
    rotate_left
    · iexact Ho4'
    · ipureintro; unfold_run_names_ki4; exact copied_is_G L 4 (shB1 L) fo fa _ _ fs (show (fs (ValueIdx.ix1 (wL L))).toNat ≠ 4 * (L 0).val + 1 from by rw [hcase]; omega)
  isplitl [Ho5']
  · iapply (chunk_G5 (F := F) d L _ _)
    isplitr
    rotate_left
    · iexact Ho5'
    · ipureintro; unfold_run_names_ki4; exact copied_is_G L 5 (shB2 L) fo fa _ _ fs (show (fs (ValueIdx.ix1 (wL L))).toNat ≠ 4 * (L 0).val + 1 from by rw [hcase]; omega)
  isplitl [Ho6']
  · iapply (chunk_G6 (F := F) d L _ _)
    isplitr
    rotate_left
    · iexact Ho6'
    · ipureintro; unfold_run_names_ki4; exact copied_is_G L 6 (shB0 L) fo fa _ _ fs (show (fs (ValueIdx.ix1 (wL L))).toNat ≠ 4 * (L 0).val + 1 from by rw [hcase]; omega)
  isplitl [Ho7']
  · iapply (chunk_G7 (F := F) d L _ _)
    isplitr
    rotate_left
    · iexact Ho7'
    · ipureintro; unfold_run_names_ki4; exact copied_is_G L 7 (shB1 L) fo fa _ _ fs (show (fs (ValueIdx.ix1 (wL L))).toNat ≠ 4 * (L 0).val + 1 from by rw [hcase]; omega)
  isplitl [Ho8']
  · iapply (chunk_G8 (F := F) d L _ _)
    isplitr
    rotate_left
    · iexact Ho8'
    · ipureintro; unfold_run_names_ki4; exact copied_is_G L 8 (shB2 L) fo fa _ _ fs (show (fs (ValueIdx.ix1 (wL L))).toNat ≠ 4 * (L 0).val + 2 from by rw [hcase]; omega)
  isplitl [Ho9']
  · iapply (chunk_G9 (F := F) d L _ _)
    isplitr
    rotate_left
    · iexact Ho9'
    · ipureintro; unfold_run_names_ki4; exact copied_is_G L 9 (shB0 L) fo fa _ _ fs (show (fs (ValueIdx.ix1 (wL L))).toNat ≠ 4 * (L 0).val + 2 from by rw [hcase]; omega)
  isplitl [Ho10']
  · iapply (chunk_G10 (F := F) d L _ _)
    isplitr
    rotate_left
    · iexact Ho10'
    · ipureintro; unfold_run_names_ki4; exact copied_is_G L 10 (shB1 L) fo fa _ _ fs (show (fs (ValueIdx.ix1 (wL L))).toNat ≠ 4 * (L 0).val + 2 from by rw [hcase]; omega)
  isplitl [Ho11']
  · iapply (chunk_G11 (F := F) d L _ _)
    isplitr
    rotate_left
    · iexact Ho11'
    · ipureintro; unfold_run_names_ki4; exact copied_is_G L 11 (shB2 L) fo fa _ _ fs (show (fs (ValueIdx.ix1 (wL L))).toNat ≠ 4 * (L 0).val + 2 from by rw [hcase]; omega)
  isplitl [Ho12_0' Ho12_1' Ho12_2' Ho12_3' Ho12_4' Ho12_5' Ho12_6' Ho12_7']
  · iapply (Entails.of_eq ((o_subSets (F := F) d L 12 (Cert.Spec.G (F := F) fa fs : Buf (Elt F) (oLoc d))).trans (bigSep_univ_eight _)).symm)
    isplitl [Ho12_0']
    · iapply (sub_G (F := F) d L 12 0 _ _)
      isplitr
      rotate_left
      · iexact Ho12_0'
      · ipureintro; unfold_run_names_ki4; exact zero_is_G L 12 0 _ fz fa fs (show (fs (ValueIdx.ix1 (wL L))).toNat = 4 * (L 0).val + 3 from hcase) hz
    isplitl [Ho12_1']
    · iapply (sub_G (F := F) d L 12 1 _ _)
      isplitr
      rotate_left
      · iexact Ho12_1'
      · ipureintro; unfold_run_names_ki4; exact zero_is_G L 12 1 _ fz fa fs (show (fs (ValueIdx.ix1 (wL L))).toNat = 4 * (L 0).val + 3 from hcase) hz
    isplitl [Ho12_2']
    · iapply (sub_G (F := F) d L 12 2 _ _)
      isplitr
      rotate_left
      · iexact Ho12_2'
      · ipureintro; unfold_run_names_ki4; exact zero_is_G L 12 2 _ fz fa fs (show (fs (ValueIdx.ix1 (wL L))).toNat = 4 * (L 0).val + 3 from hcase) hz
    isplitl [Ho12_3']
    · iapply (sub_G (F := F) d L 12 3 _ _)
      isplitr
      rotate_left
      · iexact Ho12_3'
      · ipureintro; unfold_run_names_ki4; exact zero_is_G L 12 3 _ fz fa fs (show (fs (ValueIdx.ix1 (wL L))).toNat = 4 * (L 0).val + 3 from hcase) hz
    isplitl [Ho12_4']
    · iapply (sub_G (F := F) d L 12 4 _ _)
      isplitr
      rotate_left
      · iexact Ho12_4'
      · ipureintro; unfold_run_names_ki4; exact zero_is_G L 12 4 _ fz fa fs (show (fs (ValueIdx.ix1 (wL L))).toNat = 4 * (L 0).val + 3 from hcase) hz
    isplitl [Ho12_5']
    · iapply (sub_G (F := F) d L 12 5 _ _)
      isplitr
      rotate_left
      · iexact Ho12_5'
      · ipureintro; unfold_run_names_ki4; exact zero_is_G L 12 5 _ fz fa fs (show (fs (ValueIdx.ix1 (wL L))).toNat = 4 * (L 0).val + 3 from hcase) hz
    isplitl [Ho12_6']
    · iapply (sub_G (F := F) d L 12 6 _ _)
      isplitr
      rotate_left
      · iexact Ho12_6'
      · ipureintro; unfold_run_names_ki4; exact zero_is_G L 12 6 _ fz fa fs (show (fs (ValueIdx.ix1 (wL L))).toNat = 4 * (L 0).val + 3 from hcase) hz
    · iapply (sub_G (F := F) d L 12 7 _ _)
      isplitr
      rotate_left
      · iexact Ho12_7'
      · ipureintro; unfold_run_names_ki4; exact zero_is_G L 12 7 _ fz fa fs (show (fs (ValueIdx.ix1 (wL L))).toNat = 4 * (L 0).val + 3 from hcase) hz
  isplitl [Ho13_0' Ho13_1' Ho13_2' Ho13_3' Ho13_4' Ho13_5' Ho13_6' Ho13_7']
  · iapply (Entails.of_eq ((o_subSets (F := F) d L 13 (Cert.Spec.G (F := F) fa fs : Buf (Elt F) (oLoc d))).trans (bigSep_univ_eight _)).symm)
    isplitl [Ho13_0']
    · iapply (sub_G (F := F) d L 13 0 _ _)
      isplitr
      rotate_left
      · iexact Ho13_0'
      · ipureintro; unfold_run_names_ki4; exact zero_is_G L 13 0 _ fz fa fs (show (fs (ValueIdx.ix1 (wL L))).toNat = 4 * (L 0).val + 3 from hcase) hz
    isplitl [Ho13_1']
    · iapply (sub_G (F := F) d L 13 1 _ _)
      isplitr
      rotate_left
      · iexact Ho13_1'
      · ipureintro; unfold_run_names_ki4; exact zero_is_G L 13 1 _ fz fa fs (show (fs (ValueIdx.ix1 (wL L))).toNat = 4 * (L 0).val + 3 from hcase) hz
    isplitl [Ho13_2']
    · iapply (sub_G (F := F) d L 13 2 _ _)
      isplitr
      rotate_left
      · iexact Ho13_2'
      · ipureintro; unfold_run_names_ki4; exact zero_is_G L 13 2 _ fz fa fs (show (fs (ValueIdx.ix1 (wL L))).toNat = 4 * (L 0).val + 3 from hcase) hz
    isplitl [Ho13_3']
    · iapply (sub_G (F := F) d L 13 3 _ _)
      isplitr
      rotate_left
      · iexact Ho13_3'
      · ipureintro; unfold_run_names_ki4; exact zero_is_G L 13 3 _ fz fa fs (show (fs (ValueIdx.ix1 (wL L))).toNat = 4 * (L 0).val + 3 from hcase) hz
    isplitl [Ho13_4']
    · iapply (sub_G (F := F) d L 13 4 _ _)
      isplitr
      rotate_left
      · iexact Ho13_4'
      · ipureintro; unfold_run_names_ki4; exact zero_is_G L 13 4 _ fz fa fs (show (fs (ValueIdx.ix1 (wL L))).toNat = 4 * (L 0).val + 3 from hcase) hz
    isplitl [Ho13_5']
    · iapply (sub_G (F := F) d L 13 5 _ _)
      isplitr
      rotate_left
      · iexact Ho13_5'
      · ipureintro; unfold_run_names_ki4; exact zero_is_G L 13 5 _ fz fa fs (show (fs (ValueIdx.ix1 (wL L))).toNat = 4 * (L 0).val + 3 from hcase) hz
    isplitl [Ho13_6']
    · iapply (sub_G (F := F) d L 13 6 _ _)
      isplitr
      rotate_left
      · iexact Ho13_6'
      · ipureintro; unfold_run_names_ki4; exact zero_is_G L 13 6 _ fz fa fs (show (fs (ValueIdx.ix1 (wL L))).toNat = 4 * (L 0).val + 3 from hcase) hz
    · iapply (sub_G (F := F) d L 13 7 _ _)
      isplitr
      rotate_left
      · iexact Ho13_7'
      · ipureintro; unfold_run_names_ki4; exact zero_is_G L 13 7 _ fz fa fs (show (fs (ValueIdx.ix1 (wL L))).toNat = 4 * (L 0).val + 3 from hcase) hz
  isplitl [Ho14_0' Ho14_1' Ho14_2' Ho14_3' Ho14_4' Ho14_5' Ho14_6' Ho14_7']
  · iapply (Entails.of_eq ((o_subSets (F := F) d L 14 (Cert.Spec.G (F := F) fa fs : Buf (Elt F) (oLoc d))).trans (bigSep_univ_eight _)).symm)
    isplitl [Ho14_0']
    · iapply (sub_G (F := F) d L 14 0 _ _)
      isplitr
      rotate_left
      · iexact Ho14_0'
      · ipureintro; unfold_run_names_ki4; exact zero_is_G L 14 0 _ fz fa fs (show (fs (ValueIdx.ix1 (wL L))).toNat = 4 * (L 0).val + 3 from hcase) hz
    isplitl [Ho14_1']
    · iapply (sub_G (F := F) d L 14 1 _ _)
      isplitr
      rotate_left
      · iexact Ho14_1'
      · ipureintro; unfold_run_names_ki4; exact zero_is_G L 14 1 _ fz fa fs (show (fs (ValueIdx.ix1 (wL L))).toNat = 4 * (L 0).val + 3 from hcase) hz
    isplitl [Ho14_2']
    · iapply (sub_G (F := F) d L 14 2 _ _)
      isplitr
      rotate_left
      · iexact Ho14_2'
      · ipureintro; unfold_run_names_ki4; exact zero_is_G L 14 2 _ fz fa fs (show (fs (ValueIdx.ix1 (wL L))).toNat = 4 * (L 0).val + 3 from hcase) hz
    isplitl [Ho14_3']
    · iapply (sub_G (F := F) d L 14 3 _ _)
      isplitr
      rotate_left
      · iexact Ho14_3'
      · ipureintro; unfold_run_names_ki4; exact zero_is_G L 14 3 _ fz fa fs (show (fs (ValueIdx.ix1 (wL L))).toNat = 4 * (L 0).val + 3 from hcase) hz
    isplitl [Ho14_4']
    · iapply (sub_G (F := F) d L 14 4 _ _)
      isplitr
      rotate_left
      · iexact Ho14_4'
      · ipureintro; unfold_run_names_ki4; exact zero_is_G L 14 4 _ fz fa fs (show (fs (ValueIdx.ix1 (wL L))).toNat = 4 * (L 0).val + 3 from hcase) hz
    isplitl [Ho14_5']
    · iapply (sub_G (F := F) d L 14 5 _ _)
      isplitr
      rotate_left
      · iexact Ho14_5'
      · ipureintro; unfold_run_names_ki4; exact zero_is_G L 14 5 _ fz fa fs (show (fs (ValueIdx.ix1 (wL L))).toNat = 4 * (L 0).val + 3 from hcase) hz
    isplitl [Ho14_6']
    · iapply (sub_G (F := F) d L 14 6 _ _)
      isplitr
      rotate_left
      · iexact Ho14_6'
      · ipureintro; unfold_run_names_ki4; exact zero_is_G L 14 6 _ fz fa fs (show (fs (ValueIdx.ix1 (wL L))).toNat = 4 * (L 0).val + 3 from hcase) hz
    · iapply (sub_G (F := F) d L 14 7 _ _)
      isplitr
      rotate_left
      · iexact Ho14_7'
      · ipureintro; unfold_run_names_ki4; exact zero_is_G L 14 7 _ fz fa fs (show (fs (ValueIdx.ix1 (wL L))).toNat = 4 * (L 0).val + 3 from hcase) hz
  isplitl [Ho15_0' Ho15_1' Ho15_2' Ho15_3' Ho15_4' Ho15_5' Ho15_6' Ho15_7']
  · iapply (Entails.of_eq ((o_subSets (F := F) d L 15 (Cert.Spec.G (F := F) fa fs : Buf (Elt F) (oLoc d))).trans (bigSep_univ_eight _)).symm)
    isplitl [Ho15_0']
    · iapply (sub_G (F := F) d L 15 0 _ _)
      isplitr
      rotate_left
      · iexact Ho15_0'
      · ipureintro; unfold_run_names_ki4; exact zero_is_G L 15 0 _ fz fa fs (show (fs (ValueIdx.ix1 (wL L))).toNat = 4 * (L 0).val + 3 from hcase) hz
    isplitl [Ho15_1']
    · iapply (sub_G (F := F) d L 15 1 _ _)
      isplitr
      rotate_left
      · iexact Ho15_1'
      · ipureintro; unfold_run_names_ki4; exact zero_is_G L 15 1 _ fz fa fs (show (fs (ValueIdx.ix1 (wL L))).toNat = 4 * (L 0).val + 3 from hcase) hz
    isplitl [Ho15_2']
    · iapply (sub_G (F := F) d L 15 2 _ _)
      isplitr
      rotate_left
      · iexact Ho15_2'
      · ipureintro; unfold_run_names_ki4; exact zero_is_G L 15 2 _ fz fa fs (show (fs (ValueIdx.ix1 (wL L))).toNat = 4 * (L 0).val + 3 from hcase) hz
    isplitl [Ho15_3']
    · iapply (sub_G (F := F) d L 15 3 _ _)
      isplitr
      rotate_left
      · iexact Ho15_3'
      · ipureintro; unfold_run_names_ki4; exact zero_is_G L 15 3 _ fz fa fs (show (fs (ValueIdx.ix1 (wL L))).toNat = 4 * (L 0).val + 3 from hcase) hz
    isplitl [Ho15_4']
    · iapply (sub_G (F := F) d L 15 4 _ _)
      isplitr
      rotate_left
      · iexact Ho15_4'
      · ipureintro; unfold_run_names_ki4; exact zero_is_G L 15 4 _ fz fa fs (show (fs (ValueIdx.ix1 (wL L))).toNat = 4 * (L 0).val + 3 from hcase) hz
    isplitl [Ho15_5']
    · iapply (sub_G (F := F) d L 15 5 _ _)
      isplitr
      rotate_left
      · iexact Ho15_5'
      · ipureintro; unfold_run_names_ki4; exact zero_is_G L 15 5 _ fz fa fs (show (fs (ValueIdx.ix1 (wL L))).toNat = 4 * (L 0).val + 3 from hcase) hz
    isplitl [Ho15_6']
    · iapply (sub_G (F := F) d L 15 6 _ _)
      isplitr
      rotate_left
      · iexact Ho15_6'
      · ipureintro; unfold_run_names_ki4; exact zero_is_G L 15 6 _ fz fa fs (show (fs (ValueIdx.ix1 (wL L))).toNat = 4 * (L 0).val + 3 from hcase) hz
    · iapply (sub_G (F := F) d L 15 7 _ _)
      isplitr
      rotate_left
      · iexact Ho15_7'
      · ipureintro; unfold_run_names_ki4; exact zero_is_G L 15 7 _ fz fa fs (show (fs (ValueIdx.ix1 (wL L))).toNat = 4 * (L 0).val + 3 from hcase) hz
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C4

end Cert.Proof.KI

end
-- ==== Proof.KIOwn.lean ====
/-
  What a tile owns, opened: a vector subcore's own semaphores and buffers, by name.

  A vector subcore's scoped semaphore cells are exactly its eight DMA semaphores (none of the four regular semaphores is
  scoped; every DMA semaphore of a SparseCore processor is), so "all its own semaphores at zero" is the eight cells at zero,
  one by one. Its own buffers are exactly its two vector-memory scratch buffers (the device's arrays and the SparseCore's
  shared scratch belong to others; its kind has no scalar-memory buffer), so "all its own buffers at some contents" is those
  two, each at some contents.
-/
import proofs.«218968_g36790689857971_cont_8to1_b_1381_24_alg».proof.Proof.KISetup

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

/-! ## The tile's semaphores -/

theorem reg_not_scoped : ∀ s : Sem sig, (SemLoc.reg s : SemLoc sig).isScoped .scVector = false := by decide
theorem dma_scoped : ∀ k : DmaSem sig, (SemLoc.dma k : SemLoc sig).isScoped .scVector = true := by decide

/-- A vector subcore's scoped semaphore cells are its eight DMA semaphores: none of the four regular semaphores is scoped,
    every DMA semaphore of a SparseCore processor is. -/
theorem ownCells_tile :
    (ownCells (V d c i) : Finset (GSem nD τ sig))
      = (Finset.univ : Finset (DmaSem sig)).map ⟨fun k => ((V d c i, SemLoc.dma k) : GSem nD τ sig), fun a b e => by
          have := congrArg Prod.snd e; simpa using this⟩ := by
  ext g
  obtain ⟨thr, sl⟩ := g
  rw [mem_ownCells, Finset.mem_map]
  constructor
  · rintro ⟨rfl, hs⟩
    cases sl with
    | reg s => exact absurd (show (SemLoc.reg s : SemLoc sig).isScoped .scVector = true from hs) (by rw [reg_not_scoped s]; decide)
    | dma k => exact ⟨k, Finset.mem_univ _, rfl⟩
  · rintro ⟨k, -, e⟩
    obtain ⟨rfl, rfl⟩ := Prod.mk.inj e
    exact ⟨rfl, dma_scoped k⟩

theorem ownSems0_tile :
    (ownSems0 (V d c i) : sProp 𝕄)
      = iprop(semVal (V d c i, SemLoc.dma cc0_scratch3.sem) 0
          ∗ semVal (V d c i, SemLoc.dma cc0_scratch4.sem) 0
          ∗ semVal (V d c i, SemLoc.dma cc0_scratch5.sem) 0
          ∗ semVal (V d c i, SemLoc.dma cc0_scratch6.sem) 0
          ∗ semVal (V d c i, SemLoc.dma cc0_scratch7.sem) 0
          ∗ semVal (V d c i, SemLoc.dma cc0_scratch8.sem) 0
          ∗ semVal (V d c i, SemLoc.dma cc0_scratch9.sem) 0
          ∗ semVal (V d c i, SemLoc.dma cc0_scoped0.sem) 0
          ∗ emp) := by
  unfold SparseCore.Cfg.ownSems0
  rw [ownCells_tile, BI.bigSep_map]
  rw [show (Finset.univ : Finset (DmaSem sig)) = {0, 1, 2, 3, 4, 5, 6, 7} from by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide)]
  rfl

/-! ## The tile's buffers -/

/-- A vector subcore's own buffers are its two vector-memory scratch buffers: the device's arrays and its SparseCore's
    shared scratch belong to others, and its kind has no buffer in scalar memory. -/
theorem ownRefs_tile :
    (ownRefs (τ := τ) (sig := sig) (Proc.scVector c i))
      = {(Proc.scVector c i).devRef cc0_scratch0, (Proc.scVector c i).devRef cc0_scratch1} := by
  ext b
  rw [mem_ownRefs, SparseCore.Cfg.home_eq_scVector, Finset.mem_insert, Finset.mem_singleton]
  constructor
  · intro hb
    obtain ⟨tb, ix, hd⟩ := b
    cases tb with
    | hbm =>
      exfalso
      match ix, hd, hb with
      | ⟨0, _⟩, hd, hb => cases hb
      | ⟨1, _⟩, hd, hb => cases hb
      | ⟨2, _⟩, hd, hb => cases hb
    | host => cases hb
    | shared => cases hb
    | «local» κ cs =>
      have hp : κ.proc hd = Proc.scVector c i := Owner.proc.inj hb
      cases κ with
      | tc => cases hp
      | scScalar => cases hp
      | scVector =>
        obtain ⟨c', i'⟩ := hd
        obtain ⟨rfl, rfl⟩ : c' = c ∧ i' = i := by
          have := hp; simp only [Kind.proc, Proc.scVector.injEq] at this; exact this
        cases cs with
        | smem => exact ix.elim0
        | vmem =>
          match ix with
          | ⟨0, _⟩ => exact Or.inl rfl
          | ⟨1, _⟩ => exact Or.inr rfl
  · rintro (rfl | rfl) <;> rfl

theorem ownBufs_tile :
    (ownBufs (V d c i) : sProp 𝕄)
      = iprop((∃ f, (V d c i).loc cc0_scratch0 ↦{fullShare} f) ∗ (∃ f, (V d c i).loc cc0_scratch1 ↦{fullShare} f) ∗ emp) := by
  unfold SparseCore.Cfg.ownBufs
  rw [show (V d c i : Thread nD τ).2 = Proc.scVector c i from rfl, ownRefs_tile]
  rw [SparseCore.bigSep_insert' (by
    rw [Finset.mem_singleton]
    exact fun e => absurd (Proc.devRef_injective _ e) (show (cc0_scratch0 : Ref sig .scVector) ≠ cc0_scratch1 by decide))]
  rfl

/-! ## The same without the trailing `emp` -/

theorem ownSems0_tile' :
    (ownSems0 (V d c i) : sProp 𝕄)
      = iprop(semVal (V d c i, SemLoc.dma cc0_scratch3.sem) 0
          ∗ semVal (V d c i, SemLoc.dma cc0_scratch4.sem) 0
          ∗ semVal (V d c i, SemLoc.dma cc0_scratch5.sem) 0
          ∗ semVal (V d c i, SemLoc.dma cc0_scratch6.sem) 0
          ∗ semVal (V d c i, SemLoc.dma cc0_scratch7.sem) 0
          ∗ semVal (V d c i, SemLoc.dma cc0_scratch8.sem) 0
          ∗ semVal (V d c i, SemLoc.dma cc0_scratch9.sem) 0
          ∗ semVal (V d c i, SemLoc.dma cc0_scoped0.sem) 0) := by
  rw [ownSems0_tile, show (iprop(semVal (V d c i, SemLoc.dma cc0_scoped0.sem) 0 ∗ emp) : sProp 𝕄)
    = semVal (V d c i, SemLoc.dma cc0_scoped0.sem) 0 from equiv_iff.mp sep_emp]

theorem ownBufs_tile' :
    (ownBufs (V d c i) : sProp 𝕄)
      = iprop((∃ f, (V d c i).loc cc0_scratch0 ↦{fullShare} f) ∗ (∃ f, (V d c i).loc cc0_scratch1 ↦{fullShare} f)) := by
  rw [ownBufs_tile, show (iprop((∃ f, (V d c i).loc cc0_scratch1 ↦{fullShare} f) ∗ emp) : sProp 𝕄)
    = iprop(∃ f, (V d c i).loc cc0_scratch1 ↦{fullShare} f) from equiv_iff.mp sep_emp]

end Cert.Proof.KI

end
-- ==== Proof.KIBody.lean ====
/-
  The tile obligation, assembled. The tile's body is proved case by case on the stream number of the tile's recording — it
  names none of the tile's four streams, or the first, second, third or fourth of them — each case from one common
  precondition to one common postcondition. Here the launch's hand-over to a tile is opened into that precondition, the
  postcondition is closed into what the launch asks back, the cases are put together, and the result is stated as the launch
  theorem's obligation.
-/
import proofs.«218968_g36790689857971_cont_8to1_b_1381_24_alg».proof.Proof.KICase0
import proofs.«218968_g36790689857971_cont_8to1_b_1381_24_alg».proof.Proof.KICase1
import proofs.«218968_g36790689857971_cont_8to1_b_1381_24_alg».proof.Proof.KICase2
import proofs.«218968_g36790689857971_cont_8to1_b_1381_24_alg».proof.Proof.KICase3
import proofs.«218968_g36790689857971_cont_8to1_b_1381_24_alg».proof.Proof.KICase4
import proofs.«218968_g36790689857971_cont_8to1_b_1381_24_alg».proof.Proof.KIOwn
import proofs.«218968_g36790689857971_cont_8to1_b_1381_24_alg».proof.Proof.KILaunch

noncomputable section

namespace Cert.Proof.KI

open Cert.KernelIdeal Cert.KernelIdeal.Gen Cert.Proof.KI.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.KernelIdeal.main_arg0_scv : Memref Cert.KernelIdeal.sig Kind.scVector Space.hbm Cert.KernelIdeal.S16x8x2x65536 EltTy.f32)
local notation "sW" => (Memref.whole Cert.KernelIdeal.main_arg1_scv : Memref Cert.KernelIdeal.sig Kind.scVector Space.hbm Cert.KernelIdeal.S16 EltTy.i32)
local notation "oW" => (Memref.whole Cert.KernelIdeal.main_v0_scv : Memref Cert.KernelIdeal.sig Kind.scVector Space.hbm Cert.KernelIdeal.S16x8x2x65536 EltTy.f32)
local notation "b0W" => (Memref.whole Cert.KernelIdeal.cc0_scratch0 : Memref Cert.KernelIdeal.sig Kind.scVector Space.vmem Cert.KernelIdeal.S16 EltTy.i32)
local notation "b1W" => (Memref.whole Cert.KernelIdeal.cc0_scratch1 : Memref Cert.KernelIdeal.sig Kind.scVector Space.vmem Cert.KernelIdeal.S4096 EltTy.f32)
local notation "shW" => (Memref.whole Cert.KernelIdeal.cc0_scratch2 : Memref Cert.KernelIdeal.sig Kind.scVector Space.shared Cert.KernelIdeal.S1572864 EltTy.f32)

variable (m : (ℓ : Loc nD τ sig) → Buf (Elt F) ℓ)
variable [FloatOps F]

/-! ## The cases' common precondition and postcondition, named once -/

/-- What every case of the tile's body starts from: the level facts; the sixteen chunk pieces of the recordings at a read
    share; the stream numbers at a read share; the sixteen chunk pieces of the result; the tile's two scratch buffers; its
    three staging pieces; its eight DMA counters at zero; what it owes; a frame. -/
abbrev casePre (d : Dev nD) (L : grid0.Coords) (O : CellTallies nD τ sig (HIx 1)) (W : Waits sig (HIx 1))
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄) : sProp 𝕄 :=
  iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)

/-- What every case ends with: the same, the result's pieces at the specified function, scratch and staging at some contents. -/
abbrev casePost (d : Dev nD) (L : grid0.Coords) (O : CellTallies nD τ sig (HIx 1)) (W : Waits sig (HIx 1))
    (qa qs : PosShare TreeShare) (fa : Buf (Elt F) (aLoc d)) (fs : Buf (Elt F) (sLoc d)) (R : sProp 𝕄) : sProp 𝕄 :=
  iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R)

/-- What of the recordings the tile holds but never lends: everything outside its sixteen chunks, at its read share. -/
abbrev restA (d : Dev nD) (L : grid0.Coords) : sProp 𝕄 :=
  aLoc d ↦[Finset.univ \ tileSet (cL L) (wL L)]{qTile (cL L) (wL L)} m (aLoc d)

/-- The tile's SparseCore, as the payload names it and as the thread names it. -/
theorem coreOf_cL (L : grid0.Coords) : coreOf (cL L) = cV L := Fin.ext rfl

/-! ## The three splits, written out piece by piece -/

theorem a_open (d : Dev nD) (L : grid0.Coords) (q : PosShare TreeShare) (f : Buf (Elt F) (aLoc d)) :
    (aLoc d ↦{q} f : sProp 𝕄)
      = iprop(((aLoc d ↦[chunkSet L 0]{q} f) ∗ (aLoc d ↦[chunkSet L 1]{q} f) ∗ (aLoc d ↦[chunkSet L 2]{q} f) ∗ (aLoc d ↦[chunkSet L 3]{q} f) ∗ (aLoc d ↦[chunkSet L 4]{q} f) ∗ (aLoc d ↦[chunkSet L 5]{q} f) ∗ (aLoc d ↦[chunkSet L 6]{q} f) ∗ (aLoc d ↦[chunkSet L 7]{q} f) ∗ (aLoc d ↦[chunkSet L 8]{q} f) ∗ (aLoc d ↦[chunkSet L 9]{q} f) ∗ (aLoc d ↦[chunkSet L 10]{q} f) ∗ (aLoc d ↦[chunkSet L 11]{q} f) ∗ (aLoc d ↦[chunkSet L 12]{q} f) ∗ (aLoc d ↦[chunkSet L 13]{q} f) ∗ (aLoc d ↦[chunkSet L 14]{q} f) ∗ (aLoc d ↦[chunkSet L 15]{q} f)) ∗ aLoc d ↦[Finset.univ \ tileSet (cL L) (wL L)]{q} f) := by
  rw [a_chunks d L q f, bigSep_univ_sixteen]

theorem o_open (d : Dev nD) (L : grid0.Coords) (f : Buf (Elt F) (oLoc d)) :
    (oLoc d ↦[tileSet (cL L) (wL L)]{fullShare} f : sProp 𝕄)
      = iprop((oLoc d ↦[chunkSet L 0]{fullShare} f) ∗ (oLoc d ↦[chunkSet L 1]{fullShare} f) ∗ (oLoc d ↦[chunkSet L 2]{fullShare} f) ∗ (oLoc d ↦[chunkSet L 3]{fullShare} f) ∗ (oLoc d ↦[chunkSet L 4]{fullShare} f) ∗ (oLoc d ↦[chunkSet L 5]{fullShare} f) ∗ (oLoc d ↦[chunkSet L 6]{fullShare} f) ∗ (oLoc d ↦[chunkSet L 7]{fullShare} f) ∗ (oLoc d ↦[chunkSet L 8]{fullShare} f) ∗ (oLoc d ↦[chunkSet L 9]{fullShare} f) ∗ (oLoc d ↦[chunkSet L 10]{fullShare} f) ∗ (oLoc d ↦[chunkSet L 11]{fullShare} f) ∗ (oLoc d ↦[chunkSet L 12]{fullShare} f) ∗ (oLoc d ↦[chunkSet L 13]{fullShare} f) ∗ (oLoc d ↦[chunkSet L 14]{fullShare} f) ∗ (oLoc d ↦[chunkSet L 15]{fullShare} f)) := by
  rw [o_chunkSets d L f, bigSep_univ_sixteen]

theorem sh_open (d : Dev nD) (L : grid0.Coords) (f : Buf (Elt F) (shLoc d (cV L))) :
    (shLoc d (cV L) ↦[shSet (wL L)]{fullShare} f : sProp 𝕄)
      = iprop((shLoc d (cV L) ↦[shPiece L 0]{fullShare} f) ∗ (shLoc d (cV L) ↦[shPiece L 1]{fullShare} f) ∗ shLoc d (cV L) ↦[shPiece L 2]{fullShare} f) := by
  rw [← shPiece_cover L, pointsTo_biUnion Finset.univ (ℓ := shLoc d (cV L)) (shPiece L) (shPiece_disjoint L), bigSep_univ_three]

/-- The three staging pieces, each at contents of its own, are the tile's slice of the shared scratch at some contents. -/
theorem shPiece_join (d : Dev nD) (L : grid0.Coords) :
    (iprop((∃ f, shLoc d (cV L) ↦[shPiece L 0]{fullShare} f) ∗ (∃ f, shLoc d (cV L) ↦[shPiece L 1]{fullShare} f)
        ∗ (∃ f, shLoc d (cV L) ↦[shPiece L 2]{fullShare} f)) : sProp 𝕄)
      ⊢ iprop(∃ f, shLoc d (cV L) ↦[shSet (wL L)]{fullShare} f) := by
  refine (Entails.of_eq (bigSep_univ_three (fun i : Fin 3 =>
    (iprop(∃ f : Buf (Elt F) (shLoc d (cV L)), shLoc d (cV L) ↦[shPiece L i]{fullShare} f) : sProp 𝕄))).symm).trans ?_
  refine (bigSep_exists_pi Finset.univ (fun i (f : Buf (Elt F) (shLoc d (cV L))) =>
    (shLoc d (cV L) ↦[shPiece L i]{fullShare} f : sProp 𝕄))).trans ?_
  iintro ⟨%fs, H⟩
  ihave H' := (pointsTo_biUnion_join Finset.univ (shPiece L) fs (fs 0) (shPiece_disjoint L)) $$ H
  icases H' with ⟨%g, -, Hg⟩
  rw [shPiece_cover]
  iexists g; iexact Hg

/-! ## From the obligation's precondition to the cases', and back -/

/-- What the launch hands a tile, opened: its own semaphores and buffers by name, the recordings into the sixteen chunks and
    the rest, the result into the sixteen chunks, the shared scratch's slice into the three staging pieces. -/
theorem body_open (hF : (K (F := F)).Facts) (d : Dev nD) (L : grid0.Coords) (O : CellTallies nD τ sig (HIx 1)) (W : Waits sig (HIx 1)) :
    iprop(levAts (K (F := F)).L (K (F := F)).lev ∗ emp ∗ tileRes m d (cL L) (m (oLoc d)) (wL L) ∗ scopedBufs (V d (cV L) (jV L))
        ∗ scopedSems0 (V d (cV L) (jV L)) ∗ owes (V d (cV L) (jV L)) O W)
      ⊢ (iprop(∃ f0 f1 fsh, casePre d L O W (qTile (cL L) (wL L)) (qTile (cL L) (wL L)) (m (aLoc d)) (m (sLoc d)) (m (oLoc d))
          f0 f1 fsh fsh fsh (restA m d L)) : sProp 𝕄) := by
  rw [(K (F := F)).scopedBufs_V hF, SparseCore.Cfg.scopedSems0_V, ownSems0_tile', ownBufs_tile']
  unfold tileRes casePre restA
  rw [coreOf_cL]
  iintro ⟨Hlev, -, ⟨Ha, Hs, Ho, ⟨%fsh, Hsh⟩⟩, ⟨⟨%f0, H0⟩, ⟨%f1, H1⟩⟩, ⟨S3, S4, S5, S6, S7, S8, S9, SS⟩, Howes⟩
  ihave Ha' := (Entails.of_eq (a_open d L (qTile (cL L) (wL L)) (m (aLoc d)))) $$ Ha
  icases Ha' with ⟨⟨A0, A1, A2, A3, A4, A5, A6, A7, A8, A9, A10, A11, A12, A13, A14, A15⟩, HR⟩
  ihave Ho' := (Entails.of_eq (o_open d L (m (oLoc d)))) $$ Ho
  icases Ho' with ⟨O0, O1, O2, O3, O4, O5, O6, O7, O8, O9, O10, O11, O12, O13, O14, O15⟩
  ihave Hsh' := (Entails.of_eq (sh_open d L fsh)) $$ Hsh
  icases Hsh' with ⟨Sh0, Sh1, Sh2⟩
  iexists f0, f1, fsh
  iframe

/-- The cases' common postcondition, at the launch contents of the two arguments and the rest of the recordings as the frame,
    is what the obligation asks back: the chunks and the rest are the recordings whole, the sixteen chunk pieces at the
    specified function are the tile's part of the result at it, the staging pieces are the scratch's slice at some contents,
    the two scratch buffers and the eight counters are the tile's own. -/
theorem body_close (hF : (K (F := F)).Facts) (d : Dev nD) (L : grid0.Coords) (O : CellTallies nD τ sig (HIx 1)) (W : Waits sig (HIx 1)) :
    casePost d L O W (qTile (cL L) (wL L)) (qTile (cL L) (wL L)) (m (aLoc d)) (m (sLoc d)) (restA m d L)
      ⊢ (iprop(tileRes m d (cL L) (Gout m d) (wL L) ∗ scopedBufs (V d (cV L) (jV L)) ∗ scopedSems0 (V d (cV L) (jV L))
          ∗ ∃ W', ⌜∀ p ∈ W', p ∈ W ∨ p.2 = none⌝ ∗ owes (V d (cV L) (jV L)) O W') : sProp 𝕄) := by
  rw [(K (F := F)).scopedBufs_V hF, SparseCore.Cfg.scopedSems0_V, ownSems0_tile', ownBufs_tile']
  unfold tileRes casePost restA Gout
  rw [coreOf_cL]
  iintro ⟨A0, A1, A2, A3, A4, A5, A6, A7, A8, A9, A10, A11, A12, A13, A14, A15, Hs, G0, G1, G2, G3, G4, G5, G6, G7, G8, G9, G10, G11, G12, G13, G14, G15, H0, H1, Sh0, Sh1, Sh2, S3, S4, S5, S6, S7, S8, S9, SS, Howes, HR⟩
  isplitl [A0 A1 A2 A3 A4 A5 A6 A7 A8 A9 A10 A11 A12 A13 A14 A15 HR Hs G0 G1 G2 G3 G4 G5 G6 G7 G8 G9 G10 G11 G12 G13 G14 G15 Sh0 Sh1 Sh2]
  · isplitl [A0 A1 A2 A3 A4 A5 A6 A7 A8 A9 A10 A11 A12 A13 A14 A15 HR]
    · iapply (Entails.of_eq (a_open d L (qTile (cL L) (wL L)) (m (aLoc d))).symm)
      iframe
    isplitl [Hs]; · iexact Hs
    isplitl [G0 G1 G2 G3 G4 G5 G6 G7 G8 G9 G10 G11 G12 G13 G14 G15]
    · iapply (Entails.of_eq (o_open d L (Cert.Spec.G (F := F) (m (aLoc d)) (m (sLoc d)))).symm)
      iframe
    iapply (shPiece_join d L)
    iframe
  iframe

/-! ## The tile's body -/

/-- The tile's body, from what the launch hands the tile to what it asks back. The stream number of the tile's recording is
    at most 7, so either it names one of the tile's four streams — which one is its remainder by 4 — or none of them. -/
theorem tile_body [∀ e, Nonempty (Elt F e)] (hF : (K (F := F)).Facts)
    (hsrc : ∀ (d : Dev nD) (j : Cert.KernelIdeal.S16.Idx), (m (sLoc d) j).toNat ≤ 7) (d : Dev nD) (L : grid0.Coords)
    (O : CellTallies nD τ sig (HIx 1)) (W : Waits sig (HIx 1)) (hO : ∀ g, O g none = 0) :
    iprop(levAts (K (F := F)).L (K (F := F)).lev ∗ emp ∗ tileRes m d (cL L) (m (oLoc d)) (wL L) ∗ scopedBufs (V d (cV L) (jV L))
        ∗ scopedSems0 (V d (cV L) (jV L)) ∗ owes (V d (cV L) (jV L)) O W)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(tileRes m d (cL L) (Gout m d) (wL L) ∗ scopedBufs (V d (cV L) (jV L)) ∗ scopedSems0 (V d (cV L) (jV L))
          ∗ ∃ W', ⌜∀ p ∈ W', p ∈ W ∨ p.2 = none⌝ ∗ owes (V d (cV L) (jV L)) O W') := by
  refine (body_open m hF d L O W).trans ?_
  have hv : (m (sLoc d) (ValueIdx.ix1 (wL L))).toNat ≤ 7 := hsrc d _
  have h0 : (L 0).val < 2 := (L 0).isLt
  iintro ⟨%f0, %f1, %fsh, H⟩
  by_cases h4 : (m (sLoc d) (ValueIdx.ix1 (wL L))).toNat / 4 = (L 0).val
  · rcases (show (m (sLoc d) (ValueIdx.ix1 (wL L))).toNat % 4 = 0 ∨ (m (sLoc d) (ValueIdx.ix1 (wL L))).toNat % 4 = 1
        ∨ (m (sLoc d) (ValueIdx.ix1 (wL L))).toNat % 4 = 2 ∨ (m (sLoc d) (ValueIdx.ix1 (wL L))).toNat % 4 = 3 from by omega) with h | h | h | h
    · iapply ((C1.tile_case d L O W hO (qTile (cL L) (wL L)) (qTile (cL L) (wL L)) (m (aLoc d)) (m (sLoc d)) (m (oLoc d)) f0 f1 fsh fsh fsh
        (restA m d L) (by omega)).trans (wp_mono frame _ _ fun _ => body_close m hF d L O W))
      iexact H
    · iapply ((C2.tile_case d L O W hO (qTile (cL L) (wL L)) (qTile (cL L) (wL L)) (m (aLoc d)) (m (sLoc d)) (m (oLoc d)) f0 f1 fsh fsh fsh
        (restA m d L) (by omega)).trans (wp_mono frame _ _ fun _ => body_close m hF d L O W))
      iexact H
    · iapply ((C3.tile_case d L O W hO (qTile (cL L) (wL L)) (qTile (cL L) (wL L)) (m (aLoc d)) (m (sLoc d)) (m (oLoc d)) f0 f1 fsh fsh fsh
        (restA m d L) (by omega)).trans (wp_mono frame _ _ fun _ => body_close m hF d L O W))
      iexact H
    · iapply ((C4.tile_case d L O W hO (qTile (cL L) (wL L)) (qTile (cL L) (wL L)) (m (aLoc d)) (m (sLoc d)) (m (oLoc d)) f0 f1 fsh fsh fsh
        (restA m d L) (by omega)).trans (wp_mono frame _ _ fun _ => body_close m hF d L O W))
      iexact H
  · iapply ((C0.tile_case d L O W hO (qTile (cL L) (wL L)) (qTile (cL L) (wL L)) (m (aLoc d)) (m (sLoc d)) (m (oLoc d)) f0 f1 fsh fsh fsh
      (restA m d L) (fun j hj => by omega)).trans (wp_mono frame _ _ fun _ => body_close m hF d L O W))
    iexact H

/-! ## The launch theorem's obligation -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s) aW (Memref.isWhole_whole _) sW (Memref.isWhole_whole _)
          oW (Memref.isWhole_whole _) b0W (Memref.isWhole_whole _) b1W (Memref.isWhole_whole _) shW (Memref.isWhole_whole _)
          cc0_scratch3 cc0_scratch4 cc0_scratch5 cc0_scratch6 cc0_scratch7 cc0_scratch8 cc0_scratch9 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation of the one call: every tile's task, from its operands to its results. -/
theorem tileObl [∀ e, Nonempty (Elt F e)] (hsrc : ∀ (d : Dev nD) (j : Cert.KernelIdeal.S16.Idx), (m (sLoc d) j).toNat ≤ 7) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m facts hsrc d (coordsV ⟨_, hc.1⟩ ⟨_, hc.2⟩) O W hO).trans (wp_mono frame _ _ fun _ => obl_post)

end Cert.Proof.KI

end
-- ==== Proof.KBOffsets.lean ====
/-
  Closed forms of the tile's array offsets. Tile (c, w) — SparseCore c, vector subcore w — works on recording w, streams 4c … 4c+3:
  its segment j (0 ≤ j < 8) is stream 4c + j / 2, channel j % 2. Every rank-4 offset the body computes is
  (w, 4c + j / 2, j % 2, T) for a literal sample offset T; each equation below is decided over the 32 tiles.
-/
import proofs.«218968_g36790689857971_cont_8to1_b_1381_24_alg».proof.Proof.Gen.Kernel
import Idealize.ShloMosaic.Lib.Tactic

set_option Elab.async false

namespace Cert.Proof.KB.Off

open Idealize.ShloMosaic Cert.Kernel Cert.Kernel.Gen

theorem k0_off2_eq : ∀ i : grid0.Coords, k0_off2 i = ![(i 1).val, 4 * (i 0).val + 0, 0, 0] := by decide +kernel
instance closedOff_k0_off2 (i : grid0.Coords) : ClosedOff (k0_off2 i) := ⟨![(i 1).val, 4 * (i 0).val + 0, 0, 0], k0_off2_eq i⟩
theorem k0_off5_eq : ∀ i : grid0.Coords, k0_off5 i = ![(i 1).val, 4 * (i 0).val + 0, 0, 32768] := by decide +kernel
instance closedOff_k0_off5 (i : grid0.Coords) : ClosedOff (k0_off5 i) := ⟨![(i 1).val, 4 * (i 0).val + 0, 0, 32768], k0_off5_eq i⟩
theorem k0_off6_eq : ∀ i : grid0.Coords, k0_off6 i = ![(i 1).val, 4 * (i 0).val + 0, 0, 0] := by decide +kernel
instance closedOff_k0_off6 (i : grid0.Coords) : ClosedOff (k0_off6 i) := ⟨![(i 1).val, 4 * (i 0).val + 0, 0, 0], k0_off6_eq i⟩
theorem k0_off7_eq : ∀ i : grid0.Coords, k0_off7 i = ![(i 1).val, 4 * (i 0).val + 0, 0, 4096] := by decide +kernel
instance closedOff_k0_off7 (i : grid0.Coords) : ClosedOff (k0_off7 i) := ⟨![(i 1).val, 4 * (i 0).val + 0, 0, 4096], k0_off7_eq i⟩
theorem k0_off8_eq : ∀ i : grid0.Coords, k0_off8 i = ![(i 1).val, 4 * (i 0).val + 0, 0, 8192] := by decide +kernel
instance closedOff_k0_off8 (i : grid0.Coords) : ClosedOff (k0_off8 i) := ⟨![(i 1).val, 4 * (i 0).val + 0, 0, 8192], k0_off8_eq i⟩
theorem k0_off9_eq : ∀ i : grid0.Coords, k0_off9 i = ![(i 1).val, 4 * (i 0).val + 0, 0, 12288] := by decide +kernel
instance closedOff_k0_off9 (i : grid0.Coords) : ClosedOff (k0_off9 i) := ⟨![(i 1).val, 4 * (i 0).val + 0, 0, 12288], k0_off9_eq i⟩
theorem k0_off10_eq : ∀ i : grid0.Coords, k0_off10 i = ![(i 1).val, 4 * (i 0).val + 0, 0, 16384] := by decide +kernel
instance closedOff_k0_off10 (i : grid0.Coords) : ClosedOff (k0_off10 i) := ⟨![(i 1).val, 4 * (i 0).val + 0, 0, 16384], k0_off10_eq i⟩
theorem k0_off11_eq : ∀ i : grid0.Coords, k0_off11 i = ![(i 1).val, 4 * (i 0).val + 0, 0, 20480] := by decide +kernel
instance closedOff_k0_off11 (i : grid0.Coords) : ClosedOff (k0_off11 i) := ⟨![(i 1).val, 4 * (i 0).val + 0, 0, 20480], k0_off11_eq i⟩
theorem k0_off12_eq : ∀ i : grid0.Coords, k0_off12 i = ![(i 1).val, 4 * (i 0).val + 0, 0, 24576] := by decide +kernel
instance closedOff_k0_off12 (i : grid0.Coords) : ClosedOff (k0_off12 i) := ⟨![(i 1).val, 4 * (i 0).val + 0, 0, 24576], k0_off12_eq i⟩
theorem k0_off13_eq : ∀ i : grid0.Coords, k0_off13 i = ![(i 1).val, 4 * (i 0).val + 0, 0, 28672] := by decide +kernel
instance closedOff_k0_off13 (i : grid0.Coords) : ClosedOff (k0_off13 i) := ⟨![(i 1).val, 4 * (i 0).val + 0, 0, 28672], k0_off13_eq i⟩
theorem k0_off15_eq : ∀ i : grid0.Coords, k0_off15 i = ![(i 1).val, 4 * (i 0).val + 0, 0, 0] := by decide +kernel
instance closedOff_k0_off15 (i : grid0.Coords) : ClosedOff (k0_off15 i) := ⟨![(i 1).val, 4 * (i 0).val + 0, 0, 0], k0_off15_eq i⟩
theorem k0_off17_eq : ∀ i : grid0.Coords, k0_off17 i = ![(i 1).val, 4 * (i 0).val + 0, 1, 0] := by decide +kernel
instance closedOff_k0_off17 (i : grid0.Coords) : ClosedOff (k0_off17 i) := ⟨![(i 1).val, 4 * (i 0).val + 0, 1, 0], k0_off17_eq i⟩
theorem k0_off18_eq : ∀ i : grid0.Coords, k0_off18 i = ![(i 1).val, 4 * (i 0).val + 0, 0, 32768] := by decide +kernel
instance closedOff_k0_off18 (i : grid0.Coords) : ClosedOff (k0_off18 i) := ⟨![(i 1).val, 4 * (i 0).val + 0, 0, 32768], k0_off18_eq i⟩
theorem k0_off19_eq : ∀ i : grid0.Coords, k0_off19 i = ![(i 1).val, 4 * (i 0).val + 0, 0, 36864] := by decide +kernel
instance closedOff_k0_off19 (i : grid0.Coords) : ClosedOff (k0_off19 i) := ⟨![(i 1).val, 4 * (i 0).val + 0, 0, 36864], k0_off19_eq i⟩
theorem k0_off20_eq : ∀ i : grid0.Coords, k0_off20 i = ![(i 1).val, 4 * (i 0).val + 0, 0, 40960] := by decide +kernel
instance closedOff_k0_off20 (i : grid0.Coords) : ClosedOff (k0_off20 i) := ⟨![(i 1).val, 4 * (i 0).val + 0, 0, 40960], k0_off20_eq i⟩
theorem k0_off21_eq : ∀ i : grid0.Coords, k0_off21 i = ![(i 1).val, 4 * (i 0).val + 0, 0, 45056] := by decide +kernel
instance closedOff_k0_off21 (i : grid0.Coords) : ClosedOff (k0_off21 i) := ⟨![(i 1).val, 4 * (i 0).val + 0, 0, 45056], k0_off21_eq i⟩
theorem k0_off22_eq : ∀ i : grid0.Coords, k0_off22 i = ![(i 1).val, 4 * (i 0).val + 0, 0, 49152] := by decide +kernel
instance closedOff_k0_off22 (i : grid0.Coords) : ClosedOff (k0_off22 i) := ⟨![(i 1).val, 4 * (i 0).val + 0, 0, 49152], k0_off22_eq i⟩
theorem k0_off23_eq : ∀ i : grid0.Coords, k0_off23 i = ![(i 1).val, 4 * (i 0).val + 0, 0, 53248] := by decide +kernel
instance closedOff_k0_off23 (i : grid0.Coords) : ClosedOff (k0_off23 i) := ⟨![(i 1).val, 4 * (i 0).val + 0, 0, 53248], k0_off23_eq i⟩
theorem k0_off24_eq : ∀ i : grid0.Coords, k0_off24 i = ![(i 1).val, 4 * (i 0).val + 0, 0, 57344] := by decide +kernel
instance closedOff_k0_off24 (i : grid0.Coords) : ClosedOff (k0_off24 i) := ⟨![(i 1).val, 4 * (i 0).val + 0, 0, 57344], k0_off24_eq i⟩
theorem k0_off25_eq : ∀ i : grid0.Coords, k0_off25 i = ![(i 1).val, 4 * (i 0).val + 0, 0, 61440] := by decide +kernel
instance closedOff_k0_off25 (i : grid0.Coords) : ClosedOff (k0_off25 i) := ⟨![(i 1).val, 4 * (i 0).val + 0, 0, 61440], k0_off25_eq i⟩
theorem k0_off27_eq : ∀ i : grid0.Coords, k0_off27 i = ![(i 1).val, 4 * (i 0).val + 0, 0, 32768] := by decide +kernel
instance closedOff_k0_off27 (i : grid0.Coords) : ClosedOff (k0_off27 i) := ⟨![(i 1).val, 4 * (i 0).val + 0, 0, 32768], k0_off27_eq i⟩
theorem k0_off28_eq : ∀ i : grid0.Coords, k0_off28 i = ![(i 1).val, 4 * (i 0).val + 0, 0, 0] := by decide +kernel
instance closedOff_k0_off28 (i : grid0.Coords) : ClosedOff (k0_off28 i) := ⟨![(i 1).val, 4 * (i 0).val + 0, 0, 0], k0_off28_eq i⟩
theorem k0_off31_eq : ∀ i : grid0.Coords, k0_off31 i = ![(i 1).val, 4 * (i 0).val + 0, 1, 32768] := by decide +kernel
instance closedOff_k0_off31 (i : grid0.Coords) : ClosedOff (k0_off31 i) := ⟨![(i 1).val, 4 * (i 0).val + 0, 1, 32768], k0_off31_eq i⟩
theorem k0_off32_eq : ∀ i : grid0.Coords, k0_off32 i = ![(i 1).val, 4 * (i 0).val + 0, 1, 0] := by decide +kernel
instance closedOff_k0_off32 (i : grid0.Coords) : ClosedOff (k0_off32 i) := ⟨![(i 1).val, 4 * (i 0).val + 0, 1, 0], k0_off32_eq i⟩
theorem k0_off33_eq : ∀ i : grid0.Coords, k0_off33 i = ![(i 1).val, 4 * (i 0).val + 0, 1, 4096] := by decide +kernel
instance closedOff_k0_off33 (i : grid0.Coords) : ClosedOff (k0_off33 i) := ⟨![(i 1).val, 4 * (i 0).val + 0, 1, 4096], k0_off33_eq i⟩
theorem k0_off34_eq : ∀ i : grid0.Coords, k0_off34 i = ![(i 1).val, 4 * (i 0).val + 0, 1, 8192] := by decide +kernel
instance closedOff_k0_off34 (i : grid0.Coords) : ClosedOff (k0_off34 i) := ⟨![(i 1).val, 4 * (i 0).val + 0, 1, 8192], k0_off34_eq i⟩
theorem k0_off35_eq : ∀ i : grid0.Coords, k0_off35 i = ![(i 1).val, 4 * (i 0).val + 0, 1, 12288] := by decide +kernel
instance closedOff_k0_off35 (i : grid0.Coords) : ClosedOff (k0_off35 i) := ⟨![(i 1).val, 4 * (i 0).val + 0, 1, 12288], k0_off35_eq i⟩
theorem k0_off36_eq : ∀ i : grid0.Coords, k0_off36 i = ![(i 1).val, 4 * (i 0).val + 0, 1, 16384] := by decide +kernel
instance closedOff_k0_off36 (i : grid0.Coords) : ClosedOff (k0_off36 i) := ⟨![(i 1).val, 4 * (i 0).val + 0, 1, 16384], k0_off36_eq i⟩
theorem k0_off37_eq : ∀ i : grid0.Coords, k0_off37 i = ![(i 1).val, 4 * (i 0).val + 0, 1, 20480] := by decide +kernel
instance closedOff_k0_off37 (i : grid0.Coords) : ClosedOff (k0_off37 i) := ⟨![(i 1).val, 4 * (i 0).val + 0, 1, 20480], k0_off37_eq i⟩
theorem k0_off38_eq : ∀ i : grid0.Coords, k0_off38 i = ![(i 1).val, 4 * (i 0).val + 0, 1, 24576] := by decide +kernel
instance closedOff_k0_off38 (i : grid0.Coords) : ClosedOff (k0_off38 i) := ⟨![(i 1).val, 4 * (i 0).val + 0, 1, 24576], k0_off38_eq i⟩
theorem k0_off39_eq : ∀ i : grid0.Coords, k0_off39 i = ![(i 1).val, 4 * (i 0).val + 0, 1, 28672] := by decide +kernel
instance closedOff_k0_off39 (i : grid0.Coords) : ClosedOff (k0_off39 i) := ⟨![(i 1).val, 4 * (i 0).val + 0, 1, 28672], k0_off39_eq i⟩
theorem k0_off41_eq : ∀ i : grid0.Coords, k0_off41 i = ![(i 1).val, 4 * (i 0).val + 0, 1, 0] := by decide +kernel
instance closedOff_k0_off41 (i : grid0.Coords) : ClosedOff (k0_off41 i) := ⟨![(i 1).val, 4 * (i 0).val + 0, 1, 0], k0_off41_eq i⟩
theorem k0_off42_eq : ∀ i : grid0.Coords, k0_off42 i = ![(i 1).val, 4 * (i 0).val + 0, 0, 32768] := by decide +kernel
instance closedOff_k0_off42 (i : grid0.Coords) : ClosedOff (k0_off42 i) := ⟨![(i 1).val, 4 * (i 0).val + 0, 0, 32768], k0_off42_eq i⟩
theorem k0_off45_eq : ∀ i : grid0.Coords, k0_off45 i = ![(i 1).val, 4 * (i 0).val + 1, 0, 0] := by decide +kernel
instance closedOff_k0_off45 (i : grid0.Coords) : ClosedOff (k0_off45 i) := ⟨![(i 1).val, 4 * (i 0).val + 1, 0, 0], k0_off45_eq i⟩
theorem k0_off46_eq : ∀ i : grid0.Coords, k0_off46 i = ![(i 1).val, 4 * (i 0).val + 0, 1, 32768] := by decide +kernel
instance closedOff_k0_off46 (i : grid0.Coords) : ClosedOff (k0_off46 i) := ⟨![(i 1).val, 4 * (i 0).val + 0, 1, 32768], k0_off46_eq i⟩
theorem k0_off47_eq : ∀ i : grid0.Coords, k0_off47 i = ![(i 1).val, 4 * (i 0).val + 0, 1, 36864] := by decide +kernel
instance closedOff_k0_off47 (i : grid0.Coords) : ClosedOff (k0_off47 i) := ⟨![(i 1).val, 4 * (i 0).val + 0, 1, 36864], k0_off47_eq i⟩
theorem k0_off48_eq : ∀ i : grid0.Coords, k0_off48 i = ![(i 1).val, 4 * (i 0).val + 0, 1, 40960] := by decide +kernel
instance closedOff_k0_off48 (i : grid0.Coords) : ClosedOff (k0_off48 i) := ⟨![(i 1).val, 4 * (i 0).val + 0, 1, 40960], k0_off48_eq i⟩
theorem k0_off49_eq : ∀ i : grid0.Coords, k0_off49 i = ![(i 1).val, 4 * (i 0).val + 0, 1, 45056] := by decide +kernel
instance closedOff_k0_off49 (i : grid0.Coords) : ClosedOff (k0_off49 i) := ⟨![(i 1).val, 4 * (i 0).val + 0, 1, 45056], k0_off49_eq i⟩
theorem k0_off50_eq : ∀ i : grid0.Coords, k0_off50 i = ![(i 1).val, 4 * (i 0).val + 0, 1, 49152] := by decide +kernel
instance closedOff_k0_off50 (i : grid0.Coords) : ClosedOff (k0_off50 i) := ⟨![(i 1).val, 4 * (i 0).val + 0, 1, 49152], k0_off50_eq i⟩
theorem k0_off51_eq : ∀ i : grid0.Coords, k0_off51 i = ![(i 1).val, 4 * (i 0).val + 0, 1, 53248] := by decide +kernel
instance closedOff_k0_off51 (i : grid0.Coords) : ClosedOff (k0_off51 i) := ⟨![(i 1).val, 4 * (i 0).val + 0, 1, 53248], k0_off51_eq i⟩
theorem k0_off52_eq : ∀ i : grid0.Coords, k0_off52 i = ![(i 1).val, 4 * (i 0).val + 0, 1, 57344] := by decide +kernel
instance closedOff_k0_off52 (i : grid0.Coords) : ClosedOff (k0_off52 i) := ⟨![(i 1).val, 4 * (i 0).val + 0, 1, 57344], k0_off52_eq i⟩
theorem k0_off53_eq : ∀ i : grid0.Coords, k0_off53 i = ![(i 1).val, 4 * (i 0).val + 0, 1, 61440] := by decide +kernel
instance closedOff_k0_off53 (i : grid0.Coords) : ClosedOff (k0_off53 i) := ⟨![(i 1).val, 4 * (i 0).val + 0, 1, 61440], k0_off53_eq i⟩
theorem k0_off55_eq : ∀ i : grid0.Coords, k0_off55 i = ![(i 1).val, 4 * (i 0).val + 0, 1, 32768] := by decide +kernel
instance closedOff_k0_off55 (i : grid0.Coords) : ClosedOff (k0_off55 i) := ⟨![(i 1).val, 4 * (i 0).val + 0, 1, 32768], k0_off55_eq i⟩
theorem k0_off56_eq : ∀ i : grid0.Coords, k0_off56 i = ![(i 1).val, 4 * (i 0).val + 0, 1, 0] := by decide +kernel
instance closedOff_k0_off56 (i : grid0.Coords) : ClosedOff (k0_off56 i) := ⟨![(i 1).val, 4 * (i 0).val + 0, 1, 0], k0_off56_eq i⟩
theorem k0_off59_eq : ∀ i : grid0.Coords, k0_off59 i = ![(i 1).val, 4 * (i 0).val + 1, 0, 32768] := by decide +kernel
instance closedOff_k0_off59 (i : grid0.Coords) : ClosedOff (k0_off59 i) := ⟨![(i 1).val, 4 * (i 0).val + 1, 0, 32768], k0_off59_eq i⟩
theorem k0_off60_eq : ∀ i : grid0.Coords, k0_off60 i = ![(i 1).val, 4 * (i 0).val + 1, 0, 0] := by decide +kernel
instance closedOff_k0_off60 (i : grid0.Coords) : ClosedOff (k0_off60 i) := ⟨![(i 1).val, 4 * (i 0).val + 1, 0, 0], k0_off60_eq i⟩
theorem k0_off61_eq : ∀ i : grid0.Coords, k0_off61 i = ![(i 1).val, 4 * (i 0).val + 1, 0, 4096] := by decide +kernel
instance closedOff_k0_off61 (i : grid0.Coords) : ClosedOff (k0_off61 i) := ⟨![(i 1).val, 4 * (i 0).val + 1, 0, 4096], k0_off61_eq i⟩
theorem k0_off62_eq : ∀ i : grid0.Coords, k0_off62 i = ![(i 1).val, 4 * (i 0).val + 1, 0, 8192] := by decide +kernel
instance closedOff_k0_off62 (i : grid0.Coords) : ClosedOff (k0_off62 i) := ⟨![(i 1).val, 4 * (i 0).val + 1, 0, 8192], k0_off62_eq i⟩
theorem k0_off63_eq : ∀ i : grid0.Coords, k0_off63 i = ![(i 1).val, 4 * (i 0).val + 1, 0, 12288] := by decide +kernel
instance closedOff_k0_off63 (i : grid0.Coords) : ClosedOff (k0_off63 i) := ⟨![(i 1).val, 4 * (i 0).val + 1, 0, 12288], k0_off63_eq i⟩
theorem k0_off64_eq : ∀ i : grid0.Coords, k0_off64 i = ![(i 1).val, 4 * (i 0).val + 1, 0, 16384] := by decide +kernel
instance closedOff_k0_off64 (i : grid0.Coords) : ClosedOff (k0_off64 i) := ⟨![(i 1).val, 4 * (i 0).val + 1, 0, 16384], k0_off64_eq i⟩
theorem k0_off65_eq : ∀ i : grid0.Coords, k0_off65 i = ![(i 1).val, 4 * (i 0).val + 1, 0, 20480] := by decide +kernel
instance closedOff_k0_off65 (i : grid0.Coords) : ClosedOff (k0_off65 i) := ⟨![(i 1).val, 4 * (i 0).val + 1, 0, 20480], k0_off65_eq i⟩
theorem k0_off66_eq : ∀ i : grid0.Coords, k0_off66 i = ![(i 1).val, 4 * (i 0).val + 1, 0, 24576] := by decide +kernel
instance closedOff_k0_off66 (i : grid0.Coords) : ClosedOff (k0_off66 i) := ⟨![(i 1).val, 4 * (i 0).val + 1, 0, 24576], k0_off66_eq i⟩
theorem k0_off67_eq : ∀ i : grid0.Coords, k0_off67 i = ![(i 1).val, 4 * (i 0).val + 1, 0, 28672] := by decide +kernel
instance closedOff_k0_off67 (i : grid0.Coords) : ClosedOff (k0_off67 i) := ⟨![(i 1).val, 4 * (i 0).val + 1, 0, 28672], k0_off67_eq i⟩
theorem k0_off69_eq : ∀ i : grid0.Coords, k0_off69 i = ![(i 1).val, 4 * (i 0).val + 1, 0, 0] := by decide +kernel
instance closedOff_k0_off69 (i : grid0.Coords) : ClosedOff (k0_off69 i) := ⟨![(i 1).val, 4 * (i 0).val + 1, 0, 0], k0_off69_eq i⟩
theorem k0_off70_eq : ∀ i : grid0.Coords, k0_off70 i = ![(i 1).val, 4 * (i 0).val + 0, 1, 32768] := by decide +kernel
instance closedOff_k0_off70 (i : grid0.Coords) : ClosedOff (k0_off70 i) := ⟨![(i 1).val, 4 * (i 0).val + 0, 1, 32768], k0_off70_eq i⟩
theorem k0_off73_eq : ∀ i : grid0.Coords, k0_off73 i = ![(i 1).val, 4 * (i 0).val + 1, 1, 0] := by decide +kernel
instance closedOff_k0_off73 (i : grid0.Coords) : ClosedOff (k0_off73 i) := ⟨![(i 1).val, 4 * (i 0).val + 1, 1, 0], k0_off73_eq i⟩
theorem k0_off74_eq : ∀ i : grid0.Coords, k0_off74 i = ![(i 1).val, 4 * (i 0).val + 1, 0, 32768] := by decide +kernel
instance closedOff_k0_off74 (i : grid0.Coords) : ClosedOff (k0_off74 i) := ⟨![(i 1).val, 4 * (i 0).val + 1, 0, 32768], k0_off74_eq i⟩
theorem k0_off75_eq : ∀ i : grid0.Coords, k0_off75 i = ![(i 1).val, 4 * (i 0).val + 1, 0, 36864] := by decide +kernel
instance closedOff_k0_off75 (i : grid0.Coords) : ClosedOff (k0_off75 i) := ⟨![(i 1).val, 4 * (i 0).val + 1, 0, 36864], k0_off75_eq i⟩
theorem k0_off76_eq : ∀ i : grid0.Coords, k0_off76 i = ![(i 1).val, 4 * (i 0).val + 1, 0, 40960] := by decide +kernel
instance closedOff_k0_off76 (i : grid0.Coords) : ClosedOff (k0_off76 i) := ⟨![(i 1).val, 4 * (i 0).val + 1, 0, 40960], k0_off76_eq i⟩
theorem k0_off77_eq : ∀ i : grid0.Coords, k0_off77 i = ![(i 1).val, 4 * (i 0).val + 1, 0, 45056] := by decide +kernel
instance closedOff_k0_off77 (i : grid0.Coords) : ClosedOff (k0_off77 i) := ⟨![(i 1).val, 4 * (i 0).val + 1, 0, 45056], k0_off77_eq i⟩
theorem k0_off78_eq : ∀ i : grid0.Coords, k0_off78 i = ![(i 1).val, 4 * (i 0).val + 1, 0, 49152] := by decide +kernel
instance closedOff_k0_off78 (i : grid0.Coords) : ClosedOff (k0_off78 i) := ⟨![(i 1).val, 4 * (i 0).val + 1, 0, 49152], k0_off78_eq i⟩
theorem k0_off79_eq : ∀ i : grid0.Coords, k0_off79 i = ![(i 1).val, 4 * (i 0).val + 1, 0, 53248] := by decide +kernel
instance closedOff_k0_off79 (i : grid0.Coords) : ClosedOff (k0_off79 i) := ⟨![(i 1).val, 4 * (i 0).val + 1, 0, 53248], k0_off79_eq i⟩
theorem k0_off80_eq : ∀ i : grid0.Coords, k0_off80 i = ![(i 1).val, 4 * (i 0).val + 1, 0, 57344] := by decide +kernel
instance closedOff_k0_off80 (i : grid0.Coords) : ClosedOff (k0_off80 i) := ⟨![(i 1).val, 4 * (i 0).val + 1, 0, 57344], k0_off80_eq i⟩
theorem k0_off81_eq : ∀ i : grid0.Coords, k0_off81 i = ![(i 1).val, 4 * (i 0).val + 1, 0, 61440] := by decide +kernel
instance closedOff_k0_off81 (i : grid0.Coords) : ClosedOff (k0_off81 i) := ⟨![(i 1).val, 4 * (i 0).val + 1, 0, 61440], k0_off81_eq i⟩
theorem k0_off83_eq : ∀ i : grid0.Coords, k0_off83 i = ![(i 1).val, 4 * (i 0).val + 1, 0, 32768] := by decide +kernel
instance closedOff_k0_off83 (i : grid0.Coords) : ClosedOff (k0_off83 i) := ⟨![(i 1).val, 4 * (i 0).val + 1, 0, 32768], k0_off83_eq i⟩
theorem k0_off84_eq : ∀ i : grid0.Coords, k0_off84 i = ![(i 1).val, 4 * (i 0).val + 1, 0, 0] := by decide +kernel
instance closedOff_k0_off84 (i : grid0.Coords) : ClosedOff (k0_off84 i) := ⟨![(i 1).val, 4 * (i 0).val + 1, 0, 0], k0_off84_eq i⟩
theorem k0_off87_eq : ∀ i : grid0.Coords, k0_off87 i = ![(i 1).val, 4 * (i 0).val + 1, 1, 32768] := by decide +kernel
instance closedOff_k0_off87 (i : grid0.Coords) : ClosedOff (k0_off87 i) := ⟨![(i 1).val, 4 * (i 0).val + 1, 1, 32768], k0_off87_eq i⟩
theorem k0_off88_eq : ∀ i : grid0.Coords, k0_off88 i = ![(i 1).val, 4 * (i 0).val + 1, 1, 0] := by decide +kernel
instance closedOff_k0_off88 (i : grid0.Coords) : ClosedOff (k0_off88 i) := ⟨![(i 1).val, 4 * (i 0).val + 1, 1, 0], k0_off88_eq i⟩
theorem k0_off89_eq : ∀ i : grid0.Coords, k0_off89 i = ![(i 1).val, 4 * (i 0).val + 1, 1, 4096] := by decide +kernel
instance closedOff_k0_off89 (i : grid0.Coords) : ClosedOff (k0_off89 i) := ⟨![(i 1).val, 4 * (i 0).val + 1, 1, 4096], k0_off89_eq i⟩
theorem k0_off90_eq : ∀ i : grid0.Coords, k0_off90 i = ![(i 1).val, 4 * (i 0).val + 1, 1, 8192] := by decide +kernel
instance closedOff_k0_off90 (i : grid0.Coords) : ClosedOff (k0_off90 i) := ⟨![(i 1).val, 4 * (i 0).val + 1, 1, 8192], k0_off90_eq i⟩
theorem k0_off91_eq : ∀ i : grid0.Coords, k0_off91 i = ![(i 1).val, 4 * (i 0).val + 1, 1, 12288] := by decide +kernel
instance closedOff_k0_off91 (i : grid0.Coords) : ClosedOff (k0_off91 i) := ⟨![(i 1).val, 4 * (i 0).val + 1, 1, 12288], k0_off91_eq i⟩
theorem k0_off92_eq : ∀ i : grid0.Coords, k0_off92 i = ![(i 1).val, 4 * (i 0).val + 1, 1, 16384] := by decide +kernel
instance closedOff_k0_off92 (i : grid0.Coords) : ClosedOff (k0_off92 i) := ⟨![(i 1).val, 4 * (i 0).val + 1, 1, 16384], k0_off92_eq i⟩
theorem k0_off93_eq : ∀ i : grid0.Coords, k0_off93 i = ![(i 1).val, 4 * (i 0).val + 1, 1, 20480] := by decide +kernel
instance closedOff_k0_off93 (i : grid0.Coords) : ClosedOff (k0_off93 i) := ⟨![(i 1).val, 4 * (i 0).val + 1, 1, 20480], k0_off93_eq i⟩
theorem k0_off94_eq : ∀ i : grid0.Coords, k0_off94 i = ![(i 1).val, 4 * (i 0).val + 1, 1, 24576] := by decide +kernel
instance closedOff_k0_off94 (i : grid0.Coords) : ClosedOff (k0_off94 i) := ⟨![(i 1).val, 4 * (i 0).val + 1, 1, 24576], k0_off94_eq i⟩
theorem k0_off95_eq : ∀ i : grid0.Coords, k0_off95 i = ![(i 1).val, 4 * (i 0).val + 1, 1, 28672] := by decide +kernel
instance closedOff_k0_off95 (i : grid0.Coords) : ClosedOff (k0_off95 i) := ⟨![(i 1).val, 4 * (i 0).val + 1, 1, 28672], k0_off95_eq i⟩
theorem k0_off97_eq : ∀ i : grid0.Coords, k0_off97 i = ![(i 1).val, 4 * (i 0).val + 1, 1, 0] := by decide +kernel
instance closedOff_k0_off97 (i : grid0.Coords) : ClosedOff (k0_off97 i) := ⟨![(i 1).val, 4 * (i 0).val + 1, 1, 0], k0_off97_eq i⟩
theorem k0_off98_eq : ∀ i : grid0.Coords, k0_off98 i = ![(i 1).val, 4 * (i 0).val + 1, 0, 32768] := by decide +kernel
instance closedOff_k0_off98 (i : grid0.Coords) : ClosedOff (k0_off98 i) := ⟨![(i 1).val, 4 * (i 0).val + 1, 0, 32768], k0_off98_eq i⟩
theorem k0_off101_eq : ∀ i : grid0.Coords, k0_off101 i = ![(i 1).val, 4 * (i 0).val + 2, 0, 0] := by decide +kernel
instance closedOff_k0_off101 (i : grid0.Coords) : ClosedOff (k0_off101 i) := ⟨![(i 1).val, 4 * (i 0).val + 2, 0, 0], k0_off101_eq i⟩
theorem k0_off102_eq : ∀ i : grid0.Coords, k0_off102 i = ![(i 1).val, 4 * (i 0).val + 1, 1, 32768] := by decide +kernel
instance closedOff_k0_off102 (i : grid0.Coords) : ClosedOff (k0_off102 i) := ⟨![(i 1).val, 4 * (i 0).val + 1, 1, 32768], k0_off102_eq i⟩
theorem k0_off103_eq : ∀ i : grid0.Coords, k0_off103 i = ![(i 1).val, 4 * (i 0).val + 1, 1, 36864] := by decide +kernel
instance closedOff_k0_off103 (i : grid0.Coords) : ClosedOff (k0_off103 i) := ⟨![(i 1).val, 4 * (i 0).val + 1, 1, 36864], k0_off103_eq i⟩
theorem k0_off104_eq : ∀ i : grid0.Coords, k0_off104 i = ![(i 1).val, 4 * (i 0).val + 1, 1, 40960] := by decide +kernel
instance closedOff_k0_off104 (i : grid0.Coords) : ClosedOff (k0_off104 i) := ⟨![(i 1).val, 4 * (i 0).val + 1, 1, 40960], k0_off104_eq i⟩
theorem k0_off105_eq : ∀ i : grid0.Coords, k0_off105 i = ![(i 1).val, 4 * (i 0).val + 1, 1, 45056] := by decide +kernel
instance closedOff_k0_off105 (i : grid0.Coords) : ClosedOff (k0_off105 i) := ⟨![(i 1).val, 4 * (i 0).val + 1, 1, 45056], k0_off105_eq i⟩
theorem k0_off106_eq : ∀ i : grid0.Coords, k0_off106 i = ![(i 1).val, 4 * (i 0).val + 1, 1, 49152] := by decide +kernel
instance closedOff_k0_off106 (i : grid0.Coords) : ClosedOff (k0_off106 i) := ⟨![(i 1).val, 4 * (i 0).val + 1, 1, 49152], k0_off106_eq i⟩
theorem k0_off107_eq : ∀ i : grid0.Coords, k0_off107 i = ![(i 1).val, 4 * (i 0).val + 1, 1, 53248] := by decide +kernel
instance closedOff_k0_off107 (i : grid0.Coords) : ClosedOff (k0_off107 i) := ⟨![(i 1).val, 4 * (i 0).val + 1, 1, 53248], k0_off107_eq i⟩
theorem k0_off108_eq : ∀ i : grid0.Coords, k0_off108 i = ![(i 1).val, 4 * (i 0).val + 1, 1, 57344] := by decide +kernel
instance closedOff_k0_off108 (i : grid0.Coords) : ClosedOff (k0_off108 i) := ⟨![(i 1).val, 4 * (i 0).val + 1, 1, 57344], k0_off108_eq i⟩
theorem k0_off109_eq : ∀ i : grid0.Coords, k0_off109 i = ![(i 1).val, 4 * (i 0).val + 1, 1, 61440] := by decide +kernel
instance closedOff_k0_off109 (i : grid0.Coords) : ClosedOff (k0_off109 i) := ⟨![(i 1).val, 4 * (i 0).val + 1, 1, 61440], k0_off109_eq i⟩
theorem k0_off111_eq : ∀ i : grid0.Coords, k0_off111 i = ![(i 1).val, 4 * (i 0).val + 1, 1, 32768] := by decide +kernel
instance closedOff_k0_off111 (i : grid0.Coords) : ClosedOff (k0_off111 i) := ⟨![(i 1).val, 4 * (i 0).val + 1, 1, 32768], k0_off111_eq i⟩
theorem k0_off112_eq : ∀ i : grid0.Coords, k0_off112 i = ![(i 1).val, 4 * (i 0).val + 1, 1, 0] := by decide +kernel
instance closedOff_k0_off112 (i : grid0.Coords) : ClosedOff (k0_off112 i) := ⟨![(i 1).val, 4 * (i 0).val + 1, 1, 0], k0_off112_eq i⟩
theorem k0_off115_eq : ∀ i : grid0.Coords, k0_off115 i = ![(i 1).val, 4 * (i 0).val + 2, 0, 32768] := by decide +kernel
instance closedOff_k0_off115 (i : grid0.Coords) : ClosedOff (k0_off115 i) := ⟨![(i 1).val, 4 * (i 0).val + 2, 0, 32768], k0_off115_eq i⟩
theorem k0_off116_eq : ∀ i : grid0.Coords, k0_off116 i = ![(i 1).val, 4 * (i 0).val + 2, 0, 0] := by decide +kernel
instance closedOff_k0_off116 (i : grid0.Coords) : ClosedOff (k0_off116 i) := ⟨![(i 1).val, 4 * (i 0).val + 2, 0, 0], k0_off116_eq i⟩
theorem k0_off117_eq : ∀ i : grid0.Coords, k0_off117 i = ![(i 1).val, 4 * (i 0).val + 2, 0, 4096] := by decide +kernel
instance closedOff_k0_off117 (i : grid0.Coords) : ClosedOff (k0_off117 i) := ⟨![(i 1).val, 4 * (i 0).val + 2, 0, 4096], k0_off117_eq i⟩
theorem k0_off118_eq : ∀ i : grid0.Coords, k0_off118 i = ![(i 1).val, 4 * (i 0).val + 2, 0, 8192] := by decide +kernel
instance closedOff_k0_off118 (i : grid0.Coords) : ClosedOff (k0_off118 i) := ⟨![(i 1).val, 4 * (i 0).val + 2, 0, 8192], k0_off118_eq i⟩
theorem k0_off119_eq : ∀ i : grid0.Coords, k0_off119 i = ![(i 1).val, 4 * (i 0).val + 2, 0, 12288] := by decide +kernel
instance closedOff_k0_off119 (i : grid0.Coords) : ClosedOff (k0_off119 i) := ⟨![(i 1).val, 4 * (i 0).val + 2, 0, 12288], k0_off119_eq i⟩
theorem k0_off120_eq : ∀ i : grid0.Coords, k0_off120 i = ![(i 1).val, 4 * (i 0).val + 2, 0, 16384] := by decide +kernel
instance closedOff_k0_off120 (i : grid0.Coords) : ClosedOff (k0_off120 i) := ⟨![(i 1).val, 4 * (i 0).val + 2, 0, 16384], k0_off120_eq i⟩
theorem k0_off121_eq : ∀ i : grid0.Coords, k0_off121 i = ![(i 1).val, 4 * (i 0).val + 2, 0, 20480] := by decide +kernel
instance closedOff_k0_off121 (i : grid0.Coords) : ClosedOff (k0_off121 i) := ⟨![(i 1).val, 4 * (i 0).val + 2, 0, 20480], k0_off121_eq i⟩
theorem k0_off122_eq : ∀ i : grid0.Coords, k0_off122 i = ![(i 1).val, 4 * (i 0).val + 2, 0, 24576] := by decide +kernel
instance closedOff_k0_off122 (i : grid0.Coords) : ClosedOff (k0_off122 i) := ⟨![(i 1).val, 4 * (i 0).val + 2, 0, 24576], k0_off122_eq i⟩
theorem k0_off123_eq : ∀ i : grid0.Coords, k0_off123 i = ![(i 1).val, 4 * (i 0).val + 2, 0, 28672] := by decide +kernel
instance closedOff_k0_off123 (i : grid0.Coords) : ClosedOff (k0_off123 i) := ⟨![(i 1).val, 4 * (i 0).val + 2, 0, 28672], k0_off123_eq i⟩
theorem k0_off125_eq : ∀ i : grid0.Coords, k0_off125 i = ![(i 1).val, 4 * (i 0).val + 2, 0, 0] := by decide +kernel
instance closedOff_k0_off125 (i : grid0.Coords) : ClosedOff (k0_off125 i) := ⟨![(i 1).val, 4 * (i 0).val + 2, 0, 0], k0_off125_eq i⟩
theorem k0_off126_eq : ∀ i : grid0.Coords, k0_off126 i = ![(i 1).val, 4 * (i 0).val + 1, 1, 32768] := by decide +kernel
instance closedOff_k0_off126 (i : grid0.Coords) : ClosedOff (k0_off126 i) := ⟨![(i 1).val, 4 * (i 0).val + 1, 1, 32768], k0_off126_eq i⟩
theorem k0_off129_eq : ∀ i : grid0.Coords, k0_off129 i = ![(i 1).val, 4 * (i 0).val + 2, 1, 0] := by decide +kernel
instance closedOff_k0_off129 (i : grid0.Coords) : ClosedOff (k0_off129 i) := ⟨![(i 1).val, 4 * (i 0).val + 2, 1, 0], k0_off129_eq i⟩
theorem k0_off130_eq : ∀ i : grid0.Coords, k0_off130 i = ![(i 1).val, 4 * (i 0).val + 2, 0, 32768] := by decide +kernel
instance closedOff_k0_off130 (i : grid0.Coords) : ClosedOff (k0_off130 i) := ⟨![(i 1).val, 4 * (i 0).val + 2, 0, 32768], k0_off130_eq i⟩
theorem k0_off131_eq : ∀ i : grid0.Coords, k0_off131 i = ![(i 1).val, 4 * (i 0).val + 2, 0, 36864] := by decide +kernel
instance closedOff_k0_off131 (i : grid0.Coords) : ClosedOff (k0_off131 i) := ⟨![(i 1).val, 4 * (i 0).val + 2, 0, 36864], k0_off131_eq i⟩
theorem k0_off132_eq : ∀ i : grid0.Coords, k0_off132 i = ![(i 1).val, 4 * (i 0).val + 2, 0, 40960] := by decide +kernel
instance closedOff_k0_off132 (i : grid0.Coords) : ClosedOff (k0_off132 i) := ⟨![(i 1).val, 4 * (i 0).val + 2, 0, 40960], k0_off132_eq i⟩
theorem k0_off133_eq : ∀ i : grid0.Coords, k0_off133 i = ![(i 1).val, 4 * (i 0).val + 2, 0, 45056] := by decide +kernel
instance closedOff_k0_off133 (i : grid0.Coords) : ClosedOff (k0_off133 i) := ⟨![(i 1).val, 4 * (i 0).val + 2, 0, 45056], k0_off133_eq i⟩
theorem k0_off134_eq : ∀ i : grid0.Coords, k0_off134 i = ![(i 1).val, 4 * (i 0).val + 2, 0, 49152] := by decide +kernel
instance closedOff_k0_off134 (i : grid0.Coords) : ClosedOff (k0_off134 i) := ⟨![(i 1).val, 4 * (i 0).val + 2, 0, 49152], k0_off134_eq i⟩
theorem k0_off135_eq : ∀ i : grid0.Coords, k0_off135 i = ![(i 1).val, 4 * (i 0).val + 2, 0, 53248] := by decide +kernel
instance closedOff_k0_off135 (i : grid0.Coords) : ClosedOff (k0_off135 i) := ⟨![(i 1).val, 4 * (i 0).val + 2, 0, 53248], k0_off135_eq i⟩
theorem k0_off136_eq : ∀ i : grid0.Coords, k0_off136 i = ![(i 1).val, 4 * (i 0).val + 2, 0, 57344] := by decide +kernel
instance closedOff_k0_off136 (i : grid0.Coords) : ClosedOff (k0_off136 i) := ⟨![(i 1).val, 4 * (i 0).val + 2, 0, 57344], k0_off136_eq i⟩
theorem k0_off137_eq : ∀ i : grid0.Coords, k0_off137 i = ![(i 1).val, 4 * (i 0).val + 2, 0, 61440] := by decide +kernel
instance closedOff_k0_off137 (i : grid0.Coords) : ClosedOff (k0_off137 i) := ⟨![(i 1).val, 4 * (i 0).val + 2, 0, 61440], k0_off137_eq i⟩
theorem k0_off139_eq : ∀ i : grid0.Coords, k0_off139 i = ![(i 1).val, 4 * (i 0).val + 2, 0, 32768] := by decide +kernel
instance closedOff_k0_off139 (i : grid0.Coords) : ClosedOff (k0_off139 i) := ⟨![(i 1).val, 4 * (i 0).val + 2, 0, 32768], k0_off139_eq i⟩
theorem k0_off140_eq : ∀ i : grid0.Coords, k0_off140 i = ![(i 1).val, 4 * (i 0).val + 2, 0, 0] := by decide +kernel
instance closedOff_k0_off140 (i : grid0.Coords) : ClosedOff (k0_off140 i) := ⟨![(i 1).val, 4 * (i 0).val + 2, 0, 0], k0_off140_eq i⟩
theorem k0_off143_eq : ∀ i : grid0.Coords, k0_off143 i = ![(i 1).val, 4 * (i 0).val + 2, 1, 32768] := by decide +kernel
instance closedOff_k0_off143 (i : grid0.Coords) : ClosedOff (k0_off143 i) := ⟨![(i 1).val, 4 * (i 0).val + 2, 1, 32768], k0_off143_eq i⟩
theorem k0_off144_eq : ∀ i : grid0.Coords, k0_off144 i = ![(i 1).val, 4 * (i 0).val + 2, 1, 0] := by decide +kernel
instance closedOff_k0_off144 (i : grid0.Coords) : ClosedOff (k0_off144 i) := ⟨![(i 1).val, 4 * (i 0).val + 2, 1, 0], k0_off144_eq i⟩
theorem k0_off145_eq : ∀ i : grid0.Coords, k0_off145 i = ![(i 1).val, 4 * (i 0).val + 2, 1, 4096] := by decide +kernel
instance closedOff_k0_off145 (i : grid0.Coords) : ClosedOff (k0_off145 i) := ⟨![(i 1).val, 4 * (i 0).val + 2, 1, 4096], k0_off145_eq i⟩
theorem k0_off146_eq : ∀ i : grid0.Coords, k0_off146 i = ![(i 1).val, 4 * (i 0).val + 2, 1, 8192] := by decide +kernel
instance closedOff_k0_off146 (i : grid0.Coords) : ClosedOff (k0_off146 i) := ⟨![(i 1).val, 4 * (i 0).val + 2, 1, 8192], k0_off146_eq i⟩
theorem k0_off147_eq : ∀ i : grid0.Coords, k0_off147 i = ![(i 1).val, 4 * (i 0).val + 2, 1, 12288] := by decide +kernel
instance closedOff_k0_off147 (i : grid0.Coords) : ClosedOff (k0_off147 i) := ⟨![(i 1).val, 4 * (i 0).val + 2, 1, 12288], k0_off147_eq i⟩
theorem k0_off148_eq : ∀ i : grid0.Coords, k0_off148 i = ![(i 1).val, 4 * (i 0).val + 2, 1, 16384] := by decide +kernel
instance closedOff_k0_off148 (i : grid0.Coords) : ClosedOff (k0_off148 i) := ⟨![(i 1).val, 4 * (i 0).val + 2, 1, 16384], k0_off148_eq i⟩
theorem k0_off149_eq : ∀ i : grid0.Coords, k0_off149 i = ![(i 1).val, 4 * (i 0).val + 2, 1, 20480] := by decide +kernel
instance closedOff_k0_off149 (i : grid0.Coords) : ClosedOff (k0_off149 i) := ⟨![(i 1).val, 4 * (i 0).val + 2, 1, 20480], k0_off149_eq i⟩
theorem k0_off150_eq : ∀ i : grid0.Coords, k0_off150 i = ![(i 1).val, 4 * (i 0).val + 2, 1, 24576] := by decide +kernel
instance closedOff_k0_off150 (i : grid0.Coords) : ClosedOff (k0_off150 i) := ⟨![(i 1).val, 4 * (i 0).val + 2, 1, 24576], k0_off150_eq i⟩
theorem k0_off151_eq : ∀ i : grid0.Coords, k0_off151 i = ![(i 1).val, 4 * (i 0).val + 2, 1, 28672] := by decide +kernel
instance closedOff_k0_off151 (i : grid0.Coords) : ClosedOff (k0_off151 i) := ⟨![(i 1).val, 4 * (i 0).val + 2, 1, 28672], k0_off151_eq i⟩
theorem k0_off153_eq : ∀ i : grid0.Coords, k0_off153 i = ![(i 1).val, 4 * (i 0).val + 2, 1, 0] := by decide +kernel
instance closedOff_k0_off153 (i : grid0.Coords) : ClosedOff (k0_off153 i) := ⟨![(i 1).val, 4 * (i 0).val + 2, 1, 0], k0_off153_eq i⟩
theorem k0_off154_eq : ∀ i : grid0.Coords, k0_off154 i = ![(i 1).val, 4 * (i 0).val + 2, 0, 32768] := by decide +kernel
instance closedOff_k0_off154 (i : grid0.Coords) : ClosedOff (k0_off154 i) := ⟨![(i 1).val, 4 * (i 0).val + 2, 0, 32768], k0_off154_eq i⟩
theorem k0_off157_eq : ∀ i : grid0.Coords, k0_off157 i = ![(i 1).val, 4 * (i 0).val + 3, 0, 0] := by decide +kernel
instance closedOff_k0_off157 (i : grid0.Coords) : ClosedOff (k0_off157 i) := ⟨![(i 1).val, 4 * (i 0).val + 3, 0, 0], k0_off157_eq i⟩
theorem k0_off158_eq : ∀ i : grid0.Coords, k0_off158 i = ![(i 1).val, 4 * (i 0).val + 2, 1, 32768] := by decide +kernel
instance closedOff_k0_off158 (i : grid0.Coords) : ClosedOff (k0_off158 i) := ⟨![(i 1).val, 4 * (i 0).val + 2, 1, 32768], k0_off158_eq i⟩
theorem k0_off159_eq : ∀ i : grid0.Coords, k0_off159 i = ![(i 1).val, 4 * (i 0).val + 2, 1, 36864] := by decide +kernel
instance closedOff_k0_off159 (i : grid0.Coords) : ClosedOff (k0_off159 i) := ⟨![(i 1).val, 4 * (i 0).val + 2, 1, 36864], k0_off159_eq i⟩
theorem k0_off160_eq : ∀ i : grid0.Coords, k0_off160 i = ![(i 1).val, 4 * (i 0).val + 2, 1, 40960] := by decide +kernel
instance closedOff_k0_off160 (i : grid0.Coords) : ClosedOff (k0_off160 i) := ⟨![(i 1).val, 4 * (i 0).val + 2, 1, 40960], k0_off160_eq i⟩
theorem k0_off161_eq : ∀ i : grid0.Coords, k0_off161 i = ![(i 1).val, 4 * (i 0).val + 2, 1, 45056] := by decide +kernel
instance closedOff_k0_off161 (i : grid0.Coords) : ClosedOff (k0_off161 i) := ⟨![(i 1).val, 4 * (i 0).val + 2, 1, 45056], k0_off161_eq i⟩
theorem k0_off162_eq : ∀ i : grid0.Coords, k0_off162 i = ![(i 1).val, 4 * (i 0).val + 2, 1, 49152] := by decide +kernel
instance closedOff_k0_off162 (i : grid0.Coords) : ClosedOff (k0_off162 i) := ⟨![(i 1).val, 4 * (i 0).val + 2, 1, 49152], k0_off162_eq i⟩
theorem k0_off163_eq : ∀ i : grid0.Coords, k0_off163 i = ![(i 1).val, 4 * (i 0).val + 2, 1, 53248] := by decide +kernel
instance closedOff_k0_off163 (i : grid0.Coords) : ClosedOff (k0_off163 i) := ⟨![(i 1).val, 4 * (i 0).val + 2, 1, 53248], k0_off163_eq i⟩
theorem k0_off164_eq : ∀ i : grid0.Coords, k0_off164 i = ![(i 1).val, 4 * (i 0).val + 2, 1, 57344] := by decide +kernel
instance closedOff_k0_off164 (i : grid0.Coords) : ClosedOff (k0_off164 i) := ⟨![(i 1).val, 4 * (i 0).val + 2, 1, 57344], k0_off164_eq i⟩
theorem k0_off165_eq : ∀ i : grid0.Coords, k0_off165 i = ![(i 1).val, 4 * (i 0).val + 2, 1, 61440] := by decide +kernel
instance closedOff_k0_off165 (i : grid0.Coords) : ClosedOff (k0_off165 i) := ⟨![(i 1).val, 4 * (i 0).val + 2, 1, 61440], k0_off165_eq i⟩
theorem k0_off167_eq : ∀ i : grid0.Coords, k0_off167 i = ![(i 1).val, 4 * (i 0).val + 2, 1, 32768] := by decide +kernel
instance closedOff_k0_off167 (i : grid0.Coords) : ClosedOff (k0_off167 i) := ⟨![(i 1).val, 4 * (i 0).val + 2, 1, 32768], k0_off167_eq i⟩
theorem k0_off168_eq : ∀ i : grid0.Coords, k0_off168 i = ![(i 1).val, 4 * (i 0).val + 2, 1, 0] := by decide +kernel
instance closedOff_k0_off168 (i : grid0.Coords) : ClosedOff (k0_off168 i) := ⟨![(i 1).val, 4 * (i 0).val + 2, 1, 0], k0_off168_eq i⟩
theorem k0_off171_eq : ∀ i : grid0.Coords, k0_off171 i = ![(i 1).val, 4 * (i 0).val + 3, 0, 32768] := by decide +kernel
instance closedOff_k0_off171 (i : grid0.Coords) : ClosedOff (k0_off171 i) := ⟨![(i 1).val, 4 * (i 0).val + 3, 0, 32768], k0_off171_eq i⟩
theorem k0_off172_eq : ∀ i : grid0.Coords, k0_off172 i = ![(i 1).val, 4 * (i 0).val + 3, 0, 0] := by decide +kernel
instance closedOff_k0_off172 (i : grid0.Coords) : ClosedOff (k0_off172 i) := ⟨![(i 1).val, 4 * (i 0).val + 3, 0, 0], k0_off172_eq i⟩
theorem k0_off173_eq : ∀ i : grid0.Coords, k0_off173 i = ![(i 1).val, 4 * (i 0).val + 3, 0, 4096] := by decide +kernel
instance closedOff_k0_off173 (i : grid0.Coords) : ClosedOff (k0_off173 i) := ⟨![(i 1).val, 4 * (i 0).val + 3, 0, 4096], k0_off173_eq i⟩
theorem k0_off174_eq : ∀ i : grid0.Coords, k0_off174 i = ![(i 1).val, 4 * (i 0).val + 3, 0, 8192] := by decide +kernel
instance closedOff_k0_off174 (i : grid0.Coords) : ClosedOff (k0_off174 i) := ⟨![(i 1).val, 4 * (i 0).val + 3, 0, 8192], k0_off174_eq i⟩
theorem k0_off175_eq : ∀ i : grid0.Coords, k0_off175 i = ![(i 1).val, 4 * (i 0).val + 3, 0, 12288] := by decide +kernel
instance closedOff_k0_off175 (i : grid0.Coords) : ClosedOff (k0_off175 i) := ⟨![(i 1).val, 4 * (i 0).val + 3, 0, 12288], k0_off175_eq i⟩
theorem k0_off176_eq : ∀ i : grid0.Coords, k0_off176 i = ![(i 1).val, 4 * (i 0).val + 3, 0, 16384] := by decide +kernel
instance closedOff_k0_off176 (i : grid0.Coords) : ClosedOff (k0_off176 i) := ⟨![(i 1).val, 4 * (i 0).val + 3, 0, 16384], k0_off176_eq i⟩
theorem k0_off177_eq : ∀ i : grid0.Coords, k0_off177 i = ![(i 1).val, 4 * (i 0).val + 3, 0, 20480] := by decide +kernel
instance closedOff_k0_off177 (i : grid0.Coords) : ClosedOff (k0_off177 i) := ⟨![(i 1).val, 4 * (i 0).val + 3, 0, 20480], k0_off177_eq i⟩
theorem k0_off178_eq : ∀ i : grid0.Coords, k0_off178 i = ![(i 1).val, 4 * (i 0).val + 3, 0, 24576] := by decide +kernel
instance closedOff_k0_off178 (i : grid0.Coords) : ClosedOff (k0_off178 i) := ⟨![(i 1).val, 4 * (i 0).val + 3, 0, 24576], k0_off178_eq i⟩
theorem k0_off179_eq : ∀ i : grid0.Coords, k0_off179 i = ![(i 1).val, 4 * (i 0).val + 3, 0, 28672] := by decide +kernel
instance closedOff_k0_off179 (i : grid0.Coords) : ClosedOff (k0_off179 i) := ⟨![(i 1).val, 4 * (i 0).val + 3, 0, 28672], k0_off179_eq i⟩
theorem k0_off181_eq : ∀ i : grid0.Coords, k0_off181 i = ![(i 1).val, 4 * (i 0).val + 3, 0, 0] := by decide +kernel
instance closedOff_k0_off181 (i : grid0.Coords) : ClosedOff (k0_off181 i) := ⟨![(i 1).val, 4 * (i 0).val + 3, 0, 0], k0_off181_eq i⟩
theorem k0_off182_eq : ∀ i : grid0.Coords, k0_off182 i = ![(i 1).val, 4 * (i 0).val + 2, 1, 32768] := by decide +kernel
instance closedOff_k0_off182 (i : grid0.Coords) : ClosedOff (k0_off182 i) := ⟨![(i 1).val, 4 * (i 0).val + 2, 1, 32768], k0_off182_eq i⟩
theorem k0_off185_eq : ∀ i : grid0.Coords, k0_off185 i = ![(i 1).val, 4 * (i 0).val + 3, 1, 0] := by decide +kernel
instance closedOff_k0_off185 (i : grid0.Coords) : ClosedOff (k0_off185 i) := ⟨![(i 1).val, 4 * (i 0).val + 3, 1, 0], k0_off185_eq i⟩
theorem k0_off186_eq : ∀ i : grid0.Coords, k0_off186 i = ![(i 1).val, 4 * (i 0).val + 3, 0, 32768] := by decide +kernel
instance closedOff_k0_off186 (i : grid0.Coords) : ClosedOff (k0_off186 i) := ⟨![(i 1).val, 4 * (i 0).val + 3, 0, 32768], k0_off186_eq i⟩
theorem k0_off187_eq : ∀ i : grid0.Coords, k0_off187 i = ![(i 1).val, 4 * (i 0).val + 3, 0, 36864] := by decide +kernel
instance closedOff_k0_off187 (i : grid0.Coords) : ClosedOff (k0_off187 i) := ⟨![(i 1).val, 4 * (i 0).val + 3, 0, 36864], k0_off187_eq i⟩
theorem k0_off188_eq : ∀ i : grid0.Coords, k0_off188 i = ![(i 1).val, 4 * (i 0).val + 3, 0, 40960] := by decide +kernel
instance closedOff_k0_off188 (i : grid0.Coords) : ClosedOff (k0_off188 i) := ⟨![(i 1).val, 4 * (i 0).val + 3, 0, 40960], k0_off188_eq i⟩
theorem k0_off189_eq : ∀ i : grid0.Coords, k0_off189 i = ![(i 1).val, 4 * (i 0).val + 3, 0, 45056] := by decide +kernel
instance closedOff_k0_off189 (i : grid0.Coords) : ClosedOff (k0_off189 i) := ⟨![(i 1).val, 4 * (i 0).val + 3, 0, 45056], k0_off189_eq i⟩
theorem k0_off190_eq : ∀ i : grid0.Coords, k0_off190 i = ![(i 1).val, 4 * (i 0).val + 3, 0, 49152] := by decide +kernel
instance closedOff_k0_off190 (i : grid0.Coords) : ClosedOff (k0_off190 i) := ⟨![(i 1).val, 4 * (i 0).val + 3, 0, 49152], k0_off190_eq i⟩
theorem k0_off191_eq : ∀ i : grid0.Coords, k0_off191 i = ![(i 1).val, 4 * (i 0).val + 3, 0, 53248] := by decide +kernel
instance closedOff_k0_off191 (i : grid0.Coords) : ClosedOff (k0_off191 i) := ⟨![(i 1).val, 4 * (i 0).val + 3, 0, 53248], k0_off191_eq i⟩
theorem k0_off192_eq : ∀ i : grid0.Coords, k0_off192 i = ![(i 1).val, 4 * (i 0).val + 3, 0, 57344] := by decide +kernel
instance closedOff_k0_off192 (i : grid0.Coords) : ClosedOff (k0_off192 i) := ⟨![(i 1).val, 4 * (i 0).val + 3, 0, 57344], k0_off192_eq i⟩
theorem k0_off193_eq : ∀ i : grid0.Coords, k0_off193 i = ![(i 1).val, 4 * (i 0).val + 3, 0, 61440] := by decide +kernel
instance closedOff_k0_off193 (i : grid0.Coords) : ClosedOff (k0_off193 i) := ⟨![(i 1).val, 4 * (i 0).val + 3, 0, 61440], k0_off193_eq i⟩
theorem k0_off195_eq : ∀ i : grid0.Coords, k0_off195 i = ![(i 1).val, 4 * (i 0).val + 3, 0, 32768] := by decide +kernel
instance closedOff_k0_off195 (i : grid0.Coords) : ClosedOff (k0_off195 i) := ⟨![(i 1).val, 4 * (i 0).val + 3, 0, 32768], k0_off195_eq i⟩
theorem k0_off196_eq : ∀ i : grid0.Coords, k0_off196 i = ![(i 1).val, 4 * (i 0).val + 3, 0, 0] := by decide +kernel
instance closedOff_k0_off196 (i : grid0.Coords) : ClosedOff (k0_off196 i) := ⟨![(i 1).val, 4 * (i 0).val + 3, 0, 0], k0_off196_eq i⟩
theorem k0_off199_eq : ∀ i : grid0.Coords, k0_off199 i = ![(i 1).val, 4 * (i 0).val + 3, 1, 32768] := by decide +kernel
instance closedOff_k0_off199 (i : grid0.Coords) : ClosedOff (k0_off199 i) := ⟨![(i 1).val, 4 * (i 0).val + 3, 1, 32768], k0_off199_eq i⟩
theorem k0_off200_eq : ∀ i : grid0.Coords, k0_off200 i = ![(i 1).val, 4 * (i 0).val + 3, 1, 0] := by decide +kernel
instance closedOff_k0_off200 (i : grid0.Coords) : ClosedOff (k0_off200 i) := ⟨![(i 1).val, 4 * (i 0).val + 3, 1, 0], k0_off200_eq i⟩
theorem k0_off201_eq : ∀ i : grid0.Coords, k0_off201 i = ![(i 1).val, 4 * (i 0).val + 3, 1, 4096] := by decide +kernel
instance closedOff_k0_off201 (i : grid0.Coords) : ClosedOff (k0_off201 i) := ⟨![(i 1).val, 4 * (i 0).val + 3, 1, 4096], k0_off201_eq i⟩
theorem k0_off202_eq : ∀ i : grid0.Coords, k0_off202 i = ![(i 1).val, 4 * (i 0).val + 3, 1, 8192] := by decide +kernel
instance closedOff_k0_off202 (i : grid0.Coords) : ClosedOff (k0_off202 i) := ⟨![(i 1).val, 4 * (i 0).val + 3, 1, 8192], k0_off202_eq i⟩
theorem k0_off203_eq : ∀ i : grid0.Coords, k0_off203 i = ![(i 1).val, 4 * (i 0).val + 3, 1, 12288] := by decide +kernel
instance closedOff_k0_off203 (i : grid0.Coords) : ClosedOff (k0_off203 i) := ⟨![(i 1).val, 4 * (i 0).val + 3, 1, 12288], k0_off203_eq i⟩
theorem k0_off204_eq : ∀ i : grid0.Coords, k0_off204 i = ![(i 1).val, 4 * (i 0).val + 3, 1, 16384] := by decide +kernel
instance closedOff_k0_off204 (i : grid0.Coords) : ClosedOff (k0_off204 i) := ⟨![(i 1).val, 4 * (i 0).val + 3, 1, 16384], k0_off204_eq i⟩
theorem k0_off205_eq : ∀ i : grid0.Coords, k0_off205 i = ![(i 1).val, 4 * (i 0).val + 3, 1, 20480] := by decide +kernel
instance closedOff_k0_off205 (i : grid0.Coords) : ClosedOff (k0_off205 i) := ⟨![(i 1).val, 4 * (i 0).val + 3, 1, 20480], k0_off205_eq i⟩
theorem k0_off206_eq : ∀ i : grid0.Coords, k0_off206 i = ![(i 1).val, 4 * (i 0).val + 3, 1, 24576] := by decide +kernel
instance closedOff_k0_off206 (i : grid0.Coords) : ClosedOff (k0_off206 i) := ⟨![(i 1).val, 4 * (i 0).val + 3, 1, 24576], k0_off206_eq i⟩
theorem k0_off207_eq : ∀ i : grid0.Coords, k0_off207 i = ![(i 1).val, 4 * (i 0).val + 3, 1, 28672] := by decide +kernel
instance closedOff_k0_off207 (i : grid0.Coords) : ClosedOff (k0_off207 i) := ⟨![(i 1).val, 4 * (i 0).val + 3, 1, 28672], k0_off207_eq i⟩
theorem k0_off209_eq : ∀ i : grid0.Coords, k0_off209 i = ![(i 1).val, 4 * (i 0).val + 3, 1, 0] := by decide +kernel
instance closedOff_k0_off209 (i : grid0.Coords) : ClosedOff (k0_off209 i) := ⟨![(i 1).val, 4 * (i 0).val + 3, 1, 0], k0_off209_eq i⟩
theorem k0_off210_eq : ∀ i : grid0.Coords, k0_off210 i = ![(i 1).val, 4 * (i 0).val + 3, 1, 32768] := by decide +kernel
instance closedOff_k0_off210 (i : grid0.Coords) : ClosedOff (k0_off210 i) := ⟨![(i 1).val, 4 * (i 0).val + 3, 1, 32768], k0_off210_eq i⟩
theorem k0_off211_eq : ∀ i : grid0.Coords, k0_off211 i = ![(i 1).val, 4 * (i 0).val + 3, 1, 36864] := by decide +kernel
instance closedOff_k0_off211 (i : grid0.Coords) : ClosedOff (k0_off211 i) := ⟨![(i 1).val, 4 * (i 0).val + 3, 1, 36864], k0_off211_eq i⟩
theorem k0_off212_eq : ∀ i : grid0.Coords, k0_off212 i = ![(i 1).val, 4 * (i 0).val + 3, 1, 40960] := by decide +kernel
instance closedOff_k0_off212 (i : grid0.Coords) : ClosedOff (k0_off212 i) := ⟨![(i 1).val, 4 * (i 0).val + 3, 1, 40960], k0_off212_eq i⟩
theorem k0_off213_eq : ∀ i : grid0.Coords, k0_off213 i = ![(i 1).val, 4 * (i 0).val + 3, 1, 45056] := by decide +kernel
instance closedOff_k0_off213 (i : grid0.Coords) : ClosedOff (k0_off213 i) := ⟨![(i 1).val, 4 * (i 0).val + 3, 1, 45056], k0_off213_eq i⟩
theorem k0_off214_eq : ∀ i : grid0.Coords, k0_off214 i = ![(i 1).val, 4 * (i 0).val + 3, 1, 49152] := by decide +kernel
instance closedOff_k0_off214 (i : grid0.Coords) : ClosedOff (k0_off214 i) := ⟨![(i 1).val, 4 * (i 0).val + 3, 1, 49152], k0_off214_eq i⟩
theorem k0_off215_eq : ∀ i : grid0.Coords, k0_off215 i = ![(i 1).val, 4 * (i 0).val + 3, 1, 53248] := by decide +kernel
instance closedOff_k0_off215 (i : grid0.Coords) : ClosedOff (k0_off215 i) := ⟨![(i 1).val, 4 * (i 0).val + 3, 1, 53248], k0_off215_eq i⟩
theorem k0_off216_eq : ∀ i : grid0.Coords, k0_off216 i = ![(i 1).val, 4 * (i 0).val + 3, 1, 57344] := by decide +kernel
instance closedOff_k0_off216 (i : grid0.Coords) : ClosedOff (k0_off216 i) := ⟨![(i 1).val, 4 * (i 0).val + 3, 1, 57344], k0_off216_eq i⟩
theorem k0_off217_eq : ∀ i : grid0.Coords, k0_off217 i = ![(i 1).val, 4 * (i 0).val + 3, 1, 61440] := by decide +kernel
instance closedOff_k0_off217 (i : grid0.Coords) : ClosedOff (k0_off217 i) := ⟨![(i 1).val, 4 * (i 0).val + 3, 1, 61440], k0_off217_eq i⟩
theorem k0_off219_eq : ∀ i : grid0.Coords, k0_off219 i = ![(i 1).val, 4 * (i 0).val + 3, 1, 32768] := by decide +kernel
instance closedOff_k0_off219 (i : grid0.Coords) : ClosedOff (k0_off219 i) := ⟨![(i 1).val, 4 * (i 0).val + 3, 1, 32768], k0_off219_eq i⟩
theorem k0_off220_eq : ∀ i : grid0.Coords, k0_off220 i = ![(i 1).val, 4 * (i 0).val + 3, 0, 32768] := by decide +kernel
instance closedOff_k0_off220 (i : grid0.Coords) : ClosedOff (k0_off220 i) := ⟨![(i 1).val, 4 * (i 0).val + 3, 0, 32768], k0_off220_eq i⟩
theorem k0_off222_eq : ∀ i : grid0.Coords, k0_off222 i = ![(i 1).val, 4 * (i 0).val + 3, 1, 0] := by decide +kernel
instance closedOff_k0_off222 (i : grid0.Coords) : ClosedOff (k0_off222 i) := ⟨![(i 1).val, 4 * (i 0).val + 3, 1, 0], k0_off222_eq i⟩
theorem k0_off224_eq : ∀ i : grid0.Coords, k0_off224 i = ![(i 1).val, 4 * (i 0).val + 3, 1, 32768] := by decide +kernel
instance closedOff_k0_off224 (i : grid0.Coords) : ClosedOff (k0_off224 i) := ⟨![(i 1).val, 4 * (i 0).val + 3, 1, 32768], k0_off224_eq i⟩
theorem k0_off226_eq : ∀ i : grid0.Coords, k0_off226 i = ![(i 1).val, 4 * (i 0).val + 0, 0, 0] := by decide +kernel
instance closedOff_k0_off226 (i : grid0.Coords) : ClosedOff (k0_off226 i) := ⟨![(i 1).val, 4 * (i 0).val + 0, 0, 0], k0_off226_eq i⟩
theorem k0_off227_eq : ∀ i : grid0.Coords, k0_off227 i = ![(i 1).val, 4 * (i 0).val + 0, 0, 4096] := by decide +kernel
instance closedOff_k0_off227 (i : grid0.Coords) : ClosedOff (k0_off227 i) := ⟨![(i 1).val, 4 * (i 0).val + 0, 0, 4096], k0_off227_eq i⟩
theorem k0_off228_eq : ∀ i : grid0.Coords, k0_off228 i = ![(i 1).val, 4 * (i 0).val + 0, 0, 8192] := by decide +kernel
instance closedOff_k0_off228 (i : grid0.Coords) : ClosedOff (k0_off228 i) := ⟨![(i 1).val, 4 * (i 0).val + 0, 0, 8192], k0_off228_eq i⟩
theorem k0_off229_eq : ∀ i : grid0.Coords, k0_off229 i = ![(i 1).val, 4 * (i 0).val + 0, 0, 12288] := by decide +kernel
instance closedOff_k0_off229 (i : grid0.Coords) : ClosedOff (k0_off229 i) := ⟨![(i 1).val, 4 * (i 0).val + 0, 0, 12288], k0_off229_eq i⟩
theorem k0_off230_eq : ∀ i : grid0.Coords, k0_off230 i = ![(i 1).val, 4 * (i 0).val + 0, 0, 16384] := by decide +kernel
instance closedOff_k0_off230 (i : grid0.Coords) : ClosedOff (k0_off230 i) := ⟨![(i 1).val, 4 * (i 0).val + 0, 0, 16384], k0_off230_eq i⟩
theorem k0_off231_eq : ∀ i : grid0.Coords, k0_off231 i = ![(i 1).val, 4 * (i 0).val + 0, 0, 20480] := by decide +kernel
instance closedOff_k0_off231 (i : grid0.Coords) : ClosedOff (k0_off231 i) := ⟨![(i 1).val, 4 * (i 0).val + 0, 0, 20480], k0_off231_eq i⟩
theorem k0_off232_eq : ∀ i : grid0.Coords, k0_off232 i = ![(i 1).val, 4 * (i 0).val + 0, 0, 24576] := by decide +kernel
instance closedOff_k0_off232 (i : grid0.Coords) : ClosedOff (k0_off232 i) := ⟨![(i 1).val, 4 * (i 0).val + 0, 0, 24576], k0_off232_eq i⟩
theorem k0_off233_eq : ∀ i : grid0.Coords, k0_off233 i = ![(i 1).val, 4 * (i 0).val + 0, 0, 28672] := by decide +kernel
instance closedOff_k0_off233 (i : grid0.Coords) : ClosedOff (k0_off233 i) := ⟨![(i 1).val, 4 * (i 0).val + 0, 0, 28672], k0_off233_eq i⟩
theorem k0_off234_eq : ∀ i : grid0.Coords, k0_off234 i = ![(i 1).val, 4 * (i 0).val + 0, 0, 32768] := by decide +kernel
instance closedOff_k0_off234 (i : grid0.Coords) : ClosedOff (k0_off234 i) := ⟨![(i 1).val, 4 * (i 0).val + 0, 0, 32768], k0_off234_eq i⟩
theorem k0_off235_eq : ∀ i : grid0.Coords, k0_off235 i = ![(i 1).val, 4 * (i 0).val + 0, 0, 36864] := by decide +kernel
instance closedOff_k0_off235 (i : grid0.Coords) : ClosedOff (k0_off235 i) := ⟨![(i 1).val, 4 * (i 0).val + 0, 0, 36864], k0_off235_eq i⟩
theorem k0_off236_eq : ∀ i : grid0.Coords, k0_off236 i = ![(i 1).val, 4 * (i 0).val + 0, 0, 40960] := by decide +kernel
instance closedOff_k0_off236 (i : grid0.Coords) : ClosedOff (k0_off236 i) := ⟨![(i 1).val, 4 * (i 0).val + 0, 0, 40960], k0_off236_eq i⟩
theorem k0_off237_eq : ∀ i : grid0.Coords, k0_off237 i = ![(i 1).val, 4 * (i 0).val + 0, 0, 45056] := by decide +kernel
instance closedOff_k0_off237 (i : grid0.Coords) : ClosedOff (k0_off237 i) := ⟨![(i 1).val, 4 * (i 0).val + 0, 0, 45056], k0_off237_eq i⟩
theorem k0_off238_eq : ∀ i : grid0.Coords, k0_off238 i = ![(i 1).val, 4 * (i 0).val + 0, 0, 49152] := by decide +kernel
instance closedOff_k0_off238 (i : grid0.Coords) : ClosedOff (k0_off238 i) := ⟨![(i 1).val, 4 * (i 0).val + 0, 0, 49152], k0_off238_eq i⟩
theorem k0_off239_eq : ∀ i : grid0.Coords, k0_off239 i = ![(i 1).val, 4 * (i 0).val + 0, 0, 53248] := by decide +kernel
instance closedOff_k0_off239 (i : grid0.Coords) : ClosedOff (k0_off239 i) := ⟨![(i 1).val, 4 * (i 0).val + 0, 0, 53248], k0_off239_eq i⟩
theorem k0_off240_eq : ∀ i : grid0.Coords, k0_off240 i = ![(i 1).val, 4 * (i 0).val + 0, 0, 57344] := by decide +kernel
instance closedOff_k0_off240 (i : grid0.Coords) : ClosedOff (k0_off240 i) := ⟨![(i 1).val, 4 * (i 0).val + 0, 0, 57344], k0_off240_eq i⟩
theorem k0_off241_eq : ∀ i : grid0.Coords, k0_off241 i = ![(i 1).val, 4 * (i 0).val + 0, 0, 61440] := by decide +kernel
instance closedOff_k0_off241 (i : grid0.Coords) : ClosedOff (k0_off241 i) := ⟨![(i 1).val, 4 * (i 0).val + 0, 0, 61440], k0_off241_eq i⟩
theorem k0_off242_eq : ∀ i : grid0.Coords, k0_off242 i = ![(i 1).val, 4 * (i 0).val + 0, 1, 0] := by decide +kernel
instance closedOff_k0_off242 (i : grid0.Coords) : ClosedOff (k0_off242 i) := ⟨![(i 1).val, 4 * (i 0).val + 0, 1, 0], k0_off242_eq i⟩
theorem k0_off243_eq : ∀ i : grid0.Coords, k0_off243 i = ![(i 1).val, 4 * (i 0).val + 0, 1, 4096] := by decide +kernel
instance closedOff_k0_off243 (i : grid0.Coords) : ClosedOff (k0_off243 i) := ⟨![(i 1).val, 4 * (i 0).val + 0, 1, 4096], k0_off243_eq i⟩
theorem k0_off244_eq : ∀ i : grid0.Coords, k0_off244 i = ![(i 1).val, 4 * (i 0).val + 0, 1, 8192] := by decide +kernel
instance closedOff_k0_off244 (i : grid0.Coords) : ClosedOff (k0_off244 i) := ⟨![(i 1).val, 4 * (i 0).val + 0, 1, 8192], k0_off244_eq i⟩
theorem k0_off245_eq : ∀ i : grid0.Coords, k0_off245 i = ![(i 1).val, 4 * (i 0).val + 0, 1, 12288] := by decide +kernel
instance closedOff_k0_off245 (i : grid0.Coords) : ClosedOff (k0_off245 i) := ⟨![(i 1).val, 4 * (i 0).val + 0, 1, 12288], k0_off245_eq i⟩
theorem k0_off246_eq : ∀ i : grid0.Coords, k0_off246 i = ![(i 1).val, 4 * (i 0).val + 0, 1, 16384] := by decide +kernel
instance closedOff_k0_off246 (i : grid0.Coords) : ClosedOff (k0_off246 i) := ⟨![(i 1).val, 4 * (i 0).val + 0, 1, 16384], k0_off246_eq i⟩
theorem k0_off247_eq : ∀ i : grid0.Coords, k0_off247 i = ![(i 1).val, 4 * (i 0).val + 0, 1, 20480] := by decide +kernel
instance closedOff_k0_off247 (i : grid0.Coords) : ClosedOff (k0_off247 i) := ⟨![(i 1).val, 4 * (i 0).val + 0, 1, 20480], k0_off247_eq i⟩
theorem k0_off248_eq : ∀ i : grid0.Coords, k0_off248 i = ![(i 1).val, 4 * (i 0).val + 0, 1, 24576] := by decide +kernel
instance closedOff_k0_off248 (i : grid0.Coords) : ClosedOff (k0_off248 i) := ⟨![(i 1).val, 4 * (i 0).val + 0, 1, 24576], k0_off248_eq i⟩
theorem k0_off249_eq : ∀ i : grid0.Coords, k0_off249 i = ![(i 1).val, 4 * (i 0).val + 0, 1, 28672] := by decide +kernel
instance closedOff_k0_off249 (i : grid0.Coords) : ClosedOff (k0_off249 i) := ⟨![(i 1).val, 4 * (i 0).val + 0, 1, 28672], k0_off249_eq i⟩
theorem k0_off250_eq : ∀ i : grid0.Coords, k0_off250 i = ![(i 1).val, 4 * (i 0).val + 0, 1, 32768] := by decide +kernel
instance closedOff_k0_off250 (i : grid0.Coords) : ClosedOff (k0_off250 i) := ⟨![(i 1).val, 4 * (i 0).val + 0, 1, 32768], k0_off250_eq i⟩
theorem k0_off251_eq : ∀ i : grid0.Coords, k0_off251 i = ![(i 1).val, 4 * (i 0).val + 0, 1, 36864] := by decide +kernel
instance closedOff_k0_off251 (i : grid0.Coords) : ClosedOff (k0_off251 i) := ⟨![(i 1).val, 4 * (i 0).val + 0, 1, 36864], k0_off251_eq i⟩
theorem k0_off252_eq : ∀ i : grid0.Coords, k0_off252 i = ![(i 1).val, 4 * (i 0).val + 0, 1, 40960] := by decide +kernel
instance closedOff_k0_off252 (i : grid0.Coords) : ClosedOff (k0_off252 i) := ⟨![(i 1).val, 4 * (i 0).val + 0, 1, 40960], k0_off252_eq i⟩
theorem k0_off253_eq : ∀ i : grid0.Coords, k0_off253 i = ![(i 1).val, 4 * (i 0).val + 0, 1, 45056] := by decide +kernel
instance closedOff_k0_off253 (i : grid0.Coords) : ClosedOff (k0_off253 i) := ⟨![(i 1).val, 4 * (i 0).val + 0, 1, 45056], k0_off253_eq i⟩
theorem k0_off254_eq : ∀ i : grid0.Coords, k0_off254 i = ![(i 1).val, 4 * (i 0).val + 0, 1, 49152] := by decide +kernel
instance closedOff_k0_off254 (i : grid0.Coords) : ClosedOff (k0_off254 i) := ⟨![(i 1).val, 4 * (i 0).val + 0, 1, 49152], k0_off254_eq i⟩
theorem k0_off255_eq : ∀ i : grid0.Coords, k0_off255 i = ![(i 1).val, 4 * (i 0).val + 0, 1, 53248] := by decide +kernel
instance closedOff_k0_off255 (i : grid0.Coords) : ClosedOff (k0_off255 i) := ⟨![(i 1).val, 4 * (i 0).val + 0, 1, 53248], k0_off255_eq i⟩
theorem k0_off256_eq : ∀ i : grid0.Coords, k0_off256 i = ![(i 1).val, 4 * (i 0).val + 0, 1, 57344] := by decide +kernel
instance closedOff_k0_off256 (i : grid0.Coords) : ClosedOff (k0_off256 i) := ⟨![(i 1).val, 4 * (i 0).val + 0, 1, 57344], k0_off256_eq i⟩
theorem k0_off257_eq : ∀ i : grid0.Coords, k0_off257 i = ![(i 1).val, 4 * (i 0).val + 0, 1, 61440] := by decide +kernel
instance closedOff_k0_off257 (i : grid0.Coords) : ClosedOff (k0_off257 i) := ⟨![(i 1).val, 4 * (i 0).val + 0, 1, 61440], k0_off257_eq i⟩
theorem k0_off258_eq : ∀ i : grid0.Coords, k0_off258 i = ![(i 1).val, 4 * (i 0).val + 1, 0, 0] := by decide +kernel
instance closedOff_k0_off258 (i : grid0.Coords) : ClosedOff (k0_off258 i) := ⟨![(i 1).val, 4 * (i 0).val + 1, 0, 0], k0_off258_eq i⟩
theorem k0_off259_eq : ∀ i : grid0.Coords, k0_off259 i = ![(i 1).val, 4 * (i 0).val + 1, 0, 4096] := by decide +kernel
instance closedOff_k0_off259 (i : grid0.Coords) : ClosedOff (k0_off259 i) := ⟨![(i 1).val, 4 * (i 0).val + 1, 0, 4096], k0_off259_eq i⟩
theorem k0_off260_eq : ∀ i : grid0.Coords, k0_off260 i = ![(i 1).val, 4 * (i 0).val + 1, 0, 8192] := by decide +kernel
instance closedOff_k0_off260 (i : grid0.Coords) : ClosedOff (k0_off260 i) := ⟨![(i 1).val, 4 * (i 0).val + 1, 0, 8192], k0_off260_eq i⟩
theorem k0_off261_eq : ∀ i : grid0.Coords, k0_off261 i = ![(i 1).val, 4 * (i 0).val + 1, 0, 12288] := by decide +kernel
instance closedOff_k0_off261 (i : grid0.Coords) : ClosedOff (k0_off261 i) := ⟨![(i 1).val, 4 * (i 0).val + 1, 0, 12288], k0_off261_eq i⟩
theorem k0_off262_eq : ∀ i : grid0.Coords, k0_off262 i = ![(i 1).val, 4 * (i 0).val + 1, 0, 16384] := by decide +kernel
instance closedOff_k0_off262 (i : grid0.Coords) : ClosedOff (k0_off262 i) := ⟨![(i 1).val, 4 * (i 0).val + 1, 0, 16384], k0_off262_eq i⟩
theorem k0_off263_eq : ∀ i : grid0.Coords, k0_off263 i = ![(i 1).val, 4 * (i 0).val + 1, 0, 20480] := by decide +kernel
instance closedOff_k0_off263 (i : grid0.Coords) : ClosedOff (k0_off263 i) := ⟨![(i 1).val, 4 * (i 0).val + 1, 0, 20480], k0_off263_eq i⟩
theorem k0_off264_eq : ∀ i : grid0.Coords, k0_off264 i = ![(i 1).val, 4 * (i 0).val + 1, 0, 24576] := by decide +kernel
instance closedOff_k0_off264 (i : grid0.Coords) : ClosedOff (k0_off264 i) := ⟨![(i 1).val, 4 * (i 0).val + 1, 0, 24576], k0_off264_eq i⟩
theorem k0_off265_eq : ∀ i : grid0.Coords, k0_off265 i = ![(i 1).val, 4 * (i 0).val + 1, 0, 28672] := by decide +kernel
instance closedOff_k0_off265 (i : grid0.Coords) : ClosedOff (k0_off265 i) := ⟨![(i 1).val, 4 * (i 0).val + 1, 0, 28672], k0_off265_eq i⟩
theorem k0_off266_eq : ∀ i : grid0.Coords, k0_off266 i = ![(i 1).val, 4 * (i 0).val + 1, 0, 32768] := by decide +kernel
instance closedOff_k0_off266 (i : grid0.Coords) : ClosedOff (k0_off266 i) := ⟨![(i 1).val, 4 * (i 0).val + 1, 0, 32768], k0_off266_eq i⟩
theorem k0_off267_eq : ∀ i : grid0.Coords, k0_off267 i = ![(i 1).val, 4 * (i 0).val + 1, 0, 36864] := by decide +kernel
instance closedOff_k0_off267 (i : grid0.Coords) : ClosedOff (k0_off267 i) := ⟨![(i 1).val, 4 * (i 0).val + 1, 0, 36864], k0_off267_eq i⟩
theorem k0_off268_eq : ∀ i : grid0.Coords, k0_off268 i = ![(i 1).val, 4 * (i 0).val + 1, 0, 40960] := by decide +kernel
instance closedOff_k0_off268 (i : grid0.Coords) : ClosedOff (k0_off268 i) := ⟨![(i 1).val, 4 * (i 0).val + 1, 0, 40960], k0_off268_eq i⟩
theorem k0_off269_eq : ∀ i : grid0.Coords, k0_off269 i = ![(i 1).val, 4 * (i 0).val + 1, 0, 45056] := by decide +kernel
instance closedOff_k0_off269 (i : grid0.Coords) : ClosedOff (k0_off269 i) := ⟨![(i 1).val, 4 * (i 0).val + 1, 0, 45056], k0_off269_eq i⟩
theorem k0_off270_eq : ∀ i : grid0.Coords, k0_off270 i = ![(i 1).val, 4 * (i 0).val + 1, 0, 49152] := by decide +kernel
instance closedOff_k0_off270 (i : grid0.Coords) : ClosedOff (k0_off270 i) := ⟨![(i 1).val, 4 * (i 0).val + 1, 0, 49152], k0_off270_eq i⟩
theorem k0_off271_eq : ∀ i : grid0.Coords, k0_off271 i = ![(i 1).val, 4 * (i 0).val + 1, 0, 53248] := by decide +kernel
instance closedOff_k0_off271 (i : grid0.Coords) : ClosedOff (k0_off271 i) := ⟨![(i 1).val, 4 * (i 0).val + 1, 0, 53248], k0_off271_eq i⟩
theorem k0_off272_eq : ∀ i : grid0.Coords, k0_off272 i = ![(i 1).val, 4 * (i 0).val + 1, 0, 57344] := by decide +kernel
instance closedOff_k0_off272 (i : grid0.Coords) : ClosedOff (k0_off272 i) := ⟨![(i 1).val, 4 * (i 0).val + 1, 0, 57344], k0_off272_eq i⟩
theorem k0_off273_eq : ∀ i : grid0.Coords, k0_off273 i = ![(i 1).val, 4 * (i 0).val + 1, 0, 61440] := by decide +kernel
instance closedOff_k0_off273 (i : grid0.Coords) : ClosedOff (k0_off273 i) := ⟨![(i 1).val, 4 * (i 0).val + 1, 0, 61440], k0_off273_eq i⟩
theorem k0_off274_eq : ∀ i : grid0.Coords, k0_off274 i = ![(i 1).val, 4 * (i 0).val + 1, 1, 0] := by decide +kernel
instance closedOff_k0_off274 (i : grid0.Coords) : ClosedOff (k0_off274 i) := ⟨![(i 1).val, 4 * (i 0).val + 1, 1, 0], k0_off274_eq i⟩
theorem k0_off275_eq : ∀ i : grid0.Coords, k0_off275 i = ![(i 1).val, 4 * (i 0).val + 1, 1, 4096] := by decide +kernel
instance closedOff_k0_off275 (i : grid0.Coords) : ClosedOff (k0_off275 i) := ⟨![(i 1).val, 4 * (i 0).val + 1, 1, 4096], k0_off275_eq i⟩
theorem k0_off276_eq : ∀ i : grid0.Coords, k0_off276 i = ![(i 1).val, 4 * (i 0).val + 1, 1, 8192] := by decide +kernel
instance closedOff_k0_off276 (i : grid0.Coords) : ClosedOff (k0_off276 i) := ⟨![(i 1).val, 4 * (i 0).val + 1, 1, 8192], k0_off276_eq i⟩
theorem k0_off277_eq : ∀ i : grid0.Coords, k0_off277 i = ![(i 1).val, 4 * (i 0).val + 1, 1, 12288] := by decide +kernel
instance closedOff_k0_off277 (i : grid0.Coords) : ClosedOff (k0_off277 i) := ⟨![(i 1).val, 4 * (i 0).val + 1, 1, 12288], k0_off277_eq i⟩
theorem k0_off278_eq : ∀ i : grid0.Coords, k0_off278 i = ![(i 1).val, 4 * (i 0).val + 1, 1, 16384] := by decide +kernel
instance closedOff_k0_off278 (i : grid0.Coords) : ClosedOff (k0_off278 i) := ⟨![(i 1).val, 4 * (i 0).val + 1, 1, 16384], k0_off278_eq i⟩
theorem k0_off279_eq : ∀ i : grid0.Coords, k0_off279 i = ![(i 1).val, 4 * (i 0).val + 1, 1, 20480] := by decide +kernel
instance closedOff_k0_off279 (i : grid0.Coords) : ClosedOff (k0_off279 i) := ⟨![(i 1).val, 4 * (i 0).val + 1, 1, 20480], k0_off279_eq i⟩
theorem k0_off280_eq : ∀ i : grid0.Coords, k0_off280 i = ![(i 1).val, 4 * (i 0).val + 1, 1, 24576] := by decide +kernel
instance closedOff_k0_off280 (i : grid0.Coords) : ClosedOff (k0_off280 i) := ⟨![(i 1).val, 4 * (i 0).val + 1, 1, 24576], k0_off280_eq i⟩
theorem k0_off281_eq : ∀ i : grid0.Coords, k0_off281 i = ![(i 1).val, 4 * (i 0).val + 1, 1, 28672] := by decide +kernel
instance closedOff_k0_off281 (i : grid0.Coords) : ClosedOff (k0_off281 i) := ⟨![(i 1).val, 4 * (i 0).val + 1, 1, 28672], k0_off281_eq i⟩
theorem k0_off282_eq : ∀ i : grid0.Coords, k0_off282 i = ![(i 1).val, 4 * (i 0).val + 1, 1, 32768] := by decide +kernel
instance closedOff_k0_off282 (i : grid0.Coords) : ClosedOff (k0_off282 i) := ⟨![(i 1).val, 4 * (i 0).val + 1, 1, 32768], k0_off282_eq i⟩
theorem k0_off283_eq : ∀ i : grid0.Coords, k0_off283 i = ![(i 1).val, 4 * (i 0).val + 1, 1, 36864] := by decide +kernel
instance closedOff_k0_off283 (i : grid0.Coords) : ClosedOff (k0_off283 i) := ⟨![(i 1).val, 4 * (i 0).val + 1, 1, 36864], k0_off283_eq i⟩
theorem k0_off284_eq : ∀ i : grid0.Coords, k0_off284 i = ![(i 1).val, 4 * (i 0).val + 1, 1, 40960] := by decide +kernel
instance closedOff_k0_off284 (i : grid0.Coords) : ClosedOff (k0_off284 i) := ⟨![(i 1).val, 4 * (i 0).val + 1, 1, 40960], k0_off284_eq i⟩
theorem k0_off285_eq : ∀ i : grid0.Coords, k0_off285 i = ![(i 1).val, 4 * (i 0).val + 1, 1, 45056] := by decide +kernel
instance closedOff_k0_off285 (i : grid0.Coords) : ClosedOff (k0_off285 i) := ⟨![(i 1).val, 4 * (i 0).val + 1, 1, 45056], k0_off285_eq i⟩
theorem k0_off286_eq : ∀ i : grid0.Coords, k0_off286 i = ![(i 1).val, 4 * (i 0).val + 1, 1, 49152] := by decide +kernel
instance closedOff_k0_off286 (i : grid0.Coords) : ClosedOff (k0_off286 i) := ⟨![(i 1).val, 4 * (i 0).val + 1, 1, 49152], k0_off286_eq i⟩
theorem k0_off287_eq : ∀ i : grid0.Coords, k0_off287 i = ![(i 1).val, 4 * (i 0).val + 1, 1, 53248] := by decide +kernel
instance closedOff_k0_off287 (i : grid0.Coords) : ClosedOff (k0_off287 i) := ⟨![(i 1).val, 4 * (i 0).val + 1, 1, 53248], k0_off287_eq i⟩
theorem k0_off288_eq : ∀ i : grid0.Coords, k0_off288 i = ![(i 1).val, 4 * (i 0).val + 1, 1, 57344] := by decide +kernel
instance closedOff_k0_off288 (i : grid0.Coords) : ClosedOff (k0_off288 i) := ⟨![(i 1).val, 4 * (i 0).val + 1, 1, 57344], k0_off288_eq i⟩
theorem k0_off289_eq : ∀ i : grid0.Coords, k0_off289 i = ![(i 1).val, 4 * (i 0).val + 1, 1, 61440] := by decide +kernel
instance closedOff_k0_off289 (i : grid0.Coords) : ClosedOff (k0_off289 i) := ⟨![(i 1).val, 4 * (i 0).val + 1, 1, 61440], k0_off289_eq i⟩
theorem k0_off290_eq : ∀ i : grid0.Coords, k0_off290 i = ![(i 1).val, 4 * (i 0).val + 2, 0, 0] := by decide +kernel
instance closedOff_k0_off290 (i : grid0.Coords) : ClosedOff (k0_off290 i) := ⟨![(i 1).val, 4 * (i 0).val + 2, 0, 0], k0_off290_eq i⟩
theorem k0_off291_eq : ∀ i : grid0.Coords, k0_off291 i = ![(i 1).val, 4 * (i 0).val + 2, 0, 4096] := by decide +kernel
instance closedOff_k0_off291 (i : grid0.Coords) : ClosedOff (k0_off291 i) := ⟨![(i 1).val, 4 * (i 0).val + 2, 0, 4096], k0_off291_eq i⟩
theorem k0_off292_eq : ∀ i : grid0.Coords, k0_off292 i = ![(i 1).val, 4 * (i 0).val + 2, 0, 8192] := by decide +kernel
instance closedOff_k0_off292 (i : grid0.Coords) : ClosedOff (k0_off292 i) := ⟨![(i 1).val, 4 * (i 0).val + 2, 0, 8192], k0_off292_eq i⟩
theorem k0_off293_eq : ∀ i : grid0.Coords, k0_off293 i = ![(i 1).val, 4 * (i 0).val + 2, 0, 12288] := by decide +kernel
instance closedOff_k0_off293 (i : grid0.Coords) : ClosedOff (k0_off293 i) := ⟨![(i 1).val, 4 * (i 0).val + 2, 0, 12288], k0_off293_eq i⟩
theorem k0_off294_eq : ∀ i : grid0.Coords, k0_off294 i = ![(i 1).val, 4 * (i 0).val + 2, 0, 16384] := by decide +kernel
instance closedOff_k0_off294 (i : grid0.Coords) : ClosedOff (k0_off294 i) := ⟨![(i 1).val, 4 * (i 0).val + 2, 0, 16384], k0_off294_eq i⟩
theorem k0_off295_eq : ∀ i : grid0.Coords, k0_off295 i = ![(i 1).val, 4 * (i 0).val + 2, 0, 20480] := by decide +kernel
instance closedOff_k0_off295 (i : grid0.Coords) : ClosedOff (k0_off295 i) := ⟨![(i 1).val, 4 * (i 0).val + 2, 0, 20480], k0_off295_eq i⟩
theorem k0_off296_eq : ∀ i : grid0.Coords, k0_off296 i = ![(i 1).val, 4 * (i 0).val + 2, 0, 24576] := by decide +kernel
instance closedOff_k0_off296 (i : grid0.Coords) : ClosedOff (k0_off296 i) := ⟨![(i 1).val, 4 * (i 0).val + 2, 0, 24576], k0_off296_eq i⟩
theorem k0_off297_eq : ∀ i : grid0.Coords, k0_off297 i = ![(i 1).val, 4 * (i 0).val + 2, 0, 28672] := by decide +kernel
instance closedOff_k0_off297 (i : grid0.Coords) : ClosedOff (k0_off297 i) := ⟨![(i 1).val, 4 * (i 0).val + 2, 0, 28672], k0_off297_eq i⟩
theorem k0_off298_eq : ∀ i : grid0.Coords, k0_off298 i = ![(i 1).val, 4 * (i 0).val + 2, 0, 32768] := by decide +kernel
instance closedOff_k0_off298 (i : grid0.Coords) : ClosedOff (k0_off298 i) := ⟨![(i 1).val, 4 * (i 0).val + 2, 0, 32768], k0_off298_eq i⟩
theorem k0_off299_eq : ∀ i : grid0.Coords, k0_off299 i = ![(i 1).val, 4 * (i 0).val + 2, 0, 36864] := by decide +kernel
instance closedOff_k0_off299 (i : grid0.Coords) : ClosedOff (k0_off299 i) := ⟨![(i 1).val, 4 * (i 0).val + 2, 0, 36864], k0_off299_eq i⟩
theorem k0_off300_eq : ∀ i : grid0.Coords, k0_off300 i = ![(i 1).val, 4 * (i 0).val + 2, 0, 40960] := by decide +kernel
instance closedOff_k0_off300 (i : grid0.Coords) : ClosedOff (k0_off300 i) := ⟨![(i 1).val, 4 * (i 0).val + 2, 0, 40960], k0_off300_eq i⟩
theorem k0_off301_eq : ∀ i : grid0.Coords, k0_off301 i = ![(i 1).val, 4 * (i 0).val + 2, 0, 45056] := by decide +kernel
instance closedOff_k0_off301 (i : grid0.Coords) : ClosedOff (k0_off301 i) := ⟨![(i 1).val, 4 * (i 0).val + 2, 0, 45056], k0_off301_eq i⟩
theorem k0_off302_eq : ∀ i : grid0.Coords, k0_off302 i = ![(i 1).val, 4 * (i 0).val + 2, 0, 49152] := by decide +kernel
instance closedOff_k0_off302 (i : grid0.Coords) : ClosedOff (k0_off302 i) := ⟨![(i 1).val, 4 * (i 0).val + 2, 0, 49152], k0_off302_eq i⟩
theorem k0_off303_eq : ∀ i : grid0.Coords, k0_off303 i = ![(i 1).val, 4 * (i 0).val + 2, 0, 53248] := by decide +kernel
instance closedOff_k0_off303 (i : grid0.Coords) : ClosedOff (k0_off303 i) := ⟨![(i 1).val, 4 * (i 0).val + 2, 0, 53248], k0_off303_eq i⟩
theorem k0_off304_eq : ∀ i : grid0.Coords, k0_off304 i = ![(i 1).val, 4 * (i 0).val + 2, 0, 57344] := by decide +kernel
instance closedOff_k0_off304 (i : grid0.Coords) : ClosedOff (k0_off304 i) := ⟨![(i 1).val, 4 * (i 0).val + 2, 0, 57344], k0_off304_eq i⟩
theorem k0_off305_eq : ∀ i : grid0.Coords, k0_off305 i = ![(i 1).val, 4 * (i 0).val + 2, 0, 61440] := by decide +kernel
instance closedOff_k0_off305 (i : grid0.Coords) : ClosedOff (k0_off305 i) := ⟨![(i 1).val, 4 * (i 0).val + 2, 0, 61440], k0_off305_eq i⟩
theorem k0_off306_eq : ∀ i : grid0.Coords, k0_off306 i = ![(i 1).val, 4 * (i 0).val + 2, 1, 0] := by decide +kernel
instance closedOff_k0_off306 (i : grid0.Coords) : ClosedOff (k0_off306 i) := ⟨![(i 1).val, 4 * (i 0).val + 2, 1, 0], k0_off306_eq i⟩
theorem k0_off307_eq : ∀ i : grid0.Coords, k0_off307 i = ![(i 1).val, 4 * (i 0).val + 2, 1, 4096] := by decide +kernel
instance closedOff_k0_off307 (i : grid0.Coords) : ClosedOff (k0_off307 i) := ⟨![(i 1).val, 4 * (i 0).val + 2, 1, 4096], k0_off307_eq i⟩
theorem k0_off308_eq : ∀ i : grid0.Coords, k0_off308 i = ![(i 1).val, 4 * (i 0).val + 2, 1, 8192] := by decide +kernel
instance closedOff_k0_off308 (i : grid0.Coords) : ClosedOff (k0_off308 i) := ⟨![(i 1).val, 4 * (i 0).val + 2, 1, 8192], k0_off308_eq i⟩
theorem k0_off309_eq : ∀ i : grid0.Coords, k0_off309 i = ![(i 1).val, 4 * (i 0).val + 2, 1, 12288] := by decide +kernel
instance closedOff_k0_off309 (i : grid0.Coords) : ClosedOff (k0_off309 i) := ⟨![(i 1).val, 4 * (i 0).val + 2, 1, 12288], k0_off309_eq i⟩
theorem k0_off310_eq : ∀ i : grid0.Coords, k0_off310 i = ![(i 1).val, 4 * (i 0).val + 2, 1, 16384] := by decide +kernel
instance closedOff_k0_off310 (i : grid0.Coords) : ClosedOff (k0_off310 i) := ⟨![(i 1).val, 4 * (i 0).val + 2, 1, 16384], k0_off310_eq i⟩
theorem k0_off311_eq : ∀ i : grid0.Coords, k0_off311 i = ![(i 1).val, 4 * (i 0).val + 2, 1, 20480] := by decide +kernel
instance closedOff_k0_off311 (i : grid0.Coords) : ClosedOff (k0_off311 i) := ⟨![(i 1).val, 4 * (i 0).val + 2, 1, 20480], k0_off311_eq i⟩
theorem k0_off312_eq : ∀ i : grid0.Coords, k0_off312 i = ![(i 1).val, 4 * (i 0).val + 2, 1, 24576] := by decide +kernel
instance closedOff_k0_off312 (i : grid0.Coords) : ClosedOff (k0_off312 i) := ⟨![(i 1).val, 4 * (i 0).val + 2, 1, 24576], k0_off312_eq i⟩
theorem k0_off313_eq : ∀ i : grid0.Coords, k0_off313 i = ![(i 1).val, 4 * (i 0).val + 2, 1, 28672] := by decide +kernel
instance closedOff_k0_off313 (i : grid0.Coords) : ClosedOff (k0_off313 i) := ⟨![(i 1).val, 4 * (i 0).val + 2, 1, 28672], k0_off313_eq i⟩
theorem k0_off314_eq : ∀ i : grid0.Coords, k0_off314 i = ![(i 1).val, 4 * (i 0).val + 2, 1, 32768] := by decide +kernel
instance closedOff_k0_off314 (i : grid0.Coords) : ClosedOff (k0_off314 i) := ⟨![(i 1).val, 4 * (i 0).val + 2, 1, 32768], k0_off314_eq i⟩
theorem k0_off315_eq : ∀ i : grid0.Coords, k0_off315 i = ![(i 1).val, 4 * (i 0).val + 2, 1, 36864] := by decide +kernel
instance closedOff_k0_off315 (i : grid0.Coords) : ClosedOff (k0_off315 i) := ⟨![(i 1).val, 4 * (i 0).val + 2, 1, 36864], k0_off315_eq i⟩
theorem k0_off316_eq : ∀ i : grid0.Coords, k0_off316 i = ![(i 1).val, 4 * (i 0).val + 2, 1, 40960] := by decide +kernel
instance closedOff_k0_off316 (i : grid0.Coords) : ClosedOff (k0_off316 i) := ⟨![(i 1).val, 4 * (i 0).val + 2, 1, 40960], k0_off316_eq i⟩
theorem k0_off317_eq : ∀ i : grid0.Coords, k0_off317 i = ![(i 1).val, 4 * (i 0).val + 2, 1, 45056] := by decide +kernel
instance closedOff_k0_off317 (i : grid0.Coords) : ClosedOff (k0_off317 i) := ⟨![(i 1).val, 4 * (i 0).val + 2, 1, 45056], k0_off317_eq i⟩
theorem k0_off318_eq : ∀ i : grid0.Coords, k0_off318 i = ![(i 1).val, 4 * (i 0).val + 2, 1, 49152] := by decide +kernel
instance closedOff_k0_off318 (i : grid0.Coords) : ClosedOff (k0_off318 i) := ⟨![(i 1).val, 4 * (i 0).val + 2, 1, 49152], k0_off318_eq i⟩
theorem k0_off319_eq : ∀ i : grid0.Coords, k0_off319 i = ![(i 1).val, 4 * (i 0).val + 2, 1, 53248] := by decide +kernel
instance closedOff_k0_off319 (i : grid0.Coords) : ClosedOff (k0_off319 i) := ⟨![(i 1).val, 4 * (i 0).val + 2, 1, 53248], k0_off319_eq i⟩
theorem k0_off320_eq : ∀ i : grid0.Coords, k0_off320 i = ![(i 1).val, 4 * (i 0).val + 2, 1, 57344] := by decide +kernel
instance closedOff_k0_off320 (i : grid0.Coords) : ClosedOff (k0_off320 i) := ⟨![(i 1).val, 4 * (i 0).val + 2, 1, 57344], k0_off320_eq i⟩
theorem k0_off321_eq : ∀ i : grid0.Coords, k0_off321 i = ![(i 1).val, 4 * (i 0).val + 2, 1, 61440] := by decide +kernel
instance closedOff_k0_off321 (i : grid0.Coords) : ClosedOff (k0_off321 i) := ⟨![(i 1).val, 4 * (i 0).val + 2, 1, 61440], k0_off321_eq i⟩
theorem k0_off322_eq : ∀ i : grid0.Coords, k0_off322 i = ![(i 1).val, 4 * (i 0).val + 3, 0, 0] := by decide +kernel
instance closedOff_k0_off322 (i : grid0.Coords) : ClosedOff (k0_off322 i) := ⟨![(i 1).val, 4 * (i 0).val + 3, 0, 0], k0_off322_eq i⟩
theorem k0_off323_eq : ∀ i : grid0.Coords, k0_off323 i = ![(i 1).val, 4 * (i 0).val + 3, 0, 4096] := by decide +kernel
instance closedOff_k0_off323 (i : grid0.Coords) : ClosedOff (k0_off323 i) := ⟨![(i 1).val, 4 * (i 0).val + 3, 0, 4096], k0_off323_eq i⟩
theorem k0_off324_eq : ∀ i : grid0.Coords, k0_off324 i = ![(i 1).val, 4 * (i 0).val + 3, 0, 8192] := by decide +kernel
instance closedOff_k0_off324 (i : grid0.Coords) : ClosedOff (k0_off324 i) := ⟨![(i 1).val, 4 * (i 0).val + 3, 0, 8192], k0_off324_eq i⟩
theorem k0_off325_eq : ∀ i : grid0.Coords, k0_off325 i = ![(i 1).val, 4 * (i 0).val + 3, 0, 12288] := by decide +kernel
instance closedOff_k0_off325 (i : grid0.Coords) : ClosedOff (k0_off325 i) := ⟨![(i 1).val, 4 * (i 0).val + 3, 0, 12288], k0_off325_eq i⟩
theorem k0_off326_eq : ∀ i : grid0.Coords, k0_off326 i = ![(i 1).val, 4 * (i 0).val + 3, 0, 16384] := by decide +kernel
instance closedOff_k0_off326 (i : grid0.Coords) : ClosedOff (k0_off326 i) := ⟨![(i 1).val, 4 * (i 0).val + 3, 0, 16384], k0_off326_eq i⟩
theorem k0_off327_eq : ∀ i : grid0.Coords, k0_off327 i = ![(i 1).val, 4 * (i 0).val + 3, 0, 20480] := by decide +kernel
instance closedOff_k0_off327 (i : grid0.Coords) : ClosedOff (k0_off327 i) := ⟨![(i 1).val, 4 * (i 0).val + 3, 0, 20480], k0_off327_eq i⟩
theorem k0_off328_eq : ∀ i : grid0.Coords, k0_off328 i = ![(i 1).val, 4 * (i 0).val + 3, 0, 24576] := by decide +kernel
instance closedOff_k0_off328 (i : grid0.Coords) : ClosedOff (k0_off328 i) := ⟨![(i 1).val, 4 * (i 0).val + 3, 0, 24576], k0_off328_eq i⟩
theorem k0_off329_eq : ∀ i : grid0.Coords, k0_off329 i = ![(i 1).val, 4 * (i 0).val + 3, 0, 28672] := by decide +kernel
instance closedOff_k0_off329 (i : grid0.Coords) : ClosedOff (k0_off329 i) := ⟨![(i 1).val, 4 * (i 0).val + 3, 0, 28672], k0_off329_eq i⟩
theorem k0_off330_eq : ∀ i : grid0.Coords, k0_off330 i = ![(i 1).val, 4 * (i 0).val + 3, 0, 32768] := by decide +kernel
instance closedOff_k0_off330 (i : grid0.Coords) : ClosedOff (k0_off330 i) := ⟨![(i 1).val, 4 * (i 0).val + 3, 0, 32768], k0_off330_eq i⟩
theorem k0_off331_eq : ∀ i : grid0.Coords, k0_off331 i = ![(i 1).val, 4 * (i 0).val + 3, 0, 36864] := by decide +kernel
instance closedOff_k0_off331 (i : grid0.Coords) : ClosedOff (k0_off331 i) := ⟨![(i 1).val, 4 * (i 0).val + 3, 0, 36864], k0_off331_eq i⟩
theorem k0_off332_eq : ∀ i : grid0.Coords, k0_off332 i = ![(i 1).val, 4 * (i 0).val + 3, 0, 40960] := by decide +kernel
instance closedOff_k0_off332 (i : grid0.Coords) : ClosedOff (k0_off332 i) := ⟨![(i 1).val, 4 * (i 0).val + 3, 0, 40960], k0_off332_eq i⟩
theorem k0_off333_eq : ∀ i : grid0.Coords, k0_off333 i = ![(i 1).val, 4 * (i 0).val + 3, 0, 45056] := by decide +kernel
instance closedOff_k0_off333 (i : grid0.Coords) : ClosedOff (k0_off333 i) := ⟨![(i 1).val, 4 * (i 0).val + 3, 0, 45056], k0_off333_eq i⟩
theorem k0_off334_eq : ∀ i : grid0.Coords, k0_off334 i = ![(i 1).val, 4 * (i 0).val + 3, 0, 49152] := by decide +kernel
instance closedOff_k0_off334 (i : grid0.Coords) : ClosedOff (k0_off334 i) := ⟨![(i 1).val, 4 * (i 0).val + 3, 0, 49152], k0_off334_eq i⟩
theorem k0_off335_eq : ∀ i : grid0.Coords, k0_off335 i = ![(i 1).val, 4 * (i 0).val + 3, 0, 53248] := by decide +kernel
instance closedOff_k0_off335 (i : grid0.Coords) : ClosedOff (k0_off335 i) := ⟨![(i 1).val, 4 * (i 0).val + 3, 0, 53248], k0_off335_eq i⟩
theorem k0_off336_eq : ∀ i : grid0.Coords, k0_off336 i = ![(i 1).val, 4 * (i 0).val + 3, 0, 57344] := by decide +kernel
instance closedOff_k0_off336 (i : grid0.Coords) : ClosedOff (k0_off336 i) := ⟨![(i 1).val, 4 * (i 0).val + 3, 0, 57344], k0_off336_eq i⟩
theorem k0_off337_eq : ∀ i : grid0.Coords, k0_off337 i = ![(i 1).val, 4 * (i 0).val + 3, 0, 61440] := by decide +kernel
instance closedOff_k0_off337 (i : grid0.Coords) : ClosedOff (k0_off337 i) := ⟨![(i 1).val, 4 * (i 0).val + 3, 0, 61440], k0_off337_eq i⟩
theorem k0_off338_eq : ∀ i : grid0.Coords, k0_off338 i = ![(i 1).val, 4 * (i 0).val + 3, 1, 0] := by decide +kernel
instance closedOff_k0_off338 (i : grid0.Coords) : ClosedOff (k0_off338 i) := ⟨![(i 1).val, 4 * (i 0).val + 3, 1, 0], k0_off338_eq i⟩
theorem k0_off339_eq : ∀ i : grid0.Coords, k0_off339 i = ![(i 1).val, 4 * (i 0).val + 3, 1, 4096] := by decide +kernel
instance closedOff_k0_off339 (i : grid0.Coords) : ClosedOff (k0_off339 i) := ⟨![(i 1).val, 4 * (i 0).val + 3, 1, 4096], k0_off339_eq i⟩
theorem k0_off340_eq : ∀ i : grid0.Coords, k0_off340 i = ![(i 1).val, 4 * (i 0).val + 3, 1, 8192] := by decide +kernel
instance closedOff_k0_off340 (i : grid0.Coords) : ClosedOff (k0_off340 i) := ⟨![(i 1).val, 4 * (i 0).val + 3, 1, 8192], k0_off340_eq i⟩
theorem k0_off341_eq : ∀ i : grid0.Coords, k0_off341 i = ![(i 1).val, 4 * (i 0).val + 3, 1, 12288] := by decide +kernel
instance closedOff_k0_off341 (i : grid0.Coords) : ClosedOff (k0_off341 i) := ⟨![(i 1).val, 4 * (i 0).val + 3, 1, 12288], k0_off341_eq i⟩
theorem k0_off342_eq : ∀ i : grid0.Coords, k0_off342 i = ![(i 1).val, 4 * (i 0).val + 3, 1, 16384] := by decide +kernel
instance closedOff_k0_off342 (i : grid0.Coords) : ClosedOff (k0_off342 i) := ⟨![(i 1).val, 4 * (i 0).val + 3, 1, 16384], k0_off342_eq i⟩
theorem k0_off343_eq : ∀ i : grid0.Coords, k0_off343 i = ![(i 1).val, 4 * (i 0).val + 3, 1, 20480] := by decide +kernel
instance closedOff_k0_off343 (i : grid0.Coords) : ClosedOff (k0_off343 i) := ⟨![(i 1).val, 4 * (i 0).val + 3, 1, 20480], k0_off343_eq i⟩
theorem k0_off344_eq : ∀ i : grid0.Coords, k0_off344 i = ![(i 1).val, 4 * (i 0).val + 3, 1, 24576] := by decide +kernel
instance closedOff_k0_off344 (i : grid0.Coords) : ClosedOff (k0_off344 i) := ⟨![(i 1).val, 4 * (i 0).val + 3, 1, 24576], k0_off344_eq i⟩
theorem k0_off345_eq : ∀ i : grid0.Coords, k0_off345 i = ![(i 1).val, 4 * (i 0).val + 3, 1, 28672] := by decide +kernel
instance closedOff_k0_off345 (i : grid0.Coords) : ClosedOff (k0_off345 i) := ⟨![(i 1).val, 4 * (i 0).val + 3, 1, 28672], k0_off345_eq i⟩
theorem k0_off346_eq : ∀ i : grid0.Coords, k0_off346 i = ![(i 1).val, 4 * (i 0).val + 3, 1, 32768] := by decide +kernel
instance closedOff_k0_off346 (i : grid0.Coords) : ClosedOff (k0_off346 i) := ⟨![(i 1).val, 4 * (i 0).val + 3, 1, 32768], k0_off346_eq i⟩
theorem k0_off347_eq : ∀ i : grid0.Coords, k0_off347 i = ![(i 1).val, 4 * (i 0).val + 3, 1, 36864] := by decide +kernel
instance closedOff_k0_off347 (i : grid0.Coords) : ClosedOff (k0_off347 i) := ⟨![(i 1).val, 4 * (i 0).val + 3, 1, 36864], k0_off347_eq i⟩
theorem k0_off348_eq : ∀ i : grid0.Coords, k0_off348 i = ![(i 1).val, 4 * (i 0).val + 3, 1, 40960] := by decide +kernel
instance closedOff_k0_off348 (i : grid0.Coords) : ClosedOff (k0_off348 i) := ⟨![(i 1).val, 4 * (i 0).val + 3, 1, 40960], k0_off348_eq i⟩
theorem k0_off349_eq : ∀ i : grid0.Coords, k0_off349 i = ![(i 1).val, 4 * (i 0).val + 3, 1, 45056] := by decide +kernel
instance closedOff_k0_off349 (i : grid0.Coords) : ClosedOff (k0_off349 i) := ⟨![(i 1).val, 4 * (i 0).val + 3, 1, 45056], k0_off349_eq i⟩
theorem k0_off350_eq : ∀ i : grid0.Coords, k0_off350 i = ![(i 1).val, 4 * (i 0).val + 3, 1, 49152] := by decide +kernel
instance closedOff_k0_off350 (i : grid0.Coords) : ClosedOff (k0_off350 i) := ⟨![(i 1).val, 4 * (i 0).val + 3, 1, 49152], k0_off350_eq i⟩
theorem k0_off351_eq : ∀ i : grid0.Coords, k0_off351 i = ![(i 1).val, 4 * (i 0).val + 3, 1, 53248] := by decide +kernel
instance closedOff_k0_off351 (i : grid0.Coords) : ClosedOff (k0_off351 i) := ⟨![(i 1).val, 4 * (i 0).val + 3, 1, 53248], k0_off351_eq i⟩
theorem k0_off352_eq : ∀ i : grid0.Coords, k0_off352 i = ![(i 1).val, 4 * (i 0).val + 3, 1, 57344] := by decide +kernel
instance closedOff_k0_off352 (i : grid0.Coords) : ClosedOff (k0_off352 i) := ⟨![(i 1).val, 4 * (i 0).val + 3, 1, 57344], k0_off352_eq i⟩
theorem k0_off353_eq : ∀ i : grid0.Coords, k0_off353 i = ![(i 1).val, 4 * (i 0).val + 3, 1, 61440] := by decide +kernel
instance closedOff_k0_off353 (i : grid0.Coords) : ClosedOff (k0_off353 i) := ⟨![(i 1).val, 4 * (i 0).val + 3, 1, 61440], k0_off353_eq i⟩

end Cert.Proof.KB.Off
-- ==== Proof.KBSetup.lean ====
/-
  What the tile's proof and the launch share for this program: the program as the launch theorem reads it,
  the ghost state (the handshakes' rounds beside the transfers' counters), and the names of the three arrays —
  the recordings, the stream numbers, the result — and of a tile's scratch buffers.
-/
import proofs.«218968_g36790689857971_cont_8to1_b_1381_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«218968_g36790689857971_cont_8to1_b_1381_24_alg».proof.Proof.Gen.Kernel
import proofs.«218968_g36790689857971_cont_8to1_b_1381_24_alg».proof.Proof.Gen.Kernel.Skeleton
import proofs.«218968_g36790689857971_cont_8to1_b_1381_24_alg».proof.Proof.KBOffsets
import proofs.«218968_g36790689857971_cont_8to1_b_1381_24_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The recordings, the stream numbers and the result, as locations of device `d`. -/
abbrev aLoc (d : Dev nD) : Loc nD τ sig := (SparseCore.T d).loc main_arg0
abbrev sLoc (d : Dev nD) : Loc nD τ sig := (SparseCore.T d).loc main_arg1
abbrev oLoc (d : Dev nD) : Loc nD τ sig := (SparseCore.T d).loc main_v0

/-- The tile of SparseCore `L 0`, vector subcore `L 1`. -/
abbrev cV (L : grid0.Coords) : Fin τ.nSC := (L 0).castLE hcore0
abbrev jV (L : grid0.Coords) : Fin τ.nSub := (L 1).castLE hsub0

end Cert.Proof.KB

end
-- ==== Proof.KBPay.lean ====
import proofs.«218968_g36790689857971_cont_8to1_b_1381_24_alg».proof.Proof.KBSetup

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What each tile is handed and hands back

Tile (c, w) — vector subcore w of SparseCore c — works on recording w, streams 4c … 4c+3: it reads those entries of the
recordings and the stream number of recording w, and writes exactly those entries of the result. So the result splits among
the 32 tiles by (recording, stream / 4); the recordings and the stream numbers are read by every tile and go out as read
shares; the SparseCore's shared scratch splits into sixteen contiguous slices of 3 × 32768 words, one per tile. -/

/-- The entries of the result SparseCore `c` writes: streams 4c … 4c+3 of every recording. -/
def coreSet (c : Fin 2) : Finset S16x8x2x65536.Idx := Finset.univ.filter fun j => (j 1).val / 4 = c.val
/-- The entries tile (c, w) writes: recording w, streams 4c … 4c+3. -/
def tileSet (c : Fin 2) (w : Fin 16) : Finset S16x8x2x65536.Idx := Finset.univ.filter fun j => (j 0).val = w.val ∧ (j 1).val / 4 = c.val
/-- Tile w's slice of its SparseCore's shared scratch: words 98304·w … 98304·w + 98303. -/
def shSet (w : Fin 16) : Finset S1572864.Idx := Finset.univ.filter fun j => (j 0).val / 98304 = w.val

/-- The read shares: a SparseCore's of the whole, a tile's of its SparseCore's. -/
abbrev qCore (c : Fin 2) : PosShare TreeShare := Transfers.shareTok fullShare 2 c
abbrev qTile (c : Fin 2) (w : Fin 16) : PosShare TreeShare := Transfers.shareTok (qCore c) 16 w

/-- The SparseCore's shared scratch, the sequencer's buffer. -/
abbrev shRef (c : Fin τ.nSC) : DevRef τ sig := ⟨.shared, ⟨0, by decide⟩, c⟩
abbrev shLoc (d : Dev nD) (c : Fin τ.nSC) : Loc nD τ sig := (d, shRef c)

variable (m : (ℓ : Loc nD τ sig) → Buf (Elt F) ℓ)
variable [FloatOps F]

/-- What the result holds when the program ends: the recordings with the named stream of each silenced. -/
def Gout (d : Dev nD) : Buf (Elt F) (oLoc d) := Cert.Spec.G (F := F) (m (aLoc d)) (m (sLoc d))

theorem nCore_eq : (K (F := F)).nCore 0 = 2 := rfl
theorem nSub_eq : (K (F := F)).nSub 0 = 16 := rfl
/-- SparseCore `c` of the call's grid, as a SparseCore of the device. -/
abbrev coreOf (c : Fin 2) : Fin τ.nSC := c.castLE (by decide)

/-- The one call's payloads. To SparseCore c: its read shares of the recordings and the stream numbers and its part of the
    result at the launch contents; back: the same with its part of the result at `Gout`. To tile (c, w): its read shares, its
    part of the result, its slice of the shared scratch; back: the same with its part of the result at `Gout`. -/
def P : (K (F := F)).Pay (nD := nD) (Val := Elt F) (Name := ℕ) (U := UU) where
  st := fun q d c => match q with
    | 0 => iprop((aLoc d ↦{qCore (Fin.cast nCore_eq c)} m (aLoc d)) ∗ (sLoc d ↦{qCore (Fin.cast nCore_eq c)} m (sLoc d))
        ∗ oLoc d ↦[coreSet (Fin.cast nCore_eq c)]{fullShare} m (oLoc d))
  dn := fun q d c => match q with
    | 0 => iprop((aLoc d ↦{qCore (Fin.cast nCore_eq c)} m (aLoc d)) ∗ (sLoc d ↦{qCore (Fin.cast nCore_eq c)} m (sLoc d))
        ∗ oLoc d ↦[coreSet (Fin.cast nCore_eq c)]{fullShare} Gout m d)
  go := fun q d c i => match q with
    | 0 => iprop((aLoc d ↦{qTile (Fin.cast nCore_eq c) (Fin.cast nSub_eq i)} m (aLoc d)) ∗ (sLoc d ↦{qTile (Fin.cast nCore_eq c) (Fin.cast nSub_eq i)} m (sLoc d))
        ∗ (oLoc d ↦[tileSet (Fin.cast nCore_eq c) (Fin.cast nSub_eq i)]{fullShare} m (oLoc d))
        ∗ ∃ f, shLoc d (coreOf (Fin.cast nCore_eq c)) ↦[shSet (Fin.cast nSub_eq i)]{fullShare} f)
  td := fun q d c i => match q with
    | 0 => iprop((aLoc d ↦{qTile (Fin.cast nCore_eq c) (Fin.cast nSub_eq i)} m (aLoc d)) ∗ (sLoc d ↦{qTile (Fin.cast nCore_eq c) (Fin.cast nSub_eq i)} m (sLoc d))
        ∗ (oLoc d ↦[tileSet (Fin.cast nCore_eq c) (Fin.cast nSub_eq i)]{fullShare} Gout m d)
        ∗ ∃ f, shLoc d (coreOf (Fin.cast nCore_eq c)) ↦[shSet (Fin.cast nSub_eq i)]{fullShare} f)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Proof.KB

end
-- ==== Proof.KBLaunch.lean ====
import proofs.«218968_g36790689857971_cont_8to1_b_1381_24_alg».proof.Proof.KBPay

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The index sets: a SparseCore's part of the result is its tiles' parts; the shared scratch is the tiles' slices

Every index of the result has a recording below 16 and a stream below 8, so it lies in exactly one `tileSet c w`
(recording `w`, stream / 4 = `c`); every word of the shared scratch lies below 16 · 98304, so in exactly one `shSet w`. -/

theorem tileSet_disjoint (c : Fin 2) :
    ∀ w ∈ (Finset.univ : Finset (Fin 16)), ∀ w' ∈ (Finset.univ : Finset (Fin 16)), w ≠ w' → Disjoint (tileSet c w) (tileSet c w') := by
  intro w _ w' _ h
  unfold tileSet
  rw [Finset.disjoint_filter]
  intro j _ h1 h2
  exact h (Fin.ext (h1.1.symm.trans h2.1))

theorem tileSet_cover (c : Fin 2) : (Finset.univ : Finset (Fin 16)).biUnion (tileSet c) = coreSet c := by
  ext j
  simp only [Finset.mem_biUnion, Finset.mem_univ, true_and, tileSet, coreSet, Finset.mem_filter]
  constructor
  · rintro ⟨w, _, h⟩; exact h
  · intro h
    have hj : (j 0).val < 16 := (j 0).isLt
    exact ⟨⟨(j 0).val, hj⟩, rfl, h⟩

theorem coreSet_disjoint :
    ∀ c ∈ (Finset.univ : Finset (Fin 2)), ∀ c' ∈ (Finset.univ : Finset (Fin 2)), c ≠ c' → Disjoint (coreSet c) (coreSet c') := by
  intro c _ c' _ h
  unfold coreSet
  rw [Finset.disjoint_filter]
  intro j _ h1 h2
  exact h (Fin.ext (h1.symm.trans h2))

theorem coreSet_cover : (Finset.univ : Finset (Fin 2)).biUnion coreSet = Finset.univ := by
  ext j
  simp only [Finset.mem_biUnion, Finset.mem_univ, true_and, coreSet, Finset.mem_filter, iff_true]
  have hj : (j 1).val < 8 := (j 1).isLt
  exact ⟨⟨(j 1).val / 4, by omega⟩, rfl⟩

theorem shSet_disjoint :
    ∀ w ∈ (Finset.univ : Finset (Fin 16)), ∀ w' ∈ (Finset.univ : Finset (Fin 16)), w ≠ w' → Disjoint (shSet w) (shSet w') := by
  intro w _ w' _ h
  unfold shSet
  rw [Finset.disjoint_filter]
  intro j _ h1 h2
  exact h (Fin.ext (h1.symm.trans h2))

theorem shSet_cover : (Finset.univ : Finset (Fin 16)).biUnion shSet = Finset.univ := by
  ext j
  simp only [Finset.mem_biUnion, Finset.mem_univ, true_and, shSet, Finset.mem_filter, iff_true]
  have hj : (j 0).val < 1572864 := (j 0).isLt
  exact ⟨⟨(j 0).val / 98304, by omega⟩, rfl⟩

/-! ## The points-tos along those unions -/

/-- A SparseCore's part of the result, at one function, is its sixteen tiles' parts at that function. -/
theorem oCore_tiles (d : Dev nD) (c : Fin 2) (f : Buf (Elt F) (oLoc d)) :
    (oLoc d ↦[coreSet c]{fullShare} f : sProp 𝕄) = bigSep Finset.univ fun w : Fin 16 => oLoc d ↦[tileSet c w]{fullShare} f := by
  rw [← pointsTo_biUnion Finset.univ (ℓ := oLoc d) (tileSet c) (tileSet_disjoint c), tileSet_cover]

/-- The result whole, at one function, is the two SparseCores' parts at that function. -/
theorem o_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet coreSet_disjoint, coreSet_cover]; try rfl

/-- The shared scratch whole, at one function, is the sixteen slices at that function. -/
theorem sh_tiles (d : Dev nD) (c : Fin τ.nSC) (f : Buf (Elt F) (shLoc d c)) :
    (shLoc d c ↦{fullShare} f : sProp 𝕄) = bigSep Finset.univ fun w : Fin 16 => shLoc d c ↦[shSet w]{fullShare} f := by
  rw [← pointsTo_biUnion Finset.univ (ℓ := shLoc d c) shSet shSet_disjoint, shSet_cover]; try rfl

/-- The sixteen slices, each at contents of its own, are the shared scratch whole at some contents. -/
theorem sh_join (d : Dev nD) (c : Fin τ.nSC) :
    (bigSep Finset.univ fun w : Fin 16 => iprop(∃ f, shLoc d c ↦[shSet w]{fullShare} f)) ⊢ (iprop(∃ f, shLoc d c ↦{fullShare} f) : sProp 𝕄) := by
  refine (bigSep_exists_pi Finset.univ (fun w (f : Buf (Elt F) (shLoc d c)) => (shLoc d c ↦[shSet w]{fullShare} f : sProp 𝕄))).trans ?_
  iintro ⟨%fs, H⟩
  ihave H' := (pointsTo_biUnion_join Finset.univ shSet fs (fs 0) shSet_disjoint) $$ H
  icases H' with ⟨%g, -, Hg⟩
  rw [shSet_cover]
  iexists g; iexact Hg

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## What a tile is handed, over the plain index types -/

/-- What tile (c, w) holds when the result's part of it reads `g`: its read shares of the recordings and of the stream
    numbers, its part of the result at `g`, its slice of the shared scratch at some contents. -/
abbrev tileRes (d : Dev nD) (c : Fin 2) (g : Buf (Elt F) (oLoc d)) (w : Fin 16) : sProp 𝕄 :=
  iprop((aLoc d ↦{qTile c w} m (aLoc d)) ∗ (sLoc d ↦{qTile c w} m (sLoc d)) ∗ (oLoc d ↦[tileSet c w]{fullShare} g)
    ∗ ∃ f, shLoc d (coreOf c) ↦[shSet w]{fullShare} f)

/-- What SparseCore c holds when the result's part of it reads `g`. -/
abbrev coreRes (d : Dev nD) (g : Buf (Elt F) (oLoc d)) (c : Fin 2) : sProp 𝕄 :=
  iprop((aLoc d ↦{qCore c} m (aLoc d)) ∗ (sLoc d ↦{qCore c} m (sLoc d)) ∗ oLoc d ↦[coreSet c]{fullShare} g)

theorem P_st (d : Dev nD) (c : Fin ((K (F := F)).nCore 0)) : (P m).st 0 d c = coreRes m d (m (oLoc d)) (Fin.cast nCore_eq c) := rfl
theorem P_dn (d : Dev nD) (c : Fin ((K (F := F)).nCore 0)) : (P m).dn 0 d c = coreRes m d (Gout m d) (Fin.cast nCore_eq c) := rfl
theorem P_go (d : Dev nD) (c : Fin ((K (F := F)).nCore 0)) (i : Fin ((K (F := F)).nSub 0)) :
    (P m).go 0 d c i = tileRes m d (Fin.cast nCore_eq c) (m (oLoc d)) (Fin.cast nSub_eq i) := rfl
theorem P_td (d : Dev nD) (c : Fin ((K (F := F)).nCore 0)) (i : Fin ((K (F := F)).nSub 0)) :
    (P m).td 0 d c i = tileRes m d (Fin.cast nCore_eq c) (Gout m d) (Fin.cast nSub_eq i) := rfl

/-- A family over the call's sixteen tasks is the family over `Fin 16`. -/
theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

/-- A family over the call's two SparseCores is the family over `Fin 2`. -/
theorem bigSep_cores (Φ : Fin 2 → sProp 𝕄) :
    (bigSep Finset.univ fun c : Fin ((K (F := F)).nCore 0) => Φ (Fin.cast nCore_eq c)) = bigSep Finset.univ Φ :=
  bigSep_congr fun _ _ => congrArg Φ (Fin.ext rfl)

/-! ## The split of a SparseCore's operands among its tiles -/

/-- A SparseCore's operands and its sequencer's buffers go out to the sixteen tiles — the read shares split sixteen ways
    (the remainder stays with the sequencer), the result's part along recordings, the shared scratch along its slices —
    and the tiles' results, each part of the result at `Gout`, come back as the SparseCore's. -/
theorem vecSplit : (K (F := F)).VecSplit (P m) 0 := by
  intro d c
  show iprop((P m).st 0 d c ∗ ownBufs (S d (coreOf (Fin.cast nCore_eq c)))) ⊢ |={Set.univ}=> iprop(
      (bigSep Finset.univ fun i : Fin ((K (F := F)).nSub 0) => (P m).go 0 d c i)
      ∗ ((bigSep Finset.univ fun i : Fin ((K (F := F)).nSub 0) => (P m).td 0 d c i)
          -∗ iprop((P m).dn 0 d c ∗ ownBufs (S d (coreOf (Fin.cast nCore_eq c))))))
  simp only [P_st, P_dn, P_go, P_td]
  generalize Fin.cast nCore_eq c = c'
  rw [bigSep_tasks (F := F) (tileRes m d c' (m (oLoc d))), bigSep_tasks (F := F) (tileRes m d c' (Gout m d))]
  unfold tileRes coreRes
  rw [bigSep_sep', bigSep_sep', bigSep_sep', bigSep_sep', bigSep_sep', bigSep_sep', ownBufs_S, oCore_tiles, oCore_tiles]
  iintro ⟨⟨Ha, Hs, Ho⟩, ⟨%fsh, Hsh⟩, Hrest⟩
  ihave Ha' := (Transfers.pointsTo_toks_split (qCore c') 16) $$ Ha
  icases Ha' with ⟨Had, Hat⟩
  ihave Hs' := (Transfers.pointsTo_toks_split (qCore c') 16) $$ Hs
  icases Hs' with ⟨Hsd, Hst⟩
  imodintro
  isplitl [Hat Hst Ho Hsh]
  · isplitl [Hat]; · iexact Hat
    isplitl [Hst]; · iexact Hst
    isplitl [Ho]; · iexact Ho
    ihave Hsh' := ((Entails.of_eq (sh_tiles d (coreOf c') fsh)).trans (SparseCore.ent (bigSep_mono
      (Φ := fun w : Fin 16 => (shLoc d (coreOf c') ↦[shSet w]{fullShare} fsh : sProp 𝕄))
      (Ψ := fun w : Fin 16 => iprop(∃ f, shLoc d (coreOf c') ↦[shSet w]{fullShare} f))
      fun w _ => BI.BIClass.exists_intro (Φ := fun f => (shLoc d (coreOf c') ↦[shSet w]{fullShare} f : sProp 𝕄)) fsh))) $$ Hsh
    iexact Hsh'
  iintro ⟨Hat, Hst, Ho, Hsh⟩
  isplitl [Had Hat Hsd Hst Ho]
  · isplitl [Had Hat]
    · iapply (Transfers.pointsTo_toks_join (qCore c') 16)
      isplitl [Had] <;> iassumption
    isplitl [Hsd Hst]
    · iapply (Transfers.pointsTo_toks_join (qCore c') 16)
      isplitl [Hsd] <;> iassumption
    iexact Ho
  isplitl [Hsh]; · iapply (sh_join d (coreOf c')); iexact Hsh
  iexact Hrest

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's unscoped buffers are the three arrays. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (sLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The two SparseCores' operands, component by component. -/
theorem cores_eq (d : Dev nD) (g : Buf (Elt F) (oLoc d)) :
    (bigSep Finset.univ (coreRes m d g))
      = iprop((bigSep Finset.univ fun c : Fin 2 => aLoc d ↦{qCore c} m (aLoc d)) ∗ (bigSep Finset.univ fun c : Fin 2 => sLoc d ↦{qCore c} m (sLoc d))
          ∗ bigSep Finset.univ fun c : Fin 2 => oLoc d ↦[coreSet c]{fullShare} g) := by
  unfold coreRes
  rw [bigSep_sep', bigSep_sep']

theorem st0_eq (d : Dev nD) :
    (bigSep Finset.univ fun c : Fin ((K (F := F)).nCore 0) => (P m).st 0 d c)
      = iprop((bigSep Finset.univ fun c : Fin 2 => aLoc d ↦{qCore c} m (aLoc d)) ∗ (bigSep Finset.univ fun c : Fin 2 => sLoc d ↦{qCore c} m (sLoc d))
          ∗ bigSep Finset.univ fun c : Fin 2 => oLoc d ↦[coreSet c]{fullShare} m (oLoc d)) := by
  simp only [P_st]
  rw [bigSep_cores (F := F) (coreRes m d (m (oLoc d))), cores_eq]

theorem dn0_eq (d : Dev nD) :
    (bigSep Finset.univ fun c : Fin ((K (F := F)).nCore 0) => (P m).dn 0 d c)
      = iprop((bigSep Finset.univ fun c : Fin 2 => aLoc d ↦{qCore c} m (aLoc d)) ∗ (bigSep Finset.univ fun c : Fin 2 => sLoc d ↦{qCore c} m (sLoc d))
          ∗ bigSep Finset.univ fun c : Fin 2 => oLoc d ↦[coreSet c]{fullShare} Gout m d) := by
  simp only [P_dn]
  rw [bigSep_cores (F := F) (coreRes m d (Gout m d)), cores_eq]

/-- What the TensorCore holds at the end: the recordings and the stream numbers as launched, the result at `Gout`. -/
abbrev FIN (d : Dev nD) : sProp 𝕄 :=
  iprop((aLoc d ↦{fullShare} m (aLoc d)) ∗ (sLoc d ↦{fullShare} m (sLoc d)) ∗ oLoc d ↦{fullShare} Gout m d)

/-- @main on device `d`'s TensorCore: the one call. The recordings' and the stream numbers' full shares split into the two
    SparseCores' read shares and a remainder kept here; the result splits into the two SparseCores' parts; after the call
    the shares rejoin and the parts, each at `Gout`, are the result whole at `Gout`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hs, Ho⟩, -, -⟩, -⟩
  ihave Ha' := (Transfers.pointsTo_toks_split fullShare 2) $$ Ha
  icases Ha' with ⟨Had, Hat⟩
  ihave Hs' := (Transfers.pointsTo_toks_split fullShare 2) $$ Hs
  icases Hs' with ⟨Hsd, Hsk⟩
  ihave Ho' := (Entails.of_eq (o_cores d (m (oLoc d)))) $$ Ho
  iapply ((K (F := F)).wp_run (D (F := F)) 𝒱 (EH := EH) (P := P m) κ d 0) $$ [Hst Hat Hsk Ho' Had Hsd]
  isplitr; · iexact Hctx
  isplitl [Hst]; · iexact Hst
  isplitl [Hat Hsk Ho']
  · rw [st0_eq]
    isplitl [Hat]; · iexact Hat
    isplitl [Hsk]; · iexact Hsk
    iexact Ho'
  iintro ⟨Hst, Hdn⟩
  ihave Hdn' := (Entails.of_eq (dn0_eq m d)) $$ Hdn
  icases Hdn' with ⟨Hat, Hsk, Ho⟩
  imodintro
  isplitl [Hst]; · iexact Hst
  isplitl [Had Hat]
  · iapply (Transfers.pointsTo_toks_join fullShare 2)
    isplitl [Had] <;> iassumption
  isplitl [Hsd Hsk]
  · iapply (Transfers.pointsTo_toks_join fullShare 2)
    isplitl [Hsd] <;> iassumption
  iapply (Entails.of_eq (o_cores d (Gout m d)).symm)
  iexact Ho

/-! ## The final memory reads the claim -/

def fq (d : Dev nD) (s' : Phys nD τ sig (Elt F)) : Prop :=
  s'.mem.mem (oLoc d) = Gout m d ∧ s'.mem.mem (aLoc d) = m (aLoc d) ∧ s'.mem.mem (sLoc d) = m (sLoc d)

theorem hfin (d : Dev nD) (s' : Phys nD τ sig (Elt F)) : iprop(FIN m d ∗ SI s') ⊢ (⌜fq m d s'⌝ : sProp 𝕄) := by
  iintro ⟨⟨Ha, Hs, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop :=
  fun r => ∀ c : Dev nD, r.2.mem (oLoc c) = Gout m c ∧ r.2.mem (aLoc c) = m (aLoc c) ∧ r.2.mem (sLoc c) = m (sLoc c)

/-- The program's run, given the tiles' body: every final memory holds the result at `Gout` and the two arguments as launched. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (sep_elim_left.trans (hu₀ m)) (hmain m ρ) (fq m) (hfin m) (QC m) (fun _ h => h)

end Cert.Proof.KB

end
-- ==== Proof.KBChunks.lean ====
import proofs.«218968_g36790689857971_cont_8to1_b_1381_24_alg».proof.Proof.KBPay

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The sixteen chunks of a tile's part of the result

The tile at coordinates `L` (SparseCore `L 0`, vector subcore `L 1`) moves recording `L 1`, streams `4·(L 0) … 4·(L 0)+3`, in
sixteen chunks of 32768 samples: chunk `k` is stream `4·(L 0) + k / 4`, channel `(k / 2) % 2`, samples
`32768·(k % 2) … 32768·(k % 2) + 32767`. The three numbers `k / 4`, `(k / 2) % 2`, `k % 2` are the digits of `k` in the mixed
radix (4, 2, 2), so distinct chunks are disjoint and together they are the tile's part of the result. -/

/-- The offsets of chunk `k` of the tile at `L`: recording, stream, channel, first sample. -/
def chunkOff (L : grid0.Coords) (k : Fin 16) : Fin 4 → ℕ :=
  ![(L 1).val, 4 * (L 0).val + k.val / 4, (k.val / 2) % 2, 32768 * (k.val % 2)]

theorem chunkOff_inb (L : grid0.Coords) (k : Fin 16) : ∀ a, chunkOff L k a + S1x1x1x32768.size a ≤ S16x8x2x65536.size a := by
  intro a
  have h0 : (L 0).val < 2 := (L 0).isLt
  have h1 : (L 1).val < 16 := (L 1).isLt
  have hk : k.val < 16 := k.isLt
  match a with
  | 0 => show (L 1).val + 1 ≤ 16; omega
  | 1 => show 4 * (L 0).val + k.val / 4 + 1 ≤ 8; omega
  | 2 => show (k.val / 2) % 2 + 1 ≤ 2; omega
  | 3 => show 32768 * (k.val % 2) + 32768 ≤ 65536; omega

/-- Chunk `k` of the result, as the tile's copies name it. -/
abbrev oChunk (L : grid0.Coords) (k : Fin 16) : Memref sig .scVector .hbm S32768 .f32 :=
  ((Memref.whole main_v0_scv : Memref sig .scVector .hbm S16x8x2x65536 .f32).slice
    (Rect.unit (s := S16x8x2x65536) (chunkOff L k) S1x1x1x32768.size (chunkOff_inb L k)) (fun _ => rfl)).squeeze S32768 squeezes_S1x1x1x32768_S32768

/-- Chunk `k` of the recordings. -/
abbrev aChunk (L : grid0.Coords) (k : Fin 16) : Memref sig .scVector .hbm S32768 .f32 :=
  ((Memref.whole main_arg0_scv : Memref sig .scVector .hbm S16x8x2x65536 .f32).slice
    (Rect.unit (s := S16x8x2x65536) (chunkOff L k) S1x1x1x32768.size (chunkOff_inb L k)) (fun _ => rfl)).squeeze S32768 squeezes_S1x1x1x32768_S32768

/-- The indices of chunk `k`, in closed form. -/
def chunkSet (L : grid0.Coords) (k : Fin 16) : Finset S16x8x2x65536.Idx :=
  Finset.univ.filter fun i => (i 0).val = (L 1).val ∧ (i 1).val = 4 * (L 0).val + k.val / 4 ∧ (i 2).val = (k.val / 2) % 2
    ∧ (i 3).val / 32768 = k.val % 2

/-- An index lies in the chunk's rectangle exactly when its recording, stream and channel are the chunk's and its sample
    lies in the chunk's half. -/
theorem mem_chunkRect (L : grid0.Coords) (k : Fin 16) (i : S16x8x2x65536.Idx) :
    i ∈ (Rect.unit (s := S16x8x2x65536) (chunkOff L k) S1x1x1x32768.size (chunkOff_inb L k)).set
      ↔ (i 0).val = (L 1).val ∧ (i 1).val = 4 * (L 0).val + k.val / 4 ∧ (i 2).val = (k.val / 2) % 2 ∧ (i 3).val / 32768 = k.val % 2 := by
  rw [Rect.mem_set_unit]
  constructor
  · intro h
    have h0 : (L 1).val ≤ (i 0).val ∧ (i 0).val < (L 1).val + 1 := h 0
    have h1 : 4 * (L 0).val + k.val / 4 ≤ (i 1).val ∧ (i 1).val < 4 * (L 0).val + k.val / 4 + 1 := h 1
    have h2 : (k.val / 2) % 2 ≤ (i 2).val ∧ (i 2).val < (k.val / 2) % 2 + 1 := h 2
    have h3 : 32768 * (k.val % 2) ≤ (i 3).val ∧ (i 3).val < 32768 * (k.val % 2) + 32768 := h 3
    refine ⟨by omega, by omega, by omega, by omega⟩
  · rintro ⟨e0, e1, e2, e3⟩ a
    match a with
    | 0 => show (L 1).val ≤ (i 0).val ∧ (i 0).val < (L 1).val + 1; omega
    | 1 => show 4 * (L 0).val + k.val / 4 ≤ (i 1).val ∧ (i 1).val < 4 * (L 0).val + k.val / 4 + 1; omega
    | 2 => show (k.val / 2) % 2 ≤ (i 2).val ∧ (i 2).val < (k.val / 2) % 2 + 1; omega
    | 3 => show 32768 * (k.val % 2) ≤ (i 3).val ∧ (i 3).val < 32768 * (k.val % 2) + 32768; omega

/-- The chunk's elements are its rectangle's: squeezing re-indexes, and a slice of the whole array is its rectangle. -/
theorem oChunk_rect (L : grid0.Coords) (k : Fin 16) :
    (oChunk L k).view.set = (Rect.unit (s := S16x8x2x65536) (chunkOff L k) S1x1x1x32768.size (chunkOff_inb L k)).set :=
  (View.set_reshape _ _).trans (View.set_slice_whole _ _)

theorem aChunk_rect (L : grid0.Coords) (k : Fin 16) :
    (aChunk L k).view.set = (Rect.unit (s := S16x8x2x65536) (chunkOff L k) S1x1x1x32768.size (chunkOff_inb L k)).set :=
  (View.set_reshape _ _).trans (View.set_slice_whole _ _)

theorem mem_oChunk_set (L : grid0.Coords) (k : Fin 16) {i : S16x8x2x65536.Idx} :
    i ∈ (oChunk L k).view.set
      ↔ (i 0).val = (L 1).val ∧ (i 1).val = 4 * (L 0).val + k.val / 4 ∧ (i 2).val = (k.val / 2) % 2 ∧ (i 3).val / 32768 = k.val % 2 := by
  rw [oChunk_rect]
  exact mem_chunkRect L k i

theorem mem_aChunk_set (L : grid0.Coords) (k : Fin 16) {i : S16x8x2x65536.Idx} :
    i ∈ (aChunk L k).view.set
      ↔ (i 0).val = (L 1).val ∧ (i 1).val = 4 * (L 0).val + k.val / 4 ∧ (i 2).val = (k.val / 2) % 2 ∧ (i 3).val / 32768 = k.val % 2 := by
  rw [aChunk_rect]
  exact mem_chunkRect L k i

theorem oChunk_set (L : grid0.Coords) (k : Fin 16) : (oChunk L k).view.set = chunkSet L k :=
  Finset.ext fun i => by rw [mem_oChunk_set]; simp only [chunkSet, Finset.mem_filter, Finset.mem_univ, true_and]

theorem aChunk_set (L : grid0.Coords) (k : Fin 16) : (aChunk L k).view.set = chunkSet L k :=
  Finset.ext fun i => by rw [mem_aChunk_set]; simp only [chunkSet, Finset.mem_filter, Finset.mem_univ, true_and]

/-- The tile's SparseCore and vector subcore as plain indices. -/
abbrev cL (L : grid0.Coords) : Fin 2 := Fin.cast (show grid0.bound 0 = 2 from rfl) (L 0)
abbrev wL (L : grid0.Coords) : Fin 16 := Fin.cast (show grid0.bound 1 = 16 from rfl) (L 1)

/-- Distinct chunks share no index: an index fixes the three digits of `k`. -/
theorem chunkSet_disjoint (L : grid0.Coords) :
    ∀ k ∈ (Finset.univ : Finset (Fin 16)), ∀ k' ∈ (Finset.univ : Finset (Fin 16)), k ≠ k' → Disjoint (chunkSet L k) (chunkSet L k') := by
  intro k _ k' _ h
  unfold chunkSet
  rw [Finset.disjoint_filter]
  rintro i _ ⟨_, a1, a2, a3⟩ ⟨_, b1, b2, b3⟩
  apply h; apply Fin.ext
  have hk := k.isLt
  have hk' := k'.isLt
  omega

/-- The sixteen chunks are the tile's part of the result: the chunk of an index is read off its stream, channel and half. -/
theorem chunkSet_cover (L : grid0.Coords) : (Finset.univ : Finset (Fin 16)).biUnion (chunkSet L) = tileSet (cL L) (wL L) := by
  ext i
  simp only [Finset.mem_biUnion, Finset.mem_univ, true_and, chunkSet, tileSet, Finset.mem_filter, cL, wL, Fin.coe_cast]
  have hi1 : (i 1).val < 8 := (i 1).isLt
  have hi2 : (i 2).val < 2 := (i 2).isLt
  have hi3 : (i 3).val < 65536 := (i 3).isLt
  have hL0 : (L 0).val < 2 := (L 0).isLt
  constructor
  · rintro ⟨k, e0, e1, e2, e3⟩
    have hk := k.isLt
    exact ⟨e0, by omega⟩
  · rintro ⟨e0, e1⟩
    have hk : 4 * ((i 1).val % 4) + 2 * (i 2).val + (i 3).val / 32768 < 16 := by omega
    refine ⟨⟨_, hk⟩, e0, ?_, ?_, ?_⟩
    · show (i 1).val = 4 * (L 0).val + (4 * ((i 1).val % 4) + 2 * (i 2).val + (i 3).val / 32768) / 4; omega
    · show (i 2).val = ((4 * ((i 1).val % 4) + 2 * (i 2).val + (i 3).val / 32768) / 2) % 2; omega
    · show (i 3).val / 32768 = (4 * ((i 1).val % 4) + 2 * (i 2).val + (i 3).val / 32768) % 2; omega

/-- The tile's part of the result, at one function, is its sixteen chunks at that function, each as the tile's thread names it. -/
theorem o_chunks (d : Dev nD) (L : grid0.Coords) (f : Buf (Elt F) (oLoc d)) :
    (oLoc d ↦[tileSet (cL L) (wL L)]{fullShare} f : sProp 𝕄)
      = bigSep Finset.univ fun k : Fin 16 => (oChunk L k).view.loc (V d (cV L) (jV L)) ↦[(oChunk L k).view.set]{fullShare} f := by
  rw [← chunkSet_cover L, pointsTo_biUnion Finset.univ (ℓ := oLoc d) (chunkSet L) (chunkSet_disjoint L)]
  exact bigSep_congr fun k _ => by rw [oChunk_set]

/-! ## The tile's three staging buffers in the shared scratch

Tile `L 1`'s slice of the shared scratch, words `98304·(L 1) … 98304·(L 1) + 98303`, is three buffers of 32768 words: word `x`
lies in buffer `i` exactly when `x / 32768 = 3·(L 1) + i`. -/

/-- The first word of staging buffer `i`. -/
abbrev shOff (L : grid0.Coords) : Fin 3 → Fin 1 → ℕ
  | 0 => ![98304 * (L 1).val]
  | 1 => ![98304 * (L 1).val + 32768]
  | 2 => ![98304 * (L 1).val + 65536]

theorem shOff_zero (L : grid0.Coords) : shOff L 0 = ![98304 * (L 1).val] := rfl
theorem shOff_one (L : grid0.Coords) : shOff L 1 = ![98304 * (L 1).val + 32768] := rfl
theorem shOff_two (L : grid0.Coords) : shOff L 2 = ![98304 * (L 1).val + 65536] := rfl

theorem shOff_inb (L : grid0.Coords) (i : Fin 3) : ∀ a, shOff L i a + S32768.size a ≤ S1572864.size a := by
  intro a
  have h1 : (L 1).val < 16 := (L 1).isLt
  match i, a with
  | 0, 0 => show 98304 * (L 1).val + 32768 ≤ 1572864; omega
  | 1, 0 => show 98304 * (L 1).val + 32768 + 32768 ≤ 1572864; omega
  | 2, 0 => show 98304 * (L 1).val + 65536 + 32768 ≤ 1572864; omega

/-- Staging buffer `i` of the tile at `L`. -/
abbrev shBuf (L : grid0.Coords) (i : Fin 3) : Memref sig .scVector .shared S32768 .f32 :=
  (Memref.whole cc0_scratch2 : Memref sig .scVector .shared S1572864 .f32).slice
    (Rect.unit (s := S1572864) (shOff L i) S32768.size (shOff_inb L i)) (fun _ => rfl)

/-- The words of staging buffer `i`, in closed form. -/
def shPiece (L : grid0.Coords) (i : Fin 3) : Finset S1572864.Idx :=
  Finset.univ.filter fun j => (j 0).val / 32768 = 3 * (L 1).val + i.val

/-- The buffer's elements are its rectangle's: a slice of the whole scratch is its rectangle. -/
theorem shBuf_rect (L : grid0.Coords) (i : Fin 3) :
    (shBuf L i).view.set = (Rect.unit (s := S1572864) (shOff L i) S32768.size (shOff_inb L i)).set :=
  View.set_slice_whole _ _

theorem mem_shBuf_set (L : grid0.Coords) (i : Fin 3) {j : S1572864.Idx} :
    j ∈ (shBuf L i).view.set ↔ (j 0).val / 32768 = 3 * (L 1).val + i.val := by
  rw [shBuf_rect, Rect.mem_set_unit, Fin.forall_fin_one]
  match i with
  | 0 => show (98304 * (L 1).val ≤ (j 0).val ∧ (j 0).val < 98304 * (L 1).val + 32768) ↔ (j 0).val / 32768 = 3 * (L 1).val + 0; omega
  | 1 => show (98304 * (L 1).val + 32768 ≤ (j 0).val ∧ (j 0).val < 98304 * (L 1).val + 32768 + 32768) ↔ (j 0).val / 32768 = 3 * (L 1).val + 1; omega
  | 2 => show (98304 * (L 1).val + 65536 ≤ (j 0).val ∧ (j 0).val < 98304 * (L 1).val + 65536 + 32768) ↔ (j 0).val / 32768 = 3 * (L 1).val + 2; omega

theorem shBuf_set (L : grid0.Coords) (i : Fin 3) : (shBuf L i).view.set = shPiece L i :=
  Finset.ext fun j => by rw [mem_shBuf_set]; simp only [shPiece, Finset.mem_filter, Finset.mem_univ, true_and]

theorem shPiece_disjoint (L : grid0.Coords) :
    ∀ i ∈ (Finset.univ : Finset (Fin 3)), ∀ i' ∈ (Finset.univ : Finset (Fin 3)), i ≠ i' → Disjoint (shPiece L i) (shPiece L i') := by
  intro i _ i' _ h
  unfold shPiece
  rw [Finset.disjoint_filter]
  intro j _ a b
  apply h; apply Fin.ext
  omega

theorem shPiece_cover (L : grid0.Coords) : (Finset.univ : Finset (Fin 3)).biUnion (shPiece L) = shSet (wL L) := by
  ext j
  simp only [Finset.mem_biUnion, Finset.mem_univ, true_and, shPiece, shSet, Finset.mem_filter, wL, Fin.coe_cast]
  constructor
  · rintro ⟨i, e⟩
    have hi := i.isLt
    omega
  · intro e
    have h : (j 0).val / 32768 - 3 * (L 1).val < 3 := by omega
    refine ⟨⟨_, h⟩, ?_⟩
    show (j 0).val / 32768 = 3 * (L 1).val + ((j 0).val / 32768 - 3 * (L 1).val)
    omega

/-- A staging buffer, as the tile's thread names it, is its words of the SparseCore's shared scratch. -/
theorem shBuf_pts (d : Dev nD) (L : grid0.Coords) (i : Fin 3) (f : Buf (Elt F) (shLoc d (cV L))) :
    ((shBuf L i).view.loc (V d (cV L) (jV L)) ↦[(shBuf L i).view.set]{fullShare} f : sProp 𝕄) = shLoc d (cV L) ↦[shPiece L i]{fullShare} f := by
  rw [shBuf_set]; rfl

/-- A chunk of the result, as the tile's thread names it, is its indices of the result. -/
theorem oChunk_pts (d : Dev nD) (L : grid0.Coords) (k : Fin 16) (f : Buf (Elt F) (oLoc d)) :
    ((oChunk L k).view.loc (V d (cV L) (jV L)) ↦[(oChunk L k).view.set]{fullShare} f : sProp 𝕄) = oLoc d ↦[chunkSet L k]{fullShare} f := by
  rw [oChunk_set]

/-- The tile's slice of the shared scratch, at one function, is its three staging buffers at that function. -/
theorem sh_bufs (d : Dev nD) (L : grid0.Coords) (f : Buf (Elt F) (shLoc d (cV L))) :
    (shLoc d (cV L) ↦[shSet (wL L)]{fullShare} f : sProp 𝕄)
      = bigSep Finset.univ fun i : Fin 3 => (shBuf L i).view.loc (V d (cV L) (jV L)) ↦[(shBuf L i).view.set]{fullShare} f := by
  rw [← shPiece_cover L, pointsTo_biUnion Finset.univ (ℓ := shLoc d (cV L)) (shPiece L) (shPiece_disjoint L)]
  exact bigSep_congr fun i _ => (shBuf_pts d L i f).symm

/-- A family over the three staging buffers, written out. -/
theorem bigSep_univ_three (Φ : Fin 3 → sProp 𝕄) : bigSep Finset.univ Φ = iprop(Φ 0 ∗ Φ 1 ∗ Φ 2) := by
  rw [show (Finset.univ : Finset (Fin 3)) = {0, 1, 2} from by decide, SparseCore.bigSep_insert' (by decide),
    SparseCore.bigSep_insert' (by decide), bigSep_singleton]

/-- The same, the three buffers written out. -/
theorem sh_bufs3 (d : Dev nD) (L : grid0.Coords) (f : Buf (Elt F) (shLoc d (cV L))) :
    (shLoc d (cV L) ↦[shSet (wL L)]{fullShare} f : sProp 𝕄)
      = iprop(((shBuf L 0).view.loc (V d (cV L) (jV L)) ↦[(shBuf L 0).view.set]{fullShare} f)
          ∗ ((shBuf L 1).view.loc (V d (cV L) (jV L)) ↦[(shBuf L 1).view.set]{fullShare} f)
          ∗ (shBuf L 2).view.loc (V d (cV L) (jV L)) ↦[(shBuf L 2).view.set]{fullShare} f) := by
  rw [sh_bufs, bigSep_univ_three]

/-! ## The recordings along the same chunks, at any read share; the result along the chunk sets

The tile holds a read share `q` of the recordings whole. The whole array is the tile's sixteen chunks and everything else; a
points-to splits along a disjoint union at any share, so the chunks can be lent one at a time and the rest kept. -/

/-- A chunk of the recordings, as the tile's thread names it, is its indices of the recordings — at any share. -/
theorem aChunk_pts (d : Dev nD) (L : grid0.Coords) (k : Fin 16) (q : PosShare TreeShare) (f : Buf (Elt F) (aLoc d)) :
    ((aChunk L k).view.loc (V d (cV L) (jV L)) ↦[(aChunk L k).view.set]{q} f : sProp 𝕄) = aLoc d ↦[chunkSet L k]{q} f := by
  rw [aChunk_set]

/-- The tile's indices of the recordings, at one function and any share, are the sixteen chunk sets at that function and share. -/
theorem a_chunkSets (d : Dev nD) (L : grid0.Coords) (q : PosShare TreeShare) (f : Buf (Elt F) (aLoc d)) :
    (aLoc d ↦[tileSet (cL L) (wL L)]{q} f : sProp 𝕄) = bigSep Finset.univ fun k : Fin 16 => aLoc d ↦[chunkSet L k]{q} f := by
  rw [← chunkSet_cover L, pointsTo_biUnion Finset.univ (ℓ := aLoc d) (chunkSet L) (chunkSet_disjoint L)]

/-- The recordings whole, at any share, are the tile's sixteen chunk sets and the rest of the array. -/
theorem a_chunks (d : Dev nD) (L : grid0.Coords) (q : PosShare TreeShare) (f : Buf (Elt F) (aLoc d)) :
    (aLoc d ↦{q} f : sProp 𝕄)
      = iprop((bigSep Finset.univ fun k : Fin 16 => aLoc d ↦[chunkSet L k]{q} f) ∗ aLoc d ↦[Finset.univ \ tileSet (cL L) (wL L)]{q} f) := by
  have hs : (aLoc d ↦{q} f : sProp 𝕄)
      ⊣⊢ iprop((aLoc d ↦[tileSet (cL L) (wL L)]{q} f) ∗ aLoc d ↦[Finset.univ \ tileSet (cL L) (wL L)]{q} f) :=
    pointsTo_split_subset (Finset.subset_univ _)
  rw [BI.equiv_iff.mp ⟨hs.1, hs.2⟩, a_chunkSets]

/-- The tile's part of the result, at one function, is the sixteen chunk sets at that function. -/
theorem o_chunkSets (d : Dev nD) (L : grid0.Coords) (f : Buf (Elt F) (oLoc d)) :
    (oLoc d ↦[tileSet (cL L) (wL L)]{fullShare} f : sProp 𝕄) = bigSep Finset.univ fun k : Fin 16 => oLoc d ↦[chunkSet L k]{fullShare} f := by
  rw [← chunkSet_cover L, pointsTo_biUnion Finset.univ (ℓ := oLoc d) (chunkSet L) (chunkSet_disjoint L)]

/-- A family over the sixteen chunks, written out. -/
theorem bigSep_univ_sixteen (Φ : Fin 16 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-! ## The eight windows of a chunk of the result

Chunk `k`'s 32768 samples are eight windows of 4096: window `h` is samples `32768·(k % 2) + 4096·h … + 4095`, that is the
samples `x` with `x / 4096 = 8·(k % 2) + h`. Distinct windows are disjoint and together they are the chunk. -/

/-- The offsets of window `h` of chunk `k` of the tile at `L`. -/
def subOff (L : grid0.Coords) (k : Fin 16) (h : Fin 8) : Fin 4 → ℕ :=
  ![(L 1).val, 4 * (L 0).val + k.val / 4, (k.val / 2) % 2, 32768 * (k.val % 2) + 4096 * h.val]

theorem subOff_inb (L : grid0.Coords) (k : Fin 16) (h : Fin 8) : ∀ a, subOff L k h a + S1x1x1x4096.size a ≤ S16x8x2x65536.size a := by
  intro a
  have h0 : (L 0).val < 2 := (L 0).isLt
  have h1 : (L 1).val < 16 := (L 1).isLt
  have hk : k.val < 16 := k.isLt
  have hh : h.val < 8 := h.isLt
  match a with
  | 0 => show (L 1).val + 1 ≤ 16; omega
  | 1 => show 4 * (L 0).val + k.val / 4 + 1 ≤ 8; omega
  | 2 => show (k.val / 2) % 2 + 1 ≤ 2; omega
  | 3 => show 32768 * (k.val % 2) + 4096 * h.val + 4096 ≤ 65536; omega

/-- Window `h` of chunk `k` of the result, as the tile's copies name it. -/
abbrev oSubG (L : grid0.Coords) (k : Fin 16) (h : Fin 8) : Memref sig .scVector .hbm S4096 .f32 :=
  ((Memref.whole main_v0_scv : Memref sig .scVector .hbm S16x8x2x65536 .f32).slice
    (Rect.unit (s := S16x8x2x65536) (subOff L k h) S1x1x1x4096.size (subOff_inb L k h)) (fun _ => rfl)).squeeze S4096 squeezes_S1x1x1x4096_S4096

/-- The indices of window `h` of chunk `k`, in closed form. -/
def subSet (L : grid0.Coords) (k : Fin 16) (h : Fin 8) : Finset S16x8x2x65536.Idx :=
  Finset.univ.filter fun i => (i 0).val = (L 1).val ∧ (i 1).val = 4 * (L 0).val + k.val / 4 ∧ (i 2).val = (k.val / 2) % 2
    ∧ (i 3).val / 4096 = 8 * (k.val % 2) + h.val

/-- An index lies in the window's rectangle exactly when its recording, stream and channel are the chunk's and its sample
    lies in the window. -/
theorem mem_subRect (L : grid0.Coords) (k : Fin 16) (h : Fin 8) (i : S16x8x2x65536.Idx) :
    i ∈ (Rect.unit (s := S16x8x2x65536) (subOff L k h) S1x1x1x4096.size (subOff_inb L k h)).set
      ↔ (i 0).val = (L 1).val ∧ (i 1).val = 4 * (L 0).val + k.val / 4 ∧ (i 2).val = (k.val / 2) % 2
        ∧ (i 3).val / 4096 = 8 * (k.val % 2) + h.val := by
  rw [Rect.mem_set_unit]
  constructor
  · intro g
    have g0 : (L 1).val ≤ (i 0).val ∧ (i 0).val < (L 1).val + 1 := g 0
    have g1 : 4 * (L 0).val + k.val / 4 ≤ (i 1).val ∧ (i 1).val < 4 * (L 0).val + k.val / 4 + 1 := g 1
    have g2 : (k.val / 2) % 2 ≤ (i 2).val ∧ (i 2).val < (k.val / 2) % 2 + 1 := g 2
    have g3 : 32768 * (k.val % 2) + 4096 * h.val ≤ (i 3).val ∧ (i 3).val < 32768 * (k.val % 2) + 4096 * h.val + 4096 := g 3
    refine ⟨by omega, by omega, by omega, by omega⟩
  · rintro ⟨e0, e1, e2, e3⟩ a
    match a with
    | 0 => show (L 1).val ≤ (i 0).val ∧ (i 0).val < (L 1).val + 1; omega
    | 1 => show 4 * (L 0).val + k.val / 4 ≤ (i 1).val ∧ (i 1).val < 4 * (L 0).val + k.val / 4 + 1; omega
    | 2 => show (k.val / 2) % 2 ≤ (i 2).val ∧ (i 2).val < (k.val / 2) % 2 + 1; omega
    | 3 => show 32768 * (k.val % 2) + 4096 * h.val ≤ (i 3).val ∧ (i 3).val < 32768 * (k.val % 2) + 4096 * h.val + 4096; omega

/-- The window's elements are its rectangle's. -/
theorem oSubG_rect (L : grid0.Coords) (k : Fin 16) (h : Fin 8) :
    (oSubG L k h).view.set = (Rect.unit (s := S16x8x2x65536) (subOff L k h) S1x1x1x4096.size (subOff_inb L k h)).set :=
  (View.set_reshape _ _).trans (View.set_slice_whole _ _)

theorem mem_oSubG_set (L : grid0.Coords) (k : Fin 16) (h : Fin 8) {i : S16x8x2x65536.Idx} :
    i ∈ (oSubG L k h).view.set
      ↔ (i 0).val = (L 1).val ∧ (i 1).val = 4 * (L 0).val + k.val / 4 ∧ (i 2).val = (k.val / 2) % 2
        ∧ (i 3).val / 4096 = 8 * (k.val % 2) + h.val := by
  rw [oSubG_rect]
  exact mem_subRect L k h i

theorem oSubG_set (L : grid0.Coords) (k : Fin 16) (h : Fin 8) : (oSubG L k h).view.set = subSet L k h :=
  Finset.ext fun i => by rw [mem_oSubG_set]; simp only [subSet, Finset.mem_filter, Finset.mem_univ, true_and]

/-- A window of the result, as the tile's thread names it, is its indices of the result. -/
theorem oSubG_pts (d : Dev nD) (L : grid0.Coords) (k : Fin 16) (h : Fin 8) (f : Buf (Elt F) (oLoc d)) :
    ((oSubG L k h).view.loc (V d (cV L) (jV L)) ↦[(oSubG L k h).view.set]{fullShare} f : sProp 𝕄) = oLoc d ↦[subSet L k h]{fullShare} f := by
  rw [oSubG_set]

/-- A window's indices are its chunk's: a sample in window `h` of half `k % 2` lies in that half. -/
theorem mem_subSet_chunk {L : grid0.Coords} {k : Fin 16} {h : Fin 8} {i : S16x8x2x65536.Idx} : i ∈ subSet L k h → i ∈ chunkSet L k := by
  simp only [subSet, chunkSet, Finset.mem_filter, Finset.mem_univ, true_and]
  rintro ⟨e0, e1, e2, e3⟩
  have hh : h.val < 8 := h.isLt
  exact ⟨e0, e1, e2, by omega⟩

/-- Distinct windows of one chunk share no index. -/
theorem subSet_disjoint (L : grid0.Coords) (k : Fin 16) :
    ∀ h ∈ (Finset.univ : Finset (Fin 8)), ∀ h' ∈ (Finset.univ : Finset (Fin 8)), h ≠ h' → Disjoint (subSet L k h) (subSet L k h') := by
  intro h _ h' _ hne
  unfold subSet
  rw [Finset.disjoint_filter]
  rintro i _ ⟨_, _, _, a3⟩ ⟨_, _, _, b3⟩
  apply hne; apply Fin.ext
  omega

/-- The eight windows are the chunk: the window of a sample is read off its quotient by 4096. -/
theorem subSet_cover (L : grid0.Coords) (k : Fin 16) : (Finset.univ : Finset (Fin 8)).biUnion (subSet L k) = chunkSet L k := by
  ext i
  simp only [Finset.mem_biUnion, Finset.mem_univ, true_and, subSet, chunkSet, Finset.mem_filter]
  constructor
  · rintro ⟨h, e0, e1, e2, e3⟩
    have hh : h.val < 8 := h.isLt
    exact ⟨e0, e1, e2, by omega⟩
  · rintro ⟨e0, e1, e2, e3⟩
    have hi3 : (i 3).val < 65536 := (i 3).isLt
    have hh : (i 3).val / 4096 - 8 * (k.val % 2) < 8 := by omega
    refine ⟨⟨_, hh⟩, e0, e1, e2, ?_⟩
    show (i 3).val / 4096 = 8 * (k.val % 2) + ((i 3).val / 4096 - 8 * (k.val % 2))
    omega

/-- A chunk of the result, at one function, is its eight windows at that function. -/
theorem o_subSets (d : Dev nD) (L : grid0.Coords) (k : Fin 16) (f : Buf (Elt F) (oLoc d)) :
    (oLoc d ↦[chunkSet L k]{fullShare} f : sProp 𝕄) = bigSep Finset.univ fun h : Fin 8 => oLoc d ↦[subSet L k h]{fullShare} f := by
  rw [← subSet_cover L k, pointsTo_biUnion Finset.univ (ℓ := oLoc d) (subSet L k) (subSet_disjoint L k)]

/-- A family over the eight windows, written out. -/
theorem bigSep_univ_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable [FloatOps F]

/-- A staging buffer at some contents, named through the tile's thread, is its words of the shared scratch at some contents. -/
theorem shBuf_ex (d : Dev nD) (L : grid0.Coords) (i : Fin 3) :
    (iprop(∃ f : Buf (Elt F) (shLoc d (cV L)), (shBuf L i).view.loc (V d (cV L) (jV L)) ↦[(shBuf L i).view.set]{fullShare} f) : sProp 𝕄)
      ⊢ iprop(∃ f : Buf (Elt F) (shLoc d (cV L)), shLoc d (cV L) ↦[shPiece L i]{fullShare} f) := by
  iintro ⟨%f, H⟩
  iexists f
  ihave H' := (Entails.of_eq (shBuf_pts d L i f)) $$ H
  iexact H'

/-- The three staging buffers, each at contents of its own, are the tile's slice of the shared scratch at some contents. -/
theorem sh_bufs_join (d : Dev nD) (L : grid0.Coords) :
    (bigSep Finset.univ fun i : Fin 3 =>
        iprop(∃ f : Buf (Elt F) (shLoc d (cV L)), (shBuf L i).view.loc (V d (cV L) (jV L)) ↦[(shBuf L i).view.set]{fullShare} f))
      ⊢ (iprop(∃ f, shLoc d (cV L) ↦[shSet (wL L)]{fullShare} f) : sProp 𝕄) := by
  -- each buffer, named through the tile's thread, is its words of the shared scratch
  refine (SparseCore.ent (bigSep_mono
    (Φ := fun i : Fin 3 => (iprop(∃ f : Buf (Elt F) (shLoc d (cV L)),
      (shBuf L i).view.loc (V d (cV L) (jV L)) ↦[(shBuf L i).view.set]{fullShare} f) : sProp 𝕄))
    (Ψ := fun i : Fin 3 => (iprop(∃ f : Buf (Elt F) (shLoc d (cV L)), shLoc d (cV L) ↦[shPiece L i]{fullShare} f) : sProp 𝕄))
    fun i _ => shBuf_ex d L i)).trans ?_
  -- the three pieces, each at contents of its own, join along their disjoint union
  refine (bigSep_exists_pi Finset.univ (fun i (f : Buf (Elt F) (shLoc d (cV L))) =>
    (shLoc d (cV L) ↦[shPiece L i]{fullShare} f : sProp 𝕄))).trans ?_
  iintro ⟨%fs, H⟩
  ihave H' := (pointsTo_biUnion_join Finset.univ (shPiece L) fs (fs 0) (shPiece_disjoint L)) $$ H
  icases H' with ⟨%g, -, Hg⟩
  rw [shPiece_cover]
  iexists g; iexact Hg

end Cert.Proof.KB

end
-- ==== Proof.KBFlag.lean ====
/-
  The word a tile tests: which stream of its recording is to be silenced.

  The tile copies the 16 stream numbers into its own scratch, overwriting all of it, so a whole load of the scratch reads the
  stream numbers back. A gather of that load at 16 lanes all equal to one recording number `b` reads the stream number of
  recording `b` in every lane; lane 0 of it, compared for equality with a word `sw`, is therefore 1 exactly when the stream
  number of recording `b` is `sw`.
-/
import proofs.«218968_g36790689857971_cont_8to1_b_1381_24_alg».proof.Proof.KBChunks

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- An equality test of two words is 1 exactly when they are equal. -/
theorem cmpi_eq_ite (x y : BitVec 32) : Scalar.cmpi CmpIPredicate.eq x y = if x = y then 1#1 else 0#1 := by
  unfold Scalar.cmpi IntOp.cmpi
  by_cases h : x = y
  · rw [if_pos h, show (x == y) = true from beq_iff_eq.2 h]; rfl
  · rw [if_neg h, show (x == y) = false from beq_false_of_ne h]; rfl

/-- After the copy the tile's scratch holds the stream numbers: a whole load of it reads them back. -/
theorem scratch_after_copy (d : Dev nD) (L : grid0.Coords) (fs : Buf (Elt F) (sLoc d))
    (f0 : Buf (Elt F) ((V d (cV L) (jV L)).loc cc0_scratch0)) :
    View.readAt (Elt F) (Memref.whole cc0_scratch0).view (LoadRect.whole S16)
      (View.write (Elt F) (Memref.whole cc0_scratch0).view f0
        (ReadAs.same.apply (View.read (Elt F) (Memref.whole main_arg1_scv).view fs)) Finset.univ) = fs :=
  (Memref.readAt_whole (Elt F) cc0_scratch0 _).trans (View.write_whole_univ cc0_scratch0 f0 _)

/-- THE FLAG: lane 0 of the gathered stream numbers against `sw` is 1 exactly when recording `bw`'s stream number is `sw`. -/
theorem flag_eq (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (bw : BitVec 32) (hidx : ∀ x, idx x = bw) (hb : bw.toNat < 16) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = if @Eq (BitVec 32) (fs (Idealize.ShloMosaic.ValueIdx.ix1 (⟨bw.toNat, hb⟩ : Fin 16))) sw then 1#1 else 0#1 := by
  rw [scratch_after_copy d L fs f0]
  have key : extractAt ![0] (extractStridedSlice S1 ![0] (loadIdx (F := F) (s := S16) (e := .i32) fs ![idx] h) hs) hp
      = fs (Idealize.ShloMosaic.ValueIdx.ix1 (⟨bw.toNat, hb⟩ : Fin 16)) := by
    unfold extractAt extractStridedSlice loadIdx
    congr 1
    funext a
    obtain rfl : a = 0 := Subsingleton.elim _ _
    refine Fin.ext ?_
    show (idx _).toNat = bw.toNat
    rw [hidx]
  rw [key]
  exact cmpi_eq_ite _ _

/-- The flag against a word known by its value `n`: 1 when the stream number read is `n` … -/
theorem flag_one (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (bw : BitVec 32) (hidx : ∀ x, idx x = bw) (hb : bw.toNat < 16)
    (n : ℕ) (hn : n < 2 ^ 32) (hsw : sw = BitVec.ofNat 32 n)
    (hv : (fs (Idealize.ShloMosaic.ValueIdx.ix1 (⟨bw.toNat, hb⟩ : Fin 16))).toNat = n) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = 1#1 := by
  rw [flag_eq d L fs f0 idx h hs hp sw bw hidx hb]
  refine if_pos ?_
  apply BitVec.eq_of_toNat_eq
  rw [hv, hsw, BitVec.toNat_ofNat, Nat.mod_eq_of_lt hn]

/-- … and 0 when it is not. -/
theorem flag_zero (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (bw : BitVec 32) (hidx : ∀ x, idx x = bw) (hb : bw.toNat < 16)
    (n : ℕ) (hn : n < 2 ^ 32) (hsw : sw = BitVec.ofNat 32 n)
    (hv : (fs (Idealize.ShloMosaic.ValueIdx.ix1 (⟨bw.toNat, hb⟩ : Fin 16))).toNat ≠ n) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = 0#1 := by
  rw [flag_eq d L fs f0 idx h hs hp sw bw hidx hb]
  refine if_neg fun e => hv ?_
  rw [e, hsw, BitVec.toNat_ofNat, Nat.mod_eq_of_lt hn]

/-! ## The flag as the tile's run meets it

Tile `L` — SparseCore `L 0` of 2, vector subcore `L 1` of 16 — gathers at lanes all equal to its own recording number `L 1` and
tests the stream number it reads against each of its own four streams `4 · (L 0) + j`, `j < 4`. -/

/-- The recording number of tile `L`, as a word, reads back as the recording's index. -/
theorem lane_eq (L : grid0.Coords) (hb : (BitVec.ofNat 32 (L 1).val).toNat < 16) :
    (⟨(BitVec.ofNat 32 (L 1).val).toNat, hb⟩ : Fin 16) = wL L := by
  have h1 : (L 1).val < 16 := (L 1).isLt
  refine Fin.ext ?_
  show (BitVec.ofNat 32 (L 1).val).toNat = (L 1).val
  rw [BitVec.toNat_ofNat]; omega

/-- The flag of tile `L` against its `j`-th stream: 1 exactly when the stream number of the tile's recording is that stream. -/
theorem flag_lit (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (j : ℕ) (hj : j < 4) (hidx : ∀ x, idx x = BitVec.ofNat 32 (L 1).val)
    (hsw : sw = BitVec.ofNat 32 (4 * (L 0).val + j)) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = if (fs (Idealize.ShloMosaic.ValueIdx.ix1 (wL L))).toNat = 4 * (L 0).val + j then 1#1 else 0#1 := by
  have h1 : (L 1).val < 16 := (L 1).isLt
  have h0 : (L 0).val < 2 := (L 0).isLt
  have hb : (BitVec.ofNat 32 (L 1).val).toNat < 16 := by rw [BitVec.toNat_ofNat]; omega
  by_cases hv : (fs (Idealize.ShloMosaic.ValueIdx.ix1 (wL L))).toNat = 4 * (L 0).val + j
  · rw [if_pos hv]
    exact flag_one d L fs f0 idx h hs hp sw _ hidx hb (4 * (L 0).val + j) (by omega) hsw (by rw [lane_eq L hb]; exact hv)
  · rw [if_neg hv]
    exact flag_zero d L fs f0 idx h hs hp sw _ hidx hb (4 * (L 0).val + j) (by omega) hsw (by rw [lane_eq L hb]; exact hv)

/-- … 1 when it is that stream … -/
theorem flag_lit_one (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (j : ℕ) (hj : j < 4) (hidx : ∀ x, idx x = BitVec.ofNat 32 (L 1).val)
    (hsw : sw = BitVec.ofNat 32 (4 * (L 0).val + j))
    (hv : (fs (Idealize.ShloMosaic.ValueIdx.ix1 (wL L))).toNat = 4 * (L 0).val + j) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = 1#1 := by
  rw [flag_lit d L fs f0 idx h hs hp sw j hj hidx hsw]
  exact if_pos hv

/-- … and 0 when it is not. -/
theorem flag_lit_zero (d : Dev nD) (L : grid0.Coords) (fs : Buf (Elt F) (sLoc d))
    (f0 : Buf (Elt F) ((V d (cV L) (jV L)).loc cc0_scratch0)) (idx : IVec S16 32)
    (h : ∀ a x, ((![idx] : Fin 1 → IVec S16 32) a x).toNat < S16.size a) (hs : S16.Slices ![0] S1)
    (hp : ∀ a, (![0] : Fin 1 → Nat) a < S1.size a) (sw : BitVec 32)
    (j : ℕ) (hj : j < 4) (hidx : ∀ x, idx x = BitVec.ofNat 32 (L 1).val)
    (hsw : sw = BitVec.ofNat 32 (4 * (L 0).val + j))
    (hv : (fs (Idealize.ShloMosaic.ValueIdx.ix1 (wL L))).toNat ≠ 4 * (L 0).val + j) :
    Scalar.cmpi CmpIPredicate.eq
      (extractAt ![0]
        (extractStridedSlice S1 ![0]
          (loadIdx
            (View.readAt (Elt F) (Memref.whole cc0_scratch0).view (LoadRect.whole S16)
              (View.write (Elt F) (Memref.whole cc0_scratch0).view f0
                (ReadAs.same.apply (View.read (Elt F) (Memref.whole main_arg1_scv).view fs)) Finset.univ))
            ![idx] h)
          hs)
        hp)
      sw = 0#1 := by
  rw [flag_lit d L fs f0 idx h hs hp sw j hj hidx hsw]
  exact if_neg hv

end Cert.Proof.KB

end
-- ==== Proof.KBZero.lean ====
/-
  The zero buffer: what the zero-filling loop leaves in a tile's 4096-word scratch.

  The loop runs 16 trips; trip k stores the 16-lane zero vector at words 256·k + 16·u … 256·k + 16·u + 15 for u = 0 … 15.
  A word below 256·k lies under none of these sixteen stores, so the trip leaves it as it was; a word j with
  256·k ≤ j < 256·(k + 1) lies under the store u = (j − 256·k) / 16, and since every store of the trip writes the same
  constant, whichever store wrote it last, it now holds zero. So if the first 256·k words were zero before trip k, the
  first 256·(k + 1) are after it, and after 16 trips all 4096 are.
-/
import proofs.«218968_g36790689857971_cont_8to1_b_1381_24_alg».proof.Proof.KBSetup

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Writes of one constant -/

/-- After a list of writes whose payloads are all the constant `z`, an element under some written rectangle reads `z`. -/
theorem read_writes_const {sig : RefSig} {κ : Kind} {sp : Space} {s : Shape} {e : EltTy} {Val : EltTy → Type}
    (v : View sig κ sp s e) (f : v.ty.Contents Val) (z : Val e) (y : s.Idx) :
    ∀ Ls : List (View.Piece Val s e), (∀ p ∈ Ls, ∀ x, p.2 x = z) → (∃ p ∈ Ls, y ∈ p.1.set) →
      v.read Val (v.writes Val f Ls) y = z
  | [], _, h => by obtain ⟨p, hp, _⟩ := h; cases hp
  | p :: Ls, hz, h => by
    by_cases hy : y ∈ p.1.set
    · rw [← Rect.map_emb_univ, Finset.mem_map] at hy
      obtain ⟨x, -, rfl⟩ := hy
      obtain ⟨r, w⟩ := p
      rw [View.read_writes_cons_emb]
      exact hz _ List.mem_cons_self x
    · rw [View.writes_cons, View.read_slice_write_of_not_mem p.1 _ _ _ (by rw [Rect.map_emb_univ]; exact hy)]
      refine read_writes_const v f z y Ls (fun p' hp' => hz p' (List.mem_cons_of_mem _ hp')) ?_
      obtain ⟨q, hq, hyq⟩ := h
      rcases List.mem_cons.1 hq with rfl | hq
      · exact absurd hyq hy
      · exact ⟨q, hq, hyq⟩

/-! ## One trip of the zero-filling loop -/

/-- The loop runs 16 trips. -/
theorem trips_eq : k0_t1_loop.trips = 16 := by decide

/-- The first `n` words of the buffer are zero. -/
def ZeroUpTo (n : ℕ) (f : S4096.Idx → Elt F .f32) : Prop :=
  ∀ j : S4096.Idx, (j 0).val < n → f j = (FloatOps.ofBits .f32 0x00000000#32 : F .f32)

/-- The sixteen stores of a trip, newest first. -/
abbrev lanes : List (Fin 16) := [15, 14, 13, 12, 11, 10, 9, 8, 7, 6, 5, 4, 3, 2, 1, 0]
theorem mem_lanes : ∀ u : Fin 16, u ∈ lanes := by decide

/-- Store `u` of trip `k`: the 16-lane zero vector at words 256·k + 16·u … 256·k + 16·u + 15. -/
def piece (k : Fin k0_t1_loop.trips) (u : Fin 16) : View.Piece (Elt F) S4096 .f32 :=
  ⟨Rect.unit (k0_off3 k (BitVec.ofNat 32 u.val)) S16.size (Gen.k0_off3_inb k u), k0_pay9⟩

/-- Word `j` lies under store `u` of trip `k` exactly when 256·k + 16·u ≤ j < 256·k + 16·u + 16. -/
theorem mem_piece (k : Fin k0_t1_loop.trips) (u : Fin 16) (j : S4096.Idx) :
    j ∈ (piece (F := F) k u).1.set ↔ 256 * k.val + 16 * u.val ≤ (j 0).val ∧ (j 0).val < 256 * k.val + 16 * u.val + 16 := by
  unfold piece
  rw [Rect.mem_set_unit, Gen.k0_off3_eq]
  constructor
  · intro h; exact h 0
  · intro h a; obtain rfl : a = 0 := Subsingleton.elim _ _; exact h

/-- ONE TRIP: from a buffer whose first 256·k words are zero, trip `k`'s sixteen stores leave the first 256·(k + 1) zero. -/
theorem zero_step (d : Dev nD) (L : grid0.Coords) (k : Fin k0_t1_loop.trips)
    (f : Buf (Elt F) ((Memref.whole cc0_scratch1 : Memref sig .scVector .vmem S4096 .f32).view.loc (V d (cV L) (jV L))))
    (hf : ZeroUpTo (256 * k.val) f) :
    ZeroUpTo (256 * (k.val + 1))
      ((Memref.whole cc0_scratch1).view.writes (Elt F) f
        [⟨Rect.unit (k0_off3 k 15#32) S16.size (Gen.k0_off3_inb k 15), k0_pay9⟩,
        ⟨Rect.unit (k0_off3 k 14#32) S16.size (Gen.k0_off3_inb k 14), k0_pay9⟩,
        ⟨Rect.unit (k0_off3 k 13#32) S16.size (Gen.k0_off3_inb k 13), k0_pay9⟩,
        ⟨Rect.unit (k0_off3 k 12#32) S16.size (Gen.k0_off3_inb k 12), k0_pay9⟩,
        ⟨Rect.unit (k0_off3 k 11#32) S16.size (Gen.k0_off3_inb k 11), k0_pay9⟩,
        ⟨Rect.unit (k0_off3 k 10#32) S16.size (Gen.k0_off3_inb k 10), k0_pay9⟩,
        ⟨Rect.unit (k0_off3 k 9#32) S16.size (Gen.k0_off3_inb k 9), k0_pay9⟩,
        ⟨Rect.unit (k0_off3 k 8#32) S16.size (Gen.k0_off3_inb k 8), k0_pay9⟩,
        ⟨Rect.unit (k0_off3 k 7#32) S16.size (Gen.k0_off3_inb k 7), k0_pay9⟩,
        ⟨Rect.unit (k0_off3 k 6#32) S16.size (Gen.k0_off3_inb k 6), k0_pay9⟩,
        ⟨Rect.unit (k0_off3 k 5#32) S16.size (Gen.k0_off3_inb k 5), k0_pay9⟩,
        ⟨Rect.unit (k0_off3 k 4#32) S16.size (Gen.k0_off3_inb k 4), k0_pay9⟩,
        ⟨Rect.unit (k0_off3 k 3#32) S16.size (Gen.k0_off3_inb k 3), k0_pay9⟩,
        ⟨Rect.unit (k0_off3 k 2#32) S16.size (Gen.k0_off3_inb k 2), k0_pay9⟩,
        ⟨Rect.unit (k0_off3 k 1#32) S16.size (Gen.k0_off3_inb k 1), k0_pay9⟩,
        ⟨Rect.unit (k0_off3 k 0#32) S16.size (Gen.k0_off3_inb k 0), k0_pay9⟩]) := by
  intro j hj
  show (Memref.whole cc0_scratch1).view.read (Elt F)
    ((Memref.whole cc0_scratch1).view.writes (Elt F) f (lanes.map (piece k))) j = _
  by_cases hlt : (j 0).val < 256 * k.val
  · rw [View.read_writes_apply_of_forall_not_mem _ _ j _ ?_]
    · exact hf j hlt
    · intro p hp
      obtain ⟨u, -, rfl⟩ := List.mem_map.1 hp
      rw [mem_piece]; omega
  · have hk : k.val < 16 := Nat.lt_of_lt_of_le k.isLt (Nat.le_of_eq trips_eq)
    refine read_writes_const (Val := Elt F) (Memref.whole cc0_scratch1).view f _ j _ ?_ ?_
    · intro p hp x
      obtain ⟨u, -, rfl⟩ := List.mem_map.1 hp
      rfl
    · refine ⟨piece k ⟨((j 0).val - 256 * k.val) / 16, by omega⟩, List.mem_map.2 ⟨_, mem_lanes _, rfl⟩, ?_⟩
      rw [mem_piece]
      show 256 * k.val + 16 * (((j 0).val - 256 * k.val) / 16) ≤ (j 0).val ∧ (j 0).val < 256 * k.val + 16 * (((j 0).val - 256 * k.val) / 16) + 16
      omega

/-- ALL TRIPS: a buffer whose first 256·16 words are zero is zero everywhere. -/
theorem zero_all (f : S4096.Idx → Elt F .f32) (hf : ZeroUpTo (256 * k0_t1_loop.trips) f) :
    ∀ j, f j = (FloatOps.ofBits .f32 0x00000000#32 : F .f32) := by
  intro j
  refine hf j ?_
  rw [trips_eq]
  exact (j 0).isLt

end Cert.Proof.KB

end
-- ==== Proof.KBTile.lean ====
import proofs.«218968_g36790689857971_cont_8to1_b_1381_24_alg».proof.Proof.KBSetup
import proofs.«218968_g36790689857971_cont_8to1_b_1381_24_alg».proof.Proof.KBChunks
import proofs.«218968_g36790689857971_cont_8to1_b_1381_24_alg».proof.Proof.KBFlag
import proofs.«218968_g36790689857971_cont_8to1_b_1381_24_alg».proof.Proof.KBZero

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.Kernel.main_arg0_scv : Memref Cert.Kernel.sig Kind.scVector Space.hbm Cert.Kernel.S16x8x2x65536 EltTy.f32)
local notation "sW" => (Memref.whole Cert.Kernel.main_arg1_scv : Memref Cert.Kernel.sig Kind.scVector Space.hbm Cert.Kernel.S16 EltTy.i32)
local notation "oW" => (Memref.whole Cert.Kernel.main_v0_scv : Memref Cert.Kernel.sig Kind.scVector Space.hbm Cert.Kernel.S16x8x2x65536 EltTy.f32)
local notation "b0W" => (Memref.whole Cert.Kernel.cc0_scratch0 : Memref Cert.Kernel.sig Kind.scVector Space.vmem Cert.Kernel.S16 EltTy.i32)
local notation "b1W" => (Memref.whole Cert.Kernel.cc0_scratch1 : Memref Cert.Kernel.sig Kind.scVector Space.vmem Cert.Kernel.S4096 EltTy.f32)
local notation "shW" => (Memref.whole Cert.Kernel.cc0_scratch2 : Memref Cert.Kernel.sig Kind.scVector Space.shared Cert.Kernel.S1572864 EltTy.f32)

/-! ## The pieces a tile's copies move, each under one name

Chunk k of tile (c, w) is samples 32768·(k % 2) … of channel (k / 2) % 2 of stream 4c + k / 4 of recording w, of the
recordings (`aCh`) and of the result (`oCh`); window h of chunk k of the result (`oSub`) is its samples 4096·h …;
staging buffer i (`shB`) is words 98304·w + 32768·i … of the shared scratch. Each is defined with its offsets as one
vector of index terms — the form the offset chains' closed forms have — and is the piece the general formula defines. -/

theorem inb_ch {L : grid0.Coords} {a b T : ℕ} (ha : a < 4) (hb : b < 2) (hT : T + 32768 ≤ 65536) :
    ∀ x, (![(L 1).val, 4 * (L 0).val + a, b, T] : Fin 4 → ℕ) x + S1x1x1x32768.size x ≤ S16x8x2x65536.size x := by
  have h0 := (L 0).isLt; have h1 := (L 1).isLt
  have e0 : grid0.bound 0 = 2 := rfl
  have e1 : grid0.bound 1 = 16 := rfl
  intro x; fin_cases x <;> simp <;> omega
theorem inb_sub {L : grid0.Coords} {a b T : ℕ} (ha : a < 4) (hb : b < 2) (hT : T + 4096 ≤ 65536) :
    ∀ x, (![(L 1).val, 4 * (L 0).val + a, b, T] : Fin 4 → ℕ) x + S1x1x1x4096.size x ≤ S16x8x2x65536.size x := by
  have h0 := (L 0).isLt; have h1 := (L 1).isLt
  have e0 : grid0.bound 0 = 2 := rfl
  have e1 : grid0.bound 1 = 16 := rfl
  intro x; fin_cases x <;> simp <;> omega

def oCh0 (L : grid0.Coords) : Memref sig .scVector .hbm S32768 .f32 :=
  ((oW).slice (Rect.unit (s := S16x8x2x65536) ![(L 1).val, 4 * (L 0).val + 0, 0, 0] S1x1x1x32768.size (inb_ch (by decide) (by decide) (by decide))) (fun _ => rfl)).squeeze S32768 squeezes_S1x1x1x32768_S32768
def aCh0 (L : grid0.Coords) : Memref sig .scVector .hbm S32768 .f32 :=
  ((aW).slice (Rect.unit (s := S16x8x2x65536) ![(L 1).val, 4 * (L 0).val + 0, 0, 0] S1x1x1x32768.size (inb_ch (by decide) (by decide) (by decide))) (fun _ => rfl)).squeeze S32768 squeezes_S1x1x1x32768_S32768
def oCh1 (L : grid0.Coords) : Memref sig .scVector .hbm S32768 .f32 :=
  ((oW).slice (Rect.unit (s := S16x8x2x65536) ![(L 1).val, 4 * (L 0).val + 0, 0, 32768] S1x1x1x32768.size (inb_ch (by decide) (by decide) (by decide))) (fun _ => rfl)).squeeze S32768 squeezes_S1x1x1x32768_S32768
def aCh1 (L : grid0.Coords) : Memref sig .scVector .hbm S32768 .f32 :=
  ((aW).slice (Rect.unit (s := S16x8x2x65536) ![(L 1).val, 4 * (L 0).val + 0, 0, 32768] S1x1x1x32768.size (inb_ch (by decide) (by decide) (by decide))) (fun _ => rfl)).squeeze S32768 squeezes_S1x1x1x32768_S32768
def oCh2 (L : grid0.Coords) : Memref sig .scVector .hbm S32768 .f32 :=
  ((oW).slice (Rect.unit (s := S16x8x2x65536) ![(L 1).val, 4 * (L 0).val + 0, 1, 0] S1x1x1x32768.size (inb_ch (by decide) (by decide) (by decide))) (fun _ => rfl)).squeeze S32768 squeezes_S1x1x1x32768_S32768
def aCh2 (L : grid0.Coords) : Memref sig .scVector .hbm S32768 .f32 :=
  ((aW).slice (Rect.unit (s := S16x8x2x65536) ![(L 1).val, 4 * (L 0).val + 0, 1, 0] S1x1x1x32768.size (inb_ch (by decide) (by decide) (by decide))) (fun _ => rfl)).squeeze S32768 squeezes_S1x1x1x32768_S32768
def oCh3 (L : grid0.Coords) : Memref sig .scVector .hbm S32768 .f32 :=
  ((oW).slice (Rect.unit (s := S16x8x2x65536) ![(L 1).val, 4 * (L 0).val + 0, 1, 32768] S1x1x1x32768.size (inb_ch (by decide) (by decide) (by decide))) (fun _ => rfl)).squeeze S32768 squeezes_S1x1x1x32768_S32768
def aCh3 (L : grid0.Coords) : Memref sig .scVector .hbm S32768 .f32 :=
  ((aW).slice (Rect.unit (s := S16x8x2x65536) ![(L 1).val, 4 * (L 0).val + 0, 1, 32768] S1x1x1x32768.size (inb_ch (by decide) (by decide) (by decide))) (fun _ => rfl)).squeeze S32768 squeezes_S1x1x1x32768_S32768
def oCh4 (L : grid0.Coords) : Memref sig .scVector .hbm S32768 .f32 :=
  ((oW).slice (Rect.unit (s := S16x8x2x65536) ![(L 1).val, 4 * (L 0).val + 1, 0, 0] S1x1x1x32768.size (inb_ch (by decide) (by decide) (by decide))) (fun _ => rfl)).squeeze S32768 squeezes_S1x1x1x32768_S32768
def aCh4 (L : grid0.Coords) : Memref sig .scVector .hbm S32768 .f32 :=
  ((aW).slice (Rect.unit (s := S16x8x2x65536) ![(L 1).val, 4 * (L 0).val + 1, 0, 0] S1x1x1x32768.size (inb_ch (by decide) (by decide) (by decide))) (fun _ => rfl)).squeeze S32768 squeezes_S1x1x1x32768_S32768
def oCh5 (L : grid0.Coords) : Memref sig .scVector .hbm S32768 .f32 :=
  ((oW).slice (Rect.unit (s := S16x8x2x65536) ![(L 1).val, 4 * (L 0).val + 1, 0, 32768] S1x1x1x32768.size (inb_ch (by decide) (by decide) (by decide))) (fun _ => rfl)).squeeze S32768 squeezes_S1x1x1x32768_S32768
def aCh5 (L : grid0.Coords) : Memref sig .scVector .hbm S32768 .f32 :=
  ((aW).slice (Rect.unit (s := S16x8x2x65536) ![(L 1).val, 4 * (L 0).val + 1, 0, 32768] S1x1x1x32768.size (inb_ch (by decide) (by decide) (by decide))) (fun _ => rfl)).squeeze S32768 squeezes_S1x1x1x32768_S32768
def oCh6 (L : grid0.Coords) : Memref sig .scVector .hbm S32768 .f32 :=
  ((oW).slice (Rect.unit (s := S16x8x2x65536) ![(L 1).val, 4 * (L 0).val + 1, 1, 0] S1x1x1x32768.size (inb_ch (by decide) (by decide) (by decide))) (fun _ => rfl)).squeeze S32768 squeezes_S1x1x1x32768_S32768
def aCh6 (L : grid0.Coords) : Memref sig .scVector .hbm S32768 .f32 :=
  ((aW).slice (Rect.unit (s := S16x8x2x65536) ![(L 1).val, 4 * (L 0).val + 1, 1, 0] S1x1x1x32768.size (inb_ch (by decide) (by decide) (by decide))) (fun _ => rfl)).squeeze S32768 squeezes_S1x1x1x32768_S32768
def oCh7 (L : grid0.Coords) : Memref sig .scVector .hbm S32768 .f32 :=
  ((oW).slice (Rect.unit (s := S16x8x2x65536) ![(L 1).val, 4 * (L 0).val + 1, 1, 32768] S1x1x1x32768.size (inb_ch (by decide) (by decide) (by decide))) (fun _ => rfl)).squeeze S32768 squeezes_S1x1x1x32768_S32768
def aCh7 (L : grid0.Coords) : Memref sig .scVector .hbm S32768 .f32 :=
  ((aW).slice (Rect.unit (s := S16x8x2x65536) ![(L 1).val, 4 * (L 0).val + 1, 1, 32768] S1x1x1x32768.size (inb_ch (by decide) (by decide) (by decide))) (fun _ => rfl)).squeeze S32768 squeezes_S1x1x1x32768_S32768
def oCh8 (L : grid0.Coords) : Memref sig .scVector .hbm S32768 .f32 :=
  ((oW).slice (Rect.unit (s := S16x8x2x65536) ![(L 1).val, 4 * (L 0).val + 2, 0, 0] S1x1x1x32768.size (inb_ch (by decide) (by decide) (by decide))) (fun _ => rfl)).squeeze S32768 squeezes_S1x1x1x32768_S32768
def aCh8 (L : grid0.Coords) : Memref sig .scVector .hbm S32768 .f32 :=
  ((aW).slice (Rect.unit (s := S16x8x2x65536) ![(L 1).val, 4 * (L 0).val + 2, 0, 0] S1x1x1x32768.size (inb_ch (by decide) (by decide) (by decide))) (fun _ => rfl)).squeeze S32768 squeezes_S1x1x1x32768_S32768
def oCh9 (L : grid0.Coords) : Memref sig .scVector .hbm S32768 .f32 :=
  ((oW).slice (Rect.unit (s := S16x8x2x65536) ![(L 1).val, 4 * (L 0).val + 2, 0, 32768] S1x1x1x32768.size (inb_ch (by decide) (by decide) (by decide))) (fun _ => rfl)).squeeze S32768 squeezes_S1x1x1x32768_S32768
def aCh9 (L : grid0.Coords) : Memref sig .scVector .hbm S32768 .f32 :=
  ((aW).slice (Rect.unit (s := S16x8x2x65536) ![(L 1).val, 4 * (L 0).val + 2, 0, 32768] S1x1x1x32768.size (inb_ch (by decide) (by decide) (by decide))) (fun _ => rfl)).squeeze S32768 squeezes_S1x1x1x32768_S32768
def oCh10 (L : grid0.Coords) : Memref sig .scVector .hbm S32768 .f32 :=
  ((oW).slice (Rect.unit (s := S16x8x2x65536) ![(L 1).val, 4 * (L 0).val + 2, 1, 0] S1x1x1x32768.size (inb_ch (by decide) (by decide) (by decide))) (fun _ => rfl)).squeeze S32768 squeezes_S1x1x1x32768_S32768
def aCh10 (L : grid0.Coords) : Memref sig .scVector .hbm S32768 .f32 :=
  ((aW).slice (Rect.unit (s := S16x8x2x65536) ![(L 1).val, 4 * (L 0).val + 2, 1, 0] S1x1x1x32768.size (inb_ch (by decide) (by decide) (by decide))) (fun _ => rfl)).squeeze S32768 squeezes_S1x1x1x32768_S32768
def oCh11 (L : grid0.Coords) : Memref sig .scVector .hbm S32768 .f32 :=
  ((oW).slice (Rect.unit (s := S16x8x2x65536) ![(L 1).val, 4 * (L 0).val + 2, 1, 32768] S1x1x1x32768.size (inb_ch (by decide) (by decide) (by decide))) (fun _ => rfl)).squeeze S32768 squeezes_S1x1x1x32768_S32768
def aCh11 (L : grid0.Coords) : Memref sig .scVector .hbm S32768 .f32 :=
  ((aW).slice (Rect.unit (s := S16x8x2x65536) ![(L 1).val, 4 * (L 0).val + 2, 1, 32768] S1x1x1x32768.size (inb_ch (by decide) (by decide) (by decide))) (fun _ => rfl)).squeeze S32768 squeezes_S1x1x1x32768_S32768
def oCh12 (L : grid0.Coords) : Memref sig .scVector .hbm S32768 .f32 :=
  ((oW).slice (Rect.unit (s := S16x8x2x65536) ![(L 1).val, 4 * (L 0).val + 3, 0, 0] S1x1x1x32768.size (inb_ch (by decide) (by decide) (by decide))) (fun _ => rfl)).squeeze S32768 squeezes_S1x1x1x32768_S32768
def aCh12 (L : grid0.Coords) : Memref sig .scVector .hbm S32768 .f32 :=
  ((aW).slice (Rect.unit (s := S16x8x2x65536) ![(L 1).val, 4 * (L 0).val + 3, 0, 0] S1x1x1x32768.size (inb_ch (by decide) (by decide) (by decide))) (fun _ => rfl)).squeeze S32768 squeezes_S1x1x1x32768_S32768
def oCh13 (L : grid0.Coords) : Memref sig .scVector .hbm S32768 .f32 :=
  ((oW).slice (Rect.unit (s := S16x8x2x65536) ![(L 1).val, 4 * (L 0).val + 3, 0, 32768] S1x1x1x32768.size (inb_ch (by decide) (by decide) (by decide))) (fun _ => rfl)).squeeze S32768 squeezes_S1x1x1x32768_S32768
def aCh13 (L : grid0.Coords) : Memref sig .scVector .hbm S32768 .f32 :=
  ((aW).slice (Rect.unit (s := S16x8x2x65536) ![(L 1).val, 4 * (L 0).val + 3, 0, 32768] S1x1x1x32768.size (inb_ch (by decide) (by decide) (by decide))) (fun _ => rfl)).squeeze S32768 squeezes_S1x1x1x32768_S32768
def oCh14 (L : grid0.Coords) : Memref sig .scVector .hbm S32768 .f32 :=
  ((oW).slice (Rect.unit (s := S16x8x2x65536) ![(L 1).val, 4 * (L 0).val + 3, 1, 0] S1x1x1x32768.size (inb_ch (by decide) (by decide) (by decide))) (fun _ => rfl)).squeeze S32768 squeezes_S1x1x1x32768_S32768
def aCh14 (L : grid0.Coords) : Memref sig .scVector .hbm S32768 .f32 :=
  ((aW).slice (Rect.unit (s := S16x8x2x65536) ![(L 1).val, 4 * (L 0).val + 3, 1, 0] S1x1x1x32768.size (inb_ch (by decide) (by decide) (by decide))) (fun _ => rfl)).squeeze S32768 squeezes_S1x1x1x32768_S32768
def oCh15 (L : grid0.Coords) : Memref sig .scVector .hbm S32768 .f32 :=
  ((oW).slice (Rect.unit (s := S16x8x2x65536) ![(L 1).val, 4 * (L 0).val + 3, 1, 32768] S1x1x1x32768.size (inb_ch (by decide) (by decide) (by decide))) (fun _ => rfl)).squeeze S32768 squeezes_S1x1x1x32768_S32768
def aCh15 (L : grid0.Coords) : Memref sig .scVector .hbm S32768 .f32 :=
  ((aW).slice (Rect.unit (s := S16x8x2x65536) ![(L 1).val, 4 * (L 0).val + 3, 1, 32768] S1x1x1x32768.size (inb_ch (by decide) (by decide) (by decide))) (fun _ => rfl)).squeeze S32768 squeezes_S1x1x1x32768_S32768
def shB0 (L : grid0.Coords) : Memref sig .scVector .shared S32768 .f32 :=
  (shW).slice (Rect.unit (s := S1572864) ![98304 * (L 1).val] S32768.size (shOff_inb L 0)) (fun _ => rfl)
def shB1 (L : grid0.Coords) : Memref sig .scVector .shared S32768 .f32 :=
  (shW).slice (Rect.unit (s := S1572864) ![98304 * (L 1).val + 32768] S32768.size (shOff_inb L 1)) (fun _ => rfl)
def shB2 (L : grid0.Coords) : Memref sig .scVector .shared S32768 .f32 :=
  (shW).slice (Rect.unit (s := S1572864) ![98304 * (L 1).val + 65536] S32768.size (shOff_inb L 2)) (fun _ => rfl)

/-- Window h of chunk k of the result, under one name. -/
def oSub (L : grid0.Coords) (k : Fin 16) (h : Fin 8) : Memref sig .scVector .hbm S4096 .f32 := oSubG L k h

variable (d : Dev nD) (L : grid0.Coords)

theorem osub_pts (k : Fin 16) (h : Fin 8) (f : Buf (Elt F) (oLoc d)) :
    ((oSub L k h).view.loc (V d (cV L) (jV L)) ↦[(oSub L k h).view.set]{fullShare} f : sProp 𝕄) = oLoc d ↦[subSet L k h]{fullShare} f := oSubG_pts d L k h f

theorem och_pts0 (f : Buf (Elt F) (oLoc d)) :
    ((oCh0 L).view.loc (V d (cV L) (jV L)) ↦[(oCh0 L).view.set]{fullShare} f : sProp 𝕄) = oLoc d ↦[chunkSet L 0]{fullShare} f := oChunk_pts d L 0 f
theorem och_pts1 (f : Buf (Elt F) (oLoc d)) :
    ((oCh1 L).view.loc (V d (cV L) (jV L)) ↦[(oCh1 L).view.set]{fullShare} f : sProp 𝕄) = oLoc d ↦[chunkSet L 1]{fullShare} f := oChunk_pts d L 1 f
theorem och_pts2 (f : Buf (Elt F) (oLoc d)) :
    ((oCh2 L).view.loc (V d (cV L) (jV L)) ↦[(oCh2 L).view.set]{fullShare} f : sProp 𝕄) = oLoc d ↦[chunkSet L 2]{fullShare} f := oChunk_pts d L 2 f
theorem och_pts3 (f : Buf (Elt F) (oLoc d)) :
    ((oCh3 L).view.loc (V d (cV L) (jV L)) ↦[(oCh3 L).view.set]{fullShare} f : sProp 𝕄) = oLoc d ↦[chunkSet L 3]{fullShare} f := oChunk_pts d L 3 f
theorem och_pts4 (f : Buf (Elt F) (oLoc d)) :
    ((oCh4 L).view.loc (V d (cV L) (jV L)) ↦[(oCh4 L).view.set]{fullShare} f : sProp 𝕄) = oLoc d ↦[chunkSet L 4]{fullShare} f := oChunk_pts d L 4 f
theorem och_pts5 (f : Buf (Elt F) (oLoc d)) :
    ((oCh5 L).view.loc (V d (cV L) (jV L)) ↦[(oCh5 L).view.set]{fullShare} f : sProp 𝕄) = oLoc d ↦[chunkSet L 5]{fullShare} f := oChunk_pts d L 5 f
theorem och_pts6 (f : Buf (Elt F) (oLoc d)) :
    ((oCh6 L).view.loc (V d (cV L) (jV L)) ↦[(oCh6 L).view.set]{fullShare} f : sProp 𝕄) = oLoc d ↦[chunkSet L 6]{fullShare} f := oChunk_pts d L 6 f
theorem och_pts7 (f : Buf (Elt F) (oLoc d)) :
    ((oCh7 L).view.loc (V d (cV L) (jV L)) ↦[(oCh7 L).view.set]{fullShare} f : sProp 𝕄) = oLoc d ↦[chunkSet L 7]{fullShare} f := oChunk_pts d L 7 f
theorem och_pts8 (f : Buf (Elt F) (oLoc d)) :
    ((oCh8 L).view.loc (V d (cV L) (jV L)) ↦[(oCh8 L).view.set]{fullShare} f : sProp 𝕄) = oLoc d ↦[chunkSet L 8]{fullShare} f := oChunk_pts d L 8 f
theorem och_pts9 (f : Buf (Elt F) (oLoc d)) :
    ((oCh9 L).view.loc (V d (cV L) (jV L)) ↦[(oCh9 L).view.set]{fullShare} f : sProp 𝕄) = oLoc d ↦[chunkSet L 9]{fullShare} f := oChunk_pts d L 9 f
theorem och_pts10 (f : Buf (Elt F) (oLoc d)) :
    ((oCh10 L).view.loc (V d (cV L) (jV L)) ↦[(oCh10 L).view.set]{fullShare} f : sProp 𝕄) = oLoc d ↦[chunkSet L 10]{fullShare} f := oChunk_pts d L 10 f
theorem och_pts11 (f : Buf (Elt F) (oLoc d)) :
    ((oCh11 L).view.loc (V d (cV L) (jV L)) ↦[(oCh11 L).view.set]{fullShare} f : sProp 𝕄) = oLoc d ↦[chunkSet L 11]{fullShare} f := oChunk_pts d L 11 f
theorem och_pts12 (f : Buf (Elt F) (oLoc d)) :
    ((oCh12 L).view.loc (V d (cV L) (jV L)) ↦[(oCh12 L).view.set]{fullShare} f : sProp 𝕄) = oLoc d ↦[chunkSet L 12]{fullShare} f := oChunk_pts d L 12 f
theorem och_pts13 (f : Buf (Elt F) (oLoc d)) :
    ((oCh13 L).view.loc (V d (cV L) (jV L)) ↦[(oCh13 L).view.set]{fullShare} f : sProp 𝕄) = oLoc d ↦[chunkSet L 13]{fullShare} f := oChunk_pts d L 13 f
theorem och_pts14 (f : Buf (Elt F) (oLoc d)) :
    ((oCh14 L).view.loc (V d (cV L) (jV L)) ↦[(oCh14 L).view.set]{fullShare} f : sProp 𝕄) = oLoc d ↦[chunkSet L 14]{fullShare} f := oChunk_pts d L 14 f
theorem och_pts15 (f : Buf (Elt F) (oLoc d)) :
    ((oCh15 L).view.loc (V d (cV L) (jV L)) ↦[(oCh15 L).view.set]{fullShare} f : sProp 𝕄) = oLoc d ↦[chunkSet L 15]{fullShare} f := oChunk_pts d L 15 f
theorem shb_pts0 (f : Buf (Elt F) (shLoc d (cV L))) :
    ((shB0 L).view.loc (V d (cV L) (jV L)) ↦[(shB0 L).view.set]{fullShare} f : sProp 𝕄) = shLoc d (cV L) ↦[shPiece L 0]{fullShare} f := shBuf_pts d L 0 f
theorem shb_pts1 (f : Buf (Elt F) (shLoc d (cV L))) :
    ((shB1 L).view.loc (V d (cV L) (jV L)) ↦[(shB1 L).view.set]{fullShare} f : sProp 𝕄) = shLoc d (cV L) ↦[shPiece L 1]{fullShare} f := shBuf_pts d L 1 f
theorem shb_pts2 (f : Buf (Elt F) (shLoc d (cV L))) :
    ((shB2 L).view.loc (V d (cV L) (jV L)) ↦[(shB2 L).view.set]{fullShare} f : sProp 𝕄) = shLoc d (cV L) ↦[shPiece L 2]{fullShare} f := shBuf_pts d L 2 f

theorem ach_pts0 (q : PosShare TreeShare) (f : Buf (Elt F) (aLoc d)) :
    ((aCh0 L).view.loc (V d (cV L) (jV L)) ↦[(aCh0 L).view.set]{q} f : sProp 𝕄) = aLoc d ↦[chunkSet L 0]{q} f := by
  rw [show (aCh0 L).view.set = chunkSet L 0 from aChunk_set L 0]; rfl
theorem ach_pts1 (q : PosShare TreeShare) (f : Buf (Elt F) (aLoc d)) :
    ((aCh1 L).view.loc (V d (cV L) (jV L)) ↦[(aCh1 L).view.set]{q} f : sProp 𝕄) = aLoc d ↦[chunkSet L 1]{q} f := by
  rw [show (aCh1 L).view.set = chunkSet L 1 from aChunk_set L 1]; rfl
theorem ach_pts2 (q : PosShare TreeShare) (f : Buf (Elt F) (aLoc d)) :
    ((aCh2 L).view.loc (V d (cV L) (jV L)) ↦[(aCh2 L).view.set]{q} f : sProp 𝕄) = aLoc d ↦[chunkSet L 2]{q} f := by
  rw [show (aCh2 L).view.set = chunkSet L 2 from aChunk_set L 2]; rfl
theorem ach_pts3 (q : PosShare TreeShare) (f : Buf (Elt F) (aLoc d)) :
    ((aCh3 L).view.loc (V d (cV L) (jV L)) ↦[(aCh3 L).view.set]{q} f : sProp 𝕄) = aLoc d ↦[chunkSet L 3]{q} f := by
  rw [show (aCh3 L).view.set = chunkSet L 3 from aChunk_set L 3]; rfl
theorem ach_pts4 (q : PosShare TreeShare) (f : Buf (Elt F) (aLoc d)) :
    ((aCh4 L).view.loc (V d (cV L) (jV L)) ↦[(aCh4 L).view.set]{q} f : sProp 𝕄) = aLoc d ↦[chunkSet L 4]{q} f := by
  rw [show (aCh4 L).view.set = chunkSet L 4 from aChunk_set L 4]; rfl
theorem ach_pts5 (q : PosShare TreeShare) (f : Buf (Elt F) (aLoc d)) :
    ((aCh5 L).view.loc (V d (cV L) (jV L)) ↦[(aCh5 L).view.set]{q} f : sProp 𝕄) = aLoc d ↦[chunkSet L 5]{q} f := by
  rw [show (aCh5 L).view.set = chunkSet L 5 from aChunk_set L 5]; rfl
theorem ach_pts6 (q : PosShare TreeShare) (f : Buf (Elt F) (aLoc d)) :
    ((aCh6 L).view.loc (V d (cV L) (jV L)) ↦[(aCh6 L).view.set]{q} f : sProp 𝕄) = aLoc d ↦[chunkSet L 6]{q} f := by
  rw [show (aCh6 L).view.set = chunkSet L 6 from aChunk_set L 6]; rfl
theorem ach_pts7 (q : PosShare TreeShare) (f : Buf (Elt F) (aLoc d)) :
    ((aCh7 L).view.loc (V d (cV L) (jV L)) ↦[(aCh7 L).view.set]{q} f : sProp 𝕄) = aLoc d ↦[chunkSet L 7]{q} f := by
  rw [show (aCh7 L).view.set = chunkSet L 7 from aChunk_set L 7]; rfl
theorem ach_pts8 (q : PosShare TreeShare) (f : Buf (Elt F) (aLoc d)) :
    ((aCh8 L).view.loc (V d (cV L) (jV L)) ↦[(aCh8 L).view.set]{q} f : sProp 𝕄) = aLoc d ↦[chunkSet L 8]{q} f := by
  rw [show (aCh8 L).view.set = chunkSet L 8 from aChunk_set L 8]; rfl
theorem ach_pts9 (q : PosShare TreeShare) (f : Buf (Elt F) (aLoc d)) :
    ((aCh9 L).view.loc (V d (cV L) (jV L)) ↦[(aCh9 L).view.set]{q} f : sProp 𝕄) = aLoc d ↦[chunkSet L 9]{q} f := by
  rw [show (aCh9 L).view.set = chunkSet L 9 from aChunk_set L 9]; rfl
theorem ach_pts10 (q : PosShare TreeShare) (f : Buf (Elt F) (aLoc d)) :
    ((aCh10 L).view.loc (V d (cV L) (jV L)) ↦[(aCh10 L).view.set]{q} f : sProp 𝕄) = aLoc d ↦[chunkSet L 10]{q} f := by
  rw [show (aCh10 L).view.set = chunkSet L 10 from aChunk_set L 10]; rfl
theorem ach_pts11 (q : PosShare TreeShare) (f : Buf (Elt F) (aLoc d)) :
    ((aCh11 L).view.loc (V d (cV L) (jV L)) ↦[(aCh11 L).view.set]{q} f : sProp 𝕄) = aLoc d ↦[chunkSet L 11]{q} f := by
  rw [show (aCh11 L).view.set = chunkSet L 11 from aChunk_set L 11]; rfl
theorem ach_pts12 (q : PosShare TreeShare) (f : Buf (Elt F) (aLoc d)) :
    ((aCh12 L).view.loc (V d (cV L) (jV L)) ↦[(aCh12 L).view.set]{q} f : sProp 𝕄) = aLoc d ↦[chunkSet L 12]{q} f := by
  rw [show (aCh12 L).view.set = chunkSet L 12 from aChunk_set L 12]; rfl
theorem ach_pts13 (q : PosShare TreeShare) (f : Buf (Elt F) (aLoc d)) :
    ((aCh13 L).view.loc (V d (cV L) (jV L)) ↦[(aCh13 L).view.set]{q} f : sProp 𝕄) = aLoc d ↦[chunkSet L 13]{q} f := by
  rw [show (aCh13 L).view.set = chunkSet L 13 from aChunk_set L 13]; rfl
theorem ach_pts14 (q : PosShare TreeShare) (f : Buf (Elt F) (aLoc d)) :
    ((aCh14 L).view.loc (V d (cV L) (jV L)) ↦[(aCh14 L).view.set]{q} f : sProp 𝕄) = aLoc d ↦[chunkSet L 14]{q} f := by
  rw [show (aCh14 L).view.set = chunkSet L 14 from aChunk_set L 14]; rfl
theorem ach_pts15 (q : PosShare TreeShare) (f : Buf (Elt F) (aLoc d)) :
    ((aCh15 L).view.loc (V d (cV L) (jV L)) ↦[(aCh15 L).view.set]{q} f : sProp 𝕄) = aLoc d ↦[chunkSet L 15]{q} f := by
  rw [show (aCh15 L).view.set = chunkSet L 15 from aChunk_set L 15]; rfl

/-! ## The stream numbers and the tile's own scratch, as its thread names them -/

theorem pts_a (q : PosShare TreeShare) (f : Buf (Elt F) (aLoc d)) : ((aW).view.loc (V d (cV L) (jV L)) ↦{q} f : sProp 𝕄) = aLoc d ↦{q} f := by
  simp only [Memref.view_whole, View.set_whole]
theorem pts_s (q : PosShare TreeShare) (f : Buf (Elt F) (sLoc d)) : ((sW).view.loc (V d (cV L) (jV L)) ↦{q} f : sProp 𝕄) = sLoc d ↦{q} f := by
  simp only [Memref.view_whole, View.set_whole]
theorem pts_b0 (f : Buf (Elt F) ((V d (cV L) (jV L)).loc cc0_scratch0)) : ((b0W).view.loc (V d (cV L) (jV L)) ↦{fullShare} f : sProp 𝕄) = (V d (cV L) (jV L)).loc cc0_scratch0 ↦{fullShare} f := by
  simp only [Memref.view_whole, View.set_whole]
theorem pts_b1 (f : Buf (Elt F) ((V d (cV L) (jV L)).loc cc0_scratch1)) : ((b1W).view.loc (V d (cV L) (jV L)) ↦{fullShare} f : sProp 𝕄) = (V d (cV L) (jV L)).loc cc0_scratch1 ↦{fullShare} f := by
  simp only [Memref.view_whole, View.set_whole]

/-! ## The lane checks: every tile's recording number is below 16 -/

theorem chk1_all {g : grid0.Coords → IVec S16 32} (h : ∀ L' : grid0.Coords, k0_chk1 (g L')) (L : grid0.Coords) : k0_chk1 (g L) := h L
theorem chk2_all {g : grid0.Coords → IVec S16 32} (h : ∀ L' : grid0.Coords, k0_chk2 (g L')) (L : grid0.Coords) : k0_chk2 (g L) := h L
theorem chk3_all {g : grid0.Coords → IVec S16 32} (h : ∀ L' : grid0.Coords, k0_chk3 (g L')) (L : grid0.Coords) : k0_chk3 (g L) := h L
theorem chk4_all {g : grid0.Coords → IVec S16 32} (h : ∀ L' : grid0.Coords, k0_chk4 (g L')) (L : grid0.Coords) : k0_chk4 (g L) := h L
theorem chk5_all {g : grid0.Coords → IVec S16 32} (h : ∀ L' : grid0.Coords, k0_chk5 (g L')) (L : grid0.Coords) : k0_chk5 (g L) := h L
theorem chk6_all {g : grid0.Coords → IVec S16 32} (h : ∀ L' : grid0.Coords, k0_chk6 (g L')) (L : grid0.Coords) : k0_chk6 (g L) := h L
theorem chk7_all {g : grid0.Coords → IVec S16 32} (h : ∀ L' : grid0.Coords, k0_chk7 (g L')) (L : grid0.Coords) : k0_chk7 (g L) := h L
theorem chk8_all {g : grid0.Coords → IVec S16 32} (h : ∀ L' : grid0.Coords, k0_chk8 (g L')) (L : grid0.Coords) : k0_chk8 (g L) := h L

end Cert.Proof.KB

end
-- ==== Proof.KBCanon.lean ====
/-
  One name per piece. The body spells each chunk of the recordings and of the result, each 4096-sample window of a chunk of the
  result, and each staging buffer, many times, each time through another chain of word arithmetic over the tile's coordinates;
  by the chains' closed forms every spelling is the piece defined once with its offsets as a vector of index terms.
-/
import proofs.«218968_g36790689857971_cont_8to1_b_1381_24_alg».proof.Proof.KBTile

noncomputable section

namespace Cert.Proof.KB

open Idealize.ShloMosaic Idealize.ShloMosaic.Tactic Cert.Kernel Cert.Kernel.Gen Cert.Proof.KB.Off

@[sl_canon] theorem canon_a_k0_off2 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off2 L) S1x1x1x32768.size hh) hs).squeeze S32768 squeezes_S1x1x1x32768_S32768 = aCh0 L :=
  congrArg (fun m => Memref.squeeze m S32768 squeezes_S1x1x1x32768_S32768) (Memref.slice_unit_congr _ (k0_off2_eq L) _ _ _ (fun _ => rfl))
@[sl_canon] theorem canon_a_k0_off5 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off5 L) S1x1x1x32768.size hh) hs).squeeze S32768 squeezes_S1x1x1x32768_S32768 = aCh1 L :=
  congrArg (fun m => Memref.squeeze m S32768 squeezes_S1x1x1x32768_S32768) (Memref.slice_unit_congr _ (k0_off5_eq L) _ _ _ (fun _ => rfl))
@[sl_canon] theorem canon_a_k0_off15 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off15 L) S1x1x1x32768.size hh) hs).squeeze S32768 squeezes_S1x1x1x32768_S32768 = aCh0 L :=
  congrArg (fun m => Memref.squeeze m S32768 squeezes_S1x1x1x32768_S32768) (Memref.slice_unit_congr _ (k0_off15_eq L) _ _ _ (fun _ => rfl))
@[sl_canon] theorem canon_a_k0_off17 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off17 L) S1x1x1x32768.size hh) hs).squeeze S32768 squeezes_S1x1x1x32768_S32768 = aCh2 L :=
  congrArg (fun m => Memref.squeeze m S32768 squeezes_S1x1x1x32768_S32768) (Memref.slice_unit_congr _ (k0_off17_eq L) _ _ _ (fun _ => rfl))
@[sl_canon] theorem canon_a_k0_off27 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off27 L) S1x1x1x32768.size hh) hs).squeeze S32768 squeezes_S1x1x1x32768_S32768 = aCh1 L :=
  congrArg (fun m => Memref.squeeze m S32768 squeezes_S1x1x1x32768_S32768) (Memref.slice_unit_congr _ (k0_off27_eq L) _ _ _ (fun _ => rfl))
@[sl_canon] theorem canon_a_k0_off31 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off31 L) S1x1x1x32768.size hh) hs).squeeze S32768 squeezes_S1x1x1x32768_S32768 = aCh3 L :=
  congrArg (fun m => Memref.squeeze m S32768 squeezes_S1x1x1x32768_S32768) (Memref.slice_unit_congr _ (k0_off31_eq L) _ _ _ (fun _ => rfl))
@[sl_canon] theorem canon_a_k0_off41 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off41 L) S1x1x1x32768.size hh) hs).squeeze S32768 squeezes_S1x1x1x32768_S32768 = aCh2 L :=
  congrArg (fun m => Memref.squeeze m S32768 squeezes_S1x1x1x32768_S32768) (Memref.slice_unit_congr _ (k0_off41_eq L) _ _ _ (fun _ => rfl))
@[sl_canon] theorem canon_a_k0_off45 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off45 L) S1x1x1x32768.size hh) hs).squeeze S32768 squeezes_S1x1x1x32768_S32768 = aCh4 L :=
  congrArg (fun m => Memref.squeeze m S32768 squeezes_S1x1x1x32768_S32768) (Memref.slice_unit_congr _ (k0_off45_eq L) _ _ _ (fun _ => rfl))
@[sl_canon] theorem canon_a_k0_off55 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off55 L) S1x1x1x32768.size hh) hs).squeeze S32768 squeezes_S1x1x1x32768_S32768 = aCh3 L :=
  congrArg (fun m => Memref.squeeze m S32768 squeezes_S1x1x1x32768_S32768) (Memref.slice_unit_congr _ (k0_off55_eq L) _ _ _ (fun _ => rfl))
@[sl_canon] theorem canon_a_k0_off59 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off59 L) S1x1x1x32768.size hh) hs).squeeze S32768 squeezes_S1x1x1x32768_S32768 = aCh5 L :=
  congrArg (fun m => Memref.squeeze m S32768 squeezes_S1x1x1x32768_S32768) (Memref.slice_unit_congr _ (k0_off59_eq L) _ _ _ (fun _ => rfl))
@[sl_canon] theorem canon_a_k0_off69 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off69 L) S1x1x1x32768.size hh) hs).squeeze S32768 squeezes_S1x1x1x32768_S32768 = aCh4 L :=
  congrArg (fun m => Memref.squeeze m S32768 squeezes_S1x1x1x32768_S32768) (Memref.slice_unit_congr _ (k0_off69_eq L) _ _ _ (fun _ => rfl))
@[sl_canon] theorem canon_a_k0_off73 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off73 L) S1x1x1x32768.size hh) hs).squeeze S32768 squeezes_S1x1x1x32768_S32768 = aCh6 L :=
  congrArg (fun m => Memref.squeeze m S32768 squeezes_S1x1x1x32768_S32768) (Memref.slice_unit_congr _ (k0_off73_eq L) _ _ _ (fun _ => rfl))
@[sl_canon] theorem canon_a_k0_off83 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off83 L) S1x1x1x32768.size hh) hs).squeeze S32768 squeezes_S1x1x1x32768_S32768 = aCh5 L :=
  congrArg (fun m => Memref.squeeze m S32768 squeezes_S1x1x1x32768_S32768) (Memref.slice_unit_congr _ (k0_off83_eq L) _ _ _ (fun _ => rfl))
@[sl_canon] theorem canon_a_k0_off87 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off87 L) S1x1x1x32768.size hh) hs).squeeze S32768 squeezes_S1x1x1x32768_S32768 = aCh7 L :=
  congrArg (fun m => Memref.squeeze m S32768 squeezes_S1x1x1x32768_S32768) (Memref.slice_unit_congr _ (k0_off87_eq L) _ _ _ (fun _ => rfl))
@[sl_canon] theorem canon_a_k0_off97 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off97 L) S1x1x1x32768.size hh) hs).squeeze S32768 squeezes_S1x1x1x32768_S32768 = aCh6 L :=
  congrArg (fun m => Memref.squeeze m S32768 squeezes_S1x1x1x32768_S32768) (Memref.slice_unit_congr _ (k0_off97_eq L) _ _ _ (fun _ => rfl))
@[sl_canon] theorem canon_a_k0_off101 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off101 L) S1x1x1x32768.size hh) hs).squeeze S32768 squeezes_S1x1x1x32768_S32768 = aCh8 L :=
  congrArg (fun m => Memref.squeeze m S32768 squeezes_S1x1x1x32768_S32768) (Memref.slice_unit_congr _ (k0_off101_eq L) _ _ _ (fun _ => rfl))
@[sl_canon] theorem canon_a_k0_off111 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off111 L) S1x1x1x32768.size hh) hs).squeeze S32768 squeezes_S1x1x1x32768_S32768 = aCh7 L :=
  congrArg (fun m => Memref.squeeze m S32768 squeezes_S1x1x1x32768_S32768) (Memref.slice_unit_congr _ (k0_off111_eq L) _ _ _ (fun _ => rfl))
@[sl_canon] theorem canon_a_k0_off115 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off115 L) S1x1x1x32768.size hh) hs).squeeze S32768 squeezes_S1x1x1x32768_S32768 = aCh9 L :=
  congrArg (fun m => Memref.squeeze m S32768 squeezes_S1x1x1x32768_S32768) (Memref.slice_unit_congr _ (k0_off115_eq L) _ _ _ (fun _ => rfl))
@[sl_canon] theorem canon_a_k0_off125 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off125 L) S1x1x1x32768.size hh) hs).squeeze S32768 squeezes_S1x1x1x32768_S32768 = aCh8 L :=
  congrArg (fun m => Memref.squeeze m S32768 squeezes_S1x1x1x32768_S32768) (Memref.slice_unit_congr _ (k0_off125_eq L) _ _ _ (fun _ => rfl))
@[sl_canon] theorem canon_a_k0_off129 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off129 L) S1x1x1x32768.size hh) hs).squeeze S32768 squeezes_S1x1x1x32768_S32768 = aCh10 L :=
  congrArg (fun m => Memref.squeeze m S32768 squeezes_S1x1x1x32768_S32768) (Memref.slice_unit_congr _ (k0_off129_eq L) _ _ _ (fun _ => rfl))
@[sl_canon] theorem canon_a_k0_off139 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off139 L) S1x1x1x32768.size hh) hs).squeeze S32768 squeezes_S1x1x1x32768_S32768 = aCh9 L :=
  congrArg (fun m => Memref.squeeze m S32768 squeezes_S1x1x1x32768_S32768) (Memref.slice_unit_congr _ (k0_off139_eq L) _ _ _ (fun _ => rfl))
@[sl_canon] theorem canon_a_k0_off143 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off143 L) S1x1x1x32768.size hh) hs).squeeze S32768 squeezes_S1x1x1x32768_S32768 = aCh11 L :=
  congrArg (fun m => Memref.squeeze m S32768 squeezes_S1x1x1x32768_S32768) (Memref.slice_unit_congr _ (k0_off143_eq L) _ _ _ (fun _ => rfl))
@[sl_canon] theorem canon_a_k0_off153 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off153 L) S1x1x1x32768.size hh) hs).squeeze S32768 squeezes_S1x1x1x32768_S32768 = aCh10 L :=
  congrArg (fun m => Memref.squeeze m S32768 squeezes_S1x1x1x32768_S32768) (Memref.slice_unit_congr _ (k0_off153_eq L) _ _ _ (fun _ => rfl))
@[sl_canon] theorem canon_a_k0_off157 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off157 L) S1x1x1x32768.size hh) hs).squeeze S32768 squeezes_S1x1x1x32768_S32768 = aCh12 L :=
  congrArg (fun m => Memref.squeeze m S32768 squeezes_S1x1x1x32768_S32768) (Memref.slice_unit_congr _ (k0_off157_eq L) _ _ _ (fun _ => rfl))
@[sl_canon] theorem canon_a_k0_off167 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off167 L) S1x1x1x32768.size hh) hs).squeeze S32768 squeezes_S1x1x1x32768_S32768 = aCh11 L :=
  congrArg (fun m => Memref.squeeze m S32768 squeezes_S1x1x1x32768_S32768) (Memref.slice_unit_congr _ (k0_off167_eq L) _ _ _ (fun _ => rfl))
@[sl_canon] theorem canon_a_k0_off171 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off171 L) S1x1x1x32768.size hh) hs).squeeze S32768 squeezes_S1x1x1x32768_S32768 = aCh13 L :=
  congrArg (fun m => Memref.squeeze m S32768 squeezes_S1x1x1x32768_S32768) (Memref.slice_unit_congr _ (k0_off171_eq L) _ _ _ (fun _ => rfl))
@[sl_canon] theorem canon_a_k0_off181 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off181 L) S1x1x1x32768.size hh) hs).squeeze S32768 squeezes_S1x1x1x32768_S32768 = aCh12 L :=
  congrArg (fun m => Memref.squeeze m S32768 squeezes_S1x1x1x32768_S32768) (Memref.slice_unit_congr _ (k0_off181_eq L) _ _ _ (fun _ => rfl))
@[sl_canon] theorem canon_a_k0_off185 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off185 L) S1x1x1x32768.size hh) hs).squeeze S32768 squeezes_S1x1x1x32768_S32768 = aCh14 L :=
  congrArg (fun m => Memref.squeeze m S32768 squeezes_S1x1x1x32768_S32768) (Memref.slice_unit_congr _ (k0_off185_eq L) _ _ _ (fun _ => rfl))
@[sl_canon] theorem canon_a_k0_off195 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off195 L) S1x1x1x32768.size hh) hs).squeeze S32768 squeezes_S1x1x1x32768_S32768 = aCh13 L :=
  congrArg (fun m => Memref.squeeze m S32768 squeezes_S1x1x1x32768_S32768) (Memref.slice_unit_congr _ (k0_off195_eq L) _ _ _ (fun _ => rfl))
@[sl_canon] theorem canon_a_k0_off199 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off199 L) S1x1x1x32768.size hh) hs).squeeze S32768 squeezes_S1x1x1x32768_S32768 = aCh15 L :=
  congrArg (fun m => Memref.squeeze m S32768 squeezes_S1x1x1x32768_S32768) (Memref.slice_unit_congr _ (k0_off199_eq L) _ _ _ (fun _ => rfl))
@[sl_canon] theorem canon_a_k0_off209 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off209 L) S1x1x1x32768.size hh) hs).squeeze S32768 squeezes_S1x1x1x32768_S32768 = aCh14 L :=
  congrArg (fun m => Memref.squeeze m S32768 squeezes_S1x1x1x32768_S32768) (Memref.slice_unit_congr _ (k0_off209_eq L) _ _ _ (fun _ => rfl))
@[sl_canon] theorem canon_a_k0_off219 (L : grid0.Coords) (hh) (hs) : ((Memref.whole Cert.Kernel.main_arg0_scv : Memref Cert.Kernel.sig Kind.scVector Space.hbm Cert.Kernel.S16x8x2x65536 EltTy.f32).slice (Rect.unit (s := S16x8x2x65536) (k0_off219 L) S1x1x1x32768.size hh) hs).squeeze S32768 squeezes_S1x1x1x32768_S32768 = aCh15 L :=
  congrArg (fun m => Memref.squeeze m S32768 squeezes_S1x1x1x32768_S32768) (Memref.slice_unit_congr _ (k0_off219_eq L) _ _ _ (fun _ => rfl))
@[sl_canon] theorem canon_os_k0_off6 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off6 L) S1x1x1x4096.size hh) hs).squeeze S4096 squeezes_S1x1x1x4096_S4096 = oSub L 0 0 :=
  congrArg (fun m => Memref.squeeze m S4096 squeezes_S1x1x1x4096_S4096) (Memref.slice_unit_congr _ ((k0_off6_eq L).trans (show _ = subOff L 0 0 from rfl)) _ _ _ (fun _ => rfl))
@[sl_canon] theorem canon_os_k0_off7 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off7 L) S1x1x1x4096.size hh) hs).squeeze S4096 squeezes_S1x1x1x4096_S4096 = oSub L 0 1 :=
  congrArg (fun m => Memref.squeeze m S4096 squeezes_S1x1x1x4096_S4096) (Memref.slice_unit_congr _ ((k0_off7_eq L).trans (show _ = subOff L 0 1 from rfl)) _ _ _ (fun _ => rfl))
@[sl_canon] theorem canon_os_k0_off8 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off8 L) S1x1x1x4096.size hh) hs).squeeze S4096 squeezes_S1x1x1x4096_S4096 = oSub L 0 2 :=
  congrArg (fun m => Memref.squeeze m S4096 squeezes_S1x1x1x4096_S4096) (Memref.slice_unit_congr _ ((k0_off8_eq L).trans (show _ = subOff L 0 2 from rfl)) _ _ _ (fun _ => rfl))
@[sl_canon] theorem canon_os_k0_off9 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off9 L) S1x1x1x4096.size hh) hs).squeeze S4096 squeezes_S1x1x1x4096_S4096 = oSub L 0 3 :=
  congrArg (fun m => Memref.squeeze m S4096 squeezes_S1x1x1x4096_S4096) (Memref.slice_unit_congr _ ((k0_off9_eq L).trans (show _ = subOff L 0 3 from rfl)) _ _ _ (fun _ => rfl))
@[sl_canon] theorem canon_os_k0_off10 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off10 L) S1x1x1x4096.size hh) hs).squeeze S4096 squeezes_S1x1x1x4096_S4096 = oSub L 0 4 :=
  congrArg (fun m => Memref.squeeze m S4096 squeezes_S1x1x1x4096_S4096) (Memref.slice_unit_congr _ ((k0_off10_eq L).trans (show _ = subOff L 0 4 from rfl)) _ _ _ (fun _ => rfl))
@[sl_canon] theorem canon_os_k0_off11 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off11 L) S1x1x1x4096.size hh) hs).squeeze S4096 squeezes_S1x1x1x4096_S4096 = oSub L 0 5 :=
  congrArg (fun m => Memref.squeeze m S4096 squeezes_S1x1x1x4096_S4096) (Memref.slice_unit_congr _ ((k0_off11_eq L).trans (show _ = subOff L 0 5 from rfl)) _ _ _ (fun _ => rfl))
@[sl_canon] theorem canon_os_k0_off12 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off12 L) S1x1x1x4096.size hh) hs).squeeze S4096 squeezes_S1x1x1x4096_S4096 = oSub L 0 6 :=
  congrArg (fun m => Memref.squeeze m S4096 squeezes_S1x1x1x4096_S4096) (Memref.slice_unit_congr _ ((k0_off12_eq L).trans (show _ = subOff L 0 6 from rfl)) _ _ _ (fun _ => rfl))
@[sl_canon] theorem canon_os_k0_off13 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off13 L) S1x1x1x4096.size hh) hs).squeeze S4096 squeezes_S1x1x1x4096_S4096 = oSub L 0 7 :=
  congrArg (fun m => Memref.squeeze m S4096 squeezes_S1x1x1x4096_S4096) (Memref.slice_unit_congr _ ((k0_off13_eq L).trans (show _ = subOff L 0 7 from rfl)) _ _ _ (fun _ => rfl))
@[sl_canon] theorem canon_o_k0_off15 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off15 L) S1x1x1x32768.size hh) hs).squeeze S32768 squeezes_S1x1x1x32768_S32768 = oCh0 L :=
  congrArg (fun m => Memref.squeeze m S32768 squeezes_S1x1x1x32768_S32768) (Memref.slice_unit_congr _ (k0_off15_eq L) _ _ _ (fun _ => rfl))
@[sl_canon] theorem canon_os_k0_off18 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off18 L) S1x1x1x4096.size hh) hs).squeeze S4096 squeezes_S1x1x1x4096_S4096 = oSub L 1 0 :=
  congrArg (fun m => Memref.squeeze m S4096 squeezes_S1x1x1x4096_S4096) (Memref.slice_unit_congr _ ((k0_off18_eq L).trans (show _ = subOff L 1 0 from rfl)) _ _ _ (fun _ => rfl))
@[sl_canon] theorem canon_os_k0_off19 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off19 L) S1x1x1x4096.size hh) hs).squeeze S4096 squeezes_S1x1x1x4096_S4096 = oSub L 1 1 :=
  congrArg (fun m => Memref.squeeze m S4096 squeezes_S1x1x1x4096_S4096) (Memref.slice_unit_congr _ ((k0_off19_eq L).trans (show _ = subOff L 1 1 from rfl)) _ _ _ (fun _ => rfl))
@[sl_canon] theorem canon_os_k0_off20 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off20 L) S1x1x1x4096.size hh) hs).squeeze S4096 squeezes_S1x1x1x4096_S4096 = oSub L 1 2 :=
  congrArg (fun m => Memref.squeeze m S4096 squeezes_S1x1x1x4096_S4096) (Memref.slice_unit_congr _ ((k0_off20_eq L).trans (show _ = subOff L 1 2 from rfl)) _ _ _ (fun _ => rfl))
@[sl_canon] theorem canon_os_k0_off21 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off21 L) S1x1x1x4096.size hh) hs).squeeze S4096 squeezes_S1x1x1x4096_S4096 = oSub L 1 3 :=
  congrArg (fun m => Memref.squeeze m S4096 squeezes_S1x1x1x4096_S4096) (Memref.slice_unit_congr _ ((k0_off21_eq L).trans (show _ = subOff L 1 3 from rfl)) _ _ _ (fun _ => rfl))
@[sl_canon] theorem canon_os_k0_off22 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off22 L) S1x1x1x4096.size hh) hs).squeeze S4096 squeezes_S1x1x1x4096_S4096 = oSub L 1 4 :=
  congrArg (fun m => Memref.squeeze m S4096 squeezes_S1x1x1x4096_S4096) (Memref.slice_unit_congr _ ((k0_off22_eq L).trans (show _ = subOff L 1 4 from rfl)) _ _ _ (fun _ => rfl))
@[sl_canon] theorem canon_os_k0_off23 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off23 L) S1x1x1x4096.size hh) hs).squeeze S4096 squeezes_S1x1x1x4096_S4096 = oSub L 1 5 :=
  congrArg (fun m => Memref.squeeze m S4096 squeezes_S1x1x1x4096_S4096) (Memref.slice_unit_congr _ ((k0_off23_eq L).trans (show _ = subOff L 1 5 from rfl)) _ _ _ (fun _ => rfl))
@[sl_canon] theorem canon_os_k0_off24 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off24 L) S1x1x1x4096.size hh) hs).squeeze S4096 squeezes_S1x1x1x4096_S4096 = oSub L 1 6 :=
  congrArg (fun m => Memref.squeeze m S4096 squeezes_S1x1x1x4096_S4096) (Memref.slice_unit_congr _ ((k0_off24_eq L).trans (show _ = subOff L 1 6 from rfl)) _ _ _ (fun _ => rfl))
@[sl_canon] theorem canon_os_k0_off25 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off25 L) S1x1x1x4096.size hh) hs).squeeze S4096 squeezes_S1x1x1x4096_S4096 = oSub L 1 7 :=
  congrArg (fun m => Memref.squeeze m S4096 squeezes_S1x1x1x4096_S4096) (Memref.slice_unit_congr _ ((k0_off25_eq L).trans (show _ = subOff L 1 7 from rfl)) _ _ _ (fun _ => rfl))
@[sl_canon] theorem canon_o_k0_off27 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off27 L) S1x1x1x32768.size hh) hs).squeeze S32768 squeezes_S1x1x1x32768_S32768 = oCh1 L :=
  congrArg (fun m => Memref.squeeze m S32768 squeezes_S1x1x1x32768_S32768) (Memref.slice_unit_congr _ (k0_off27_eq L) _ _ _ (fun _ => rfl))
@[sl_canon] theorem canon_o_k0_off28 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off28 L) S1x1x1x32768.size hh) hs).squeeze S32768 squeezes_S1x1x1x32768_S32768 = oCh0 L :=
  congrArg (fun m => Memref.squeeze m S32768 squeezes_S1x1x1x32768_S32768) (Memref.slice_unit_congr _ (k0_off28_eq L) _ _ _ (fun _ => rfl))
@[sl_canon] theorem canon_os_k0_off32 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off32 L) S1x1x1x4096.size hh) hs).squeeze S4096 squeezes_S1x1x1x4096_S4096 = oSub L 2 0 :=
  congrArg (fun m => Memref.squeeze m S4096 squeezes_S1x1x1x4096_S4096) (Memref.slice_unit_congr _ ((k0_off32_eq L).trans (show _ = subOff L 2 0 from rfl)) _ _ _ (fun _ => rfl))
@[sl_canon] theorem canon_os_k0_off33 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off33 L) S1x1x1x4096.size hh) hs).squeeze S4096 squeezes_S1x1x1x4096_S4096 = oSub L 2 1 :=
  congrArg (fun m => Memref.squeeze m S4096 squeezes_S1x1x1x4096_S4096) (Memref.slice_unit_congr _ ((k0_off33_eq L).trans (show _ = subOff L 2 1 from rfl)) _ _ _ (fun _ => rfl))
@[sl_canon] theorem canon_os_k0_off34 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off34 L) S1x1x1x4096.size hh) hs).squeeze S4096 squeezes_S1x1x1x4096_S4096 = oSub L 2 2 :=
  congrArg (fun m => Memref.squeeze m S4096 squeezes_S1x1x1x4096_S4096) (Memref.slice_unit_congr _ ((k0_off34_eq L).trans (show _ = subOff L 2 2 from rfl)) _ _ _ (fun _ => rfl))
@[sl_canon] theorem canon_os_k0_off35 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off35 L) S1x1x1x4096.size hh) hs).squeeze S4096 squeezes_S1x1x1x4096_S4096 = oSub L 2 3 :=
  congrArg (fun m => Memref.squeeze m S4096 squeezes_S1x1x1x4096_S4096) (Memref.slice_unit_congr _ ((k0_off35_eq L).trans (show _ = subOff L 2 3 from rfl)) _ _ _ (fun _ => rfl))
@[sl_canon] theorem canon_os_k0_off36 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off36 L) S1x1x1x4096.size hh) hs).squeeze S4096 squeezes_S1x1x1x4096_S4096 = oSub L 2 4 :=
  congrArg (fun m => Memref.squeeze m S4096 squeezes_S1x1x1x4096_S4096) (Memref.slice_unit_congr _ ((k0_off36_eq L).trans (show _ = subOff L 2 4 from rfl)) _ _ _ (fun _ => rfl))
@[sl_canon] theorem canon_os_k0_off37 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off37 L) S1x1x1x4096.size hh) hs).squeeze S4096 squeezes_S1x1x1x4096_S4096 = oSub L 2 5 :=
  congrArg (fun m => Memref.squeeze m S4096 squeezes_S1x1x1x4096_S4096) (Memref.slice_unit_congr _ ((k0_off37_eq L).trans (show _ = subOff L 2 5 from rfl)) _ _ _ (fun _ => rfl))
@[sl_canon] theorem canon_os_k0_off38 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off38 L) S1x1x1x4096.size hh) hs).squeeze S4096 squeezes_S1x1x1x4096_S4096 = oSub L 2 6 :=
  congrArg (fun m => Memref.squeeze m S4096 squeezes_S1x1x1x4096_S4096) (Memref.slice_unit_congr _ ((k0_off38_eq L).trans (show _ = subOff L 2 6 from rfl)) _ _ _ (fun _ => rfl))
@[sl_canon] theorem canon_os_k0_off39 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off39 L) S1x1x1x4096.size hh) hs).squeeze S4096 squeezes_S1x1x1x4096_S4096 = oSub L 2 7 :=
  congrArg (fun m => Memref.squeeze m S4096 squeezes_S1x1x1x4096_S4096) (Memref.slice_unit_congr _ ((k0_off39_eq L).trans (show _ = subOff L 2 7 from rfl)) _ _ _ (fun _ => rfl))
@[sl_canon] theorem canon_o_k0_off41 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off41 L) S1x1x1x32768.size hh) hs).squeeze S32768 squeezes_S1x1x1x32768_S32768 = oCh2 L :=
  congrArg (fun m => Memref.squeeze m S32768 squeezes_S1x1x1x32768_S32768) (Memref.slice_unit_congr _ (k0_off41_eq L) _ _ _ (fun _ => rfl))
@[sl_canon] theorem canon_o_k0_off42 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off42 L) S1x1x1x32768.size hh) hs).squeeze S32768 squeezes_S1x1x1x32768_S32768 = oCh1 L :=
  congrArg (fun m => Memref.squeeze m S32768 squeezes_S1x1x1x32768_S32768) (Memref.slice_unit_congr _ (k0_off42_eq L) _ _ _ (fun _ => rfl))
@[sl_canon] theorem canon_os_k0_off46 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off46 L) S1x1x1x4096.size hh) hs).squeeze S4096 squeezes_S1x1x1x4096_S4096 = oSub L 3 0 :=
  congrArg (fun m => Memref.squeeze m S4096 squeezes_S1x1x1x4096_S4096) (Memref.slice_unit_congr _ ((k0_off46_eq L).trans (show _ = subOff L 3 0 from rfl)) _ _ _ (fun _ => rfl))
@[sl_canon] theorem canon_os_k0_off47 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off47 L) S1x1x1x4096.size hh) hs).squeeze S4096 squeezes_S1x1x1x4096_S4096 = oSub L 3 1 :=
  congrArg (fun m => Memref.squeeze m S4096 squeezes_S1x1x1x4096_S4096) (Memref.slice_unit_congr _ ((k0_off47_eq L).trans (show _ = subOff L 3 1 from rfl)) _ _ _ (fun _ => rfl))
@[sl_canon] theorem canon_os_k0_off48 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off48 L) S1x1x1x4096.size hh) hs).squeeze S4096 squeezes_S1x1x1x4096_S4096 = oSub L 3 2 :=
  congrArg (fun m => Memref.squeeze m S4096 squeezes_S1x1x1x4096_S4096) (Memref.slice_unit_congr _ ((k0_off48_eq L).trans (show _ = subOff L 3 2 from rfl)) _ _ _ (fun _ => rfl))
@[sl_canon] theorem canon_os_k0_off49 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off49 L) S1x1x1x4096.size hh) hs).squeeze S4096 squeezes_S1x1x1x4096_S4096 = oSub L 3 3 :=
  congrArg (fun m => Memref.squeeze m S4096 squeezes_S1x1x1x4096_S4096) (Memref.slice_unit_congr _ ((k0_off49_eq L).trans (show _ = subOff L 3 3 from rfl)) _ _ _ (fun _ => rfl))
@[sl_canon] theorem canon_os_k0_off50 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off50 L) S1x1x1x4096.size hh) hs).squeeze S4096 squeezes_S1x1x1x4096_S4096 = oSub L 3 4 :=
  congrArg (fun m => Memref.squeeze m S4096 squeezes_S1x1x1x4096_S4096) (Memref.slice_unit_congr _ ((k0_off50_eq L).trans (show _ = subOff L 3 4 from rfl)) _ _ _ (fun _ => rfl))
@[sl_canon] theorem canon_os_k0_off51 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off51 L) S1x1x1x4096.size hh) hs).squeeze S4096 squeezes_S1x1x1x4096_S4096 = oSub L 3 5 :=
  congrArg (fun m => Memref.squeeze m S4096 squeezes_S1x1x1x4096_S4096) (Memref.slice_unit_congr _ ((k0_off51_eq L).trans (show _ = subOff L 3 5 from rfl)) _ _ _ (fun _ => rfl))
@[sl_canon] theorem canon_os_k0_off52 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off52 L) S1x1x1x4096.size hh) hs).squeeze S4096 squeezes_S1x1x1x4096_S4096 = oSub L 3 6 :=
  congrArg (fun m => Memref.squeeze m S4096 squeezes_S1x1x1x4096_S4096) (Memref.slice_unit_congr _ ((k0_off52_eq L).trans (show _ = subOff L 3 6 from rfl)) _ _ _ (fun _ => rfl))
@[sl_canon] theorem canon_os_k0_off53 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off53 L) S1x1x1x4096.size hh) hs).squeeze S4096 squeezes_S1x1x1x4096_S4096 = oSub L 3 7 :=
  congrArg (fun m => Memref.squeeze m S4096 squeezes_S1x1x1x4096_S4096) (Memref.slice_unit_congr _ ((k0_off53_eq L).trans (show _ = subOff L 3 7 from rfl)) _ _ _ (fun _ => rfl))
@[sl_canon] theorem canon_o_k0_off55 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off55 L) S1x1x1x32768.size hh) hs).squeeze S32768 squeezes_S1x1x1x32768_S32768 = oCh3 L :=
  congrArg (fun m => Memref.squeeze m S32768 squeezes_S1x1x1x32768_S32768) (Memref.slice_unit_congr _ (k0_off55_eq L) _ _ _ (fun _ => rfl))
@[sl_canon] theorem canon_o_k0_off56 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off56 L) S1x1x1x32768.size hh) hs).squeeze S32768 squeezes_S1x1x1x32768_S32768 = oCh2 L :=
  congrArg (fun m => Memref.squeeze m S32768 squeezes_S1x1x1x32768_S32768) (Memref.slice_unit_congr _ (k0_off56_eq L) _ _ _ (fun _ => rfl))
@[sl_canon] theorem canon_os_k0_off60 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off60 L) S1x1x1x4096.size hh) hs).squeeze S4096 squeezes_S1x1x1x4096_S4096 = oSub L 4 0 :=
  congrArg (fun m => Memref.squeeze m S4096 squeezes_S1x1x1x4096_S4096) (Memref.slice_unit_congr _ ((k0_off60_eq L).trans (show _ = subOff L 4 0 from rfl)) _ _ _ (fun _ => rfl))
@[sl_canon] theorem canon_os_k0_off61 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off61 L) S1x1x1x4096.size hh) hs).squeeze S4096 squeezes_S1x1x1x4096_S4096 = oSub L 4 1 :=
  congrArg (fun m => Memref.squeeze m S4096 squeezes_S1x1x1x4096_S4096) (Memref.slice_unit_congr _ ((k0_off61_eq L).trans (show _ = subOff L 4 1 from rfl)) _ _ _ (fun _ => rfl))
@[sl_canon] theorem canon_os_k0_off62 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off62 L) S1x1x1x4096.size hh) hs).squeeze S4096 squeezes_S1x1x1x4096_S4096 = oSub L 4 2 :=
  congrArg (fun m => Memref.squeeze m S4096 squeezes_S1x1x1x4096_S4096) (Memref.slice_unit_congr _ ((k0_off62_eq L).trans (show _ = subOff L 4 2 from rfl)) _ _ _ (fun _ => rfl))
@[sl_canon] theorem canon_os_k0_off63 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off63 L) S1x1x1x4096.size hh) hs).squeeze S4096 squeezes_S1x1x1x4096_S4096 = oSub L 4 3 :=
  congrArg (fun m => Memref.squeeze m S4096 squeezes_S1x1x1x4096_S4096) (Memref.slice_unit_congr _ ((k0_off63_eq L).trans (show _ = subOff L 4 3 from rfl)) _ _ _ (fun _ => rfl))
@[sl_canon] theorem canon_os_k0_off64 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off64 L) S1x1x1x4096.size hh) hs).squeeze S4096 squeezes_S1x1x1x4096_S4096 = oSub L 4 4 :=
  congrArg (fun m => Memref.squeeze m S4096 squeezes_S1x1x1x4096_S4096) (Memref.slice_unit_congr _ ((k0_off64_eq L).trans (show _ = subOff L 4 4 from rfl)) _ _ _ (fun _ => rfl))
@[sl_canon] theorem canon_os_k0_off65 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off65 L) S1x1x1x4096.size hh) hs).squeeze S4096 squeezes_S1x1x1x4096_S4096 = oSub L 4 5 :=
  congrArg (fun m => Memref.squeeze m S4096 squeezes_S1x1x1x4096_S4096) (Memref.slice_unit_congr _ ((k0_off65_eq L).trans (show _ = subOff L 4 5 from rfl)) _ _ _ (fun _ => rfl))
@[sl_canon] theorem canon_os_k0_off66 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off66 L) S1x1x1x4096.size hh) hs).squeeze S4096 squeezes_S1x1x1x4096_S4096 = oSub L 4 6 :=
  congrArg (fun m => Memref.squeeze m S4096 squeezes_S1x1x1x4096_S4096) (Memref.slice_unit_congr _ ((k0_off66_eq L).trans (show _ = subOff L 4 6 from rfl)) _ _ _ (fun _ => rfl))
@[sl_canon] theorem canon_os_k0_off67 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off67 L) S1x1x1x4096.size hh) hs).squeeze S4096 squeezes_S1x1x1x4096_S4096 = oSub L 4 7 :=
  congrArg (fun m => Memref.squeeze m S4096 squeezes_S1x1x1x4096_S4096) (Memref.slice_unit_congr _ ((k0_off67_eq L).trans (show _ = subOff L 4 7 from rfl)) _ _ _ (fun _ => rfl))
@[sl_canon] theorem canon_o_k0_off69 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off69 L) S1x1x1x32768.size hh) hs).squeeze S32768 squeezes_S1x1x1x32768_S32768 = oCh4 L :=
  congrArg (fun m => Memref.squeeze m S32768 squeezes_S1x1x1x32768_S32768) (Memref.slice_unit_congr _ (k0_off69_eq L) _ _ _ (fun _ => rfl))
@[sl_canon] theorem canon_o_k0_off70 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off70 L) S1x1x1x32768.size hh) hs).squeeze S32768 squeezes_S1x1x1x32768_S32768 = oCh3 L :=
  congrArg (fun m => Memref.squeeze m S32768 squeezes_S1x1x1x32768_S32768) (Memref.slice_unit_congr _ (k0_off70_eq L) _ _ _ (fun _ => rfl))
@[sl_canon] theorem canon_os_k0_off74 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off74 L) S1x1x1x4096.size hh) hs).squeeze S4096 squeezes_S1x1x1x4096_S4096 = oSub L 5 0 :=
  congrArg (fun m => Memref.squeeze m S4096 squeezes_S1x1x1x4096_S4096) (Memref.slice_unit_congr _ ((k0_off74_eq L).trans (show _ = subOff L 5 0 from rfl)) _ _ _ (fun _ => rfl))
@[sl_canon] theorem canon_os_k0_off75 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off75 L) S1x1x1x4096.size hh) hs).squeeze S4096 squeezes_S1x1x1x4096_S4096 = oSub L 5 1 :=
  congrArg (fun m => Memref.squeeze m S4096 squeezes_S1x1x1x4096_S4096) (Memref.slice_unit_congr _ ((k0_off75_eq L).trans (show _ = subOff L 5 1 from rfl)) _ _ _ (fun _ => rfl))
@[sl_canon] theorem canon_os_k0_off76 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off76 L) S1x1x1x4096.size hh) hs).squeeze S4096 squeezes_S1x1x1x4096_S4096 = oSub L 5 2 :=
  congrArg (fun m => Memref.squeeze m S4096 squeezes_S1x1x1x4096_S4096) (Memref.slice_unit_congr _ ((k0_off76_eq L).trans (show _ = subOff L 5 2 from rfl)) _ _ _ (fun _ => rfl))
@[sl_canon] theorem canon_os_k0_off77 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off77 L) S1x1x1x4096.size hh) hs).squeeze S4096 squeezes_S1x1x1x4096_S4096 = oSub L 5 3 :=
  congrArg (fun m => Memref.squeeze m S4096 squeezes_S1x1x1x4096_S4096) (Memref.slice_unit_congr _ ((k0_off77_eq L).trans (show _ = subOff L 5 3 from rfl)) _ _ _ (fun _ => rfl))
@[sl_canon] theorem canon_os_k0_off78 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off78 L) S1x1x1x4096.size hh) hs).squeeze S4096 squeezes_S1x1x1x4096_S4096 = oSub L 5 4 :=
  congrArg (fun m => Memref.squeeze m S4096 squeezes_S1x1x1x4096_S4096) (Memref.slice_unit_congr _ ((k0_off78_eq L).trans (show _ = subOff L 5 4 from rfl)) _ _ _ (fun _ => rfl))
@[sl_canon] theorem canon_os_k0_off79 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off79 L) S1x1x1x4096.size hh) hs).squeeze S4096 squeezes_S1x1x1x4096_S4096 = oSub L 5 5 :=
  congrArg (fun m => Memref.squeeze m S4096 squeezes_S1x1x1x4096_S4096) (Memref.slice_unit_congr _ ((k0_off79_eq L).trans (show _ = subOff L 5 5 from rfl)) _ _ _ (fun _ => rfl))
@[sl_canon] theorem canon_os_k0_off80 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off80 L) S1x1x1x4096.size hh) hs).squeeze S4096 squeezes_S1x1x1x4096_S4096 = oSub L 5 6 :=
  congrArg (fun m => Memref.squeeze m S4096 squeezes_S1x1x1x4096_S4096) (Memref.slice_unit_congr _ ((k0_off80_eq L).trans (show _ = subOff L 5 6 from rfl)) _ _ _ (fun _ => rfl))
@[sl_canon] theorem canon_os_k0_off81 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off81 L) S1x1x1x4096.size hh) hs).squeeze S4096 squeezes_S1x1x1x4096_S4096 = oSub L 5 7 :=
  congrArg (fun m => Memref.squeeze m S4096 squeezes_S1x1x1x4096_S4096) (Memref.slice_unit_congr _ ((k0_off81_eq L).trans (show _ = subOff L 5 7 from rfl)) _ _ _ (fun _ => rfl))
@[sl_canon] theorem canon_o_k0_off83 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off83 L) S1x1x1x32768.size hh) hs).squeeze S32768 squeezes_S1x1x1x32768_S32768 = oCh5 L :=
  congrArg (fun m => Memref.squeeze m S32768 squeezes_S1x1x1x32768_S32768) (Memref.slice_unit_congr _ (k0_off83_eq L) _ _ _ (fun _ => rfl))
@[sl_canon] theorem canon_o_k0_off84 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off84 L) S1x1x1x32768.size hh) hs).squeeze S32768 squeezes_S1x1x1x32768_S32768 = oCh4 L :=
  congrArg (fun m => Memref.squeeze m S32768 squeezes_S1x1x1x32768_S32768) (Memref.slice_unit_congr _ (k0_off84_eq L) _ _ _ (fun _ => rfl))
@[sl_canon] theorem canon_os_k0_off88 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off88 L) S1x1x1x4096.size hh) hs).squeeze S4096 squeezes_S1x1x1x4096_S4096 = oSub L 6 0 :=
  congrArg (fun m => Memref.squeeze m S4096 squeezes_S1x1x1x4096_S4096) (Memref.slice_unit_congr _ ((k0_off88_eq L).trans (show _ = subOff L 6 0 from rfl)) _ _ _ (fun _ => rfl))
@[sl_canon] theorem canon_os_k0_off89 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off89 L) S1x1x1x4096.size hh) hs).squeeze S4096 squeezes_S1x1x1x4096_S4096 = oSub L 6 1 :=
  congrArg (fun m => Memref.squeeze m S4096 squeezes_S1x1x1x4096_S4096) (Memref.slice_unit_congr _ ((k0_off89_eq L).trans (show _ = subOff L 6 1 from rfl)) _ _ _ (fun _ => rfl))
@[sl_canon] theorem canon_os_k0_off90 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off90 L) S1x1x1x4096.size hh) hs).squeeze S4096 squeezes_S1x1x1x4096_S4096 = oSub L 6 2 :=
  congrArg (fun m => Memref.squeeze m S4096 squeezes_S1x1x1x4096_S4096) (Memref.slice_unit_congr _ ((k0_off90_eq L).trans (show _ = subOff L 6 2 from rfl)) _ _ _ (fun _ => rfl))
@[sl_canon] theorem canon_os_k0_off91 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off91 L) S1x1x1x4096.size hh) hs).squeeze S4096 squeezes_S1x1x1x4096_S4096 = oSub L 6 3 :=
  congrArg (fun m => Memref.squeeze m S4096 squeezes_S1x1x1x4096_S4096) (Memref.slice_unit_congr _ ((k0_off91_eq L).trans (show _ = subOff L 6 3 from rfl)) _ _ _ (fun _ => rfl))
@[sl_canon] theorem canon_os_k0_off92 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off92 L) S1x1x1x4096.size hh) hs).squeeze S4096 squeezes_S1x1x1x4096_S4096 = oSub L 6 4 :=
  congrArg (fun m => Memref.squeeze m S4096 squeezes_S1x1x1x4096_S4096) (Memref.slice_unit_congr _ ((k0_off92_eq L).trans (show _ = subOff L 6 4 from rfl)) _ _ _ (fun _ => rfl))
@[sl_canon] theorem canon_os_k0_off93 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off93 L) S1x1x1x4096.size hh) hs).squeeze S4096 squeezes_S1x1x1x4096_S4096 = oSub L 6 5 :=
  congrArg (fun m => Memref.squeeze m S4096 squeezes_S1x1x1x4096_S4096) (Memref.slice_unit_congr _ ((k0_off93_eq L).trans (show _ = subOff L 6 5 from rfl)) _ _ _ (fun _ => rfl))
@[sl_canon] theorem canon_os_k0_off94 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off94 L) S1x1x1x4096.size hh) hs).squeeze S4096 squeezes_S1x1x1x4096_S4096 = oSub L 6 6 :=
  congrArg (fun m => Memref.squeeze m S4096 squeezes_S1x1x1x4096_S4096) (Memref.slice_unit_congr _ ((k0_off94_eq L).trans (show _ = subOff L 6 6 from rfl)) _ _ _ (fun _ => rfl))
@[sl_canon] theorem canon_os_k0_off95 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off95 L) S1x1x1x4096.size hh) hs).squeeze S4096 squeezes_S1x1x1x4096_S4096 = oSub L 6 7 :=
  congrArg (fun m => Memref.squeeze m S4096 squeezes_S1x1x1x4096_S4096) (Memref.slice_unit_congr _ ((k0_off95_eq L).trans (show _ = subOff L 6 7 from rfl)) _ _ _ (fun _ => rfl))
@[sl_canon] theorem canon_o_k0_off97 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off97 L) S1x1x1x32768.size hh) hs).squeeze S32768 squeezes_S1x1x1x32768_S32768 = oCh6 L :=
  congrArg (fun m => Memref.squeeze m S32768 squeezes_S1x1x1x32768_S32768) (Memref.slice_unit_congr _ (k0_off97_eq L) _ _ _ (fun _ => rfl))
@[sl_canon] theorem canon_o_k0_off98 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off98 L) S1x1x1x32768.size hh) hs).squeeze S32768 squeezes_S1x1x1x32768_S32768 = oCh5 L :=
  congrArg (fun m => Memref.squeeze m S32768 squeezes_S1x1x1x32768_S32768) (Memref.slice_unit_congr _ (k0_off98_eq L) _ _ _ (fun _ => rfl))
@[sl_canon] theorem canon_os_k0_off102 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off102 L) S1x1x1x4096.size hh) hs).squeeze S4096 squeezes_S1x1x1x4096_S4096 = oSub L 7 0 :=
  congrArg (fun m => Memref.squeeze m S4096 squeezes_S1x1x1x4096_S4096) (Memref.slice_unit_congr _ ((k0_off102_eq L).trans (show _ = subOff L 7 0 from rfl)) _ _ _ (fun _ => rfl))
@[sl_canon] theorem canon_os_k0_off103 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off103 L) S1x1x1x4096.size hh) hs).squeeze S4096 squeezes_S1x1x1x4096_S4096 = oSub L 7 1 :=
  congrArg (fun m => Memref.squeeze m S4096 squeezes_S1x1x1x4096_S4096) (Memref.slice_unit_congr _ ((k0_off103_eq L).trans (show _ = subOff L 7 1 from rfl)) _ _ _ (fun _ => rfl))
@[sl_canon] theorem canon_os_k0_off104 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off104 L) S1x1x1x4096.size hh) hs).squeeze S4096 squeezes_S1x1x1x4096_S4096 = oSub L 7 2 :=
  congrArg (fun m => Memref.squeeze m S4096 squeezes_S1x1x1x4096_S4096) (Memref.slice_unit_congr _ ((k0_off104_eq L).trans (show _ = subOff L 7 2 from rfl)) _ _ _ (fun _ => rfl))
@[sl_canon] theorem canon_os_k0_off105 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off105 L) S1x1x1x4096.size hh) hs).squeeze S4096 squeezes_S1x1x1x4096_S4096 = oSub L 7 3 :=
  congrArg (fun m => Memref.squeeze m S4096 squeezes_S1x1x1x4096_S4096) (Memref.slice_unit_congr _ ((k0_off105_eq L).trans (show _ = subOff L 7 3 from rfl)) _ _ _ (fun _ => rfl))
@[sl_canon] theorem canon_os_k0_off106 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off106 L) S1x1x1x4096.size hh) hs).squeeze S4096 squeezes_S1x1x1x4096_S4096 = oSub L 7 4 :=
  congrArg (fun m => Memref.squeeze m S4096 squeezes_S1x1x1x4096_S4096) (Memref.slice_unit_congr _ ((k0_off106_eq L).trans (show _ = subOff L 7 4 from rfl)) _ _ _ (fun _ => rfl))
@[sl_canon] theorem canon_os_k0_off107 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off107 L) S1x1x1x4096.size hh) hs).squeeze S4096 squeezes_S1x1x1x4096_S4096 = oSub L 7 5 :=
  congrArg (fun m => Memref.squeeze m S4096 squeezes_S1x1x1x4096_S4096) (Memref.slice_unit_congr _ ((k0_off107_eq L).trans (show _ = subOff L 7 5 from rfl)) _ _ _ (fun _ => rfl))
@[sl_canon] theorem canon_os_k0_off108 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off108 L) S1x1x1x4096.size hh) hs).squeeze S4096 squeezes_S1x1x1x4096_S4096 = oSub L 7 6 :=
  congrArg (fun m => Memref.squeeze m S4096 squeezes_S1x1x1x4096_S4096) (Memref.slice_unit_congr _ ((k0_off108_eq L).trans (show _ = subOff L 7 6 from rfl)) _ _ _ (fun _ => rfl))
@[sl_canon] theorem canon_os_k0_off109 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off109 L) S1x1x1x4096.size hh) hs).squeeze S4096 squeezes_S1x1x1x4096_S4096 = oSub L 7 7 :=
  congrArg (fun m => Memref.squeeze m S4096 squeezes_S1x1x1x4096_S4096) (Memref.slice_unit_congr _ ((k0_off109_eq L).trans (show _ = subOff L 7 7 from rfl)) _ _ _ (fun _ => rfl))
@[sl_canon] theorem canon_o_k0_off111 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off111 L) S1x1x1x32768.size hh) hs).squeeze S32768 squeezes_S1x1x1x32768_S32768 = oCh7 L :=
  congrArg (fun m => Memref.squeeze m S32768 squeezes_S1x1x1x32768_S32768) (Memref.slice_unit_congr _ (k0_off111_eq L) _ _ _ (fun _ => rfl))
@[sl_canon] theorem canon_o_k0_off112 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off112 L) S1x1x1x32768.size hh) hs).squeeze S32768 squeezes_S1x1x1x32768_S32768 = oCh6 L :=
  congrArg (fun m => Memref.squeeze m S32768 squeezes_S1x1x1x32768_S32768) (Memref.slice_unit_congr _ (k0_off112_eq L) _ _ _ (fun _ => rfl))
@[sl_canon] theorem canon_os_k0_off116 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off116 L) S1x1x1x4096.size hh) hs).squeeze S4096 squeezes_S1x1x1x4096_S4096 = oSub L 8 0 :=
  congrArg (fun m => Memref.squeeze m S4096 squeezes_S1x1x1x4096_S4096) (Memref.slice_unit_congr _ ((k0_off116_eq L).trans (show _ = subOff L 8 0 from rfl)) _ _ _ (fun _ => rfl))
@[sl_canon] theorem canon_os_k0_off117 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off117 L) S1x1x1x4096.size hh) hs).squeeze S4096 squeezes_S1x1x1x4096_S4096 = oSub L 8 1 :=
  congrArg (fun m => Memref.squeeze m S4096 squeezes_S1x1x1x4096_S4096) (Memref.slice_unit_congr _ ((k0_off117_eq L).trans (show _ = subOff L 8 1 from rfl)) _ _ _ (fun _ => rfl))
@[sl_canon] theorem canon_os_k0_off118 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off118 L) S1x1x1x4096.size hh) hs).squeeze S4096 squeezes_S1x1x1x4096_S4096 = oSub L 8 2 :=
  congrArg (fun m => Memref.squeeze m S4096 squeezes_S1x1x1x4096_S4096) (Memref.slice_unit_congr _ ((k0_off118_eq L).trans (show _ = subOff L 8 2 from rfl)) _ _ _ (fun _ => rfl))
@[sl_canon] theorem canon_os_k0_off119 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off119 L) S1x1x1x4096.size hh) hs).squeeze S4096 squeezes_S1x1x1x4096_S4096 = oSub L 8 3 :=
  congrArg (fun m => Memref.squeeze m S4096 squeezes_S1x1x1x4096_S4096) (Memref.slice_unit_congr _ ((k0_off119_eq L).trans (show _ = subOff L 8 3 from rfl)) _ _ _ (fun _ => rfl))
@[sl_canon] theorem canon_os_k0_off120 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off120 L) S1x1x1x4096.size hh) hs).squeeze S4096 squeezes_S1x1x1x4096_S4096 = oSub L 8 4 :=
  congrArg (fun m => Memref.squeeze m S4096 squeezes_S1x1x1x4096_S4096) (Memref.slice_unit_congr _ ((k0_off120_eq L).trans (show _ = subOff L 8 4 from rfl)) _ _ _ (fun _ => rfl))
@[sl_canon] theorem canon_os_k0_off121 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off121 L) S1x1x1x4096.size hh) hs).squeeze S4096 squeezes_S1x1x1x4096_S4096 = oSub L 8 5 :=
  congrArg (fun m => Memref.squeeze m S4096 squeezes_S1x1x1x4096_S4096) (Memref.slice_unit_congr _ ((k0_off121_eq L).trans (show _ = subOff L 8 5 from rfl)) _ _ _ (fun _ => rfl))
@[sl_canon] theorem canon_os_k0_off122 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off122 L) S1x1x1x4096.size hh) hs).squeeze S4096 squeezes_S1x1x1x4096_S4096 = oSub L 8 6 :=
  congrArg (fun m => Memref.squeeze m S4096 squeezes_S1x1x1x4096_S4096) (Memref.slice_unit_congr _ ((k0_off122_eq L).trans (show _ = subOff L 8 6 from rfl)) _ _ _ (fun _ => rfl))
@[sl_canon] theorem canon_os_k0_off123 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off123 L) S1x1x1x4096.size hh) hs).squeeze S4096 squeezes_S1x1x1x4096_S4096 = oSub L 8 7 :=
  congrArg (fun m => Memref.squeeze m S4096 squeezes_S1x1x1x4096_S4096) (Memref.slice_unit_congr _ ((k0_off123_eq L).trans (show _ = subOff L 8 7 from rfl)) _ _ _ (fun _ => rfl))
@[sl_canon] theorem canon_o_k0_off125 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off125 L) S1x1x1x32768.size hh) hs).squeeze S32768 squeezes_S1x1x1x32768_S32768 = oCh8 L :=
  congrArg (fun m => Memref.squeeze m S32768 squeezes_S1x1x1x32768_S32768) (Memref.slice_unit_congr _ (k0_off125_eq L) _ _ _ (fun _ => rfl))
@[sl_canon] theorem canon_o_k0_off126 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off126 L) S1x1x1x32768.size hh) hs).squeeze S32768 squeezes_S1x1x1x32768_S32768 = oCh7 L :=
  congrArg (fun m => Memref.squeeze m S32768 squeezes_S1x1x1x32768_S32768) (Memref.slice_unit_congr _ (k0_off126_eq L) _ _ _ (fun _ => rfl))
@[sl_canon] theorem canon_os_k0_off130 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off130 L) S1x1x1x4096.size hh) hs).squeeze S4096 squeezes_S1x1x1x4096_S4096 = oSub L 9 0 :=
  congrArg (fun m => Memref.squeeze m S4096 squeezes_S1x1x1x4096_S4096) (Memref.slice_unit_congr _ ((k0_off130_eq L).trans (show _ = subOff L 9 0 from rfl)) _ _ _ (fun _ => rfl))
@[sl_canon] theorem canon_os_k0_off131 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off131 L) S1x1x1x4096.size hh) hs).squeeze S4096 squeezes_S1x1x1x4096_S4096 = oSub L 9 1 :=
  congrArg (fun m => Memref.squeeze m S4096 squeezes_S1x1x1x4096_S4096) (Memref.slice_unit_congr _ ((k0_off131_eq L).trans (show _ = subOff L 9 1 from rfl)) _ _ _ (fun _ => rfl))
@[sl_canon] theorem canon_os_k0_off132 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off132 L) S1x1x1x4096.size hh) hs).squeeze S4096 squeezes_S1x1x1x4096_S4096 = oSub L 9 2 :=
  congrArg (fun m => Memref.squeeze m S4096 squeezes_S1x1x1x4096_S4096) (Memref.slice_unit_congr _ ((k0_off132_eq L).trans (show _ = subOff L 9 2 from rfl)) _ _ _ (fun _ => rfl))
@[sl_canon] theorem canon_os_k0_off133 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off133 L) S1x1x1x4096.size hh) hs).squeeze S4096 squeezes_S1x1x1x4096_S4096 = oSub L 9 3 :=
  congrArg (fun m => Memref.squeeze m S4096 squeezes_S1x1x1x4096_S4096) (Memref.slice_unit_congr _ ((k0_off133_eq L).trans (show _ = subOff L 9 3 from rfl)) _ _ _ (fun _ => rfl))
@[sl_canon] theorem canon_os_k0_off134 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off134 L) S1x1x1x4096.size hh) hs).squeeze S4096 squeezes_S1x1x1x4096_S4096 = oSub L 9 4 :=
  congrArg (fun m => Memref.squeeze m S4096 squeezes_S1x1x1x4096_S4096) (Memref.slice_unit_congr _ ((k0_off134_eq L).trans (show _ = subOff L 9 4 from rfl)) _ _ _ (fun _ => rfl))
@[sl_canon] theorem canon_os_k0_off135 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off135 L) S1x1x1x4096.size hh) hs).squeeze S4096 squeezes_S1x1x1x4096_S4096 = oSub L 9 5 :=
  congrArg (fun m => Memref.squeeze m S4096 squeezes_S1x1x1x4096_S4096) (Memref.slice_unit_congr _ ((k0_off135_eq L).trans (show _ = subOff L 9 5 from rfl)) _ _ _ (fun _ => rfl))
@[sl_canon] theorem canon_os_k0_off136 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off136 L) S1x1x1x4096.size hh) hs).squeeze S4096 squeezes_S1x1x1x4096_S4096 = oSub L 9 6 :=
  congrArg (fun m => Memref.squeeze m S4096 squeezes_S1x1x1x4096_S4096) (Memref.slice_unit_congr _ ((k0_off136_eq L).trans (show _ = subOff L 9 6 from rfl)) _ _ _ (fun _ => rfl))
@[sl_canon] theorem canon_os_k0_off137 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off137 L) S1x1x1x4096.size hh) hs).squeeze S4096 squeezes_S1x1x1x4096_S4096 = oSub L 9 7 :=
  congrArg (fun m => Memref.squeeze m S4096 squeezes_S1x1x1x4096_S4096) (Memref.slice_unit_congr _ ((k0_off137_eq L).trans (show _ = subOff L 9 7 from rfl)) _ _ _ (fun _ => rfl))
@[sl_canon] theorem canon_o_k0_off139 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off139 L) S1x1x1x32768.size hh) hs).squeeze S32768 squeezes_S1x1x1x32768_S32768 = oCh9 L :=
  congrArg (fun m => Memref.squeeze m S32768 squeezes_S1x1x1x32768_S32768) (Memref.slice_unit_congr _ (k0_off139_eq L) _ _ _ (fun _ => rfl))
@[sl_canon] theorem canon_o_k0_off140 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off140 L) S1x1x1x32768.size hh) hs).squeeze S32768 squeezes_S1x1x1x32768_S32768 = oCh8 L :=
  congrArg (fun m => Memref.squeeze m S32768 squeezes_S1x1x1x32768_S32768) (Memref.slice_unit_congr _ (k0_off140_eq L) _ _ _ (fun _ => rfl))
@[sl_canon] theorem canon_os_k0_off144 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off144 L) S1x1x1x4096.size hh) hs).squeeze S4096 squeezes_S1x1x1x4096_S4096 = oSub L 10 0 :=
  congrArg (fun m => Memref.squeeze m S4096 squeezes_S1x1x1x4096_S4096) (Memref.slice_unit_congr _ ((k0_off144_eq L).trans (show _ = subOff L 10 0 from rfl)) _ _ _ (fun _ => rfl))
@[sl_canon] theorem canon_os_k0_off145 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off145 L) S1x1x1x4096.size hh) hs).squeeze S4096 squeezes_S1x1x1x4096_S4096 = oSub L 10 1 :=
  congrArg (fun m => Memref.squeeze m S4096 squeezes_S1x1x1x4096_S4096) (Memref.slice_unit_congr _ ((k0_off145_eq L).trans (show _ = subOff L 10 1 from rfl)) _ _ _ (fun _ => rfl))
@[sl_canon] theorem canon_os_k0_off146 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off146 L) S1x1x1x4096.size hh) hs).squeeze S4096 squeezes_S1x1x1x4096_S4096 = oSub L 10 2 :=
  congrArg (fun m => Memref.squeeze m S4096 squeezes_S1x1x1x4096_S4096) (Memref.slice_unit_congr _ ((k0_off146_eq L).trans (show _ = subOff L 10 2 from rfl)) _ _ _ (fun _ => rfl))
@[sl_canon] theorem canon_os_k0_off147 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off147 L) S1x1x1x4096.size hh) hs).squeeze S4096 squeezes_S1x1x1x4096_S4096 = oSub L 10 3 :=
  congrArg (fun m => Memref.squeeze m S4096 squeezes_S1x1x1x4096_S4096) (Memref.slice_unit_congr _ ((k0_off147_eq L).trans (show _ = subOff L 10 3 from rfl)) _ _ _ (fun _ => rfl))
@[sl_canon] theorem canon_os_k0_off148 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off148 L) S1x1x1x4096.size hh) hs).squeeze S4096 squeezes_S1x1x1x4096_S4096 = oSub L 10 4 :=
  congrArg (fun m => Memref.squeeze m S4096 squeezes_S1x1x1x4096_S4096) (Memref.slice_unit_congr _ ((k0_off148_eq L).trans (show _ = subOff L 10 4 from rfl)) _ _ _ (fun _ => rfl))
@[sl_canon] theorem canon_os_k0_off149 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off149 L) S1x1x1x4096.size hh) hs).squeeze S4096 squeezes_S1x1x1x4096_S4096 = oSub L 10 5 :=
  congrArg (fun m => Memref.squeeze m S4096 squeezes_S1x1x1x4096_S4096) (Memref.slice_unit_congr _ ((k0_off149_eq L).trans (show _ = subOff L 10 5 from rfl)) _ _ _ (fun _ => rfl))
@[sl_canon] theorem canon_os_k0_off150 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off150 L) S1x1x1x4096.size hh) hs).squeeze S4096 squeezes_S1x1x1x4096_S4096 = oSub L 10 6 :=
  congrArg (fun m => Memref.squeeze m S4096 squeezes_S1x1x1x4096_S4096) (Memref.slice_unit_congr _ ((k0_off150_eq L).trans (show _ = subOff L 10 6 from rfl)) _ _ _ (fun _ => rfl))
@[sl_canon] theorem canon_os_k0_off151 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off151 L) S1x1x1x4096.size hh) hs).squeeze S4096 squeezes_S1x1x1x4096_S4096 = oSub L 10 7 :=
  congrArg (fun m => Memref.squeeze m S4096 squeezes_S1x1x1x4096_S4096) (Memref.slice_unit_congr _ ((k0_off151_eq L).trans (show _ = subOff L 10 7 from rfl)) _ _ _ (fun _ => rfl))
@[sl_canon] theorem canon_o_k0_off153 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off153 L) S1x1x1x32768.size hh) hs).squeeze S32768 squeezes_S1x1x1x32768_S32768 = oCh10 L :=
  congrArg (fun m => Memref.squeeze m S32768 squeezes_S1x1x1x32768_S32768) (Memref.slice_unit_congr _ (k0_off153_eq L) _ _ _ (fun _ => rfl))
@[sl_canon] theorem canon_o_k0_off154 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off154 L) S1x1x1x32768.size hh) hs).squeeze S32768 squeezes_S1x1x1x32768_S32768 = oCh9 L :=
  congrArg (fun m => Memref.squeeze m S32768 squeezes_S1x1x1x32768_S32768) (Memref.slice_unit_congr _ (k0_off154_eq L) _ _ _ (fun _ => rfl))
@[sl_canon] theorem canon_os_k0_off158 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off158 L) S1x1x1x4096.size hh) hs).squeeze S4096 squeezes_S1x1x1x4096_S4096 = oSub L 11 0 :=
  congrArg (fun m => Memref.squeeze m S4096 squeezes_S1x1x1x4096_S4096) (Memref.slice_unit_congr _ ((k0_off158_eq L).trans (show _ = subOff L 11 0 from rfl)) _ _ _ (fun _ => rfl))
@[sl_canon] theorem canon_os_k0_off159 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off159 L) S1x1x1x4096.size hh) hs).squeeze S4096 squeezes_S1x1x1x4096_S4096 = oSub L 11 1 :=
  congrArg (fun m => Memref.squeeze m S4096 squeezes_S1x1x1x4096_S4096) (Memref.slice_unit_congr _ ((k0_off159_eq L).trans (show _ = subOff L 11 1 from rfl)) _ _ _ (fun _ => rfl))
@[sl_canon] theorem canon_os_k0_off160 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off160 L) S1x1x1x4096.size hh) hs).squeeze S4096 squeezes_S1x1x1x4096_S4096 = oSub L 11 2 :=
  congrArg (fun m => Memref.squeeze m S4096 squeezes_S1x1x1x4096_S4096) (Memref.slice_unit_congr _ ((k0_off160_eq L).trans (show _ = subOff L 11 2 from rfl)) _ _ _ (fun _ => rfl))
@[sl_canon] theorem canon_os_k0_off161 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off161 L) S1x1x1x4096.size hh) hs).squeeze S4096 squeezes_S1x1x1x4096_S4096 = oSub L 11 3 :=
  congrArg (fun m => Memref.squeeze m S4096 squeezes_S1x1x1x4096_S4096) (Memref.slice_unit_congr _ ((k0_off161_eq L).trans (show _ = subOff L 11 3 from rfl)) _ _ _ (fun _ => rfl))
@[sl_canon] theorem canon_os_k0_off162 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off162 L) S1x1x1x4096.size hh) hs).squeeze S4096 squeezes_S1x1x1x4096_S4096 = oSub L 11 4 :=
  congrArg (fun m => Memref.squeeze m S4096 squeezes_S1x1x1x4096_S4096) (Memref.slice_unit_congr _ ((k0_off162_eq L).trans (show _ = subOff L 11 4 from rfl)) _ _ _ (fun _ => rfl))
@[sl_canon] theorem canon_os_k0_off163 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off163 L) S1x1x1x4096.size hh) hs).squeeze S4096 squeezes_S1x1x1x4096_S4096 = oSub L 11 5 :=
  congrArg (fun m => Memref.squeeze m S4096 squeezes_S1x1x1x4096_S4096) (Memref.slice_unit_congr _ ((k0_off163_eq L).trans (show _ = subOff L 11 5 from rfl)) _ _ _ (fun _ => rfl))
@[sl_canon] theorem canon_os_k0_off164 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off164 L) S1x1x1x4096.size hh) hs).squeeze S4096 squeezes_S1x1x1x4096_S4096 = oSub L 11 6 :=
  congrArg (fun m => Memref.squeeze m S4096 squeezes_S1x1x1x4096_S4096) (Memref.slice_unit_congr _ ((k0_off164_eq L).trans (show _ = subOff L 11 6 from rfl)) _ _ _ (fun _ => rfl))
@[sl_canon] theorem canon_os_k0_off165 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off165 L) S1x1x1x4096.size hh) hs).squeeze S4096 squeezes_S1x1x1x4096_S4096 = oSub L 11 7 :=
  congrArg (fun m => Memref.squeeze m S4096 squeezes_S1x1x1x4096_S4096) (Memref.slice_unit_congr _ ((k0_off165_eq L).trans (show _ = subOff L 11 7 from rfl)) _ _ _ (fun _ => rfl))
@[sl_canon] theorem canon_o_k0_off167 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off167 L) S1x1x1x32768.size hh) hs).squeeze S32768 squeezes_S1x1x1x32768_S32768 = oCh11 L :=
  congrArg (fun m => Memref.squeeze m S32768 squeezes_S1x1x1x32768_S32768) (Memref.slice_unit_congr _ (k0_off167_eq L) _ _ _ (fun _ => rfl))
@[sl_canon] theorem canon_o_k0_off168 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off168 L) S1x1x1x32768.size hh) hs).squeeze S32768 squeezes_S1x1x1x32768_S32768 = oCh10 L :=
  congrArg (fun m => Memref.squeeze m S32768 squeezes_S1x1x1x32768_S32768) (Memref.slice_unit_congr _ (k0_off168_eq L) _ _ _ (fun _ => rfl))
@[sl_canon] theorem canon_os_k0_off172 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off172 L) S1x1x1x4096.size hh) hs).squeeze S4096 squeezes_S1x1x1x4096_S4096 = oSub L 12 0 :=
  congrArg (fun m => Memref.squeeze m S4096 squeezes_S1x1x1x4096_S4096) (Memref.slice_unit_congr _ ((k0_off172_eq L).trans (show _ = subOff L 12 0 from rfl)) _ _ _ (fun _ => rfl))
@[sl_canon] theorem canon_os_k0_off173 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off173 L) S1x1x1x4096.size hh) hs).squeeze S4096 squeezes_S1x1x1x4096_S4096 = oSub L 12 1 :=
  congrArg (fun m => Memref.squeeze m S4096 squeezes_S1x1x1x4096_S4096) (Memref.slice_unit_congr _ ((k0_off173_eq L).trans (show _ = subOff L 12 1 from rfl)) _ _ _ (fun _ => rfl))
@[sl_canon] theorem canon_os_k0_off174 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off174 L) S1x1x1x4096.size hh) hs).squeeze S4096 squeezes_S1x1x1x4096_S4096 = oSub L 12 2 :=
  congrArg (fun m => Memref.squeeze m S4096 squeezes_S1x1x1x4096_S4096) (Memref.slice_unit_congr _ ((k0_off174_eq L).trans (show _ = subOff L 12 2 from rfl)) _ _ _ (fun _ => rfl))
@[sl_canon] theorem canon_os_k0_off175 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off175 L) S1x1x1x4096.size hh) hs).squeeze S4096 squeezes_S1x1x1x4096_S4096 = oSub L 12 3 :=
  congrArg (fun m => Memref.squeeze m S4096 squeezes_S1x1x1x4096_S4096) (Memref.slice_unit_congr _ ((k0_off175_eq L).trans (show _ = subOff L 12 3 from rfl)) _ _ _ (fun _ => rfl))
@[sl_canon] theorem canon_os_k0_off176 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off176 L) S1x1x1x4096.size hh) hs).squeeze S4096 squeezes_S1x1x1x4096_S4096 = oSub L 12 4 :=
  congrArg (fun m => Memref.squeeze m S4096 squeezes_S1x1x1x4096_S4096) (Memref.slice_unit_congr _ ((k0_off176_eq L).trans (show _ = subOff L 12 4 from rfl)) _ _ _ (fun _ => rfl))
@[sl_canon] theorem canon_os_k0_off177 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off177 L) S1x1x1x4096.size hh) hs).squeeze S4096 squeezes_S1x1x1x4096_S4096 = oSub L 12 5 :=
  congrArg (fun m => Memref.squeeze m S4096 squeezes_S1x1x1x4096_S4096) (Memref.slice_unit_congr _ ((k0_off177_eq L).trans (show _ = subOff L 12 5 from rfl)) _ _ _ (fun _ => rfl))
@[sl_canon] theorem canon_os_k0_off178 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off178 L) S1x1x1x4096.size hh) hs).squeeze S4096 squeezes_S1x1x1x4096_S4096 = oSub L 12 6 :=
  congrArg (fun m => Memref.squeeze m S4096 squeezes_S1x1x1x4096_S4096) (Memref.slice_unit_congr _ ((k0_off178_eq L).trans (show _ = subOff L 12 6 from rfl)) _ _ _ (fun _ => rfl))
@[sl_canon] theorem canon_os_k0_off179 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off179 L) S1x1x1x4096.size hh) hs).squeeze S4096 squeezes_S1x1x1x4096_S4096 = oSub L 12 7 :=
  congrArg (fun m => Memref.squeeze m S4096 squeezes_S1x1x1x4096_S4096) (Memref.slice_unit_congr _ ((k0_off179_eq L).trans (show _ = subOff L 12 7 from rfl)) _ _ _ (fun _ => rfl))
@[sl_canon] theorem canon_o_k0_off181 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off181 L) S1x1x1x32768.size hh) hs).squeeze S32768 squeezes_S1x1x1x32768_S32768 = oCh12 L :=
  congrArg (fun m => Memref.squeeze m S32768 squeezes_S1x1x1x32768_S32768) (Memref.slice_unit_congr _ (k0_off181_eq L) _ _ _ (fun _ => rfl))
@[sl_canon] theorem canon_o_k0_off182 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off182 L) S1x1x1x32768.size hh) hs).squeeze S32768 squeezes_S1x1x1x32768_S32768 = oCh11 L :=
  congrArg (fun m => Memref.squeeze m S32768 squeezes_S1x1x1x32768_S32768) (Memref.slice_unit_congr _ (k0_off182_eq L) _ _ _ (fun _ => rfl))
@[sl_canon] theorem canon_os_k0_off186 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off186 L) S1x1x1x4096.size hh) hs).squeeze S4096 squeezes_S1x1x1x4096_S4096 = oSub L 13 0 :=
  congrArg (fun m => Memref.squeeze m S4096 squeezes_S1x1x1x4096_S4096) (Memref.slice_unit_congr _ ((k0_off186_eq L).trans (show _ = subOff L 13 0 from rfl)) _ _ _ (fun _ => rfl))
@[sl_canon] theorem canon_os_k0_off187 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off187 L) S1x1x1x4096.size hh) hs).squeeze S4096 squeezes_S1x1x1x4096_S4096 = oSub L 13 1 :=
  congrArg (fun m => Memref.squeeze m S4096 squeezes_S1x1x1x4096_S4096) (Memref.slice_unit_congr _ ((k0_off187_eq L).trans (show _ = subOff L 13 1 from rfl)) _ _ _ (fun _ => rfl))
@[sl_canon] theorem canon_os_k0_off188 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off188 L) S1x1x1x4096.size hh) hs).squeeze S4096 squeezes_S1x1x1x4096_S4096 = oSub L 13 2 :=
  congrArg (fun m => Memref.squeeze m S4096 squeezes_S1x1x1x4096_S4096) (Memref.slice_unit_congr _ ((k0_off188_eq L).trans (show _ = subOff L 13 2 from rfl)) _ _ _ (fun _ => rfl))
@[sl_canon] theorem canon_os_k0_off189 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off189 L) S1x1x1x4096.size hh) hs).squeeze S4096 squeezes_S1x1x1x4096_S4096 = oSub L 13 3 :=
  congrArg (fun m => Memref.squeeze m S4096 squeezes_S1x1x1x4096_S4096) (Memref.slice_unit_congr _ ((k0_off189_eq L).trans (show _ = subOff L 13 3 from rfl)) _ _ _ (fun _ => rfl))
@[sl_canon] theorem canon_os_k0_off190 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off190 L) S1x1x1x4096.size hh) hs).squeeze S4096 squeezes_S1x1x1x4096_S4096 = oSub L 13 4 :=
  congrArg (fun m => Memref.squeeze m S4096 squeezes_S1x1x1x4096_S4096) (Memref.slice_unit_congr _ ((k0_off190_eq L).trans (show _ = subOff L 13 4 from rfl)) _ _ _ (fun _ => rfl))
@[sl_canon] theorem canon_os_k0_off191 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off191 L) S1x1x1x4096.size hh) hs).squeeze S4096 squeezes_S1x1x1x4096_S4096 = oSub L 13 5 :=
  congrArg (fun m => Memref.squeeze m S4096 squeezes_S1x1x1x4096_S4096) (Memref.slice_unit_congr _ ((k0_off191_eq L).trans (show _ = subOff L 13 5 from rfl)) _ _ _ (fun _ => rfl))
@[sl_canon] theorem canon_os_k0_off192 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off192 L) S1x1x1x4096.size hh) hs).squeeze S4096 squeezes_S1x1x1x4096_S4096 = oSub L 13 6 :=
  congrArg (fun m => Memref.squeeze m S4096 squeezes_S1x1x1x4096_S4096) (Memref.slice_unit_congr _ ((k0_off192_eq L).trans (show _ = subOff L 13 6 from rfl)) _ _ _ (fun _ => rfl))
@[sl_canon] theorem canon_os_k0_off193 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off193 L) S1x1x1x4096.size hh) hs).squeeze S4096 squeezes_S1x1x1x4096_S4096 = oSub L 13 7 :=
  congrArg (fun m => Memref.squeeze m S4096 squeezes_S1x1x1x4096_S4096) (Memref.slice_unit_congr _ ((k0_off193_eq L).trans (show _ = subOff L 13 7 from rfl)) _ _ _ (fun _ => rfl))
@[sl_canon] theorem canon_o_k0_off195 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off195 L) S1x1x1x32768.size hh) hs).squeeze S32768 squeezes_S1x1x1x32768_S32768 = oCh13 L :=
  congrArg (fun m => Memref.squeeze m S32768 squeezes_S1x1x1x32768_S32768) (Memref.slice_unit_congr _ (k0_off195_eq L) _ _ _ (fun _ => rfl))
@[sl_canon] theorem canon_o_k0_off196 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off196 L) S1x1x1x32768.size hh) hs).squeeze S32768 squeezes_S1x1x1x32768_S32768 = oCh12 L :=
  congrArg (fun m => Memref.squeeze m S32768 squeezes_S1x1x1x32768_S32768) (Memref.slice_unit_congr _ (k0_off196_eq L) _ _ _ (fun _ => rfl))
@[sl_canon] theorem canon_os_k0_off200 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off200 L) S1x1x1x4096.size hh) hs).squeeze S4096 squeezes_S1x1x1x4096_S4096 = oSub L 14 0 :=
  congrArg (fun m => Memref.squeeze m S4096 squeezes_S1x1x1x4096_S4096) (Memref.slice_unit_congr _ ((k0_off200_eq L).trans (show _ = subOff L 14 0 from rfl)) _ _ _ (fun _ => rfl))
@[sl_canon] theorem canon_os_k0_off201 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off201 L) S1x1x1x4096.size hh) hs).squeeze S4096 squeezes_S1x1x1x4096_S4096 = oSub L 14 1 :=
  congrArg (fun m => Memref.squeeze m S4096 squeezes_S1x1x1x4096_S4096) (Memref.slice_unit_congr _ ((k0_off201_eq L).trans (show _ = subOff L 14 1 from rfl)) _ _ _ (fun _ => rfl))
@[sl_canon] theorem canon_os_k0_off202 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off202 L) S1x1x1x4096.size hh) hs).squeeze S4096 squeezes_S1x1x1x4096_S4096 = oSub L 14 2 :=
  congrArg (fun m => Memref.squeeze m S4096 squeezes_S1x1x1x4096_S4096) (Memref.slice_unit_congr _ ((k0_off202_eq L).trans (show _ = subOff L 14 2 from rfl)) _ _ _ (fun _ => rfl))
@[sl_canon] theorem canon_os_k0_off203 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off203 L) S1x1x1x4096.size hh) hs).squeeze S4096 squeezes_S1x1x1x4096_S4096 = oSub L 14 3 :=
  congrArg (fun m => Memref.squeeze m S4096 squeezes_S1x1x1x4096_S4096) (Memref.slice_unit_congr _ ((k0_off203_eq L).trans (show _ = subOff L 14 3 from rfl)) _ _ _ (fun _ => rfl))
@[sl_canon] theorem canon_os_k0_off204 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off204 L) S1x1x1x4096.size hh) hs).squeeze S4096 squeezes_S1x1x1x4096_S4096 = oSub L 14 4 :=
  congrArg (fun m => Memref.squeeze m S4096 squeezes_S1x1x1x4096_S4096) (Memref.slice_unit_congr _ ((k0_off204_eq L).trans (show _ = subOff L 14 4 from rfl)) _ _ _ (fun _ => rfl))
@[sl_canon] theorem canon_os_k0_off205 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off205 L) S1x1x1x4096.size hh) hs).squeeze S4096 squeezes_S1x1x1x4096_S4096 = oSub L 14 5 :=
  congrArg (fun m => Memref.squeeze m S4096 squeezes_S1x1x1x4096_S4096) (Memref.slice_unit_congr _ ((k0_off205_eq L).trans (show _ = subOff L 14 5 from rfl)) _ _ _ (fun _ => rfl))
@[sl_canon] theorem canon_os_k0_off206 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off206 L) S1x1x1x4096.size hh) hs).squeeze S4096 squeezes_S1x1x1x4096_S4096 = oSub L 14 6 :=
  congrArg (fun m => Memref.squeeze m S4096 squeezes_S1x1x1x4096_S4096) (Memref.slice_unit_congr _ ((k0_off206_eq L).trans (show _ = subOff L 14 6 from rfl)) _ _ _ (fun _ => rfl))
@[sl_canon] theorem canon_os_k0_off207 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off207 L) S1x1x1x4096.size hh) hs).squeeze S4096 squeezes_S1x1x1x4096_S4096 = oSub L 14 7 :=
  congrArg (fun m => Memref.squeeze m S4096 squeezes_S1x1x1x4096_S4096) (Memref.slice_unit_congr _ ((k0_off207_eq L).trans (show _ = subOff L 14 7 from rfl)) _ _ _ (fun _ => rfl))
@[sl_canon] theorem canon_o_k0_off209 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off209 L) S1x1x1x32768.size hh) hs).squeeze S32768 squeezes_S1x1x1x32768_S32768 = oCh14 L :=
  congrArg (fun m => Memref.squeeze m S32768 squeezes_S1x1x1x32768_S32768) (Memref.slice_unit_congr _ (k0_off209_eq L) _ _ _ (fun _ => rfl))
@[sl_canon] theorem canon_os_k0_off210 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off210 L) S1x1x1x4096.size hh) hs).squeeze S4096 squeezes_S1x1x1x4096_S4096 = oSub L 15 0 :=
  congrArg (fun m => Memref.squeeze m S4096 squeezes_S1x1x1x4096_S4096) (Memref.slice_unit_congr _ ((k0_off210_eq L).trans (show _ = subOff L 15 0 from rfl)) _ _ _ (fun _ => rfl))
@[sl_canon] theorem canon_os_k0_off211 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off211 L) S1x1x1x4096.size hh) hs).squeeze S4096 squeezes_S1x1x1x4096_S4096 = oSub L 15 1 :=
  congrArg (fun m => Memref.squeeze m S4096 squeezes_S1x1x1x4096_S4096) (Memref.slice_unit_congr _ ((k0_off211_eq L).trans (show _ = subOff L 15 1 from rfl)) _ _ _ (fun _ => rfl))
@[sl_canon] theorem canon_os_k0_off212 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off212 L) S1x1x1x4096.size hh) hs).squeeze S4096 squeezes_S1x1x1x4096_S4096 = oSub L 15 2 :=
  congrArg (fun m => Memref.squeeze m S4096 squeezes_S1x1x1x4096_S4096) (Memref.slice_unit_congr _ ((k0_off212_eq L).trans (show _ = subOff L 15 2 from rfl)) _ _ _ (fun _ => rfl))
@[sl_canon] theorem canon_os_k0_off213 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off213 L) S1x1x1x4096.size hh) hs).squeeze S4096 squeezes_S1x1x1x4096_S4096 = oSub L 15 3 :=
  congrArg (fun m => Memref.squeeze m S4096 squeezes_S1x1x1x4096_S4096) (Memref.slice_unit_congr _ ((k0_off213_eq L).trans (show _ = subOff L 15 3 from rfl)) _ _ _ (fun _ => rfl))
@[sl_canon] theorem canon_os_k0_off214 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off214 L) S1x1x1x4096.size hh) hs).squeeze S4096 squeezes_S1x1x1x4096_S4096 = oSub L 15 4 :=
  congrArg (fun m => Memref.squeeze m S4096 squeezes_S1x1x1x4096_S4096) (Memref.slice_unit_congr _ ((k0_off214_eq L).trans (show _ = subOff L 15 4 from rfl)) _ _ _ (fun _ => rfl))
@[sl_canon] theorem canon_os_k0_off215 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off215 L) S1x1x1x4096.size hh) hs).squeeze S4096 squeezes_S1x1x1x4096_S4096 = oSub L 15 5 :=
  congrArg (fun m => Memref.squeeze m S4096 squeezes_S1x1x1x4096_S4096) (Memref.slice_unit_congr _ ((k0_off215_eq L).trans (show _ = subOff L 15 5 from rfl)) _ _ _ (fun _ => rfl))
@[sl_canon] theorem canon_os_k0_off216 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off216 L) S1x1x1x4096.size hh) hs).squeeze S4096 squeezes_S1x1x1x4096_S4096 = oSub L 15 6 :=
  congrArg (fun m => Memref.squeeze m S4096 squeezes_S1x1x1x4096_S4096) (Memref.slice_unit_congr _ ((k0_off216_eq L).trans (show _ = subOff L 15 6 from rfl)) _ _ _ (fun _ => rfl))
@[sl_canon] theorem canon_os_k0_off217 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off217 L) S1x1x1x4096.size hh) hs).squeeze S4096 squeezes_S1x1x1x4096_S4096 = oSub L 15 7 :=
  congrArg (fun m => Memref.squeeze m S4096 squeezes_S1x1x1x4096_S4096) (Memref.slice_unit_congr _ ((k0_off217_eq L).trans (show _ = subOff L 15 7 from rfl)) _ _ _ (fun _ => rfl))
@[sl_canon] theorem canon_o_k0_off219 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off219 L) S1x1x1x32768.size hh) hs).squeeze S32768 squeezes_S1x1x1x32768_S32768 = oCh15 L :=
  congrArg (fun m => Memref.squeeze m S32768 squeezes_S1x1x1x32768_S32768) (Memref.slice_unit_congr _ (k0_off219_eq L) _ _ _ (fun _ => rfl))
@[sl_canon] theorem canon_o_k0_off220 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off220 L) S1x1x1x32768.size hh) hs).squeeze S32768 squeezes_S1x1x1x32768_S32768 = oCh13 L :=
  congrArg (fun m => Memref.squeeze m S32768 squeezes_S1x1x1x32768_S32768) (Memref.slice_unit_congr _ (k0_off220_eq L) _ _ _ (fun _ => rfl))
@[sl_canon] theorem canon_o_k0_off222 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off222 L) S1x1x1x32768.size hh) hs).squeeze S32768 squeezes_S1x1x1x32768_S32768 = oCh14 L :=
  congrArg (fun m => Memref.squeeze m S32768 squeezes_S1x1x1x32768_S32768) (Memref.slice_unit_congr _ (k0_off222_eq L) _ _ _ (fun _ => rfl))
@[sl_canon] theorem canon_o_k0_off224 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off224 L) S1x1x1x32768.size hh) hs).squeeze S32768 squeezes_S1x1x1x32768_S32768 = oCh15 L :=
  congrArg (fun m => Memref.squeeze m S32768 squeezes_S1x1x1x32768_S32768) (Memref.slice_unit_congr _ (k0_off224_eq L) _ _ _ (fun _ => rfl))
@[sl_canon] theorem canon_os_k0_off226 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off226 L) S1x1x1x4096.size hh) hs).squeeze S4096 squeezes_S1x1x1x4096_S4096 = oSub L 0 0 :=
  congrArg (fun m => Memref.squeeze m S4096 squeezes_S1x1x1x4096_S4096) (Memref.slice_unit_congr _ ((k0_off226_eq L).trans (show _ = subOff L 0 0 from rfl)) _ _ _ (fun _ => rfl))
@[sl_canon] theorem canon_os_k0_off227 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off227 L) S1x1x1x4096.size hh) hs).squeeze S4096 squeezes_S1x1x1x4096_S4096 = oSub L 0 1 :=
  congrArg (fun m => Memref.squeeze m S4096 squeezes_S1x1x1x4096_S4096) (Memref.slice_unit_congr _ ((k0_off227_eq L).trans (show _ = subOff L 0 1 from rfl)) _ _ _ (fun _ => rfl))
@[sl_canon] theorem canon_os_k0_off228 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off228 L) S1x1x1x4096.size hh) hs).squeeze S4096 squeezes_S1x1x1x4096_S4096 = oSub L 0 2 :=
  congrArg (fun m => Memref.squeeze m S4096 squeezes_S1x1x1x4096_S4096) (Memref.slice_unit_congr _ ((k0_off228_eq L).trans (show _ = subOff L 0 2 from rfl)) _ _ _ (fun _ => rfl))
@[sl_canon] theorem canon_os_k0_off229 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off229 L) S1x1x1x4096.size hh) hs).squeeze S4096 squeezes_S1x1x1x4096_S4096 = oSub L 0 3 :=
  congrArg (fun m => Memref.squeeze m S4096 squeezes_S1x1x1x4096_S4096) (Memref.slice_unit_congr _ ((k0_off229_eq L).trans (show _ = subOff L 0 3 from rfl)) _ _ _ (fun _ => rfl))
@[sl_canon] theorem canon_os_k0_off230 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off230 L) S1x1x1x4096.size hh) hs).squeeze S4096 squeezes_S1x1x1x4096_S4096 = oSub L 0 4 :=
  congrArg (fun m => Memref.squeeze m S4096 squeezes_S1x1x1x4096_S4096) (Memref.slice_unit_congr _ ((k0_off230_eq L).trans (show _ = subOff L 0 4 from rfl)) _ _ _ (fun _ => rfl))
@[sl_canon] theorem canon_os_k0_off231 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off231 L) S1x1x1x4096.size hh) hs).squeeze S4096 squeezes_S1x1x1x4096_S4096 = oSub L 0 5 :=
  congrArg (fun m => Memref.squeeze m S4096 squeezes_S1x1x1x4096_S4096) (Memref.slice_unit_congr _ ((k0_off231_eq L).trans (show _ = subOff L 0 5 from rfl)) _ _ _ (fun _ => rfl))
@[sl_canon] theorem canon_os_k0_off232 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off232 L) S1x1x1x4096.size hh) hs).squeeze S4096 squeezes_S1x1x1x4096_S4096 = oSub L 0 6 :=
  congrArg (fun m => Memref.squeeze m S4096 squeezes_S1x1x1x4096_S4096) (Memref.slice_unit_congr _ ((k0_off232_eq L).trans (show _ = subOff L 0 6 from rfl)) _ _ _ (fun _ => rfl))
@[sl_canon] theorem canon_os_k0_off233 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off233 L) S1x1x1x4096.size hh) hs).squeeze S4096 squeezes_S1x1x1x4096_S4096 = oSub L 0 7 :=
  congrArg (fun m => Memref.squeeze m S4096 squeezes_S1x1x1x4096_S4096) (Memref.slice_unit_congr _ ((k0_off233_eq L).trans (show _ = subOff L 0 7 from rfl)) _ _ _ (fun _ => rfl))
@[sl_canon] theorem canon_os_k0_off234 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off234 L) S1x1x1x4096.size hh) hs).squeeze S4096 squeezes_S1x1x1x4096_S4096 = oSub L 1 0 :=
  congrArg (fun m => Memref.squeeze m S4096 squeezes_S1x1x1x4096_S4096) (Memref.slice_unit_congr _ ((k0_off234_eq L).trans (show _ = subOff L 1 0 from rfl)) _ _ _ (fun _ => rfl))
@[sl_canon] theorem canon_os_k0_off235 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off235 L) S1x1x1x4096.size hh) hs).squeeze S4096 squeezes_S1x1x1x4096_S4096 = oSub L 1 1 :=
  congrArg (fun m => Memref.squeeze m S4096 squeezes_S1x1x1x4096_S4096) (Memref.slice_unit_congr _ ((k0_off235_eq L).trans (show _ = subOff L 1 1 from rfl)) _ _ _ (fun _ => rfl))
@[sl_canon] theorem canon_os_k0_off236 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off236 L) S1x1x1x4096.size hh) hs).squeeze S4096 squeezes_S1x1x1x4096_S4096 = oSub L 1 2 :=
  congrArg (fun m => Memref.squeeze m S4096 squeezes_S1x1x1x4096_S4096) (Memref.slice_unit_congr _ ((k0_off236_eq L).trans (show _ = subOff L 1 2 from rfl)) _ _ _ (fun _ => rfl))
@[sl_canon] theorem canon_os_k0_off237 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off237 L) S1x1x1x4096.size hh) hs).squeeze S4096 squeezes_S1x1x1x4096_S4096 = oSub L 1 3 :=
  congrArg (fun m => Memref.squeeze m S4096 squeezes_S1x1x1x4096_S4096) (Memref.slice_unit_congr _ ((k0_off237_eq L).trans (show _ = subOff L 1 3 from rfl)) _ _ _ (fun _ => rfl))
@[sl_canon] theorem canon_os_k0_off238 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off238 L) S1x1x1x4096.size hh) hs).squeeze S4096 squeezes_S1x1x1x4096_S4096 = oSub L 1 4 :=
  congrArg (fun m => Memref.squeeze m S4096 squeezes_S1x1x1x4096_S4096) (Memref.slice_unit_congr _ ((k0_off238_eq L).trans (show _ = subOff L 1 4 from rfl)) _ _ _ (fun _ => rfl))
@[sl_canon] theorem canon_os_k0_off239 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off239 L) S1x1x1x4096.size hh) hs).squeeze S4096 squeezes_S1x1x1x4096_S4096 = oSub L 1 5 :=
  congrArg (fun m => Memref.squeeze m S4096 squeezes_S1x1x1x4096_S4096) (Memref.slice_unit_congr _ ((k0_off239_eq L).trans (show _ = subOff L 1 5 from rfl)) _ _ _ (fun _ => rfl))
@[sl_canon] theorem canon_os_k0_off240 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off240 L) S1x1x1x4096.size hh) hs).squeeze S4096 squeezes_S1x1x1x4096_S4096 = oSub L 1 6 :=
  congrArg (fun m => Memref.squeeze m S4096 squeezes_S1x1x1x4096_S4096) (Memref.slice_unit_congr _ ((k0_off240_eq L).trans (show _ = subOff L 1 6 from rfl)) _ _ _ (fun _ => rfl))
@[sl_canon] theorem canon_os_k0_off241 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off241 L) S1x1x1x4096.size hh) hs).squeeze S4096 squeezes_S1x1x1x4096_S4096 = oSub L 1 7 :=
  congrArg (fun m => Memref.squeeze m S4096 squeezes_S1x1x1x4096_S4096) (Memref.slice_unit_congr _ ((k0_off241_eq L).trans (show _ = subOff L 1 7 from rfl)) _ _ _ (fun _ => rfl))
@[sl_canon] theorem canon_os_k0_off242 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off242 L) S1x1x1x4096.size hh) hs).squeeze S4096 squeezes_S1x1x1x4096_S4096 = oSub L 2 0 :=
  congrArg (fun m => Memref.squeeze m S4096 squeezes_S1x1x1x4096_S4096) (Memref.slice_unit_congr _ ((k0_off242_eq L).trans (show _ = subOff L 2 0 from rfl)) _ _ _ (fun _ => rfl))
@[sl_canon] theorem canon_os_k0_off243 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off243 L) S1x1x1x4096.size hh) hs).squeeze S4096 squeezes_S1x1x1x4096_S4096 = oSub L 2 1 :=
  congrArg (fun m => Memref.squeeze m S4096 squeezes_S1x1x1x4096_S4096) (Memref.slice_unit_congr _ ((k0_off243_eq L).trans (show _ = subOff L 2 1 from rfl)) _ _ _ (fun _ => rfl))
@[sl_canon] theorem canon_os_k0_off244 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off244 L) S1x1x1x4096.size hh) hs).squeeze S4096 squeezes_S1x1x1x4096_S4096 = oSub L 2 2 :=
  congrArg (fun m => Memref.squeeze m S4096 squeezes_S1x1x1x4096_S4096) (Memref.slice_unit_congr _ ((k0_off244_eq L).trans (show _ = subOff L 2 2 from rfl)) _ _ _ (fun _ => rfl))
@[sl_canon] theorem canon_os_k0_off245 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off245 L) S1x1x1x4096.size hh) hs).squeeze S4096 squeezes_S1x1x1x4096_S4096 = oSub L 2 3 :=
  congrArg (fun m => Memref.squeeze m S4096 squeezes_S1x1x1x4096_S4096) (Memref.slice_unit_congr _ ((k0_off245_eq L).trans (show _ = subOff L 2 3 from rfl)) _ _ _ (fun _ => rfl))
@[sl_canon] theorem canon_os_k0_off246 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off246 L) S1x1x1x4096.size hh) hs).squeeze S4096 squeezes_S1x1x1x4096_S4096 = oSub L 2 4 :=
  congrArg (fun m => Memref.squeeze m S4096 squeezes_S1x1x1x4096_S4096) (Memref.slice_unit_congr _ ((k0_off246_eq L).trans (show _ = subOff L 2 4 from rfl)) _ _ _ (fun _ => rfl))
@[sl_canon] theorem canon_os_k0_off247 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off247 L) S1x1x1x4096.size hh) hs).squeeze S4096 squeezes_S1x1x1x4096_S4096 = oSub L 2 5 :=
  congrArg (fun m => Memref.squeeze m S4096 squeezes_S1x1x1x4096_S4096) (Memref.slice_unit_congr _ ((k0_off247_eq L).trans (show _ = subOff L 2 5 from rfl)) _ _ _ (fun _ => rfl))
@[sl_canon] theorem canon_os_k0_off248 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off248 L) S1x1x1x4096.size hh) hs).squeeze S4096 squeezes_S1x1x1x4096_S4096 = oSub L 2 6 :=
  congrArg (fun m => Memref.squeeze m S4096 squeezes_S1x1x1x4096_S4096) (Memref.slice_unit_congr _ ((k0_off248_eq L).trans (show _ = subOff L 2 6 from rfl)) _ _ _ (fun _ => rfl))
@[sl_canon] theorem canon_os_k0_off249 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off249 L) S1x1x1x4096.size hh) hs).squeeze S4096 squeezes_S1x1x1x4096_S4096 = oSub L 2 7 :=
  congrArg (fun m => Memref.squeeze m S4096 squeezes_S1x1x1x4096_S4096) (Memref.slice_unit_congr _ ((k0_off249_eq L).trans (show _ = subOff L 2 7 from rfl)) _ _ _ (fun _ => rfl))
@[sl_canon] theorem canon_os_k0_off250 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off250 L) S1x1x1x4096.size hh) hs).squeeze S4096 squeezes_S1x1x1x4096_S4096 = oSub L 3 0 :=
  congrArg (fun m => Memref.squeeze m S4096 squeezes_S1x1x1x4096_S4096) (Memref.slice_unit_congr _ ((k0_off250_eq L).trans (show _ = subOff L 3 0 from rfl)) _ _ _ (fun _ => rfl))
@[sl_canon] theorem canon_os_k0_off251 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off251 L) S1x1x1x4096.size hh) hs).squeeze S4096 squeezes_S1x1x1x4096_S4096 = oSub L 3 1 :=
  congrArg (fun m => Memref.squeeze m S4096 squeezes_S1x1x1x4096_S4096) (Memref.slice_unit_congr _ ((k0_off251_eq L).trans (show _ = subOff L 3 1 from rfl)) _ _ _ (fun _ => rfl))
@[sl_canon] theorem canon_os_k0_off252 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off252 L) S1x1x1x4096.size hh) hs).squeeze S4096 squeezes_S1x1x1x4096_S4096 = oSub L 3 2 :=
  congrArg (fun m => Memref.squeeze m S4096 squeezes_S1x1x1x4096_S4096) (Memref.slice_unit_congr _ ((k0_off252_eq L).trans (show _ = subOff L 3 2 from rfl)) _ _ _ (fun _ => rfl))
@[sl_canon] theorem canon_os_k0_off253 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off253 L) S1x1x1x4096.size hh) hs).squeeze S4096 squeezes_S1x1x1x4096_S4096 = oSub L 3 3 :=
  congrArg (fun m => Memref.squeeze m S4096 squeezes_S1x1x1x4096_S4096) (Memref.slice_unit_congr _ ((k0_off253_eq L).trans (show _ = subOff L 3 3 from rfl)) _ _ _ (fun _ => rfl))
@[sl_canon] theorem canon_os_k0_off254 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off254 L) S1x1x1x4096.size hh) hs).squeeze S4096 squeezes_S1x1x1x4096_S4096 = oSub L 3 4 :=
  congrArg (fun m => Memref.squeeze m S4096 squeezes_S1x1x1x4096_S4096) (Memref.slice_unit_congr _ ((k0_off254_eq L).trans (show _ = subOff L 3 4 from rfl)) _ _ _ (fun _ => rfl))
@[sl_canon] theorem canon_os_k0_off255 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off255 L) S1x1x1x4096.size hh) hs).squeeze S4096 squeezes_S1x1x1x4096_S4096 = oSub L 3 5 :=
  congrArg (fun m => Memref.squeeze m S4096 squeezes_S1x1x1x4096_S4096) (Memref.slice_unit_congr _ ((k0_off255_eq L).trans (show _ = subOff L 3 5 from rfl)) _ _ _ (fun _ => rfl))
@[sl_canon] theorem canon_os_k0_off256 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off256 L) S1x1x1x4096.size hh) hs).squeeze S4096 squeezes_S1x1x1x4096_S4096 = oSub L 3 6 :=
  congrArg (fun m => Memref.squeeze m S4096 squeezes_S1x1x1x4096_S4096) (Memref.slice_unit_congr _ ((k0_off256_eq L).trans (show _ = subOff L 3 6 from rfl)) _ _ _ (fun _ => rfl))
@[sl_canon] theorem canon_os_k0_off257 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off257 L) S1x1x1x4096.size hh) hs).squeeze S4096 squeezes_S1x1x1x4096_S4096 = oSub L 3 7 :=
  congrArg (fun m => Memref.squeeze m S4096 squeezes_S1x1x1x4096_S4096) (Memref.slice_unit_congr _ ((k0_off257_eq L).trans (show _ = subOff L 3 7 from rfl)) _ _ _ (fun _ => rfl))
@[sl_canon] theorem canon_os_k0_off258 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off258 L) S1x1x1x4096.size hh) hs).squeeze S4096 squeezes_S1x1x1x4096_S4096 = oSub L 4 0 :=
  congrArg (fun m => Memref.squeeze m S4096 squeezes_S1x1x1x4096_S4096) (Memref.slice_unit_congr _ ((k0_off258_eq L).trans (show _ = subOff L 4 0 from rfl)) _ _ _ (fun _ => rfl))
@[sl_canon] theorem canon_os_k0_off259 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off259 L) S1x1x1x4096.size hh) hs).squeeze S4096 squeezes_S1x1x1x4096_S4096 = oSub L 4 1 :=
  congrArg (fun m => Memref.squeeze m S4096 squeezes_S1x1x1x4096_S4096) (Memref.slice_unit_congr _ ((k0_off259_eq L).trans (show _ = subOff L 4 1 from rfl)) _ _ _ (fun _ => rfl))
@[sl_canon] theorem canon_os_k0_off260 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off260 L) S1x1x1x4096.size hh) hs).squeeze S4096 squeezes_S1x1x1x4096_S4096 = oSub L 4 2 :=
  congrArg (fun m => Memref.squeeze m S4096 squeezes_S1x1x1x4096_S4096) (Memref.slice_unit_congr _ ((k0_off260_eq L).trans (show _ = subOff L 4 2 from rfl)) _ _ _ (fun _ => rfl))
@[sl_canon] theorem canon_os_k0_off261 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off261 L) S1x1x1x4096.size hh) hs).squeeze S4096 squeezes_S1x1x1x4096_S4096 = oSub L 4 3 :=
  congrArg (fun m => Memref.squeeze m S4096 squeezes_S1x1x1x4096_S4096) (Memref.slice_unit_congr _ ((k0_off261_eq L).trans (show _ = subOff L 4 3 from rfl)) _ _ _ (fun _ => rfl))
@[sl_canon] theorem canon_os_k0_off262 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off262 L) S1x1x1x4096.size hh) hs).squeeze S4096 squeezes_S1x1x1x4096_S4096 = oSub L 4 4 :=
  congrArg (fun m => Memref.squeeze m S4096 squeezes_S1x1x1x4096_S4096) (Memref.slice_unit_congr _ ((k0_off262_eq L).trans (show _ = subOff L 4 4 from rfl)) _ _ _ (fun _ => rfl))
@[sl_canon] theorem canon_os_k0_off263 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off263 L) S1x1x1x4096.size hh) hs).squeeze S4096 squeezes_S1x1x1x4096_S4096 = oSub L 4 5 :=
  congrArg (fun m => Memref.squeeze m S4096 squeezes_S1x1x1x4096_S4096) (Memref.slice_unit_congr _ ((k0_off263_eq L).trans (show _ = subOff L 4 5 from rfl)) _ _ _ (fun _ => rfl))
@[sl_canon] theorem canon_os_k0_off264 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off264 L) S1x1x1x4096.size hh) hs).squeeze S4096 squeezes_S1x1x1x4096_S4096 = oSub L 4 6 :=
  congrArg (fun m => Memref.squeeze m S4096 squeezes_S1x1x1x4096_S4096) (Memref.slice_unit_congr _ ((k0_off264_eq L).trans (show _ = subOff L 4 6 from rfl)) _ _ _ (fun _ => rfl))
@[sl_canon] theorem canon_os_k0_off265 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off265 L) S1x1x1x4096.size hh) hs).squeeze S4096 squeezes_S1x1x1x4096_S4096 = oSub L 4 7 :=
  congrArg (fun m => Memref.squeeze m S4096 squeezes_S1x1x1x4096_S4096) (Memref.slice_unit_congr _ ((k0_off265_eq L).trans (show _ = subOff L 4 7 from rfl)) _ _ _ (fun _ => rfl))
@[sl_canon] theorem canon_os_k0_off266 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off266 L) S1x1x1x4096.size hh) hs).squeeze S4096 squeezes_S1x1x1x4096_S4096 = oSub L 5 0 :=
  congrArg (fun m => Memref.squeeze m S4096 squeezes_S1x1x1x4096_S4096) (Memref.slice_unit_congr _ ((k0_off266_eq L).trans (show _ = subOff L 5 0 from rfl)) _ _ _ (fun _ => rfl))
@[sl_canon] theorem canon_os_k0_off267 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off267 L) S1x1x1x4096.size hh) hs).squeeze S4096 squeezes_S1x1x1x4096_S4096 = oSub L 5 1 :=
  congrArg (fun m => Memref.squeeze m S4096 squeezes_S1x1x1x4096_S4096) (Memref.slice_unit_congr _ ((k0_off267_eq L).trans (show _ = subOff L 5 1 from rfl)) _ _ _ (fun _ => rfl))
@[sl_canon] theorem canon_os_k0_off268 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off268 L) S1x1x1x4096.size hh) hs).squeeze S4096 squeezes_S1x1x1x4096_S4096 = oSub L 5 2 :=
  congrArg (fun m => Memref.squeeze m S4096 squeezes_S1x1x1x4096_S4096) (Memref.slice_unit_congr _ ((k0_off268_eq L).trans (show _ = subOff L 5 2 from rfl)) _ _ _ (fun _ => rfl))
@[sl_canon] theorem canon_os_k0_off269 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off269 L) S1x1x1x4096.size hh) hs).squeeze S4096 squeezes_S1x1x1x4096_S4096 = oSub L 5 3 :=
  congrArg (fun m => Memref.squeeze m S4096 squeezes_S1x1x1x4096_S4096) (Memref.slice_unit_congr _ ((k0_off269_eq L).trans (show _ = subOff L 5 3 from rfl)) _ _ _ (fun _ => rfl))
@[sl_canon] theorem canon_os_k0_off270 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off270 L) S1x1x1x4096.size hh) hs).squeeze S4096 squeezes_S1x1x1x4096_S4096 = oSub L 5 4 :=
  congrArg (fun m => Memref.squeeze m S4096 squeezes_S1x1x1x4096_S4096) (Memref.slice_unit_congr _ ((k0_off270_eq L).trans (show _ = subOff L 5 4 from rfl)) _ _ _ (fun _ => rfl))
@[sl_canon] theorem canon_os_k0_off271 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off271 L) S1x1x1x4096.size hh) hs).squeeze S4096 squeezes_S1x1x1x4096_S4096 = oSub L 5 5 :=
  congrArg (fun m => Memref.squeeze m S4096 squeezes_S1x1x1x4096_S4096) (Memref.slice_unit_congr _ ((k0_off271_eq L).trans (show _ = subOff L 5 5 from rfl)) _ _ _ (fun _ => rfl))
@[sl_canon] theorem canon_os_k0_off272 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off272 L) S1x1x1x4096.size hh) hs).squeeze S4096 squeezes_S1x1x1x4096_S4096 = oSub L 5 6 :=
  congrArg (fun m => Memref.squeeze m S4096 squeezes_S1x1x1x4096_S4096) (Memref.slice_unit_congr _ ((k0_off272_eq L).trans (show _ = subOff L 5 6 from rfl)) _ _ _ (fun _ => rfl))
@[sl_canon] theorem canon_os_k0_off273 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off273 L) S1x1x1x4096.size hh) hs).squeeze S4096 squeezes_S1x1x1x4096_S4096 = oSub L 5 7 :=
  congrArg (fun m => Memref.squeeze m S4096 squeezes_S1x1x1x4096_S4096) (Memref.slice_unit_congr _ ((k0_off273_eq L).trans (show _ = subOff L 5 7 from rfl)) _ _ _ (fun _ => rfl))
@[sl_canon] theorem canon_os_k0_off274 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off274 L) S1x1x1x4096.size hh) hs).squeeze S4096 squeezes_S1x1x1x4096_S4096 = oSub L 6 0 :=
  congrArg (fun m => Memref.squeeze m S4096 squeezes_S1x1x1x4096_S4096) (Memref.slice_unit_congr _ ((k0_off274_eq L).trans (show _ = subOff L 6 0 from rfl)) _ _ _ (fun _ => rfl))
@[sl_canon] theorem canon_os_k0_off275 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off275 L) S1x1x1x4096.size hh) hs).squeeze S4096 squeezes_S1x1x1x4096_S4096 = oSub L 6 1 :=
  congrArg (fun m => Memref.squeeze m S4096 squeezes_S1x1x1x4096_S4096) (Memref.slice_unit_congr _ ((k0_off275_eq L).trans (show _ = subOff L 6 1 from rfl)) _ _ _ (fun _ => rfl))
@[sl_canon] theorem canon_os_k0_off276 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off276 L) S1x1x1x4096.size hh) hs).squeeze S4096 squeezes_S1x1x1x4096_S4096 = oSub L 6 2 :=
  congrArg (fun m => Memref.squeeze m S4096 squeezes_S1x1x1x4096_S4096) (Memref.slice_unit_congr _ ((k0_off276_eq L).trans (show _ = subOff L 6 2 from rfl)) _ _ _ (fun _ => rfl))
@[sl_canon] theorem canon_os_k0_off277 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off277 L) S1x1x1x4096.size hh) hs).squeeze S4096 squeezes_S1x1x1x4096_S4096 = oSub L 6 3 :=
  congrArg (fun m => Memref.squeeze m S4096 squeezes_S1x1x1x4096_S4096) (Memref.slice_unit_congr _ ((k0_off277_eq L).trans (show _ = subOff L 6 3 from rfl)) _ _ _ (fun _ => rfl))
@[sl_canon] theorem canon_os_k0_off278 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off278 L) S1x1x1x4096.size hh) hs).squeeze S4096 squeezes_S1x1x1x4096_S4096 = oSub L 6 4 :=
  congrArg (fun m => Memref.squeeze m S4096 squeezes_S1x1x1x4096_S4096) (Memref.slice_unit_congr _ ((k0_off278_eq L).trans (show _ = subOff L 6 4 from rfl)) _ _ _ (fun _ => rfl))
@[sl_canon] theorem canon_os_k0_off279 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off279 L) S1x1x1x4096.size hh) hs).squeeze S4096 squeezes_S1x1x1x4096_S4096 = oSub L 6 5 :=
  congrArg (fun m => Memref.squeeze m S4096 squeezes_S1x1x1x4096_S4096) (Memref.slice_unit_congr _ ((k0_off279_eq L).trans (show _ = subOff L 6 5 from rfl)) _ _ _ (fun _ => rfl))
@[sl_canon] theorem canon_os_k0_off280 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off280 L) S1x1x1x4096.size hh) hs).squeeze S4096 squeezes_S1x1x1x4096_S4096 = oSub L 6 6 :=
  congrArg (fun m => Memref.squeeze m S4096 squeezes_S1x1x1x4096_S4096) (Memref.slice_unit_congr _ ((k0_off280_eq L).trans (show _ = subOff L 6 6 from rfl)) _ _ _ (fun _ => rfl))
@[sl_canon] theorem canon_os_k0_off281 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off281 L) S1x1x1x4096.size hh) hs).squeeze S4096 squeezes_S1x1x1x4096_S4096 = oSub L 6 7 :=
  congrArg (fun m => Memref.squeeze m S4096 squeezes_S1x1x1x4096_S4096) (Memref.slice_unit_congr _ ((k0_off281_eq L).trans (show _ = subOff L 6 7 from rfl)) _ _ _ (fun _ => rfl))
@[sl_canon] theorem canon_os_k0_off282 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off282 L) S1x1x1x4096.size hh) hs).squeeze S4096 squeezes_S1x1x1x4096_S4096 = oSub L 7 0 :=
  congrArg (fun m => Memref.squeeze m S4096 squeezes_S1x1x1x4096_S4096) (Memref.slice_unit_congr _ ((k0_off282_eq L).trans (show _ = subOff L 7 0 from rfl)) _ _ _ (fun _ => rfl))
@[sl_canon] theorem canon_os_k0_off283 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off283 L) S1x1x1x4096.size hh) hs).squeeze S4096 squeezes_S1x1x1x4096_S4096 = oSub L 7 1 :=
  congrArg (fun m => Memref.squeeze m S4096 squeezes_S1x1x1x4096_S4096) (Memref.slice_unit_congr _ ((k0_off283_eq L).trans (show _ = subOff L 7 1 from rfl)) _ _ _ (fun _ => rfl))
@[sl_canon] theorem canon_os_k0_off284 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off284 L) S1x1x1x4096.size hh) hs).squeeze S4096 squeezes_S1x1x1x4096_S4096 = oSub L 7 2 :=
  congrArg (fun m => Memref.squeeze m S4096 squeezes_S1x1x1x4096_S4096) (Memref.slice_unit_congr _ ((k0_off284_eq L).trans (show _ = subOff L 7 2 from rfl)) _ _ _ (fun _ => rfl))
@[sl_canon] theorem canon_os_k0_off285 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off285 L) S1x1x1x4096.size hh) hs).squeeze S4096 squeezes_S1x1x1x4096_S4096 = oSub L 7 3 :=
  congrArg (fun m => Memref.squeeze m S4096 squeezes_S1x1x1x4096_S4096) (Memref.slice_unit_congr _ ((k0_off285_eq L).trans (show _ = subOff L 7 3 from rfl)) _ _ _ (fun _ => rfl))
@[sl_canon] theorem canon_os_k0_off286 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off286 L) S1x1x1x4096.size hh) hs).squeeze S4096 squeezes_S1x1x1x4096_S4096 = oSub L 7 4 :=
  congrArg (fun m => Memref.squeeze m S4096 squeezes_S1x1x1x4096_S4096) (Memref.slice_unit_congr _ ((k0_off286_eq L).trans (show _ = subOff L 7 4 from rfl)) _ _ _ (fun _ => rfl))
@[sl_canon] theorem canon_os_k0_off287 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off287 L) S1x1x1x4096.size hh) hs).squeeze S4096 squeezes_S1x1x1x4096_S4096 = oSub L 7 5 :=
  congrArg (fun m => Memref.squeeze m S4096 squeezes_S1x1x1x4096_S4096) (Memref.slice_unit_congr _ ((k0_off287_eq L).trans (show _ = subOff L 7 5 from rfl)) _ _ _ (fun _ => rfl))
@[sl_canon] theorem canon_os_k0_off288 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off288 L) S1x1x1x4096.size hh) hs).squeeze S4096 squeezes_S1x1x1x4096_S4096 = oSub L 7 6 :=
  congrArg (fun m => Memref.squeeze m S4096 squeezes_S1x1x1x4096_S4096) (Memref.slice_unit_congr _ ((k0_off288_eq L).trans (show _ = subOff L 7 6 from rfl)) _ _ _ (fun _ => rfl))
@[sl_canon] theorem canon_os_k0_off289 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off289 L) S1x1x1x4096.size hh) hs).squeeze S4096 squeezes_S1x1x1x4096_S4096 = oSub L 7 7 :=
  congrArg (fun m => Memref.squeeze m S4096 squeezes_S1x1x1x4096_S4096) (Memref.slice_unit_congr _ ((k0_off289_eq L).trans (show _ = subOff L 7 7 from rfl)) _ _ _ (fun _ => rfl))
@[sl_canon] theorem canon_os_k0_off290 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off290 L) S1x1x1x4096.size hh) hs).squeeze S4096 squeezes_S1x1x1x4096_S4096 = oSub L 8 0 :=
  congrArg (fun m => Memref.squeeze m S4096 squeezes_S1x1x1x4096_S4096) (Memref.slice_unit_congr _ ((k0_off290_eq L).trans (show _ = subOff L 8 0 from rfl)) _ _ _ (fun _ => rfl))
@[sl_canon] theorem canon_os_k0_off291 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off291 L) S1x1x1x4096.size hh) hs).squeeze S4096 squeezes_S1x1x1x4096_S4096 = oSub L 8 1 :=
  congrArg (fun m => Memref.squeeze m S4096 squeezes_S1x1x1x4096_S4096) (Memref.slice_unit_congr _ ((k0_off291_eq L).trans (show _ = subOff L 8 1 from rfl)) _ _ _ (fun _ => rfl))
@[sl_canon] theorem canon_os_k0_off292 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off292 L) S1x1x1x4096.size hh) hs).squeeze S4096 squeezes_S1x1x1x4096_S4096 = oSub L 8 2 :=
  congrArg (fun m => Memref.squeeze m S4096 squeezes_S1x1x1x4096_S4096) (Memref.slice_unit_congr _ ((k0_off292_eq L).trans (show _ = subOff L 8 2 from rfl)) _ _ _ (fun _ => rfl))
@[sl_canon] theorem canon_os_k0_off293 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off293 L) S1x1x1x4096.size hh) hs).squeeze S4096 squeezes_S1x1x1x4096_S4096 = oSub L 8 3 :=
  congrArg (fun m => Memref.squeeze m S4096 squeezes_S1x1x1x4096_S4096) (Memref.slice_unit_congr _ ((k0_off293_eq L).trans (show _ = subOff L 8 3 from rfl)) _ _ _ (fun _ => rfl))
@[sl_canon] theorem canon_os_k0_off294 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off294 L) S1x1x1x4096.size hh) hs).squeeze S4096 squeezes_S1x1x1x4096_S4096 = oSub L 8 4 :=
  congrArg (fun m => Memref.squeeze m S4096 squeezes_S1x1x1x4096_S4096) (Memref.slice_unit_congr _ ((k0_off294_eq L).trans (show _ = subOff L 8 4 from rfl)) _ _ _ (fun _ => rfl))
@[sl_canon] theorem canon_os_k0_off295 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off295 L) S1x1x1x4096.size hh) hs).squeeze S4096 squeezes_S1x1x1x4096_S4096 = oSub L 8 5 :=
  congrArg (fun m => Memref.squeeze m S4096 squeezes_S1x1x1x4096_S4096) (Memref.slice_unit_congr _ ((k0_off295_eq L).trans (show _ = subOff L 8 5 from rfl)) _ _ _ (fun _ => rfl))
@[sl_canon] theorem canon_os_k0_off296 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off296 L) S1x1x1x4096.size hh) hs).squeeze S4096 squeezes_S1x1x1x4096_S4096 = oSub L 8 6 :=
  congrArg (fun m => Memref.squeeze m S4096 squeezes_S1x1x1x4096_S4096) (Memref.slice_unit_congr _ ((k0_off296_eq L).trans (show _ = subOff L 8 6 from rfl)) _ _ _ (fun _ => rfl))
@[sl_canon] theorem canon_os_k0_off297 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off297 L) S1x1x1x4096.size hh) hs).squeeze S4096 squeezes_S1x1x1x4096_S4096 = oSub L 8 7 :=
  congrArg (fun m => Memref.squeeze m S4096 squeezes_S1x1x1x4096_S4096) (Memref.slice_unit_congr _ ((k0_off297_eq L).trans (show _ = subOff L 8 7 from rfl)) _ _ _ (fun _ => rfl))
@[sl_canon] theorem canon_os_k0_off298 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off298 L) S1x1x1x4096.size hh) hs).squeeze S4096 squeezes_S1x1x1x4096_S4096 = oSub L 9 0 :=
  congrArg (fun m => Memref.squeeze m S4096 squeezes_S1x1x1x4096_S4096) (Memref.slice_unit_congr _ ((k0_off298_eq L).trans (show _ = subOff L 9 0 from rfl)) _ _ _ (fun _ => rfl))
@[sl_canon] theorem canon_os_k0_off299 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off299 L) S1x1x1x4096.size hh) hs).squeeze S4096 squeezes_S1x1x1x4096_S4096 = oSub L 9 1 :=
  congrArg (fun m => Memref.squeeze m S4096 squeezes_S1x1x1x4096_S4096) (Memref.slice_unit_congr _ ((k0_off299_eq L).trans (show _ = subOff L 9 1 from rfl)) _ _ _ (fun _ => rfl))
@[sl_canon] theorem canon_os_k0_off300 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off300 L) S1x1x1x4096.size hh) hs).squeeze S4096 squeezes_S1x1x1x4096_S4096 = oSub L 9 2 :=
  congrArg (fun m => Memref.squeeze m S4096 squeezes_S1x1x1x4096_S4096) (Memref.slice_unit_congr _ ((k0_off300_eq L).trans (show _ = subOff L 9 2 from rfl)) _ _ _ (fun _ => rfl))
@[sl_canon] theorem canon_os_k0_off301 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off301 L) S1x1x1x4096.size hh) hs).squeeze S4096 squeezes_S1x1x1x4096_S4096 = oSub L 9 3 :=
  congrArg (fun m => Memref.squeeze m S4096 squeezes_S1x1x1x4096_S4096) (Memref.slice_unit_congr _ ((k0_off301_eq L).trans (show _ = subOff L 9 3 from rfl)) _ _ _ (fun _ => rfl))
@[sl_canon] theorem canon_os_k0_off302 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off302 L) S1x1x1x4096.size hh) hs).squeeze S4096 squeezes_S1x1x1x4096_S4096 = oSub L 9 4 :=
  congrArg (fun m => Memref.squeeze m S4096 squeezes_S1x1x1x4096_S4096) (Memref.slice_unit_congr _ ((k0_off302_eq L).trans (show _ = subOff L 9 4 from rfl)) _ _ _ (fun _ => rfl))
@[sl_canon] theorem canon_os_k0_off303 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off303 L) S1x1x1x4096.size hh) hs).squeeze S4096 squeezes_S1x1x1x4096_S4096 = oSub L 9 5 :=
  congrArg (fun m => Memref.squeeze m S4096 squeezes_S1x1x1x4096_S4096) (Memref.slice_unit_congr _ ((k0_off303_eq L).trans (show _ = subOff L 9 5 from rfl)) _ _ _ (fun _ => rfl))
@[sl_canon] theorem canon_os_k0_off304 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off304 L) S1x1x1x4096.size hh) hs).squeeze S4096 squeezes_S1x1x1x4096_S4096 = oSub L 9 6 :=
  congrArg (fun m => Memref.squeeze m S4096 squeezes_S1x1x1x4096_S4096) (Memref.slice_unit_congr _ ((k0_off304_eq L).trans (show _ = subOff L 9 6 from rfl)) _ _ _ (fun _ => rfl))
@[sl_canon] theorem canon_os_k0_off305 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off305 L) S1x1x1x4096.size hh) hs).squeeze S4096 squeezes_S1x1x1x4096_S4096 = oSub L 9 7 :=
  congrArg (fun m => Memref.squeeze m S4096 squeezes_S1x1x1x4096_S4096) (Memref.slice_unit_congr _ ((k0_off305_eq L).trans (show _ = subOff L 9 7 from rfl)) _ _ _ (fun _ => rfl))
@[sl_canon] theorem canon_os_k0_off306 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off306 L) S1x1x1x4096.size hh) hs).squeeze S4096 squeezes_S1x1x1x4096_S4096 = oSub L 10 0 :=
  congrArg (fun m => Memref.squeeze m S4096 squeezes_S1x1x1x4096_S4096) (Memref.slice_unit_congr _ ((k0_off306_eq L).trans (show _ = subOff L 10 0 from rfl)) _ _ _ (fun _ => rfl))
@[sl_canon] theorem canon_os_k0_off307 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off307 L) S1x1x1x4096.size hh) hs).squeeze S4096 squeezes_S1x1x1x4096_S4096 = oSub L 10 1 :=
  congrArg (fun m => Memref.squeeze m S4096 squeezes_S1x1x1x4096_S4096) (Memref.slice_unit_congr _ ((k0_off307_eq L).trans (show _ = subOff L 10 1 from rfl)) _ _ _ (fun _ => rfl))
@[sl_canon] theorem canon_os_k0_off308 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off308 L) S1x1x1x4096.size hh) hs).squeeze S4096 squeezes_S1x1x1x4096_S4096 = oSub L 10 2 :=
  congrArg (fun m => Memref.squeeze m S4096 squeezes_S1x1x1x4096_S4096) (Memref.slice_unit_congr _ ((k0_off308_eq L).trans (show _ = subOff L 10 2 from rfl)) _ _ _ (fun _ => rfl))
@[sl_canon] theorem canon_os_k0_off309 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off309 L) S1x1x1x4096.size hh) hs).squeeze S4096 squeezes_S1x1x1x4096_S4096 = oSub L 10 3 :=
  congrArg (fun m => Memref.squeeze m S4096 squeezes_S1x1x1x4096_S4096) (Memref.slice_unit_congr _ ((k0_off309_eq L).trans (show _ = subOff L 10 3 from rfl)) _ _ _ (fun _ => rfl))
@[sl_canon] theorem canon_os_k0_off310 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off310 L) S1x1x1x4096.size hh) hs).squeeze S4096 squeezes_S1x1x1x4096_S4096 = oSub L 10 4 :=
  congrArg (fun m => Memref.squeeze m S4096 squeezes_S1x1x1x4096_S4096) (Memref.slice_unit_congr _ ((k0_off310_eq L).trans (show _ = subOff L 10 4 from rfl)) _ _ _ (fun _ => rfl))
@[sl_canon] theorem canon_os_k0_off311 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off311 L) S1x1x1x4096.size hh) hs).squeeze S4096 squeezes_S1x1x1x4096_S4096 = oSub L 10 5 :=
  congrArg (fun m => Memref.squeeze m S4096 squeezes_S1x1x1x4096_S4096) (Memref.slice_unit_congr _ ((k0_off311_eq L).trans (show _ = subOff L 10 5 from rfl)) _ _ _ (fun _ => rfl))
@[sl_canon] theorem canon_os_k0_off312 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off312 L) S1x1x1x4096.size hh) hs).squeeze S4096 squeezes_S1x1x1x4096_S4096 = oSub L 10 6 :=
  congrArg (fun m => Memref.squeeze m S4096 squeezes_S1x1x1x4096_S4096) (Memref.slice_unit_congr _ ((k0_off312_eq L).trans (show _ = subOff L 10 6 from rfl)) _ _ _ (fun _ => rfl))
@[sl_canon] theorem canon_os_k0_off313 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off313 L) S1x1x1x4096.size hh) hs).squeeze S4096 squeezes_S1x1x1x4096_S4096 = oSub L 10 7 :=
  congrArg (fun m => Memref.squeeze m S4096 squeezes_S1x1x1x4096_S4096) (Memref.slice_unit_congr _ ((k0_off313_eq L).trans (show _ = subOff L 10 7 from rfl)) _ _ _ (fun _ => rfl))
@[sl_canon] theorem canon_os_k0_off314 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off314 L) S1x1x1x4096.size hh) hs).squeeze S4096 squeezes_S1x1x1x4096_S4096 = oSub L 11 0 :=
  congrArg (fun m => Memref.squeeze m S4096 squeezes_S1x1x1x4096_S4096) (Memref.slice_unit_congr _ ((k0_off314_eq L).trans (show _ = subOff L 11 0 from rfl)) _ _ _ (fun _ => rfl))
@[sl_canon] theorem canon_os_k0_off315 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off315 L) S1x1x1x4096.size hh) hs).squeeze S4096 squeezes_S1x1x1x4096_S4096 = oSub L 11 1 :=
  congrArg (fun m => Memref.squeeze m S4096 squeezes_S1x1x1x4096_S4096) (Memref.slice_unit_congr _ ((k0_off315_eq L).trans (show _ = subOff L 11 1 from rfl)) _ _ _ (fun _ => rfl))
@[sl_canon] theorem canon_os_k0_off316 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off316 L) S1x1x1x4096.size hh) hs).squeeze S4096 squeezes_S1x1x1x4096_S4096 = oSub L 11 2 :=
  congrArg (fun m => Memref.squeeze m S4096 squeezes_S1x1x1x4096_S4096) (Memref.slice_unit_congr _ ((k0_off316_eq L).trans (show _ = subOff L 11 2 from rfl)) _ _ _ (fun _ => rfl))
@[sl_canon] theorem canon_os_k0_off317 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off317 L) S1x1x1x4096.size hh) hs).squeeze S4096 squeezes_S1x1x1x4096_S4096 = oSub L 11 3 :=
  congrArg (fun m => Memref.squeeze m S4096 squeezes_S1x1x1x4096_S4096) (Memref.slice_unit_congr _ ((k0_off317_eq L).trans (show _ = subOff L 11 3 from rfl)) _ _ _ (fun _ => rfl))
@[sl_canon] theorem canon_os_k0_off318 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off318 L) S1x1x1x4096.size hh) hs).squeeze S4096 squeezes_S1x1x1x4096_S4096 = oSub L 11 4 :=
  congrArg (fun m => Memref.squeeze m S4096 squeezes_S1x1x1x4096_S4096) (Memref.slice_unit_congr _ ((k0_off318_eq L).trans (show _ = subOff L 11 4 from rfl)) _ _ _ (fun _ => rfl))
@[sl_canon] theorem canon_os_k0_off319 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off319 L) S1x1x1x4096.size hh) hs).squeeze S4096 squeezes_S1x1x1x4096_S4096 = oSub L 11 5 :=
  congrArg (fun m => Memref.squeeze m S4096 squeezes_S1x1x1x4096_S4096) (Memref.slice_unit_congr _ ((k0_off319_eq L).trans (show _ = subOff L 11 5 from rfl)) _ _ _ (fun _ => rfl))
@[sl_canon] theorem canon_os_k0_off320 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off320 L) S1x1x1x4096.size hh) hs).squeeze S4096 squeezes_S1x1x1x4096_S4096 = oSub L 11 6 :=
  congrArg (fun m => Memref.squeeze m S4096 squeezes_S1x1x1x4096_S4096) (Memref.slice_unit_congr _ ((k0_off320_eq L).trans (show _ = subOff L 11 6 from rfl)) _ _ _ (fun _ => rfl))
@[sl_canon] theorem canon_os_k0_off321 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off321 L) S1x1x1x4096.size hh) hs).squeeze S4096 squeezes_S1x1x1x4096_S4096 = oSub L 11 7 :=
  congrArg (fun m => Memref.squeeze m S4096 squeezes_S1x1x1x4096_S4096) (Memref.slice_unit_congr _ ((k0_off321_eq L).trans (show _ = subOff L 11 7 from rfl)) _ _ _ (fun _ => rfl))
@[sl_canon] theorem canon_os_k0_off322 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off322 L) S1x1x1x4096.size hh) hs).squeeze S4096 squeezes_S1x1x1x4096_S4096 = oSub L 12 0 :=
  congrArg (fun m => Memref.squeeze m S4096 squeezes_S1x1x1x4096_S4096) (Memref.slice_unit_congr _ ((k0_off322_eq L).trans (show _ = subOff L 12 0 from rfl)) _ _ _ (fun _ => rfl))
@[sl_canon] theorem canon_os_k0_off323 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off323 L) S1x1x1x4096.size hh) hs).squeeze S4096 squeezes_S1x1x1x4096_S4096 = oSub L 12 1 :=
  congrArg (fun m => Memref.squeeze m S4096 squeezes_S1x1x1x4096_S4096) (Memref.slice_unit_congr _ ((k0_off323_eq L).trans (show _ = subOff L 12 1 from rfl)) _ _ _ (fun _ => rfl))
@[sl_canon] theorem canon_os_k0_off324 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off324 L) S1x1x1x4096.size hh) hs).squeeze S4096 squeezes_S1x1x1x4096_S4096 = oSub L 12 2 :=
  congrArg (fun m => Memref.squeeze m S4096 squeezes_S1x1x1x4096_S4096) (Memref.slice_unit_congr _ ((k0_off324_eq L).trans (show _ = subOff L 12 2 from rfl)) _ _ _ (fun _ => rfl))
@[sl_canon] theorem canon_os_k0_off325 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off325 L) S1x1x1x4096.size hh) hs).squeeze S4096 squeezes_S1x1x1x4096_S4096 = oSub L 12 3 :=
  congrArg (fun m => Memref.squeeze m S4096 squeezes_S1x1x1x4096_S4096) (Memref.slice_unit_congr _ ((k0_off325_eq L).trans (show _ = subOff L 12 3 from rfl)) _ _ _ (fun _ => rfl))
@[sl_canon] theorem canon_os_k0_off326 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off326 L) S1x1x1x4096.size hh) hs).squeeze S4096 squeezes_S1x1x1x4096_S4096 = oSub L 12 4 :=
  congrArg (fun m => Memref.squeeze m S4096 squeezes_S1x1x1x4096_S4096) (Memref.slice_unit_congr _ ((k0_off326_eq L).trans (show _ = subOff L 12 4 from rfl)) _ _ _ (fun _ => rfl))
@[sl_canon] theorem canon_os_k0_off327 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off327 L) S1x1x1x4096.size hh) hs).squeeze S4096 squeezes_S1x1x1x4096_S4096 = oSub L 12 5 :=
  congrArg (fun m => Memref.squeeze m S4096 squeezes_S1x1x1x4096_S4096) (Memref.slice_unit_congr _ ((k0_off327_eq L).trans (show _ = subOff L 12 5 from rfl)) _ _ _ (fun _ => rfl))
@[sl_canon] theorem canon_os_k0_off328 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off328 L) S1x1x1x4096.size hh) hs).squeeze S4096 squeezes_S1x1x1x4096_S4096 = oSub L 12 6 :=
  congrArg (fun m => Memref.squeeze m S4096 squeezes_S1x1x1x4096_S4096) (Memref.slice_unit_congr _ ((k0_off328_eq L).trans (show _ = subOff L 12 6 from rfl)) _ _ _ (fun _ => rfl))
@[sl_canon] theorem canon_os_k0_off329 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off329 L) S1x1x1x4096.size hh) hs).squeeze S4096 squeezes_S1x1x1x4096_S4096 = oSub L 12 7 :=
  congrArg (fun m => Memref.squeeze m S4096 squeezes_S1x1x1x4096_S4096) (Memref.slice_unit_congr _ ((k0_off329_eq L).trans (show _ = subOff L 12 7 from rfl)) _ _ _ (fun _ => rfl))
@[sl_canon] theorem canon_os_k0_off330 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off330 L) S1x1x1x4096.size hh) hs).squeeze S4096 squeezes_S1x1x1x4096_S4096 = oSub L 13 0 :=
  congrArg (fun m => Memref.squeeze m S4096 squeezes_S1x1x1x4096_S4096) (Memref.slice_unit_congr _ ((k0_off330_eq L).trans (show _ = subOff L 13 0 from rfl)) _ _ _ (fun _ => rfl))
@[sl_canon] theorem canon_os_k0_off331 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off331 L) S1x1x1x4096.size hh) hs).squeeze S4096 squeezes_S1x1x1x4096_S4096 = oSub L 13 1 :=
  congrArg (fun m => Memref.squeeze m S4096 squeezes_S1x1x1x4096_S4096) (Memref.slice_unit_congr _ ((k0_off331_eq L).trans (show _ = subOff L 13 1 from rfl)) _ _ _ (fun _ => rfl))
@[sl_canon] theorem canon_os_k0_off332 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off332 L) S1x1x1x4096.size hh) hs).squeeze S4096 squeezes_S1x1x1x4096_S4096 = oSub L 13 2 :=
  congrArg (fun m => Memref.squeeze m S4096 squeezes_S1x1x1x4096_S4096) (Memref.slice_unit_congr _ ((k0_off332_eq L).trans (show _ = subOff L 13 2 from rfl)) _ _ _ (fun _ => rfl))
@[sl_canon] theorem canon_os_k0_off333 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off333 L) S1x1x1x4096.size hh) hs).squeeze S4096 squeezes_S1x1x1x4096_S4096 = oSub L 13 3 :=
  congrArg (fun m => Memref.squeeze m S4096 squeezes_S1x1x1x4096_S4096) (Memref.slice_unit_congr _ ((k0_off333_eq L).trans (show _ = subOff L 13 3 from rfl)) _ _ _ (fun _ => rfl))
@[sl_canon] theorem canon_os_k0_off334 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off334 L) S1x1x1x4096.size hh) hs).squeeze S4096 squeezes_S1x1x1x4096_S4096 = oSub L 13 4 :=
  congrArg (fun m => Memref.squeeze m S4096 squeezes_S1x1x1x4096_S4096) (Memref.slice_unit_congr _ ((k0_off334_eq L).trans (show _ = subOff L 13 4 from rfl)) _ _ _ (fun _ => rfl))
@[sl_canon] theorem canon_os_k0_off335 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off335 L) S1x1x1x4096.size hh) hs).squeeze S4096 squeezes_S1x1x1x4096_S4096 = oSub L 13 5 :=
  congrArg (fun m => Memref.squeeze m S4096 squeezes_S1x1x1x4096_S4096) (Memref.slice_unit_congr _ ((k0_off335_eq L).trans (show _ = subOff L 13 5 from rfl)) _ _ _ (fun _ => rfl))
@[sl_canon] theorem canon_os_k0_off336 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off336 L) S1x1x1x4096.size hh) hs).squeeze S4096 squeezes_S1x1x1x4096_S4096 = oSub L 13 6 :=
  congrArg (fun m => Memref.squeeze m S4096 squeezes_S1x1x1x4096_S4096) (Memref.slice_unit_congr _ ((k0_off336_eq L).trans (show _ = subOff L 13 6 from rfl)) _ _ _ (fun _ => rfl))
@[sl_canon] theorem canon_os_k0_off337 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off337 L) S1x1x1x4096.size hh) hs).squeeze S4096 squeezes_S1x1x1x4096_S4096 = oSub L 13 7 :=
  congrArg (fun m => Memref.squeeze m S4096 squeezes_S1x1x1x4096_S4096) (Memref.slice_unit_congr _ ((k0_off337_eq L).trans (show _ = subOff L 13 7 from rfl)) _ _ _ (fun _ => rfl))
@[sl_canon] theorem canon_os_k0_off338 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off338 L) S1x1x1x4096.size hh) hs).squeeze S4096 squeezes_S1x1x1x4096_S4096 = oSub L 14 0 :=
  congrArg (fun m => Memref.squeeze m S4096 squeezes_S1x1x1x4096_S4096) (Memref.slice_unit_congr _ ((k0_off338_eq L).trans (show _ = subOff L 14 0 from rfl)) _ _ _ (fun _ => rfl))
@[sl_canon] theorem canon_os_k0_off339 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off339 L) S1x1x1x4096.size hh) hs).squeeze S4096 squeezes_S1x1x1x4096_S4096 = oSub L 14 1 :=
  congrArg (fun m => Memref.squeeze m S4096 squeezes_S1x1x1x4096_S4096) (Memref.slice_unit_congr _ ((k0_off339_eq L).trans (show _ = subOff L 14 1 from rfl)) _ _ _ (fun _ => rfl))
@[sl_canon] theorem canon_os_k0_off340 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off340 L) S1x1x1x4096.size hh) hs).squeeze S4096 squeezes_S1x1x1x4096_S4096 = oSub L 14 2 :=
  congrArg (fun m => Memref.squeeze m S4096 squeezes_S1x1x1x4096_S4096) (Memref.slice_unit_congr _ ((k0_off340_eq L).trans (show _ = subOff L 14 2 from rfl)) _ _ _ (fun _ => rfl))
@[sl_canon] theorem canon_os_k0_off341 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off341 L) S1x1x1x4096.size hh) hs).squeeze S4096 squeezes_S1x1x1x4096_S4096 = oSub L 14 3 :=
  congrArg (fun m => Memref.squeeze m S4096 squeezes_S1x1x1x4096_S4096) (Memref.slice_unit_congr _ ((k0_off341_eq L).trans (show _ = subOff L 14 3 from rfl)) _ _ _ (fun _ => rfl))
@[sl_canon] theorem canon_os_k0_off342 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off342 L) S1x1x1x4096.size hh) hs).squeeze S4096 squeezes_S1x1x1x4096_S4096 = oSub L 14 4 :=
  congrArg (fun m => Memref.squeeze m S4096 squeezes_S1x1x1x4096_S4096) (Memref.slice_unit_congr _ ((k0_off342_eq L).trans (show _ = subOff L 14 4 from rfl)) _ _ _ (fun _ => rfl))
@[sl_canon] theorem canon_os_k0_off343 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off343 L) S1x1x1x4096.size hh) hs).squeeze S4096 squeezes_S1x1x1x4096_S4096 = oSub L 14 5 :=
  congrArg (fun m => Memref.squeeze m S4096 squeezes_S1x1x1x4096_S4096) (Memref.slice_unit_congr _ ((k0_off343_eq L).trans (show _ = subOff L 14 5 from rfl)) _ _ _ (fun _ => rfl))
@[sl_canon] theorem canon_os_k0_off344 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off344 L) S1x1x1x4096.size hh) hs).squeeze S4096 squeezes_S1x1x1x4096_S4096 = oSub L 14 6 :=
  congrArg (fun m => Memref.squeeze m S4096 squeezes_S1x1x1x4096_S4096) (Memref.slice_unit_congr _ ((k0_off344_eq L).trans (show _ = subOff L 14 6 from rfl)) _ _ _ (fun _ => rfl))
@[sl_canon] theorem canon_os_k0_off345 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off345 L) S1x1x1x4096.size hh) hs).squeeze S4096 squeezes_S1x1x1x4096_S4096 = oSub L 14 7 :=
  congrArg (fun m => Memref.squeeze m S4096 squeezes_S1x1x1x4096_S4096) (Memref.slice_unit_congr _ ((k0_off345_eq L).trans (show _ = subOff L 14 7 from rfl)) _ _ _ (fun _ => rfl))
@[sl_canon] theorem canon_os_k0_off346 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off346 L) S1x1x1x4096.size hh) hs).squeeze S4096 squeezes_S1x1x1x4096_S4096 = oSub L 15 0 :=
  congrArg (fun m => Memref.squeeze m S4096 squeezes_S1x1x1x4096_S4096) (Memref.slice_unit_congr _ ((k0_off346_eq L).trans (show _ = subOff L 15 0 from rfl)) _ _ _ (fun _ => rfl))
@[sl_canon] theorem canon_os_k0_off347 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off347 L) S1x1x1x4096.size hh) hs).squeeze S4096 squeezes_S1x1x1x4096_S4096 = oSub L 15 1 :=
  congrArg (fun m => Memref.squeeze m S4096 squeezes_S1x1x1x4096_S4096) (Memref.slice_unit_congr _ ((k0_off347_eq L).trans (show _ = subOff L 15 1 from rfl)) _ _ _ (fun _ => rfl))
@[sl_canon] theorem canon_os_k0_off348 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off348 L) S1x1x1x4096.size hh) hs).squeeze S4096 squeezes_S1x1x1x4096_S4096 = oSub L 15 2 :=
  congrArg (fun m => Memref.squeeze m S4096 squeezes_S1x1x1x4096_S4096) (Memref.slice_unit_congr _ ((k0_off348_eq L).trans (show _ = subOff L 15 2 from rfl)) _ _ _ (fun _ => rfl))
@[sl_canon] theorem canon_os_k0_off349 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off349 L) S1x1x1x4096.size hh) hs).squeeze S4096 squeezes_S1x1x1x4096_S4096 = oSub L 15 3 :=
  congrArg (fun m => Memref.squeeze m S4096 squeezes_S1x1x1x4096_S4096) (Memref.slice_unit_congr _ ((k0_off349_eq L).trans (show _ = subOff L 15 3 from rfl)) _ _ _ (fun _ => rfl))
@[sl_canon] theorem canon_os_k0_off350 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off350 L) S1x1x1x4096.size hh) hs).squeeze S4096 squeezes_S1x1x1x4096_S4096 = oSub L 15 4 :=
  congrArg (fun m => Memref.squeeze m S4096 squeezes_S1x1x1x4096_S4096) (Memref.slice_unit_congr _ ((k0_off350_eq L).trans (show _ = subOff L 15 4 from rfl)) _ _ _ (fun _ => rfl))
@[sl_canon] theorem canon_os_k0_off351 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off351 L) S1x1x1x4096.size hh) hs).squeeze S4096 squeezes_S1x1x1x4096_S4096 = oSub L 15 5 :=
  congrArg (fun m => Memref.squeeze m S4096 squeezes_S1x1x1x4096_S4096) (Memref.slice_unit_congr _ ((k0_off351_eq L).trans (show _ = subOff L 15 5 from rfl)) _ _ _ (fun _ => rfl))
@[sl_canon] theorem canon_os_k0_off352 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off352 L) S1x1x1x4096.size hh) hs).squeeze S4096 squeezes_S1x1x1x4096_S4096 = oSub L 15 6 :=
  congrArg (fun m => Memref.squeeze m S4096 squeezes_S1x1x1x4096_S4096) (Memref.slice_unit_congr _ ((k0_off352_eq L).trans (show _ = subOff L 15 6 from rfl)) _ _ _ (fun _ => rfl))
@[sl_canon] theorem canon_os_k0_off353 (L : grid0.Coords) (hh) (hs) : ((Memref.whole Cert.Kernel.main_v0_scv : Memref Cert.Kernel.sig Kind.scVector Space.hbm Cert.Kernel.S16x8x2x65536 EltTy.f32).slice (Rect.unit (s := S16x8x2x65536) (k0_off353 L) S1x1x1x4096.size hh) hs).squeeze S4096 squeezes_S1x1x1x4096_S4096 = oSub L 15 7 :=
  congrArg (fun m => Memref.squeeze m S4096 squeezes_S1x1x1x4096_S4096) (Memref.slice_unit_congr _ ((k0_off353_eq L).trans (show _ = subOff L 15 7 from rfl)) _ _ _ (fun _ => rfl))
@[sl_canon] theorem canon_sh_k0_off1 (L : grid0.Coords) (hh) (hs) : (Memref.whole Cert.Kernel.cc0_scratch2 : Memref Cert.Kernel.sig Kind.scVector Space.shared Cert.Kernel.S1572864 EltTy.f32).slice (Rect.unit (s := S1572864) (k0_off1 L) S32768.size hh) hs = shB0 L :=
  Memref.slice_unit_congr _ (k0_off1_eq L) _ _ _ (fun _ => rfl)
@[sl_canon] theorem canon_sh_k0_off4 (L : grid0.Coords) (hh) (hs) : (Memref.whole Cert.Kernel.cc0_scratch2 : Memref Cert.Kernel.sig Kind.scVector Space.shared Cert.Kernel.S1572864 EltTy.f32).slice (Rect.unit (s := S1572864) (k0_off4 L) S32768.size hh) hs = shB1 L :=
  Memref.slice_unit_congr _ (k0_off4_eq L) _ _ _ (fun _ => rfl)
@[sl_canon] theorem canon_sh_k0_off14 (L : grid0.Coords) (hh) (hs) : (Memref.whole Cert.Kernel.cc0_scratch2 : Memref Cert.Kernel.sig Kind.scVector Space.shared Cert.Kernel.S1572864 EltTy.f32).slice (Rect.unit (s := S1572864) (k0_off14 L) S32768.size hh) hs = shB0 L :=
  Memref.slice_unit_congr _ (k0_off14_eq L) _ _ _ (fun _ => rfl)
@[sl_canon] theorem canon_sh_k0_off16 (L : grid0.Coords) (hh) (hs) : (Memref.whole Cert.Kernel.cc0_scratch2 : Memref Cert.Kernel.sig Kind.scVector Space.shared Cert.Kernel.S1572864 EltTy.f32).slice (Rect.unit (s := S1572864) (k0_off16 L) S32768.size hh) hs = shB2 L :=
  Memref.slice_unit_congr _ (k0_off16_eq L) _ _ _ (fun _ => rfl)
@[sl_canon] theorem canon_sh_k0_off26 (L : grid0.Coords) (hh) (hs) : (Memref.whole Cert.Kernel.cc0_scratch2 : Memref Cert.Kernel.sig Kind.scVector Space.shared Cert.Kernel.S1572864 EltTy.f32).slice (Rect.unit (s := S1572864) (k0_off26 L) S32768.size hh) hs = shB1 L :=
  Memref.slice_unit_congr _ (k0_off26_eq L) _ _ _ (fun _ => rfl)
@[sl_canon] theorem canon_sh_k0_off29 (L : grid0.Coords) (hh) (hs) : (Memref.whole Cert.Kernel.cc0_scratch2 : Memref Cert.Kernel.sig Kind.scVector Space.shared Cert.Kernel.S1572864 EltTy.f32).slice (Rect.unit (s := S1572864) (k0_off29 L) S32768.size hh) hs = shB0 L :=
  Memref.slice_unit_congr _ (k0_off29_eq L) _ _ _ (fun _ => rfl)
@[sl_canon] theorem canon_sh_k0_off30 (L : grid0.Coords) (hh) (hs) : (Memref.whole Cert.Kernel.cc0_scratch2 : Memref Cert.Kernel.sig Kind.scVector Space.shared Cert.Kernel.S1572864 EltTy.f32).slice (Rect.unit (s := S1572864) (k0_off30 L) S32768.size hh) hs = shB0 L :=
  Memref.slice_unit_congr _ (k0_off30_eq L) _ _ _ (fun _ => rfl)
@[sl_canon] theorem canon_sh_k0_off40 (L : grid0.Coords) (hh) (hs) : (Memref.whole Cert.Kernel.cc0_scratch2 : Memref Cert.Kernel.sig Kind.scVector Space.shared Cert.Kernel.S1572864 EltTy.f32).slice (Rect.unit (s := S1572864) (k0_off40 L) S32768.size hh) hs = shB2 L :=
  Memref.slice_unit_congr _ (k0_off40_eq L) _ _ _ (fun _ => rfl)
@[sl_canon] theorem canon_sh_k0_off43 (L : grid0.Coords) (hh) (hs) : (Memref.whole Cert.Kernel.cc0_scratch2 : Memref Cert.Kernel.sig Kind.scVector Space.shared Cert.Kernel.S1572864 EltTy.f32).slice (Rect.unit (s := S1572864) (k0_off43 L) S32768.size hh) hs = shB1 L :=
  Memref.slice_unit_congr _ (k0_off43_eq L) _ _ _ (fun _ => rfl)
@[sl_canon] theorem canon_sh_k0_off44 (L : grid0.Coords) (hh) (hs) : (Memref.whole Cert.Kernel.cc0_scratch2 : Memref Cert.Kernel.sig Kind.scVector Space.shared Cert.Kernel.S1572864 EltTy.f32).slice (Rect.unit (s := S1572864) (k0_off44 L) S32768.size hh) hs = shB1 L :=
  Memref.slice_unit_congr _ (k0_off44_eq L) _ _ _ (fun _ => rfl)
@[sl_canon] theorem canon_sh_k0_off54 (L : grid0.Coords) (hh) (hs) : (Memref.whole Cert.Kernel.cc0_scratch2 : Memref Cert.Kernel.sig Kind.scVector Space.shared Cert.Kernel.S1572864 EltTy.f32).slice (Rect.unit (s := S1572864) (k0_off54 L) S32768.size hh) hs = shB0 L :=
  Memref.slice_unit_congr _ (k0_off54_eq L) _ _ _ (fun _ => rfl)
@[sl_canon] theorem canon_sh_k0_off57 (L : grid0.Coords) (hh) (hs) : (Memref.whole Cert.Kernel.cc0_scratch2 : Memref Cert.Kernel.sig Kind.scVector Space.shared Cert.Kernel.S1572864 EltTy.f32).slice (Rect.unit (s := S1572864) (k0_off57 L) S32768.size hh) hs = shB2 L :=
  Memref.slice_unit_congr _ (k0_off57_eq L) _ _ _ (fun _ => rfl)
@[sl_canon] theorem canon_sh_k0_off58 (L : grid0.Coords) (hh) (hs) : (Memref.whole Cert.Kernel.cc0_scratch2 : Memref Cert.Kernel.sig Kind.scVector Space.shared Cert.Kernel.S1572864 EltTy.f32).slice (Rect.unit (s := S1572864) (k0_off58 L) S32768.size hh) hs = shB2 L :=
  Memref.slice_unit_congr _ (k0_off58_eq L) _ _ _ (fun _ => rfl)
@[sl_canon] theorem canon_sh_k0_off68 (L : grid0.Coords) (hh) (hs) : (Memref.whole Cert.Kernel.cc0_scratch2 : Memref Cert.Kernel.sig Kind.scVector Space.shared Cert.Kernel.S1572864 EltTy.f32).slice (Rect.unit (s := S1572864) (k0_off68 L) S32768.size hh) hs = shB1 L :=
  Memref.slice_unit_congr _ (k0_off68_eq L) _ _ _ (fun _ => rfl)
@[sl_canon] theorem canon_sh_k0_off71 (L : grid0.Coords) (hh) (hs) : (Memref.whole Cert.Kernel.cc0_scratch2 : Memref Cert.Kernel.sig Kind.scVector Space.shared Cert.Kernel.S1572864 EltTy.f32).slice (Rect.unit (s := S1572864) (k0_off71 L) S32768.size hh) hs = shB0 L :=
  Memref.slice_unit_congr _ (k0_off71_eq L) _ _ _ (fun _ => rfl)
@[sl_canon] theorem canon_sh_k0_off72 (L : grid0.Coords) (hh) (hs) : (Memref.whole Cert.Kernel.cc0_scratch2 : Memref Cert.Kernel.sig Kind.scVector Space.shared Cert.Kernel.S1572864 EltTy.f32).slice (Rect.unit (s := S1572864) (k0_off72 L) S32768.size hh) hs = shB0 L :=
  Memref.slice_unit_congr _ (k0_off72_eq L) _ _ _ (fun _ => rfl)
@[sl_canon] theorem canon_sh_k0_off82 (L : grid0.Coords) (hh) (hs) : (Memref.whole Cert.Kernel.cc0_scratch2 : Memref Cert.Kernel.sig Kind.scVector Space.shared Cert.Kernel.S1572864 EltTy.f32).slice (Rect.unit (s := S1572864) (k0_off82 L) S32768.size hh) hs = shB2 L :=
  Memref.slice_unit_congr _ (k0_off82_eq L) _ _ _ (fun _ => rfl)
@[sl_canon] theorem canon_sh_k0_off85 (L : grid0.Coords) (hh) (hs) : (Memref.whole Cert.Kernel.cc0_scratch2 : Memref Cert.Kernel.sig Kind.scVector Space.shared Cert.Kernel.S1572864 EltTy.f32).slice (Rect.unit (s := S1572864) (k0_off85 L) S32768.size hh) hs = shB1 L :=
  Memref.slice_unit_congr _ (k0_off85_eq L) _ _ _ (fun _ => rfl)
@[sl_canon] theorem canon_sh_k0_off86 (L : grid0.Coords) (hh) (hs) : (Memref.whole Cert.Kernel.cc0_scratch2 : Memref Cert.Kernel.sig Kind.scVector Space.shared Cert.Kernel.S1572864 EltTy.f32).slice (Rect.unit (s := S1572864) (k0_off86 L) S32768.size hh) hs = shB1 L :=
  Memref.slice_unit_congr _ (k0_off86_eq L) _ _ _ (fun _ => rfl)
@[sl_canon] theorem canon_sh_k0_off96 (L : grid0.Coords) (hh) (hs) : (Memref.whole Cert.Kernel.cc0_scratch2 : Memref Cert.Kernel.sig Kind.scVector Space.shared Cert.Kernel.S1572864 EltTy.f32).slice (Rect.unit (s := S1572864) (k0_off96 L) S32768.size hh) hs = shB0 L :=
  Memref.slice_unit_congr _ (k0_off96_eq L) _ _ _ (fun _ => rfl)
@[sl_canon] theorem canon_sh_k0_off99 (L : grid0.Coords) (hh) (hs) : (Memref.whole Cert.Kernel.cc0_scratch2 : Memref Cert.Kernel.sig Kind.scVector Space.shared Cert.Kernel.S1572864 EltTy.f32).slice (Rect.unit (s := S1572864) (k0_off99 L) S32768.size hh) hs = shB2 L :=
  Memref.slice_unit_congr _ (k0_off99_eq L) _ _ _ (fun _ => rfl)
@[sl_canon] theorem canon_sh_k0_off100 (L : grid0.Coords) (hh) (hs) : (Memref.whole Cert.Kernel.cc0_scratch2 : Memref Cert.Kernel.sig Kind.scVector Space.shared Cert.Kernel.S1572864 EltTy.f32).slice (Rect.unit (s := S1572864) (k0_off100 L) S32768.size hh) hs = shB2 L :=
  Memref.slice_unit_congr _ (k0_off100_eq L) _ _ _ (fun _ => rfl)
@[sl_canon] theorem canon_sh_k0_off110 (L : grid0.Coords) (hh) (hs) : (Memref.whole Cert.Kernel.cc0_scratch2 : Memref Cert.Kernel.sig Kind.scVector Space.shared Cert.Kernel.S1572864 EltTy.f32).slice (Rect.unit (s := S1572864) (k0_off110 L) S32768.size hh) hs = shB1 L :=
  Memref.slice_unit_congr _ (k0_off110_eq L) _ _ _ (fun _ => rfl)
@[sl_canon] theorem canon_sh_k0_off113 (L : grid0.Coords) (hh) (hs) : (Memref.whole Cert.Kernel.cc0_scratch2 : Memref Cert.Kernel.sig Kind.scVector Space.shared Cert.Kernel.S1572864 EltTy.f32).slice (Rect.unit (s := S1572864) (k0_off113 L) S32768.size hh) hs = shB0 L :=
  Memref.slice_unit_congr _ (k0_off113_eq L) _ _ _ (fun _ => rfl)
@[sl_canon] theorem canon_sh_k0_off114 (L : grid0.Coords) (hh) (hs) : (Memref.whole Cert.Kernel.cc0_scratch2 : Memref Cert.Kernel.sig Kind.scVector Space.shared Cert.Kernel.S1572864 EltTy.f32).slice (Rect.unit (s := S1572864) (k0_off114 L) S32768.size hh) hs = shB0 L :=
  Memref.slice_unit_congr _ (k0_off114_eq L) _ _ _ (fun _ => rfl)
@[sl_canon] theorem canon_sh_k0_off124 (L : grid0.Coords) (hh) (hs) : (Memref.whole Cert.Kernel.cc0_scratch2 : Memref Cert.Kernel.sig Kind.scVector Space.shared Cert.Kernel.S1572864 EltTy.f32).slice (Rect.unit (s := S1572864) (k0_off124 L) S32768.size hh) hs = shB2 L :=
  Memref.slice_unit_congr _ (k0_off124_eq L) _ _ _ (fun _ => rfl)
@[sl_canon] theorem canon_sh_k0_off127 (L : grid0.Coords) (hh) (hs) : (Memref.whole Cert.Kernel.cc0_scratch2 : Memref Cert.Kernel.sig Kind.scVector Space.shared Cert.Kernel.S1572864 EltTy.f32).slice (Rect.unit (s := S1572864) (k0_off127 L) S32768.size hh) hs = shB1 L :=
  Memref.slice_unit_congr _ (k0_off127_eq L) _ _ _ (fun _ => rfl)
@[sl_canon] theorem canon_sh_k0_off128 (L : grid0.Coords) (hh) (hs) : (Memref.whole Cert.Kernel.cc0_scratch2 : Memref Cert.Kernel.sig Kind.scVector Space.shared Cert.Kernel.S1572864 EltTy.f32).slice (Rect.unit (s := S1572864) (k0_off128 L) S32768.size hh) hs = shB1 L :=
  Memref.slice_unit_congr _ (k0_off128_eq L) _ _ _ (fun _ => rfl)
@[sl_canon] theorem canon_sh_k0_off138 (L : grid0.Coords) (hh) (hs) : (Memref.whole Cert.Kernel.cc0_scratch2 : Memref Cert.Kernel.sig Kind.scVector Space.shared Cert.Kernel.S1572864 EltTy.f32).slice (Rect.unit (s := S1572864) (k0_off138 L) S32768.size hh) hs = shB0 L :=
  Memref.slice_unit_congr _ (k0_off138_eq L) _ _ _ (fun _ => rfl)
@[sl_canon] theorem canon_sh_k0_off141 (L : grid0.Coords) (hh) (hs) : (Memref.whole Cert.Kernel.cc0_scratch2 : Memref Cert.Kernel.sig Kind.scVector Space.shared Cert.Kernel.S1572864 EltTy.f32).slice (Rect.unit (s := S1572864) (k0_off141 L) S32768.size hh) hs = shB2 L :=
  Memref.slice_unit_congr _ (k0_off141_eq L) _ _ _ (fun _ => rfl)
@[sl_canon] theorem canon_sh_k0_off142 (L : grid0.Coords) (hh) (hs) : (Memref.whole Cert.Kernel.cc0_scratch2 : Memref Cert.Kernel.sig Kind.scVector Space.shared Cert.Kernel.S1572864 EltTy.f32).slice (Rect.unit (s := S1572864) (k0_off142 L) S32768.size hh) hs = shB2 L :=
  Memref.slice_unit_congr _ (k0_off142_eq L) _ _ _ (fun _ => rfl)
@[sl_canon] theorem canon_sh_k0_off152 (L : grid0.Coords) (hh) (hs) : (Memref.whole Cert.Kernel.cc0_scratch2 : Memref Cert.Kernel.sig Kind.scVector Space.shared Cert.Kernel.S1572864 EltTy.f32).slice (Rect.unit (s := S1572864) (k0_off152 L) S32768.size hh) hs = shB1 L :=
  Memref.slice_unit_congr _ (k0_off152_eq L) _ _ _ (fun _ => rfl)
@[sl_canon] theorem canon_sh_k0_off155 (L : grid0.Coords) (hh) (hs) : (Memref.whole Cert.Kernel.cc0_scratch2 : Memref Cert.Kernel.sig Kind.scVector Space.shared Cert.Kernel.S1572864 EltTy.f32).slice (Rect.unit (s := S1572864) (k0_off155 L) S32768.size hh) hs = shB0 L :=
  Memref.slice_unit_congr _ (k0_off155_eq L) _ _ _ (fun _ => rfl)
@[sl_canon] theorem canon_sh_k0_off156 (L : grid0.Coords) (hh) (hs) : (Memref.whole Cert.Kernel.cc0_scratch2 : Memref Cert.Kernel.sig Kind.scVector Space.shared Cert.Kernel.S1572864 EltTy.f32).slice (Rect.unit (s := S1572864) (k0_off156 L) S32768.size hh) hs = shB0 L :=
  Memref.slice_unit_congr _ (k0_off156_eq L) _ _ _ (fun _ => rfl)
@[sl_canon] theorem canon_sh_k0_off166 (L : grid0.Coords) (hh) (hs) : (Memref.whole Cert.Kernel.cc0_scratch2 : Memref Cert.Kernel.sig Kind.scVector Space.shared Cert.Kernel.S1572864 EltTy.f32).slice (Rect.unit (s := S1572864) (k0_off166 L) S32768.size hh) hs = shB2 L :=
  Memref.slice_unit_congr _ (k0_off166_eq L) _ _ _ (fun _ => rfl)
@[sl_canon] theorem canon_sh_k0_off169 (L : grid0.Coords) (hh) (hs) : (Memref.whole Cert.Kernel.cc0_scratch2 : Memref Cert.Kernel.sig Kind.scVector Space.shared Cert.Kernel.S1572864 EltTy.f32).slice (Rect.unit (s := S1572864) (k0_off169 L) S32768.size hh) hs = shB1 L :=
  Memref.slice_unit_congr _ (k0_off169_eq L) _ _ _ (fun _ => rfl)
@[sl_canon] theorem canon_sh_k0_off170 (L : grid0.Coords) (hh) (hs) : (Memref.whole Cert.Kernel.cc0_scratch2 : Memref Cert.Kernel.sig Kind.scVector Space.shared Cert.Kernel.S1572864 EltTy.f32).slice (Rect.unit (s := S1572864) (k0_off170 L) S32768.size hh) hs = shB1 L :=
  Memref.slice_unit_congr _ (k0_off170_eq L) _ _ _ (fun _ => rfl)
@[sl_canon] theorem canon_sh_k0_off180 (L : grid0.Coords) (hh) (hs) : (Memref.whole Cert.Kernel.cc0_scratch2 : Memref Cert.Kernel.sig Kind.scVector Space.shared Cert.Kernel.S1572864 EltTy.f32).slice (Rect.unit (s := S1572864) (k0_off180 L) S32768.size hh) hs = shB0 L :=
  Memref.slice_unit_congr _ (k0_off180_eq L) _ _ _ (fun _ => rfl)
@[sl_canon] theorem canon_sh_k0_off183 (L : grid0.Coords) (hh) (hs) : (Memref.whole Cert.Kernel.cc0_scratch2 : Memref Cert.Kernel.sig Kind.scVector Space.shared Cert.Kernel.S1572864 EltTy.f32).slice (Rect.unit (s := S1572864) (k0_off183 L) S32768.size hh) hs = shB2 L :=
  Memref.slice_unit_congr _ (k0_off183_eq L) _ _ _ (fun _ => rfl)
@[sl_canon] theorem canon_sh_k0_off184 (L : grid0.Coords) (hh) (hs) : (Memref.whole Cert.Kernel.cc0_scratch2 : Memref Cert.Kernel.sig Kind.scVector Space.shared Cert.Kernel.S1572864 EltTy.f32).slice (Rect.unit (s := S1572864) (k0_off184 L) S32768.size hh) hs = shB2 L :=
  Memref.slice_unit_congr _ (k0_off184_eq L) _ _ _ (fun _ => rfl)
@[sl_canon] theorem canon_sh_k0_off194 (L : grid0.Coords) (hh) (hs) : (Memref.whole Cert.Kernel.cc0_scratch2 : Memref Cert.Kernel.sig Kind.scVector Space.shared Cert.Kernel.S1572864 EltTy.f32).slice (Rect.unit (s := S1572864) (k0_off194 L) S32768.size hh) hs = shB1 L :=
  Memref.slice_unit_congr _ (k0_off194_eq L) _ _ _ (fun _ => rfl)
@[sl_canon] theorem canon_sh_k0_off197 (L : grid0.Coords) (hh) (hs) : (Memref.whole Cert.Kernel.cc0_scratch2 : Memref Cert.Kernel.sig Kind.scVector Space.shared Cert.Kernel.S1572864 EltTy.f32).slice (Rect.unit (s := S1572864) (k0_off197 L) S32768.size hh) hs = shB0 L :=
  Memref.slice_unit_congr _ (k0_off197_eq L) _ _ _ (fun _ => rfl)
@[sl_canon] theorem canon_sh_k0_off198 (L : grid0.Coords) (hh) (hs) : (Memref.whole Cert.Kernel.cc0_scratch2 : Memref Cert.Kernel.sig Kind.scVector Space.shared Cert.Kernel.S1572864 EltTy.f32).slice (Rect.unit (s := S1572864) (k0_off198 L) S32768.size hh) hs = shB0 L :=
  Memref.slice_unit_congr _ (k0_off198_eq L) _ _ _ (fun _ => rfl)
@[sl_canon] theorem canon_sh_k0_off208 (L : grid0.Coords) (hh) (hs) : (Memref.whole Cert.Kernel.cc0_scratch2 : Memref Cert.Kernel.sig Kind.scVector Space.shared Cert.Kernel.S1572864 EltTy.f32).slice (Rect.unit (s := S1572864) (k0_off208 L) S32768.size hh) hs = shB2 L :=
  Memref.slice_unit_congr _ (k0_off208_eq L) _ _ _ (fun _ => rfl)
@[sl_canon] theorem canon_sh_k0_off218 (L : grid0.Coords) (hh) (hs) : (Memref.whole Cert.Kernel.cc0_scratch2 : Memref Cert.Kernel.sig Kind.scVector Space.shared Cert.Kernel.S1572864 EltTy.f32).slice (Rect.unit (s := S1572864) (k0_off218 L) S32768.size hh) hs = shB0 L :=
  Memref.slice_unit_congr _ (k0_off218_eq L) _ _ _ (fun _ => rfl)
@[sl_canon] theorem canon_sh_k0_off221 (L : grid0.Coords) (hh) (hs) : (Memref.whole Cert.Kernel.cc0_scratch2 : Memref Cert.Kernel.sig Kind.scVector Space.shared Cert.Kernel.S1572864 EltTy.f32).slice (Rect.unit (s := S1572864) (k0_off221 L) S32768.size hh) hs = shB1 L :=
  Memref.slice_unit_congr _ (k0_off221_eq L) _ _ _ (fun _ => rfl)
@[sl_canon] theorem canon_sh_k0_off223 (L : grid0.Coords) (hh) (hs) : (Memref.whole Cert.Kernel.cc0_scratch2 : Memref Cert.Kernel.sig Kind.scVector Space.shared Cert.Kernel.S1572864 EltTy.f32).slice (Rect.unit (s := S1572864) (k0_off223 L) S32768.size hh) hs = shB2 L :=
  Memref.slice_unit_congr _ (k0_off223_eq L) _ _ _ (fun _ => rfl)
@[sl_canon] theorem canon_sh_k0_off225 (L : grid0.Coords) (hh) (hs) : (Memref.whole Cert.Kernel.cc0_scratch2 : Memref Cert.Kernel.sig Kind.scVector Space.shared Cert.Kernel.S1572864 EltTy.f32).slice (Rect.unit (s := S1572864) (k0_off225 L) S32768.size hh) hs = shB0 L :=
  Memref.slice_unit_congr _ (k0_off225_eq L) _ _ _ (fun _ => rfl)

end Cert.Proof.KB

end
-- ==== Proof.KBValue.lean ====
/-
  The values a tile leaves in its part of the result.

  A list of writes whose newest piece covers the whole view makes the view read that piece's payload, whatever came before.
  A chunk copied through a staging buffer therefore holds the recordings' entries: the staging buffer reads the chunk of the
  recordings, the chunk of the result reads the staging buffer, and the two chunks address the same elements of their arrays.
  A window written whole from a buffer of zeros holds zero. On the indices of chunk k of tile L the specification reads the
  stream number of recording L 1 and compares it with stream 4·(L 0) + k / 4: it is the recordings' entry when they differ and
  zero when they agree. So a copied chunk of another stream, and a zeroed window of the named stream, hold the specification.
-/
import proofs.«218968_g36790689857971_cont_8to1_b_1381_24_alg».proof.Proof.KBTile

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## A whole-shape piece at the head of a list of writes decides the view -/

section Whole
variable {sig' : RefSig} {κ' : Kind} {sp' : Space} {s' : Shape} {e' : EltTy} {Val : EltTy → Type}

/-- V1. After a list of writes whose newest piece covers the whole view, the view reads that piece's payload. -/
theorem read_writes_whole (v : View sig' κ' sp' s' e') (f : v.ty.Contents Val) (p : (Rect.whole s').shape.Idx → Val e')
    (Ls : List (View.Piece Val s' e')) :
    v.read Val (v.writes Val f (⟨Rect.whole s', p⟩ :: Ls)) = p := by
  funext y
  have h := View.read_writes_cons_emb v f (Rect.whole s') p Ls y
  rwa [Rect.emb_whole_apply] at h

/-- V1, at an index: the element of the buffer under index `y` of the view holds the payload's entry `y`. -/
theorem writes_whole_emb (v : View sig' κ' sp' s' e') (f : v.ty.Contents Val) (p : (Rect.whole s').shape.Idx → Val e')
    (Ls : List (View.Piece Val s' e')) (y : s'.Idx) :
    _root_.cast (congrArg Val v.elt_eq) ((v.writes Val f (⟨Rect.whole s', p⟩ :: Ls)) (v.emb y)) = p y := by
  rw [← View.read_apply, read_writes_whole]

end Whole

/-! ## The chunk's two views -/

/-- V2. Chunk `k` of the recordings and chunk `k` of the result address the same elements of their arrays. -/
theorem chunk_emb_eq (L : grid0.Coords) (k : Fin 16) (y : S32768.Idx) :
    ((aChunk L k).view.emb y : S16x8x2x65536.Idx) = (oChunk L k).view.emb y := rfl

/-! ## What a copied chunk and a silenced window hold -/

/-- V3. A chunk copied through a staging buffer holds the recordings' entries: the staging buffer, whatever it held and whatever
    was written to it before, reads the chunk of the recordings once that is written whole into it, and the chunk of the
    result reads the staging buffer once that is written whole into it. -/
theorem copied_value (L : grid0.Coords) (k : Fin 16) (B : Memref sig .scVector .shared S32768 .f32)
    (fo : (oChunk L k).view.ty.Contents (Elt F)) (fa : (aChunk L k).view.ty.Contents (Elt F))
    (prev : B.view.ty.Contents (Elt F)) (Ls : List (View.Piece (Elt F) S32768 .f32)) :
    ∀ i ∈ chunkSet L k,
      ((oChunk L k).view.writes (Elt F) fo
        [⟨Rect.whole S32768, ReadAs.same.apply (View.read (Elt F) B.view
          (B.view.writes (Elt F) prev
            (⟨Rect.whole S32768, ReadAs.same.apply (View.read (Elt F) (aChunk L k).view fa)⟩ :: Ls)))⟩]) i = fa i := by
  intro i hi
  rw [← oChunk_set] at hi
  obtain ⟨y, -, rfl⟩ := Finset.mem_map.mp hi
  have h1 := writes_whole_emb (Val := Elt F) (oChunk L k).view fo
    (ReadAs.same.apply (View.read (Elt F) B.view
      (B.view.writes (Elt F) prev
        (⟨Rect.whole S32768, ReadAs.same.apply (View.read (Elt F) (aChunk L k).view fa)⟩ :: Ls)))) [] y
  rw [cast_eq] at h1
  rw [h1]
  show View.read (Elt F) B.view _ y = _
  rw [read_writes_whole]
  show View.read (Elt F) (aChunk L k).view fa y = _
  rw [View.read_apply, cast_eq]
  rfl

/-- V4. A window written whole from a buffer of zeros holds zero. -/
theorem zero_value (L : grid0.Coords) (k : Fin 16) (h : Fin 8) (fo : (oSubG L k h).view.ty.Contents (Elt F))
    (fz : (Memref.whole cc0_scratch1 : Memref sig .scVector .vmem S4096 .f32).view.ty.Contents (Elt F))
    (hz : ∀ j, fz j = (FloatOps.ofBits .f32 0x00000000#32 : F .f32)) :
    ∀ i ∈ subSet L k h,
      ((oSubG L k h).view.writes (Elt F) fo
        [⟨Rect.whole S4096, ReadAs.same.apply (View.read (Elt F) (Memref.whole cc0_scratch1).view fz)⟩]) i
        = (FloatOps.ofBits .f32 0x00000000#32 : F .f32) := by
  intro i hi
  rw [← oSubG_set] at hi
  obtain ⟨y, -, rfl⟩ := Finset.mem_map.mp hi
  have h1 := writes_whole_emb (Val := Elt F) (oSubG L k h).view fo
    (ReadAs.same.apply (View.read (Elt F) (Memref.whole cc0_scratch1).view fz)) [] y
  rw [cast_eq] at h1
  rw [h1]
  exact hz y

/-! ## The specification on a chunk -/

/-- An index of chunk `k` of tile `L` has recording `L 1` and stream `4 · (L 0) + k / 4`. -/
theorem chunk_coords (L : grid0.Coords) (k : Fin 16) {i : S16x8x2x65536.Idx} (hi : i ∈ chunkSet L k) :
    (i 0).val = (L 1).val ∧ (i 1).val = 4 * (L 0).val + k.val / 4 := by
  simp only [chunkSet, Finset.mem_filter, Finset.mem_univ, true_and] at hi
  exact ⟨hi.1, hi.2.1⟩

/-- The stream number the specification reads at an index of the chunk is the one of the tile's recording. -/
theorem spec_src (L : grid0.Coords) (k : Fin 16) (fs : Vec F Cert.Spec.SI .i32) {i : S16x8x2x65536.Idx}
    (hi : i ∈ chunkSet L k) :
    (fs (Idealize.ShloMosaic.ValueIdx.ix1 (i 0))).toNat = (fs (Idealize.ShloMosaic.ValueIdx.ix1 (wL L))).toNat :=
  congrArg (fun a : Fin 16 => (fs (Idealize.ShloMosaic.ValueIdx.ix1 a)).toNat) (Fin.ext (chunk_coords L k hi).1)

/-- V5. On a chunk whose stream is not the named one, the specification keeps the recordings … -/
theorem G_keep (L : grid0.Coords) (k : Fin 16) (fa : Vec F Cert.Spec.SA .f32) (fs : Vec F Cert.Spec.SI .i32)
    (hne : (fs (Idealize.ShloMosaic.ValueIdx.ix1 (wL L))).toNat ≠ 4 * (L 0).val + k.val / 4) :
    ∀ i ∈ chunkSet L k, Cert.Spec.G fa fs i = fa i := fun i hi =>
  (Cert.Spec.G_apply fa fs i).trans
    (if_neg fun e => hne ((spec_src L k fs hi).symm.trans (e.trans (chunk_coords L k hi).2)))

/-- … and on a chunk whose stream is the named one, it is zero. -/
theorem G_zero (L : grid0.Coords) (k : Fin 16) (fa : Vec F Cert.Spec.SA .f32) (fs : Vec F Cert.Spec.SI .i32)
    (heq : (fs (Idealize.ShloMosaic.ValueIdx.ix1 (wL L))).toNat = 4 * (L 0).val + k.val / 4) :
    ∀ i ∈ chunkSet L k, Cert.Spec.G fa fs i = (FloatOps.ofBits .f32 0x00000000#32 : F .f32) := fun i hi =>
  (Cert.Spec.G_apply fa fs i).trans
    (if_pos ((spec_src L k fs hi).trans (heq.trans (chunk_coords L k hi).2.symm)))

/-! ## The two combined -/

/-- V6. A copied chunk of a stream that is not the named one holds the specification's entries … -/
theorem copied_is_G (L : grid0.Coords) (k : Fin 16) (B : Memref sig .scVector .shared S32768 .f32)
    (fo : (oChunk L k).view.ty.Contents (Elt F)) (fa : (aChunk L k).view.ty.Contents (Elt F))
    (prev : B.view.ty.Contents (Elt F)) (Ls : List (View.Piece (Elt F) S32768 .f32)) (fs : Vec F Cert.Spec.SI .i32)
    (hne : (fs (Idealize.ShloMosaic.ValueIdx.ix1 (wL L))).toNat ≠ 4 * (L 0).val + k.val / 4) :
    ∀ i ∈ chunkSet L k,
      ((oChunk L k).view.writes (Elt F) fo
        [⟨Rect.whole S32768, ReadAs.same.apply (View.read (Elt F) B.view
          (B.view.writes (Elt F) prev
            (⟨Rect.whole S32768, ReadAs.same.apply (View.read (Elt F) (aChunk L k).view fa)⟩ :: Ls)))⟩]) i
        = Cert.Spec.G fa fs i := fun i hi =>
  (copied_value L k B fo fa prev Ls i hi).trans (G_keep L k fa fs hne i hi).symm

/-- … and a window of a chunk of the named stream, written whole from a buffer of zeros, does too. -/
theorem zero_is_G (L : grid0.Coords) (k : Fin 16) (h : Fin 8) (fo : (oSubG L k h).view.ty.Contents (Elt F))
    (fz : (Memref.whole cc0_scratch1 : Memref sig .scVector .vmem S4096 .f32).view.ty.Contents (Elt F))
    (fa : Vec F Cert.Spec.SA .f32) (fs : Vec F Cert.Spec.SI .i32)
    (heq : (fs (Idealize.ShloMosaic.ValueIdx.ix1 (wL L))).toNat = 4 * (L 0).val + k.val / 4)
    (hz : ∀ j, fz j = (FloatOps.ofBits .f32 0x00000000#32 : F .f32)) :
    ∀ i ∈ subSet L k h,
      ((oSubG L k h).view.writes (Elt F) fo
        [⟨Rect.whole S4096, ReadAs.same.apply (View.read (Elt F) (Memref.whole cc0_scratch1).view fz)⟩]) i
        = Cert.Spec.G fa fs i := fun i hi =>
  (zero_value L k h fo fz hz i hi).trans (G_zero L k fa fs heq i (mem_subSet_chunk hi)).symm

end Cert.Proof.KB

end
-- ==== Proof.KBCase0.lean ====
import proofs.«218968_g36790689857971_cont_8to1_b_1381_24_alg».proof.Proof.KBSetup
import proofs.«218968_g36790689857971_cont_8to1_b_1381_24_alg».proof.Proof.KBCanon
import proofs.«218968_g36790689857971_cont_8to1_b_1381_24_alg».proof.Proof.KBValue

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.Kernel.main_arg0_scv : Memref Cert.Kernel.sig Kind.scVector Space.hbm Cert.Kernel.S16x8x2x65536 EltTy.f32)
local notation "sW" => (Memref.whole Cert.Kernel.main_arg1_scv : Memref Cert.Kernel.sig Kind.scVector Space.hbm Cert.Kernel.S16 EltTy.i32)
local notation "oW" => (Memref.whole Cert.Kernel.main_v0_scv : Memref Cert.Kernel.sig Kind.scVector Space.hbm Cert.Kernel.S16x8x2x65536 EltTy.f32)
local notation "b0W" => (Memref.whole Cert.Kernel.cc0_scratch0 : Memref Cert.Kernel.sig Kind.scVector Space.vmem Cert.Kernel.S16 EltTy.i32)
local notation "b1W" => (Memref.whole Cert.Kernel.cc0_scratch1 : Memref Cert.Kernel.sig Kind.scVector Space.vmem Cert.Kernel.S4096 EltTy.f32)
local notation "shW" => (Memref.whole Cert.Kernel.cc0_scratch2 : Memref Cert.Kernel.sig Kind.scVector Space.shared Cert.Kernel.S1572864 EltTy.f32)

/-! ## The tile's task when it silences nothing

The stream number of the tile's recording is none of the tile's four streams: all eight flags are 0, every chunk is copied.
The run: the stream numbers into the scratch; eight lane gathers, each flag read off as a literal; the zero buffer filled
by the counted loop; then per chunk the copy into a staging buffer and out. After it every chunk piece of the
result holds the specification's values. -/

open Lean Elab Tactic Meta in
/-- Unfold, in the goal, every value the run named (the auxiliary definitions `….sl.…`). -/
elab "unfold_run_names_kb0" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C0

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : ∀ j, j < 4 → (fs (ValueIdx.ix1 (wL L))).toNat ≠ 4 * (L 0).val + j) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho0' := (Entails.of_eq (och_pts0 (F := F) d L _).symm) $$ Ho0
  ihave Ho1' := (Entails.of_eq (och_pts1 (F := F) d L _).symm) $$ Ho1
  ihave Ho2' := (Entails.of_eq (och_pts2 (F := F) d L _).symm) $$ Ho2
  ihave Ho3' := (Entails.of_eq (och_pts3 (F := F) d L _).symm) $$ Ho3
  ihave Ho4' := (Entails.of_eq (och_pts4 (F := F) d L _).symm) $$ Ho4
  ihave Ho5' := (Entails.of_eq (och_pts5 (F := F) d L _).symm) $$ Ho5
  ihave Ho6' := (Entails.of_eq (och_pts6 (F := F) d L _).symm) $$ Ho6
  ihave Ho7' := (Entails.of_eq (och_pts7 (F := F) d L _).symm) $$ Ho7
  ihave Ho8' := (Entails.of_eq (och_pts8 (F := F) d L _).symm) $$ Ho8
  ihave Ho9' := (Entails.of_eq (och_pts9 (F := F) d L _).symm) $$ Ho9
  ihave Ho10' := (Entails.of_eq (och_pts10 (F := F) d L _).symm) $$ Ho10
  ihave Ho11' := (Entails.of_eq (och_pts11 (F := F) d L _).symm) $$ Ho11
  ihave Ho12' := (Entails.of_eq (och_pts12 (F := F) d L _).symm) $$ Ho12
  ihave Ho13' := (Entails.of_eq (och_pts13 (F := F) d L _).symm) $$ Ho13
  ihave Ho14' := (Entails.of_eq (och_pts14 (F := F) d L _).symm) $$ Ho14
  ihave Ho15' := (Entails.of_eq (och_pts15 (F := F) d L _).symm) $$ Ho15

  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 0#1 := by
    unfold tile_case.sl.v71 tile_case.sl.v70 tile_case.sl.v69
    exact flag_lit_zero d L fs f0 _ _ _ _ _ 0 (by decide) (hidx0 L) (hsw0 L) (hcase 0 (by decide))
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 0#1 := by
    unfold tile_case.sl.v132 tile_case.sl.v131 tile_case.sl.v130
    exact flag_lit_zero d L fs f0 _ _ _ _ _ 0 (by decide) (hidx1 L) (hsw1 L) (hcase 0 (by decide))
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 0#1 := by
    unfold tile_case.sl.v193 tile_case.sl.v192 tile_case.sl.v191
    exact flag_lit_zero d L fs f0 _ _ _ _ _ 1 (by decide) (hidx2 L) (hsw2 L) (hcase 1 (by decide))
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 0#1 := by
    unfold tile_case.sl.v254 tile_case.sl.v253 tile_case.sl.v252
    exact flag_lit_zero d L fs f0 _ _ _ _ _ 1 (by decide) (hidx3 L) (hsw3 L) (hcase 1 (by decide))
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 0#1 := by
    unfold tile_case.sl.v315 tile_case.sl.v314 tile_case.sl.v313
    exact flag_lit_zero d L fs f0 _ _ _ _ _ 2 (by decide) (hidx4 L) (hsw4 L) (hcase 2 (by decide))
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 0#1 := by
    unfold tile_case.sl.v376 tile_case.sl.v375 tile_case.sl.v374
    exact flag_lit_zero d L fs f0 _ _ _ _ _ 2 (by decide) (hidx5 L) (hsw5 L) (hcase 2 (by decide))
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 0#1 := by
    unfold tile_case.sl.v437 tile_case.sl.v436 tile_case.sl.v435
    exact flag_lit_zero d L fs f0 _ _ _ _ _ 3 (by decide) (hidx6 L) (hsw6 L) (hcase 3 (by decide))
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 0#1 := by
    unfold tile_case.sl.v498 tile_case.sl.v497 k0_pay8
    exact flag_lit_zero d L fs f0 _ _ _ _ _ 3 (by decide) (hidx7 L) (hsw7 L) (hcase 3 (by decide))
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0']
  · iapply (chunk_G0 (F := F) d L _ _)
    isplitr
    rotate_left
    · iexact Ho0'
    · ipureintro; unfold_run_names_kb0; exact copied_is_G L 0 (shB0 L) fo fa _ _ fs (hcase 0 (by decide))
  isplitl [Ho1']
  · iapply (chunk_G1 (F := F) d L _ _)
    isplitr
    rotate_left
    · iexact Ho1'
    · ipureintro; unfold_run_names_kb0; exact copied_is_G L 1 (shB1 L) fo fa _ _ fs (hcase 0 (by decide))
  isplitl [Ho2']
  · iapply (chunk_G2 (F := F) d L _ _)
    isplitr
    rotate_left
    · iexact Ho2'
    · ipureintro; unfold_run_names_kb0; exact copied_is_G L 2 (shB2 L) fo fa _ _ fs (hcase 0 (by decide))
  isplitl [Ho3']
  · iapply (chunk_G3 (F := F) d L _ _)
    isplitr
    rotate_left
    · iexact Ho3'
    · ipureintro; unfold_run_names_kb0; exact copied_is_G L 3 (shB0 L) fo fa _ _ fs (hcase 0 (by decide))
  isplitl [Ho4']
  · iapply (chunk_G4 (F := F) d L _ _)
    isplitr
    rotate_left
    · iexact Ho4'
    · ipureintro; unfold_run_names_kb0; exact copied_is_G L 4 (shB1 L) fo fa _ _ fs (hcase 1 (by decide))
  isplitl [Ho5']
  · iapply (chunk_G5 (F := F) d L _ _)
    isplitr
    rotate_left
    · iexact Ho5'
    · ipureintro; unfold_run_names_kb0; exact copied_is_G L 5 (shB2 L) fo fa _ _ fs (hcase 1 (by decide))
  isplitl [Ho6']
  · iapply (chunk_G6 (F := F) d L _ _)
    isplitr
    rotate_left
    · iexact Ho6'
    · ipureintro; unfold_run_names_kb0; exact copied_is_G L 6 (shB0 L) fo fa _ _ fs (hcase 1 (by decide))
  isplitl [Ho7']
  · iapply (chunk_G7 (F := F) d L _ _)
    isplitr
    rotate_left
    · iexact Ho7'
    · ipureintro; unfold_run_names_kb0; exact copied_is_G L 7 (shB1 L) fo fa _ _ fs (hcase 1 (by decide))
  isplitl [Ho8']
  · iapply (chunk_G8 (F := F) d L _ _)
    isplitr
    rotate_left
    · iexact Ho8'
    · ipureintro; unfold_run_names_kb0; exact copied_is_G L 8 (shB2 L) fo fa _ _ fs (hcase 2 (by decide))
  isplitl [Ho9']
  · iapply (chunk_G9 (F := F) d L _ _)
    isplitr
    rotate_left
    · iexact Ho9'
    · ipureintro; unfold_run_names_kb0; exact copied_is_G L 9 (shB0 L) fo fa _ _ fs (hcase 2 (by decide))
  isplitl [Ho10']
  · iapply (chunk_G10 (F := F) d L _ _)
    isplitr
    rotate_left
    · iexact Ho10'
    · ipureintro; unfold_run_names_kb0; exact copied_is_G L 10 (shB1 L) fo fa _ _ fs (hcase 2 (by decide))
  isplitl [Ho11']
  · iapply (chunk_G11 (F := F) d L _ _)
    isplitr
    rotate_left
    · iexact Ho11'
    · ipureintro; unfold_run_names_kb0; exact copied_is_G L 11 (shB2 L) fo fa _ _ fs (hcase 2 (by decide))
  isplitl [Ho12']
  · iapply (chunk_G12 (F := F) d L _ _)
    isplitr
    rotate_left
    · iexact Ho12'
    · ipureintro; unfold_run_names_kb0; exact copied_is_G L 12 (shB0 L) fo fa _ _ fs (hcase 3 (by decide))
  isplitl [Ho13']
  · iapply (chunk_G13 (F := F) d L _ _)
    isplitr
    rotate_left
    · iexact Ho13'
    · ipureintro; unfold_run_names_kb0; exact copied_is_G L 13 (shB1 L) fo fa _ _ fs (hcase 3 (by decide))
  isplitl [Ho14']
  · iapply (chunk_G14 (F := F) d L _ _)
    isplitr
    rotate_left
    · iexact Ho14'
    · ipureintro; unfold_run_names_kb0; exact copied_is_G L 14 (shB2 L) fo fa _ _ fs (hcase 3 (by decide))
  isplitl [Ho15']
  · iapply (chunk_G15 (F := F) d L _ _)
    isplitr
    rotate_left
    · iexact Ho15'
    · ipureintro; unfold_run_names_kb0; exact copied_is_G L 15 (shB0 L) fo fa _ _ fs (hcase 3 (by decide))
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C0

end Cert.Proof.KB

end
-- ==== Proof.KBCase1.lean ====
import proofs.«218968_g36790689857971_cont_8to1_b_1381_24_alg».proof.Proof.KBSetup
import proofs.«218968_g36790689857971_cont_8to1_b_1381_24_alg».proof.Proof.KBCanon
import proofs.«218968_g36790689857971_cont_8to1_b_1381_24_alg».proof.Proof.KBValue

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.Kernel.main_arg0_scv : Memref Cert.Kernel.sig Kind.scVector Space.hbm Cert.Kernel.S16x8x2x65536 EltTy.f32)
local notation "sW" => (Memref.whole Cert.Kernel.main_arg1_scv : Memref Cert.Kernel.sig Kind.scVector Space.hbm Cert.Kernel.S16 EltTy.i32)
local notation "oW" => (Memref.whole Cert.Kernel.main_v0_scv : Memref Cert.Kernel.sig Kind.scVector Space.hbm Cert.Kernel.S16x8x2x65536 EltTy.f32)
local notation "b0W" => (Memref.whole Cert.Kernel.cc0_scratch0 : Memref Cert.Kernel.sig Kind.scVector Space.vmem Cert.Kernel.S16 EltTy.i32)
local notation "b1W" => (Memref.whole Cert.Kernel.cc0_scratch1 : Memref Cert.Kernel.sig Kind.scVector Space.vmem Cert.Kernel.S4096 EltTy.f32)
local notation "shW" => (Memref.whole Cert.Kernel.cc0_scratch2 : Memref Cert.Kernel.sig Kind.scVector Space.shared Cert.Kernel.S1572864 EltTy.f32)

/-! ## The tile's task when it silences stream 4·(L 0) + 0

The stream number of the tile's recording is the tile's stream 0: the flags of its two channels are 1, their four chunks are written with zeros, the other twelve are copied.
The run: the stream numbers into the scratch; eight lane gathers, each flag read off as a literal; the zero buffer filled
by the counted loop; then per chunk the copy into a staging buffer and out, or the eight zero windows on one counter, drained at the end. After it every chunk piece of the
result holds the specification's values. -/

open Lean Elab Tactic Meta in
/-- Unfold, in the goal, every value the run named (the auxiliary definitions `….sl.…`). -/
elab "unfold_run_names_kb1" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C1

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : (fs (ValueIdx.ix1 (wL L))).toNat = 4 * (L 0).val + 0) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho4' := (Entails.of_eq (och_pts4 (F := F) d L _).symm) $$ Ho4
  ihave Ho5' := (Entails.of_eq (och_pts5 (F := F) d L _).symm) $$ Ho5
  ihave Ho6' := (Entails.of_eq (och_pts6 (F := F) d L _).symm) $$ Ho6
  ihave Ho7' := (Entails.of_eq (och_pts7 (F := F) d L _).symm) $$ Ho7
  ihave Ho8' := (Entails.of_eq (och_pts8 (F := F) d L _).symm) $$ Ho8
  ihave Ho9' := (Entails.of_eq (och_pts9 (F := F) d L _).symm) $$ Ho9
  ihave Ho10' := (Entails.of_eq (och_pts10 (F := F) d L _).symm) $$ Ho10
  ihave Ho11' := (Entails.of_eq (och_pts11 (F := F) d L _).symm) $$ Ho11
  ihave Ho12' := (Entails.of_eq (och_pts12 (F := F) d L _).symm) $$ Ho12
  ihave Ho13' := (Entails.of_eq (och_pts13 (F := F) d L _).symm) $$ Ho13
  ihave Ho14' := (Entails.of_eq (och_pts14 (F := F) d L _).symm) $$ Ho14
  ihave Ho15' := (Entails.of_eq (och_pts15 (F := F) d L _).symm) $$ Ho15
  ihave Ho0s := (Entails.of_eq ((o_subSets (F := F) d L 0 fo).trans (bigSep_univ_eight _))) $$ Ho0
  icases Ho0s with ⟨Ho0_0, Ho0_1, Ho0_2, Ho0_3, Ho0_4, Ho0_5, Ho0_6, Ho0_7⟩
  ihave Ho0_0' := (Entails.of_eq (osub_pts (F := F) d L 0 0 _).symm) $$ Ho0_0
  ihave Ho0_1' := (Entails.of_eq (osub_pts (F := F) d L 0 1 _).symm) $$ Ho0_1
  ihave Ho0_2' := (Entails.of_eq (osub_pts (F := F) d L 0 2 _).symm) $$ Ho0_2
  ihave Ho0_3' := (Entails.of_eq (osub_pts (F := F) d L 0 3 _).symm) $$ Ho0_3
  ihave Ho0_4' := (Entails.of_eq (osub_pts (F := F) d L 0 4 _).symm) $$ Ho0_4
  ihave Ho0_5' := (Entails.of_eq (osub_pts (F := F) d L 0 5 _).symm) $$ Ho0_5
  ihave Ho0_6' := (Entails.of_eq (osub_pts (F := F) d L 0 6 _).symm) $$ Ho0_6
  ihave Ho0_7' := (Entails.of_eq (osub_pts (F := F) d L 0 7 _).symm) $$ Ho0_7
  ihave Ho1s := (Entails.of_eq ((o_subSets (F := F) d L 1 fo).trans (bigSep_univ_eight _))) $$ Ho1
  icases Ho1s with ⟨Ho1_0, Ho1_1, Ho1_2, Ho1_3, Ho1_4, Ho1_5, Ho1_6, Ho1_7⟩
  ihave Ho1_0' := (Entails.of_eq (osub_pts (F := F) d L 1 0 _).symm) $$ Ho1_0
  ihave Ho1_1' := (Entails.of_eq (osub_pts (F := F) d L 1 1 _).symm) $$ Ho1_1
  ihave Ho1_2' := (Entails.of_eq (osub_pts (F := F) d L 1 2 _).symm) $$ Ho1_2
  ihave Ho1_3' := (Entails.of_eq (osub_pts (F := F) d L 1 3 _).symm) $$ Ho1_3
  ihave Ho1_4' := (Entails.of_eq (osub_pts (F := F) d L 1 4 _).symm) $$ Ho1_4
  ihave Ho1_5' := (Entails.of_eq (osub_pts (F := F) d L 1 5 _).symm) $$ Ho1_5
  ihave Ho1_6' := (Entails.of_eq (osub_pts (F := F) d L 1 6 _).symm) $$ Ho1_6
  ihave Ho1_7' := (Entails.of_eq (osub_pts (F := F) d L 1 7 _).symm) $$ Ho1_7
  ihave Ho2s := (Entails.of_eq ((o_subSets (F := F) d L 2 fo).trans (bigSep_univ_eight _))) $$ Ho2
  icases Ho2s with ⟨Ho2_0, Ho2_1, Ho2_2, Ho2_3, Ho2_4, Ho2_5, Ho2_6, Ho2_7⟩
  ihave Ho2_0' := (Entails.of_eq (osub_pts (F := F) d L 2 0 _).symm) $$ Ho2_0
  ihave Ho2_1' := (Entails.of_eq (osub_pts (F := F) d L 2 1 _).symm) $$ Ho2_1
  ihave Ho2_2' := (Entails.of_eq (osub_pts (F := F) d L 2 2 _).symm) $$ Ho2_2
  ihave Ho2_3' := (Entails.of_eq (osub_pts (F := F) d L 2 3 _).symm) $$ Ho2_3
  ihave Ho2_4' := (Entails.of_eq (osub_pts (F := F) d L 2 4 _).symm) $$ Ho2_4
  ihave Ho2_5' := (Entails.of_eq (osub_pts (F := F) d L 2 5 _).symm) $$ Ho2_5
  ihave Ho2_6' := (Entails.of_eq (osub_pts (F := F) d L 2 6 _).symm) $$ Ho2_6
  ihave Ho2_7' := (Entails.of_eq (osub_pts (F := F) d L 2 7 _).symm) $$ Ho2_7
  ihave Ho3s := (Entails.of_eq ((o_subSets (F := F) d L 3 fo).trans (bigSep_univ_eight _))) $$ Ho3
  icases Ho3s with ⟨Ho3_0, Ho3_1, Ho3_2, Ho3_3, Ho3_4, Ho3_5, Ho3_6, Ho3_7⟩
  ihave Ho3_0' := (Entails.of_eq (osub_pts (F := F) d L 3 0 _).symm) $$ Ho3_0
  ihave Ho3_1' := (Entails.of_eq (osub_pts (F := F) d L 3 1 _).symm) $$ Ho3_1
  ihave Ho3_2' := (Entails.of_eq (osub_pts (F := F) d L 3 2 _).symm) $$ Ho3_2
  ihave Ho3_3' := (Entails.of_eq (osub_pts (F := F) d L 3 3 _).symm) $$ Ho3_3
  ihave Ho3_4' := (Entails.of_eq (osub_pts (F := F) d L 3 4 _).symm) $$ Ho3_4
  ihave Ho3_5' := (Entails.of_eq (osub_pts (F := F) d L 3 5 _).symm) $$ Ho3_5
  ihave Ho3_6' := (Entails.of_eq (osub_pts (F := F) d L 3 6 _).symm) $$ Ho3_6
  ihave Ho3_7' := (Entails.of_eq (osub_pts (F := F) d L 3 7 _).symm) $$ Ho3_7
  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  have _plan : Transfers.BatchOf (V d (cV L) (jV L)) (SemLoc.dma (sig := sig) cc0_scratch9.sem) 32 (windows := true) := trivial
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 1#1 := by
    unfold tile_case.sl.v71 tile_case.sl.v70 tile_case.sl.v69
    exact flag_lit_one d L fs f0 _ _ _ _ _ 0 (by decide) (hidx0 L) (hsw0 L) hcase
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 1#1 := by
    unfold tile_case.sl.v132 tile_case.sl.v131 tile_case.sl.v130
    exact flag_lit_one d L fs f0 _ _ _ _ _ 0 (by decide) (hidx1 L) (hsw1 L) hcase
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 0#1 := by
    unfold tile_case.sl.v193 tile_case.sl.v192 tile_case.sl.v191
    exact flag_lit_zero d L fs f0 _ _ _ _ _ 1 (by decide) (hidx2 L) (hsw2 L) (by rw [hcase]; omega)
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 0#1 := by
    unfold tile_case.sl.v254 tile_case.sl.v253 tile_case.sl.v252
    exact flag_lit_zero d L fs f0 _ _ _ _ _ 1 (by decide) (hidx3 L) (hsw3 L) (by rw [hcase]; omega)
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 0#1 := by
    unfold tile_case.sl.v315 tile_case.sl.v314 tile_case.sl.v313
    exact flag_lit_zero d L fs f0 _ _ _ _ _ 2 (by decide) (hidx4 L) (hsw4 L) (by rw [hcase]; omega)
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 0#1 := by
    unfold tile_case.sl.v376 tile_case.sl.v375 tile_case.sl.v374
    exact flag_lit_zero d L fs f0 _ _ _ _ _ 2 (by decide) (hidx5 L) (hsw5 L) (by rw [hcase]; omega)
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 0#1 := by
    unfold tile_case.sl.v437 tile_case.sl.v436 tile_case.sl.v435
    exact flag_lit_zero d L fs f0 _ _ _ _ _ 3 (by decide) (hidx6 L) (hsw6 L) (by rw [hcase]; omega)
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 0#1 := by
    unfold tile_case.sl.v498 tile_case.sl.v497 k0_pay8
    exact flag_lit_zero d L fs f0 _ _ _ _ _ 3 (by decide) (hidx7 L) (hsw7 L) (by rw [hcase]; omega)
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0_0' Ho0_1' Ho0_2' Ho0_3' Ho0_4' Ho0_5' Ho0_6' Ho0_7']
  · iapply (Entails.of_eq ((o_subSets (F := F) d L 0 (Cert.Spec.G (F := F) fa fs : Buf (Elt F) (oLoc d))).trans (bigSep_univ_eight _)).symm)
    isplitl [Ho0_0']
    · iapply (sub_G (F := F) d L 0 0 _ _)
      isplitr
      rotate_left
      · iexact Ho0_0'
      · ipureintro; unfold_run_names_kb1; exact zero_is_G L 0 0 _ fz fa fs (show (fs (ValueIdx.ix1 (wL L))).toNat = 4 * (L 0).val + 0 from hcase) hz
    isplitl [Ho0_1']
    · iapply (sub_G (F := F) d L 0 1 _ _)
      isplitr
      rotate_left
      · iexact Ho0_1'
      · ipureintro; unfold_run_names_kb1; exact zero_is_G L 0 1 _ fz fa fs (show (fs (ValueIdx.ix1 (wL L))).toNat = 4 * (L 0).val + 0 from hcase) hz
    isplitl [Ho0_2']
    · iapply (sub_G (F := F) d L 0 2 _ _)
      isplitr
      rotate_left
      · iexact Ho0_2'
      · ipureintro; unfold_run_names_kb1; exact zero_is_G L 0 2 _ fz fa fs (show (fs (ValueIdx.ix1 (wL L))).toNat = 4 * (L 0).val + 0 from hcase) hz
    isplitl [Ho0_3']
    · iapply (sub_G (F := F) d L 0 3 _ _)
      isplitr
      rotate_left
      · iexact Ho0_3'
      · ipureintro; unfold_run_names_kb1; exact zero_is_G L 0 3 _ fz fa fs (show (fs (ValueIdx.ix1 (wL L))).toNat = 4 * (L 0).val + 0 from hcase) hz
    isplitl [Ho0_4']
    · iapply (sub_G (F := F) d L 0 4 _ _)
      isplitr
      rotate_left
      · iexact Ho0_4'
      · ipureintro; unfold_run_names_kb1; exact zero_is_G L 0 4 _ fz fa fs (show (fs (ValueIdx.ix1 (wL L))).toNat = 4 * (L 0).val + 0 from hcase) hz
    isplitl [Ho0_5']
    · iapply (sub_G (F := F) d L 0 5 _ _)
      isplitr
      rotate_left
      · iexact Ho0_5'
      · ipureintro; unfold_run_names_kb1; exact zero_is_G L 0 5 _ fz fa fs (show (fs (ValueIdx.ix1 (wL L))).toNat = 4 * (L 0).val + 0 from hcase) hz
    isplitl [Ho0_6']
    · iapply (sub_G (F := F) d L 0 6 _ _)
      isplitr
      rotate_left
      · iexact Ho0_6'
      · ipureintro; unfold_run_names_kb1; exact zero_is_G L 0 6 _ fz fa fs (show (fs (ValueIdx.ix1 (wL L))).toNat = 4 * (L 0).val + 0 from hcase) hz
    · iapply (sub_G (F := F) d L 0 7 _ _)
      isplitr
      rotate_left
      · iexact Ho0_7'
      · ipureintro; unfold_run_names_kb1; exact zero_is_G L 0 7 _ fz fa fs (show (fs (ValueIdx.ix1 (wL L))).toNat = 4 * (L 0).val + 0 from hcase) hz
  isplitl [Ho1_0' Ho1_1' Ho1_2' Ho1_3' Ho1_4' Ho1_5' Ho1_6' Ho1_7']
  · iapply (Entails.of_eq ((o_subSets (F := F) d L 1 (Cert.Spec.G (F := F) fa fs : Buf (Elt F) (oLoc d))).trans (bigSep_univ_eight _)).symm)
    isplitl [Ho1_0']
    · iapply (sub_G (F := F) d L 1 0 _ _)
      isplitr
      rotate_left
      · iexact Ho1_0'
      · ipureintro; unfold_run_names_kb1; exact zero_is_G L 1 0 _ fz fa fs (show (fs (ValueIdx.ix1 (wL L))).toNat = 4 * (L 0).val + 0 from hcase) hz
    isplitl [Ho1_1']
    · iapply (sub_G (F := F) d L 1 1 _ _)
      isplitr
      rotate_left
      · iexact Ho1_1'
      · ipureintro; unfold_run_names_kb1; exact zero_is_G L 1 1 _ fz fa fs (show (fs (ValueIdx.ix1 (wL L))).toNat = 4 * (L 0).val + 0 from hcase) hz
    isplitl [Ho1_2']
    · iapply (sub_G (F := F) d L 1 2 _ _)
      isplitr
      rotate_left
      · iexact Ho1_2'
      · ipureintro; unfold_run_names_kb1; exact zero_is_G L 1 2 _ fz fa fs (show (fs (ValueIdx.ix1 (wL L))).toNat = 4 * (L 0).val + 0 from hcase) hz
    isplitl [Ho1_3']
    · iapply (sub_G (F := F) d L 1 3 _ _)
      isplitr
      rotate_left
      · iexact Ho1_3'
      · ipureintro; unfold_run_names_kb1; exact zero_is_G L 1 3 _ fz fa fs (show (fs (ValueIdx.ix1 (wL L))).toNat = 4 * (L 0).val + 0 from hcase) hz
    isplitl [Ho1_4']
    · iapply (sub_G (F := F) d L 1 4 _ _)
      isplitr
      rotate_left
      · iexact Ho1_4'
      · ipureintro; unfold_run_names_kb1; exact zero_is_G L 1 4 _ fz fa fs (show (fs (ValueIdx.ix1 (wL L))).toNat = 4 * (L 0).val + 0 from hcase) hz
    isplitl [Ho1_5']
    · iapply (sub_G (F := F) d L 1 5 _ _)
      isplitr
      rotate_left
      · iexact Ho1_5'
      · ipureintro; unfold_run_names_kb1; exact zero_is_G L 1 5 _ fz fa fs (show (fs (ValueIdx.ix1 (wL L))).toNat = 4 * (L 0).val + 0 from hcase) hz
    isplitl [Ho1_6']
    · iapply (sub_G (F := F) d L 1 6 _ _)
      isplitr
      rotate_left
      · iexact Ho1_6'
      · ipureintro; unfold_run_names_kb1; exact zero_is_G L 1 6 _ fz fa fs (show (fs (ValueIdx.ix1 (wL L))).toNat = 4 * (L 0).val + 0 from hcase) hz
    · iapply (sub_G (F := F) d L 1 7 _ _)
      isplitr
      rotate_left
      · iexact Ho1_7'
      · ipureintro; unfold_run_names_kb1; exact zero_is_G L 1 7 _ fz fa fs (show (fs (ValueIdx.ix1 (wL L))).toNat = 4 * (L 0).val + 0 from hcase) hz
  isplitl [Ho2_0' Ho2_1' Ho2_2' Ho2_3' Ho2_4' Ho2_5' Ho2_6' Ho2_7']
  · iapply (Entails.of_eq ((o_subSets (F := F) d L 2 (Cert.Spec.G (F := F) fa fs : Buf (Elt F) (oLoc d))).trans (bigSep_univ_eight _)).symm)
    isplitl [Ho2_0']
    · iapply (sub_G (F := F) d L 2 0 _ _)
      isplitr
      rotate_left
      · iexact Ho2_0'
      · ipureintro; unfold_run_names_kb1; exact zero_is_G L 2 0 _ fz fa fs (show (fs (ValueIdx.ix1 (wL L))).toNat = 4 * (L 0).val + 0 from hcase) hz
    isplitl [Ho2_1']
    · iapply (sub_G (F := F) d L 2 1 _ _)
      isplitr
      rotate_left
      · iexact Ho2_1'
      · ipureintro; unfold_run_names_kb1; exact zero_is_G L 2 1 _ fz fa fs (show (fs (ValueIdx.ix1 (wL L))).toNat = 4 * (L 0).val + 0 from hcase) hz
    isplitl [Ho2_2']
    · iapply (sub_G (F := F) d L 2 2 _ _)
      isplitr
      rotate_left
      · iexact Ho2_2'
      · ipureintro; unfold_run_names_kb1; exact zero_is_G L 2 2 _ fz fa fs (show (fs (ValueIdx.ix1 (wL L))).toNat = 4 * (L 0).val + 0 from hcase) hz
    isplitl [Ho2_3']
    · iapply (sub_G (F := F) d L 2 3 _ _)
      isplitr
      rotate_left
      · iexact Ho2_3'
      · ipureintro; unfold_run_names_kb1; exact zero_is_G L 2 3 _ fz fa fs (show (fs (ValueIdx.ix1 (wL L))).toNat = 4 * (L 0).val + 0 from hcase) hz
    isplitl [Ho2_4']
    · iapply (sub_G (F := F) d L 2 4 _ _)
      isplitr
      rotate_left
      · iexact Ho2_4'
      · ipureintro; unfold_run_names_kb1; exact zero_is_G L 2 4 _ fz fa fs (show (fs (ValueIdx.ix1 (wL L))).toNat = 4 * (L 0).val + 0 from hcase) hz
    isplitl [Ho2_5']
    · iapply (sub_G (F := F) d L 2 5 _ _)
      isplitr
      rotate_left
      · iexact Ho2_5'
      · ipureintro; unfold_run_names_kb1; exact zero_is_G L 2 5 _ fz fa fs (show (fs (ValueIdx.ix1 (wL L))).toNat = 4 * (L 0).val + 0 from hcase) hz
    isplitl [Ho2_6']
    · iapply (sub_G (F := F) d L 2 6 _ _)
      isplitr
      rotate_left
      · iexact Ho2_6'
      · ipureintro; unfold_run_names_kb1; exact zero_is_G L 2 6 _ fz fa fs (show (fs (ValueIdx.ix1 (wL L))).toNat = 4 * (L 0).val + 0 from hcase) hz
    · iapply (sub_G (F := F) d L 2 7 _ _)
      isplitr
      rotate_left
      · iexact Ho2_7'
      · ipureintro; unfold_run_names_kb1; exact zero_is_G L 2 7 _ fz fa fs (show (fs (ValueIdx.ix1 (wL L))).toNat = 4 * (L 0).val + 0 from hcase) hz
  isplitl [Ho3_0' Ho3_1' Ho3_2' Ho3_3' Ho3_4' Ho3_5' Ho3_6' Ho3_7']
  · iapply (Entails.of_eq ((o_subSets (F := F) d L 3 (Cert.Spec.G (F := F) fa fs : Buf (Elt F) (oLoc d))).trans (bigSep_univ_eight _)).symm)
    isplitl [Ho3_0']
    · iapply (sub_G (F := F) d L 3 0 _ _)
      isplitr
      rotate_left
      · iexact Ho3_0'
      · ipureintro; unfold_run_names_kb1; exact zero_is_G L 3 0 _ fz fa fs (show (fs (ValueIdx.ix1 (wL L))).toNat = 4 * (L 0).val + 0 from hcase) hz
    isplitl [Ho3_1']
    · iapply (sub_G (F := F) d L 3 1 _ _)
      isplitr
      rotate_left
      · iexact Ho3_1'
      · ipureintro; unfold_run_names_kb1; exact zero_is_G L 3 1 _ fz fa fs (show (fs (ValueIdx.ix1 (wL L))).toNat = 4 * (L 0).val + 0 from hcase) hz
    isplitl [Ho3_2']
    · iapply (sub_G (F := F) d L 3 2 _ _)
      isplitr
      rotate_left
      · iexact Ho3_2'
      · ipureintro; unfold_run_names_kb1; exact zero_is_G L 3 2 _ fz fa fs (show (fs (ValueIdx.ix1 (wL L))).toNat = 4 * (L 0).val + 0 from hcase) hz
    isplitl [Ho3_3']
    · iapply (sub_G (F := F) d L 3 3 _ _)
      isplitr
      rotate_left
      · iexact Ho3_3'
      · ipureintro; unfold_run_names_kb1; exact zero_is_G L 3 3 _ fz fa fs (show (fs (ValueIdx.ix1 (wL L))).toNat = 4 * (L 0).val + 0 from hcase) hz
    isplitl [Ho3_4']
    · iapply (sub_G (F := F) d L 3 4 _ _)
      isplitr
      rotate_left
      · iexact Ho3_4'
      · ipureintro; unfold_run_names_kb1; exact zero_is_G L 3 4 _ fz fa fs (show (fs (ValueIdx.ix1 (wL L))).toNat = 4 * (L 0).val + 0 from hcase) hz
    isplitl [Ho3_5']
    · iapply (sub_G (F := F) d L 3 5 _ _)
      isplitr
      rotate_left
      · iexact Ho3_5'
      · ipureintro; unfold_run_names_kb1; exact zero_is_G L 3 5 _ fz fa fs (show (fs (ValueIdx.ix1 (wL L))).toNat = 4 * (L 0).val + 0 from hcase) hz
    isplitl [Ho3_6']
    · iapply (sub_G (F := F) d L 3 6 _ _)
      isplitr
      rotate_left
      · iexact Ho3_6'
      · ipureintro; unfold_run_names_kb1; exact zero_is_G L 3 6 _ fz fa fs (show (fs (ValueIdx.ix1 (wL L))).toNat = 4 * (L 0).val + 0 from hcase) hz
    · iapply (sub_G (F := F) d L 3 7 _ _)
      isplitr
      rotate_left
      · iexact Ho3_7'
      · ipureintro; unfold_run_names_kb1; exact zero_is_G L 3 7 _ fz fa fs (show (fs (ValueIdx.ix1 (wL L))).toNat = 4 * (L 0).val + 0 from hcase) hz
  isplitl [Ho4']
  · iapply (chunk_G4 (F := F) d L _ _)
    isplitr
    rotate_left
    · iexact Ho4'
    · ipureintro; unfold_run_names_kb1; exact copied_is_G L 4 (shB1 L) fo fa _ _ fs (show (fs (ValueIdx.ix1 (wL L))).toNat ≠ 4 * (L 0).val + 1 from by rw [hcase]; omega)
  isplitl [Ho5']
  · iapply (chunk_G5 (F := F) d L _ _)
    isplitr
    rotate_left
    · iexact Ho5'
    · ipureintro; unfold_run_names_kb1; exact copied_is_G L 5 (shB2 L) fo fa _ _ fs (show (fs (ValueIdx.ix1 (wL L))).toNat ≠ 4 * (L 0).val + 1 from by rw [hcase]; omega)
  isplitl [Ho6']
  · iapply (chunk_G6 (F := F) d L _ _)
    isplitr
    rotate_left
    · iexact Ho6'
    · ipureintro; unfold_run_names_kb1; exact copied_is_G L 6 (shB0 L) fo fa _ _ fs (show (fs (ValueIdx.ix1 (wL L))).toNat ≠ 4 * (L 0).val + 1 from by rw [hcase]; omega)
  isplitl [Ho7']
  · iapply (chunk_G7 (F := F) d L _ _)
    isplitr
    rotate_left
    · iexact Ho7'
    · ipureintro; unfold_run_names_kb1; exact copied_is_G L 7 (shB1 L) fo fa _ _ fs (show (fs (ValueIdx.ix1 (wL L))).toNat ≠ 4 * (L 0).val + 1 from by rw [hcase]; omega)
  isplitl [Ho8']
  · iapply (chunk_G8 (F := F) d L _ _)
    isplitr
    rotate_left
    · iexact Ho8'
    · ipureintro; unfold_run_names_kb1; exact copied_is_G L 8 (shB2 L) fo fa _ _ fs (show (fs (ValueIdx.ix1 (wL L))).toNat ≠ 4 * (L 0).val + 2 from by rw [hcase]; omega)
  isplitl [Ho9']
  · iapply (chunk_G9 (F := F) d L _ _)
    isplitr
    rotate_left
    · iexact Ho9'
    · ipureintro; unfold_run_names_kb1; exact copied_is_G L 9 (shB0 L) fo fa _ _ fs (show (fs (ValueIdx.ix1 (wL L))).toNat ≠ 4 * (L 0).val + 2 from by rw [hcase]; omega)
  isplitl [Ho10']
  · iapply (chunk_G10 (F := F) d L _ _)
    isplitr
    rotate_left
    · iexact Ho10'
    · ipureintro; unfold_run_names_kb1; exact copied_is_G L 10 (shB1 L) fo fa _ _ fs (show (fs (ValueIdx.ix1 (wL L))).toNat ≠ 4 * (L 0).val + 2 from by rw [hcase]; omega)
  isplitl [Ho11']
  · iapply (chunk_G11 (F := F) d L _ _)
    isplitr
    rotate_left
    · iexact Ho11'
    · ipureintro; unfold_run_names_kb1; exact copied_is_G L 11 (shB2 L) fo fa _ _ fs (show (fs (ValueIdx.ix1 (wL L))).toNat ≠ 4 * (L 0).val + 2 from by rw [hcase]; omega)
  isplitl [Ho12']
  · iapply (chunk_G12 (F := F) d L _ _)
    isplitr
    rotate_left
    · iexact Ho12'
    · ipureintro; unfold_run_names_kb1; exact copied_is_G L 12 (shB0 L) fo fa _ _ fs (show (fs (ValueIdx.ix1 (wL L))).toNat ≠ 4 * (L 0).val + 3 from by rw [hcase]; omega)
  isplitl [Ho13']
  · iapply (chunk_G13 (F := F) d L _ _)
    isplitr
    rotate_left
    · iexact Ho13'
    · ipureintro; unfold_run_names_kb1; exact copied_is_G L 13 (shB1 L) fo fa _ _ fs (show (fs (ValueIdx.ix1 (wL L))).toNat ≠ 4 * (L 0).val + 3 from by rw [hcase]; omega)
  isplitl [Ho14']
  · iapply (chunk_G14 (F := F) d L _ _)
    isplitr
    rotate_left
    · iexact Ho14'
    · ipureintro; unfold_run_names_kb1; exact copied_is_G L 14 (shB2 L) fo fa _ _ fs (show (fs (ValueIdx.ix1 (wL L))).toNat ≠ 4 * (L 0).val + 3 from by rw [hcase]; omega)
  isplitl [Ho15']
  · iapply (chunk_G15 (F := F) d L _ _)
    isplitr
    rotate_left
    · iexact Ho15'
    · ipureintro; unfold_run_names_kb1; exact copied_is_G L 15 (shB0 L) fo fa _ _ fs (show (fs (ValueIdx.ix1 (wL L))).toNat ≠ 4 * (L 0).val + 3 from by rw [hcase]; omega)
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C1

end Cert.Proof.KB

end
-- ==== Proof.KBCase2.lean ====
import proofs.«218968_g36790689857971_cont_8to1_b_1381_24_alg».proof.Proof.KBSetup
import proofs.«218968_g36790689857971_cont_8to1_b_1381_24_alg».proof.Proof.KBCanon
import proofs.«218968_g36790689857971_cont_8to1_b_1381_24_alg».proof.Proof.KBValue

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.Kernel.main_arg0_scv : Memref Cert.Kernel.sig Kind.scVector Space.hbm Cert.Kernel.S16x8x2x65536 EltTy.f32)
local notation "sW" => (Memref.whole Cert.Kernel.main_arg1_scv : Memref Cert.Kernel.sig Kind.scVector Space.hbm Cert.Kernel.S16 EltTy.i32)
local notation "oW" => (Memref.whole Cert.Kernel.main_v0_scv : Memref Cert.Kernel.sig Kind.scVector Space.hbm Cert.Kernel.S16x8x2x65536 EltTy.f32)
local notation "b0W" => (Memref.whole Cert.Kernel.cc0_scratch0 : Memref Cert.Kernel.sig Kind.scVector Space.vmem Cert.Kernel.S16 EltTy.i32)
local notation "b1W" => (Memref.whole Cert.Kernel.cc0_scratch1 : Memref Cert.Kernel.sig Kind.scVector Space.vmem Cert.Kernel.S4096 EltTy.f32)
local notation "shW" => (Memref.whole Cert.Kernel.cc0_scratch2 : Memref Cert.Kernel.sig Kind.scVector Space.shared Cert.Kernel.S1572864 EltTy.f32)

/-! ## The tile's task when it silences stream 4·(L 0) + 1

The stream number of the tile's recording is the tile's stream 1: the flags of its two channels are 1, their four chunks are written with zeros, the other twelve are copied.
The run: the stream numbers into the scratch; eight lane gathers, each flag read off as a literal; the zero buffer filled
by the counted loop; then per chunk the copy into a staging buffer and out, or the eight zero windows on one counter, drained at the end. After it every chunk piece of the
result holds the specification's values. -/

open Lean Elab Tactic Meta in
/-- Unfold, in the goal, every value the run named (the auxiliary definitions `….sl.…`). -/
elab "unfold_run_names_kb2" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C2

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : (fs (ValueIdx.ix1 (wL L))).toNat = 4 * (L 0).val + 1) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho0' := (Entails.of_eq (och_pts0 (F := F) d L _).symm) $$ Ho0
  ihave Ho1' := (Entails.of_eq (och_pts1 (F := F) d L _).symm) $$ Ho1
  ihave Ho2' := (Entails.of_eq (och_pts2 (F := F) d L _).symm) $$ Ho2
  ihave Ho3' := (Entails.of_eq (och_pts3 (F := F) d L _).symm) $$ Ho3
  ihave Ho8' := (Entails.of_eq (och_pts8 (F := F) d L _).symm) $$ Ho8
  ihave Ho9' := (Entails.of_eq (och_pts9 (F := F) d L _).symm) $$ Ho9
  ihave Ho10' := (Entails.of_eq (och_pts10 (F := F) d L _).symm) $$ Ho10
  ihave Ho11' := (Entails.of_eq (och_pts11 (F := F) d L _).symm) $$ Ho11
  ihave Ho12' := (Entails.of_eq (och_pts12 (F := F) d L _).symm) $$ Ho12
  ihave Ho13' := (Entails.of_eq (och_pts13 (F := F) d L _).symm) $$ Ho13
  ihave Ho14' := (Entails.of_eq (och_pts14 (F := F) d L _).symm) $$ Ho14
  ihave Ho15' := (Entails.of_eq (och_pts15 (F := F) d L _).symm) $$ Ho15
  ihave Ho4s := (Entails.of_eq ((o_subSets (F := F) d L 4 fo).trans (bigSep_univ_eight _))) $$ Ho4
  icases Ho4s with ⟨Ho4_0, Ho4_1, Ho4_2, Ho4_3, Ho4_4, Ho4_5, Ho4_6, Ho4_7⟩
  ihave Ho4_0' := (Entails.of_eq (osub_pts (F := F) d L 4 0 _).symm) $$ Ho4_0
  ihave Ho4_1' := (Entails.of_eq (osub_pts (F := F) d L 4 1 _).symm) $$ Ho4_1
  ihave Ho4_2' := (Entails.of_eq (osub_pts (F := F) d L 4 2 _).symm) $$ Ho4_2
  ihave Ho4_3' := (Entails.of_eq (osub_pts (F := F) d L 4 3 _).symm) $$ Ho4_3
  ihave Ho4_4' := (Entails.of_eq (osub_pts (F := F) d L 4 4 _).symm) $$ Ho4_4
  ihave Ho4_5' := (Entails.of_eq (osub_pts (F := F) d L 4 5 _).symm) $$ Ho4_5
  ihave Ho4_6' := (Entails.of_eq (osub_pts (F := F) d L 4 6 _).symm) $$ Ho4_6
  ihave Ho4_7' := (Entails.of_eq (osub_pts (F := F) d L 4 7 _).symm) $$ Ho4_7
  ihave Ho5s := (Entails.of_eq ((o_subSets (F := F) d L 5 fo).trans (bigSep_univ_eight _))) $$ Ho5
  icases Ho5s with ⟨Ho5_0, Ho5_1, Ho5_2, Ho5_3, Ho5_4, Ho5_5, Ho5_6, Ho5_7⟩
  ihave Ho5_0' := (Entails.of_eq (osub_pts (F := F) d L 5 0 _).symm) $$ Ho5_0
  ihave Ho5_1' := (Entails.of_eq (osub_pts (F := F) d L 5 1 _).symm) $$ Ho5_1
  ihave Ho5_2' := (Entails.of_eq (osub_pts (F := F) d L 5 2 _).symm) $$ Ho5_2
  ihave Ho5_3' := (Entails.of_eq (osub_pts (F := F) d L 5 3 _).symm) $$ Ho5_3
  ihave Ho5_4' := (Entails.of_eq (osub_pts (F := F) d L 5 4 _).symm) $$ Ho5_4
  ihave Ho5_5' := (Entails.of_eq (osub_pts (F := F) d L 5 5 _).symm) $$ Ho5_5
  ihave Ho5_6' := (Entails.of_eq (osub_pts (F := F) d L 5 6 _).symm) $$ Ho5_6
  ihave Ho5_7' := (Entails.of_eq (osub_pts (F := F) d L 5 7 _).symm) $$ Ho5_7
  ihave Ho6s := (Entails.of_eq ((o_subSets (F := F) d L 6 fo).trans (bigSep_univ_eight _))) $$ Ho6
  icases Ho6s with ⟨Ho6_0, Ho6_1, Ho6_2, Ho6_3, Ho6_4, Ho6_5, Ho6_6, Ho6_7⟩
  ihave Ho6_0' := (Entails.of_eq (osub_pts (F := F) d L 6 0 _).symm) $$ Ho6_0
  ihave Ho6_1' := (Entails.of_eq (osub_pts (F := F) d L 6 1 _).symm) $$ Ho6_1
  ihave Ho6_2' := (Entails.of_eq (osub_pts (F := F) d L 6 2 _).symm) $$ Ho6_2
  ihave Ho6_3' := (Entails.of_eq (osub_pts (F := F) d L 6 3 _).symm) $$ Ho6_3
  ihave Ho6_4' := (Entails.of_eq (osub_pts (F := F) d L 6 4 _).symm) $$ Ho6_4
  ihave Ho6_5' := (Entails.of_eq (osub_pts (F := F) d L 6 5 _).symm) $$ Ho6_5
  ihave Ho6_6' := (Entails.of_eq (osub_pts (F := F) d L 6 6 _).symm) $$ Ho6_6
  ihave Ho6_7' := (Entails.of_eq (osub_pts (F := F) d L 6 7 _).symm) $$ Ho6_7
  ihave Ho7s := (Entails.of_eq ((o_subSets (F := F) d L 7 fo).trans (bigSep_univ_eight _))) $$ Ho7
  icases Ho7s with ⟨Ho7_0, Ho7_1, Ho7_2, Ho7_3, Ho7_4, Ho7_5, Ho7_6, Ho7_7⟩
  ihave Ho7_0' := (Entails.of_eq (osub_pts (F := F) d L 7 0 _).symm) $$ Ho7_0
  ihave Ho7_1' := (Entails.of_eq (osub_pts (F := F) d L 7 1 _).symm) $$ Ho7_1
  ihave Ho7_2' := (Entails.of_eq (osub_pts (F := F) d L 7 2 _).symm) $$ Ho7_2
  ihave Ho7_3' := (Entails.of_eq (osub_pts (F := F) d L 7 3 _).symm) $$ Ho7_3
  ihave Ho7_4' := (Entails.of_eq (osub_pts (F := F) d L 7 4 _).symm) $$ Ho7_4
  ihave Ho7_5' := (Entails.of_eq (osub_pts (F := F) d L 7 5 _).symm) $$ Ho7_5
  ihave Ho7_6' := (Entails.of_eq (osub_pts (F := F) d L 7 6 _).symm) $$ Ho7_6
  ihave Ho7_7' := (Entails.of_eq (osub_pts (F := F) d L 7 7 _).symm) $$ Ho7_7
  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  have _plan : Transfers.BatchOf (V d (cV L) (jV L)) (SemLoc.dma (sig := sig) cc0_scratch9.sem) 32 (windows := true) := trivial
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 0#1 := by
    unfold tile_case.sl.v71 tile_case.sl.v70 tile_case.sl.v69
    exact flag_lit_zero d L fs f0 _ _ _ _ _ 0 (by decide) (hidx0 L) (hsw0 L) (by rw [hcase]; omega)
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 0#1 := by
    unfold tile_case.sl.v132 tile_case.sl.v131 tile_case.sl.v130
    exact flag_lit_zero d L fs f0 _ _ _ _ _ 0 (by decide) (hidx1 L) (hsw1 L) (by rw [hcase]; omega)
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 1#1 := by
    unfold tile_case.sl.v193 tile_case.sl.v192 tile_case.sl.v191
    exact flag_lit_one d L fs f0 _ _ _ _ _ 1 (by decide) (hidx2 L) (hsw2 L) hcase
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 1#1 := by
    unfold tile_case.sl.v254 tile_case.sl.v253 tile_case.sl.v252
    exact flag_lit_one d L fs f0 _ _ _ _ _ 1 (by decide) (hidx3 L) (hsw3 L) hcase
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 0#1 := by
    unfold tile_case.sl.v315 tile_case.sl.v314 tile_case.sl.v313
    exact flag_lit_zero d L fs f0 _ _ _ _ _ 2 (by decide) (hidx4 L) (hsw4 L) (by rw [hcase]; omega)
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 0#1 := by
    unfold tile_case.sl.v376 tile_case.sl.v375 tile_case.sl.v374
    exact flag_lit_zero d L fs f0 _ _ _ _ _ 2 (by decide) (hidx5 L) (hsw5 L) (by rw [hcase]; omega)
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 0#1 := by
    unfold tile_case.sl.v437 tile_case.sl.v436 tile_case.sl.v435
    exact flag_lit_zero d L fs f0 _ _ _ _ _ 3 (by decide) (hidx6 L) (hsw6 L) (by rw [hcase]; omega)
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 0#1 := by
    unfold tile_case.sl.v498 tile_case.sl.v497 k0_pay8
    exact flag_lit_zero d L fs f0 _ _ _ _ _ 3 (by decide) (hidx7 L) (hsw7 L) (by rw [hcase]; omega)
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0']
  · iapply (chunk_G0 (F := F) d L _ _)
    isplitr
    rotate_left
    · iexact Ho0'
    · ipureintro; unfold_run_names_kb2; exact copied_is_G L 0 (shB0 L) fo fa _ _ fs (show (fs (ValueIdx.ix1 (wL L))).toNat ≠ 4 * (L 0).val + 0 from by rw [hcase]; omega)
  isplitl [Ho1']
  · iapply (chunk_G1 (F := F) d L _ _)
    isplitr
    rotate_left
    · iexact Ho1'
    · ipureintro; unfold_run_names_kb2; exact copied_is_G L 1 (shB1 L) fo fa _ _ fs (show (fs (ValueIdx.ix1 (wL L))).toNat ≠ 4 * (L 0).val + 0 from by rw [hcase]; omega)
  isplitl [Ho2']
  · iapply (chunk_G2 (F := F) d L _ _)
    isplitr
    rotate_left
    · iexact Ho2'
    · ipureintro; unfold_run_names_kb2; exact copied_is_G L 2 (shB2 L) fo fa _ _ fs (show (fs (ValueIdx.ix1 (wL L))).toNat ≠ 4 * (L 0).val + 0 from by rw [hcase]; omega)
  isplitl [Ho3']
  · iapply (chunk_G3 (F := F) d L _ _)
    isplitr
    rotate_left
    · iexact Ho3'
    · ipureintro; unfold_run_names_kb2; exact copied_is_G L 3 (shB0 L) fo fa _ _ fs (show (fs (ValueIdx.ix1 (wL L))).toNat ≠ 4 * (L 0).val + 0 from by rw [hcase]; omega)
  isplitl [Ho4_0' Ho4_1' Ho4_2' Ho4_3' Ho4_4' Ho4_5' Ho4_6' Ho4_7']
  · iapply (Entails.of_eq ((o_subSets (F := F) d L 4 (Cert.Spec.G (F := F) fa fs : Buf (Elt F) (oLoc d))).trans (bigSep_univ_eight _)).symm)
    isplitl [Ho4_0']
    · iapply (sub_G (F := F) d L 4 0 _ _)
      isplitr
      rotate_left
      · iexact Ho4_0'
      · ipureintro; unfold_run_names_kb2; exact zero_is_G L 4 0 _ fz fa fs (show (fs (ValueIdx.ix1 (wL L))).toNat = 4 * (L 0).val + 1 from hcase) hz
    isplitl [Ho4_1']
    · iapply (sub_G (F := F) d L 4 1 _ _)
      isplitr
      rotate_left
      · iexact Ho4_1'
      · ipureintro; unfold_run_names_kb2; exact zero_is_G L 4 1 _ fz fa fs (show (fs (ValueIdx.ix1 (wL L))).toNat = 4 * (L 0).val + 1 from hcase) hz
    isplitl [Ho4_2']
    · iapply (sub_G (F := F) d L 4 2 _ _)
      isplitr
      rotate_left
      · iexact Ho4_2'
      · ipureintro; unfold_run_names_kb2; exact zero_is_G L 4 2 _ fz fa fs (show (fs (ValueIdx.ix1 (wL L))).toNat = 4 * (L 0).val + 1 from hcase) hz
    isplitl [Ho4_3']
    · iapply (sub_G (F := F) d L 4 3 _ _)
      isplitr
      rotate_left
      · iexact Ho4_3'
      · ipureintro; unfold_run_names_kb2; exact zero_is_G L 4 3 _ fz fa fs (show (fs (ValueIdx.ix1 (wL L))).toNat = 4 * (L 0).val + 1 from hcase) hz
    isplitl [Ho4_4']
    · iapply (sub_G (F := F) d L 4 4 _ _)
      isplitr
      rotate_left
      · iexact Ho4_4'
      · ipureintro; unfold_run_names_kb2; exact zero_is_G L 4 4 _ fz fa fs (show (fs (ValueIdx.ix1 (wL L))).toNat = 4 * (L 0).val + 1 from hcase) hz
    isplitl [Ho4_5']
    · iapply (sub_G (F := F) d L 4 5 _ _)
      isplitr
      rotate_left
      · iexact Ho4_5'
      · ipureintro; unfold_run_names_kb2; exact zero_is_G L 4 5 _ fz fa fs (show (fs (ValueIdx.ix1 (wL L))).toNat = 4 * (L 0).val + 1 from hcase) hz
    isplitl [Ho4_6']
    · iapply (sub_G (F := F) d L 4 6 _ _)
      isplitr
      rotate_left
      · iexact Ho4_6'
      · ipureintro; unfold_run_names_kb2; exact zero_is_G L 4 6 _ fz fa fs (show (fs (ValueIdx.ix1 (wL L))).toNat = 4 * (L 0).val + 1 from hcase) hz
    · iapply (sub_G (F := F) d L 4 7 _ _)
      isplitr
      rotate_left
      · iexact Ho4_7'
      · ipureintro; unfold_run_names_kb2; exact zero_is_G L 4 7 _ fz fa fs (show (fs (ValueIdx.ix1 (wL L))).toNat = 4 * (L 0).val + 1 from hcase) hz
  isplitl [Ho5_0' Ho5_1' Ho5_2' Ho5_3' Ho5_4' Ho5_5' Ho5_6' Ho5_7']
  · iapply (Entails.of_eq ((o_subSets (F := F) d L 5 (Cert.Spec.G (F := F) fa fs : Buf (Elt F) (oLoc d))).trans (bigSep_univ_eight _)).symm)
    isplitl [Ho5_0']
    · iapply (sub_G (F := F) d L 5 0 _ _)
      isplitr
      rotate_left
      · iexact Ho5_0'
      · ipureintro; unfold_run_names_kb2; exact zero_is_G L 5 0 _ fz fa fs (show (fs (ValueIdx.ix1 (wL L))).toNat = 4 * (L 0).val + 1 from hcase) hz
    isplitl [Ho5_1']
    · iapply (sub_G (F := F) d L 5 1 _ _)
      isplitr
      rotate_left
      · iexact Ho5_1'
      · ipureintro; unfold_run_names_kb2; exact zero_is_G L 5 1 _ fz fa fs (show (fs (ValueIdx.ix1 (wL L))).toNat = 4 * (L 0).val + 1 from hcase) hz
    isplitl [Ho5_2']
    · iapply (sub_G (F := F) d L 5 2 _ _)
      isplitr
      rotate_left
      · iexact Ho5_2'
      · ipureintro; unfold_run_names_kb2; exact zero_is_G L 5 2 _ fz fa fs (show (fs (ValueIdx.ix1 (wL L))).toNat = 4 * (L 0).val + 1 from hcase) hz
    isplitl [Ho5_3']
    · iapply (sub_G (F := F) d L 5 3 _ _)
      isplitr
      rotate_left
      · iexact Ho5_3'
      · ipureintro; unfold_run_names_kb2; exact zero_is_G L 5 3 _ fz fa fs (show (fs (ValueIdx.ix1 (wL L))).toNat = 4 * (L 0).val + 1 from hcase) hz
    isplitl [Ho5_4']
    · iapply (sub_G (F := F) d L 5 4 _ _)
      isplitr
      rotate_left
      · iexact Ho5_4'
      · ipureintro; unfold_run_names_kb2; exact zero_is_G L 5 4 _ fz fa fs (show (fs (ValueIdx.ix1 (wL L))).toNat = 4 * (L 0).val + 1 from hcase) hz
    isplitl [Ho5_5']
    · iapply (sub_G (F := F) d L 5 5 _ _)
      isplitr
      rotate_left
      · iexact Ho5_5'
      · ipureintro; unfold_run_names_kb2; exact zero_is_G L 5 5 _ fz fa fs (show (fs (ValueIdx.ix1 (wL L))).toNat = 4 * (L 0).val + 1 from hcase) hz
    isplitl [Ho5_6']
    · iapply (sub_G (F := F) d L 5 6 _ _)
      isplitr
      rotate_left
      · iexact Ho5_6'
      · ipureintro; unfold_run_names_kb2; exact zero_is_G L 5 6 _ fz fa fs (show (fs (ValueIdx.ix1 (wL L))).toNat = 4 * (L 0).val + 1 from hcase) hz
    · iapply (sub_G (F := F) d L 5 7 _ _)
      isplitr
      rotate_left
      · iexact Ho5_7'
      · ipureintro; unfold_run_names_kb2; exact zero_is_G L 5 7 _ fz fa fs (show (fs (ValueIdx.ix1 (wL L))).toNat = 4 * (L 0).val + 1 from hcase) hz
  isplitl [Ho6_0' Ho6_1' Ho6_2' Ho6_3' Ho6_4' Ho6_5' Ho6_6' Ho6_7']
  · iapply (Entails.of_eq ((o_subSets (F := F) d L 6 (Cert.Spec.G (F := F) fa fs : Buf (Elt F) (oLoc d))).trans (bigSep_univ_eight _)).symm)
    isplitl [Ho6_0']
    · iapply (sub_G (F := F) d L 6 0 _ _)
      isplitr
      rotate_left
      · iexact Ho6_0'
      · ipureintro; unfold_run_names_kb2; exact zero_is_G L 6 0 _ fz fa fs (show (fs (ValueIdx.ix1 (wL L))).toNat = 4 * (L 0).val + 1 from hcase) hz
    isplitl [Ho6_1']
    · iapply (sub_G (F := F) d L 6 1 _ _)
      isplitr
      rotate_left
      · iexact Ho6_1'
      · ipureintro; unfold_run_names_kb2; exact zero_is_G L 6 1 _ fz fa fs (show (fs (ValueIdx.ix1 (wL L))).toNat = 4 * (L 0).val + 1 from hcase) hz
    isplitl [Ho6_2']
    · iapply (sub_G (F := F) d L 6 2 _ _)
      isplitr
      rotate_left
      · iexact Ho6_2'
      · ipureintro; unfold_run_names_kb2; exact zero_is_G L 6 2 _ fz fa fs (show (fs (ValueIdx.ix1 (wL L))).toNat = 4 * (L 0).val + 1 from hcase) hz
    isplitl [Ho6_3']
    · iapply (sub_G (F := F) d L 6 3 _ _)
      isplitr
      rotate_left
      · iexact Ho6_3'
      · ipureintro; unfold_run_names_kb2; exact zero_is_G L 6 3 _ fz fa fs (show (fs (ValueIdx.ix1 (wL L))).toNat = 4 * (L 0).val + 1 from hcase) hz
    isplitl [Ho6_4']
    · iapply (sub_G (F := F) d L 6 4 _ _)
      isplitr
      rotate_left
      · iexact Ho6_4'
      · ipureintro; unfold_run_names_kb2; exact zero_is_G L 6 4 _ fz fa fs (show (fs (ValueIdx.ix1 (wL L))).toNat = 4 * (L 0).val + 1 from hcase) hz
    isplitl [Ho6_5']
    · iapply (sub_G (F := F) d L 6 5 _ _)
      isplitr
      rotate_left
      · iexact Ho6_5'
      · ipureintro; unfold_run_names_kb2; exact zero_is_G L 6 5 _ fz fa fs (show (fs (ValueIdx.ix1 (wL L))).toNat = 4 * (L 0).val + 1 from hcase) hz
    isplitl [Ho6_6']
    · iapply (sub_G (F := F) d L 6 6 _ _)
      isplitr
      rotate_left
      · iexact Ho6_6'
      · ipureintro; unfold_run_names_kb2; exact zero_is_G L 6 6 _ fz fa fs (show (fs (ValueIdx.ix1 (wL L))).toNat = 4 * (L 0).val + 1 from hcase) hz
    · iapply (sub_G (F := F) d L 6 7 _ _)
      isplitr
      rotate_left
      · iexact Ho6_7'
      · ipureintro; unfold_run_names_kb2; exact zero_is_G L 6 7 _ fz fa fs (show (fs (ValueIdx.ix1 (wL L))).toNat = 4 * (L 0).val + 1 from hcase) hz
  isplitl [Ho7_0' Ho7_1' Ho7_2' Ho7_3' Ho7_4' Ho7_5' Ho7_6' Ho7_7']
  · iapply (Entails.of_eq ((o_subSets (F := F) d L 7 (Cert.Spec.G (F := F) fa fs : Buf (Elt F) (oLoc d))).trans (bigSep_univ_eight _)).symm)
    isplitl [Ho7_0']
    · iapply (sub_G (F := F) d L 7 0 _ _)
      isplitr
      rotate_left
      · iexact Ho7_0'
      · ipureintro; unfold_run_names_kb2; exact zero_is_G L 7 0 _ fz fa fs (show (fs (ValueIdx.ix1 (wL L))).toNat = 4 * (L 0).val + 1 from hcase) hz
    isplitl [Ho7_1']
    · iapply (sub_G (F := F) d L 7 1 _ _)
      isplitr
      rotate_left
      · iexact Ho7_1'
      · ipureintro; unfold_run_names_kb2; exact zero_is_G L 7 1 _ fz fa fs (show (fs (ValueIdx.ix1 (wL L))).toNat = 4 * (L 0).val + 1 from hcase) hz
    isplitl [Ho7_2']
    · iapply (sub_G (F := F) d L 7 2 _ _)
      isplitr
      rotate_left
      · iexact Ho7_2'
      · ipureintro; unfold_run_names_kb2; exact zero_is_G L 7 2 _ fz fa fs (show (fs (ValueIdx.ix1 (wL L))).toNat = 4 * (L 0).val + 1 from hcase) hz
    isplitl [Ho7_3']
    · iapply (sub_G (F := F) d L 7 3 _ _)
      isplitr
      rotate_left
      · iexact Ho7_3'
      · ipureintro; unfold_run_names_kb2; exact zero_is_G L 7 3 _ fz fa fs (show (fs (ValueIdx.ix1 (wL L))).toNat = 4 * (L 0).val + 1 from hcase) hz
    isplitl [Ho7_4']
    · iapply (sub_G (F := F) d L 7 4 _ _)
      isplitr
      rotate_left
      · iexact Ho7_4'
      · ipureintro; unfold_run_names_kb2; exact zero_is_G L 7 4 _ fz fa fs (show (fs (ValueIdx.ix1 (wL L))).toNat = 4 * (L 0).val + 1 from hcase) hz
    isplitl [Ho7_5']
    · iapply (sub_G (F := F) d L 7 5 _ _)
      isplitr
      rotate_left
      · iexact Ho7_5'
      · ipureintro; unfold_run_names_kb2; exact zero_is_G L 7 5 _ fz fa fs (show (fs (ValueIdx.ix1 (wL L))).toNat = 4 * (L 0).val + 1 from hcase) hz
    isplitl [Ho7_6']
    · iapply (sub_G (F := F) d L 7 6 _ _)
      isplitr
      rotate_left
      · iexact Ho7_6'
      · ipureintro; unfold_run_names_kb2; exact zero_is_G L 7 6 _ fz fa fs (show (fs (ValueIdx.ix1 (wL L))).toNat = 4 * (L 0).val + 1 from hcase) hz
    · iapply (sub_G (F := F) d L 7 7 _ _)
      isplitr
      rotate_left
      · iexact Ho7_7'
      · ipureintro; unfold_run_names_kb2; exact zero_is_G L 7 7 _ fz fa fs (show (fs (ValueIdx.ix1 (wL L))).toNat = 4 * (L 0).val + 1 from hcase) hz
  isplitl [Ho8']
  · iapply (chunk_G8 (F := F) d L _ _)
    isplitr
    rotate_left
    · iexact Ho8'
    · ipureintro; unfold_run_names_kb2; exact copied_is_G L 8 (shB2 L) fo fa _ _ fs (show (fs (ValueIdx.ix1 (wL L))).toNat ≠ 4 * (L 0).val + 2 from by rw [hcase]; omega)
  isplitl [Ho9']
  · iapply (chunk_G9 (F := F) d L _ _)
    isplitr
    rotate_left
    · iexact Ho9'
    · ipureintro; unfold_run_names_kb2; exact copied_is_G L 9 (shB0 L) fo fa _ _ fs (show (fs (ValueIdx.ix1 (wL L))).toNat ≠ 4 * (L 0).val + 2 from by rw [hcase]; omega)
  isplitl [Ho10']
  · iapply (chunk_G10 (F := F) d L _ _)
    isplitr
    rotate_left
    · iexact Ho10'
    · ipureintro; unfold_run_names_kb2; exact copied_is_G L 10 (shB1 L) fo fa _ _ fs (show (fs (ValueIdx.ix1 (wL L))).toNat ≠ 4 * (L 0).val + 2 from by rw [hcase]; omega)
  isplitl [Ho11']
  · iapply (chunk_G11 (F := F) d L _ _)
    isplitr
    rotate_left
    · iexact Ho11'
    · ipureintro; unfold_run_names_kb2; exact copied_is_G L 11 (shB2 L) fo fa _ _ fs (show (fs (ValueIdx.ix1 (wL L))).toNat ≠ 4 * (L 0).val + 2 from by rw [hcase]; omega)
  isplitl [Ho12']
  · iapply (chunk_G12 (F := F) d L _ _)
    isplitr
    rotate_left
    · iexact Ho12'
    · ipureintro; unfold_run_names_kb2; exact copied_is_G L 12 (shB0 L) fo fa _ _ fs (show (fs (ValueIdx.ix1 (wL L))).toNat ≠ 4 * (L 0).val + 3 from by rw [hcase]; omega)
  isplitl [Ho13']
  · iapply (chunk_G13 (F := F) d L _ _)
    isplitr
    rotate_left
    · iexact Ho13'
    · ipureintro; unfold_run_names_kb2; exact copied_is_G L 13 (shB1 L) fo fa _ _ fs (show (fs (ValueIdx.ix1 (wL L))).toNat ≠ 4 * (L 0).val + 3 from by rw [hcase]; omega)
  isplitl [Ho14']
  · iapply (chunk_G14 (F := F) d L _ _)
    isplitr
    rotate_left
    · iexact Ho14'
    · ipureintro; unfold_run_names_kb2; exact copied_is_G L 14 (shB2 L) fo fa _ _ fs (show (fs (ValueIdx.ix1 (wL L))).toNat ≠ 4 * (L 0).val + 3 from by rw [hcase]; omega)
  isplitl [Ho15']
  · iapply (chunk_G15 (F := F) d L _ _)
    isplitr
    rotate_left
    · iexact Ho15'
    · ipureintro; unfold_run_names_kb2; exact copied_is_G L 15 (shB0 L) fo fa _ _ fs (show (fs (ValueIdx.ix1 (wL L))).toNat ≠ 4 * (L 0).val + 3 from by rw [hcase]; omega)
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C2

end Cert.Proof.KB

end
-- ==== Proof.KBCase3.lean ====
import proofs.«218968_g36790689857971_cont_8to1_b_1381_24_alg».proof.Proof.KBSetup
import proofs.«218968_g36790689857971_cont_8to1_b_1381_24_alg».proof.Proof.KBCanon
import proofs.«218968_g36790689857971_cont_8to1_b_1381_24_alg».proof.Proof.KBValue

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.Kernel.main_arg0_scv : Memref Cert.Kernel.sig Kind.scVector Space.hbm Cert.Kernel.S16x8x2x65536 EltTy.f32)
local notation "sW" => (Memref.whole Cert.Kernel.main_arg1_scv : Memref Cert.Kernel.sig Kind.scVector Space.hbm Cert.Kernel.S16 EltTy.i32)
local notation "oW" => (Memref.whole Cert.Kernel.main_v0_scv : Memref Cert.Kernel.sig Kind.scVector Space.hbm Cert.Kernel.S16x8x2x65536 EltTy.f32)
local notation "b0W" => (Memref.whole Cert.Kernel.cc0_scratch0 : Memref Cert.Kernel.sig Kind.scVector Space.vmem Cert.Kernel.S16 EltTy.i32)
local notation "b1W" => (Memref.whole Cert.Kernel.cc0_scratch1 : Memref Cert.Kernel.sig Kind.scVector Space.vmem Cert.Kernel.S4096 EltTy.f32)
local notation "shW" => (Memref.whole Cert.Kernel.cc0_scratch2 : Memref Cert.Kernel.sig Kind.scVector Space.shared Cert.Kernel.S1572864 EltTy.f32)

/-! ## The tile's task when it silences stream 4·(L 0) + 2

The stream number of the tile's recording is the tile's stream 2: the flags of its two channels are 1, their four chunks are written with zeros, the other twelve are copied.
The run: the stream numbers into the scratch; eight lane gathers, each flag read off as a literal; the zero buffer filled
by the counted loop; then per chunk the copy into a staging buffer and out, or the eight zero windows on one counter, drained at the end. After it every chunk piece of the
result holds the specification's values. -/

open Lean Elab Tactic Meta in
/-- Unfold, in the goal, every value the run named (the auxiliary definitions `….sl.…`). -/
elab "unfold_run_names_kb3" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C3

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : (fs (ValueIdx.ix1 (wL L))).toNat = 4 * (L 0).val + 2) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho0' := (Entails.of_eq (och_pts0 (F := F) d L _).symm) $$ Ho0
  ihave Ho1' := (Entails.of_eq (och_pts1 (F := F) d L _).symm) $$ Ho1
  ihave Ho2' := (Entails.of_eq (och_pts2 (F := F) d L _).symm) $$ Ho2
  ihave Ho3' := (Entails.of_eq (och_pts3 (F := F) d L _).symm) $$ Ho3
  ihave Ho4' := (Entails.of_eq (och_pts4 (F := F) d L _).symm) $$ Ho4
  ihave Ho5' := (Entails.of_eq (och_pts5 (F := F) d L _).symm) $$ Ho5
  ihave Ho6' := (Entails.of_eq (och_pts6 (F := F) d L _).symm) $$ Ho6
  ihave Ho7' := (Entails.of_eq (och_pts7 (F := F) d L _).symm) $$ Ho7
  ihave Ho12' := (Entails.of_eq (och_pts12 (F := F) d L _).symm) $$ Ho12
  ihave Ho13' := (Entails.of_eq (och_pts13 (F := F) d L _).symm) $$ Ho13
  ihave Ho14' := (Entails.of_eq (och_pts14 (F := F) d L _).symm) $$ Ho14
  ihave Ho15' := (Entails.of_eq (och_pts15 (F := F) d L _).symm) $$ Ho15
  ihave Ho8s := (Entails.of_eq ((o_subSets (F := F) d L 8 fo).trans (bigSep_univ_eight _))) $$ Ho8
  icases Ho8s with ⟨Ho8_0, Ho8_1, Ho8_2, Ho8_3, Ho8_4, Ho8_5, Ho8_6, Ho8_7⟩
  ihave Ho8_0' := (Entails.of_eq (osub_pts (F := F) d L 8 0 _).symm) $$ Ho8_0
  ihave Ho8_1' := (Entails.of_eq (osub_pts (F := F) d L 8 1 _).symm) $$ Ho8_1
  ihave Ho8_2' := (Entails.of_eq (osub_pts (F := F) d L 8 2 _).symm) $$ Ho8_2
  ihave Ho8_3' := (Entails.of_eq (osub_pts (F := F) d L 8 3 _).symm) $$ Ho8_3
  ihave Ho8_4' := (Entails.of_eq (osub_pts (F := F) d L 8 4 _).symm) $$ Ho8_4
  ihave Ho8_5' := (Entails.of_eq (osub_pts (F := F) d L 8 5 _).symm) $$ Ho8_5
  ihave Ho8_6' := (Entails.of_eq (osub_pts (F := F) d L 8 6 _).symm) $$ Ho8_6
  ihave Ho8_7' := (Entails.of_eq (osub_pts (F := F) d L 8 7 _).symm) $$ Ho8_7
  ihave Ho9s := (Entails.of_eq ((o_subSets (F := F) d L 9 fo).trans (bigSep_univ_eight _))) $$ Ho9
  icases Ho9s with ⟨Ho9_0, Ho9_1, Ho9_2, Ho9_3, Ho9_4, Ho9_5, Ho9_6, Ho9_7⟩
  ihave Ho9_0' := (Entails.of_eq (osub_pts (F := F) d L 9 0 _).symm) $$ Ho9_0
  ihave Ho9_1' := (Entails.of_eq (osub_pts (F := F) d L 9 1 _).symm) $$ Ho9_1
  ihave Ho9_2' := (Entails.of_eq (osub_pts (F := F) d L 9 2 _).symm) $$ Ho9_2
  ihave Ho9_3' := (Entails.of_eq (osub_pts (F := F) d L 9 3 _).symm) $$ Ho9_3
  ihave Ho9_4' := (Entails.of_eq (osub_pts (F := F) d L 9 4 _).symm) $$ Ho9_4
  ihave Ho9_5' := (Entails.of_eq (osub_pts (F := F) d L 9 5 _).symm) $$ Ho9_5
  ihave Ho9_6' := (Entails.of_eq (osub_pts (F := F) d L 9 6 _).symm) $$ Ho9_6
  ihave Ho9_7' := (Entails.of_eq (osub_pts (F := F) d L 9 7 _).symm) $$ Ho9_7
  ihave Ho10s := (Entails.of_eq ((o_subSets (F := F) d L 10 fo).trans (bigSep_univ_eight _))) $$ Ho10
  icases Ho10s with ⟨Ho10_0, Ho10_1, Ho10_2, Ho10_3, Ho10_4, Ho10_5, Ho10_6, Ho10_7⟩
  ihave Ho10_0' := (Entails.of_eq (osub_pts (F := F) d L 10 0 _).symm) $$ Ho10_0
  ihave Ho10_1' := (Entails.of_eq (osub_pts (F := F) d L 10 1 _).symm) $$ Ho10_1
  ihave Ho10_2' := (Entails.of_eq (osub_pts (F := F) d L 10 2 _).symm) $$ Ho10_2
  ihave Ho10_3' := (Entails.of_eq (osub_pts (F := F) d L 10 3 _).symm) $$ Ho10_3
  ihave Ho10_4' := (Entails.of_eq (osub_pts (F := F) d L 10 4 _).symm) $$ Ho10_4
  ihave Ho10_5' := (Entails.of_eq (osub_pts (F := F) d L 10 5 _).symm) $$ Ho10_5
  ihave Ho10_6' := (Entails.of_eq (osub_pts (F := F) d L 10 6 _).symm) $$ Ho10_6
  ihave Ho10_7' := (Entails.of_eq (osub_pts (F := F) d L 10 7 _).symm) $$ Ho10_7
  ihave Ho11s := (Entails.of_eq ((o_subSets (F := F) d L 11 fo).trans (bigSep_univ_eight _))) $$ Ho11
  icases Ho11s with ⟨Ho11_0, Ho11_1, Ho11_2, Ho11_3, Ho11_4, Ho11_5, Ho11_6, Ho11_7⟩
  ihave Ho11_0' := (Entails.of_eq (osub_pts (F := F) d L 11 0 _).symm) $$ Ho11_0
  ihave Ho11_1' := (Entails.of_eq (osub_pts (F := F) d L 11 1 _).symm) $$ Ho11_1
  ihave Ho11_2' := (Entails.of_eq (osub_pts (F := F) d L 11 2 _).symm) $$ Ho11_2
  ihave Ho11_3' := (Entails.of_eq (osub_pts (F := F) d L 11 3 _).symm) $$ Ho11_3
  ihave Ho11_4' := (Entails.of_eq (osub_pts (F := F) d L 11 4 _).symm) $$ Ho11_4
  ihave Ho11_5' := (Entails.of_eq (osub_pts (F := F) d L 11 5 _).symm) $$ Ho11_5
  ihave Ho11_6' := (Entails.of_eq (osub_pts (F := F) d L 11 6 _).symm) $$ Ho11_6
  ihave Ho11_7' := (Entails.of_eq (osub_pts (F := F) d L 11 7 _).symm) $$ Ho11_7
  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  have _plan : Transfers.BatchOf (V d (cV L) (jV L)) (SemLoc.dma (sig := sig) cc0_scratch9.sem) 32 (windows := true) := trivial
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 0#1 := by
    unfold tile_case.sl.v71 tile_case.sl.v70 tile_case.sl.v69
    exact flag_lit_zero d L fs f0 _ _ _ _ _ 0 (by decide) (hidx0 L) (hsw0 L) (by rw [hcase]; omega)
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 0#1 := by
    unfold tile_case.sl.v132 tile_case.sl.v131 tile_case.sl.v130
    exact flag_lit_zero d L fs f0 _ _ _ _ _ 0 (by decide) (hidx1 L) (hsw1 L) (by rw [hcase]; omega)
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 0#1 := by
    unfold tile_case.sl.v193 tile_case.sl.v192 tile_case.sl.v191
    exact flag_lit_zero d L fs f0 _ _ _ _ _ 1 (by decide) (hidx2 L) (hsw2 L) (by rw [hcase]; omega)
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 0#1 := by
    unfold tile_case.sl.v254 tile_case.sl.v253 tile_case.sl.v252
    exact flag_lit_zero d L fs f0 _ _ _ _ _ 1 (by decide) (hidx3 L) (hsw3 L) (by rw [hcase]; omega)
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 1#1 := by
    unfold tile_case.sl.v315 tile_case.sl.v314 tile_case.sl.v313
    exact flag_lit_one d L fs f0 _ _ _ _ _ 2 (by decide) (hidx4 L) (hsw4 L) hcase
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 1#1 := by
    unfold tile_case.sl.v376 tile_case.sl.v375 tile_case.sl.v374
    exact flag_lit_one d L fs f0 _ _ _ _ _ 2 (by decide) (hidx5 L) (hsw5 L) hcase
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 0#1 := by
    unfold tile_case.sl.v437 tile_case.sl.v436 tile_case.sl.v435
    exact flag_lit_zero d L fs f0 _ _ _ _ _ 3 (by decide) (hidx6 L) (hsw6 L) (by rw [hcase]; omega)
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 0#1 := by
    unfold tile_case.sl.v498 tile_case.sl.v497 k0_pay8
    exact flag_lit_zero d L fs f0 _ _ _ _ _ 3 (by decide) (hidx7 L) (hsw7 L) (by rw [hcase]; omega)
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0']
  · iapply (chunk_G0 (F := F) d L _ _)
    isplitr
    rotate_left
    · iexact Ho0'
    · ipureintro; unfold_run_names_kb3; exact copied_is_G L 0 (shB0 L) fo fa _ _ fs (show (fs (ValueIdx.ix1 (wL L))).toNat ≠ 4 * (L 0).val + 0 from by rw [hcase]; omega)
  isplitl [Ho1']
  · iapply (chunk_G1 (F := F) d L _ _)
    isplitr
    rotate_left
    · iexact Ho1'
    · ipureintro; unfold_run_names_kb3; exact copied_is_G L 1 (shB1 L) fo fa _ _ fs (show (fs (ValueIdx.ix1 (wL L))).toNat ≠ 4 * (L 0).val + 0 from by rw [hcase]; omega)
  isplitl [Ho2']
  · iapply (chunk_G2 (F := F) d L _ _)
    isplitr
    rotate_left
    · iexact Ho2'
    · ipureintro; unfold_run_names_kb3; exact copied_is_G L 2 (shB2 L) fo fa _ _ fs (show (fs (ValueIdx.ix1 (wL L))).toNat ≠ 4 * (L 0).val + 0 from by rw [hcase]; omega)
  isplitl [Ho3']
  · iapply (chunk_G3 (F := F) d L _ _)
    isplitr
    rotate_left
    · iexact Ho3'
    · ipureintro; unfold_run_names_kb3; exact copied_is_G L 3 (shB0 L) fo fa _ _ fs (show (fs (ValueIdx.ix1 (wL L))).toNat ≠ 4 * (L 0).val + 0 from by rw [hcase]; omega)
  isplitl [Ho4']
  · iapply (chunk_G4 (F := F) d L _ _)
    isplitr
    rotate_left
    · iexact Ho4'
    · ipureintro; unfold_run_names_kb3; exact copied_is_G L 4 (shB1 L) fo fa _ _ fs (show (fs (ValueIdx.ix1 (wL L))).toNat ≠ 4 * (L 0).val + 1 from by rw [hcase]; omega)
  isplitl [Ho5']
  · iapply (chunk_G5 (F := F) d L _ _)
    isplitr
    rotate_left
    · iexact Ho5'
    · ipureintro; unfold_run_names_kb3; exact copied_is_G L 5 (shB2 L) fo fa _ _ fs (show (fs (ValueIdx.ix1 (wL L))).toNat ≠ 4 * (L 0).val + 1 from by rw [hcase]; omega)
  isplitl [Ho6']
  · iapply (chunk_G6 (F := F) d L _ _)
    isplitr
    rotate_left
    · iexact Ho6'
    · ipureintro; unfold_run_names_kb3; exact copied_is_G L 6 (shB0 L) fo fa _ _ fs (show (fs (ValueIdx.ix1 (wL L))).toNat ≠ 4 * (L 0).val + 1 from by rw [hcase]; omega)
  isplitl [Ho7']
  · iapply (chunk_G7 (F := F) d L _ _)
    isplitr
    rotate_left
    · iexact Ho7'
    · ipureintro; unfold_run_names_kb3; exact copied_is_G L 7 (shB1 L) fo fa _ _ fs (show (fs (ValueIdx.ix1 (wL L))).toNat ≠ 4 * (L 0).val + 1 from by rw [hcase]; omega)
  isplitl [Ho8_0' Ho8_1' Ho8_2' Ho8_3' Ho8_4' Ho8_5' Ho8_6' Ho8_7']
  · iapply (Entails.of_eq ((o_subSets (F := F) d L 8 (Cert.Spec.G (F := F) fa fs : Buf (Elt F) (oLoc d))).trans (bigSep_univ_eight _)).symm)
    isplitl [Ho8_0']
    · iapply (sub_G (F := F) d L 8 0 _ _)
      isplitr
      rotate_left
      · iexact Ho8_0'
      · ipureintro; unfold_run_names_kb3; exact zero_is_G L 8 0 _ fz fa fs (show (fs (ValueIdx.ix1 (wL L))).toNat = 4 * (L 0).val + 2 from hcase) hz
    isplitl [Ho8_1']
    · iapply (sub_G (F := F) d L 8 1 _ _)
      isplitr
      rotate_left
      · iexact Ho8_1'
      · ipureintro; unfold_run_names_kb3; exact zero_is_G L 8 1 _ fz fa fs (show (fs (ValueIdx.ix1 (wL L))).toNat = 4 * (L 0).val + 2 from hcase) hz
    isplitl [Ho8_2']
    · iapply (sub_G (F := F) d L 8 2 _ _)
      isplitr
      rotate_left
      · iexact Ho8_2'
      · ipureintro; unfold_run_names_kb3; exact zero_is_G L 8 2 _ fz fa fs (show (fs (ValueIdx.ix1 (wL L))).toNat = 4 * (L 0).val + 2 from hcase) hz
    isplitl [Ho8_3']
    · iapply (sub_G (F := F) d L 8 3 _ _)
      isplitr
      rotate_left
      · iexact Ho8_3'
      · ipureintro; unfold_run_names_kb3; exact zero_is_G L 8 3 _ fz fa fs (show (fs (ValueIdx.ix1 (wL L))).toNat = 4 * (L 0).val + 2 from hcase) hz
    isplitl [Ho8_4']
    · iapply (sub_G (F := F) d L 8 4 _ _)
      isplitr
      rotate_left
      · iexact Ho8_4'
      · ipureintro; unfold_run_names_kb3; exact zero_is_G L 8 4 _ fz fa fs (show (fs (ValueIdx.ix1 (wL L))).toNat = 4 * (L 0).val + 2 from hcase) hz
    isplitl [Ho8_5']
    · iapply (sub_G (F := F) d L 8 5 _ _)
      isplitr
      rotate_left
      · iexact Ho8_5'
      · ipureintro; unfold_run_names_kb3; exact zero_is_G L 8 5 _ fz fa fs (show (fs (ValueIdx.ix1 (wL L))).toNat = 4 * (L 0).val + 2 from hcase) hz
    isplitl [Ho8_6']
    · iapply (sub_G (F := F) d L 8 6 _ _)
      isplitr
      rotate_left
      · iexact Ho8_6'
      · ipureintro; unfold_run_names_kb3; exact zero_is_G L 8 6 _ fz fa fs (show (fs (ValueIdx.ix1 (wL L))).toNat = 4 * (L 0).val + 2 from hcase) hz
    · iapply (sub_G (F := F) d L 8 7 _ _)
      isplitr
      rotate_left
      · iexact Ho8_7'
      · ipureintro; unfold_run_names_kb3; exact zero_is_G L 8 7 _ fz fa fs (show (fs (ValueIdx.ix1 (wL L))).toNat = 4 * (L 0).val + 2 from hcase) hz
  isplitl [Ho9_0' Ho9_1' Ho9_2' Ho9_3' Ho9_4' Ho9_5' Ho9_6' Ho9_7']
  · iapply (Entails.of_eq ((o_subSets (F := F) d L 9 (Cert.Spec.G (F := F) fa fs : Buf (Elt F) (oLoc d))).trans (bigSep_univ_eight _)).symm)
    isplitl [Ho9_0']
    · iapply (sub_G (F := F) d L 9 0 _ _)
      isplitr
      rotate_left
      · iexact Ho9_0'
      · ipureintro; unfold_run_names_kb3; exact zero_is_G L 9 0 _ fz fa fs (show (fs (ValueIdx.ix1 (wL L))).toNat = 4 * (L 0).val + 2 from hcase) hz
    isplitl [Ho9_1']
    · iapply (sub_G (F := F) d L 9 1 _ _)
      isplitr
      rotate_left
      · iexact Ho9_1'
      · ipureintro; unfold_run_names_kb3; exact zero_is_G L 9 1 _ fz fa fs (show (fs (ValueIdx.ix1 (wL L))).toNat = 4 * (L 0).val + 2 from hcase) hz
    isplitl [Ho9_2']
    · iapply (sub_G (F := F) d L 9 2 _ _)
      isplitr
      rotate_left
      · iexact Ho9_2'
      · ipureintro; unfold_run_names_kb3; exact zero_is_G L 9 2 _ fz fa fs (show (fs (ValueIdx.ix1 (wL L))).toNat = 4 * (L 0).val + 2 from hcase) hz
    isplitl [Ho9_3']
    · iapply (sub_G (F := F) d L 9 3 _ _)
      isplitr
      rotate_left
      · iexact Ho9_3'
      · ipureintro; unfold_run_names_kb3; exact zero_is_G L 9 3 _ fz fa fs (show (fs (ValueIdx.ix1 (wL L))).toNat = 4 * (L 0).val + 2 from hcase) hz
    isplitl [Ho9_4']
    · iapply (sub_G (F := F) d L 9 4 _ _)
      isplitr
      rotate_left
      · iexact Ho9_4'
      · ipureintro; unfold_run_names_kb3; exact zero_is_G L 9 4 _ fz fa fs (show (fs (ValueIdx.ix1 (wL L))).toNat = 4 * (L 0).val + 2 from hcase) hz
    isplitl [Ho9_5']
    · iapply (sub_G (F := F) d L 9 5 _ _)
      isplitr
      rotate_left
      · iexact Ho9_5'
      · ipureintro; unfold_run_names_kb3; exact zero_is_G L 9 5 _ fz fa fs (show (fs (ValueIdx.ix1 (wL L))).toNat = 4 * (L 0).val + 2 from hcase) hz
    isplitl [Ho9_6']
    · iapply (sub_G (F := F) d L 9 6 _ _)
      isplitr
      rotate_left
      · iexact Ho9_6'
      · ipureintro; unfold_run_names_kb3; exact zero_is_G L 9 6 _ fz fa fs (show (fs (ValueIdx.ix1 (wL L))).toNat = 4 * (L 0).val + 2 from hcase) hz
    · iapply (sub_G (F := F) d L 9 7 _ _)
      isplitr
      rotate_left
      · iexact Ho9_7'
      · ipureintro; unfold_run_names_kb3; exact zero_is_G L 9 7 _ fz fa fs (show (fs (ValueIdx.ix1 (wL L))).toNat = 4 * (L 0).val + 2 from hcase) hz
  isplitl [Ho10_0' Ho10_1' Ho10_2' Ho10_3' Ho10_4' Ho10_5' Ho10_6' Ho10_7']
  · iapply (Entails.of_eq ((o_subSets (F := F) d L 10 (Cert.Spec.G (F := F) fa fs : Buf (Elt F) (oLoc d))).trans (bigSep_univ_eight _)).symm)
    isplitl [Ho10_0']
    · iapply (sub_G (F := F) d L 10 0 _ _)
      isplitr
      rotate_left
      · iexact Ho10_0'
      · ipureintro; unfold_run_names_kb3; exact zero_is_G L 10 0 _ fz fa fs (show (fs (ValueIdx.ix1 (wL L))).toNat = 4 * (L 0).val + 2 from hcase) hz
    isplitl [Ho10_1']
    · iapply (sub_G (F := F) d L 10 1 _ _)
      isplitr
      rotate_left
      · iexact Ho10_1'
      · ipureintro; unfold_run_names_kb3; exact zero_is_G L 10 1 _ fz fa fs (show (fs (ValueIdx.ix1 (wL L))).toNat = 4 * (L 0).val + 2 from hcase) hz
    isplitl [Ho10_2']
    · iapply (sub_G (F := F) d L 10 2 _ _)
      isplitr
      rotate_left
      · iexact Ho10_2'
      · ipureintro; unfold_run_names_kb3; exact zero_is_G L 10 2 _ fz fa fs (show (fs (ValueIdx.ix1 (wL L))).toNat = 4 * (L 0).val + 2 from hcase) hz
    isplitl [Ho10_3']
    · iapply (sub_G (F := F) d L 10 3 _ _)
      isplitr
      rotate_left
      · iexact Ho10_3'
      · ipureintro; unfold_run_names_kb3; exact zero_is_G L 10 3 _ fz fa fs (show (fs (ValueIdx.ix1 (wL L))).toNat = 4 * (L 0).val + 2 from hcase) hz
    isplitl [Ho10_4']
    · iapply (sub_G (F := F) d L 10 4 _ _)
      isplitr
      rotate_left
      · iexact Ho10_4'
      · ipureintro; unfold_run_names_kb3; exact zero_is_G L 10 4 _ fz fa fs (show (fs (ValueIdx.ix1 (wL L))).toNat = 4 * (L 0).val + 2 from hcase) hz
    isplitl [Ho10_5']
    · iapply (sub_G (F := F) d L 10 5 _ _)
      isplitr
      rotate_left
      · iexact Ho10_5'
      · ipureintro; unfold_run_names_kb3; exact zero_is_G L 10 5 _ fz fa fs (show (fs (ValueIdx.ix1 (wL L))).toNat = 4 * (L 0).val + 2 from hcase) hz
    isplitl [Ho10_6']
    · iapply (sub_G (F := F) d L 10 6 _ _)
      isplitr
      rotate_left
      · iexact Ho10_6'
      · ipureintro; unfold_run_names_kb3; exact zero_is_G L 10 6 _ fz fa fs (show (fs (ValueIdx.ix1 (wL L))).toNat = 4 * (L 0).val + 2 from hcase) hz
    · iapply (sub_G (F := F) d L 10 7 _ _)
      isplitr
      rotate_left
      · iexact Ho10_7'
      · ipureintro; unfold_run_names_kb3; exact zero_is_G L 10 7 _ fz fa fs (show (fs (ValueIdx.ix1 (wL L))).toNat = 4 * (L 0).val + 2 from hcase) hz
  isplitl [Ho11_0' Ho11_1' Ho11_2' Ho11_3' Ho11_4' Ho11_5' Ho11_6' Ho11_7']
  · iapply (Entails.of_eq ((o_subSets (F := F) d L 11 (Cert.Spec.G (F := F) fa fs : Buf (Elt F) (oLoc d))).trans (bigSep_univ_eight _)).symm)
    isplitl [Ho11_0']
    · iapply (sub_G (F := F) d L 11 0 _ _)
      isplitr
      rotate_left
      · iexact Ho11_0'
      · ipureintro; unfold_run_names_kb3; exact zero_is_G L 11 0 _ fz fa fs (show (fs (ValueIdx.ix1 (wL L))).toNat = 4 * (L 0).val + 2 from hcase) hz
    isplitl [Ho11_1']
    · iapply (sub_G (F := F) d L 11 1 _ _)
      isplitr
      rotate_left
      · iexact Ho11_1'
      · ipureintro; unfold_run_names_kb3; exact zero_is_G L 11 1 _ fz fa fs (show (fs (ValueIdx.ix1 (wL L))).toNat = 4 * (L 0).val + 2 from hcase) hz
    isplitl [Ho11_2']
    · iapply (sub_G (F := F) d L 11 2 _ _)
      isplitr
      rotate_left
      · iexact Ho11_2'
      · ipureintro; unfold_run_names_kb3; exact zero_is_G L 11 2 _ fz fa fs (show (fs (ValueIdx.ix1 (wL L))).toNat = 4 * (L 0).val + 2 from hcase) hz
    isplitl [Ho11_3']
    · iapply (sub_G (F := F) d L 11 3 _ _)
      isplitr
      rotate_left
      · iexact Ho11_3'
      · ipureintro; unfold_run_names_kb3; exact zero_is_G L 11 3 _ fz fa fs (show (fs (ValueIdx.ix1 (wL L))).toNat = 4 * (L 0).val + 2 from hcase) hz
    isplitl [Ho11_4']
    · iapply (sub_G (F := F) d L 11 4 _ _)
      isplitr
      rotate_left
      · iexact Ho11_4'
      · ipureintro; unfold_run_names_kb3; exact zero_is_G L 11 4 _ fz fa fs (show (fs (ValueIdx.ix1 (wL L))).toNat = 4 * (L 0).val + 2 from hcase) hz
    isplitl [Ho11_5']
    · iapply (sub_G (F := F) d L 11 5 _ _)
      isplitr
      rotate_left
      · iexact Ho11_5'
      · ipureintro; unfold_run_names_kb3; exact zero_is_G L 11 5 _ fz fa fs (show (fs (ValueIdx.ix1 (wL L))).toNat = 4 * (L 0).val + 2 from hcase) hz
    isplitl [Ho11_6']
    · iapply (sub_G (F := F) d L 11 6 _ _)
      isplitr
      rotate_left
      · iexact Ho11_6'
      · ipureintro; unfold_run_names_kb3; exact zero_is_G L 11 6 _ fz fa fs (show (fs (ValueIdx.ix1 (wL L))).toNat = 4 * (L 0).val + 2 from hcase) hz
    · iapply (sub_G (F := F) d L 11 7 _ _)
      isplitr
      rotate_left
      · iexact Ho11_7'
      · ipureintro; unfold_run_names_kb3; exact zero_is_G L 11 7 _ fz fa fs (show (fs (ValueIdx.ix1 (wL L))).toNat = 4 * (L 0).val + 2 from hcase) hz
  isplitl [Ho12']
  · iapply (chunk_G12 (F := F) d L _ _)
    isplitr
    rotate_left
    · iexact Ho12'
    · ipureintro; unfold_run_names_kb3; exact copied_is_G L 12 (shB0 L) fo fa _ _ fs (show (fs (ValueIdx.ix1 (wL L))).toNat ≠ 4 * (L 0).val + 3 from by rw [hcase]; omega)
  isplitl [Ho13']
  · iapply (chunk_G13 (F := F) d L _ _)
    isplitr
    rotate_left
    · iexact Ho13'
    · ipureintro; unfold_run_names_kb3; exact copied_is_G L 13 (shB1 L) fo fa _ _ fs (show (fs (ValueIdx.ix1 (wL L))).toNat ≠ 4 * (L 0).val + 3 from by rw [hcase]; omega)
  isplitl [Ho14']
  · iapply (chunk_G14 (F := F) d L _ _)
    isplitr
    rotate_left
    · iexact Ho14'
    · ipureintro; unfold_run_names_kb3; exact copied_is_G L 14 (shB2 L) fo fa _ _ fs (show (fs (ValueIdx.ix1 (wL L))).toNat ≠ 4 * (L 0).val + 3 from by rw [hcase]; omega)
  isplitl [Ho15']
  · iapply (chunk_G15 (F := F) d L _ _)
    isplitr
    rotate_left
    · iexact Ho15'
    · ipureintro; unfold_run_names_kb3; exact copied_is_G L 15 (shB0 L) fo fa _ _ fs (show (fs (ValueIdx.ix1 (wL L))).toNat ≠ 4 * (L 0).val + 3 from by rw [hcase]; omega)
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C3

end Cert.Proof.KB

end
-- ==== Proof.KBCase4.lean ====
import proofs.«218968_g36790689857971_cont_8to1_b_1381_24_alg».proof.Proof.KBSetup
import proofs.«218968_g36790689857971_cont_8to1_b_1381_24_alg».proof.Proof.KBCanon
import proofs.«218968_g36790689857971_cont_8to1_b_1381_24_alg».proof.Proof.KBValue

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.Kernel.main_arg0_scv : Memref Cert.Kernel.sig Kind.scVector Space.hbm Cert.Kernel.S16x8x2x65536 EltTy.f32)
local notation "sW" => (Memref.whole Cert.Kernel.main_arg1_scv : Memref Cert.Kernel.sig Kind.scVector Space.hbm Cert.Kernel.S16 EltTy.i32)
local notation "oW" => (Memref.whole Cert.Kernel.main_v0_scv : Memref Cert.Kernel.sig Kind.scVector Space.hbm Cert.Kernel.S16x8x2x65536 EltTy.f32)
local notation "b0W" => (Memref.whole Cert.Kernel.cc0_scratch0 : Memref Cert.Kernel.sig Kind.scVector Space.vmem Cert.Kernel.S16 EltTy.i32)
local notation "b1W" => (Memref.whole Cert.Kernel.cc0_scratch1 : Memref Cert.Kernel.sig Kind.scVector Space.vmem Cert.Kernel.S4096 EltTy.f32)
local notation "shW" => (Memref.whole Cert.Kernel.cc0_scratch2 : Memref Cert.Kernel.sig Kind.scVector Space.shared Cert.Kernel.S1572864 EltTy.f32)

/-! ## The tile's task when it silences stream 4·(L 0) + 3

The stream number of the tile's recording is the tile's stream 3: the flags of its two channels are 1, their four chunks are written with zeros, the other twelve are copied.
The run: the stream numbers into the scratch; eight lane gathers, each flag read off as a literal; the zero buffer filled
by the counted loop; then per chunk the copy into a staging buffer and out, or the eight zero windows on one counter, drained at the end. After it every chunk piece of the
result holds the specification's values. -/

open Lean Elab Tactic Meta in
/-- Unfold, in the goal, every value the run named (the auxiliary definitions `….sl.…`). -/
elab "unfold_run_names_kb4" : tactic => do
  let g ← getMainGoal
  let t ← instantiateMVars (← g.getType)
  let t' ← Meta.transform t (pre := fun e => do
    match e.getAppFn with
    | .const n _ =>
      if (n.toString.splitOn ".sl.").length > 1 then
        match ← delta? e with
        | some e' => return .visit e'.headBeta
        | none => return .continue
      else return .continue
    | _ => return .continue)
  replaceMainGoal [← g.replaceTargetDefEq t']

variable [FloatOps F]
variable (d : Dev nD) (L : grid0.Coords)

namespace C4

theorem chunk_G0 (T G : Buf (Elt F) (oLoc d)) :
    iprop(⌜∀ i ∈ chunkSet L 0, T i = G i⌝ ∗ ((oCh0 L).view.loc (V d (cV L) (jV L)) ↦[(oCh0 L).view.set]{fullShare} T)) ⊢ (oLoc d ↦[chunkSet L 0]{fullShare} G : sProp 𝕄) := by
  iintro ⟨%h, H⟩
  iapply (Entails.of_eq ((och_pts0 (F := F) d L T).trans (pointsTo_congr h)))
  iexact H
theorem chunk_G1 (T G : Buf (Elt F) (oLoc d)) :
    iprop(⌜∀ i ∈ chunkSet L 1, T i = G i⌝ ∗ ((oCh1 L).view.loc (V d (cV L) (jV L)) ↦[(oCh1 L).view.set]{fullShare} T)) ⊢ (oLoc d ↦[chunkSet L 1]{fullShare} G : sProp 𝕄) := by
  iintro ⟨%h, H⟩
  iapply (Entails.of_eq ((och_pts1 (F := F) d L T).trans (pointsTo_congr h)))
  iexact H
theorem chunk_G2 (T G : Buf (Elt F) (oLoc d)) :
    iprop(⌜∀ i ∈ chunkSet L 2, T i = G i⌝ ∗ ((oCh2 L).view.loc (V d (cV L) (jV L)) ↦[(oCh2 L).view.set]{fullShare} T)) ⊢ (oLoc d ↦[chunkSet L 2]{fullShare} G : sProp 𝕄) := by
  iintro ⟨%h, H⟩
  iapply (Entails.of_eq ((och_pts2 (F := F) d L T).trans (pointsTo_congr h)))
  iexact H
theorem chunk_G3 (T G : Buf (Elt F) (oLoc d)) :
    iprop(⌜∀ i ∈ chunkSet L 3, T i = G i⌝ ∗ ((oCh3 L).view.loc (V d (cV L) (jV L)) ↦[(oCh3 L).view.set]{fullShare} T)) ⊢ (oLoc d ↦[chunkSet L 3]{fullShare} G : sProp 𝕄) := by
  iintro ⟨%h, H⟩
  iapply (Entails.of_eq ((och_pts3 (F := F) d L T).trans (pointsTo_congr h)))
  iexact H
theorem chunk_G4 (T G : Buf (Elt F) (oLoc d)) :
    iprop(⌜∀ i ∈ chunkSet L 4, T i = G i⌝ ∗ ((oCh4 L).view.loc (V d (cV L) (jV L)) ↦[(oCh4 L).view.set]{fullShare} T)) ⊢ (oLoc d ↦[chunkSet L 4]{fullShare} G : sProp 𝕄) := by
  iintro ⟨%h, H⟩
  iapply (Entails.of_eq ((och_pts4 (F := F) d L T).trans (pointsTo_congr h)))
  iexact H
theorem chunk_G5 (T G : Buf (Elt F) (oLoc d)) :
    iprop(⌜∀ i ∈ chunkSet L 5, T i = G i⌝ ∗ ((oCh5 L).view.loc (V d (cV L) (jV L)) ↦[(oCh5 L).view.set]{fullShare} T)) ⊢ (oLoc d ↦[chunkSet L 5]{fullShare} G : sProp 𝕄) := by
  iintro ⟨%h, H⟩
  iapply (Entails.of_eq ((och_pts5 (F := F) d L T).trans (pointsTo_congr h)))
  iexact H
theorem chunk_G6 (T G : Buf (Elt F) (oLoc d)) :
    iprop(⌜∀ i ∈ chunkSet L 6, T i = G i⌝ ∗ ((oCh6 L).view.loc (V d (cV L) (jV L)) ↦[(oCh6 L).view.set]{fullShare} T)) ⊢ (oLoc d ↦[chunkSet L 6]{fullShare} G : sProp 𝕄) := by
  iintro ⟨%h, H⟩
  iapply (Entails.of_eq ((och_pts6 (F := F) d L T).trans (pointsTo_congr h)))
  iexact H
theorem chunk_G7 (T G : Buf (Elt F) (oLoc d)) :
    iprop(⌜∀ i ∈ chunkSet L 7, T i = G i⌝ ∗ ((oCh7 L).view.loc (V d (cV L) (jV L)) ↦[(oCh7 L).view.set]{fullShare} T)) ⊢ (oLoc d ↦[chunkSet L 7]{fullShare} G : sProp 𝕄) := by
  iintro ⟨%h, H⟩
  iapply (Entails.of_eq ((och_pts7 (F := F) d L T).trans (pointsTo_congr h)))
  iexact H
theorem chunk_G8 (T G : Buf (Elt F) (oLoc d)) :
    iprop(⌜∀ i ∈ chunkSet L 8, T i = G i⌝ ∗ ((oCh8 L).view.loc (V d (cV L) (jV L)) ↦[(oCh8 L).view.set]{fullShare} T)) ⊢ (oLoc d ↦[chunkSet L 8]{fullShare} G : sProp 𝕄) := by
  iintro ⟨%h, H⟩
  iapply (Entails.of_eq ((och_pts8 (F := F) d L T).trans (pointsTo_congr h)))
  iexact H
theorem chunk_G9 (T G : Buf (Elt F) (oLoc d)) :
    iprop(⌜∀ i ∈ chunkSet L 9, T i = G i⌝ ∗ ((oCh9 L).view.loc (V d (cV L) (jV L)) ↦[(oCh9 L).view.set]{fullShare} T)) ⊢ (oLoc d ↦[chunkSet L 9]{fullShare} G : sProp 𝕄) := by
  iintro ⟨%h, H⟩
  iapply (Entails.of_eq ((och_pts9 (F := F) d L T).trans (pointsTo_congr h)))
  iexact H
theorem chunk_G10 (T G : Buf (Elt F) (oLoc d)) :
    iprop(⌜∀ i ∈ chunkSet L 10, T i = G i⌝ ∗ ((oCh10 L).view.loc (V d (cV L) (jV L)) ↦[(oCh10 L).view.set]{fullShare} T)) ⊢ (oLoc d ↦[chunkSet L 10]{fullShare} G : sProp 𝕄) := by
  iintro ⟨%h, H⟩
  iapply (Entails.of_eq ((och_pts10 (F := F) d L T).trans (pointsTo_congr h)))
  iexact H
theorem chunk_G11 (T G : Buf (Elt F) (oLoc d)) :
    iprop(⌜∀ i ∈ chunkSet L 11, T i = G i⌝ ∗ ((oCh11 L).view.loc (V d (cV L) (jV L)) ↦[(oCh11 L).view.set]{fullShare} T)) ⊢ (oLoc d ↦[chunkSet L 11]{fullShare} G : sProp 𝕄) := by
  iintro ⟨%h, H⟩
  iapply (Entails.of_eq ((och_pts11 (F := F) d L T).trans (pointsTo_congr h)))
  iexact H
theorem chunk_G12 (T G : Buf (Elt F) (oLoc d)) :
    iprop(⌜∀ i ∈ chunkSet L 12, T i = G i⌝ ∗ ((oCh12 L).view.loc (V d (cV L) (jV L)) ↦[(oCh12 L).view.set]{fullShare} T)) ⊢ (oLoc d ↦[chunkSet L 12]{fullShare} G : sProp 𝕄) := by
  iintro ⟨%h, H⟩
  iapply (Entails.of_eq ((och_pts12 (F := F) d L T).trans (pointsTo_congr h)))
  iexact H
theorem chunk_G13 (T G : Buf (Elt F) (oLoc d)) :
    iprop(⌜∀ i ∈ chunkSet L 13, T i = G i⌝ ∗ ((oCh13 L).view.loc (V d (cV L) (jV L)) ↦[(oCh13 L).view.set]{fullShare} T)) ⊢ (oLoc d ↦[chunkSet L 13]{fullShare} G : sProp 𝕄) := by
  iintro ⟨%h, H⟩
  iapply (Entails.of_eq ((och_pts13 (F := F) d L T).trans (pointsTo_congr h)))
  iexact H
theorem chunk_G14 (T G : Buf (Elt F) (oLoc d)) :
    iprop(⌜∀ i ∈ chunkSet L 14, T i = G i⌝ ∗ ((oCh14 L).view.loc (V d (cV L) (jV L)) ↦[(oCh14 L).view.set]{fullShare} T)) ⊢ (oLoc d ↦[chunkSet L 14]{fullShare} G : sProp 𝕄) := by
  iintro ⟨%h, H⟩
  iapply (Entails.of_eq ((och_pts14 (F := F) d L T).trans (pointsTo_congr h)))
  iexact H
theorem chunk_G15 (T G : Buf (Elt F) (oLoc d)) :
    iprop(⌜∀ i ∈ chunkSet L 15, T i = G i⌝ ∗ ((oCh15 L).view.loc (V d (cV L) (jV L)) ↦[(oCh15 L).view.set]{fullShare} T)) ⊢ (oLoc d ↦[chunkSet L 15]{fullShare} G : sProp 𝕄) := by
  iintro ⟨%h, H⟩
  iapply (Entails.of_eq ((och_pts15 (F := F) d L T).trans (pointsTo_congr h)))
  iexact H
theorem sub_G (k : Fin 16) (h : Fin 8) (T G : Buf (Elt F) (oLoc d)) :
    iprop(⌜∀ i ∈ subSet L k h, T i = G i⌝ ∗ ((oSub L k h).view.loc (V d (cV L) (jV L)) ↦[(oSub L k h).view.set]{fullShare} T)) ⊢ (oLoc d ↦[subSet L k h]{fullShare} G : sProp 𝕄) := by
  iintro ⟨%hh, H⟩
  iapply (Entails.of_eq ((osub_pts (F := F) d L k h T).trans (pointsTo_congr hh)))
  iexact H

theorem waits_base {W : Waits sig (HIx 1)} : ∀ p ∈ W, p ∈ W ∨ p.2 = none := fun _ hp => .inl hp
theorem waits_ins {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 0 in
theorem tile_case [∀ e, Nonempty (Elt F e)] (O : CellTallies nD τ sig (HIx 1)) (W : Waits sig (HIx 1)) (hO : ∀ g, O g none = 0)
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄)
    (hcase : (fs (ValueIdx.ix1 (wL L))).toNat = 4 * (L 0).val + 3) :
    iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R) := by
  simp only [cc0__body_eq_skeleton]; unfold cc0__body_skel
  iintro ⟨#Hlv, Ha0, Ha1, Ha2, Ha3, Ha4, Ha5, Ha6, Ha7, Ha8, Ha9, Ha10, Ha11, Ha12, Ha13, Ha14, Ha15, Hs, Ho0, Ho1, Ho2, Ho3, Ho4, Ho5, Ho6, Ho7, Ho8, Ho9, Ho10, Ho11, Ho12, Ho13, Ho14, Ho15, H0, H1, Hsh0, Hsh1, Hsh2, Hg0, Hg1, Hg2, Hs0, Hs1, Hs2, Hz, Hsc, HO, HR⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs' := (Entails.of_eq (pts_s (F := F) d L _ _).symm) $$ Hs
  ihave H0' := (Entails.of_eq (pts_b0 (F := F) d L _).symm) $$ H0
  ihave H1' := (Entails.of_eq (pts_b1 (F := F) d L _).symm) $$ H1
  ihave Ha0' := (Entails.of_eq (ach_pts0 (F := F) d L _ _).symm) $$ Ha0
  ihave Ha1' := (Entails.of_eq (ach_pts1 (F := F) d L _ _).symm) $$ Ha1
  ihave Ha2' := (Entails.of_eq (ach_pts2 (F := F) d L _ _).symm) $$ Ha2
  ihave Ha3' := (Entails.of_eq (ach_pts3 (F := F) d L _ _).symm) $$ Ha3
  ihave Ha4' := (Entails.of_eq (ach_pts4 (F := F) d L _ _).symm) $$ Ha4
  ihave Ha5' := (Entails.of_eq (ach_pts5 (F := F) d L _ _).symm) $$ Ha5
  ihave Ha6' := (Entails.of_eq (ach_pts6 (F := F) d L _ _).symm) $$ Ha6
  ihave Ha7' := (Entails.of_eq (ach_pts7 (F := F) d L _ _).symm) $$ Ha7
  ihave Ha8' := (Entails.of_eq (ach_pts8 (F := F) d L _ _).symm) $$ Ha8
  ihave Ha9' := (Entails.of_eq (ach_pts9 (F := F) d L _ _).symm) $$ Ha9
  ihave Ha10' := (Entails.of_eq (ach_pts10 (F := F) d L _ _).symm) $$ Ha10
  ihave Ha11' := (Entails.of_eq (ach_pts11 (F := F) d L _ _).symm) $$ Ha11
  ihave Ha12' := (Entails.of_eq (ach_pts12 (F := F) d L _ _).symm) $$ Ha12
  ihave Ha13' := (Entails.of_eq (ach_pts13 (F := F) d L _ _).symm) $$ Ha13
  ihave Ha14' := (Entails.of_eq (ach_pts14 (F := F) d L _ _).symm) $$ Ha14
  ihave Ha15' := (Entails.of_eq (ach_pts15 (F := F) d L _ _).symm) $$ Ha15
  ihave Ho0' := (Entails.of_eq (och_pts0 (F := F) d L _).symm) $$ Ho0
  ihave Ho1' := (Entails.of_eq (och_pts1 (F := F) d L _).symm) $$ Ho1
  ihave Ho2' := (Entails.of_eq (och_pts2 (F := F) d L _).symm) $$ Ho2
  ihave Ho3' := (Entails.of_eq (och_pts3 (F := F) d L _).symm) $$ Ho3
  ihave Ho4' := (Entails.of_eq (och_pts4 (F := F) d L _).symm) $$ Ho4
  ihave Ho5' := (Entails.of_eq (och_pts5 (F := F) d L _).symm) $$ Ho5
  ihave Ho6' := (Entails.of_eq (och_pts6 (F := F) d L _).symm) $$ Ho6
  ihave Ho7' := (Entails.of_eq (och_pts7 (F := F) d L _).symm) $$ Ho7
  ihave Ho8' := (Entails.of_eq (och_pts8 (F := F) d L _).symm) $$ Ho8
  ihave Ho9' := (Entails.of_eq (och_pts9 (F := F) d L _).symm) $$ Ho9
  ihave Ho10' := (Entails.of_eq (och_pts10 (F := F) d L _).symm) $$ Ho10
  ihave Ho11' := (Entails.of_eq (och_pts11 (F := F) d L _).symm) $$ Ho11
  ihave Ho12s := (Entails.of_eq ((o_subSets (F := F) d L 12 fo).trans (bigSep_univ_eight _))) $$ Ho12
  icases Ho12s with ⟨Ho12_0, Ho12_1, Ho12_2, Ho12_3, Ho12_4, Ho12_5, Ho12_6, Ho12_7⟩
  ihave Ho12_0' := (Entails.of_eq (osub_pts (F := F) d L 12 0 _).symm) $$ Ho12_0
  ihave Ho12_1' := (Entails.of_eq (osub_pts (F := F) d L 12 1 _).symm) $$ Ho12_1
  ihave Ho12_2' := (Entails.of_eq (osub_pts (F := F) d L 12 2 _).symm) $$ Ho12_2
  ihave Ho12_3' := (Entails.of_eq (osub_pts (F := F) d L 12 3 _).symm) $$ Ho12_3
  ihave Ho12_4' := (Entails.of_eq (osub_pts (F := F) d L 12 4 _).symm) $$ Ho12_4
  ihave Ho12_5' := (Entails.of_eq (osub_pts (F := F) d L 12 5 _).symm) $$ Ho12_5
  ihave Ho12_6' := (Entails.of_eq (osub_pts (F := F) d L 12 6 _).symm) $$ Ho12_6
  ihave Ho12_7' := (Entails.of_eq (osub_pts (F := F) d L 12 7 _).symm) $$ Ho12_7
  ihave Ho13s := (Entails.of_eq ((o_subSets (F := F) d L 13 fo).trans (bigSep_univ_eight _))) $$ Ho13
  icases Ho13s with ⟨Ho13_0, Ho13_1, Ho13_2, Ho13_3, Ho13_4, Ho13_5, Ho13_6, Ho13_7⟩
  ihave Ho13_0' := (Entails.of_eq (osub_pts (F := F) d L 13 0 _).symm) $$ Ho13_0
  ihave Ho13_1' := (Entails.of_eq (osub_pts (F := F) d L 13 1 _).symm) $$ Ho13_1
  ihave Ho13_2' := (Entails.of_eq (osub_pts (F := F) d L 13 2 _).symm) $$ Ho13_2
  ihave Ho13_3' := (Entails.of_eq (osub_pts (F := F) d L 13 3 _).symm) $$ Ho13_3
  ihave Ho13_4' := (Entails.of_eq (osub_pts (F := F) d L 13 4 _).symm) $$ Ho13_4
  ihave Ho13_5' := (Entails.of_eq (osub_pts (F := F) d L 13 5 _).symm) $$ Ho13_5
  ihave Ho13_6' := (Entails.of_eq (osub_pts (F := F) d L 13 6 _).symm) $$ Ho13_6
  ihave Ho13_7' := (Entails.of_eq (osub_pts (F := F) d L 13 7 _).symm) $$ Ho13_7
  ihave Ho14s := (Entails.of_eq ((o_subSets (F := F) d L 14 fo).trans (bigSep_univ_eight _))) $$ Ho14
  icases Ho14s with ⟨Ho14_0, Ho14_1, Ho14_2, Ho14_3, Ho14_4, Ho14_5, Ho14_6, Ho14_7⟩
  ihave Ho14_0' := (Entails.of_eq (osub_pts (F := F) d L 14 0 _).symm) $$ Ho14_0
  ihave Ho14_1' := (Entails.of_eq (osub_pts (F := F) d L 14 1 _).symm) $$ Ho14_1
  ihave Ho14_2' := (Entails.of_eq (osub_pts (F := F) d L 14 2 _).symm) $$ Ho14_2
  ihave Ho14_3' := (Entails.of_eq (osub_pts (F := F) d L 14 3 _).symm) $$ Ho14_3
  ihave Ho14_4' := (Entails.of_eq (osub_pts (F := F) d L 14 4 _).symm) $$ Ho14_4
  ihave Ho14_5' := (Entails.of_eq (osub_pts (F := F) d L 14 5 _).symm) $$ Ho14_5
  ihave Ho14_6' := (Entails.of_eq (osub_pts (F := F) d L 14 6 _).symm) $$ Ho14_6
  ihave Ho14_7' := (Entails.of_eq (osub_pts (F := F) d L 14 7 _).symm) $$ Ho14_7
  ihave Ho15s := (Entails.of_eq ((o_subSets (F := F) d L 15 fo).trans (bigSep_univ_eight _))) $$ Ho15
  icases Ho15s with ⟨Ho15_0, Ho15_1, Ho15_2, Ho15_3, Ho15_4, Ho15_5, Ho15_6, Ho15_7⟩
  ihave Ho15_0' := (Entails.of_eq (osub_pts (F := F) d L 15 0 _).symm) $$ Ho15_0
  ihave Ho15_1' := (Entails.of_eq (osub_pts (F := F) d L 15 1 _).symm) $$ Ho15_1
  ihave Ho15_2' := (Entails.of_eq (osub_pts (F := F) d L 15 2 _).symm) $$ Ho15_2
  ihave Ho15_3' := (Entails.of_eq (osub_pts (F := F) d L 15 3 _).symm) $$ Ho15_3
  ihave Ho15_4' := (Entails.of_eq (osub_pts (F := F) d L 15 4 _).symm) $$ Ho15_4
  ihave Ho15_5' := (Entails.of_eq (osub_pts (F := F) d L 15 5 _).symm) $$ Ho15_5
  ihave Ho15_6' := (Entails.of_eq (osub_pts (F := F) d L 15 6 _).symm) $$ Ho15_6
  ihave Ho15_7' := (Entails.of_eq (osub_pts (F := F) d L 15 7 _).symm) $$ Ho15_7
  ihave Hsh0' := (Entails.of_eq (shb_pts0 (F := F) d L _).symm) $$ Hsh0
  ihave Hsh1' := (Entails.of_eq (shb_pts1 (F := F) d L _).symm) $$ Hsh1
  ihave Hsh2' := (Entails.of_eq (shb_pts2 (F := F) d L _).symm) $$ Hsh2
  have _plan : Transfers.BatchOf (V d (cV L) (jV L)) (SemLoc.dma (sig := sig) cc0_scratch9.sem) 32 (windows := true) := trivial
  sl_exec (disch := exact chk1_all (by decide +kernel) L)
  rw [SparseCore.vectorLoadIdx_bind (c := (V d (cV L) (jV L)))]
  sl_exec (disch := exact chk2_all (by decide +kernel) L)
  rw [SparseCore.vectorLoadIdx_bind (c := (V d (cV L) (jV L)))]
  sl_exec (disch := exact chk3_all (by decide +kernel) L)
  rw [SparseCore.vectorLoadIdx_bind (c := (V d (cV L) (jV L)))]
  sl_exec (disch := exact chk4_all (by decide +kernel) L)
  rw [SparseCore.vectorLoadIdx_bind (c := (V d (cV L) (jV L)))]
  sl_exec (disch := exact chk5_all (by decide +kernel) L)
  rw [SparseCore.vectorLoadIdx_bind (c := (V d (cV L) (jV L)))]
  sl_exec (disch := exact chk6_all (by decide +kernel) L)
  rw [SparseCore.vectorLoadIdx_bind (c := (V d (cV L) (jV L)))]
  sl_exec (disch := exact chk7_all (by decide +kernel) L)
  rw [SparseCore.vectorLoadIdx_bind (c := (V d (cV L) (jV L)))]
  sl_exec (disch := exact chk8_all (by decide +kernel) L)
  have hb0 : ∀ L' : grid0.Coords, tile_case.sl.v29 L' = BitVec.ofNat 32 (L' 1).val := by decide +kernel
  have hidx0 : ∀ L' : grid0.Coords, ∀ x, tile_case.sl.v67 L' x = BitVec.ofNat 32 (L' 1).val := fun L' _ => hb0 L'
  have hsw0 : ∀ L' : grid0.Coords, tile_case.sl.v56 L' = BitVec.ofNat 32 (4 * (L' 0).val + 0) := by decide +kernel
  have h71 : tile_case.sl.v71 d L fs f0 = 0#1 := by
    unfold tile_case.sl.v71 tile_case.sl.v70 tile_case.sl.v69
    exact flag_lit_zero d L fs f0 _ _ _ _ _ 0 (by decide) (hidx0 L) (hsw0 L) (by rw [hcase]; omega)
  have hb1 : ∀ L' : grid0.Coords, tile_case.sl.v90 L' = BitVec.ofNat 32 (L' 1).val := by decide +kernel
  have hidx1 : ∀ L' : grid0.Coords, ∀ x, tile_case.sl.v128 L' x = BitVec.ofNat 32 (L' 1).val := fun L' _ => hb1 L'
  have hsw1 : ∀ L' : grid0.Coords, tile_case.sl.v117 L' = BitVec.ofNat 32 (4 * (L' 0).val + 0) := by decide +kernel
  have h132 : tile_case.sl.v132 d L fs f0 = 0#1 := by
    unfold tile_case.sl.v132 tile_case.sl.v131 tile_case.sl.v130
    exact flag_lit_zero d L fs f0 _ _ _ _ _ 0 (by decide) (hidx1 L) (hsw1 L) (by rw [hcase]; omega)
  have hb2 : ∀ L' : grid0.Coords, tile_case.sl.v151 L' = BitVec.ofNat 32 (L' 1).val := by decide +kernel
  have hidx2 : ∀ L' : grid0.Coords, ∀ x, tile_case.sl.v189 L' x = BitVec.ofNat 32 (L' 1).val := fun L' _ => hb2 L'
  have hsw2 : ∀ L' : grid0.Coords, tile_case.sl.v178 L' = BitVec.ofNat 32 (4 * (L' 0).val + 1) := by decide +kernel
  have h193 : tile_case.sl.v193 d L fs f0 = 0#1 := by
    unfold tile_case.sl.v193 tile_case.sl.v192 tile_case.sl.v191
    exact flag_lit_zero d L fs f0 _ _ _ _ _ 1 (by decide) (hidx2 L) (hsw2 L) (by rw [hcase]; omega)
  have hb3 : ∀ L' : grid0.Coords, tile_case.sl.v212 L' = BitVec.ofNat 32 (L' 1).val := by decide +kernel
  have hidx3 : ∀ L' : grid0.Coords, ∀ x, tile_case.sl.v250 L' x = BitVec.ofNat 32 (L' 1).val := fun L' _ => hb3 L'
  have hsw3 : ∀ L' : grid0.Coords, tile_case.sl.v239 L' = BitVec.ofNat 32 (4 * (L' 0).val + 1) := by decide +kernel
  have h254 : tile_case.sl.v254 d L fs f0 = 0#1 := by
    unfold tile_case.sl.v254 tile_case.sl.v253 tile_case.sl.v252
    exact flag_lit_zero d L fs f0 _ _ _ _ _ 1 (by decide) (hidx3 L) (hsw3 L) (by rw [hcase]; omega)
  have hb4 : ∀ L' : grid0.Coords, tile_case.sl.v273 L' = BitVec.ofNat 32 (L' 1).val := by decide +kernel
  have hidx4 : ∀ L' : grid0.Coords, ∀ x, tile_case.sl.v311 L' x = BitVec.ofNat 32 (L' 1).val := fun L' _ => hb4 L'
  have hsw4 : ∀ L' : grid0.Coords, tile_case.sl.v300 L' = BitVec.ofNat 32 (4 * (L' 0).val + 2) := by decide +kernel
  have h315 : tile_case.sl.v315 d L fs f0 = 0#1 := by
    unfold tile_case.sl.v315 tile_case.sl.v314 tile_case.sl.v313
    exact flag_lit_zero d L fs f0 _ _ _ _ _ 2 (by decide) (hidx4 L) (hsw4 L) (by rw [hcase]; omega)
  have hb5 : ∀ L' : grid0.Coords, tile_case.sl.v334 L' = BitVec.ofNat 32 (L' 1).val := by decide +kernel
  have hidx5 : ∀ L' : grid0.Coords, ∀ x, tile_case.sl.v372 L' x = BitVec.ofNat 32 (L' 1).val := fun L' _ => hb5 L'
  have hsw5 : ∀ L' : grid0.Coords, tile_case.sl.v361 L' = BitVec.ofNat 32 (4 * (L' 0).val + 2) := by decide +kernel
  have h376 : tile_case.sl.v376 d L fs f0 = 0#1 := by
    unfold tile_case.sl.v376 tile_case.sl.v375 tile_case.sl.v374
    exact flag_lit_zero d L fs f0 _ _ _ _ _ 2 (by decide) (hidx5 L) (hsw5 L) (by rw [hcase]; omega)
  have hb6 : ∀ L' : grid0.Coords, tile_case.sl.v395 L' = BitVec.ofNat 32 (L' 1).val := by decide +kernel
  have hidx6 : ∀ L' : grid0.Coords, ∀ x, tile_case.sl.v433 L' x = BitVec.ofNat 32 (L' 1).val := fun L' _ => hb6 L'
  have hsw6 : ∀ L' : grid0.Coords, tile_case.sl.v422 L' = BitVec.ofNat 32 (4 * (L' 0).val + 3) := by decide +kernel
  have h437 : tile_case.sl.v437 d L fs f0 = 1#1 := by
    unfold tile_case.sl.v437 tile_case.sl.v436 tile_case.sl.v435
    exact flag_lit_one d L fs f0 _ _ _ _ _ 3 (by decide) (hidx6 L) (hsw6 L) hcase
  rw [h71, h132, h193, h254, h315, h376, h437]
  clear h71 h132 h193 h254 h315 h376 h437 hidx0 hsw0 hb0 hidx1 hsw1 hb1 hidx2 hsw2 hb2 hidx3 hsw3 hb3 hidx4 hsw4 hb4 hidx5 hsw5 hb5 hidx6 hsw6 hb6 hO
  rw [SparseCore.vectorLoadIdx_bind (c := (V d (cV L) (jV L)))]
  sl_exec (disch := decide)
  have hb7 : ∀ L' : grid0.Coords, tile_case.sl.v456 L' = BitVec.ofNat 32 (L' 1).val := by decide +kernel
  have hidx7 : ∀ L' : grid0.Coords, ∀ x, tile_case.sl.v494 L' x = BitVec.ofNat 32 (L' 1).val := fun L' _ => hb7 L'
  have hsw7 : ∀ L' : grid0.Coords, tile_case.sl.v483 L' = BitVec.ofNat 32 (4 * (L' 0).val + 3) := by decide +kernel
  have h498 : tile_case.sl.v498 d L fs f0 = 1#1 := by
    unfold tile_case.sl.v498 tile_case.sl.v497 k0_pay8
    exact flag_lit_one d L fs f0 _ _ _ _ _ 3 (by decide) (hidx7 L) (hsw7 L) hcase
  rw [h498]
  clear h498 hidx7 hsw7 hb7
  sl_for (fun (k : Nat) (_ : PUnit) => (iprop(∃ f, ⌜ZeroUpTo (256 * k) f⌝ ∗ (b1W).view.loc (V d (cV L) (jV L)) ↦{fullShare} f) : sProp 𝕄)) $$ [H1']
  case region =>
    intro k _
    iintro ⟨%f, %hf, H1⟩
    sl_exec
    sl_step
    iexists _; isplitr
    · ipureintro; exact zero_step d L k f hf
    · iexact H1
  · iexists f1; isplitr
    · ipureintro; intro j hj; exact absurd hj (by omega)
    · iexact H1'
  iintro %_ HI
  icases HI with ⟨%fz, %hfz, H1⟩
  have hz := zero_all fz hfz
  clear hfz
  sl_exec (disch := decide)
  sl_step
  isplitl [Ha0']; · iapply (Entails.of_eq (ach_pts0 (F := F) d L _ _)); iexact Ha0'
  isplitl [Ha1']; · iapply (Entails.of_eq (ach_pts1 (F := F) d L _ _)); iexact Ha1'
  isplitl [Ha2']; · iapply (Entails.of_eq (ach_pts2 (F := F) d L _ _)); iexact Ha2'
  isplitl [Ha3']; · iapply (Entails.of_eq (ach_pts3 (F := F) d L _ _)); iexact Ha3'
  isplitl [Ha4']; · iapply (Entails.of_eq (ach_pts4 (F := F) d L _ _)); iexact Ha4'
  isplitl [Ha5']; · iapply (Entails.of_eq (ach_pts5 (F := F) d L _ _)); iexact Ha5'
  isplitl [Ha6']; · iapply (Entails.of_eq (ach_pts6 (F := F) d L _ _)); iexact Ha6'
  isplitl [Ha7']; · iapply (Entails.of_eq (ach_pts7 (F := F) d L _ _)); iexact Ha7'
  isplitl [Ha8']; · iapply (Entails.of_eq (ach_pts8 (F := F) d L _ _)); iexact Ha8'
  isplitl [Ha9']; · iapply (Entails.of_eq (ach_pts9 (F := F) d L _ _)); iexact Ha9'
  isplitl [Ha10']; · iapply (Entails.of_eq (ach_pts10 (F := F) d L _ _)); iexact Ha10'
  isplitl [Ha11']; · iapply (Entails.of_eq (ach_pts11 (F := F) d L _ _)); iexact Ha11'
  isplitl [Ha12']; · iapply (Entails.of_eq (ach_pts12 (F := F) d L _ _)); iexact Ha12'
  isplitl [Ha13']; · iapply (Entails.of_eq (ach_pts13 (F := F) d L _ _)); iexact Ha13'
  isplitl [Ha14']; · iapply (Entails.of_eq (ach_pts14 (F := F) d L _ _)); iexact Ha14'
  isplitl [Ha15']; · iapply (Entails.of_eq (ach_pts15 (F := F) d L _ _)); iexact Ha15'
  isplitl [Hs']; · iapply (Entails.of_eq (pts_s (F := F) d L _ _)); iexact Hs'
  isplitl [Ho0']
  · iapply (chunk_G0 (F := F) d L _ _)
    isplitr
    rotate_left
    · iexact Ho0'
    · ipureintro; unfold_run_names_kb4; exact copied_is_G L 0 (shB0 L) fo fa _ _ fs (show (fs (ValueIdx.ix1 (wL L))).toNat ≠ 4 * (L 0).val + 0 from by rw [hcase]; omega)
  isplitl [Ho1']
  · iapply (chunk_G1 (F := F) d L _ _)
    isplitr
    rotate_left
    · iexact Ho1'
    · ipureintro; unfold_run_names_kb4; exact copied_is_G L 1 (shB1 L) fo fa _ _ fs (show (fs (ValueIdx.ix1 (wL L))).toNat ≠ 4 * (L 0).val + 0 from by rw [hcase]; omega)
  isplitl [Ho2']
  · iapply (chunk_G2 (F := F) d L _ _)
    isplitr
    rotate_left
    · iexact Ho2'
    · ipureintro; unfold_run_names_kb4; exact copied_is_G L 2 (shB2 L) fo fa _ _ fs (show (fs (ValueIdx.ix1 (wL L))).toNat ≠ 4 * (L 0).val + 0 from by rw [hcase]; omega)
  isplitl [Ho3']
  · iapply (chunk_G3 (F := F) d L _ _)
    isplitr
    rotate_left
    · iexact Ho3'
    · ipureintro; unfold_run_names_kb4; exact copied_is_G L 3 (shB0 L) fo fa _ _ fs (show (fs (ValueIdx.ix1 (wL L))).toNat ≠ 4 * (L 0).val + 0 from by rw [hcase]; omega)
  isplitl [Ho4']
  · iapply (chunk_G4 (F := F) d L _ _)
    isplitr
    rotate_left
    · iexact Ho4'
    · ipureintro; unfold_run_names_kb4; exact copied_is_G L 4 (shB1 L) fo fa _ _ fs (show (fs (ValueIdx.ix1 (wL L))).toNat ≠ 4 * (L 0).val + 1 from by rw [hcase]; omega)
  isplitl [Ho5']
  · iapply (chunk_G5 (F := F) d L _ _)
    isplitr
    rotate_left
    · iexact Ho5'
    · ipureintro; unfold_run_names_kb4; exact copied_is_G L 5 (shB2 L) fo fa _ _ fs (show (fs (ValueIdx.ix1 (wL L))).toNat ≠ 4 * (L 0).val + 1 from by rw [hcase]; omega)
  isplitl [Ho6']
  · iapply (chunk_G6 (F := F) d L _ _)
    isplitr
    rotate_left
    · iexact Ho6'
    · ipureintro; unfold_run_names_kb4; exact copied_is_G L 6 (shB0 L) fo fa _ _ fs (show (fs (ValueIdx.ix1 (wL L))).toNat ≠ 4 * (L 0).val + 1 from by rw [hcase]; omega)
  isplitl [Ho7']
  · iapply (chunk_G7 (F := F) d L _ _)
    isplitr
    rotate_left
    · iexact Ho7'
    · ipureintro; unfold_run_names_kb4; exact copied_is_G L 7 (shB1 L) fo fa _ _ fs (show (fs (ValueIdx.ix1 (wL L))).toNat ≠ 4 * (L 0).val + 1 from by rw [hcase]; omega)
  isplitl [Ho8']
  · iapply (chunk_G8 (F := F) d L _ _)
    isplitr
    rotate_left
    · iexact Ho8'
    · ipureintro; unfold_run_names_kb4; exact copied_is_G L 8 (shB2 L) fo fa _ _ fs (show (fs (ValueIdx.ix1 (wL L))).toNat ≠ 4 * (L 0).val + 2 from by rw [hcase]; omega)
  isplitl [Ho9']
  · iapply (chunk_G9 (F := F) d L _ _)
    isplitr
    rotate_left
    · iexact Ho9'
    · ipureintro; unfold_run_names_kb4; exact copied_is_G L 9 (shB0 L) fo fa _ _ fs (show (fs (ValueIdx.ix1 (wL L))).toNat ≠ 4 * (L 0).val + 2 from by rw [hcase]; omega)
  isplitl [Ho10']
  · iapply (chunk_G10 (F := F) d L _ _)
    isplitr
    rotate_left
    · iexact Ho10'
    · ipureintro; unfold_run_names_kb4; exact copied_is_G L 10 (shB1 L) fo fa _ _ fs (show (fs (ValueIdx.ix1 (wL L))).toNat ≠ 4 * (L 0).val + 2 from by rw [hcase]; omega)
  isplitl [Ho11']
  · iapply (chunk_G11 (F := F) d L _ _)
    isplitr
    rotate_left
    · iexact Ho11'
    · ipureintro; unfold_run_names_kb4; exact copied_is_G L 11 (shB2 L) fo fa _ _ fs (show (fs (ValueIdx.ix1 (wL L))).toNat ≠ 4 * (L 0).val + 2 from by rw [hcase]; omega)
  isplitl [Ho12_0' Ho12_1' Ho12_2' Ho12_3' Ho12_4' Ho12_5' Ho12_6' Ho12_7']
  · iapply (Entails.of_eq ((o_subSets (F := F) d L 12 (Cert.Spec.G (F := F) fa fs : Buf (Elt F) (oLoc d))).trans (bigSep_univ_eight _)).symm)
    isplitl [Ho12_0']
    · iapply (sub_G (F := F) d L 12 0 _ _)
      isplitr
      rotate_left
      · iexact Ho12_0'
      · ipureintro; unfold_run_names_kb4; exact zero_is_G L 12 0 _ fz fa fs (show (fs (ValueIdx.ix1 (wL L))).toNat = 4 * (L 0).val + 3 from hcase) hz
    isplitl [Ho12_1']
    · iapply (sub_G (F := F) d L 12 1 _ _)
      isplitr
      rotate_left
      · iexact Ho12_1'
      · ipureintro; unfold_run_names_kb4; exact zero_is_G L 12 1 _ fz fa fs (show (fs (ValueIdx.ix1 (wL L))).toNat = 4 * (L 0).val + 3 from hcase) hz
    isplitl [Ho12_2']
    · iapply (sub_G (F := F) d L 12 2 _ _)
      isplitr
      rotate_left
      · iexact Ho12_2'
      · ipureintro; unfold_run_names_kb4; exact zero_is_G L 12 2 _ fz fa fs (show (fs (ValueIdx.ix1 (wL L))).toNat = 4 * (L 0).val + 3 from hcase) hz
    isplitl [Ho12_3']
    · iapply (sub_G (F := F) d L 12 3 _ _)
      isplitr
      rotate_left
      · iexact Ho12_3'
      · ipureintro; unfold_run_names_kb4; exact zero_is_G L 12 3 _ fz fa fs (show (fs (ValueIdx.ix1 (wL L))).toNat = 4 * (L 0).val + 3 from hcase) hz
    isplitl [Ho12_4']
    · iapply (sub_G (F := F) d L 12 4 _ _)
      isplitr
      rotate_left
      · iexact Ho12_4'
      · ipureintro; unfold_run_names_kb4; exact zero_is_G L 12 4 _ fz fa fs (show (fs (ValueIdx.ix1 (wL L))).toNat = 4 * (L 0).val + 3 from hcase) hz
    isplitl [Ho12_5']
    · iapply (sub_G (F := F) d L 12 5 _ _)
      isplitr
      rotate_left
      · iexact Ho12_5'
      · ipureintro; unfold_run_names_kb4; exact zero_is_G L 12 5 _ fz fa fs (show (fs (ValueIdx.ix1 (wL L))).toNat = 4 * (L 0).val + 3 from hcase) hz
    isplitl [Ho12_6']
    · iapply (sub_G (F := F) d L 12 6 _ _)
      isplitr
      rotate_left
      · iexact Ho12_6'
      · ipureintro; unfold_run_names_kb4; exact zero_is_G L 12 6 _ fz fa fs (show (fs (ValueIdx.ix1 (wL L))).toNat = 4 * (L 0).val + 3 from hcase) hz
    · iapply (sub_G (F := F) d L 12 7 _ _)
      isplitr
      rotate_left
      · iexact Ho12_7'
      · ipureintro; unfold_run_names_kb4; exact zero_is_G L 12 7 _ fz fa fs (show (fs (ValueIdx.ix1 (wL L))).toNat = 4 * (L 0).val + 3 from hcase) hz
  isplitl [Ho13_0' Ho13_1' Ho13_2' Ho13_3' Ho13_4' Ho13_5' Ho13_6' Ho13_7']
  · iapply (Entails.of_eq ((o_subSets (F := F) d L 13 (Cert.Spec.G (F := F) fa fs : Buf (Elt F) (oLoc d))).trans (bigSep_univ_eight _)).symm)
    isplitl [Ho13_0']
    · iapply (sub_G (F := F) d L 13 0 _ _)
      isplitr
      rotate_left
      · iexact Ho13_0'
      · ipureintro; unfold_run_names_kb4; exact zero_is_G L 13 0 _ fz fa fs (show (fs (ValueIdx.ix1 (wL L))).toNat = 4 * (L 0).val + 3 from hcase) hz
    isplitl [Ho13_1']
    · iapply (sub_G (F := F) d L 13 1 _ _)
      isplitr
      rotate_left
      · iexact Ho13_1'
      · ipureintro; unfold_run_names_kb4; exact zero_is_G L 13 1 _ fz fa fs (show (fs (ValueIdx.ix1 (wL L))).toNat = 4 * (L 0).val + 3 from hcase) hz
    isplitl [Ho13_2']
    · iapply (sub_G (F := F) d L 13 2 _ _)
      isplitr
      rotate_left
      · iexact Ho13_2'
      · ipureintro; unfold_run_names_kb4; exact zero_is_G L 13 2 _ fz fa fs (show (fs (ValueIdx.ix1 (wL L))).toNat = 4 * (L 0).val + 3 from hcase) hz
    isplitl [Ho13_3']
    · iapply (sub_G (F := F) d L 13 3 _ _)
      isplitr
      rotate_left
      · iexact Ho13_3'
      · ipureintro; unfold_run_names_kb4; exact zero_is_G L 13 3 _ fz fa fs (show (fs (ValueIdx.ix1 (wL L))).toNat = 4 * (L 0).val + 3 from hcase) hz
    isplitl [Ho13_4']
    · iapply (sub_G (F := F) d L 13 4 _ _)
      isplitr
      rotate_left
      · iexact Ho13_4'
      · ipureintro; unfold_run_names_kb4; exact zero_is_G L 13 4 _ fz fa fs (show (fs (ValueIdx.ix1 (wL L))).toNat = 4 * (L 0).val + 3 from hcase) hz
    isplitl [Ho13_5']
    · iapply (sub_G (F := F) d L 13 5 _ _)
      isplitr
      rotate_left
      · iexact Ho13_5'
      · ipureintro; unfold_run_names_kb4; exact zero_is_G L 13 5 _ fz fa fs (show (fs (ValueIdx.ix1 (wL L))).toNat = 4 * (L 0).val + 3 from hcase) hz
    isplitl [Ho13_6']
    · iapply (sub_G (F := F) d L 13 6 _ _)
      isplitr
      rotate_left
      · iexact Ho13_6'
      · ipureintro; unfold_run_names_kb4; exact zero_is_G L 13 6 _ fz fa fs (show (fs (ValueIdx.ix1 (wL L))).toNat = 4 * (L 0).val + 3 from hcase) hz
    · iapply (sub_G (F := F) d L 13 7 _ _)
      isplitr
      rotate_left
      · iexact Ho13_7'
      · ipureintro; unfold_run_names_kb4; exact zero_is_G L 13 7 _ fz fa fs (show (fs (ValueIdx.ix1 (wL L))).toNat = 4 * (L 0).val + 3 from hcase) hz
  isplitl [Ho14_0' Ho14_1' Ho14_2' Ho14_3' Ho14_4' Ho14_5' Ho14_6' Ho14_7']
  · iapply (Entails.of_eq ((o_subSets (F := F) d L 14 (Cert.Spec.G (F := F) fa fs : Buf (Elt F) (oLoc d))).trans (bigSep_univ_eight _)).symm)
    isplitl [Ho14_0']
    · iapply (sub_G (F := F) d L 14 0 _ _)
      isplitr
      rotate_left
      · iexact Ho14_0'
      · ipureintro; unfold_run_names_kb4; exact zero_is_G L 14 0 _ fz fa fs (show (fs (ValueIdx.ix1 (wL L))).toNat = 4 * (L 0).val + 3 from hcase) hz
    isplitl [Ho14_1']
    · iapply (sub_G (F := F) d L 14 1 _ _)
      isplitr
      rotate_left
      · iexact Ho14_1'
      · ipureintro; unfold_run_names_kb4; exact zero_is_G L 14 1 _ fz fa fs (show (fs (ValueIdx.ix1 (wL L))).toNat = 4 * (L 0).val + 3 from hcase) hz
    isplitl [Ho14_2']
    · iapply (sub_G (F := F) d L 14 2 _ _)
      isplitr
      rotate_left
      · iexact Ho14_2'
      · ipureintro; unfold_run_names_kb4; exact zero_is_G L 14 2 _ fz fa fs (show (fs (ValueIdx.ix1 (wL L))).toNat = 4 * (L 0).val + 3 from hcase) hz
    isplitl [Ho14_3']
    · iapply (sub_G (F := F) d L 14 3 _ _)
      isplitr
      rotate_left
      · iexact Ho14_3'
      · ipureintro; unfold_run_names_kb4; exact zero_is_G L 14 3 _ fz fa fs (show (fs (ValueIdx.ix1 (wL L))).toNat = 4 * (L 0).val + 3 from hcase) hz
    isplitl [Ho14_4']
    · iapply (sub_G (F := F) d L 14 4 _ _)
      isplitr
      rotate_left
      · iexact Ho14_4'
      · ipureintro; unfold_run_names_kb4; exact zero_is_G L 14 4 _ fz fa fs (show (fs (ValueIdx.ix1 (wL L))).toNat = 4 * (L 0).val + 3 from hcase) hz
    isplitl [Ho14_5']
    · iapply (sub_G (F := F) d L 14 5 _ _)
      isplitr
      rotate_left
      · iexact Ho14_5'
      · ipureintro; unfold_run_names_kb4; exact zero_is_G L 14 5 _ fz fa fs (show (fs (ValueIdx.ix1 (wL L))).toNat = 4 * (L 0).val + 3 from hcase) hz
    isplitl [Ho14_6']
    · iapply (sub_G (F := F) d L 14 6 _ _)
      isplitr
      rotate_left
      · iexact Ho14_6'
      · ipureintro; unfold_run_names_kb4; exact zero_is_G L 14 6 _ fz fa fs (show (fs (ValueIdx.ix1 (wL L))).toNat = 4 * (L 0).val + 3 from hcase) hz
    · iapply (sub_G (F := F) d L 14 7 _ _)
      isplitr
      rotate_left
      · iexact Ho14_7'
      · ipureintro; unfold_run_names_kb4; exact zero_is_G L 14 7 _ fz fa fs (show (fs (ValueIdx.ix1 (wL L))).toNat = 4 * (L 0).val + 3 from hcase) hz
  isplitl [Ho15_0' Ho15_1' Ho15_2' Ho15_3' Ho15_4' Ho15_5' Ho15_6' Ho15_7']
  · iapply (Entails.of_eq ((o_subSets (F := F) d L 15 (Cert.Spec.G (F := F) fa fs : Buf (Elt F) (oLoc d))).trans (bigSep_univ_eight _)).symm)
    isplitl [Ho15_0']
    · iapply (sub_G (F := F) d L 15 0 _ _)
      isplitr
      rotate_left
      · iexact Ho15_0'
      · ipureintro; unfold_run_names_kb4; exact zero_is_G L 15 0 _ fz fa fs (show (fs (ValueIdx.ix1 (wL L))).toNat = 4 * (L 0).val + 3 from hcase) hz
    isplitl [Ho15_1']
    · iapply (sub_G (F := F) d L 15 1 _ _)
      isplitr
      rotate_left
      · iexact Ho15_1'
      · ipureintro; unfold_run_names_kb4; exact zero_is_G L 15 1 _ fz fa fs (show (fs (ValueIdx.ix1 (wL L))).toNat = 4 * (L 0).val + 3 from hcase) hz
    isplitl [Ho15_2']
    · iapply (sub_G (F := F) d L 15 2 _ _)
      isplitr
      rotate_left
      · iexact Ho15_2'
      · ipureintro; unfold_run_names_kb4; exact zero_is_G L 15 2 _ fz fa fs (show (fs (ValueIdx.ix1 (wL L))).toNat = 4 * (L 0).val + 3 from hcase) hz
    isplitl [Ho15_3']
    · iapply (sub_G (F := F) d L 15 3 _ _)
      isplitr
      rotate_left
      · iexact Ho15_3'
      · ipureintro; unfold_run_names_kb4; exact zero_is_G L 15 3 _ fz fa fs (show (fs (ValueIdx.ix1 (wL L))).toNat = 4 * (L 0).val + 3 from hcase) hz
    isplitl [Ho15_4']
    · iapply (sub_G (F := F) d L 15 4 _ _)
      isplitr
      rotate_left
      · iexact Ho15_4'
      · ipureintro; unfold_run_names_kb4; exact zero_is_G L 15 4 _ fz fa fs (show (fs (ValueIdx.ix1 (wL L))).toNat = 4 * (L 0).val + 3 from hcase) hz
    isplitl [Ho15_5']
    · iapply (sub_G (F := F) d L 15 5 _ _)
      isplitr
      rotate_left
      · iexact Ho15_5'
      · ipureintro; unfold_run_names_kb4; exact zero_is_G L 15 5 _ fz fa fs (show (fs (ValueIdx.ix1 (wL L))).toNat = 4 * (L 0).val + 3 from hcase) hz
    isplitl [Ho15_6']
    · iapply (sub_G (F := F) d L 15 6 _ _)
      isplitr
      rotate_left
      · iexact Ho15_6'
      · ipureintro; unfold_run_names_kb4; exact zero_is_G L 15 6 _ fz fa fs (show (fs (ValueIdx.ix1 (wL L))).toNat = 4 * (L 0).val + 3 from hcase) hz
    · iapply (sub_G (F := F) d L 15 7 _ _)
      isplitr
      rotate_left
      · iexact Ho15_7'
      · ipureintro; unfold_run_names_kb4; exact zero_is_G L 15 7 _ fz fa fs (show (fs (ValueIdx.ix1 (wL L))).toNat = 4 * (L 0).val + 3 from hcase) hz
  isplitl [H0']; · iexists _; iapply (Entails.of_eq (pts_b0 (F := F) d L _)); iexact H0'
  isplitl [H1]; · iexists _; iapply (Entails.of_eq (pts_b1 (F := F) d L _)); iexact H1
  isplitl [Hsh0']; · iexists _; iapply (Entails.of_eq (shb_pts0 (F := F) d L _)); iexact Hsh0'
  isplitl [Hsh1']; · iexists _; iapply (Entails.of_eq (shb_pts1 (F := F) d L _)); iexact Hsh1'
  isplitl [Hsh2']; · iexists _; iapply (Entails.of_eq (shb_pts2 (F := F) d L _)); iexact Hsh2'
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hz]; · iexact Hz
  isplitl [Hsc]; · iexact Hsc
  isplitl [HO]
  · iexists _; isplitr
    rotate_left
    · iexact HO
    · ipureintro
      intro p hp
      by_cases hpn : p.2 = none
      · exact .inr hpn
      · refine .inl ?_
        simp only [Finset.mem_insert] at hp
        repeat (rcases hp with rfl | hp; · exact absurd rfl hpn)
        exact hp
  iexact HR

end C4

end Cert.Proof.KB

end
-- ==== Proof.KBOwn.lean ====
/-
  What a tile owns, opened: a vector subcore's own semaphores and buffers, by name.

  A vector subcore's scoped semaphore cells are exactly its eight DMA semaphores (none of the four regular semaphores is
  scoped; every DMA semaphore of a SparseCore processor is), so "all its own semaphores at zero" is the eight cells at zero,
  one by one. Its own buffers are exactly its two vector-memory scratch buffers (the device's arrays and the SparseCore's
  shared scratch belong to others; its kind has no scalar-memory buffer), so "all its own buffers at some contents" is those
  two, each at some contents.
-/
import proofs.«218968_g36790689857971_cont_8to1_b_1381_24_alg».proof.Proof.KBSetup

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

/-! ## The tile's semaphores -/

theorem reg_not_scoped : ∀ s : Sem sig, (SemLoc.reg s : SemLoc sig).isScoped .scVector = false := by decide
theorem dma_scoped : ∀ k : DmaSem sig, (SemLoc.dma k : SemLoc sig).isScoped .scVector = true := by decide

/-- A vector subcore's scoped semaphore cells are its eight DMA semaphores: none of the four regular semaphores is scoped,
    every DMA semaphore of a SparseCore processor is. -/
theorem ownCells_tile :
    (ownCells (V d c i) : Finset (GSem nD τ sig))
      = (Finset.univ : Finset (DmaSem sig)).map ⟨fun k => ((V d c i, SemLoc.dma k) : GSem nD τ sig), fun a b e => by
          have := congrArg Prod.snd e; simpa using this⟩ := by
  ext g
  obtain ⟨thr, sl⟩ := g
  rw [mem_ownCells, Finset.mem_map]
  constructor
  · rintro ⟨rfl, hs⟩
    cases sl with
    | reg s => exact absurd (show (SemLoc.reg s : SemLoc sig).isScoped .scVector = true from hs) (by rw [reg_not_scoped s]; decide)
    | dma k => exact ⟨k, Finset.mem_univ _, rfl⟩
  · rintro ⟨k, -, e⟩
    obtain ⟨rfl, rfl⟩ := Prod.mk.inj e
    exact ⟨rfl, dma_scoped k⟩

theorem ownSems0_tile :
    (ownSems0 (V d c i) : sProp 𝕄)
      = iprop(semVal (V d c i, SemLoc.dma cc0_scratch3.sem) 0
          ∗ semVal (V d c i, SemLoc.dma cc0_scratch4.sem) 0
          ∗ semVal (V d c i, SemLoc.dma cc0_scratch5.sem) 0
          ∗ semVal (V d c i, SemLoc.dma cc0_scratch6.sem) 0
          ∗ semVal (V d c i, SemLoc.dma cc0_scratch7.sem) 0
          ∗ semVal (V d c i, SemLoc.dma cc0_scratch8.sem) 0
          ∗ semVal (V d c i, SemLoc.dma cc0_scratch9.sem) 0
          ∗ semVal (V d c i, SemLoc.dma cc0_scoped0.sem) 0
          ∗ emp) := by
  unfold SparseCore.Cfg.ownSems0
  rw [ownCells_tile, BI.bigSep_map]
  rw [show (Finset.univ : Finset (DmaSem sig)) = {0, 1, 2, 3, 4, 5, 6, 7} from by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide)]
  rfl

/-! ## The tile's buffers -/

/-- A vector subcore's own buffers are its two vector-memory scratch buffers: the device's arrays and its SparseCore's
    shared scratch belong to others, and its kind has no buffer in scalar memory. -/
theorem ownRefs_tile :
    (ownRefs (τ := τ) (sig := sig) (Proc.scVector c i))
      = {(Proc.scVector c i).devRef cc0_scratch0, (Proc.scVector c i).devRef cc0_scratch1} := by
  ext b
  rw [mem_ownRefs, SparseCore.Cfg.home_eq_scVector, Finset.mem_insert, Finset.mem_singleton]
  constructor
  · intro hb
    obtain ⟨tb, ix, hd⟩ := b
    cases tb with
    | hbm =>
      exfalso
      match ix, hd, hb with
      | ⟨0, _⟩, hd, hb => cases hb
      | ⟨1, _⟩, hd, hb => cases hb
      | ⟨2, _⟩, hd, hb => cases hb
    | host => cases hb
    | shared => cases hb
    | «local» κ cs =>
      have hp : κ.proc hd = Proc.scVector c i := Owner.proc.inj hb
      cases κ with
      | tc => cases hp
      | scScalar => cases hp
      | scVector =>
        obtain ⟨c', i'⟩ := hd
        obtain ⟨rfl, rfl⟩ : c' = c ∧ i' = i := by
          have := hp; simp only [Kind.proc, Proc.scVector.injEq] at this; exact this
        cases cs with
        | smem => exact ix.elim0
        | vmem =>
          match ix with
          | ⟨0, _⟩ => exact Or.inl rfl
          | ⟨1, _⟩ => exact Or.inr rfl
  · rintro (rfl | rfl) <;> rfl

theorem ownBufs_tile :
    (ownBufs (V d c i) : sProp 𝕄)
      = iprop((∃ f, (V d c i).loc cc0_scratch0 ↦{fullShare} f) ∗ (∃ f, (V d c i).loc cc0_scratch1 ↦{fullShare} f) ∗ emp) := by
  unfold SparseCore.Cfg.ownBufs
  rw [show (V d c i : Thread nD τ).2 = Proc.scVector c i from rfl, ownRefs_tile]
  rw [SparseCore.bigSep_insert' (by
    rw [Finset.mem_singleton]
    exact fun e => absurd (Proc.devRef_injective _ e) (show (cc0_scratch0 : Ref sig .scVector) ≠ cc0_scratch1 by decide))]
  rfl

/-! ## The same without the trailing `emp` -/

theorem ownSems0_tile' :
    (ownSems0 (V d c i) : sProp 𝕄)
      = iprop(semVal (V d c i, SemLoc.dma cc0_scratch3.sem) 0
          ∗ semVal (V d c i, SemLoc.dma cc0_scratch4.sem) 0
          ∗ semVal (V d c i, SemLoc.dma cc0_scratch5.sem) 0
          ∗ semVal (V d c i, SemLoc.dma cc0_scratch6.sem) 0
          ∗ semVal (V d c i, SemLoc.dma cc0_scratch7.sem) 0
          ∗ semVal (V d c i, SemLoc.dma cc0_scratch8.sem) 0
          ∗ semVal (V d c i, SemLoc.dma cc0_scratch9.sem) 0
          ∗ semVal (V d c i, SemLoc.dma cc0_scoped0.sem) 0) := by
  rw [ownSems0_tile, show (iprop(semVal (V d c i, SemLoc.dma cc0_scoped0.sem) 0 ∗ emp) : sProp 𝕄)
    = semVal (V d c i, SemLoc.dma cc0_scoped0.sem) 0 from equiv_iff.mp sep_emp]

theorem ownBufs_tile' :
    (ownBufs (V d c i) : sProp 𝕄)
      = iprop((∃ f, (V d c i).loc cc0_scratch0 ↦{fullShare} f) ∗ (∃ f, (V d c i).loc cc0_scratch1 ↦{fullShare} f)) := by
  rw [ownBufs_tile, show (iprop((∃ f, (V d c i).loc cc0_scratch1 ↦{fullShare} f) ∗ emp) : sProp 𝕄)
    = iprop(∃ f, (V d c i).loc cc0_scratch1 ↦{fullShare} f) from equiv_iff.mp sep_emp]

end Cert.Proof.KB

end
-- ==== Proof.KBBody.lean ====
/-
  The tile obligation, assembled. The tile's body is proved case by case on the stream number of the tile's recording — it
  names none of the tile's four streams, or the first, second, third or fourth of them — each case from one common
  precondition to one common postcondition. Here the launch's hand-over to a tile is opened into that precondition, the
  postcondition is closed into what the launch asks back, the cases are put together, and the result is stated as the launch
  theorem's obligation.
-/
import proofs.«218968_g36790689857971_cont_8to1_b_1381_24_alg».proof.Proof.KBCase0
import proofs.«218968_g36790689857971_cont_8to1_b_1381_24_alg».proof.Proof.KBCase1
import proofs.«218968_g36790689857971_cont_8to1_b_1381_24_alg».proof.Proof.KBCase2
import proofs.«218968_g36790689857971_cont_8to1_b_1381_24_alg».proof.Proof.KBCase3
import proofs.«218968_g36790689857971_cont_8to1_b_1381_24_alg».proof.Proof.KBCase4
import proofs.«218968_g36790689857971_cont_8to1_b_1381_24_alg».proof.Proof.KBOwn
import proofs.«218968_g36790689857971_cont_8to1_b_1381_24_alg».proof.Proof.KBLaunch

noncomputable section

namespace Cert.Proof.KB

open Cert.Kernel Cert.Kernel.Gen Cert.Proof.KB.Off

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.Kernel.main_arg0_scv : Memref Cert.Kernel.sig Kind.scVector Space.hbm Cert.Kernel.S16x8x2x65536 EltTy.f32)
local notation "sW" => (Memref.whole Cert.Kernel.main_arg1_scv : Memref Cert.Kernel.sig Kind.scVector Space.hbm Cert.Kernel.S16 EltTy.i32)
local notation "oW" => (Memref.whole Cert.Kernel.main_v0_scv : Memref Cert.Kernel.sig Kind.scVector Space.hbm Cert.Kernel.S16x8x2x65536 EltTy.f32)
local notation "b0W" => (Memref.whole Cert.Kernel.cc0_scratch0 : Memref Cert.Kernel.sig Kind.scVector Space.vmem Cert.Kernel.S16 EltTy.i32)
local notation "b1W" => (Memref.whole Cert.Kernel.cc0_scratch1 : Memref Cert.Kernel.sig Kind.scVector Space.vmem Cert.Kernel.S4096 EltTy.f32)
local notation "shW" => (Memref.whole Cert.Kernel.cc0_scratch2 : Memref Cert.Kernel.sig Kind.scVector Space.shared Cert.Kernel.S1572864 EltTy.f32)

variable (m : (ℓ : Loc nD τ sig) → Buf (Elt F) ℓ)
variable [FloatOps F]

/-! ## The cases' common precondition and postcondition, named once -/

/-- What every case of the tile's body starts from: the level facts; the sixteen chunk pieces of the recordings at a read
    share; the stream numbers at a read share; the sixteen chunk pieces of the result; the tile's two scratch buffers; its
    three staging pieces; its eight DMA counters at zero; what it owes; a frame. -/
abbrev casePre (d : Dev nD) (L : grid0.Coords) (O : CellTallies nD τ sig (HIx 1)) (W : Waits sig (HIx 1))
    (qa qs : PosShare TreeShare) (fa : Buf (Elt F) (aLoc d)) (fs : Buf (Elt F) (sLoc d)) (fo : Buf (Elt F) (oLoc d))
    (f0 : Buf (Elt F) ((V d (cV L) (jV L)).loc cc0_scratch0)) (f1 : Buf (Elt F) ((V d (cV L) (jV L)).loc cc0_scratch1))
    (fsh0 fsh1 fsh2 : Buf (Elt F) (shLoc d (cV L))) (R : sProp 𝕄) : sProp 𝕄 :=
  iprop(levAts (K (F := F)).L (K (F := F)).lev
        ∗ (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} fo)
        ∗ (oLoc d ↦[chunkSet L 1]{fullShare} fo)
        ∗ (oLoc d ↦[chunkSet L 2]{fullShare} fo)
        ∗ (oLoc d ↦[chunkSet L 3]{fullShare} fo)
        ∗ (oLoc d ↦[chunkSet L 4]{fullShare} fo)
        ∗ (oLoc d ↦[chunkSet L 5]{fullShare} fo)
        ∗ (oLoc d ↦[chunkSet L 6]{fullShare} fo)
        ∗ (oLoc d ↦[chunkSet L 7]{fullShare} fo)
        ∗ (oLoc d ↦[chunkSet L 8]{fullShare} fo)
        ∗ (oLoc d ↦[chunkSet L 9]{fullShare} fo)
        ∗ (oLoc d ↦[chunkSet L 10]{fullShare} fo)
        ∗ (oLoc d ↦[chunkSet L 11]{fullShare} fo)
        ∗ (oLoc d ↦[chunkSet L 12]{fullShare} fo)
        ∗ (oLoc d ↦[chunkSet L 13]{fullShare} fo)
        ∗ (oLoc d ↦[chunkSet L 14]{fullShare} fo)
        ∗ (oLoc d ↦[chunkSet L 15]{fullShare} fo)
        ∗ ((V d (cV L) (jV L)).loc cc0_scratch0 ↦{fullShare} f0) ∗ ((V d (cV L) (jV L)).loc cc0_scratch1 ↦{fullShare} f1)
        ∗ (shLoc d (cV L) ↦[shPiece L 0]{fullShare} fsh0) ∗ (shLoc d (cV L) ↦[shPiece L 1]{fullShare} fsh1) ∗ (shLoc d (cV L) ↦[shPiece L 2]{fullShare} fsh2)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ owes (V d (cV L) (jV L)) O W ∗ R)

/-- What every case ends with: the same, the result's pieces at the specified function, scratch and staging at some contents. -/
abbrev casePost (d : Dev nD) (L : grid0.Coords) (O : CellTallies nD τ sig (HIx 1)) (W : Waits sig (HIx 1))
    (qa qs : PosShare TreeShare) (fa : Buf (Elt F) (aLoc d)) (fs : Buf (Elt F) (sLoc d)) (R : sProp 𝕄) : sProp 𝕄 :=
  iprop(
          (aLoc d ↦[chunkSet L 0]{qa} fa)
        ∗ (aLoc d ↦[chunkSet L 1]{qa} fa)
        ∗ (aLoc d ↦[chunkSet L 2]{qa} fa)
        ∗ (aLoc d ↦[chunkSet L 3]{qa} fa)
        ∗ (aLoc d ↦[chunkSet L 4]{qa} fa)
        ∗ (aLoc d ↦[chunkSet L 5]{qa} fa)
        ∗ (aLoc d ↦[chunkSet L 6]{qa} fa)
        ∗ (aLoc d ↦[chunkSet L 7]{qa} fa)
        ∗ (aLoc d ↦[chunkSet L 8]{qa} fa)
        ∗ (aLoc d ↦[chunkSet L 9]{qa} fa)
        ∗ (aLoc d ↦[chunkSet L 10]{qa} fa)
        ∗ (aLoc d ↦[chunkSet L 11]{qa} fa)
        ∗ (aLoc d ↦[chunkSet L 12]{qa} fa)
        ∗ (aLoc d ↦[chunkSet L 13]{qa} fa)
        ∗ (aLoc d ↦[chunkSet L 14]{qa} fa)
        ∗ (aLoc d ↦[chunkSet L 15]{qa} fa)
        ∗ (sLoc d ↦{qs} fs)
        ∗ (oLoc d ↦[chunkSet L 0]{fullShare} (Cert.Spec.G (F := F) fa fs : Buf (Elt F) (oLoc d)))
        ∗ (oLoc d ↦[chunkSet L 1]{fullShare} (Cert.Spec.G (F := F) fa fs : Buf (Elt F) (oLoc d)))
        ∗ (oLoc d ↦[chunkSet L 2]{fullShare} (Cert.Spec.G (F := F) fa fs : Buf (Elt F) (oLoc d)))
        ∗ (oLoc d ↦[chunkSet L 3]{fullShare} (Cert.Spec.G (F := F) fa fs : Buf (Elt F) (oLoc d)))
        ∗ (oLoc d ↦[chunkSet L 4]{fullShare} (Cert.Spec.G (F := F) fa fs : Buf (Elt F) (oLoc d)))
        ∗ (oLoc d ↦[chunkSet L 5]{fullShare} (Cert.Spec.G (F := F) fa fs : Buf (Elt F) (oLoc d)))
        ∗ (oLoc d ↦[chunkSet L 6]{fullShare} (Cert.Spec.G (F := F) fa fs : Buf (Elt F) (oLoc d)))
        ∗ (oLoc d ↦[chunkSet L 7]{fullShare} (Cert.Spec.G (F := F) fa fs : Buf (Elt F) (oLoc d)))
        ∗ (oLoc d ↦[chunkSet L 8]{fullShare} (Cert.Spec.G (F := F) fa fs : Buf (Elt F) (oLoc d)))
        ∗ (oLoc d ↦[chunkSet L 9]{fullShare} (Cert.Spec.G (F := F) fa fs : Buf (Elt F) (oLoc d)))
        ∗ (oLoc d ↦[chunkSet L 10]{fullShare} (Cert.Spec.G (F := F) fa fs : Buf (Elt F) (oLoc d)))
        ∗ (oLoc d ↦[chunkSet L 11]{fullShare} (Cert.Spec.G (F := F) fa fs : Buf (Elt F) (oLoc d)))
        ∗ (oLoc d ↦[chunkSet L 12]{fullShare} (Cert.Spec.G (F := F) fa fs : Buf (Elt F) (oLoc d)))
        ∗ (oLoc d ↦[chunkSet L 13]{fullShare} (Cert.Spec.G (F := F) fa fs : Buf (Elt F) (oLoc d)))
        ∗ (oLoc d ↦[chunkSet L 14]{fullShare} (Cert.Spec.G (F := F) fa fs : Buf (Elt F) (oLoc d)))
        ∗ (oLoc d ↦[chunkSet L 15]{fullShare} (Cert.Spec.G (F := F) fa fs : Buf (Elt F) (oLoc d)))
        ∗ (∃ f, (V d (cV L) (jV L)).loc cc0_scratch0 ↦{fullShare} f) ∗ (∃ f, (V d (cV L) (jV L)).loc cc0_scratch1 ↦{fullShare} f)
        ∗ (∃ f, shLoc d (cV L) ↦[shPiece L 0]{fullShare} f) ∗ (∃ f, shLoc d (cV L) ↦[shPiece L 1]{fullShare} f) ∗ (∃ f, shLoc d (cV L) ↦[shPiece L 2]{fullShare} f)
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ semVal ((V d (cV L) (jV L)), SemLoc.dma cc0_scratch9.sem) 0
        ∗ semVal ((V d (cV L) (jV L)), SemLoc.dma cc0_scoped0.sem) 0
        ∗ (∃ W', ⌜∀ p ∈ W', p ∈ W ∨ p.2 = none⌝ ∗ owes (V d (cV L) (jV L)) O W') ∗ R)

/-- What of the recordings the tile holds but never lends: everything outside its sixteen chunks, at its read share. -/
abbrev restA (d : Dev nD) (L : grid0.Coords) : sProp 𝕄 :=
  aLoc d ↦[Finset.univ \ tileSet (cL L) (wL L)]{qTile (cL L) (wL L)} m (aLoc d)

/-- The tile's SparseCore, as the payload names it and as the thread names it. -/
theorem coreOf_cL (L : grid0.Coords) : coreOf (cL L) = cV L := Fin.ext rfl

/-! ## The three splits, written out piece by piece -/

theorem a_open (d : Dev nD) (L : grid0.Coords) (q : PosShare TreeShare) (f : Buf (Elt F) (aLoc d)) :
    (aLoc d ↦{q} f : sProp 𝕄)
      = iprop(((aLoc d ↦[chunkSet L 0]{q} f) ∗ (aLoc d ↦[chunkSet L 1]{q} f) ∗ (aLoc d ↦[chunkSet L 2]{q} f) ∗ (aLoc d ↦[chunkSet L 3]{q} f) ∗ (aLoc d ↦[chunkSet L 4]{q} f) ∗ (aLoc d ↦[chunkSet L 5]{q} f) ∗ (aLoc d ↦[chunkSet L 6]{q} f) ∗ (aLoc d ↦[chunkSet L 7]{q} f) ∗ (aLoc d ↦[chunkSet L 8]{q} f) ∗ (aLoc d ↦[chunkSet L 9]{q} f) ∗ (aLoc d ↦[chunkSet L 10]{q} f) ∗ (aLoc d ↦[chunkSet L 11]{q} f) ∗ (aLoc d ↦[chunkSet L 12]{q} f) ∗ (aLoc d ↦[chunkSet L 13]{q} f) ∗ (aLoc d ↦[chunkSet L 14]{q} f) ∗ (aLoc d ↦[chunkSet L 15]{q} f)) ∗ aLoc d ↦[Finset.univ \ tileSet (cL L) (wL L)]{q} f) := by
  rw [a_chunks d L q f, bigSep_univ_sixteen]

theorem o_open (d : Dev nD) (L : grid0.Coords) (f : Buf (Elt F) (oLoc d)) :
    (oLoc d ↦[tileSet (cL L) (wL L)]{fullShare} f : sProp 𝕄)
      = iprop((oLoc d ↦[chunkSet L 0]{fullShare} f) ∗ (oLoc d ↦[chunkSet L 1]{fullShare} f) ∗ (oLoc d ↦[chunkSet L 2]{fullShare} f) ∗ (oLoc d ↦[chunkSet L 3]{fullShare} f) ∗ (oLoc d ↦[chunkSet L 4]{fullShare} f) ∗ (oLoc d ↦[chunkSet L 5]{fullShare} f) ∗ (oLoc d ↦[chunkSet L 6]{fullShare} f) ∗ (oLoc d ↦[chunkSet L 7]{fullShare} f) ∗ (oLoc d ↦[chunkSet L 8]{fullShare} f) ∗ (oLoc d ↦[chunkSet L 9]{fullShare} f) ∗ (oLoc d ↦[chunkSet L 10]{fullShare} f) ∗ (oLoc d ↦[chunkSet L 11]{fullShare} f) ∗ (oLoc d ↦[chunkSet L 12]{fullShare} f) ∗ (oLoc d ↦[chunkSet L 13]{fullShare} f) ∗ (oLoc d ↦[chunkSet L 14]{fullShare} f) ∗ (oLoc d ↦[chunkSet L 15]{fullShare} f)) := by
  rw [o_chunkSets d L f, bigSep_univ_sixteen]

theorem sh_open (d : Dev nD) (L : grid0.Coords) (f : Buf (Elt F) (shLoc d (cV L))) :
    (shLoc d (cV L) ↦[shSet (wL L)]{fullShare} f : sProp 𝕄)
      = iprop((shLoc d (cV L) ↦[shPiece L 0]{fullShare} f) ∗ (shLoc d (cV L) ↦[shPiece L 1]{fullShare} f) ∗ shLoc d (cV L) ↦[shPiece L 2]{fullShare} f) := by
  rw [← shPiece_cover L, pointsTo_biUnion Finset.univ (ℓ := shLoc d (cV L)) (shPiece L) (shPiece_disjoint L), bigSep_univ_three]

/-- The three staging pieces, each at contents of its own, are the tile's slice of the shared scratch at some contents. -/
theorem shPiece_join (d : Dev nD) (L : grid0.Coords) :
    (iprop((∃ f, shLoc d (cV L) ↦[shPiece L 0]{fullShare} f) ∗ (∃ f, shLoc d (cV L) ↦[shPiece L 1]{fullShare} f)
        ∗ (∃ f, shLoc d (cV L) ↦[shPiece L 2]{fullShare} f)) : sProp 𝕄)
      ⊢ iprop(∃ f, shLoc d (cV L) ↦[shSet (wL L)]{fullShare} f) := by
  refine (Entails.of_eq (bigSep_univ_three (fun i : Fin 3 =>
    (iprop(∃ f : Buf (Elt F) (shLoc d (cV L)), shLoc d (cV L) ↦[shPiece L i]{fullShare} f) : sProp 𝕄))).symm).trans ?_
  refine (bigSep_exists_pi Finset.univ (fun i (f : Buf (Elt F) (shLoc d (cV L))) =>
    (shLoc d (cV L) ↦[shPiece L i]{fullShare} f : sProp 𝕄))).trans ?_
  iintro ⟨%fs, H⟩
  ihave H' := (pointsTo_biUnion_join Finset.univ (shPiece L) fs (fs 0) (shPiece_disjoint L)) $$ H
  icases H' with ⟨%g, -, Hg⟩
  rw [shPiece_cover]
  iexists g; iexact Hg

/-! ## From the obligation's precondition to the cases', and back -/

/-- What the launch hands a tile, opened: its own semaphores and buffers by name, the recordings into the sixteen chunks and
    the rest, the result into the sixteen chunks, the shared scratch's slice into the three staging pieces. -/
theorem body_open (hF : (K (F := F)).Facts) (d : Dev nD) (L : grid0.Coords) (O : CellTallies nD τ sig (HIx 1)) (W : Waits sig (HIx 1)) :
    iprop(levAts (K (F := F)).L (K (F := F)).lev ∗ emp ∗ tileRes m d (cL L) (m (oLoc d)) (wL L) ∗ scopedBufs (V d (cV L) (jV L))
        ∗ scopedSems0 (V d (cV L) (jV L)) ∗ owes (V d (cV L) (jV L)) O W)
      ⊢ (iprop(∃ f0 f1 fsh, casePre d L O W (qTile (cL L) (wL L)) (qTile (cL L) (wL L)) (m (aLoc d)) (m (sLoc d)) (m (oLoc d))
          f0 f1 fsh fsh fsh (restA m d L)) : sProp 𝕄) := by
  rw [(K (F := F)).scopedBufs_V hF, SparseCore.Cfg.scopedSems0_V, ownSems0_tile', ownBufs_tile']
  unfold tileRes casePre restA
  rw [coreOf_cL]
  iintro ⟨Hlev, -, ⟨Ha, Hs, Ho, ⟨%fsh, Hsh⟩⟩, ⟨⟨%f0, H0⟩, ⟨%f1, H1⟩⟩, ⟨S3, S4, S5, S6, S7, S8, S9, SS⟩, Howes⟩
  ihave Ha' := (Entails.of_eq (a_open d L (qTile (cL L) (wL L)) (m (aLoc d)))) $$ Ha
  icases Ha' with ⟨⟨A0, A1, A2, A3, A4, A5, A6, A7, A8, A9, A10, A11, A12, A13, A14, A15⟩, HR⟩
  ihave Ho' := (Entails.of_eq (o_open d L (m (oLoc d)))) $$ Ho
  icases Ho' with ⟨O0, O1, O2, O3, O4, O5, O6, O7, O8, O9, O10, O11, O12, O13, O14, O15⟩
  ihave Hsh' := (Entails.of_eq (sh_open d L fsh)) $$ Hsh
  icases Hsh' with ⟨Sh0, Sh1, Sh2⟩
  iexists f0, f1, fsh
  iframe

/-- The cases' common postcondition, at the launch contents of the two arguments and the rest of the recordings as the frame,
    is what the obligation asks back: the chunks and the rest are the recordings whole, the sixteen chunk pieces at the
    specified function are the tile's part of the result at it, the staging pieces are the scratch's slice at some contents,
    the two scratch buffers and the eight counters are the tile's own. -/
theorem body_close (hF : (K (F := F)).Facts) (d : Dev nD) (L : grid0.Coords) (O : CellTallies nD τ sig (HIx 1)) (W : Waits sig (HIx 1)) :
    casePost d L O W (qTile (cL L) (wL L)) (qTile (cL L) (wL L)) (m (aLoc d)) (m (sLoc d)) (restA m d L)
      ⊢ (iprop(tileRes m d (cL L) (Gout m d) (wL L) ∗ scopedBufs (V d (cV L) (jV L)) ∗ scopedSems0 (V d (cV L) (jV L))
          ∗ ∃ W', ⌜∀ p ∈ W', p ∈ W ∨ p.2 = none⌝ ∗ owes (V d (cV L) (jV L)) O W') : sProp 𝕄) := by
  rw [(K (F := F)).scopedBufs_V hF, SparseCore.Cfg.scopedSems0_V, ownSems0_tile', ownBufs_tile']
  unfold tileRes casePost restA Gout
  rw [coreOf_cL]
  iintro ⟨A0, A1, A2, A3, A4, A5, A6, A7, A8, A9, A10, A11, A12, A13, A14, A15, Hs, G0, G1, G2, G3, G4, G5, G6, G7, G8, G9, G10, G11, G12, G13, G14, G15, H0, H1, Sh0, Sh1, Sh2, S3, S4, S5, S6, S7, S8, S9, SS, Howes, HR⟩
  isplitl [A0 A1 A2 A3 A4 A5 A6 A7 A8 A9 A10 A11 A12 A13 A14 A15 HR Hs G0 G1 G2 G3 G4 G5 G6 G7 G8 G9 G10 G11 G12 G13 G14 G15 Sh0 Sh1 Sh2]
  · isplitl [A0 A1 A2 A3 A4 A5 A6 A7 A8 A9 A10 A11 A12 A13 A14 A15 HR]
    · iapply (Entails.of_eq (a_open d L (qTile (cL L) (wL L)) (m (aLoc d))).symm)
      iframe
    isplitl [Hs]; · iexact Hs
    isplitl [G0 G1 G2 G3 G4 G5 G6 G7 G8 G9 G10 G11 G12 G13 G14 G15]
    · iapply (Entails.of_eq (o_open d L (Cert.Spec.G (F := F) (m (aLoc d)) (m (sLoc d)))).symm)
      iframe
    iapply (shPiece_join d L)
    iframe
  iframe

/-! ## The tile's body -/

/-- The tile's body, from what the launch hands the tile to what it asks back. The stream number of the tile's recording is
    at most 7, so either it names one of the tile's four streams — which one is its remainder by 4 — or none of them. -/
theorem tile_body [∀ e, Nonempty (Elt F e)] (hF : (K (F := F)).Facts)
    (hsrc : ∀ (d : Dev nD) (j : Cert.Kernel.S16.Idx), (m (sLoc d) j).toNat ≤ 7) (d : Dev nD) (L : grid0.Coords)
    (O : CellTallies nD τ sig (HIx 1)) (W : Waits sig (HIx 1)) (hO : ∀ g, O g none = 0) :
    iprop(levAts (K (F := F)).L (K (F := F)).lev ∗ emp ∗ tileRes m d (cL L) (m (oLoc d)) (wL L) ∗ scopedBufs (V d (cV L) (jV L))
        ∗ scopedSems0 (V d (cV L) (jV L)) ∗ owes (V d (cV L) (jV L)) O W)
      ⊢ wp frame (wpE (defs₀ (F := F)) 𝒱₀ (V d (cV L) (jV L)) none) Set.univ
          (cc0__body L aW (Memref.isWhole_whole _) sW (Memref.isWhole_whole _) oW (Memref.isWhole_whole _)
            b0W (Memref.isWhole_whole _) b1W (Memref.isWhole_whole _) shW (Memref.isWhole_whole _)
            cc0_scratch3 cc0_scratch4 cc0_scratch5 cc0_scratch6 cc0_scratch7 cc0_scratch8 cc0_scratch9 cc0_scoped0)
        fun _ => iprop(tileRes m d (cL L) (Gout m d) (wL L) ∗ scopedBufs (V d (cV L) (jV L)) ∗ scopedSems0 (V d (cV L) (jV L))
          ∗ ∃ W', ⌜∀ p ∈ W', p ∈ W ∨ p.2 = none⌝ ∗ owes (V d (cV L) (jV L)) O W') := by
  refine (body_open m hF d L O W).trans ?_
  have hv : (m (sLoc d) (ValueIdx.ix1 (wL L))).toNat ≤ 7 := hsrc d _
  have h0 : (L 0).val < 2 := (L 0).isLt
  iintro ⟨%f0, %f1, %fsh, H⟩
  by_cases h4 : (m (sLoc d) (ValueIdx.ix1 (wL L))).toNat / 4 = (L 0).val
  · rcases (show (m (sLoc d) (ValueIdx.ix1 (wL L))).toNat % 4 = 0 ∨ (m (sLoc d) (ValueIdx.ix1 (wL L))).toNat % 4 = 1
        ∨ (m (sLoc d) (ValueIdx.ix1 (wL L))).toNat % 4 = 2 ∨ (m (sLoc d) (ValueIdx.ix1 (wL L))).toNat % 4 = 3 from by omega) with h | h | h | h
    · iapply ((C1.tile_case d L O W hO (qTile (cL L) (wL L)) (qTile (cL L) (wL L)) (m (aLoc d)) (m (sLoc d)) (m (oLoc d)) f0 f1 fsh fsh fsh
        (restA m d L) (by omega)).trans (wp_mono frame _ _ fun _ => body_close m hF d L O W))
      iexact H
    · iapply ((C2.tile_case d L O W hO (qTile (cL L) (wL L)) (qTile (cL L) (wL L)) (m (aLoc d)) (m (sLoc d)) (m (oLoc d)) f0 f1 fsh fsh fsh
        (restA m d L) (by omega)).trans (wp_mono frame _ _ fun _ => body_close m hF d L O W))
      iexact H
    · iapply ((C3.tile_case d L O W hO (qTile (cL L) (wL L)) (qTile (cL L) (wL L)) (m (aLoc d)) (m (sLoc d)) (m (oLoc d)) f0 f1 fsh fsh fsh
        (restA m d L) (by omega)).trans (wp_mono frame _ _ fun _ => body_close m hF d L O W))
      iexact H
    · iapply ((C4.tile_case d L O W hO (qTile (cL L) (wL L)) (qTile (cL L) (wL L)) (m (aLoc d)) (m (sLoc d)) (m (oLoc d)) f0 f1 fsh fsh fsh
        (restA m d L) (by omega)).trans (wp_mono frame _ _ fun _ => body_close m hF d L O W))
      iexact H
  · iapply ((C0.tile_case d L O W hO (qTile (cL L) (wL L)) (qTile (cL L) (wL L)) (m (aLoc d)) (m (sLoc d)) (m (oLoc d)) f0 f1 fsh fsh fsh
      (restA m d L) (fun j hj => by omega)).trans (wp_mono frame _ _ fun _ => body_close m hF d L O W))
    iexact H

/-! ## The launch theorem's obligation -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s) aW (Memref.isWhole_whole _) sW (Memref.isWhole_whole _)
          oW (Memref.isWhole_whole _) b0W (Memref.isWhole_whole _) b1W (Memref.isWhole_whole _) shW (Memref.isWhole_whole _)
          cc0_scratch3 cc0_scratch4 cc0_scratch5 cc0_scratch6 cc0_scratch7 cc0_scratch8 cc0_scratch9 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation of the one call: every tile's task, from its operands to its results. -/
theorem tileObl [∀ e, Nonempty (Elt F e)] (hsrc : ∀ (d : Dev nD) (j : Cert.Kernel.S16.Idx), (m (sLoc d) j).toNat ≤ 7) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m facts hsrc d (coordsV ⟨_, hc.1⟩ ⟨_, hc.2⟩) O W hO).trans (wp_mono frame _ _ fun _ => obl_post)

end Cert.Proof.KB

end
-- ==== Proof.lean ====
/-
  The proof of `Cert.Claim`: the kernel and the reference compute one function.

  That function is `Cert.Spec.G`: entry (b, s, c, t) of the result is zero when s is the stream named for recording b, and
  the input's entry otherwise. The precondition says every stream number lies between 0 and 7 (`Cert.PreDecode`).
  The kernel: each of the 32 tiles silences the named stream within its own recording and its own four streams; the launch
  theorem, applied to the proof of one tile's body, gives the whole run — the result array `Cert.Spec.G` of the arguments,
  the arguments unchanged — at the word-level instance and at the ideal one alike, and a frame is that run with the result
  dropped. The reference: its generated run ends with the result at one scatter of zeros into the input, which
  `Cert.RefValue.ref_eq_spec` reads, index by index, as `Cert.Spec.G` as well; its frame is that run with the result dropped.
  From memories agreeing on the arguments both results are therefore the same array.
-/
import proofs.«218968_g36790689857971_cont_8to1_b_1381_24_alg».proof.Defs
import proofs.«218968_g36790689857971_cont_8to1_b_1381_24_alg».proof.Proof.Gen.Kernel
import proofs.«218968_g36790689857971_cont_8to1_b_1381_24_alg».proof.Proof.Gen.Kernel.Skeleton
import proofs.«218968_g36790689857971_cont_8to1_b_1381_24_alg».proof.Proof.Gen.KernelIdeal
import proofs.«218968_g36790689857971_cont_8to1_b_1381_24_alg».proof.Proof.Gen.KernelIdeal.Skeleton
import proofs.«218968_g36790689857971_cont_8to1_b_1381_24_alg».proof.Proof.Gen.ReferenceIdeal
import proofs.«218968_g36790689857971_cont_8to1_b_1381_24_alg».proof.Proof.Gen.Pre_input_domain
import proofs.«218968_g36790689857971_cont_8to1_b_1381_24_alg».proof.Proof.Gen.ReferenceIdeal.Run
import proofs.«218968_g36790689857971_cont_8to1_b_1381_24_alg».proof.Proof.Gen.ReferenceIdeal.Read
import Idealize.ShloMosaic.Adequacy
import Idealize.ShloMosaic.Init
import proofs.«218968_g36790689857971_cont_8to1_b_1381_24_alg».proof.Proof.Spec
import proofs.«218968_g36790689857971_cont_8to1_b_1381_24_alg».proof.Proof.RefValue
import proofs.«218968_g36790689857971_cont_8to1_b_1381_24_alg».proof.Proof.PreDecode
import proofs.«218968_g36790689857971_cont_8to1_b_1381_24_alg».proof.Proof.KIPay
import proofs.«218968_g36790689857971_cont_8to1_b_1381_24_alg».proof.Proof.KILaunch
import proofs.«218968_g36790689857971_cont_8to1_b_1381_24_alg».proof.Proof.KIBody
import proofs.«218968_g36790689857971_cont_8to1_b_1381_24_alg».proof.Proof.KBPay
import proofs.«218968_g36790689857971_cont_8to1_b_1381_24_alg».proof.Proof.KBLaunch
import proofs.«218968_g36790689857971_cont_8to1_b_1381_24_alg».proof.Proof.KBBody

noncomputable section

namespace Cert.Proof

open Idealize.ShloMosaic Idealize.SL.Sem

/-! ## The kernel as printed (the word-level instance) -/

/-- The precondition gives the tile's proof its hypothesis: every stream number is at most 7. -/
theorem srcB (m : (ℓ : Loc Cert.Kernel.nD Cert.Kernel.τ Cert.Kernel.sig) → Buf (Elt Bits) ℓ)
    (hpre : Cert.Pre_Kernel m) (d : Dev Cert.Kernel.nD) (j : Cert.Kernel.S16.Idx) :
    (m (KB.sLoc d) j).toNat ≤ 7 :=
  Cert.PreDecode.src_le_of_pre (F := Bits) _ _ (hpre d) j

/-- The kernel's run: the result is `Cert.Spec.G` of the arguments, the arguments unchanged. -/
theorem runB (m : (ℓ : Loc Cert.Kernel.nD Cert.Kernel.τ Cert.Kernel.sig) → Buf (Elt Bits) ℓ)
    (ρ : Dev Cert.Kernel.nD → PrngReg) (hpre : Cert.Pre_Kernel m) :
    θ_run (Cert.Kernel.defs (F := Bits)) (Cert.Kernel.threads (F := Bits)) ⟨m, fun _ => 0, ρ⟩ (KB.QC m) :=
  KB.run_main (F := Bits) m ρ (KB.tileObl m (srcB m hpre))

theorem frame_Kernel : Cert.frame_Kernel := fun m ρ hpre =>
  (θ_run Cert.Kernel.defs _ _).mono (fun _ h c => ⟨(h c).2.1, (h c).2.2⟩) (runB m ρ hpre)

/-! ## The kernel at the ideal instance -/

/-- The precondition gives the tile's proof its hypothesis: every stream number is at most 7. -/
theorem srcI (m : (ℓ : Loc Cert.KernelIdeal.nD Cert.KernelIdeal.τ Cert.KernelIdeal.sig) → Buf (Elt Ideal) ℓ)
    (hpre : Cert.Pre_KernelIdeal m) (d : Dev Cert.KernelIdeal.nD) (j : Cert.KernelIdeal.S16.Idx) :
    (m (KI.sLoc d) j).toNat ≤ 7 :=
  Cert.PreDecode.src_le_of_pre (F := Ideal) _ _ (hpre d) j

/-- The kernel's run: the result is `Cert.Spec.G` of the arguments, the arguments unchanged. -/
theorem runI (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (KI.QC m) :=
  KI.run_main (F := Ideal) m ρ (KI.tileObl m (srcI m hpre))

theorem frame_KernelIdeal : Cert.frame_KernelIdeal := fun m ρ hpre =>
  (θ_run Cert.KernelIdeal.defs _ _).mono (fun _ h c => ⟨(h c).2.1, (h c).2.2⟩) (runI m ρ hpre)

/-! ## The reference -/

theorem frame_ReferenceIdeal : Cert.frame_ReferenceIdeal := fun m ρ _ =>
  (θ_run Cert.ReferenceIdeal.defs _ _).mono (fun _ h c => (h c).2) (Cert.ReferenceIdeal.Value.run (F := Ideal) m ρ)

/-! ## Both compute `Cert.Spec.G` -/

/-- The reference's result term, at arguments agreeing with the kernel's, is `Cert.Spec.G` of the kernel's arguments. -/
theorem ref_is_G (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Read.val_main_v15 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = KI.Gout m c := by
  rw [h0, h1]
  exact Cert.RefValue.ref_eq_spec (F := Ideal) _ _ (srcI m hpre c)

theorem algebraic : Cert.algebraic_KernelIdeal_ReferenceIdeal := fun m ρ m' ρ' hpre hagree =>
  ⟨fun c => KI.Gout m c, runI m ρ hpre,
    (θ_run Cert.ReferenceIdeal.defs _ _).mono
      (fun _ h c => ⟨(h c).1.trans (ref_is_G m m' hpre c (hagree c).1 (hagree c).2), (h c).2⟩)
      (Cert.ReferenceIdeal.Value.run (F := Ideal) m' ρ')⟩

/-! ## The claim -/

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
